-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_v63 : IVec S_ 1) (main_v65 : IVec S50000 1) (main_v67 : IVec S50000 1) : IVec S_ 1 :=
  let main_v68 : IVec S50000 1 := andi main_v65 main_v67
  let main_c_26 : IVec S_ 1 := constantI S_ 1 1#1
  let main_v69 : IVec S_ 1 := (fun x v => Host.reduce IntOp.andi x v reducesTo_S50000_S_d0 h_S_) main_v68 main_c_26
  let main_v70 : IVec S_ 1 := andi main_v63 main_v69
  main_v70

def fn_part3 {F : FTy → Type} [FloatOps F] (main_arg3 : IVec S50000 32) (main_arg16 : FVec F S128x40 .f32) (main_arg17 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg16
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg17
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_c_24 : IVec S_ 32 := constantI S_ 32 0#32
  let main_v64 : IVec S50000 32 := broadcastInDim S50000 ![] bcast_S_S50000 main_c_24
  let main_v65 : IVec S50000 1 := cmpi .sge main_arg3 main_v64
  let main_c_25 : IVec S_ 32 := constantI S_ 32 64#32
  let main_v66 : IVec S50000 32 := broadcastInDim S50000 ![] bcast_S_S50000 main_c_25
  let main_v67 : IVec S50000 1 := cmpi .slt main_arg3 main_v66
  fn_part4 (F := F) main_v63 main_v65 main_v67

def fn_part2 {F : FTy → Type} [FloatOps F] (main_arg3 : IVec S50000 32) (main_arg12 : FVec F S128x128 .f32) (main_arg13 : FVec F S128 .f32) (main_arg14 : FVec F S128x128 .f32) (main_arg15 : FVec F S128 .f32) (main_arg16 : FVec F S128x40 .f32) (main_arg17 : FVec F S40 .f32) (main_v33 : IVec S_ 1) : IVec S_ 1 :=
  let main_v34 : FVec F S128x128 .f32 := Host.absf main_arg12
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg14
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg3 main_arg16 main_arg17 main_v48 main_v49 main_v50

def fn_part1 {F : FTy → Type} [FloatOps F] (main_arg3 : IVec S50000 32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x40 .f32) (main_arg17 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg12 main_arg13 main_arg14 main_arg15 main_arg16 main_arg17 main_v33

def fn {F : FTy → Type} [FloatOps F] (main_arg0 : FVec F S50000x128 .f32) (main_arg1 : IVec S400000 32) (main_arg2 : IVec S400000 32) (main_arg3 : IVec S50000 32) (main_arg4 : FVec F S50000x128 .f32) (main_arg5 : IVec S50000 32) (main_arg6 : FVec F S50000x128 .f32) (main_arg7 : IVec S50000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x40 .f32) (main_arg17 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg6
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg9 main_arg10 main_arg11 main_arg12 main_arg13 main_arg14 main_arg15 main_arg16 main_arg17 main_v13 main_v16
-- ==== Kernel.lean ====
abbrev S50000x128 : Shape := ⟨2, ![50000, 128]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000x1 : Shape := ⟨2, ![50000, 1]⟩
abbrev S2000x1 : Shape := ⟨2, ![2000, 1]⟩
abbrev S2000x128 : Shape := ⟨2, ![2000, 128]⟩
abbrev S1x128 : Shape := ⟨2, ![1, 128]⟩
abbrev S_ : Shape := ⟨0, ![]⟩
abbrev S400000x1 : Shape := ⟨2, ![400000, 1]⟩
abbrev S400000x128 : Shape := ⟨2, ![400000, 128]⟩
abbrev S1x40 : Shape := ⟨2, ![1, 40]⟩
abbrev S64x40 : Shape := ⟨2, ![64, 40]⟩

abbrev nBuf : Space → Nat
  | .hbm => 86
  | .vmem => 75
  | .smem => 0
  | _ => 0

abbrev bufTy : (tb : Table) → Fin (tcTables nBuf tb) → BufTy
  | .hbm, ⟨0, _⟩ => ⟨S50000x128, .f32⟩
  | .hbm, ⟨1, _⟩ => ⟨S400000, .i32⟩
  | .hbm, ⟨2, _⟩ => ⟨S400000, .i32⟩
  | .hbm, ⟨3, _⟩ => ⟨S50000, .i32⟩
  | .hbm, ⟨4, _⟩ => ⟨S50000x128, .f32⟩
  | .hbm, ⟨5, _⟩ => ⟨S50000, .i32⟩
  | .hbm, ⟨6, _⟩ => ⟨S50000x128, .f32⟩
  | .hbm, ⟨7, _⟩ => ⟨S50000, .i32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x40, .f32⟩
  | .hbm, ⟨17, _⟩ => ⟨S40, .f32⟩
  | .hbm, ⟨18, _⟩ => ⟨S50000x1, .i32⟩
  | .hbm, ⟨19, _⟩ => ⟨S128x128, .f32⟩
  | .hbm, ⟨20, _⟩ => ⟨S50000x1, .i32⟩
  | .hbm, ⟨21, _⟩ => ⟨S128x128, .f32⟩
  | .hbm, ⟨22, _⟩ => ⟨S128x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S_, .f32⟩
  | .hbm, ⟨33, _⟩ => ⟨S50000x128, .f32⟩
  | .hbm, ⟨34, _⟩ => ⟨S400000x1, .i32⟩
  | .hbm, ⟨35, _⟩ => ⟨S50000x128, .f32⟩
  | .hbm, ⟨36, _⟩ => ⟨S50000x1, .i32⟩
  | .hbm, ⟨37, _⟩ => ⟨S128x128, .f32⟩
  | .hbm, ⟨38, _⟩ => ⟨S128x128, .f32⟩
  | .hbm, ⟨39, _⟩ => ⟨S50000x1, .i32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x128, .f32⟩
  | .hbm, ⟨51, _⟩ => ⟨S_, .f32⟩
  | .hbm, ⟨52, _⟩ => ⟨S50000x128, .f32⟩
  | .hbm, ⟨53, _⟩ => ⟨S400000x1, .i32⟩
  | .hbm, ⟨54, _⟩ => ⟨S50000x128, .f32⟩
  | .hbm, ⟨55, _⟩ => ⟨S50000x1, .i32⟩
  | .hbm, ⟨56, _⟩ => ⟨S128x128, .f32⟩
  | .hbm, ⟨57, _⟩ => ⟨S128x128, .f32⟩
  | .hbm, ⟨58, _⟩ => ⟨S50000x1, .i32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S400000, .i32⟩
  | .hbm, ⟨63, _⟩ => ⟨S400000, .i1⟩
  | .hbm, ⟨64, _⟩ => ⟨S_, .i32⟩
  | .hbm, ⟨65, _⟩ => ⟨S400000, .i32⟩
  | .hbm, ⟨66, _⟩ => ⟨S400000, .i32⟩
  | .hbm, ⟨67, _⟩ => ⟨S400000, .i32⟩
  | .hbm, ⟨68, _⟩ => ⟨S400000x1, .i32⟩
  | .hbm, ⟨69, _⟩ => ⟨S400000x128, .f32⟩
  | .hbm, ⟨70, _⟩ => ⟨S_, .f32⟩
  | .hbm, ⟨71, _⟩ => ⟨S50000x128, .f32⟩
  | .hbm, ⟨72, _⟩ => ⟨S400000x1, .i32⟩
  | .hbm, ⟨73, _⟩ => ⟨S50000x128, .f32⟩
  | .hbm, ⟨74, _⟩ => ⟨S50000x1, .i32⟩
  | .hbm, ⟨75, _⟩ => ⟨S128x128, .f32⟩
  | .hbm, ⟨76, _⟩ => ⟨S128x128, .f32⟩
  | .hbm, ⟨77, _⟩ => ⟨S50000x1, .i32⟩
  | .hbm, ⟨78, _⟩ => ⟨S1x128, .f32⟩
  | .hbm, ⟨79, _⟩ => ⟨S50000x128, .f32⟩
  | .hbm, ⟨80, _⟩ => ⟨S50000x1, .i32⟩
  | .hbm, ⟨81, _⟩ => ⟨S128x128, .f32⟩
  | .hbm, ⟨82, _⟩ => ⟨S1x128, .f32⟩
  | .hbm, ⟨83, _⟩ => ⟨S1x40, .f32⟩
  | .hbm, ⟨84, _⟩ => ⟨S128x40, .f32⟩
  | .hbm, ⟨85, _⟩ => ⟨S64x40, .f32⟩
  | .local _ .vmem, ⟨0, _⟩ => ⟨S2000x1, .i32⟩
  | .local _ .vmem, ⟨1, _⟩ => ⟨S2000x1, .i32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S2000x1, .i32⟩
  | .local _ .vmem, ⟨7, _⟩ => ⟨S2000x1, .i32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S2000x1, .i32⟩
  | .local _ .vmem, ⟨13, _⟩ => ⟨S2000x1, .i32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S2000x1, .i32⟩
  | .local _ .vmem, ⟨30, _⟩ => ⟨S2000x1, .i32⟩
  | .local _ .vmem, ⟨31, _⟩ => ⟨S2000x128, .f32⟩
  | .local _ .vmem, ⟨32, _⟩ => ⟨S2000x128, .f32⟩
  | .local _ .vmem, ⟨33, _⟩ => ⟨S128x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x1, .i32⟩
  | .local _ .vmem, ⟨40, _⟩ => ⟨S2000x1, .i32⟩
  | .local _ .vmem, ⟨41, _⟩ => ⟨S128x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x1, .i32⟩
  | .local _ .vmem, ⟨47, _⟩ => ⟨S2000x1, .i32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S128x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x1, .i32⟩
  | .local _ .vmem, ⟨57, _⟩ => ⟨S2000x1, .i32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x1, .i32⟩
  | .local _ .vmem, ⟨64, _⟩ => ⟨S2000x1, .i32⟩
  | .local _ .vmem, ⟨65, _⟩ => ⟨S2000x128, .f32⟩
  | .local _ .vmem, ⟨66, _⟩ => ⟨S2000x128, .f32⟩
  | .local _ .vmem, ⟨67, _⟩ => ⟨S128x128, .f32⟩
  | .local _ .vmem, ⟨68, _⟩ => ⟨S128x128, .f32⟩
  | .local _ .vmem, ⟨69, _⟩ => ⟨S128x128, .f32⟩
  | .local _ .vmem, ⟨70, _⟩ => ⟨S128x128, .f32⟩
  | .local _ .vmem, ⟨71, _⟩ => ⟨S1x128, .f32⟩
  | .local _ .vmem, ⟨72, _⟩ => ⟨S128x40, .f32⟩
  | .local _ .vmem, ⟨73, _⟩ => ⟨S1x40, .f32⟩
  | .local _ .vmem, ⟨74, _⟩ => ⟨S128x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_scratch0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg6_0 : Ref sig .tc := ⟨.vmem, 61, rfl⟩
abbrev cc7_stg6_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_scratch0 : Ref sig .tc := ⟨.vmem, 68, rfl⟩
abbrev cc9_stg0_0 : Ref sig .tc := ⟨.vmem, 69, rfl⟩
abbrev cc9_stg1_0 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg4_0 : Ref sig .tc := ⟨.vmem, 73, rfl⟩
abbrev cc9_stg5_0 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem5_0 : DmaSem sig := 55
abbrev cc7_sem6_0 : DmaSem sig := 56
abbrev cc7_sem6_1 : DmaSem sig := 57
abbrev cc8_sem0_0 : DmaSem sig := 58
abbrev cc8_sem0_1 : DmaSem sig := 59
abbrev cc8_sem1_0 : DmaSem sig := 60
abbrev cc8_sem1_1 : DmaSem sig := 61
abbrev cc8_sem2_0 : DmaSem sig := 62
abbrev cc9_sem0_0 : DmaSem sig := 63
abbrev cc9_sem1_0 : DmaSem sig := 64
abbrev cc9_sem2_0 : DmaSem sig := 65
abbrev cc9_sem3_0 : DmaSem sig := 66
abbrev cc9_sem4_0 : DmaSem sig := 67
abbrev cc9_sem5_0 : DmaSem sig := 68

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x1 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def k8_cond2 (i : grid8.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x1 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x40 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x40 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x40 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  shapeCasts_S50000_S50000x1 : S50000.ShapeCasts S50000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x128_d1_w32 : S1x128.Iotas .tc 32 [1]
  broadcasts_S2000x1_S2000x128 : S2000x1.Broadcasts S2000x128
  broadcasts_S1x128_S2000x128 : S1x128.Broadcasts S2000x128
  natLt_1_32 : 1 < 32
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S40_S1x40 : S40.ShapeCasts S1x40
  broadcasts_S1x128_S128x128 : S1x128.Broadcasts S128x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S128x40 : S1x40.Broadcasts S128x40
  slices_S128x40_S64x40_0_0 : S128x40.Slices ![0, 0] S64x40
  dot_S2000x128_S2000x128_S128x128_0_0_1_1_n_n_wf : DotDims.WF S2000x128 S2000x128 S128x128 [0] [0] [1] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  dot_S128x128_S128x128_S128x128_1_0_0_1_n_n_wf : DotDims.WF S128x128 S128x128 S128x128 [1] [0] [0] [1] [] []
  dot_S128x128_S128x40_S128x40_1_0_0_1_n_n_wf : DotDims.WF S128x128 S128x40 S128x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S50000x1.size a
  hwx1_0 : ∀ i : grid1.Coords, EltTy.bits .i32 = 32 ∨ (Rect.block (s := S50000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S50000x1.size a
  hwx2_0 : ∀ i : grid2.Coords, EltTy.bits .i32 = 32 ∨ (Rect.block (s := S50000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .i32 = 32 ∨ (Rect.block (s := S50000x1) S2000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S50000x1.size a
  hwx4_0 : ∀ i : grid4.Coords, EltTy.bits .i32 = 32 ∨ (Rect.block (s := S50000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .i32 = 32 ∨ (Rect.block (s := S50000x1) S2000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x1.size a ≤ S50000x1.size a
  hwx6_0 : ∀ i : grid6.Coords, EltTy.bits .i32 = 32 ∨ (Rect.block (s := S50000x1) S2000x1.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .i32 = 32 ∨ (Rect.block (s := S50000x1) S2000x1.size (cc7_transform_2 i) (hinb7_2 i)).WholeWords (EltTy.packing .i32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x1.size a ≤ S50000x1.size a
  hwx8_0 : ∀ i : grid8.Coords, EltTy.bits .i32 = 32 ∨ (Rect.block (s := S50000x1) S2000x1.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S128x128.size a ≤ S128x128.size a
  hwx9_0 : ∀ i : grid9.Coords, EltTy.bits .f32 = 32 ∨ (Rect.block (s := S128x128) S128x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x40.size a ≤ S128x40.size a
  hwx9_3 : ∀ i : grid9.Coords, EltTy.bits .f32 = 32 ∨ (Rect.block (s := S128x40) S128x40.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x40.size a ≤ S1x40.size a
  hwx9_4 : ∀ i : grid9.Coords, EltTy.bits .f32 = 32 ∨ (Rect.block (s := S1x40) S1x40.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x40.size a ≤ S128x40.size a
  hwx9_5 : ∀ i : grid9.Coords, EltTy.bits .f32 = 32 ∨ (Rect.block (s := S128x40) S128x40.size (cc9_transform_5 i) (hinb9_5 i)).WholeWords (EltTy.packing .f32)

variable [Facts₀]

def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x40_S128x40_1_0_0_1_n_n : DotDims S128x128 S128x40 S128x40 where
  lhsContracting := [1]
  rhsContracting := [0]
  lhsNonContracting := [0]
  rhsNonContracting := [1]
  lhsBatch := []
  rhsBatch := []
  wf := dot_S128x128_S128x40_S128x40_1_0_0_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v15) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S128x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v20) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v31) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v20) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v33) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v35) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v36) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v47) S2000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v48) S128x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v36) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v46) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v50) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v49) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v51) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v52) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v53) S2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v52) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v54) S128x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v54) S128x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v55) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg16) S128x40.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v56) S1x40.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v57) S128x40.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x128 : Shape := ⟨2, ![50000, 128]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S64x128 : Shape := ⟨2, ![64, 128]⟩
abbrev S50000x1 : Shape := ⟨2, ![50000, 1]⟩
abbrev S400000x1 : Shape := ⟨2, ![400000, 1]⟩
abbrev S400000x128 : Shape := ⟨2, ![400000, 128]⟩
abbrev S1x128 : Shape := ⟨2, ![1, 128]⟩
abbrev S64x40 : Shape := ⟨2, ![64, 40]⟩
abbrev S1x40 : Shape := ⟨2, ![1, 40]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S400000, .i32⟩
  | 2 => ⟨S400000, .i32⟩
  | 3 => ⟨S50000, .i32⟩
  | 4 => ⟨S50000x128, .f32⟩
  | 5 => ⟨S50000, .i32⟩
  | 6 => ⟨S50000x128, .f32⟩
  | 7 => ⟨S50000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x40, .f32⟩
  | 17 => ⟨S40, .f32⟩
  | 18 => ⟨S_, .f32⟩
  | 19 => ⟨S64x128, .f32⟩
  | 20 => ⟨S50000x1, .i32⟩
  | 21 => ⟨S64x128, .f32⟩
  | 22 => ⟨S_, .f32⟩
  | 23 => ⟨S64x128, .f32⟩
  | 24 => ⟨S50000x1, .i32⟩
  | 25 => ⟨S64x128, .f32⟩
  | 26 => ⟨S64x128, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x128, .f32⟩
  | 36 => ⟨S_, .f32⟩
  | 37 => ⟨S50000x128, .f32⟩
  | 38 => ⟨S400000x1, .i32⟩
  | 39 => ⟨S50000x128, .f32⟩
  | 40 => ⟨S_, .f32⟩
  | 41 => ⟨S64x128, .f32⟩
  | 42 => ⟨S50000x1, .i32⟩
  | 43 => ⟨S64x128, .f32⟩
  | 44 => ⟨S64x128, .f32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x128, .f32⟩
  | 72 => ⟨S_, .f32⟩
  | 73 => ⟨S50000x128, .f32⟩
  | 74 => ⟨S400000x1, .i32⟩
  | 75 => ⟨S50000x128, .f32⟩
  | 76 => ⟨S_, .f32⟩
  | 77 => ⟨S64x128, .f32⟩
  | 78 => ⟨S50000x1, .i32⟩
  | 79 => ⟨S64x128, .f32⟩
  | 80 => ⟨S64x128, .f32⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S_, .f32⟩
  | 109 => ⟨S50000x128, .f32⟩
  | 110 => ⟨S400000x1, .i32⟩
  | 111 => ⟨S50000x128, .f32⟩
  | 112 => ⟨S_, .f32⟩
  | 113 => ⟨S64x128, .f32⟩
  | 114 => ⟨S50000x1, .i32⟩
  | 115 => ⟨S64x128, .f32⟩
  | 116 => ⟨S64x128, .f32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S_, .f32⟩
  | 8 => ⟨S64x128, .f32⟩
  | 9 => ⟨S50000x1, .i32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S_, .f32⟩
  | 16 => ⟨S64x128, .f32⟩
  | 17 => ⟨S64x128, .f32⟩
  | 18 => ⟨S64x40, .f32⟩
  | 19 => ⟨S1x40, .f32⟩
  | 20 => ⟨S64x40, .f32⟩
  | 21 => ⟨S64x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call0_cst : Ref sig .tc := ⟨.hbm, 60, rfl⟩
abbrev main_call0_v0 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_c_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call1_cst : Ref sig .tc := ⟨.hbm, 96, rfl⟩
abbrev main_call1_v0 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_16 : Ref sig .tc := ⟨.hbm, 117, rfl⟩
abbrev main_v77 : Ref sig .tc := ⟨.hbm, 118, rfl⟩
abbrev main_v78 : Ref sig .tc := ⟨.hbm, 119, rfl⟩
abbrev main_c_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_call2_cst : Ref sig .tc := ⟨.hbm, 132, rfl⟩
abbrev main_call2_v0 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_call3_cst : Ref sig .tc := ⟨.hbm, 143, rfl⟩
abbrev main_call3_v0 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩

abbrev nD : Nat := 1
abbrev τ : Topo := Topo.v7x

variable {F : FTy → Type} [FloatOps F]

class Facts₀ : Prop where
  bcast_S_S64x128 : S_.BroadcastsInDim S64x128 (![] : Fin 0 → Fin S64x128.rank)
  bcast_S50000_S50000x1_0 : S50000.BroadcastsInDim S50000x1 (![0] : Fin 1 → Fin S50000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S50000 : S_.BroadcastsInDim S50000 (![] : Fin 0 → Fin S50000.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S64x128_0_1 : S1x128.BroadcastsInDim S64x128 (![0, 1] : Fin 2 → Fin S64x128.rank)
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S64x128_S50000x1_S50000x128_1_0_0_1_wf : ScatterDims.WF S64x128 S50000x1 S50000x128 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S64x128_S50000x1_S50000x128_1_0_n_n_0_1_1128_wf : GatherDims.WF S64x128 S50000x1 S50000x128 [1] [0] [] [0] [] 1 ![1, 128]
  dot_S50000x128_S128x128_S50000x128_1_0_0_1_n_n_wf : DotDims.WF S50000x128 S128x128 S50000x128 [1] [0] [0] [1] [] []
  dot_S64x128_S128x128_S64x128_1_0_0_1_n_n_wf : DotDims.WF S64x128 S128x128 S64x128 [1] [0] [0] [1] [] []
  dot_S64x128_S128x40_S64x40_1_0_0_1_n_n_wf : DotDims.WF S64x128 S128x40 S64x40 [1] [0] [0] [1] [] []

variable [Facts₀]

def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x40_S64x40_1_0_0_1_n_n : DotDims S64x128 S128x40 S64x40 where
  lhsContracting := [1]
  rhsContracting := [0]
  lhsNonContracting := [0]
  rhsNonContracting := [1]
  lhsBatch := []
  rhsBatch := []
  wf := dot_S64x128_S128x40_S64x40_1_0_0_1_n_n_wf

class Facts : Prop extends Facts₀ where

variable [Facts]
-- ==== Proof.BPool0.lean ====
/-
  The first pooling call (pallas_call 0): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt0: by recursion on the point, each step the body's own arithmetic k0_pay2 of the
  two staged blocks and the previous sum, the first step over the cleared accumulator k0_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst0 (i : grid0.Coords) : Prop :=
  (Scalar.cmpi .ne (Scalar.extui (Scalar.cmpi .eq (BitVec.ofNat 32 (i 0).val) 0#32)) 0#32) = 1#1
/-- The body's second conditional: the grid coordinate is the last one. -/
abbrev isLast0 (i : grid0.Coords) : Prop := k0_cond2 i = 1#1

theorem isFirst0_iff : ∀ t : Fin cfg0.N, isFirst0 (grid0.coords t) ↔ t.val = 0 :=
  (by decide +kernel : ∀ t : Fin grid0.N, isFirst0 (grid0.coords t) ↔ t.val = 0)
theorem isLast0_iff : ∀ t : Fin cfg0.N, isLast0 (grid0.coords t) ↔ t.val = 24 :=
  (by decide +kernel : ∀ t : Fin grid0.N, isLast0 (grid0.coords t) ↔ t.val = 24)

/-- The two input windows are in use at every point. -/
theorem inLive0_0 : ∀ t : Fin cfg0.N, cfg0.idle 0 (grid0.coords t) = false := by decide +kernel
theorem inLive0_1 : ∀ t : Fin cfg0.N, cfg0.idle 1 (grid0.coords t) = false := by decide +kernel
/-- Away from the last point the output window is left alone and is not written back; -/
theorem outIdle0 : ∀ t : Fin cfg0.N, ¬isLast0 (grid0.coords t) → cfg0.idle 2 (grid0.coords t) = true := by decide +kernel
theorem outKept0 : ∀ t : Fin cfg0.N, ¬isLast0 (grid0.coords t) → (cfg0.win 2).flush t = false := by decide +kernel
/-- at the last point it is stored into. -/
theorem outLive0 : ∀ t : Fin cfg0.N, isLast0 (grid0.coords t) → cfg0.idle 2 (grid0.coords t) = false := by decide +kernel

/-! ## The staging memrefs and the accumulator -/

abbrev idsM0 (t : Fin cfg0.N) : Memref sig .tc .vmem S2000x1 .i32 := win0_0.stage (cfg0.slots t 0)
abbrev idsW0 (t : Fin cfg0.N) : (idsM0 t).IsWhole := hstage0_0 ((cfg0.slots t 0).cast nbuf0_0)
abbrev featsM0 (t : Fin cfg0.N) : Memref sig .tc .vmem S2000x128 .f32 := win0_1.stage (cfg0.slots t 1)
abbrev featsW0 (t : Fin cfg0.N) : (featsM0 t).IsWhole := hstage0_1 ((cfg0.slots t 1).cast nbuf0_1)
abbrev outM0 (t : Fin cfg0.N) : Memref sig .tc .vmem S128x128 .f32 := win0_2.stage (cfg0.slots t 2)
abbrev outW0 (t : Fin cfg0.N) : (outM0 t).IsWhole := hstage0_2 ((cfg0.slots t 2).cast nbuf0_2)
/-- The accumulator: a scratch buffer of the call's own. -/
abbrev accM0 : Memref sig .tc .vmem S128x128 .f32 := Memref.whole cc0_scratch0
/-- A view through which a 128 × 128 block's contents are stated (which buffer it is does not matter). -/
abbrev accV0 : View sig .tc .vmem S128x128 .f32 := accM0.view

/-- The region's invariant with the accumulator singled out: the accumulator at some contents, the other scoped
    buffers unopened, the generator register at some state. -/
theorem PhiA0_split (c : Dev nD) :
    (Pipeline.ΦA spec0 c : sProp 𝕄)
      = iprop(iprop((∃ d, owns (c : Thread nD τ) accM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [accM0, owns_whole]; try rfl

/-! ## The body, case by case -/

set_option maxHeartbeats 4000000 in
/-- At the first point: from the two input blocks and the accumulator at anything, the body leaves the inputs and
    the output's buffer as they were and the accumulator with the pieces the run finds. -/
noncomputable def runFirst0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst0 i) (hl : ¬isLast0 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, fun y3 E K => ?run⟩
  case run =>
    simp only [cc0__pool_kernel_eq_skeleton]; unfold cc0__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : ¬isLast0 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, fun y3 E K => ?run⟩
  case run =>
    simp only [cc0__pool_kernel_eq_skeleton]; unfold cc0__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : isLast0 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, ?_, fun E K => ?run⟩
  case run =>
    simp only [cc0__pool_kernel_eq_skeleton]; unfold cc0__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst0 (c : Dev nD) (i : grid0.Coords) (a1 h1 a2 h2 a3 h3 a4 h4) (hf : isFirst0 i) (hl : ¬isLast0 i)
    (x1 : Vec F S2000x1 .i32) (x2 : Vec F S2000x128 .f32) (y : S128x128.Idx) :
    ∃ pc ∈ (runFirst0 c i a1 h1 a2 h2 a3 h3 a4 h4 hf hl x1 x2).1, y ∈ pc.1.set :=
  View.cover_of_tiledL (runFirst0 c i a1 h1 a2 h2 a3 h3 a4 h4 hf hl x1 x2).1 S128x128.size (by sl_kernel_rfl) y
theorem coverMid0 (c : Dev nD) (i : grid0.Coords) (a1 h1 a2 h2 a3 h3 a4 h4) (hf : ¬isFirst0 i) (hl : ¬isLast0 i)
    (x1 : Vec F S2000x1 .i32) (x2 : Vec F S2000x128 .f32) (s : Vec F S128x128 .f32) (y : S128x128.Idx) :
    ∃ pc ∈ (runMid0 c i a1 h1 a2 h2 a3 h3 a4 h4 hf hl x1 x2 s).1, y ∈ pc.1.set :=
  View.cover_of_tiledL (runMid0 c i a1 h1 a2 h2 a3 h3 a4 h4 hf hl x1 x2 s).1 S128x128.size (by sl_kernel_rfl) y
theorem coverLastAcc0 (c : Dev nD) (i : grid0.Coords) (a1 h1 a2 h2 a3 h3 a4 h4) (hf : ¬isFirst0 i) (hl : isLast0 i)
    (x1 : Vec F S2000x1 .i32) (x2 : Vec F S2000x128 .f32) (s : Vec F S128x128 .f32) (y : S128x128.Idx) :
    ∃ pc ∈ (runLast0 c i a1 h1 a2 h2 a3 h3 a4 h4 hf hl x1 x2 s).2.1, y ∈ pc.1.set :=
  View.cover_of_tiledL (runLast0 c i a1 h1 a2 h2 a3 h3 a4 h4 hf hl x1 x2 s).2.1 S128x128.size (by sl_kernel_rfl) y
theorem coverLastOut0 (c : Dev nD) (i : grid0.Coords) (a1 h1 a2 h2 a3 h3 a4 h4) (hf : ¬isFirst0 i) (hl : isLast0 i)
    (x1 : Vec F S2000x1 .i32) (x2 : Vec F S2000x128 .f32) (s : Vec F S128x128 .f32) (y : S128x128.Idx) :
    ∃ pc ∈ (runLast0 c i a1 h1 a2 h2 a3 h3 a4 h4 hf hl x1 x2 s).1, y ∈ pc.1.set :=
  View.cover_of_tiledL (runLast0 c i a1 h1 a2 h2 a3 h3 a4 h4 hf hl x1 x2 s).1 S128x128.size (by sl_kernel_rfl) y

/-- A list of pieces read back as one block. -/
abbrev asBlock0 (L : List (View.Piece (Elt F) S128x128 .f32)) : Vec F S128x128 .f32 :=
  accV0.read (Elt F) (accV0.writes (Elt F) accV0.junk L)

/-! ## The region, entered at the contents V -/

section Region
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over V that leaves it there. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- THE RUNNING SUM: what the accumulator holds after the body at position n. -/
def accAt0 (c : Dev nD) : (n : ℕ) → n < cfg0.N → Vec F S128x128 .f32
  | 0, hn => asBlock0 (runFirst0 c (grid0.coords ⟨0, hn⟩) (idsM0 ⟨0, hn⟩) (idsW0 ⟨0, hn⟩) (featsM0 ⟨0, hn⟩) (featsW0 ⟨0, hn⟩)
      (outM0 ⟨0, hn⟩) (outW0 ⟨0, hn⟩) accM0 (Memref.isWhole_whole _) ((isFirst0_iff ⟨0, hn⟩).mpr rfl)
      (fun h => absurd (show (0 : ℕ) = 24 from (isLast0_iff ⟨0, hn⟩).mp h) (by decide)) (blk0 V c 0 ⟨0, hn⟩) (blk0 V c 1 ⟨0, hn⟩)).1
  | n + 1, hn =>
    if hl : n + 1 = 24 then
      asBlock0 (runLast0 c (grid0.coords ⟨n + 1, hn⟩) (idsM0 ⟨n + 1, hn⟩) (idsW0 ⟨n + 1, hn⟩) (featsM0 ⟨n + 1, hn⟩) (featsW0 ⟨n + 1, hn⟩)
        (outM0 ⟨n + 1, hn⟩) (outW0 ⟨n + 1, hn⟩) accM0 (Memref.isWhole_whole _)
        (fun h => absurd ((isFirst0_iff ⟨n + 1, hn⟩).mp h) (Nat.succ_ne_zero n)) ((isLast0_iff ⟨n + 1, hn⟩).mpr hl)
        (blk0 V c 0 ⟨n + 1, hn⟩) (blk0 V c 1 ⟨n + 1, hn⟩) (accAt0 c n (Nat.lt_of_succ_lt hn))).2.1
    else
      asBlock0 (runMid0 c (grid0.coords ⟨n + 1, hn⟩) (idsM0 ⟨n + 1, hn⟩) (idsW0 ⟨n + 1, hn⟩) (featsM0 ⟨n + 1, hn⟩) (featsW0 ⟨n + 1, hn⟩)
        (outM0 ⟨n + 1, hn⟩) (outW0 ⟨n + 1, hn⟩) accM0 (Memref.isWhole_whole _)
        (fun h => absurd ((isFirst0_iff ⟨n + 1, hn⟩).mp h) (Nat.succ_ne_zero n)) (fun h => hl ((isLast0_iff ⟨n + 1, hn⟩).mp h))
        (blk0 V c 0 ⟨n + 1, hn⟩) (blk0 V c 1 ⟨n + 1, hn⟩) (accAt0 c n (Nat.lt_of_succ_lt hn))).1

/-- What the output's staging buffer holds after the body at position n: at the last point the pieces stored there;
    elsewhere the window is idle and this value is never consulted. -/
def outAt0 (c : Dev nD) (n : ℕ) (hn : n < cfg0.N) : Vec F S128x128 .f32 :=
  if hz : n = 0 then asBlock0 []
  else if hl : n = 24 then
    asBlock0 (runLast0 c (grid0.coords ⟨n, hn⟩) (idsM0 ⟨n, hn⟩) (idsW0 ⟨n, hn⟩) (featsM0 ⟨n, hn⟩) (featsW0 ⟨n, hn⟩)
      (outM0 ⟨n, hn⟩) (outW0 ⟨n, hn⟩) accM0 (Memref.isWhole_whole _)
      (fun h => hz ((isFirst0_iff ⟨n, hn⟩).mp h)) ((isLast0_iff ⟨n, hn⟩).mpr hl)
      (blk0 V c 0 ⟨n, hn⟩) (blk0 V c 1 ⟨n, hn⟩) (accAt0 V c (n - 1) (Nat.lt_of_le_of_lt (Nat.sub_le _ _) hn))).1
  else asBlock0 []

end Region

section Region
variable (V : (c : Dev nD) → (b : Ref sig .tc) → Buf (Elt F) ((c : Thread nD τ).loc b))

theorem accAt0_first (c : Dev nD) (t : Fin cfg0.N) (hz : t.val = 0) :
    accAt0 V c t.val t.isLt = asBlock0 (runFirst0 c (grid0.coords t) (idsM0 t) (idsW0 t) (featsM0 t) (featsW0 t) (outM0 t) (outW0 t) accM0
      (Memref.isWhole_whole _) ((isFirst0_iff t).mpr hz) (fun h => absurd (((isLast0_iff t).mp h).symm.trans hz) (by decide))
      (blk0 V c 0 t) (blk0 V c 1 t)).1 := by
  obtain ⟨n, hn⟩ := t
  cases n with
  | zero => rfl
  | succ n => exact absurd hz (Nat.succ_ne_zero n)

theorem accAt0_mid (c : Dev nD) (t : Fin cfg0.N) (hz : t.val ≠ 0) (hl : t.val ≠ 24) :
    accAt0 V c t.val t.isLt = asBlock0 (runMid0 c (grid0.coords t) (idsM0 t) (idsW0 t) (featsM0 t) (featsW0 t) (outM0 t) (outW0 t) accM0
      (Memref.isWhole_whole _) (fun h => hz ((isFirst0_iff t).mp h)) (fun h => hl ((isLast0_iff t).mp h))
      (blk0 V c 0 t) (blk0 V c 1 t) (accAt0 V c (t.val - 1) (Nat.lt_of_le_of_lt (Nat.sub_le _ _) t.isLt))).1 := by
  obtain ⟨n, hn⟩ := t
  cases n with
  | zero => exact absurd rfl hz
  | succ n => exact (dif_neg hl).trans rfl

theorem accAt0_last (c : Dev nD) (t : Fin cfg0.N) (hz : t.val ≠ 0) (hl : t.val = 24) :
    accAt0 V c t.val t.isLt = asBlock0 (runLast0 c (grid0.coords t) (idsM0 t) (idsW0 t) (featsM0 t) (featsW0 t) (outM0 t) (outW0 t) accM0
      (Memref.isWhole_whole _) (fun h => hz ((isFirst0_iff t).mp h)) ((isLast0_iff t).mpr hl)
      (blk0 V c 0 t) (blk0 V c 1 t) (accAt0 V c (t.val - 1) (Nat.lt_of_le_of_lt (Nat.sub_le _ _) t.isLt))).2.1 := by
  obtain ⟨n, hn⟩ := t
  cases n with
  | zero => exact absurd rfl hz
  | succ n => exact (dif_pos hl).trans rfl

theorem outAt0_last (c : Dev nD) (t : Fin cfg0.N) (hz : t.val ≠ 0) (hl : t.val = 24) :
    outAt0 V c t.val t.isLt = asBlock0 (runLast0 c (grid0.coords t) (idsM0 t) (idsW0 t) (featsM0 t) (featsW0 t) (outM0 t) (outW0 t) accM0
      (Memref.isWhole_whole _) (fun h => hz ((isFirst0_iff t).mp h)) ((isLast0_iff t).mpr hl)
      (blk0 V c 0 t) (blk0 V c 1 t) (accAt0 V c (t.val - 1) (Nat.lt_of_le_of_lt (Nat.sub_le _ _) t.isLt))).1 := by
  unfold outAt0; rw [dif_neg hz, dif_pos hl]

/-- The invariant before position n: before the first point the scoped buffers at anything; afterwards the
    accumulator at the running sum, the other scoped buffers unopened. The generator register rides along. -/
def PhiAt0 (c : Dev nD) : (n : ℕ) → n ≤ cfg0.N → sProp 𝕄
  | 0, _ => Pipeline.ΦA spec0 c
  | n + 1, hn => iprop(iprop(owns (c : Thread nD τ) accM0 fullShare (accAt0 V c n hn)
      ∗ Pipeline.scopedRestBut (Ix := Unit) (Name := ℕ) (U := UR sig nD τ) (Lvl := ℕ) (Val := Elt F) spec0 c [cc0_scratch0])
      ∗ (∃ r, prngReg c r))

theorem PhiAt0_zero (c : Dev nD) (n : ℕ) (h : n ≤ cfg0.N) (hz : n = 0) : PhiAt0 V c n h = Pipeline.ΦA spec0 c := by
  subst hz; rfl
theorem PhiAt0_succ (c : Dev nD) (n : ℕ) (hn : n < cfg0.N) :
    PhiAt0 V c (n + 1) hn = iprop(iprop(owns (c : Thread nD τ) accM0 fullShare (accAt0 V c n hn)
      ∗ Pipeline.scopedRestBut (Ix := Unit) (Name := ℕ) (U := UR sig nD τ) (Lvl := ℕ) (Val := Elt F) spec0 c [cc0_scratch0])
      ∗ (∃ r, prngReg c r)) := rfl
theorem PhiAt0_pos (c : Dev nD) (n : ℕ) (h : n ≤ cfg0.N) (hz : n ≠ 0) :
    PhiAt0 V c n h = iprop(iprop(owns (c : Thread nD τ) accM0 fullShare (accAt0 V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- The region's proof data: the arrays as V has them; after the body each input's buffer at its block, the output's
    at outAt0; the invariant PhiAt0; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t.val t.isLt
  Φ t := PhiAt0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiAt0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t.val t.isLt := by dsimp only [dat0]
theorem before0_0 (c : Dev nD) (t : Fin cfg0.N) (d) : (dat0 V c).before 0 t d = blk0 V c 0 t :=
  found0_0_of V (dat0 V c) (A_eq0 V c 0) (after0_0 V c) t d
theorem before0_1 (c : Dev nD) (t : Fin cfg0.N) (d) : (dat0 V c).before 1 t d = blk0 V c 1 t :=
  found0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (idsM0 t) fullShare ((dat0 V c).before 0 t d))
    ∗ (∃ d, owns (c : Thread nD τ) (featsM0 t) fullShare ((dat0 V c).before 1 t d))
    ∗ (∃ d, owns (c : Thread nD τ) (outM0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiAt0 V c (t.val + 1) t.isLt from rfl, PhiAt0_succ]
  rw [show (dat0 V c).leavesExact 0 t = owns (c : Thread nD τ) (idsM0 t) fullShare ((dat0 V c).after 0 t) from by
    unfold Dat.leavesExact; rw [inLive0_0 t], after0_0]
  rw [show (dat0 V c).leavesExact 1 t = owns (c : Thread nD τ) (featsM0 t) fullShare ((dat0 V c).after 1 t) from by
    unfold Dat.leavesExact; rw [inLive0_1 t], after0_1]
  have hN : t.val < 25 := lt_of_lt_of_eq t.isLt (show cfg0.N = 25 from N_0)
  by_cases hz : t.val = 0
  · have hl : ¬ t.val = 24 := by omega
    have hnl : ¬isLast0 (grid0.coords t) := fun h => hl ((isLast0_iff t).mp h)
    rw [Dat.leavesExact_idle (dat0 V c) 2 t (outIdle0 t hnl) (outKept0 t hnl)]
    rw [accAt0_first V c t hz]
    rw [Phi0_castSucc V c t, PhiAt0_zero V c _ _ hz, PhiA0_split]
    iintro ⟨⟨⟨HS, Hrest⟩, Hg⟩, Ho, ⟨%d0, H0⟩, ⟨%d1, H1⟩, ⟨%d2, H2⟩⟩
    iapply ((runFirst0 c (grid0.coords t) _ _ _ _ _ _ _ _ ((isFirst0_iff t).mpr hz) hnl (blk0 V c 0 t) (blk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst0 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast0 (grid0.coords t) := (isLast0_iff t).mpr hl
      rw [show (dat0 V c).leavesExact 2 t = owns (c : Thread nD τ) (outM0 t) fullShare ((dat0 V c).after 2 t) from by
        unfold Dat.leavesExact; rw [outLive0 t hil], after0_2]
      rw [accAt0_last V c t hz hl, outAt0_last V c t hz hl]
      rw [Phi0_castSucc V c t, PhiAt0_pos V c _ _ hz]
      iintro ⟨⟨⟨HS, Hrest⟩, Hg⟩, Ho, ⟨%d0, H0⟩, ⟨%d1, H1⟩, ⟨%d2, H2⟩⟩
      iapply ((runLast0 c (grid0.coords t) _ _ _ _ _ _ _ _ (fun h => hz ((isFirst0_iff t).mp h)) hil (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut0 c _ _ _ _ _ _ _ _ _ _ _ _ _ _)
    · have hnl : ¬isLast0 (grid0.coords t) := fun h => hl ((isLast0_iff t).mp h)
      rw [Dat.leavesExact_idle (dat0 V c) 2 t (outIdle0 t hnl) (outKept0 t hnl)]
      rw [accAt0_mid V c t hz hl]
      rw [Phi0_castSucc V c t, PhiAt0_pos V c _ _ hz]
      iintro ⟨⟨⟨HS, Hrest⟩, Hg⟩, Ho, ⟨%d0, H0⟩, ⟨%d1, H1⟩, ⟨%d2, H2⟩⟩
      iapply ((runMid0 c (grid0.coords t) _ _ _ _ _ _ _ _ (fun h => hz ((isFirst0_iff t).mp h)) hnl (blk0 V c 0 t) (blk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid0 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

/-- The invariant's two ends: it starts as the class invariant and gives it back (the running sum forgotten). -/
theorem Phi0_in (c : Dev nD) : Pipeline.ΦA spec0 c ⊢ (dat0 V c).Φ 0 := by
  rw [show (dat0 V c).Φ 0 = PhiAt0 V c 0 (Nat.zero_le _) from rfl, PhiAt0_zero V c 0 _ rfl]
  try exact Idealize.SL.BI.Entails.refl _
theorem Phi0_out (c : Dev nD) : (dat0 V c).Φ (Fin.last cfg0.N) ⊢ Pipeline.ΦA spec0 c := by
  rw [show (dat0 V c).Φ (Fin.last cfg0.N) = PhiAt0 V c (Fin.last cfg0.N).val (Nat.le_of_lt_succ (Fin.last cfg0.N).isLt) from rfl,
    PhiAt0_pos V c _ _ (by rw [Fin.val_last]; have : cfg0.N = 25 := N_0; omega), PhiA0_split]
  iintro ⟨⟨HS, Hrest⟩, Hg⟩
  isplitl [HS Hrest]
  · isplitl [HS]; · iexists _; iexact HS
    iexact Hrest
  iexact Hg

end Region

end Cert.Kernel.Hand

end
-- ==== Proof.BPool1.lean ====
/-
  A pooling call (pallas_call 1): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt1: by recursion on the point, each step the body's own arithmetic k1_pay2 of the
  two staged blocks and the previous sum, the first step over the cleared accumulator k1_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst1 (i : grid1.Coords) : Prop :=
  (Scalar.cmpi .ne (Scalar.extui (Scalar.cmpi .eq (BitVec.ofNat 32 (i 0).val) 0#32)) 0#32) = 1#1
/-- The body's second conditional: the grid coordinate is the last one. -/
abbrev isLast1 (i : grid1.Coords) : Prop := k1_cond2 i = 1#1

theorem isFirst1_iff : ∀ t : Fin cfg1.N, isFirst1 (grid1.coords t) ↔ t.val = 0 :=
  (by decide +kernel : ∀ t : Fin grid1.N, isFirst1 (grid1.coords t) ↔ t.val = 0)
theorem isLast1_iff : ∀ t : Fin cfg1.N, isLast1 (grid1.coords t) ↔ t.val = 24 :=
  (by decide +kernel : ∀ t : Fin grid1.N, isLast1 (grid1.coords t) ↔ t.val = 24)

/-- The two input windows are in use at every point. -/
theorem inLive1_0 : ∀ t : Fin cfg1.N, cfg1.idle 0 (grid1.coords t) = false := by decide +kernel
theorem inLive1_1 : ∀ t : Fin cfg1.N, cfg1.idle 1 (grid1.coords t) = false := by decide +kernel
/-- Away from the last point the output window is left alone and is not written back; -/
theorem outIdle1 : ∀ t : Fin cfg1.N, ¬isLast1 (grid1.coords t) → cfg1.idle 2 (grid1.coords t) = true := by decide +kernel
theorem outKept1 : ∀ t : Fin cfg1.N, ¬isLast1 (grid1.coords t) → (cfg1.win 2).flush t = false := by decide +kernel
/-- at the last point it is stored into. -/
theorem outLive1 : ∀ t : Fin cfg1.N, isLast1 (grid1.coords t) → cfg1.idle 2 (grid1.coords t) = false := by decide +kernel

/-! ## The staging memrefs and the accumulator -/

abbrev idsM1 (t : Fin cfg1.N) : Memref sig .tc .vmem S2000x1 .i32 := win1_0.stage (cfg1.slots t 0)
abbrev idsW1 (t : Fin cfg1.N) : (idsM1 t).IsWhole := hstage1_0 ((cfg1.slots t 0).cast nbuf1_0)
abbrev featsM1 (t : Fin cfg1.N) : Memref sig .tc .vmem S2000x128 .f32 := win1_1.stage (cfg1.slots t 1)
abbrev featsW1 (t : Fin cfg1.N) : (featsM1 t).IsWhole := hstage1_1 ((cfg1.slots t 1).cast nbuf1_1)
abbrev outM1 (t : Fin cfg1.N) : Memref sig .tc .vmem S128x128 .f32 := win1_2.stage (cfg1.slots t 2)
abbrev outW1 (t : Fin cfg1.N) : (outM1 t).IsWhole := hstage1_2 ((cfg1.slots t 2).cast nbuf1_2)
/-- The accumulator: a scratch buffer of the call's own. -/
abbrev accM1 : Memref sig .tc .vmem S128x128 .f32 := Memref.whole cc1_scratch0
/-- A view through which a 128 × 128 block's contents are stated (which buffer it is does not matter). -/
abbrev accV1 : View sig .tc .vmem S128x128 .f32 := accM1.view

/-- The region's invariant with the accumulator singled out: the accumulator at some contents, the other scoped
    buffers unopened, the generator register at some state. -/
theorem PhiA1_split (c : Dev nD) :
    (Pipeline.ΦA spec1 c : sProp 𝕄)
      = iprop(iprop((∃ d, owns (c : Thread nD τ) accM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [accM1, owns_whole]; try rfl

/-! ## The body, case by case -/

set_option maxHeartbeats 4000000 in
/-- At the first point: from the two input blocks and the accumulator at anything, the body leaves the inputs and
    the output's buffer as they were and the accumulator with the pieces the run finds. -/
noncomputable def runFirst1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst1 i) (hl : ¬isLast1 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, fun y3 E K => ?run⟩
  case run =>
    simp only [cc1__pool_kernel_eq_skeleton]; unfold cc1__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : ¬isLast1 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, fun y3 E K => ?run⟩
  case run =>
    simp only [cc1__pool_kernel_eq_skeleton]; unfold cc1__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : isLast1 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, ?_, fun E K => ?run⟩
  case run =>
    simp only [cc1__pool_kernel_eq_skeleton]; unfold cc1__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst1 (c : Dev nD) (i : grid1.Coords) (a1 h1 a2 h2 a3 h3 a4 h4) (hf : isFirst1 i) (hl : ¬isLast1 i)
    (x1 : Vec F S2000x1 .i32) (x2 : Vec F S2000x128 .f32) (y : S128x128.Idx) :
    ∃ pc ∈ (runFirst1 c i a1 h1 a2 h2 a3 h3 a4 h4 hf hl x1 x2).1, y ∈ pc.1.set :=
  View.cover_of_tiledL (runFirst1 c i a1 h1 a2 h2 a3 h3 a4 h4 hf hl x1 x2).1 S128x128.size (by sl_kernel_rfl) y
theorem coverMid1 (c : Dev nD) (i : grid1.Coords) (a1 h1 a2 h2 a3 h3 a4 h4) (hf : ¬isFirst1 i) (hl : ¬isLast1 i)
    (x1 : Vec F S2000x1 .i32) (x2 : Vec F S2000x128 .f32) (s : Vec F S128x128 .f32) (y : S128x128.Idx) :
    ∃ pc ∈ (runMid1 c i a1 h1 a2 h2 a3 h3 a4 h4 hf hl x1 x2 s).1, y ∈ pc.1.set :=
  View.cover_of_tiledL (runMid1 c i a1 h1 a2 h2 a3 h3 a4 h4 hf hl x1 x2 s).1 S128x128.size (by sl_kernel_rfl) y
theorem coverLastAcc1 (c : Dev nD) (i : grid1.Coords) (a1 h1 a2 h2 a3 h3 a4 h4) (hf : ¬isFirst1 i) (hl : isLast1 i)
    (x1 : Vec F S2000x1 .i32) (x2 : Vec F S2000x128 .f32) (s : Vec F S128x128 .f32) (y : S128x128.Idx) :
    ∃ pc ∈ (runLast1 c i a1 h1 a2 h2 a3 h3 a4 h4 hf hl x1 x2 s).2.1, y ∈ pc.1.set :=
  View.cover_of_tiledL (runLast1 c i a1 h1 a2 h2 a3 h3 a4 h4 hf hl x1 x2 s).2.1 S128x128.size (by sl_kernel_rfl) y
theorem coverLastOut1 (c : Dev nD) (i : grid1.Coords) (a1 h1 a2 h2 a3 h3 a4 h4) (hf : ¬isFirst1 i) (hl : isLast1 i)
    (x1 : Vec F S2000x1 .i32) (x2 : Vec F S2000x128 .f32) (s : Vec F S128x128 .f32) (y : S128x128.Idx) :
    ∃ pc ∈ (runLast1 c i a1 h1 a2 h2 a3 h3 a4 h4 hf hl x1 x2 s).1, y ∈ pc.1.set :=
  View.cover_of_tiledL (runLast1 c i a1 h1 a2 h2 a3 h3 a4 h4 hf hl x1 x2 s).1 S128x128.size (by sl_kernel_rfl) y

/-- A list of pieces read back as one block. -/
abbrev asBlock1 (L : List (View.Piece (Elt F) S128x128 .f32)) : Vec F S128x128 .f32 :=
  accV1.read (Elt F) (accV1.writes (Elt F) accV1.junk L)

/-! ## The region, entered at the contents V -/

section Region
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over V that leaves it there. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE RUNNING SUM: what the accumulator holds after the body at position n. -/
def accAt1 (c : Dev nD) : (n : ℕ) → n < cfg1.N → Vec F S128x128 .f32
  | 0, hn => asBlock1 (runFirst1 c (grid1.coords ⟨0, hn⟩) (idsM1 ⟨0, hn⟩) (idsW1 ⟨0, hn⟩) (featsM1 ⟨0, hn⟩) (featsW1 ⟨0, hn⟩)
      (outM1 ⟨0, hn⟩) (outW1 ⟨0, hn⟩) accM1 (Memref.isWhole_whole _) ((isFirst1_iff ⟨0, hn⟩).mpr rfl)
      (fun h => absurd (show (0 : ℕ) = 24 from (isLast1_iff ⟨0, hn⟩).mp h) (by decide)) (blk1 V c 0 ⟨0, hn⟩) (blk1 V c 1 ⟨0, hn⟩)).1
  | n + 1, hn =>
    if hl : n + 1 = 24 then
      asBlock1 (runLast1 c (grid1.coords ⟨n + 1, hn⟩) (idsM1 ⟨n + 1, hn⟩) (idsW1 ⟨n + 1, hn⟩) (featsM1 ⟨n + 1, hn⟩) (featsW1 ⟨n + 1, hn⟩)
        (outM1 ⟨n + 1, hn⟩) (outW1 ⟨n + 1, hn⟩) accM1 (Memref.isWhole_whole _)
        (fun h => absurd ((isFirst1_iff ⟨n + 1, hn⟩).mp h) (Nat.succ_ne_zero n)) ((isLast1_iff ⟨n + 1, hn⟩).mpr hl)
        (blk1 V c 0 ⟨n + 1, hn⟩) (blk1 V c 1 ⟨n + 1, hn⟩) (accAt1 c n (Nat.lt_of_succ_lt hn))).2.1
    else
      asBlock1 (runMid1 c (grid1.coords ⟨n + 1, hn⟩) (idsM1 ⟨n + 1, hn⟩) (idsW1 ⟨n + 1, hn⟩) (featsM1 ⟨n + 1, hn⟩) (featsW1 ⟨n + 1, hn⟩)
        (outM1 ⟨n + 1, hn⟩) (outW1 ⟨n + 1, hn⟩) accM1 (Memref.isWhole_whole _)
        (fun h => absurd ((isFirst1_iff ⟨n + 1, hn⟩).mp h) (Nat.succ_ne_zero n)) (fun h => hl ((isLast1_iff ⟨n + 1, hn⟩).mp h))
        (blk1 V c 0 ⟨n + 1, hn⟩) (blk1 V c 1 ⟨n + 1, hn⟩) (accAt1 c n (Nat.lt_of_succ_lt hn))).1

/-- What the output's staging buffer holds after the body at position n: at the last point the pieces stored there;
    elsewhere the window is idle and this value is never consulted. -/
def outAt1 (c : Dev nD) (n : ℕ) (hn : n < cfg1.N) : Vec F S128x128 .f32 :=
  if hz : n = 0 then asBlock1 []
  else if hl : n = 24 then
    asBlock1 (runLast1 c (grid1.coords ⟨n, hn⟩) (idsM1 ⟨n, hn⟩) (idsW1 ⟨n, hn⟩) (featsM1 ⟨n, hn⟩) (featsW1 ⟨n, hn⟩)
      (outM1 ⟨n, hn⟩) (outW1 ⟨n, hn⟩) accM1 (Memref.isWhole_whole _)
      (fun h => hz ((isFirst1_iff ⟨n, hn⟩).mp h)) ((isLast1_iff ⟨n, hn⟩).mpr hl)
      (blk1 V c 0 ⟨n, hn⟩) (blk1 V c 1 ⟨n, hn⟩) (accAt1 V c (n - 1) (Nat.lt_of_le_of_lt (Nat.sub_le _ _) hn))).1
  else asBlock1 []

end Region

section Region
variable (V : (c : Dev nD) → (b : Ref sig .tc) → Buf (Elt F) ((c : Thread nD τ).loc b))

theorem accAt1_first (c : Dev nD) (t : Fin cfg1.N) (hz : t.val = 0) :
    accAt1 V c t.val t.isLt = asBlock1 (runFirst1 c (grid1.coords t) (idsM1 t) (idsW1 t) (featsM1 t) (featsW1 t) (outM1 t) (outW1 t) accM1
      (Memref.isWhole_whole _) ((isFirst1_iff t).mpr hz) (fun h => absurd (((isLast1_iff t).mp h).symm.trans hz) (by decide))
      (blk1 V c 0 t) (blk1 V c 1 t)).1 := by
  obtain ⟨n, hn⟩ := t
  cases n with
  | zero => rfl
  | succ n => exact absurd hz (Nat.succ_ne_zero n)

theorem accAt1_mid (c : Dev nD) (t : Fin cfg1.N) (hz : t.val ≠ 0) (hl : t.val ≠ 24) :
    accAt1 V c t.val t.isLt = asBlock1 (runMid1 c (grid1.coords t) (idsM1 t) (idsW1 t) (featsM1 t) (featsW1 t) (outM1 t) (outW1 t) accM1
      (Memref.isWhole_whole _) (fun h => hz ((isFirst1_iff t).mp h)) (fun h => hl ((isLast1_iff t).mp h))
      (blk1 V c 0 t) (blk1 V c 1 t) (accAt1 V c (t.val - 1) (Nat.lt_of_le_of_lt (Nat.sub_le _ _) t.isLt))).1 := by
  obtain ⟨n, hn⟩ := t
  cases n with
  | zero => exact absurd rfl hz
  | succ n => exact (dif_neg hl).trans rfl

theorem accAt1_last (c : Dev nD) (t : Fin cfg1.N) (hz : t.val ≠ 0) (hl : t.val = 24) :
    accAt1 V c t.val t.isLt = asBlock1 (runLast1 c (grid1.coords t) (idsM1 t) (idsW1 t) (featsM1 t) (featsW1 t) (outM1 t) (outW1 t) accM1
      (Memref.isWhole_whole _) (fun h => hz ((isFirst1_iff t).mp h)) ((isLast1_iff t).mpr hl)
      (blk1 V c 0 t) (blk1 V c 1 t) (accAt1 V c (t.val - 1) (Nat.lt_of_le_of_lt (Nat.sub_le _ _) t.isLt))).2.1 := by
  obtain ⟨n, hn⟩ := t
  cases n with
  | zero => exact absurd rfl hz
  | succ n => exact (dif_pos hl).trans rfl

theorem outAt1_last (c : Dev nD) (t : Fin cfg1.N) (hz : t.val ≠ 0) (hl : t.val = 24) :
    outAt1 V c t.val t.isLt = asBlock1 (runLast1 c (grid1.coords t) (idsM1 t) (idsW1 t) (featsM1 t) (featsW1 t) (outM1 t) (outW1 t) accM1
      (Memref.isWhole_whole _) (fun h => hz ((isFirst1_iff t).mp h)) ((isLast1_iff t).mpr hl)
      (blk1 V c 0 t) (blk1 V c 1 t) (accAt1 V c (t.val - 1) (Nat.lt_of_le_of_lt (Nat.sub_le _ _) t.isLt))).1 := by
  unfold outAt1; rw [dif_neg hz, dif_pos hl]

/-- The invariant before position n: before the first point the scoped buffers at anything; afterwards the
    accumulator at the running sum, the other scoped buffers unopened. The generator register rides along. -/
def PhiAt1 (c : Dev nD) : (n : ℕ) → n ≤ cfg1.N → sProp 𝕄
  | 0, _ => Pipeline.ΦA spec1 c
  | n + 1, hn => iprop(iprop(owns (c : Thread nD τ) accM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiAt1_zero (c : Dev nD) (n : ℕ) (h : n ≤ cfg1.N) (hz : n = 0) : PhiAt1 V c n h = Pipeline.ΦA spec1 c := by
  subst hz; rfl
theorem PhiAt1_succ (c : Dev nD) (n : ℕ) (hn : n < cfg1.N) :
    PhiAt1 V c (n + 1) hn = iprop(iprop(owns (c : Thread nD τ) accM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl
theorem PhiAt1_pos (c : Dev nD) (n : ℕ) (h : n ≤ cfg1.N) (hz : n ≠ 0) :
    PhiAt1 V c n h = iprop(iprop(owns (c : Thread nD τ) accM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The region's proof data: the arrays as V has them; after the body each input's buffer at its block, the output's
    at outAt1; the invariant PhiAt1; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t.val t.isLt
  Φ t := PhiAt1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiAt1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t.val t.isLt := by dsimp only [dat1]
theorem before1_0 (c : Dev nD) (t : Fin cfg1.N) (d) : (dat1 V c).before 0 t d = blk1 V c 0 t :=
  found1_0_of V (dat1 V c) (A_eq1 V c 0) (after1_0 V c) t d
theorem before1_1 (c : Dev nD) (t : Fin cfg1.N) (d) : (dat1 V c).before 1 t d = blk1 V c 1 t :=
  found1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (idsM1 t) fullShare ((dat1 V c).before 0 t d))
    ∗ (∃ d, owns (c : Thread nD τ) (featsM1 t) fullShare ((dat1 V c).before 1 t d))
    ∗ (∃ d, owns (c : Thread nD τ) (outM1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiAt1 V c (t.val + 1) t.isLt from rfl, PhiAt1_succ]
  rw [show (dat1 V c).leavesExact 0 t = owns (c : Thread nD τ) (idsM1 t) fullShare ((dat1 V c).after 0 t) from by
    unfold Dat.leavesExact; rw [inLive1_0 t], after1_0]
  rw [show (dat1 V c).leavesExact 1 t = owns (c : Thread nD τ) (featsM1 t) fullShare ((dat1 V c).after 1 t) from by
    unfold Dat.leavesExact; rw [inLive1_1 t], after1_1]
  have hN : t.val < 25 := lt_of_lt_of_eq t.isLt (show cfg1.N = 25 from N_1)
  by_cases hz : t.val = 0
  · have hl : ¬ t.val = 24 := by omega
    have hnl : ¬isLast1 (grid1.coords t) := fun h => hl ((isLast1_iff t).mp h)
    rw [Dat.leavesExact_idle (dat1 V c) 2 t (outIdle1 t hnl) (outKept1 t hnl)]
    rw [accAt1_first V c t hz]
    rw [Phi1_castSucc V c t, PhiAt1_zero V c _ _ hz, PhiA1_split]
    iintro ⟨⟨⟨HS, Hrest⟩, Hg⟩, Ho, ⟨%d0, H0⟩, ⟨%d1, H1⟩, ⟨%d2, H2⟩⟩
    iapply ((runFirst1 c (grid1.coords t) _ _ _ _ _ _ _ _ ((isFirst1_iff t).mpr hz) hnl (blk1 V c 0 t) (blk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst1 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast1 (grid1.coords t) := (isLast1_iff t).mpr hl
      rw [show (dat1 V c).leavesExact 2 t = owns (c : Thread nD τ) (outM1 t) fullShare ((dat1 V c).after 2 t) from by
        unfold Dat.leavesExact; rw [outLive1 t hil], after1_2]
      rw [accAt1_last V c t hz hl, outAt1_last V c t hz hl]
      rw [Phi1_castSucc V c t, PhiAt1_pos V c _ _ hz]
      iintro ⟨⟨⟨HS, Hrest⟩, Hg⟩, Ho, ⟨%d0, H0⟩, ⟨%d1, H1⟩, ⟨%d2, H2⟩⟩
      iapply ((runLast1 c (grid1.coords t) _ _ _ _ _ _ _ _ (fun h => hz ((isFirst1_iff t).mp h)) hil (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc1 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut1 c _ _ _ _ _ _ _ _ _ _ _ _ _ _)
    · have hnl : ¬isLast1 (grid1.coords t) := fun h => hl ((isLast1_iff t).mp h)
      rw [Dat.leavesExact_idle (dat1 V c) 2 t (outIdle1 t hnl) (outKept1 t hnl)]
      rw [accAt1_mid V c t hz hl]
      rw [Phi1_castSucc V c t, PhiAt1_pos V c _ _ hz]
      iintro ⟨⟨⟨HS, Hrest⟩, Hg⟩, Ho, ⟨%d0, H0⟩, ⟨%d1, H1⟩, ⟨%d2, H2⟩⟩
      iapply ((runMid1 c (grid1.coords t) _ _ _ _ _ _ _ _ (fun h => hz ((isFirst1_iff t).mp h)) hnl (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid1 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

/-- The invariant's two ends: it starts as the class invariant and gives it back (the running sum forgotten). -/
theorem Phi1_in (c : Dev nD) : Pipeline.ΦA spec1 c ⊢ (dat1 V c).Φ 0 := by
  rw [show (dat1 V c).Φ 0 = PhiAt1 V c 0 (Nat.zero_le _) from rfl, PhiAt1_zero V c 0 _ rfl]
  try exact Idealize.SL.BI.Entails.refl _
theorem Phi1_out (c : Dev nD) : (dat1 V c).Φ (Fin.last cfg1.N) ⊢ Pipeline.ΦA spec1 c := by
  rw [show (dat1 V c).Φ (Fin.last cfg1.N) = PhiAt1 V c (Fin.last cfg1.N).val (Nat.le_of_lt_succ (Fin.last cfg1.N).isLt) from rfl,
    PhiAt1_pos V c _ _ (by rw [Fin.val_last]; have : cfg1.N = 25 := N_1; omega), PhiA1_split]
  iintro ⟨⟨HS, Hrest⟩, Hg⟩
  isplitl [HS Hrest]
  · isplitl [HS]; · iexists _; iexact HS
    iexact Hrest
  iexact Hg

end Region

end Cert.Kernel.Hand

end
-- ==== Proof.BPool2.lean ====
/-
  A pooling call (pallas_call 2): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt2: by recursion on the point, each step the body's own arithmetic k2_pay2 of the
  two staged blocks and the previous sum, the first step over the cleared accumulator k2_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst2 (i : grid2.Coords) : Prop :=
  (Scalar.cmpi .ne (Scalar.extui (Scalar.cmpi .eq (BitVec.ofNat 32 (i 0).val) 0#32)) 0#32) = 1#1
/-- The body's second conditional: the grid coordinate is the last one. -/
abbrev isLast2 (i : grid2.Coords) : Prop := k2_cond2 i = 1#1

theorem isFirst2_iff : ∀ t : Fin cfg2.N, isFirst2 (grid2.coords t) ↔ t.val = 0 :=
  (by decide +kernel : ∀ t : Fin grid2.N, isFirst2 (grid2.coords t) ↔ t.val = 0)
theorem isLast2_iff : ∀ t : Fin cfg2.N, isLast2 (grid2.coords t) ↔ t.val = 24 :=
  (by decide +kernel : ∀ t : Fin grid2.N, isLast2 (grid2.coords t) ↔ t.val = 24)

/-- The two input windows are in use at every point. -/
theorem inLive2_0 : ∀ t : Fin cfg2.N, cfg2.idle 0 (grid2.coords t) = false := by decide +kernel
theorem inLive2_1 : ∀ t : Fin cfg2.N, cfg2.idle 1 (grid2.coords t) = false := by decide +kernel
/-- Away from the last point the output window is left alone and is not written back; -/
theorem outIdle2 : ∀ t : Fin cfg2.N, ¬isLast2 (grid2.coords t) → cfg2.idle 2 (grid2.coords t) = true := by decide +kernel
theorem outKept2 : ∀ t : Fin cfg2.N, ¬isLast2 (grid2.coords t) → (cfg2.win 2).flush t = false := by decide +kernel
/-- at the last point it is stored into. -/
theorem outLive2 : ∀ t : Fin cfg2.N, isLast2 (grid2.coords t) → cfg2.idle 2 (grid2.coords t) = false := by decide +kernel

/-! ## The staging memrefs and the accumulator -/

abbrev idsM2 (t : Fin cfg2.N) : Memref sig .tc .vmem S2000x1 .i32 := win2_0.stage (cfg2.slots t 0)
abbrev idsW2 (t : Fin cfg2.N) : (idsM2 t).IsWhole := hstage2_0 ((cfg2.slots t 0).cast nbuf2_0)
abbrev featsM2 (t : Fin cfg2.N) : Memref sig .tc .vmem S2000x128 .f32 := win2_1.stage (cfg2.slots t 1)
abbrev featsW2 (t : Fin cfg2.N) : (featsM2 t).IsWhole := hstage2_1 ((cfg2.slots t 1).cast nbuf2_1)
abbrev outM2 (t : Fin cfg2.N) : Memref sig .tc .vmem S128x128 .f32 := win2_2.stage (cfg2.slots t 2)
abbrev outW2 (t : Fin cfg2.N) : (outM2 t).IsWhole := hstage2_2 ((cfg2.slots t 2).cast nbuf2_2)
/-- The accumulator: a scratch buffer of the call's own. -/
abbrev accM2 : Memref sig .tc .vmem S128x128 .f32 := Memref.whole cc2_scratch0
/-- A view through which a 128 × 128 block's contents are stated (which buffer it is does not matter). -/
abbrev accV2 : View sig .tc .vmem S128x128 .f32 := accM2.view

/-- The region's invariant with the accumulator singled out: the accumulator at some contents, the other scoped
    buffers unopened, the generator register at some state. -/
theorem PhiA2_split (c : Dev nD) :
    (Pipeline.ΦA spec2 c : sProp 𝕄)
      = iprop(iprop((∃ d, owns (c : Thread nD τ) accM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [accM2, owns_whole]; try rfl

/-! ## The body, case by case -/

set_option maxHeartbeats 4000000 in
/-- At the first point: from the two input blocks and the accumulator at anything, the body leaves the inputs and
    the output's buffer as they were and the accumulator with the pieces the run finds. -/
noncomputable def runFirst2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst2 i) (hl : ¬isLast2 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, fun y3 E K => ?run⟩
  case run =>
    simp only [cc2__pool_kernel_eq_skeleton]; unfold cc2__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : ¬isLast2 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, fun y3 E K => ?run⟩
  case run =>
    simp only [cc2__pool_kernel_eq_skeleton]; unfold cc2__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : isLast2 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, ?_, fun E K => ?run⟩
  case run =>
    simp only [cc2__pool_kernel_eq_skeleton]; unfold cc2__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst2 (c : Dev nD) (i : grid2.Coords) (a1 h1 a2 h2 a3 h3 a4 h4) (hf : isFirst2 i) (hl : ¬isLast2 i)
    (x1 : Vec F S2000x1 .i32) (x2 : Vec F S2000x128 .f32) (y : S128x128.Idx) :
    ∃ pc ∈ (runFirst2 c i a1 h1 a2 h2 a3 h3 a4 h4 hf hl x1 x2).1, y ∈ pc.1.set :=
  View.cover_of_tiledL (runFirst2 c i a1 h1 a2 h2 a3 h3 a4 h4 hf hl x1 x2).1 S128x128.size (by sl_kernel_rfl) y
theorem coverMid2 (c : Dev nD) (i : grid2.Coords) (a1 h1 a2 h2 a3 h3 a4 h4) (hf : ¬isFirst2 i) (hl : ¬isLast2 i)
    (x1 : Vec F S2000x1 .i32) (x2 : Vec F S2000x128 .f32) (s : Vec F S128x128 .f32) (y : S128x128.Idx) :
    ∃ pc ∈ (runMid2 c i a1 h1 a2 h2 a3 h3 a4 h4 hf hl x1 x2 s).1, y ∈ pc.1.set :=
  View.cover_of_tiledL (runMid2 c i a1 h1 a2 h2 a3 h3 a4 h4 hf hl x1 x2 s).1 S128x128.size (by sl_kernel_rfl) y
theorem coverLastAcc2 (c : Dev nD) (i : grid2.Coords) (a1 h1 a2 h2 a3 h3 a4 h4) (hf : ¬isFirst2 i) (hl : isLast2 i)
    (x1 : Vec F S2000x1 .i32) (x2 : Vec F S2000x128 .f32) (s : Vec F S128x128 .f32) (y : S128x128.Idx) :
    ∃ pc ∈ (runLast2 c i a1 h1 a2 h2 a3 h3 a4 h4 hf hl x1 x2 s).2.1, y ∈ pc.1.set :=
  View.cover_of_tiledL (runLast2 c i a1 h1 a2 h2 a3 h3 a4 h4 hf hl x1 x2 s).2.1 S128x128.size (by sl_kernel_rfl) y
theorem coverLastOut2 (c : Dev nD) (i : grid2.Coords) (a1 h1 a2 h2 a3 h3 a4 h4) (hf : ¬isFirst2 i) (hl : isLast2 i)
    (x1 : Vec F S2000x1 .i32) (x2 : Vec F S2000x128 .f32) (s : Vec F S128x128 .f32) (y : S128x128.Idx) :
    ∃ pc ∈ (runLast2 c i a1 h1 a2 h2 a3 h3 a4 h4 hf hl x1 x2 s).1, y ∈ pc.1.set :=
  View.cover_of_tiledL (runLast2 c i a1 h1 a2 h2 a3 h3 a4 h4 hf hl x1 x2 s).1 S128x128.size (by sl_kernel_rfl) y

/-- A list of pieces read back as one block. -/
abbrev asBlock2 (L : List (View.Piece (Elt F) S128x128 .f32)) : Vec F S128x128 .f32 :=
  accV2.read (Elt F) (accV2.writes (Elt F) accV2.junk L)

/-! ## The region, entered at the contents V -/

section Region
variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data over V that leaves it there. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- THE RUNNING SUM: what the accumulator holds after the body at position n. -/
def accAt2 (c : Dev nD) : (n : ℕ) → n < cfg2.N → Vec F S128x128 .f32
  | 0, hn => asBlock2 (runFirst2 c (grid2.coords ⟨0, hn⟩) (idsM2 ⟨0, hn⟩) (idsW2 ⟨0, hn⟩) (featsM2 ⟨0, hn⟩) (featsW2 ⟨0, hn⟩)
      (outM2 ⟨0, hn⟩) (outW2 ⟨0, hn⟩) accM2 (Memref.isWhole_whole _) ((isFirst2_iff ⟨0, hn⟩).mpr rfl)
      (fun h => absurd (show (0 : ℕ) = 24 from (isLast2_iff ⟨0, hn⟩).mp h) (by decide)) (blk2 V c 0 ⟨0, hn⟩) (blk2 V c 1 ⟨0, hn⟩)).1
  | n + 1, hn =>
    if hl : n + 1 = 24 then
      asBlock2 (runLast2 c (grid2.coords ⟨n + 1, hn⟩) (idsM2 ⟨n + 1, hn⟩) (idsW2 ⟨n + 1, hn⟩) (featsM2 ⟨n + 1, hn⟩) (featsW2 ⟨n + 1, hn⟩)
        (outM2 ⟨n + 1, hn⟩) (outW2 ⟨n + 1, hn⟩) accM2 (Memref.isWhole_whole _)
        (fun h => absurd ((isFirst2_iff ⟨n + 1, hn⟩).mp h) (Nat.succ_ne_zero n)) ((isLast2_iff ⟨n + 1, hn⟩).mpr hl)
        (blk2 V c 0 ⟨n + 1, hn⟩) (blk2 V c 1 ⟨n + 1, hn⟩) (accAt2 c n (Nat.lt_of_succ_lt hn))).2.1
    else
      asBlock2 (runMid2 c (grid2.coords ⟨n + 1, hn⟩) (idsM2 ⟨n + 1, hn⟩) (idsW2 ⟨n + 1, hn⟩) (featsM2 ⟨n + 1, hn⟩) (featsW2 ⟨n + 1, hn⟩)
        (outM2 ⟨n + 1, hn⟩) (outW2 ⟨n + 1, hn⟩) accM2 (Memref.isWhole_whole _)
        (fun h => absurd ((isFirst2_iff ⟨n + 1, hn⟩).mp h) (Nat.succ_ne_zero n)) (fun h => hl ((isLast2_iff ⟨n + 1, hn⟩).mp h))
        (blk2 V c 0 ⟨n + 1, hn⟩) (blk2 V c 1 ⟨n + 1, hn⟩) (accAt2 c n (Nat.lt_of_succ_lt hn))).1

/-- What the output's staging buffer holds after the body at position n: at the last point the pieces stored there;
    elsewhere the window is idle and this value is never consulted. -/
def outAt2 (c : Dev nD) (n : ℕ) (hn : n < cfg2.N) : Vec F S128x128 .f32 :=
  if hz : n = 0 then asBlock2 []
  else if hl : n = 24 then
    asBlock2 (runLast2 c (grid2.coords ⟨n, hn⟩) (idsM2 ⟨n, hn⟩) (idsW2 ⟨n, hn⟩) (featsM2 ⟨n, hn⟩) (featsW2 ⟨n, hn⟩)
      (outM2 ⟨n, hn⟩) (outW2 ⟨n, hn⟩) accM2 (Memref.isWhole_whole _)
      (fun h => hz ((isFirst2_iff ⟨n, hn⟩).mp h)) ((isLast2_iff ⟨n, hn⟩).mpr hl)
      (blk2 V c 0 ⟨n, hn⟩) (blk2 V c 1 ⟨n, hn⟩) (accAt2 V c (n - 1) (Nat.lt_of_le_of_lt (Nat.sub_le _ _) hn))).1
  else asBlock2 []

end Region

section Region
variable (V : (c : Dev nD) → (b : Ref sig .tc) → Buf (Elt F) ((c : Thread nD τ).loc b))

theorem accAt2_first (c : Dev nD) (t : Fin cfg2.N) (hz : t.val = 0) :
    accAt2 V c t.val t.isLt = asBlock2 (runFirst2 c (grid2.coords t) (idsM2 t) (idsW2 t) (featsM2 t) (featsW2 t) (outM2 t) (outW2 t) accM2
      (Memref.isWhole_whole _) ((isFirst2_iff t).mpr hz) (fun h => absurd (((isLast2_iff t).mp h).symm.trans hz) (by decide))
      (blk2 V c 0 t) (blk2 V c 1 t)).1 := by
  obtain ⟨n, hn⟩ := t
  cases n with
  | zero => rfl
  | succ n => exact absurd hz (Nat.succ_ne_zero n)

theorem accAt2_mid (c : Dev nD) (t : Fin cfg2.N) (hz : t.val ≠ 0) (hl : t.val ≠ 24) :
    accAt2 V c t.val t.isLt = asBlock2 (runMid2 c (grid2.coords t) (idsM2 t) (idsW2 t) (featsM2 t) (featsW2 t) (outM2 t) (outW2 t) accM2
      (Memref.isWhole_whole _) (fun h => hz ((isFirst2_iff t).mp h)) (fun h => hl ((isLast2_iff t).mp h))
      (blk2 V c 0 t) (blk2 V c 1 t) (accAt2 V c (t.val - 1) (Nat.lt_of_le_of_lt (Nat.sub_le _ _) t.isLt))).1 := by
  obtain ⟨n, hn⟩ := t
  cases n with
  | zero => exact absurd rfl hz
  | succ n => exact (dif_neg hl).trans rfl

theorem accAt2_last (c : Dev nD) (t : Fin cfg2.N) (hz : t.val ≠ 0) (hl : t.val = 24) :
    accAt2 V c t.val t.isLt = asBlock2 (runLast2 c (grid2.coords t) (idsM2 t) (idsW2 t) (featsM2 t) (featsW2 t) (outM2 t) (outW2 t) accM2
      (Memref.isWhole_whole _) (fun h => hz ((isFirst2_iff t).mp h)) ((isLast2_iff t).mpr hl)
      (blk2 V c 0 t) (blk2 V c 1 t) (accAt2 V c (t.val - 1) (Nat.lt_of_le_of_lt (Nat.sub_le _ _) t.isLt))).2.1 := by
  obtain ⟨n, hn⟩ := t
  cases n with
  | zero => exact absurd rfl hz
  | succ n => exact (dif_pos hl).trans rfl

theorem outAt2_last (c : Dev nD) (t : Fin cfg2.N) (hz : t.val ≠ 0) (hl : t.val = 24) :
    outAt2 V c t.val t.isLt = asBlock2 (runLast2 c (grid2.coords t) (idsM2 t) (idsW2 t) (featsM2 t) (featsW2 t) (outM2 t) (outW2 t) accM2
      (Memref.isWhole_whole _) (fun h => hz ((isFirst2_iff t).mp h)) ((isLast2_iff t).mpr hl)
      (blk2 V c 0 t) (blk2 V c 1 t) (accAt2 V c (t.val - 1) (Nat.lt_of_le_of_lt (Nat.sub_le _ _) t.isLt))).1 := by
  unfold outAt2; rw [dif_neg hz, dif_pos hl]

/-- The invariant before position n: before the first point the scoped buffers at anything; afterwards the
    accumulator at the running sum, the other scoped buffers unopened. The generator register rides along. -/
def PhiAt2 (c : Dev nD) : (n : ℕ) → n ≤ cfg2.N → sProp 𝕄
  | 0, _ => Pipeline.ΦA spec2 c
  | n + 1, hn => iprop(iprop(owns (c : Thread nD τ) accM2 fullShare (accAt2 V c n hn)
      ∗ Pipeline.scopedRestBut (Ix := Unit) (Name := ℕ) (U := UR sig nD τ) (Lvl := ℕ) (Val := Elt F) spec2 c [cc2_scratch0])
      ∗ (∃ r, prngReg c r))

theorem PhiAt2_zero (c : Dev nD) (n : ℕ) (h : n ≤ cfg2.N) (hz : n = 0) : PhiAt2 V c n h = Pipeline.ΦA spec2 c := by
  subst hz; rfl
theorem PhiAt2_succ (c : Dev nD) (n : ℕ) (hn : n < cfg2.N) :
    PhiAt2 V c (n + 1) hn = iprop(iprop(owns (c : Thread nD τ) accM2 fullShare (accAt2 V c n hn)
      ∗ Pipeline.scopedRestBut (Ix := Unit) (Name := ℕ) (U := UR sig nD τ) (Lvl := ℕ) (Val := Elt F) spec2 c [cc2_scratch0])
      ∗ (∃ r, prngReg c r)) := rfl
theorem PhiAt2_pos (c : Dev nD) (n : ℕ) (h : n ≤ cfg2.N) (hz : n ≠ 0) :
    PhiAt2 V c n h = iprop(iprop(owns (c : Thread nD τ) accM2 fullShare (accAt2 V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The region's proof data: the arrays as V has them; after the body each input's buffer at its block, the output's
    at outAt2; the invariant PhiAt2; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => outAt2 V c t.val t.isLt
  Φ t := PhiAt2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAt2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = outAt2 V c t.val t.isLt := by dsimp only [dat2]
theorem before2_0 (c : Dev nD) (t : Fin cfg2.N) (d) : (dat2 V c).before 0 t d = blk2 V c 0 t :=
  found2_0_of V (dat2 V c) (A_eq2 V c 0) (after2_0 V c) t d
theorem before2_1 (c : Dev nD) (t : Fin cfg2.N) (d) : (dat2 V c).before 1 t d = blk2 V c 1 t :=
  found2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (idsM2 t) fullShare ((dat2 V c).before 0 t d))
    ∗ (∃ d, owns (c : Thread nD τ) (featsM2 t) fullShare ((dat2 V c).before 1 t d))
    ∗ (∃ d, owns (c : Thread nD τ) (outM2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiAt2 V c (t.val + 1) t.isLt from rfl, PhiAt2_succ]
  rw [show (dat2 V c).leavesExact 0 t = owns (c : Thread nD τ) (idsM2 t) fullShare ((dat2 V c).after 0 t) from by
    unfold Dat.leavesExact; rw [inLive2_0 t], after2_0]
  rw [show (dat2 V c).leavesExact 1 t = owns (c : Thread nD τ) (featsM2 t) fullShare ((dat2 V c).after 1 t) from by
    unfold Dat.leavesExact; rw [inLive2_1 t], after2_1]
  have hN : t.val < 25 := lt_of_lt_of_eq t.isLt (show cfg2.N = 25 from N_2)
  by_cases hz : t.val = 0
  · have hl : ¬ t.val = 24 := by omega
    have hnl : ¬isLast2 (grid2.coords t) := fun h => hl ((isLast2_iff t).mp h)
    rw [Dat.leavesExact_idle (dat2 V c) 2 t (outIdle2 t hnl) (outKept2 t hnl)]
    rw [accAt2_first V c t hz]
    rw [Phi2_castSucc V c t, PhiAt2_zero V c _ _ hz, PhiA2_split]
    iintro ⟨⟨⟨HS, Hrest⟩, Hg⟩, Ho, ⟨%d0, H0⟩, ⟨%d1, H1⟩, ⟨%d2, H2⟩⟩
    iapply ((runFirst2 c (grid2.coords t) _ _ _ _ _ _ _ _ ((isFirst2_iff t).mpr hz) hnl (blk2 V c 0 t) (blk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst2 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast2 (grid2.coords t) := (isLast2_iff t).mpr hl
      rw [show (dat2 V c).leavesExact 2 t = owns (c : Thread nD τ) (outM2 t) fullShare ((dat2 V c).after 2 t) from by
        unfold Dat.leavesExact; rw [outLive2 t hil], after2_2]
      rw [accAt2_last V c t hz hl, outAt2_last V c t hz hl]
      rw [Phi2_castSucc V c t, PhiAt2_pos V c _ _ hz]
      iintro ⟨⟨⟨HS, Hrest⟩, Hg⟩, Ho, ⟨%d0, H0⟩, ⟨%d1, H1⟩, ⟨%d2, H2⟩⟩
      iapply ((runLast2 c (grid2.coords t) _ _ _ _ _ _ _ _ (fun h => hz ((isFirst2_iff t).mp h)) hil (blk2 V c 0 t) (blk2 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc2 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut2 c _ _ _ _ _ _ _ _ _ _ _ _ _ _)
    · have hnl : ¬isLast2 (grid2.coords t) := fun h => hl ((isLast2_iff t).mp h)
      rw [Dat.leavesExact_idle (dat2 V c) 2 t (outIdle2 t hnl) (outKept2 t hnl)]
      rw [accAt2_mid V c t hz hl]
      rw [Phi2_castSucc V c t, PhiAt2_pos V c _ _ hz]
      iintro ⟨⟨⟨HS, Hrest⟩, Hg⟩, Ho, ⟨%d0, H0⟩, ⟨%d1, H1⟩, ⟨%d2, H2⟩⟩
      iapply ((runMid2 c (grid2.coords t) _ _ _ _ _ _ _ _ (fun h => hz ((isFirst2_iff t).mp h)) hnl (blk2 V c 0 t) (blk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid2 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

/-- The invariant's two ends: it starts as the class invariant and gives it back (the running sum forgotten). -/
theorem Phi2_in (c : Dev nD) : Pipeline.ΦA spec2 c ⊢ (dat2 V c).Φ 0 := by
  rw [show (dat2 V c).Φ 0 = PhiAt2 V c 0 (Nat.zero_le _) from rfl, PhiAt2_zero V c 0 _ rfl]
  try exact Idealize.SL.BI.Entails.refl _
theorem Phi2_out (c : Dev nD) : (dat2 V c).Φ (Fin.last cfg2.N) ⊢ Pipeline.ΦA spec2 c := by
  rw [show (dat2 V c).Φ (Fin.last cfg2.N) = PhiAt2 V c (Fin.last cfg2.N).val (Nat.le_of_lt_succ (Fin.last cfg2.N).isLt) from rfl,
    PhiAt2_pos V c _ _ (by rw [Fin.val_last]; have : cfg2.N = 25 := N_2; omega), PhiA2_split]
  iintro ⟨⟨HS, Hrest⟩, Hg⟩
  isplitl [HS Hrest]
  · isplitl [HS]; · iexists _; iexact HS
    iexact Hrest
  iexact Hg

end Region

end Cert.Kernel.Hand

end
-- ==== Proof.BComb3.lean ====
/- The class-A half of custom_call 3 (`cc3__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelLaunchP
import proofs.«170580_j11665131176635_1_alg».proof.Proof.Gen.Kernel.Skeleton
import proofs.«170580_j11665131176635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there, for any proof data whose array is `V`'s (`hA`) and whose body leaves the block in place (`hafter`):
    where it was not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the pipeline fetched it
    there, for any proof data whose array is `V`'s (`hA`) and whose body leaves the block in place (`hafter`):
    where it was not fetched the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the pipeline fetched it
    there, for any proof data whose array is `V`'s (`hA`) and whose body leaves the block in place (`hafter`):
    where it was not fetched the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the pipeline fetched it
    there, for any proof data whose array is `V`'s (`hA`) and whose body leaves the block in place (`hafter`):
    where it was not fetched the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not the pipeline fetched it
    there, for any proof data whose array is `V`'s (`hA`) and whose body leaves the block in place (`hafter`):
    where it was not fetched the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether or not the pipeline fetched it
    there, for any proof data whose array is `V`'s (`hA`) and whose body leaves the block in place (`hafter`):
    where it was not fetched the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out3_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r3_S2000x128, k3_pay1 (View.ld x2 r3_S2000x1) (View.ld x3 r3_S128x128) (View.ld x0 r3_S2000x128) (View.ld x1 r3_S2000x128) (View.ld x4 r3_S128x128) (View.ld x5 r3_S1x128)⟩]

/-- The one store is of the whole buffer, so it covers it. -/
theorem cover3_6 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

/-! ## The body's triple -/

set_option maxHeartbeats 4000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and the output's at `out3_6` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.BPool4.lean ====
/-
  A pooling call (pallas_call 4): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt4: by recursion on the point, each step the body's own arithmetic k4_pay2 of the
  two staged blocks and the previous sum, the first step over the cleared accumulator k4_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst4 (i : grid4.Coords) : Prop :=
  (Scalar.cmpi .ne (Scalar.extui (Scalar.cmpi .eq (BitVec.ofNat 32 (i 0).val) 0#32)) 0#32) = 1#1
/-- The body's second conditional: the grid coordinate is the last one. -/
abbrev isLast4 (i : grid4.Coords) : Prop := k4_cond2 i = 1#1

theorem isFirst4_iff : ∀ t : Fin cfg4.N, isFirst4 (grid4.coords t) ↔ t.val = 0 :=
  (by decide +kernel : ∀ t : Fin grid4.N, isFirst4 (grid4.coords t) ↔ t.val = 0)
theorem isLast4_iff : ∀ t : Fin cfg4.N, isLast4 (grid4.coords t) ↔ t.val = 24 :=
  (by decide +kernel : ∀ t : Fin grid4.N, isLast4 (grid4.coords t) ↔ t.val = 24)

/-- The two input windows are in use at every point. -/
theorem inLive4_0 : ∀ t : Fin cfg4.N, cfg4.idle 0 (grid4.coords t) = false := by decide +kernel
theorem inLive4_1 : ∀ t : Fin cfg4.N, cfg4.idle 1 (grid4.coords t) = false := by decide +kernel
/-- Away from the last point the output window is left alone and is not written back; -/
theorem outIdle4 : ∀ t : Fin cfg4.N, ¬isLast4 (grid4.coords t) → cfg4.idle 2 (grid4.coords t) = true := by decide +kernel
theorem outKept4 : ∀ t : Fin cfg4.N, ¬isLast4 (grid4.coords t) → (cfg4.win 2).flush t = false := by decide +kernel
/-- at the last point it is stored into. -/
theorem outLive4 : ∀ t : Fin cfg4.N, isLast4 (grid4.coords t) → cfg4.idle 2 (grid4.coords t) = false := by decide +kernel

/-! ## The staging memrefs and the accumulator -/

abbrev idsM4 (t : Fin cfg4.N) : Memref sig .tc .vmem S2000x1 .i32 := win4_0.stage (cfg4.slots t 0)
abbrev idsW4 (t : Fin cfg4.N) : (idsM4 t).IsWhole := hstage4_0 ((cfg4.slots t 0).cast nbuf4_0)
abbrev featsM4 (t : Fin cfg4.N) : Memref sig .tc .vmem S2000x128 .f32 := win4_1.stage (cfg4.slots t 1)
abbrev featsW4 (t : Fin cfg4.N) : (featsM4 t).IsWhole := hstage4_1 ((cfg4.slots t 1).cast nbuf4_1)
abbrev outM4 (t : Fin cfg4.N) : Memref sig .tc .vmem S128x128 .f32 := win4_2.stage (cfg4.slots t 2)
abbrev outW4 (t : Fin cfg4.N) : (outM4 t).IsWhole := hstage4_2 ((cfg4.slots t 2).cast nbuf4_2)
/-- The accumulator: a scratch buffer of the call's own. -/
abbrev accM4 : Memref sig .tc .vmem S128x128 .f32 := Memref.whole cc4_scratch0
/-- A view through which a 128 × 128 block's contents are stated (which buffer it is does not matter). -/
abbrev accV4 : View sig .tc .vmem S128x128 .f32 := accM4.view

/-- The region's invariant with the accumulator singled out: the accumulator at some contents, the other scoped
    buffers unopened, the generator register at some state. -/
theorem PhiA4_split (c : Dev nD) :
    (Pipeline.ΦA spec4 c : sProp 𝕄)
      = iprop(iprop((∃ d, owns (c : Thread nD τ) accM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accM4, owns_whole]; try rfl

/-! ## The body, case by case -/

set_option maxHeartbeats 4000000 in
/-- At the first point: from the two input blocks and the accumulator at anything, the body leaves the inputs and
    the output's buffer as they were and the accumulator with the pieces the run finds. -/
noncomputable def runFirst4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst4 i) (hl : ¬isLast4 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, fun y3 E K => ?run⟩
  case run =>
    simp only [cc4__pool_kernel_eq_skeleton]; unfold cc4__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : ¬isLast4 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, fun y3 E K => ?run⟩
  case run =>
    simp only [cc4__pool_kernel_eq_skeleton]; unfold cc4__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : isLast4 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, ?_, fun E K => ?run⟩
  case run =>
    simp only [cc4__pool_kernel_eq_skeleton]; unfold cc4__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst4 (c : Dev nD) (i : grid4.Coords) (a1 h1 a2 h2 a3 h3 a4 h4) (hf : isFirst4 i) (hl : ¬isLast4 i)
    (x1 : Vec F S2000x1 .i32) (x2 : Vec F S2000x128 .f32) (y : S128x128.Idx) :
    ∃ pc ∈ (runFirst4 c i a1 h1 a2 h2 a3 h3 a4 h4 hf hl x1 x2).1, y ∈ pc.1.set :=
  View.cover_of_tiledL (runFirst4 c i a1 h1 a2 h2 a3 h3 a4 h4 hf hl x1 x2).1 S128x128.size (by sl_kernel_rfl) y
theorem coverMid4 (c : Dev nD) (i : grid4.Coords) (a1 h1 a2 h2 a3 h3 a4 h4) (hf : ¬isFirst4 i) (hl : ¬isLast4 i)
    (x1 : Vec F S2000x1 .i32) (x2 : Vec F S2000x128 .f32) (s : Vec F S128x128 .f32) (y : S128x128.Idx) :
    ∃ pc ∈ (runMid4 c i a1 h1 a2 h2 a3 h3 a4 h4 hf hl x1 x2 s).1, y ∈ pc.1.set :=
  View.cover_of_tiledL (runMid4 c i a1 h1 a2 h2 a3 h3 a4 h4 hf hl x1 x2 s).1 S128x128.size (by sl_kernel_rfl) y
theorem coverLastAcc4 (c : Dev nD) (i : grid4.Coords) (a1 h1 a2 h2 a3 h3 a4 h4) (hf : ¬isFirst4 i) (hl : isLast4 i)
    (x1 : Vec F S2000x1 .i32) (x2 : Vec F S2000x128 .f32) (s : Vec F S128x128 .f32) (y : S128x128.Idx) :
    ∃ pc ∈ (runLast4 c i a1 h1 a2 h2 a3 h3 a4 h4 hf hl x1 x2 s).2.1, y ∈ pc.1.set :=
  View.cover_of_tiledL (runLast4 c i a1 h1 a2 h2 a3 h3 a4 h4 hf hl x1 x2 s).2.1 S128x128.size (by sl_kernel_rfl) y
theorem coverLastOut4 (c : Dev nD) (i : grid4.Coords) (a1 h1 a2 h2 a3 h3 a4 h4) (hf : ¬isFirst4 i) (hl : isLast4 i)
    (x1 : Vec F S2000x1 .i32) (x2 : Vec F S2000x128 .f32) (s : Vec F S128x128 .f32) (y : S128x128.Idx) :
    ∃ pc ∈ (runLast4 c i a1 h1 a2 h2 a3 h3 a4 h4 hf hl x1 x2 s).1, y ∈ pc.1.set :=
  View.cover_of_tiledL (runLast4 c i a1 h1 a2 h2 a3 h3 a4 h4 hf hl x1 x2 s).1 S128x128.size (by sl_kernel_rfl) y

/-- A list of pieces read back as one block. -/
abbrev asBlock4 (L : List (View.Piece (Elt F) S128x128 .f32)) : Vec F S128x128 .f32 :=
  accV4.read (Elt F) (accV4.writes (Elt F) accV4.junk L)

/-! ## The region, entered at the contents V -/

section Region
variable (V : (c : Dev nD) → (b : Ref sig .tc) → Buf (Elt F) ((c : Thread nD τ).loc b))

/-- Window w's block at point t, read off its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data over V that leaves it there. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- THE RUNNING SUM: what the accumulator holds after the body at position n. -/
def accAt4 (c : Dev nD) : (n : ℕ) → n < cfg4.N → Vec F S128x128 .f32
  | 0, hn => asBlock4 (runFirst4 c (grid4.coords ⟨0, hn⟩) (idsM4 ⟨0, hn⟩) (idsW4 ⟨0, hn⟩) (featsM4 ⟨0, hn⟩) (featsW4 ⟨0, hn⟩)
      (outM4 ⟨0, hn⟩) (outW4 ⟨0, hn⟩) accM4 (Memref.isWhole_whole _) ((isFirst4_iff ⟨0, hn⟩).mpr rfl)
      (fun h => absurd (show (0 : ℕ) = 24 from (isLast4_iff ⟨0, hn⟩).mp h) (by decide)) (blk4 V c 0 ⟨0, hn⟩) (blk4 V c 1 ⟨0, hn⟩)).1
  | n + 1, hn =>
    if hl : n + 1 = 24 then
      asBlock4 (runLast4 c (grid4.coords ⟨n + 1, hn⟩) (idsM4 ⟨n + 1, hn⟩) (idsW4 ⟨n + 1, hn⟩) (featsM4 ⟨n + 1, hn⟩) (featsW4 ⟨n + 1, hn⟩)
        (outM4 ⟨n + 1, hn⟩) (outW4 ⟨n + 1, hn⟩) accM4 (Memref.isWhole_whole _)
        (fun h => absurd ((isFirst4_iff ⟨n + 1, hn⟩).mp h) (Nat.succ_ne_zero n)) ((isLast4_iff ⟨n + 1, hn⟩).mpr hl)
        (blk4 V c 0 ⟨n + 1, hn⟩) (blk4 V c 1 ⟨n + 1, hn⟩) (accAt4 c n (Nat.lt_of_succ_lt hn))).2.1
    else
      asBlock4 (runMid4 c (grid4.coords ⟨n + 1, hn⟩) (idsM4 ⟨n + 1, hn⟩) (idsW4 ⟨n + 1, hn⟩) (featsM4 ⟨n + 1, hn⟩) (featsW4 ⟨n + 1, hn⟩)
        (outM4 ⟨n + 1, hn⟩) (outW4 ⟨n + 1, hn⟩) accM4 (Memref.isWhole_whole _)
        (fun h => absurd ((isFirst4_iff ⟨n + 1, hn⟩).mp h) (Nat.succ_ne_zero n)) (fun h => hl ((isLast4_iff ⟨n + 1, hn⟩).mp h))
        (blk4 V c 0 ⟨n + 1, hn⟩) (blk4 V c 1 ⟨n + 1, hn⟩) (accAt4 c n (Nat.lt_of_succ_lt hn))).1

/-- What the output's staging buffer holds after the body at position n: at the last point the pieces stored there;
    elsewhere the window is idle and this value is never consulted. -/
def outAt4 (c : Dev nD) (n : ℕ) (hn : n < cfg4.N) : Vec F S128x128 .f32 :=
  if hz : n = 0 then asBlock4 []
  else if hl : n = 24 then
    asBlock4 (runLast4 c (grid4.coords ⟨n, hn⟩) (idsM4 ⟨n, hn⟩) (idsW4 ⟨n, hn⟩) (featsM4 ⟨n, hn⟩) (featsW4 ⟨n, hn⟩)
      (outM4 ⟨n, hn⟩) (outW4 ⟨n, hn⟩) accM4 (Memref.isWhole_whole _)
      (fun h => hz ((isFirst4_iff ⟨n, hn⟩).mp h)) ((isLast4_iff ⟨n, hn⟩).mpr hl)
      (blk4 V c 0 ⟨n, hn⟩) (blk4 V c 1 ⟨n, hn⟩) (accAt4 V c (n - 1) (Nat.lt_of_le_of_lt (Nat.sub_le _ _) hn))).1
  else asBlock4 []

end Region

section Region
variable (V : (c : Dev nD) → (b : Ref sig .tc) → Buf (Elt F) ((c : Thread nD τ).loc b))

theorem accAt4_first (c : Dev nD) (t : Fin cfg4.N) (hz : t.val = 0) :
    accAt4 V c t.val t.isLt = asBlock4 (runFirst4 c (grid4.coords t) (idsM4 t) (idsW4 t) (featsM4 t) (featsW4 t) (outM4 t) (outW4 t) accM4
      (Memref.isWhole_whole _) ((isFirst4_iff t).mpr hz) (fun h => absurd (((isLast4_iff t).mp h).symm.trans hz) (by decide))
      (blk4 V c 0 t) (blk4 V c 1 t)).1 := by
  obtain ⟨n, hn⟩ := t
  cases n with
  | zero => rfl
  | succ n => exact absurd hz (Nat.succ_ne_zero n)

theorem accAt4_mid (c : Dev nD) (t : Fin cfg4.N) (hz : t.val ≠ 0) (hl : t.val ≠ 24) :
    accAt4 V c t.val t.isLt = asBlock4 (runMid4 c (grid4.coords t) (idsM4 t) (idsW4 t) (featsM4 t) (featsW4 t) (outM4 t) (outW4 t) accM4
      (Memref.isWhole_whole _) (fun h => hz ((isFirst4_iff t).mp h)) (fun h => hl ((isLast4_iff t).mp h))
      (blk4 V c 0 t) (blk4 V c 1 t) (accAt4 V c (t.val - 1) (Nat.lt_of_le_of_lt (Nat.sub_le _ _) t.isLt))).1 := by
  obtain ⟨n, hn⟩ := t
  cases n with
  | zero => exact absurd rfl hz
  | succ n => exact (dif_neg hl).trans rfl

theorem accAt4_last (c : Dev nD) (t : Fin cfg4.N) (hz : t.val ≠ 0) (hl : t.val = 24) :
    accAt4 V c t.val t.isLt = asBlock4 (runLast4 c (grid4.coords t) (idsM4 t) (idsW4 t) (featsM4 t) (featsW4 t) (outM4 t) (outW4 t) accM4
      (Memref.isWhole_whole _) (fun h => hz ((isFirst4_iff t).mp h)) ((isLast4_iff t).mpr hl)
      (blk4 V c 0 t) (blk4 V c 1 t) (accAt4 V c (t.val - 1) (Nat.lt_of_le_of_lt (Nat.sub_le _ _) t.isLt))).2.1 := by
  obtain ⟨n, hn⟩ := t
  cases n with
  | zero => exact absurd rfl hz
  | succ n => exact (dif_pos hl).trans rfl

theorem outAt4_last (c : Dev nD) (t : Fin cfg4.N) (hz : t.val ≠ 0) (hl : t.val = 24) :
    outAt4 V c t.val t.isLt = asBlock4 (runLast4 c (grid4.coords t) (idsM4 t) (idsW4 t) (featsM4 t) (featsW4 t) (outM4 t) (outW4 t) accM4
      (Memref.isWhole_whole _) (fun h => hz ((isFirst4_iff t).mp h)) ((isLast4_iff t).mpr hl)
      (blk4 V c 0 t) (blk4 V c 1 t) (accAt4 V c (t.val - 1) (Nat.lt_of_le_of_lt (Nat.sub_le _ _) t.isLt))).1 := by
  unfold outAt4; rw [dif_neg hz, dif_pos hl]

/-- The invariant before position n: before the first point the scoped buffers at anything; afterwards the
    accumulator at the running sum, the other scoped buffers unopened. The generator register rides along. -/
def PhiAt4 (c : Dev nD) : (n : ℕ) → n ≤ cfg4.N → sProp 𝕄
  | 0, _ => Pipeline.ΦA spec4 c
  | n + 1, hn => iprop(iprop(owns (c : Thread nD τ) accM4 fullShare (accAt4 V c n hn)
      ∗ Pipeline.scopedRestBut (Ix := Unit) (Name := ℕ) (U := UR sig nD τ) (Lvl := ℕ) (Val := Elt F) spec4 c [cc4_scratch0])
      ∗ (∃ r, prngReg c r))

theorem PhiAt4_zero (c : Dev nD) (n : ℕ) (h : n ≤ cfg4.N) (hz : n = 0) : PhiAt4 V c n h = Pipeline.ΦA spec4 c := by
  subst hz; rfl
theorem PhiAt4_succ (c : Dev nD) (n : ℕ) (hn : n < cfg4.N) :
    PhiAt4 V c (n + 1) hn = iprop(iprop(owns (c : Thread nD τ) accM4 fullShare (accAt4 V c n hn)
      ∗ Pipeline.scopedRestBut (Ix := Unit) (Name := ℕ) (U := UR sig nD τ) (Lvl := ℕ) (Val := Elt F) spec4 c [cc4_scratch0])
      ∗ (∃ r, prngReg c r)) := rfl
theorem PhiAt4_pos (c : Dev nD) (n : ℕ) (h : n ≤ cfg4.N) (hz : n ≠ 0) :
    PhiAt4 V c n h = iprop(iprop(owns (c : Thread nD τ) accM4 fullShare (accAt4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The region's proof data: the arrays as V has them; after the body each input's buffer at its block, the output's
    at outAt4; the invariant PhiAt4; nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => outAt4 V c t.val t.isLt
  Φ t := PhiAt4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = PhiAt4 V c t.val (Nat.le_of_lt t.isLt) := by
  dsimp only [dat4]; simp only [Fin.coe_castSucc]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = outAt4 V c t.val t.isLt := by dsimp only [dat4]
theorem before4_0 (c : Dev nD) (t : Fin cfg4.N) (d) : (dat4 V c).before 0 t d = blk4 V c 0 t :=
  found4_0_of V (dat4 V c) (A_eq4 V c 0) (after4_0 V c) t d
theorem before4_1 (c : Dev nD) (t : Fin cfg4.N) (d) : (dat4 V c).before 1 t d = blk4 V c 1 t :=
  found4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (idsM4 t) fullShare ((dat4 V c).before 0 t d))
    ∗ (∃ d, owns (c : Thread nD τ) (featsM4 t) fullShare ((dat4 V c).before 1 t d))
    ∗ (∃ d, owns (c : Thread nD τ) (outM4 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiAt4 V c (t.val + 1) t.isLt from rfl, PhiAt4_succ]
  rw [show (dat4 V c).leavesExact 0 t = owns (c : Thread nD τ) (idsM4 t) fullShare ((dat4 V c).after 0 t) from by
    unfold Dat.leavesExact; rw [inLive4_0 t], after4_0]
  rw [show (dat4 V c).leavesExact 1 t = owns (c : Thread nD τ) (featsM4 t) fullShare ((dat4 V c).after 1 t) from by
    unfold Dat.leavesExact; rw [inLive4_1 t], after4_1]
  have hN : t.val < 25 := lt_of_lt_of_eq t.isLt (show cfg4.N = 25 from N_4)
  by_cases hz : t.val = 0
  · have hl : ¬ t.val = 24 := by omega
    have hnl : ¬isLast4 (grid4.coords t) := fun h => hl ((isLast4_iff t).mp h)
    rw [Dat.leavesExact_idle (dat4 V c) 2 t (outIdle4 t hnl) (outKept4 t hnl)]
    rw [accAt4_first V c t hz]
    rw [Phi4_castSucc V c t, PhiAt4_zero V c _ _ hz, PhiA4_split]
    iintro ⟨⟨⟨HS, Hrest⟩, Hg⟩, Ho, ⟨%d0, H0⟩, ⟨%d1, H1⟩, ⟨%d2, H2⟩⟩
    iapply ((runFirst4 c (grid4.coords t) _ _ _ _ _ _ _ _ ((isFirst4_iff t).mpr hz) hnl (blk4 V c 0 t) (blk4 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst4 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast4 (grid4.coords t) := (isLast4_iff t).mpr hl
      rw [show (dat4 V c).leavesExact 2 t = owns (c : Thread nD τ) (outM4 t) fullShare ((dat4 V c).after 2 t) from by
        unfold Dat.leavesExact; rw [outLive4 t hil], after4_2]
      rw [accAt4_last V c t hz hl, outAt4_last V c t hz hl]
      rw [Phi4_castSucc V c t, PhiAt4_pos V c _ _ hz]
      iintro ⟨⟨⟨HS, Hrest⟩, Hg⟩, Ho, ⟨%d0, H0⟩, ⟨%d1, H1⟩, ⟨%d2, H2⟩⟩
      iapply ((runLast4 c (grid4.coords t) _ _ _ _ _ _ _ _ (fun h => hz ((isFirst4_iff t).mp h)) hil (blk4 V c 0 t) (blk4 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc4 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut4 c _ _ _ _ _ _ _ _ _ _ _ _ _ _)
    · have hnl : ¬isLast4 (grid4.coords t) := fun h => hl ((isLast4_iff t).mp h)
      rw [Dat.leavesExact_idle (dat4 V c) 2 t (outIdle4 t hnl) (outKept4 t hnl)]
      rw [accAt4_mid V c t hz hl]
      rw [Phi4_castSucc V c t, PhiAt4_pos V c _ _ hz]
      iintro ⟨⟨⟨HS, Hrest⟩, Hg⟩, Ho, ⟨%d0, H0⟩, ⟨%d1, H1⟩, ⟨%d2, H2⟩⟩
      iapply ((runMid4 c (grid4.coords t) _ _ _ _ _ _ _ _ (fun h => hz ((isFirst4_iff t).mp h)) hnl (blk4 V c 0 t) (blk4 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid4 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation4 (c : Dev nD) : BodyObligation (dat4 (F := F) V c) (defs₀ (F := F)) Variants.none () Set.univ := fun t => by
  rw [bigSep_W4, bigSep_W4]
  exact sound_body4 V c t

/-- The invariant's two ends: it starts as the class invariant and gives it back (the running sum forgotten). -/
theorem Phi4_in (c : Dev nD) : Pipeline.ΦA spec4 c ⊢ (dat4 V c).Φ 0 := by
  rw [show (dat4 V c).Φ 0 = PhiAt4 V c 0 (Nat.zero_le _) from rfl, PhiAt4_zero V c 0 _ rfl]
  try exact Idealize.SL.BI.Entails.refl _
theorem Phi4_out (c : Dev nD) : (dat4 V c).Φ (Fin.last cfg4.N) ⊢ Pipeline.ΦA spec4 c := by
  rw [show (dat4 V c).Φ (Fin.last cfg4.N) = PhiAt4 V c (Fin.last cfg4.N).val (Nat.le_of_lt_succ (Fin.last cfg4.N).isLt) from rfl,
    PhiAt4_pos V c _ _ (by rw [Fin.val_last]; have : cfg4.N = 25 := N_4; omega), PhiA4_split]
  iintro ⟨⟨HS, Hrest⟩, Hg⟩
  isplitl [HS Hrest]
  · isplitl [HS]; · iexists _; iexact HS
    iexact Hrest
  iexact Hg

end Region

end Cert.Kernel.Hand

end
-- ==== Proof.BComb5.lean ====
/- The class-A half of custom_call 5 (`cc5__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelLaunchP
import proofs.«170580_j11665131176635_1_alg».proof.Proof.Gen.Kernel.Skeleton
import proofs.«170580_j11665131176635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there, for any proof data whose array is `V`'s (`hA`) and whose body leaves the block in place (`hafter`):
    where it was not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the pipeline fetched it
    there, for any proof data whose array is `V`'s (`hA`) and whose body leaves the block in place (`hafter`):
    where it was not fetched the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the pipeline fetched it
    there, for any proof data whose array is `V`'s (`hA`) and whose body leaves the block in place (`hafter`):
    where it was not fetched the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the pipeline fetched it
    there, for any proof data whose array is `V`'s (`hA`) and whose body leaves the block in place (`hafter`):
    where it was not fetched the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not the pipeline fetched it
    there, for any proof data whose array is `V`'s (`hA`) and whose body leaves the block in place (`hafter`):
    where it was not fetched the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether or not the pipeline fetched it
    there, for any proof data whose array is `V`'s (`hA`) and whose body leaves the block in place (`hafter`):
    where it was not fetched the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_S2000x128 : Rect S2000x128 := Rect.unit (s := S2000x128) ![0, 0] S2000x128.size inb_S2000x128_S2000x128_0_0
abbrev r5_S2000x1 : Rect S2000x1 := Rect.unit (s := S2000x1) ![0, 0] S2000x1.size inb_S2000x1_S2000x1_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out5_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r5_S2000x128, k5_pay1 (View.ld x2 r5_S2000x1) (View.ld x3 r5_S128x128) (View.ld x0 r5_S2000x128) (View.ld x1 r5_S2000x128) (View.ld x4 r5_S128x128) (View.ld x5 r5_S1x128)⟩]

/-- The one store is of the whole buffer, so it covers it. -/
theorem cover5_6 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

/-! ## The body's triple -/

set_option maxHeartbeats 4000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.BPool6.lean ====
/-
  A pooling call (pallas_call 6): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt6: by recursion on the point, each step the body's own arithmetic k6_pay2 of the
  two staged blocks and the previous sum, the first step over the cleared accumulator k6_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst6 (i : grid6.Coords) : Prop :=
  (Scalar.cmpi .ne (Scalar.extui (Scalar.cmpi .eq (BitVec.ofNat 32 (i 0).val) 0#32)) 0#32) = 1#1
/-- The body's second conditional: the grid coordinate is the last one. -/
abbrev isLast6 (i : grid6.Coords) : Prop := k6_cond2 i = 1#1

theorem isFirst6_iff : ∀ t : Fin cfg6.N, isFirst6 (grid6.coords t) ↔ t.val = 0 :=
  (by decide +kernel : ∀ t : Fin grid6.N, isFirst6 (grid6.coords t) ↔ t.val = 0)
theorem isLast6_iff : ∀ t : Fin cfg6.N, isLast6 (grid6.coords t) ↔ t.val = 24 :=
  (by decide +kernel : ∀ t : Fin grid6.N, isLast6 (grid6.coords t) ↔ t.val = 24)

/-- The two input windows are in use at every point. -/
theorem inLive6_0 : ∀ t : Fin cfg6.N, cfg6.idle 0 (grid6.coords t) = false := by decide +kernel
theorem inLive6_1 : ∀ t : Fin cfg6.N, cfg6.idle 1 (grid6.coords t) = false := by decide +kernel
/-- Away from the last point the output window is left alone and is not written back; -/
theorem outIdle6 : ∀ t : Fin cfg6.N, ¬isLast6 (grid6.coords t) → cfg6.idle 2 (grid6.coords t) = true := by decide +kernel
theorem outKept6 : ∀ t : Fin cfg6.N, ¬isLast6 (grid6.coords t) → (cfg6.win 2).flush t = false := by decide +kernel
/-- at the last point it is stored into. -/
theorem outLive6 : ∀ t : Fin cfg6.N, isLast6 (grid6.coords t) → cfg6.idle 2 (grid6.coords t) = false := by decide +kernel

/-! ## The staging memrefs and the accumulator -/

abbrev idsM6 (t : Fin cfg6.N) : Memref sig .tc .vmem S2000x1 .i32 := win6_0.stage (cfg6.slots t 0)
abbrev idsW6 (t : Fin cfg6.N) : (idsM6 t).IsWhole := hstage6_0 ((cfg6.slots t 0).cast nbuf6_0)
abbrev featsM6 (t : Fin cfg6.N) : Memref sig .tc .vmem S2000x128 .f32 := win6_1.stage (cfg6.slots t 1)
abbrev featsW6 (t : Fin cfg6.N) : (featsM6 t).IsWhole := hstage6_1 ((cfg6.slots t 1).cast nbuf6_1)
abbrev outM6 (t : Fin cfg6.N) : Memref sig .tc .vmem S128x128 .f32 := win6_2.stage (cfg6.slots t 2)
abbrev outW6 (t : Fin cfg6.N) : (outM6 t).IsWhole := hstage6_2 ((cfg6.slots t 2).cast nbuf6_2)
/-- The accumulator: a scratch buffer of the call's own. -/
abbrev accM6 : Memref sig .tc .vmem S128x128 .f32 := Memref.whole cc6_scratch0
/-- A view through which a 128 × 128 block's contents are stated (which buffer it is does not matter). -/
abbrev accV6 : View sig .tc .vmem S128x128 .f32 := accM6.view

/-- The region's invariant with the accumulator singled out: the accumulator at some contents, the other scoped
    buffers unopened, the generator register at some state. -/
theorem PhiA6_split (c : Dev nD) :
    (Pipeline.ΦA spec6 c : sProp 𝕄)
      = iprop(iprop((∃ d, owns (c : Thread nD τ) accM6 fullShare d)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [accM6, owns_whole]; try rfl

/-! ## The body, case by case -/

set_option maxHeartbeats 4000000 in
/-- At the first point: from the two input blocks and the accumulator at anything, the body leaves the inputs and
    the output's buffer as they were and the accumulator with the pieces the run finds. -/
noncomputable def runFirst6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst6 i) (hl : ¬isLast6 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, fun y3 E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : ¬isLast6 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, fun y3 E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : isLast6 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, ?_, fun E K => ?run⟩
  case run =>
    simp only [cc6__pool_kernel_eq_skeleton]; unfold cc6__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst6 (c : Dev nD) (i : grid6.Coords) (a1 h1 a2 h2 a3 h3 a4 h4) (hf : isFirst6 i) (hl : ¬isLast6 i)
    (x1 : Vec F S2000x1 .i32) (x2 : Vec F S2000x128 .f32) (y : S128x128.Idx) :
    ∃ pc ∈ (runFirst6 c i a1 h1 a2 h2 a3 h3 a4 h4 hf hl x1 x2).1, y ∈ pc.1.set :=
  View.cover_of_tiledL (runFirst6 c i a1 h1 a2 h2 a3 h3 a4 h4 hf hl x1 x2).1 S128x128.size (by sl_kernel_rfl) y
theorem coverMid6 (c : Dev nD) (i : grid6.Coords) (a1 h1 a2 h2 a3 h3 a4 h4) (hf : ¬isFirst6 i) (hl : ¬isLast6 i)
    (x1 : Vec F S2000x1 .i32) (x2 : Vec F S2000x128 .f32) (s : Vec F S128x128 .f32) (y : S128x128.Idx) :
    ∃ pc ∈ (runMid6 c i a1 h1 a2 h2 a3 h3 a4 h4 hf hl x1 x2 s).1, y ∈ pc.1.set :=
  View.cover_of_tiledL (runMid6 c i a1 h1 a2 h2 a3 h3 a4 h4 hf hl x1 x2 s).1 S128x128.size (by sl_kernel_rfl) y
theorem coverLastAcc6 (c : Dev nD) (i : grid6.Coords) (a1 h1 a2 h2 a3 h3 a4 h4) (hf : ¬isFirst6 i) (hl : isLast6 i)
    (x1 : Vec F S2000x1 .i32) (x2 : Vec F S2000x128 .f32) (s : Vec F S128x128 .f32) (y : S128x128.Idx) :
    ∃ pc ∈ (runLast6 c i a1 h1 a2 h2 a3 h3 a4 h4 hf hl x1 x2 s).2.1, y ∈ pc.1.set :=
  View.cover_of_tiledL (runLast6 c i a1 h1 a2 h2 a3 h3 a4 h4 hf hl x1 x2 s).2.1 S128x128.size (by sl_kernel_rfl) y
theorem coverLastOut6 (c : Dev nD) (i : grid6.Coords) (a1 h1 a2 h2 a3 h3 a4 h4) (hf : ¬isFirst6 i) (hl : isLast6 i)
    (x1 : Vec F S2000x1 .i32) (x2 : Vec F S2000x128 .f32) (s : Vec F S128x128 .f32) (y : S128x128.Idx) :
    ∃ pc ∈ (runLast6 c i a1 h1 a2 h2 a3 h3 a4 h4 hf hl x1 x2 s).1, y ∈ pc.1.set :=
  View.cover_of_tiledL (runLast6 c i a1 h1 a2 h2 a3 h3 a4 h4 hf hl x1 x2 s).1 S128x128.size (by sl_kernel_rfl) y

/-- A list of pieces read back as one block. -/
abbrev asBlock6 (L : List (View.Piece (Elt F) S128x128 .f32)) : Vec F S128x128 .f32 :=
  accV6.read (Elt F) (accV6.writes (Elt F) accV6.junk L)

/-! ## The region, entered at the contents V -/

section Region
variable (V : (c : Dev nD) → (b : Ref sig .tc) → Buf (Elt F) ((c : Thread nD τ).loc b))

/-- Window w's block at point t, read off its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, for any proof data over V that leaves it there. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- THE RUNNING SUM: what the accumulator holds after the body at position n. -/
def accAt6 (c : Dev nD) : (n : ℕ) → n < cfg6.N → Vec F S128x128 .f32
  | 0, hn => asBlock6 (runFirst6 c (grid6.coords ⟨0, hn⟩) (idsM6 ⟨0, hn⟩) (idsW6 ⟨0, hn⟩) (featsM6 ⟨0, hn⟩) (featsW6 ⟨0, hn⟩)
      (outM6 ⟨0, hn⟩) (outW6 ⟨0, hn⟩) accM6 (Memref.isWhole_whole _) ((isFirst6_iff ⟨0, hn⟩).mpr rfl)
      (fun h => absurd (show (0 : ℕ) = 24 from (isLast6_iff ⟨0, hn⟩).mp h) (by decide)) (blk6 V c 0 ⟨0, hn⟩) (blk6 V c 1 ⟨0, hn⟩)).1
  | n + 1, hn =>
    if hl : n + 1 = 24 then
      asBlock6 (runLast6 c (grid6.coords ⟨n + 1, hn⟩) (idsM6 ⟨n + 1, hn⟩) (idsW6 ⟨n + 1, hn⟩) (featsM6 ⟨n + 1, hn⟩) (featsW6 ⟨n + 1, hn⟩)
        (outM6 ⟨n + 1, hn⟩) (outW6 ⟨n + 1, hn⟩) accM6 (Memref.isWhole_whole _)
        (fun h => absurd ((isFirst6_iff ⟨n + 1, hn⟩).mp h) (Nat.succ_ne_zero n)) ((isLast6_iff ⟨n + 1, hn⟩).mpr hl)
        (blk6 V c 0 ⟨n + 1, hn⟩) (blk6 V c 1 ⟨n + 1, hn⟩) (accAt6 c n (Nat.lt_of_succ_lt hn))).2.1
    else
      asBlock6 (runMid6 c (grid6.coords ⟨n + 1, hn⟩) (idsM6 ⟨n + 1, hn⟩) (idsW6 ⟨n + 1, hn⟩) (featsM6 ⟨n + 1, hn⟩) (featsW6 ⟨n + 1, hn⟩)
        (outM6 ⟨n + 1, hn⟩) (outW6 ⟨n + 1, hn⟩) accM6 (Memref.isWhole_whole _)
        (fun h => absurd ((isFirst6_iff ⟨n + 1, hn⟩).mp h) (Nat.succ_ne_zero n)) (fun h => hl ((isLast6_iff ⟨n + 1, hn⟩).mp h))
        (blk6 V c 0 ⟨n + 1, hn⟩) (blk6 V c 1 ⟨n + 1, hn⟩) (accAt6 c n (Nat.lt_of_succ_lt hn))).1

/-- What the output's staging buffer holds after the body at position n: at the last point the pieces stored there;
    elsewhere the window is idle and this value is never consulted. -/
def outAt6 (c : Dev nD) (n : ℕ) (hn : n < cfg6.N) : Vec F S128x128 .f32 :=
  if hz : n = 0 then asBlock6 []
  else if hl : n = 24 then
    asBlock6 (runLast6 c (grid6.coords ⟨n, hn⟩) (idsM6 ⟨n, hn⟩) (idsW6 ⟨n, hn⟩) (featsM6 ⟨n, hn⟩) (featsW6 ⟨n, hn⟩)
      (outM6 ⟨n, hn⟩) (outW6 ⟨n, hn⟩) accM6 (Memref.isWhole_whole _)
      (fun h => hz ((isFirst6_iff ⟨n, hn⟩).mp h)) ((isLast6_iff ⟨n, hn⟩).mpr hl)
      (blk6 V c 0 ⟨n, hn⟩) (blk6 V c 1 ⟨n, hn⟩) (accAt6 V c (n - 1) (Nat.lt_of_le_of_lt (Nat.sub_le _ _) hn))).1
  else asBlock6 []

end Region

section Region
variable (V : (c : Dev nD) → (b : Ref sig .tc) → Buf (Elt F) ((c : Thread nD τ).loc b))

theorem accAt6_first (c : Dev nD) (t : Fin cfg6.N) (hz : t.val = 0) :
    accAt6 V c t.val t.isLt = asBlock6 (runFirst6 c (grid6.coords t) (idsM6 t) (idsW6 t) (featsM6 t) (featsW6 t) (outM6 t) (outW6 t) accM6
      (Memref.isWhole_whole _) ((isFirst6_iff t).mpr hz) (fun h => absurd (((isLast6_iff t).mp h).symm.trans hz) (by decide))
      (blk6 V c 0 t) (blk6 V c 1 t)).1 := by
  obtain ⟨n, hn⟩ := t
  cases n with
  | zero => rfl
  | succ n => exact absurd hz (Nat.succ_ne_zero n)

theorem accAt6_mid (c : Dev nD) (t : Fin cfg6.N) (hz : t.val ≠ 0) (hl : t.val ≠ 24) :
    accAt6 V c t.val t.isLt = asBlock6 (runMid6 c (grid6.coords t) (idsM6 t) (idsW6 t) (featsM6 t) (featsW6 t) (outM6 t) (outW6 t) accM6
      (Memref.isWhole_whole _) (fun h => hz ((isFirst6_iff t).mp h)) (fun h => hl ((isLast6_iff t).mp h))
      (blk6 V c 0 t) (blk6 V c 1 t) (accAt6 V c (t.val - 1) (Nat.lt_of_le_of_lt (Nat.sub_le _ _) t.isLt))).1 := by
  obtain ⟨n, hn⟩ := t
  cases n with
  | zero => exact absurd rfl hz
  | succ n => exact (dif_neg hl).trans rfl

theorem accAt6_last (c : Dev nD) (t : Fin cfg6.N) (hz : t.val ≠ 0) (hl : t.val = 24) :
    accAt6 V c t.val t.isLt = asBlock6 (runLast6 c (grid6.coords t) (idsM6 t) (idsW6 t) (featsM6 t) (featsW6 t) (outM6 t) (outW6 t) accM6
      (Memref.isWhole_whole _) (fun h => hz ((isFirst6_iff t).mp h)) ((isLast6_iff t).mpr hl)
      (blk6 V c 0 t) (blk6 V c 1 t) (accAt6 V c (t.val - 1) (Nat.lt_of_le_of_lt (Nat.sub_le _ _) t.isLt))).2.1 := by
  obtain ⟨n, hn⟩ := t
  cases n with
  | zero => exact absurd rfl hz
  | succ n => exact (dif_pos hl).trans rfl

theorem outAt6_last (c : Dev nD) (t : Fin cfg6.N) (hz : t.val ≠ 0) (hl : t.val = 24) :
    outAt6 V c t.val t.isLt = asBlock6 (runLast6 c (grid6.coords t) (idsM6 t) (idsW6 t) (featsM6 t) (featsW6 t) (outM6 t) (outW6 t) accM6
      (Memref.isWhole_whole _) (fun h => hz ((isFirst6_iff t).mp h)) ((isLast6_iff t).mpr hl)
      (blk6 V c 0 t) (blk6 V c 1 t) (accAt6 V c (t.val - 1) (Nat.lt_of_le_of_lt (Nat.sub_le _ _) t.isLt))).1 := by
  unfold outAt6; rw [dif_neg hz, dif_pos hl]

/-- The invariant before position n: before the first point the scoped buffers at anything; afterwards the
    accumulator at the running sum, the other scoped buffers unopened. The generator register rides along. -/
def PhiAt6 (c : Dev nD) : (n : ℕ) → n ≤ cfg6.N → sProp 𝕄
  | 0, _ => Pipeline.ΦA spec6 c
  | n + 1, hn => iprop(iprop(owns (c : Thread nD τ) accM6 fullShare (accAt6 V c n hn)
      ∗ Pipeline.scopedRestBut (Ix := Unit) (Name := ℕ) (U := UR sig nD τ) (Lvl := ℕ) (Val := Elt F) spec6 c [cc6_scratch0])
      ∗ (∃ r, prngReg c r))

theorem PhiAt6_zero (c : Dev nD) (n : ℕ) (h : n ≤ cfg6.N) (hz : n = 0) : PhiAt6 V c n h = Pipeline.ΦA spec6 c := by
  subst hz; rfl
theorem PhiAt6_succ (c : Dev nD) (n : ℕ) (hn : n < cfg6.N) :
    PhiAt6 V c (n + 1) hn = iprop(iprop(owns (c : Thread nD τ) accM6 fullShare (accAt6 V c n hn)
      ∗ Pipeline.scopedRestBut (Ix := Unit) (Name := ℕ) (U := UR sig nD τ) (Lvl := ℕ) (Val := Elt F) spec6 c [cc6_scratch0])
      ∗ (∃ r, prngReg c r)) := rfl
theorem PhiAt6_pos (c : Dev nD) (n : ℕ) (h : n ≤ cfg6.N) (hz : n ≠ 0) :
    PhiAt6 V c n h = iprop(iprop(owns (c : Thread nD τ) accM6 fullShare (accAt6 V c (n - 1) (by omega))
      ∗ Pipeline.scopedRestBut (Ix := Unit) (Name := ℕ) (U := UR sig nD τ) (Lvl := ℕ) (Val := Elt F) spec6 c [cc6_scratch0])
      ∗ (∃ r, prngReg c r)) := by
  cases n with
  | zero => exact absurd rfl hz
  | succ n => rfl

/-- The region's proof data: the arrays as V has them; after the body each input's buffer at its block, the output's
    at outAt6; the invariant PhiAt6; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => outAt6 V c t.val t.isLt
  Φ t := PhiAt6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem Phi6_castSucc (c : Dev nD) (t : Fin cfg6.N) :
    (dat6 V c).Φ t.castSucc = PhiAt6 V c t.val (Nat.le_of_lt t.isLt) := by
  dsimp only [dat6]; simp only [Fin.coe_castSucc]
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = outAt6 V c t.val t.isLt := by dsimp only [dat6]
theorem before6_0 (c : Dev nD) (t : Fin cfg6.N) (d) : (dat6 V c).before 0 t d = blk6 V c 0 t :=
  found6_0_of V (dat6 V c) (A_eq6 V c 0) (after6_0 V c) t d
theorem before6_1 (c : Dev nD) (t : Fin cfg6.N) (d) : (dat6 V c).before 1 t d = blk6 V c 1 t :=
  found6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (idsM6 t) fullShare ((dat6 V c).before 0 t d))
    ∗ (∃ d, owns (c : Thread nD τ) (featsM6 t) fullShare ((dat6 V c).before 1 t d))
    ∗ (∃ d, owns (c : Thread nD τ) (outM6 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiAt6 V c (t.val + 1) t.isLt from rfl, PhiAt6_succ]
  rw [show (dat6 V c).leavesExact 0 t = owns (c : Thread nD τ) (idsM6 t) fullShare ((dat6 V c).after 0 t) from by
    unfold Dat.leavesExact; rw [inLive6_0 t], after6_0]
  rw [show (dat6 V c).leavesExact 1 t = owns (c : Thread nD τ) (featsM6 t) fullShare ((dat6 V c).after 1 t) from by
    unfold Dat.leavesExact; rw [inLive6_1 t], after6_1]
  have hN : t.val < 25 := lt_of_lt_of_eq t.isLt (show cfg6.N = 25 from N_6)
  by_cases hz : t.val = 0
  · have hl : ¬ t.val = 24 := by omega
    have hnl : ¬isLast6 (grid6.coords t) := fun h => hl ((isLast6_iff t).mp h)
    rw [Dat.leavesExact_idle (dat6 V c) 2 t (outIdle6 t hnl) (outKept6 t hnl)]
    rw [accAt6_first V c t hz]
    rw [Phi6_castSucc V c t, PhiAt6_zero V c _ _ hz, PhiA6_split]
    iintro ⟨⟨⟨HS, Hrest⟩, Hg⟩, Ho, ⟨%d0, H0⟩, ⟨%d1, H1⟩, ⟨%d2, H2⟩⟩
    iapply ((runFirst6 c (grid6.coords t) _ _ _ _ _ _ _ _ ((isFirst6_iff t).mpr hz) hnl (blk6 V c 0 t) (blk6 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst6 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast6 (grid6.coords t) := (isLast6_iff t).mpr hl
      rw [show (dat6 V c).leavesExact 2 t = owns (c : Thread nD τ) (outM6 t) fullShare ((dat6 V c).after 2 t) from by
        unfold Dat.leavesExact; rw [outLive6 t hil], after6_2]
      rw [accAt6_last V c t hz hl, outAt6_last V c t hz hl]
      rw [Phi6_castSucc V c t, PhiAt6_pos V c _ _ hz]
      iintro ⟨⟨⟨HS, Hrest⟩, Hg⟩, Ho, ⟨%d0, H0⟩, ⟨%d1, H1⟩, ⟨%d2, H2⟩⟩
      iapply ((runLast6 c (grid6.coords t) _ _ _ _ _ _ _ _ (fun h => hz ((isFirst6_iff t).mp h)) hil (blk6 V c 0 t) (blk6 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc6 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut6 c _ _ _ _ _ _ _ _ _ _ _ _ _ _)
    · have hnl : ¬isLast6 (grid6.coords t) := fun h => hl ((isLast6_iff t).mp h)
      rw [Dat.leavesExact_idle (dat6 V c) 2 t (outIdle6 t hnl) (outKept6 t hnl)]
      rw [accAt6_mid V c t hz hl]
      rw [Phi6_castSucc V c t, PhiAt6_pos V c _ _ hz]
      iintro ⟨⟨⟨HS, Hrest⟩, Hg⟩, Ho, ⟨%d0, H0⟩, ⟨%d1, H1⟩, ⟨%d2, H2⟩⟩
      iapply ((runMid6 c (grid6.coords t) _ _ _ _ _ _ _ _ (fun h => hz ((isFirst6_iff t).mp h)) hnl (blk6 V c 0 t) (blk6 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid6 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation6 (c : Dev nD) : BodyObligation (dat6 (F := F) V c) (defs₀ (F := F)) Variants.none () Set.univ := fun t => by
  rw [bigSep_W6, bigSep_W6]
  exact sound_body6 V c t

/-- The invariant's two ends: it starts as the class invariant and gives it back (the running sum forgotten). -/
theorem Phi6_in (c : Dev nD) : Pipeline.ΦA spec6 c ⊢ (dat6 V c).Φ 0 := by
  rw [show (dat6 V c).Φ 0 = PhiAt6 V c 0 (Nat.zero_le _) from rfl, PhiAt6_zero V c 0 _ rfl]
  try exact Idealize.SL.BI.Entails.refl _
theorem Phi6_out (c : Dev nD) : (dat6 V c).Φ (Fin.last cfg6.N) ⊢ Pipeline.ΦA spec6 c := by
  rw [show (dat6 V c).Φ (Fin.last cfg6.N) = PhiAt6 V c (Fin.last cfg6.N).val (Nat.le_of_lt_succ (Fin.last cfg6.N).isLt) from rfl,
    PhiAt6_pos V c _ _ (by rw [Fin.val_last]; have : cfg6.N = 25 := N_6; omega), PhiA6_split]
  iintro ⟨⟨HS, Hrest⟩, Hg⟩
  isplitl [HS Hrest]
  · isplitl [HS]; · iexists _; iexact HS
    iexact Hrest
  iexact Hg

end Region

end Cert.Kernel.Hand

end
-- ==== Proof.BComb7.lean ====
/- The class-A half of custom_call 7 (`cc7__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelLaunchP
import proofs.«170580_j11665131176635_1_alg».proof.Proof.Gen.Kernel.Skeleton
import proofs.«170580_j11665131176635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the pipeline fetched it
    there, for any proof data whose array is `V`'s (`hA`) and whose body leaves the block in place (`hafter`):
    where it was not fetched the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the pipeline fetched it
    there, for any proof data whose array is `V`'s (`hA`) and whose body leaves the block in place (`hafter`):
    where it was not fetched the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the pipeline fetched it
    there, for any proof data whose array is `V`'s (`hA`) and whose body leaves the block in place (`hafter`):
    where it was not fetched the block index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the pipeline fetched it
    there, for any proof data whose array is `V`'s (`hA`) and whose body leaves the block in place (`hafter`):
    where it was not fetched the block index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether or not the pipeline fetched it
    there, for any proof data whose array is `V`'s (`hA`) and whose body leaves the block in place (`hafter`):
    where it was not fetched the block index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether or not the pipeline fetched it
    there, for any proof data whose array is `V`'s (`hA`) and whose body leaves the block in place (`hafter`):
    where it was not fetched the block index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_S2000x128 : Rect S2000x128 := Rect.unit (s := S2000x128) ![0, 0] S2000x128.size inb_S2000x128_S2000x128_0_0
abbrev r7_S2000x1 : Rect S2000x1 := Rect.unit (s := S2000x1) ![0, 0] S2000x1.size inb_S2000x1_S2000x1_0_0
abbrev r7_S128x128 : Rect S128x128 := Rect.unit (s := S128x128) ![0, 0] S128x128.size inb_S128x128_S128x128_0_0
abbrev r7_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out7_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r7_S2000x128, k7_pay1 (View.ld x2 r7_S2000x1) (View.ld x3 r7_S128x128) (View.ld x0 r7_S2000x128) (View.ld x1 r7_S2000x128) (View.ld x4 r7_S128x128) (View.ld x5 r7_S1x128)⟩]

/-- The one store is of the whole buffer, so it covers it. -/
theorem cover7_6 (p0 : Vec F S2000x128 .f32) (y : S2000x128.Idx) :
    ∃ pc ∈ ([⟨r7_S2000x128, p0⟩] : List (View.Piece (Elt F) S2000x128 .f32)), y ∈ pc.1.set :=
  View.cover_of_tiled [⟨r7_S2000x128, p0⟩] S2000x128.size (by rfl) y

/-! ## The body's triple -/

set_option maxHeartbeats 4000000 in
/-- The kernel body on whole staging memrefs, the inputs' at read contents `xW` and the output's at anything, runs to
    the continuation holding the inputs' as they were and the output's at `out7_6` of the inputs'. -/
theorem sound_kernel7 (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__combine_kernel i arg1 harg1 arg2 harg2 arg3 harg3 arg4 harg4 arg5 harg5 arg6 harg6 arg7 harg7) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of pipeline 7 on core `c`: the arrays as the region finds them (`V`); after the body at
    point `t` each input's buffer at its block and the output's at `out7_6` of the input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so `sound_kernel7` applies; the invariant and
    the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.BPool8.lean ====
/-
  A pooling call (pallas_call 8): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt8: by recursion on the point, each step the body's own arithmetic k8_pay2 of the
  two staged blocks and the previous sum, the first step over the cleared accumulator k8_pay1), what the output's
  staging buffer holds after the last point, the region's proof data over those, and the body's obligation at
  every point.  Nothing here depends on the float instance.
-/
import proofs.«170580_j11665131176635_1_alg».proof.Proof.Gen.Kernel.Points
import proofs.«170580_j11665131176635_1_alg».proof.Proof.Gen.Kernel.Skeleton
import proofs.«170580_j11665131176635_1_alg».proof.Proof.KernelLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst8 (i : grid8.Coords) : Prop :=
  (Scalar.cmpi .ne (Scalar.extui (Scalar.cmpi .eq (BitVec.ofNat 32 (i 0).val) 0#32)) 0#32) = 1#1
/-- The body's second conditional: the grid coordinate is the last one. -/
abbrev isLast8 (i : grid8.Coords) : Prop := k8_cond2 i = 1#1

theorem isFirst8_iff : ∀ t : Fin cfg8.N, isFirst8 (grid8.coords t) ↔ t.val = 0 :=
  (by decide +kernel : ∀ t : Fin grid8.N, isFirst8 (grid8.coords t) ↔ t.val = 0)
theorem isLast8_iff : ∀ t : Fin cfg8.N, isLast8 (grid8.coords t) ↔ t.val = 24 :=
  (by decide +kernel : ∀ t : Fin grid8.N, isLast8 (grid8.coords t) ↔ t.val = 24)

/-- The two input windows are in use at every point. -/
theorem inLive8_0 : ∀ t : Fin cfg8.N, cfg8.idle 0 (grid8.coords t) = false := by decide +kernel
theorem inLive8_1 : ∀ t : Fin cfg8.N, cfg8.idle 1 (grid8.coords t) = false := by decide +kernel
/-- Away from the last point the output window is left alone and is not written back; -/
theorem outIdle8 : ∀ t : Fin cfg8.N, ¬isLast8 (grid8.coords t) → cfg8.idle 2 (grid8.coords t) = true := by decide +kernel
theorem outKept8 : ∀ t : Fin cfg8.N, ¬isLast8 (grid8.coords t) → (cfg8.win 2).flush t = false := by decide +kernel
/-- at the last point it is stored into. -/
theorem outLive8 : ∀ t : Fin cfg8.N, isLast8 (grid8.coords t) → cfg8.idle 2 (grid8.coords t) = false := by decide +kernel

/-! ## The staging memrefs and the accumulator -/

abbrev idsM8 (t : Fin cfg8.N) : Memref sig .tc .vmem S2000x1 .i32 := win8_0.stage (cfg8.slots t 0)
abbrev idsW8 (t : Fin cfg8.N) : (idsM8 t).IsWhole := hstage8_0 ((cfg8.slots t 0).cast nbuf8_0)
abbrev featsM8 (t : Fin cfg8.N) : Memref sig .tc .vmem S2000x128 .f32 := win8_1.stage (cfg8.slots t 1)
abbrev featsW8 (t : Fin cfg8.N) : (featsM8 t).IsWhole := hstage8_1 ((cfg8.slots t 1).cast nbuf8_1)
abbrev outM8 (t : Fin cfg8.N) : Memref sig .tc .vmem S128x128 .f32 := win8_2.stage (cfg8.slots t 2)
abbrev outW8 (t : Fin cfg8.N) : (outM8 t).IsWhole := hstage8_2 ((cfg8.slots t 2).cast nbuf8_2)
/-- The accumulator: a scratch buffer of the call's own. -/
abbrev accM8 : Memref sig .tc .vmem S128x128 .f32 := Memref.whole cc8_scratch0
/-- A view through which a 128 × 128 block's contents are stated (which buffer it is does not matter). -/
abbrev accV8 : View sig .tc .vmem S128x128 .f32 := accM8.view

/-- The region's invariant with the accumulator singled out: the accumulator at some contents, the other scoped
    buffers unopened, the generator register at some state. -/
theorem PhiA8_split (c : Dev nD) :
    (Pipeline.ΦA spec8 c : sProp 𝕄)
      = iprop(iprop((∃ d, owns (c : Thread nD τ) accM8 fullShare d)
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [accM8, owns_whole]; try rfl

/-! ## The body, case by case -/

set_option maxHeartbeats 4000000 in
/-- At the first point: from the two input blocks and the accumulator at anything, the body leaves the inputs and
    the output's buffer as they were and the accumulator with the pieces the run finds. -/
noncomputable def runFirst8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst8 i) (hl : ¬isLast8 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, fun y3 E K => ?run⟩
  case run =>
    simp only [cc8__pool_kernel_eq_skeleton]; unfold cc8__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : ¬isLast8 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, fun y3 E K => ?run⟩
  case run =>
    simp only [cc8__pool_kernel_eq_skeleton]; unfold cc8__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : isLast8 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, ?_, fun E K => ?run⟩
  case run =>
    simp only [cc8__pool_kernel_eq_skeleton]; unfold cc8__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst8 (c : Dev nD) (i : grid8.Coords) (a1 h1 a2 h2 a3 h3 a4 h4) (hf : isFirst8 i) (hl : ¬isLast8 i)
    (x1 : Vec F S2000x1 .i32) (x2 : Vec F S2000x128 .f32) (y : S128x128.Idx) :
    ∃ pc ∈ (runFirst8 c i a1 h1 a2 h2 a3 h3 a4 h4 hf hl x1 x2).1, y ∈ pc.1.set :=
  View.cover_of_tiledL (runFirst8 c i a1 h1 a2 h2 a3 h3 a4 h4 hf hl x1 x2).1 S128x128.size (by sl_kernel_rfl) y
theorem coverMid8 (c : Dev nD) (i : grid8.Coords) (a1 h1 a2 h2 a3 h3 a4 h4) (hf : ¬isFirst8 i) (hl : ¬isLast8 i)
    (x1 : Vec F S2000x1 .i32) (x2 : Vec F S2000x128 .f32) (s : Vec F S128x128 .f32) (y : S128x128.Idx) :
    ∃ pc ∈ (runMid8 c i a1 h1 a2 h2 a3 h3 a4 h4 hf hl x1 x2 s).1, y ∈ pc.1.set :=
  View.cover_of_tiledL (runMid8 c i a1 h1 a2 h2 a3 h3 a4 h4 hf hl x1 x2 s).1 S128x128.size (by sl_kernel_rfl) y
theorem coverLastAcc8 (c : Dev nD) (i : grid8.Coords) (a1 h1 a2 h2 a3 h3 a4 h4) (hf : ¬isFirst8 i) (hl : isLast8 i)
    (x1 : Vec F S2000x1 .i32) (x2 : Vec F S2000x128 .f32) (s : Vec F S128x128 .f32) (y : S128x128.Idx) :
    ∃ pc ∈ (runLast8 c i a1 h1 a2 h2 a3 h3 a4 h4 hf hl x1 x2 s).2.1, y ∈ pc.1.set :=
  View.cover_of_tiledL (runLast8 c i a1 h1 a2 h2 a3 h3 a4 h4 hf hl x1 x2 s).2.1 S128x128.size (by sl_kernel_rfl) y
theorem coverLastOut8 (c : Dev nD) (i : grid8.Coords) (a1 h1 a2 h2 a3 h3 a4 h4) (hf : ¬isFirst8 i) (hl : isLast8 i)
    (x1 : Vec F S2000x1 .i32) (x2 : Vec F S2000x128 .f32) (s : Vec F S128x128 .f32) (y : S128x128.Idx) :
    ∃ pc ∈ (runLast8 c i a1 h1 a2 h2 a3 h3 a4 h4 hf hl x1 x2 s).1, y ∈ pc.1.set :=
  View.cover_of_tiledL (runLast8 c i a1 h1 a2 h2 a3 h3 a4 h4 hf hl x1 x2 s).1 S128x128.size (by sl_kernel_rfl) y

/-- A list of pieces read back as one block. -/
abbrev asBlock8 (L : List (View.Piece (Elt F) S128x128 .f32)) : Vec F S128x128 .f32 :=
  accV8.read (Elt F) (accV8.writes (Elt F) accV8.junk L)

/-! ## The region, entered at the contents V -/

section Region
variable (V : (c : Dev nD) → (b : Ref sig .tc) → Buf (Elt F) ((c : Thread nD τ).loc b))

/-- Window w's block at point t, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data over V that leaves it there. -/
theorem found8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)
theorem found8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- THE RUNNING SUM: what the accumulator holds after the body at position n. -/
def accAt8 (c : Dev nD) : (n : ℕ) → n < cfg8.N → Vec F S128x128 .f32
  | 0, hn => asBlock8 (runFirst8 c (grid8.coords ⟨0, hn⟩) (idsM8 ⟨0, hn⟩) (idsW8 ⟨0, hn⟩) (featsM8 ⟨0, hn⟩) (featsW8 ⟨0, hn⟩)
      (outM8 ⟨0, hn⟩) (outW8 ⟨0, hn⟩) accM8 (Memref.isWhole_whole _) ((isFirst8_iff ⟨0, hn⟩).mpr rfl)
      (fun h => absurd (show (0 : ℕ) = 24 from (isLast8_iff ⟨0, hn⟩).mp h) (by decide)) (blk8 V c 0 ⟨0, hn⟩) (blk8 V c 1 ⟨0, hn⟩)).1
  | n + 1, hn =>
    if hl : n + 1 = 24 then
      asBlock8 (runLast8 c (grid8.coords ⟨n + 1, hn⟩) (idsM8 ⟨n + 1, hn⟩) (idsW8 ⟨n + 1, hn⟩) (featsM8 ⟨n + 1, hn⟩) (featsW8 ⟨n + 1, hn⟩)
        (outM8 ⟨n + 1, hn⟩) (outW8 ⟨n + 1, hn⟩) accM8 (Memref.isWhole_whole _)
        (fun h => absurd ((isFirst8_iff ⟨n + 1, hn⟩).mp h) (Nat.succ_ne_zero n)) ((isLast8_iff ⟨n + 1, hn⟩).mpr hl)
        (blk8 V c 0 ⟨n + 1, hn⟩) (blk8 V c 1 ⟨n + 1, hn⟩) (accAt8 c n (Nat.lt_of_succ_lt hn))).2.1
    else
      asBlock8 (runMid8 c (grid8.coords ⟨n + 1, hn⟩) (idsM8 ⟨n + 1, hn⟩) (idsW8 ⟨n + 1, hn⟩) (featsM8 ⟨n + 1, hn⟩) (featsW8 ⟨n + 1, hn⟩)
        (outM8 ⟨n + 1, hn⟩) (outW8 ⟨n + 1, hn⟩) accM8 (Memref.isWhole_whole _)
        (fun h => absurd ((isFirst8_iff ⟨n + 1, hn⟩).mp h) (Nat.succ_ne_zero n)) (fun h => hl ((isLast8_iff ⟨n + 1, hn⟩).mp h))
        (blk8 V c 0 ⟨n + 1, hn⟩) (blk8 V c 1 ⟨n + 1, hn⟩) (accAt8 c n (Nat.lt_of_succ_lt hn))).1

/-- What the output's staging buffer holds after the body at position n: at the last point the pieces stored there;
    elsewhere the window is idle and this value is never consulted. -/
def outAt8 (c : Dev nD) (n : ℕ) (hn : n < cfg8.N) : Vec F S128x128 .f32 :=
  if hz : n = 0 then asBlock8 []
  else if hl : n = 24 then
    asBlock8 (runLast8 c (grid8.coords ⟨n, hn⟩) (idsM8 ⟨n, hn⟩) (idsW8 ⟨n, hn⟩) (featsM8 ⟨n, hn⟩) (featsW8 ⟨n, hn⟩)
      (outM8 ⟨n, hn⟩) (outW8 ⟨n, hn⟩) accM8 (Memref.isWhole_whole _)
      (fun h => hz ((isFirst8_iff ⟨n, hn⟩).mp h)) ((isLast8_iff ⟨n, hn⟩).mpr hl)
      (blk8 V c 0 ⟨n, hn⟩) (blk8 V c 1 ⟨n, hn⟩) (accAt8 V c (n - 1) (Nat.lt_of_le_of_lt (Nat.sub_le _ _) hn))).1
  else asBlock8 []

end Region

section Region
variable (V : (c : Dev nD) → (b : Ref sig .tc) → Buf (Elt F) ((c : Thread nD τ).loc b))

theorem accAt8_first (c : Dev nD) (t : Fin cfg8.N) (hz : t.val = 0) :
    accAt8 V c t.val t.isLt = asBlock8 (runFirst8 c (grid8.coords t) (idsM8 t) (idsW8 t) (featsM8 t) (featsW8 t) (outM8 t) (outW8 t) accM8
      (Memref.isWhole_whole _) ((isFirst8_iff t).mpr hz) (fun h => absurd (((isLast8_iff t).mp h).symm.trans hz) (by decide))
      (blk8 V c 0 t) (blk8 V c 1 t)).1 := by
  obtain ⟨n, hn⟩ := t
  cases n with
  | zero => rfl
  | succ n => exact absurd hz (Nat.succ_ne_zero n)

theorem accAt8_mid (c : Dev nD) (t : Fin cfg8.N) (hz : t.val ≠ 0) (hl : t.val ≠ 24) :
    accAt8 V c t.val t.isLt = asBlock8 (runMid8 c (grid8.coords t) (idsM8 t) (idsW8 t) (featsM8 t) (featsW8 t) (outM8 t) (outW8 t) accM8
      (Memref.isWhole_whole _) (fun h => hz ((isFirst8_iff t).mp h)) (fun h => hl ((isLast8_iff t).mp h))
      (blk8 V c 0 t) (blk8 V c 1 t) (accAt8 V c (t.val - 1) (Nat.lt_of_le_of_lt (Nat.sub_le _ _) t.isLt))).1 := by
  obtain ⟨n, hn⟩ := t
  cases n with
  | zero => exact absurd rfl hz
  | succ n => exact (dif_neg hl).trans rfl

theorem accAt8_last (c : Dev nD) (t : Fin cfg8.N) (hz : t.val ≠ 0) (hl : t.val = 24) :
    accAt8 V c t.val t.isLt = asBlock8 (runLast8 c (grid8.coords t) (idsM8 t) (idsW8 t) (featsM8 t) (featsW8 t) (outM8 t) (outW8 t) accM8
      (Memref.isWhole_whole _) (fun h => hz ((isFirst8_iff t).mp h)) ((isLast8_iff t).mpr hl)
      (blk8 V c 0 t) (blk8 V c 1 t) (accAt8 V c (t.val - 1) (Nat.lt_of_le_of_lt (Nat.sub_le _ _) t.isLt))).2.1 := by
  obtain ⟨n, hn⟩ := t
  cases n with
  | zero => exact absurd rfl hz
  | succ n => exact (dif_pos hl).trans rfl

theorem outAt8_last (c : Dev nD) (t : Fin cfg8.N) (hz : t.val ≠ 0) (hl : t.val = 24) :
    outAt8 V c t.val t.isLt = asBlock8 (runLast8 c (grid8.coords t) (idsM8 t) (idsW8 t) (featsM8 t) (featsW8 t) (outM8 t) (outW8 t) accM8
      (Memref.isWhole_whole _) (fun h => hz ((isFirst8_iff t).mp h)) ((isLast8_iff t).mpr hl)
      (blk8 V c 0 t) (blk8 V c 1 t) (accAt8 V c (t.val - 1) (Nat.lt_of_le_of_lt (Nat.sub_le _ _) t.isLt))).1 := by
  unfold outAt8; rw [dif_neg hz, dif_pos hl]

/-- The invariant before position n: before the first point the scoped buffers at anything; afterwards the
    accumulator at the running sum, the other scoped buffers unopened. The generator register rides along. -/
def PhiAt8 (c : Dev nD) : (n : ℕ) → n ≤ cfg8.N → sProp 𝕄
  | 0, _ => Pipeline.ΦA spec8 c
  | n + 1, hn => iprop(iprop(owns (c : Thread nD τ) accM8 fullShare (accAt8 V c n hn)
      ∗ Pipeline.scopedRestBut (Ix := Unit) (Name := ℕ) (U := UR sig nD τ) (Lvl := ℕ) (Val := Elt F) spec8 c [cc8_scratch0])
      ∗ (∃ r, prngReg c r))

theorem PhiAt8_zero (c : Dev nD) (n : ℕ) (h : n ≤ cfg8.N) (hz : n = 0) : PhiAt8 V c n h = Pipeline.ΦA spec8 c := by
  subst hz; rfl
theorem PhiAt8_succ (c : Dev nD) (n : ℕ) (hn : n < cfg8.N) :
    PhiAt8 V c (n + 1) hn = iprop(iprop(owns (c : Thread nD τ) accM8 fullShare (accAt8 V c n hn)
      ∗ Pipeline.scopedRestBut (Ix := Unit) (Name := ℕ) (U := UR sig nD τ) (Lvl := ℕ) (Val := Elt F) spec8 c [cc8_scratch0])
      ∗ (∃ r, prngReg c r)) := rfl
theorem PhiAt8_pos (c : Dev nD) (n : ℕ) (h : n ≤ cfg8.N) (hz : n ≠ 0) :
    PhiAt8 V c n h = iprop(iprop(owns (c : Thread nD τ) accM8 fullShare (accAt8 V c (n - 1) (by omega))
      ∗ Pipeline.scopedRestBut (Ix := Unit) (Name := ℕ) (U := UR sig nD τ) (Lvl := ℕ) (Val := Elt F) spec8 c [cc8_scratch0])
      ∗ (∃ r, prngReg c r)) := by
  cases n with
  | zero => exact absurd rfl hz
  | succ n => rfl

/-- The region's proof data: the arrays as V has them; after the body each input's buffer at its block, the output's
    at outAt8; the invariant PhiAt8; nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => outAt8 V c t.val t.isLt
  Φ t := PhiAt8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem Phi8_castSucc (c : Dev nD) (t : Fin cfg8.N) :
    (dat8 V c).Φ t.castSucc = PhiAt8 V c t.val (Nat.le_of_lt t.isLt) := by
  dsimp only [dat8]; simp only [Fin.coe_castSucc]
theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = outAt8 V c t.val t.isLt := by dsimp only [dat8]
theorem before8_0 (c : Dev nD) (t : Fin cfg8.N) (d) : (dat8 V c).before 0 t d = blk8 V c 0 t :=
  found8_0_of V (dat8 V c) (A_eq8 V c 0) (after8_0 V c) t d
theorem before8_1 (c : Dev nD) (t : Fin cfg8.N) (d) : (dat8 V c).before 1 t d = blk8 V c 1 t :=
  found8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (idsM8 t) fullShare ((dat8 V c).before 0 t d))
    ∗ (∃ d, owns (c : Thread nD τ) (featsM8 t) fullShare ((dat8 V c).before 1 t d))
    ∗ (∃ d, owns (c : Thread nD τ) (outM8 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiAt8 V c (t.val + 1) t.isLt from rfl, PhiAt8_succ]
  rw [show (dat8 V c).leavesExact 0 t = owns (c : Thread nD τ) (idsM8 t) fullShare ((dat8 V c).after 0 t) from by
    unfold Dat.leavesExact; rw [inLive8_0 t], after8_0]
  rw [show (dat8 V c).leavesExact 1 t = owns (c : Thread nD τ) (featsM8 t) fullShare ((dat8 V c).after 1 t) from by
    unfold Dat.leavesExact; rw [inLive8_1 t], after8_1]
  have hN : t.val < 25 := lt_of_lt_of_eq t.isLt (show cfg8.N = 25 from N_8)
  by_cases hz : t.val = 0
  · have hl : ¬ t.val = 24 := by omega
    have hnl : ¬isLast8 (grid8.coords t) := fun h => hl ((isLast8_iff t).mp h)
    rw [Dat.leavesExact_idle (dat8 V c) 2 t (outIdle8 t hnl) (outKept8 t hnl)]
    rw [accAt8_first V c t hz]
    rw [Phi8_castSucc V c t, PhiAt8_zero V c _ _ hz, PhiA8_split]
    iintro ⟨⟨⟨HS, Hrest⟩, Hg⟩, Ho, ⟨%d0, H0⟩, ⟨%d1, H1⟩, ⟨%d2, H2⟩⟩
    iapply ((runFirst8 c (grid8.coords t) _ _ _ _ _ _ _ _ ((isFirst8_iff t).mpr hz) hnl (blk8 V c 0 t) (blk8 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst8 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast8 (grid8.coords t) := (isLast8_iff t).mpr hl
      rw [show (dat8 V c).leavesExact 2 t = owns (c : Thread nD τ) (outM8 t) fullShare ((dat8 V c).after 2 t) from by
        unfold Dat.leavesExact; rw [outLive8 t hil], after8_2]
      rw [accAt8_last V c t hz hl, outAt8_last V c t hz hl]
      rw [Phi8_castSucc V c t, PhiAt8_pos V c _ _ hz]
      iintro ⟨⟨⟨HS, Hrest⟩, Hg⟩, Ho, ⟨%d0, H0⟩, ⟨%d1, H1⟩, ⟨%d2, H2⟩⟩
      iapply ((runLast8 c (grid8.coords t) _ _ _ _ _ _ _ _ (fun h => hz ((isFirst8_iff t).mp h)) hil (blk8 V c 0 t) (blk8 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc8 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut8 c _ _ _ _ _ _ _ _ _ _ _ _ _ _)
    · have hnl : ¬isLast8 (grid8.coords t) := fun h => hl ((isLast8_iff t).mp h)
      rw [Dat.leavesExact_idle (dat8 V c) 2 t (outIdle8 t hnl) (outKept8 t hnl)]
      rw [accAt8_mid V c t hz hl]
      rw [Phi8_castSucc V c t, PhiAt8_pos V c _ _ hz]
      iintro ⟨⟨⟨HS, Hrest⟩, Hg⟩, Ho, ⟨%d0, H0⟩, ⟨%d1, H1⟩, ⟨%d2, H2⟩⟩
      iapply ((runMid8 c (grid8.coords t) _ _ _ _ _ _ _ _ (fun h => hz ((isFirst8_iff t).mp h)) hnl (blk8 V c 0 t) (blk8 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid8 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation8 (c : Dev nD) : BodyObligation (dat8 (F := F) V c) (defs₀ (F := F)) Variants.none () Set.univ := fun t => by
  rw [bigSep_W8, bigSep_W8]
  exact sound_body8 V c t

/-- The invariant's two ends: it starts as the class invariant and gives it back (the running sum forgotten). -/
theorem Phi8_in (c : Dev nD) : Pipeline.ΦA spec8 c ⊢ (dat8 V c).Φ 0 := by
  rw [show (dat8 V c).Φ 0 = PhiAt8 V c 0 (Nat.zero_le _) from rfl, PhiAt8_zero V c 0 _ rfl]
  try exact Idealize.SL.BI.Entails.refl _
theorem Phi8_out (c : Dev nD) : (dat8 V c).Φ (Fin.last cfg8.N) ⊢ Pipeline.ΦA spec8 c := by
  rw [show (dat8 V c).Φ (Fin.last cfg8.N) = PhiAt8 V c (Fin.last cfg8.N).val (Nat.le_of_lt_succ (Fin.last cfg8.N).isLt) from rfl,
    PhiAt8_pos V c _ _ (by rw [Fin.val_last]; have : cfg8.N = 25 := N_8; omega), PhiA8_split]
  iintro ⟨⟨HS, Hrest⟩, Hg⟩
  isplitl [HS Hrest]
  · isplitl [HS]; · iexists _; iexact HS
    iexact Hrest
  iexact Hg

end Region

end Cert.Kernel.Hand

end
-- ==== Proof.BMlp9.lean ====
/- The class-A half of custom_call 9 (`cc9__mlp_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelLaunchP
import proofs.«170580_j11665131176635_1_alg».proof.Proof.Gen.Kernel.Skeleton
import proofs.«170580_j11665131176635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not the pipeline fetched it
    there, for any proof data whose array is `V`'s (`hA`) and whose body leaves the block in place (`hafter`):
    where it was not fetched the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not the pipeline fetched it
    there, for any proof data whose array is `V`'s (`hA`) and whose body leaves the block in place (`hafter`):
    where it was not fetched the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not the pipeline fetched it
    there, for any proof data whose array is `V`'s (`hA`) and whose body leaves the block in place (`hafter`):
    where it was not fetched the block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether or not the pipeline fetched it
    there, for any proof data whose array is `V`'s (`hA`) and whose body leaves the block in place (`hafter`):
    where it was not fetched the block index has not moved. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether or not the pipeline fetched it
    there, for any proof data whose array is `V`'s (`hA`) and whose body leaves the block in place (`hafter`):
    where it was not fetched the block index has not moved. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_S128x128 : Rect S128x128 := Rect.unit (s := S128x128) ![0, 0] S128x128.size inb_S128x128_S128x128_0_0
abbrev r9_S1x128 : Rect S1x128 := Rect.unit (s := S1x128) ![0, 0] S1x128.size inb_S1x128_S1x128_0_0
abbrev r9_S128x40 : Rect S128x40 := Rect.unit (s := S128x40) ![0, 0] S128x40.size inb_S128x40_S128x40_0_0
abbrev r9_S1x40 : Rect S1x40 := Rect.unit (s := S1x40) ![0, 0] S1x40.size inb_S1x40_S1x40_0_0

/-! ## What the body leaves in the output window's buffer -/

/-- Window 5's staging buffer after the body, from the input windows' blocks: its one store, whole, of the
    payload of the loaded blocks. -/
def out9_5 (x0 : Vec F S128x128 .f32) (x1 : Vec F S128x128 .f32) (x2 : Vec F S1x128 .f32) (x3 : Vec F S128x40 .f32) (x4 : Vec F S1x40 .f32) : Vec F S128x40 .f32 :=
  View.canon [⟨r9_S128x40, k9_pay1 (View.ld x0 r9_S128x128) (View.ld x1 r9_S128x128) (View.ld x2 r9_S1x128) (View.ld x3 r9_S128x40) (View.ld x4 r9_S1x40)⟩]

/-- The one store is of the whole buffer, so it covers it. -/
theorem cover9_5 (p0 : Vec F S128x40 .f32) (y : S128x40.Idx) :
    ∃ pc ∈ ([⟨r9_S128x40, p0⟩] : List (View.Piece (Elt F) S128x40 .f32)), y ∈ pc.1.set :=
  View.cover_of_tiled [⟨r9_S128x40, p0⟩] S128x40.size (by rfl) y

/-! ## The body's triple -/

set_option maxHeartbeats 4000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S128x40 .f32) (harg6 : arg6.IsWhole)
    (x0 : Vec F S128x128 .f32) (x1 : Vec F S128x128 .f32) (x2 : Vec F S1x128 .f32) (x3 : Vec F S128x40 .f32) (x4 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant
    the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.BKRun.lean ====
/-
  The whole program as a list of segments: eleven stretches of host operations and ten kernel regions between them.
  The contents of the core's unscoped buffers are followed through the list as a fold: W0 is the launch memory,
  each host stretch maps the contents by its operations, each region replaces the arrays of its windows by what
  its pipeline leaves there (an input array as it was, the output array with every written-back block in place)
  and keeps every other buffer.  Every weakly fair execution of the program terminates with every unscoped buffer
  at the last contents W21; the program's arguments are among the buffers no segment changes.
-/
import proofs.«170580_j11665131176635_1_alg».proof.Proof.BPool0
import proofs.«170580_j11665131176635_1_alg».proof.Proof.BPool1
import proofs.«170580_j11665131176635_1_alg».proof.Proof.BPool2
import proofs.«170580_j11665131176635_1_alg».proof.Proof.BComb3
import proofs.«170580_j11665131176635_1_alg».proof.Proof.BPool4
import proofs.«170580_j11665131176635_1_alg».proof.Proof.BComb5
import proofs.«170580_j11665131176635_1_alg».proof.Proof.BPool6
import proofs.«170580_j11665131176635_1_alg».proof.Proof.BComb7
import proofs.«170580_j11665131176635_1_alg».proof.Proof.BPool8
import proofs.«170580_j11665131176635_1_alg».proof.Proof.BMlp9
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- At launch. -/
abbrev W0 : Dev nD → Valuation τ sig (Elt F) := fun c b => m (c, b)
/-- After host stretch 0: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitArr0 (c : Dev nD) (w : Fin cfg0.W) : (dat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After host stretch 1: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After host stretch 2: region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem exitArr2 (c : Dev nD) (w : Fin cfg2.W) : (dat2 (V5 m) c).arrAt w cfg2.N = V6 m c (Pipeline.arrRef spec2 w) :=
  (W6_arr m c w).symm
theorem exitRest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After host stretch 3: region 3's entry. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem exitArr3 (c : Dev nD) (w : Fin cfg3.W) : (dat3 (V7 m) c).arrAt w cfg3.N = V8 m c (Pipeline.arrRef spec3 w) :=
  (W8_arr m c w).symm
theorem exitRest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After host stretch 4: region 4's entry. -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit: its windows' arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem exitArr4 (c : Dev nD) (w : Fin cfg4.W) : (dat4 (V9 m) c).arrAt w cfg4.N = V10 m c (Pipeline.arrRef spec4 w) :=
  (W10_arr m c w).symm
theorem exitRest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After host stretch 5: region 5's entry. -/
abbrev W11 : Dev nD → Valuation τ sig (Elt F) := fun c => StableHlo.after hostOps5 (W10 m c)
abbrev V11 : (c : Dev nD) → (b : Ref sig .tc) → Buf (Elt F) ((c : Thread nD τ).loc b) := fun c b => W11 m c b
/-- At region 5's exit: its windows' arrays at what the pipeline leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem exitArr5 (c : Dev nD) (w : Fin cfg5.W) : (dat5 (V11 m) c).arrAt w cfg5.N = V12 m c (Pipeline.arrRef spec5 w) :=
  (W12_arr m c w).symm
theorem exitRest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After host stretch 6: region 6's entry. -/
abbrev W13 : Dev nD → Valuation τ sig (Elt F) := fun c => StableHlo.after hostOps6 (W12 m c)
abbrev V13 : (c : Dev nD) → (b : Ref sig .tc) → Buf (Elt F) ((c : Thread nD τ).loc b) := fun c b => W13 m c b
/-- At region 6's exit: its windows' arrays at what the pipeline leaves, every other buffer as entered. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev V14 : (c : Dev nD) → (b : Ref sig .tc) → Buf (Elt F) ((c : Thread nD τ).loc b) := fun c b => W14 m c b
theorem exitArr6 (c : Dev nD) (w : Fin cfg6.W) : (dat6 (V13 m) c).arrAt w cfg6.N = V14 m c (Pipeline.arrRef spec6 w) :=
  (W14_arr m c w).symm
theorem exitRest6 (c : Dev nD) : ∀ b, b ∉ Finset.univ.image (Pipeline.arrRef spec6) → V14 m c b = V13 m c b :=
  fun b hb => W14_of_ne m c b fun w e => hb (Finset.mem_image.mpr ⟨w, Finset.mem_univ _, e⟩)
/-- After host stretch 7: region 7's entry. -/
abbrev W15 : Dev nD → Valuation τ sig (Elt F) := fun c => StableHlo.after hostOps7 (W14 m c)
abbrev V15 : (c : Dev nD) → (b : Ref sig .tc) → Buf (Elt F) ((c : Thread nD τ).loc b) := fun c b => W15 m c b
/-- At region 7's exit: its windows' arrays at what the pipeline leaves, every other buffer as entered. -/
def W16 (c : Dev nD) : Valuation τ sig (Elt F) :=
  Pipeline.withArrays spec7 c (W15 m c) fun w => (dat7 (V15 m) c).arrAt w cfg7.N
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev V16 : (c : Dev nD) → (b : Ref sig .tc) → Buf (Elt F) ((c : Thread nD τ).loc b) := fun c b => W16 m c b
theorem exitArr7 (c : Dev nD) (w : Fin cfg7.W) : (dat7 (V15 m) c).arrAt w cfg7.N = V16 m c (Pipeline.arrRef spec7 w) :=
  (W16_arr m c w).symm
theorem exitRest7 (c : Dev nD) : ∀ b, b ∉ Finset.univ.image (Pipeline.arrRef spec7) → V16 m c b = V15 m c b :=
  fun b hb => W16_of_ne m c b fun w e => hb (Finset.mem_image.mpr ⟨w, Finset.mem_univ _, e⟩)
/-- After host stretch 8: region 8's entry. -/
abbrev W17 : Dev nD → Valuation τ sig (Elt F) := fun c => StableHlo.after hostOps8 (W16 m c)
abbrev V17 : (c : Dev nD) → (b : Ref sig .tc) → Buf (Elt F) ((c : Thread nD τ).loc b) := fun c b => W17 m c b
/-- At region 8's exit: its windows' arrays at what the pipeline leaves, every other buffer as entered. -/
def W18 (c : Dev nD) : Valuation τ sig (Elt F) :=
  Pipeline.withArrays spec8 c (W17 m c) fun w => (dat8 (V17 m) c).arrAt w cfg8.N
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev V18 : (c : Dev nD) → (b : Ref sig .tc) → Buf (Elt F) ((c : Thread nD τ).loc b) := fun c b => W18 m c b
theorem exitArr8 (c : Dev nD) (w : Fin cfg8.W) : (dat8 (V17 m) c).arrAt w cfg8.N = V18 m c (Pipeline.arrRef spec8 w) :=
  (W18_arr m c w).symm
theorem exitRest8 (c : Dev nD) : ∀ b, b ∉ Finset.univ.image (Pipeline.arrRef spec8) → V18 m c b = V17 m c b :=
  fun b hb => W18_of_ne m c b fun w e => hb (Finset.mem_image.mpr ⟨w, Finset.mem_univ _, e⟩)
/-- After host stretch 9: region 9's entry. -/
abbrev W19 : Dev nD → Valuation τ sig (Elt F) := fun c => StableHlo.after hostOps9 (W18 m c)
abbrev V19 : (c : Dev nD) → (b : Ref sig .tc) → Buf (Elt F) ((c : Thread nD τ).loc b) := fun c b => W19 m c b
/-- At region 9's exit: its windows' arrays at what the pipeline leaves, every other buffer as entered. -/
def W20 (c : Dev nD) : Valuation τ sig (Elt F) :=
  Pipeline.withArrays spec9 c (W19 m c) fun w => (dat9 (V19 m) c).arrAt w cfg9.N
theorem W20_arr (c : Dev nD) (w : Fin cfg9.W) :
    W20 m c (Proc.devRef .tc (Pipeline.arrRef spec9 w)) = (dat9 (V19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev V20 : (c : Dev nD) → (b : Ref sig .tc) → Buf (Elt F) ((c : Thread nD τ).loc b) := fun c b => W20 m c b
theorem exitArr9 (c : Dev nD) (w : Fin cfg9.W) : (dat9 (V19 m) c).arrAt w cfg9.N = V20 m c (Pipeline.arrRef spec9 w) :=
  (W20_arr m c w).symm
theorem exitRest9 (c : Dev nD) : ∀ b, b ∉ Finset.univ.image (Pipeline.arrRef spec9) → V20 m c b = V19 m c b :=
  fun b hb => W20_of_ne m c b fun w e => hb (Finset.mem_image.mpr ⟨w, Finset.mem_univ _, e⟩)
/-- After the last host stretch. -/
abbrev W21 : Dev nD → Valuation τ sig (Elt F) := fun c => StableHlo.after hostOps10 (W20 m c)

/-! ## The proof data family and the thread state -/

abbrev adm : (p : Fin 10) → (pcfgs (F := F) p).Adm := fun p => (cfgs p).toPCfg_adm
/-- Every region's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
  | ⟨9, _⟩ => fun c => dat9 (V19 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem noAlloc0 : (hostOps0 : List (HloOp τ sig (Elt F))).Forall fun op => op.fresh = ∅ := by
  simp only [List.Forall]; repeat' constructor
theorem noAlloc1 : (hostOps1 : List (HloOp τ sig (Elt F))).Forall fun op => op.fresh = ∅ := by
  simp only [List.Forall]; repeat' constructor
theorem noAlloc2 : (hostOps2 : List (HloOp τ sig (Elt F))).Forall fun op => op.fresh = ∅ := by
  simp only [List.Forall]; repeat' constructor
theorem noAlloc3 : (hostOps3 : List (HloOp τ sig (Elt F))).Forall fun op => op.fresh = ∅ := by
  simp only [List.Forall]; repeat' constructor
theorem noAlloc4 : (hostOps4 : List (HloOp τ sig (Elt F))).Forall fun op => op.fresh = ∅ := by
  simp only [List.Forall]; repeat' constructor
theorem noAlloc5 : (hostOps5 : List (HloOp τ sig (Elt F))).Forall fun op => op.fresh = ∅ := by
  simp only [List.Forall]; repeat' constructor
theorem noAlloc6 : (hostOps6 : List (HloOp τ sig (Elt F))).Forall fun op => op.fresh = ∅ := by
  simp only [List.Forall]; repeat' constructor
theorem noAlloc7 : (hostOps7 : List (HloOp τ sig (Elt F))).Forall fun op => op.fresh = ∅ := by
  simp only [List.Forall]; repeat' constructor
theorem noAlloc8 : (hostOps8 : List (HloOp τ sig (Elt F))).Forall fun op => op.fresh = ∅ := by
  simp only [List.Forall]; repeat' constructor
theorem noAlloc9 : (hostOps9 : List (HloOp τ sig (Elt F))).Forall fun op => op.fresh = ∅ := by
  simp only [List.Forall]; repeat' constructor
theorem noAlloc10 : (hostOps10 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W21 m c) ∗ ∃ r, prngReg c r)

/-! ## The regions as segments -/

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h := Phi0_in (F := F) (V1 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h := Phi0_out (F := F) (V1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := Phi1_in (F := F) (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := Phi1_out (F := F) (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    have h := Phi2_in (F := F) (V5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V5 m) c).Φ (Fin.last cfg2.N) from rfl]
    have h := Phi2_out (F := F) (V5 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W9, left at W10. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V9 m) c).Φ 0 from rfl]
    have h := Phi4_in (F := F) (V9 m) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (V9 m) c).Φ (Fin.last cfg4.N) from rfl]
    have h := Phi4_out (F := F) (V9 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W11, left at W12. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at W13, left at W14. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V13 m) c).Φ 0 from rfl]
    have h := Phi6_in (F := F) (V13 m) c
    unfold Pipeline.ΦA at h
    iintro ⟨Hp, -, Hr⟩
    iapply h
    isplitl [Hr]; · iexact Hr
    iexact Hp
  hout c := by
    rw [Pipeline.ownSems0_none, show (pdats m 6 c).Φ (Fin.last _) = (dat6 (V13 m) c).Φ (Fin.last cfg6.N) from rfl]
    have h := Phi6_out (F := F) (V13 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at W15, left at W16. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V15 m c) (V16 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at W17, left at W18. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (V17 m) c).Φ 0 from rfl]
    have h := Phi8_in (F := F) (V17 m) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (V17 m) c).Φ (Fin.last cfg8.N) from rfl]
    have h := Phi8_out (F := F) (V17 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V17 m c) (V18 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at W19, left at W20. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (V19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V19 m c) (V20 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub noAlloc0 (W0 m)),
    .region (reg0 m),
    .host (hseg hostOps1 hostOps1_sub noAlloc1 (W2 m)),
    .region (reg1 m),
    .host (hseg hostOps2 hostOps2_sub noAlloc2 (W4 m)),
    .region (reg2 m),
    .host (hseg hostOps3 hostOps3_sub noAlloc3 (W6 m)),
    .region (reg3 m),
    .host (hseg hostOps4 hostOps4_sub noAlloc4 (W8 m)),
    .region (reg4 m),
    .host (hseg hostOps5 hostOps5_sub noAlloc5 (W10 m)),
    .region (reg5 m),
    .host (hseg hostOps6 hostOps6_sub noAlloc6 (W12 m)),
    .region (reg6 m),
    .host (hseg hostOps7 hostOps7_sub noAlloc7 (W14 m)),
    .region (reg7 m),
    .host (hseg hostOps8 hostOps8_sub noAlloc8 (W16 m)),
    .region (reg8 m),
    .host (hseg hostOps9 hostOps9_sub noAlloc9 (W18 m)),
    .region (reg9 m),
    .host (hseg hostOps10 hostOps10_sub noAlloc10 (W20 m)) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final memory has every unscoped buffer at the last contents W21. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h => h)

end Cert.Kernel.Hand

end
-- ==== Proof.BKFrame.lean ====
/-
  The arguments reach the end as launched. No host operation writes an argument, and a region either reads an
  argument through an input window (whose array the pipeline leaves as it found it) or does not touch it; so the
  fold of the buffers' contents, read at an argument, walks back to the launch memory. With the run of the whole
  program this gives the frame: every execution terminates and leaves every argument array unchanged, and the
  result buffer at the last contents of the fold.
-/
import proofs.«170580_j11665131176635_1_alg».proof.Proof.BKRun
import proofs.«170580_j11665131176635_1_alg».proof.Proof.KernelRegionsP

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

theorem kept_arg0 (c : Dev nD) : W21 m c (Proc.devRef .tc main_arg0) = m ((c : Thread nD τ).loc main_arg0) :=
  calc W21 m c (Proc.devRef .tc main_arg0)
    _ = W20 m c (Proc.devRef .tc main_arg0) := StableHlo.after_of_writes_sub GenP.hostOps10 _ GenP.hostOps10_writes (by decide)
    _ = W19 m c (Proc.devRef .tc main_arg0) := W20_of_ne m c main_arg0 (by decide)
    _ = W18 m c (Proc.devRef .tc main_arg0) := StableHlo.after_of_writes_sub GenP.hostOps9 _ GenP.hostOps9_writes (by decide)
    _ = W17 m c (Proc.devRef .tc main_arg0) := W18_of_ne m c main_arg0 (by decide)
    _ = W16 m c (Proc.devRef .tc main_arg0) := StableHlo.after_of_writes_sub GenP.hostOps8 _ GenP.hostOps8_writes (by decide)
    _ = W15 m c (Proc.devRef .tc main_arg0) := W16_of_ne m c main_arg0 (by decide)
    _ = W14 m c (Proc.devRef .tc main_arg0) := StableHlo.after_of_writes_sub GenP.hostOps7 _ GenP.hostOps7_writes (by decide)
    _ = W13 m c (Proc.devRef .tc main_arg0) := W14_of_ne m c main_arg0 (by decide)
    _ = W12 m c (Proc.devRef .tc main_arg0) := StableHlo.after_of_writes_sub GenP.hostOps6 _ GenP.hostOps6_writes (by decide)
    _ = W11 m c (Proc.devRef .tc main_arg0) := W12_of_ne m c main_arg0 (by decide)
    _ = W10 m c (Proc.devRef .tc main_arg0) := StableHlo.after_of_writes_sub GenP.hostOps5 _ GenP.hostOps5_writes (by decide)
    _ = W9 m c (Proc.devRef .tc main_arg0) := W10_of_ne m c main_arg0 (by decide)
    _ = W8 m c (Proc.devRef .tc main_arg0) := StableHlo.after_of_writes_sub GenP.hostOps4 _ GenP.hostOps4_writes (by decide)
    _ = W7 m c (Proc.devRef .tc main_arg0) := (W8_arr m c 0).trans (((dat3 (V7 m) c).arrAt_in 0 rfl _).trans (A_eq3 (V7 m) c 0))
    _ = W6 m c (Proc.devRef .tc main_arg0) := StableHlo.after_of_writes_sub GenP.hostOps3 _ GenP.hostOps3_writes (by decide)
    _ = W5 m c (Proc.devRef .tc main_arg0) := (W6_arr m c 1).trans (((dat2 (V5 m) c).arrAt_in 1 rfl _).trans (A_eq2 (V5 m) c 1))
    _ = W4 m c (Proc.devRef .tc main_arg0) := StableHlo.after_of_writes_sub GenP.hostOps2 _ GenP.hostOps2_writes (by decide)
    _ = W3 m c (Proc.devRef .tc main_arg0) := W4_of_ne m c main_arg0 (by decide)
    _ = W2 m c (Proc.devRef .tc main_arg0) := StableHlo.after_of_writes_sub GenP.hostOps1 _ GenP.hostOps1_writes (by decide)
    _ = W1 m c (Proc.devRef .tc main_arg0) := W2_of_ne m c main_arg0 (by decide)
    _ = W0 m c (Proc.devRef .tc main_arg0) := StableHlo.after_of_writes_sub GenP.hostOps0 _ GenP.hostOps0_writes (by decide)
    _ = m ((c : Thread nD τ).loc main_arg0) := rfl

theorem kept_arg1 (c : Dev nD) : W21 m c (Proc.devRef .tc main_arg1) = m ((c : Thread nD τ).loc main_arg1) :=
  calc W21 m c (Proc.devRef .tc main_arg1)
    _ = W20 m c (Proc.devRef .tc main_arg1) := StableHlo.after_of_writes_sub GenP.hostOps10 _ GenP.hostOps10_writes (by decide)
    _ = W19 m c (Proc.devRef .tc main_arg1) := W20_of_ne m c main_arg1 (by decide)
    _ = W18 m c (Proc.devRef .tc main_arg1) := StableHlo.after_of_writes_sub GenP.hostOps9 _ GenP.hostOps9_writes (by decide)
    _ = W17 m c (Proc.devRef .tc main_arg1) := W18_of_ne m c main_arg1 (by decide)
    _ = W16 m c (Proc.devRef .tc main_arg1) := StableHlo.after_of_writes_sub GenP.hostOps8 _ GenP.hostOps8_writes (by decide)
    _ = W15 m c (Proc.devRef .tc main_arg1) := W16_of_ne m c main_arg1 (by decide)
    _ = W14 m c (Proc.devRef .tc main_arg1) := StableHlo.after_of_writes_sub GenP.hostOps7 _ GenP.hostOps7_writes (by decide)
    _ = W13 m c (Proc.devRef .tc main_arg1) := W14_of_ne m c main_arg1 (by decide)
    _ = W12 m c (Proc.devRef .tc main_arg1) := StableHlo.after_of_writes_sub GenP.hostOps6 _ GenP.hostOps6_writes (by decide)
    _ = W11 m c (Proc.devRef .tc main_arg1) := W12_of_ne m c main_arg1 (by decide)
    _ = W10 m c (Proc.devRef .tc main_arg1) := StableHlo.after_of_writes_sub GenP.hostOps5 _ GenP.hostOps5_writes (by decide)
    _ = W9 m c (Proc.devRef .tc main_arg1) := W10_of_ne m c main_arg1 (by decide)
    _ = W8 m c (Proc.devRef .tc main_arg1) := StableHlo.after_of_writes_sub GenP.hostOps4 _ GenP.hostOps4_writes (by decide)
    _ = W7 m c (Proc.devRef .tc main_arg1) := W8_of_ne m c main_arg1 (by decide)
    _ = W6 m c (Proc.devRef .tc main_arg1) := StableHlo.after_of_writes_sub GenP.hostOps3 _ GenP.hostOps3_writes (by decide)
    _ = W5 m c (Proc.devRef .tc main_arg1) := W6_of_ne m c main_arg1 (by decide)
    _ = W4 m c (Proc.devRef .tc main_arg1) := StableHlo.after_of_writes_sub GenP.hostOps2 _ GenP.hostOps2_writes (by decide)
    _ = W3 m c (Proc.devRef .tc main_arg1) := W4_of_ne m c main_arg1 (by decide)
    _ = W2 m c (Proc.devRef .tc main_arg1) := StableHlo.after_of_writes_sub GenP.hostOps1 _ GenP.hostOps1_writes (by decide)
    _ = W1 m c (Proc.devRef .tc main_arg1) := W2_of_ne m c main_arg1 (by decide)
    _ = W0 m c (Proc.devRef .tc main_arg1) := StableHlo.after_of_writes_sub GenP.hostOps0 _ GenP.hostOps0_writes (by decide)
    _ = m ((c : Thread nD τ).loc main_arg1) := rfl

theorem kept_arg2 (c : Dev nD) : W21 m c (Proc.devRef .tc main_arg2) = m ((c : Thread nD τ).loc main_arg2) :=
  calc W21 m c (Proc.devRef .tc main_arg2)
    _ = W20 m c (Proc.devRef .tc main_arg2) := StableHlo.after_of_writes_sub GenP.hostOps10 _ GenP.hostOps10_writes (by decide)
    _ = W19 m c (Proc.devRef .tc main_arg2) := W20_of_ne m c main_arg2 (by decide)
    _ = W18 m c (Proc.devRef .tc main_arg2) := StableHlo.after_of_writes_sub GenP.hostOps9 _ GenP.hostOps9_writes (by decide)
    _ = W17 m c (Proc.devRef .tc main_arg2) := W18_of_ne m c main_arg2 (by decide)
    _ = W16 m c (Proc.devRef .tc main_arg2) := StableHlo.after_of_writes_sub GenP.hostOps8 _ GenP.hostOps8_writes (by decide)
    _ = W15 m c (Proc.devRef .tc main_arg2) := W16_of_ne m c main_arg2 (by decide)
    _ = W14 m c (Proc.devRef .tc main_arg2) := StableHlo.after_of_writes_sub GenP.hostOps7 _ GenP.hostOps7_writes (by decide)
    _ = W13 m c (Proc.devRef .tc main_arg2) := W14_of_ne m c main_arg2 (by decide)
    _ = W12 m c (Proc.devRef .tc main_arg2) := StableHlo.after_of_writes_sub GenP.hostOps6 _ GenP.hostOps6_writes (by decide)
    _ = W11 m c (Proc.devRef .tc main_arg2) := W12_of_ne m c main_arg2 (by decide)
    _ = W10 m c (Proc.devRef .tc main_arg2) := StableHlo.after_of_writes_sub GenP.hostOps5 _ GenP.hostOps5_writes (by decide)
    _ = W9 m c (Proc.devRef .tc main_arg2) := W10_of_ne m c main_arg2 (by decide)
    _ = W8 m c (Proc.devRef .tc main_arg2) := StableHlo.after_of_writes_sub GenP.hostOps4 _ GenP.hostOps4_writes (by decide)
    _ = W7 m c (Proc.devRef .tc main_arg2) := W8_of_ne m c main_arg2 (by decide)
    _ = W6 m c (Proc.devRef .tc main_arg2) := StableHlo.after_of_writes_sub GenP.hostOps3 _ GenP.hostOps3_writes (by decide)
    _ = W5 m c (Proc.devRef .tc main_arg2) := W6_of_ne m c main_arg2 (by decide)
    _ = W4 m c (Proc.devRef .tc main_arg2) := StableHlo.after_of_writes_sub GenP.hostOps2 _ GenP.hostOps2_writes (by decide)
    _ = W3 m c (Proc.devRef .tc main_arg2) := W4_of_ne m c main_arg2 (by decide)
    _ = W2 m c (Proc.devRef .tc main_arg2) := StableHlo.after_of_writes_sub GenP.hostOps1 _ GenP.hostOps1_writes (by decide)
    _ = W1 m c (Proc.devRef .tc main_arg2) := W2_of_ne m c main_arg2 (by decide)
    _ = W0 m c (Proc.devRef .tc main_arg2) := StableHlo.after_of_writes_sub GenP.hostOps0 _ GenP.hostOps0_writes (by decide)
    _ = m ((c : Thread nD τ).loc main_arg2) := rfl

theorem kept_arg3 (c : Dev nD) : W21 m c (Proc.devRef .tc main_arg3) = m ((c : Thread nD τ).loc main_arg3) :=
  calc W21 m c (Proc.devRef .tc main_arg3)
    _ = W20 m c (Proc.devRef .tc main_arg3) := StableHlo.after_of_writes_sub GenP.hostOps10 _ GenP.hostOps10_writes (by decide)
    _ = W19 m c (Proc.devRef .tc main_arg3) := W20_of_ne m c main_arg3 (by decide)
    _ = W18 m c (Proc.devRef .tc main_arg3) := StableHlo.after_of_writes_sub GenP.hostOps9 _ GenP.hostOps9_writes (by decide)
    _ = W17 m c (Proc.devRef .tc main_arg3) := W18_of_ne m c main_arg3 (by decide)
    _ = W16 m c (Proc.devRef .tc main_arg3) := StableHlo.after_of_writes_sub GenP.hostOps8 _ GenP.hostOps8_writes (by decide)
    _ = W15 m c (Proc.devRef .tc main_arg3) := W16_of_ne m c main_arg3 (by decide)
    _ = W14 m c (Proc.devRef .tc main_arg3) := StableHlo.after_of_writes_sub GenP.hostOps7 _ GenP.hostOps7_writes (by decide)
    _ = W13 m c (Proc.devRef .tc main_arg3) := W14_of_ne m c main_arg3 (by decide)
    _ = W12 m c (Proc.devRef .tc main_arg3) := StableHlo.after_of_writes_sub GenP.hostOps6 _ GenP.hostOps6_writes (by decide)
    _ = W11 m c (Proc.devRef .tc main_arg3) := W12_of_ne m c main_arg3 (by decide)
    _ = W10 m c (Proc.devRef .tc main_arg3) := StableHlo.after_of_writes_sub GenP.hostOps5 _ GenP.hostOps5_writes (by decide)
    _ = W9 m c (Proc.devRef .tc main_arg3) := W10_of_ne m c main_arg3 (by decide)
    _ = W8 m c (Proc.devRef .tc main_arg3) := StableHlo.after_of_writes_sub GenP.hostOps4 _ GenP.hostOps4_writes (by decide)
    _ = W7 m c (Proc.devRef .tc main_arg3) := W8_of_ne m c main_arg3 (by decide)
    _ = W6 m c (Proc.devRef .tc main_arg3) := StableHlo.after_of_writes_sub GenP.hostOps3 _ GenP.hostOps3_writes (by decide)
    _ = W5 m c (Proc.devRef .tc main_arg3) := W6_of_ne m c main_arg3 (by decide)
    _ = W4 m c (Proc.devRef .tc main_arg3) := StableHlo.after_of_writes_sub GenP.hostOps2 _ GenP.hostOps2_writes (by decide)
    _ = W3 m c (Proc.devRef .tc main_arg3) := W4_of_ne m c main_arg3 (by decide)
    _ = W2 m c (Proc.devRef .tc main_arg3) := StableHlo.after_of_writes_sub GenP.hostOps1 _ GenP.hostOps1_writes (by decide)
    _ = W1 m c (Proc.devRef .tc main_arg3) := W2_of_ne m c main_arg3 (by decide)
    _ = W0 m c (Proc.devRef .tc main_arg3) := StableHlo.after_of_writes_sub GenP.hostOps0 _ GenP.hostOps0_writes (by decide)
    _ = m ((c : Thread nD τ).loc main_arg3) := rfl

theorem kept_arg4 (c : Dev nD) : W21 m c (Proc.devRef .tc main_arg4) = m ((c : Thread nD τ).loc main_arg4) :=
  calc W21 m c (Proc.devRef .tc main_arg4)
    _ = W20 m c (Proc.devRef .tc main_arg4) := StableHlo.after_of_writes_sub GenP.hostOps10 _ GenP.hostOps10_writes (by decide)
    _ = W19 m c (Proc.devRef .tc main_arg4) := W20_of_ne m c main_arg4 (by decide)
    _ = W18 m c (Proc.devRef .tc main_arg4) := StableHlo.after_of_writes_sub GenP.hostOps9 _ GenP.hostOps9_writes (by decide)
    _ = W17 m c (Proc.devRef .tc main_arg4) := W18_of_ne m c main_arg4 (by decide)
    _ = W16 m c (Proc.devRef .tc main_arg4) := StableHlo.after_of_writes_sub GenP.hostOps8 _ GenP.hostOps8_writes (by decide)
    _ = W15 m c (Proc.devRef .tc main_arg4) := W16_of_ne m c main_arg4 (by decide)
    _ = W14 m c (Proc.devRef .tc main_arg4) := StableHlo.after_of_writes_sub GenP.hostOps7 _ GenP.hostOps7_writes (by decide)
    _ = W13 m c (Proc.devRef .tc main_arg4) := W14_of_ne m c main_arg4 (by decide)
    _ = W12 m c (Proc.devRef .tc main_arg4) := StableHlo.after_of_writes_sub GenP.hostOps6 _ GenP.hostOps6_writes (by decide)
    _ = W11 m c (Proc.devRef .tc main_arg4) := W12_of_ne m c main_arg4 (by decide)
    _ = W10 m c (Proc.devRef .tc main_arg4) := StableHlo.after_of_writes_sub GenP.hostOps5 _ GenP.hostOps5_writes (by decide)
    _ = W9 m c (Proc.devRef .tc main_arg4) := W10_of_ne m c main_arg4 (by decide)
    _ = W8 m c (Proc.devRef .tc main_arg4) := StableHlo.after_of_writes_sub GenP.hostOps4 _ GenP.hostOps4_writes (by decide)
    _ = W7 m c (Proc.devRef .tc main_arg4) := W8_of_ne m c main_arg4 (by decide)
    _ = W6 m c (Proc.devRef .tc main_arg4) := StableHlo.after_of_writes_sub GenP.hostOps3 _ GenP.hostOps3_writes (by decide)
    _ = W5 m c (Proc.devRef .tc main_arg4) := W6_of_ne m c main_arg4 (by decide)
    _ = W4 m c (Proc.devRef .tc main_arg4) := StableHlo.after_of_writes_sub GenP.hostOps2 _ GenP.hostOps2_writes (by decide)
    _ = W3 m c (Proc.devRef .tc main_arg4) := W4_of_ne m c main_arg4 (by decide)
    _ = W2 m c (Proc.devRef .tc main_arg4) := StableHlo.after_of_writes_sub GenP.hostOps1 _ GenP.hostOps1_writes (by decide)
    _ = W1 m c (Proc.devRef .tc main_arg4) := (W2_arr m c 1).trans (((dat0 (V1 m) c).arrAt_in 1 rfl _).trans (A_eq0 (V1 m) c 1))
    _ = W0 m c (Proc.devRef .tc main_arg4) := StableHlo.after_of_writes_sub GenP.hostOps0 _ GenP.hostOps0_writes (by decide)
    _ = m ((c : Thread nD τ).loc main_arg4) := rfl

theorem kept_arg5 (c : Dev nD) : W21 m c (Proc.devRef .tc main_arg5) = m ((c : Thread nD τ).loc main_arg5) :=
  calc W21 m c (Proc.devRef .tc main_arg5)
    _ = W20 m c (Proc.devRef .tc main_arg5) := StableHlo.after_of_writes_sub GenP.hostOps10 _ GenP.hostOps10_writes (by decide)
    _ = W19 m c (Proc.devRef .tc main_arg5) := W20_of_ne m c main_arg5 (by decide)
    _ = W18 m c (Proc.devRef .tc main_arg5) := StableHlo.after_of_writes_sub GenP.hostOps9 _ GenP.hostOps9_writes (by decide)
    _ = W17 m c (Proc.devRef .tc main_arg5) := W18_of_ne m c main_arg5 (by decide)
    _ = W16 m c (Proc.devRef .tc main_arg5) := StableHlo.after_of_writes_sub GenP.hostOps8 _ GenP.hostOps8_writes (by decide)
    _ = W15 m c (Proc.devRef .tc main_arg5) := W16_of_ne m c main_arg5 (by decide)
    _ = W14 m c (Proc.devRef .tc main_arg5) := StableHlo.after_of_writes_sub GenP.hostOps7 _ GenP.hostOps7_writes (by decide)
    _ = W13 m c (Proc.devRef .tc main_arg5) := W14_of_ne m c main_arg5 (by decide)
    _ = W12 m c (Proc.devRef .tc main_arg5) := StableHlo.after_of_writes_sub GenP.hostOps6 _ GenP.hostOps6_writes (by decide)
    _ = W11 m c (Proc.devRef .tc main_arg5) := W12_of_ne m c main_arg5 (by decide)
    _ = W10 m c (Proc.devRef .tc main_arg5) := StableHlo.after_of_writes_sub GenP.hostOps5 _ GenP.hostOps5_writes (by decide)
    _ = W9 m c (Proc.devRef .tc main_arg5) := W10_of_ne m c main_arg5 (by decide)
    _ = W8 m c (Proc.devRef .tc main_arg5) := StableHlo.after_of_writes_sub GenP.hostOps4 _ GenP.hostOps4_writes (by decide)
    _ = W7 m c (Proc.devRef .tc main_arg5) := W8_of_ne m c main_arg5 (by decide)
    _ = W6 m c (Proc.devRef .tc main_arg5) := StableHlo.after_of_writes_sub GenP.hostOps3 _ GenP.hostOps3_writes (by decide)
    _ = W5 m c (Proc.devRef .tc main_arg5) := W6_of_ne m c main_arg5 (by decide)
    _ = W4 m c (Proc.devRef .tc main_arg5) := StableHlo.after_of_writes_sub GenP.hostOps2 _ GenP.hostOps2_writes (by decide)
    _ = W3 m c (Proc.devRef .tc main_arg5) := W4_of_ne m c main_arg5 (by decide)
    _ = W2 m c (Proc.devRef .tc main_arg5) := StableHlo.after_of_writes_sub GenP.hostOps1 _ GenP.hostOps1_writes (by decide)
    _ = W1 m c (Proc.devRef .tc main_arg5) := W2_of_ne m c main_arg5 (by decide)
    _ = W0 m c (Proc.devRef .tc main_arg5) := StableHlo.after_of_writes_sub GenP.hostOps0 _ GenP.hostOps0_writes (by decide)
    _ = m ((c : Thread nD τ).loc main_arg5) := rfl

theorem kept_arg6 (c : Dev nD) : W21 m c (Proc.devRef .tc main_arg6) = m ((c : Thread nD τ).loc main_arg6) :=
  calc W21 m c (Proc.devRef .tc main_arg6)
    _ = W20 m c (Proc.devRef .tc main_arg6) := StableHlo.after_of_writes_sub GenP.hostOps10 _ GenP.hostOps10_writes (by decide)
    _ = W19 m c (Proc.devRef .tc main_arg6) := W20_of_ne m c main_arg6 (by decide)
    _ = W18 m c (Proc.devRef .tc main_arg6) := StableHlo.after_of_writes_sub GenP.hostOps9 _ GenP.hostOps9_writes (by decide)
    _ = W17 m c (Proc.devRef .tc main_arg6) := W18_of_ne m c main_arg6 (by decide)
    _ = W16 m c (Proc.devRef .tc main_arg6) := StableHlo.after_of_writes_sub GenP.hostOps8 _ GenP.hostOps8_writes (by decide)
    _ = W15 m c (Proc.devRef .tc main_arg6) := W16_of_ne m c main_arg6 (by decide)
    _ = W14 m c (Proc.devRef .tc main_arg6) := StableHlo.after_of_writes_sub GenP.hostOps7 _ GenP.hostOps7_writes (by decide)
    _ = W13 m c (Proc.devRef .tc main_arg6) := W14_of_ne m c main_arg6 (by decide)
    _ = W12 m c (Proc.devRef .tc main_arg6) := StableHlo.after_of_writes_sub GenP.hostOps6 _ GenP.hostOps6_writes (by decide)
    _ = W11 m c (Proc.devRef .tc main_arg6) := W12_of_ne m c main_arg6 (by decide)
    _ = W10 m c (Proc.devRef .tc main_arg6) := StableHlo.after_of_writes_sub GenP.hostOps5 _ GenP.hostOps5_writes (by decide)
    _ = W9 m c (Proc.devRef .tc main_arg6) := W10_of_ne m c main_arg6 (by decide)
    _ = W8 m c (Proc.devRef .tc main_arg6) := StableHlo.after_of_writes_sub GenP.hostOps4 _ GenP.hostOps4_writes (by decide)
    _ = W7 m c (Proc.devRef .tc main_arg6) := W8_of_ne m c main_arg6 (by decide)
    _ = W6 m c (Proc.devRef .tc main_arg6) := StableHlo.after_of_writes_sub GenP.hostOps3 _ GenP.hostOps3_writes (by decide)
    _ = W5 m c (Proc.devRef .tc main_arg6) := W6_of_ne m c main_arg6 (by decide)
    _ = W4 m c (Proc.devRef .tc main_arg6) := StableHlo.after_of_writes_sub GenP.hostOps2 _ GenP.hostOps2_writes (by decide)
    _ = W3 m c (Proc.devRef .tc main_arg6) := (W4_arr m c 1).trans (((dat1 (V3 m) c).arrAt_in 1 rfl _).trans (A_eq1 (V3 m) c 1))
    _ = W2 m c (Proc.devRef .tc main_arg6) := StableHlo.after_of_writes_sub GenP.hostOps1 _ GenP.hostOps1_writes (by decide)
    _ = W1 m c (Proc.devRef .tc main_arg6) := W2_of_ne m c main_arg6 (by decide)
    _ = W0 m c (Proc.devRef .tc main_arg6) := StableHlo.after_of_writes_sub GenP.hostOps0 _ GenP.hostOps0_writes (by decide)
    _ = m ((c : Thread nD τ).loc main_arg6) := rfl

theorem kept_arg7 (c : Dev nD) : W21 m c (Proc.devRef .tc main_arg7) = m ((c : Thread nD τ).loc main_arg7) :=
  calc W21 m c (Proc.devRef .tc main_arg7)
    _ = W20 m c (Proc.devRef .tc main_arg7) := StableHlo.after_of_writes_sub GenP.hostOps10 _ GenP.hostOps10_writes (by decide)
    _ = W19 m c (Proc.devRef .tc main_arg7) := W20_of_ne m c main_arg7 (by decide)
    _ = W18 m c (Proc.devRef .tc main_arg7) := StableHlo.after_of_writes_sub GenP.hostOps9 _ GenP.hostOps9_writes (by decide)
    _ = W17 m c (Proc.devRef .tc main_arg7) := W18_of_ne m c main_arg7 (by decide)
    _ = W16 m c (Proc.devRef .tc main_arg7) := StableHlo.after_of_writes_sub GenP.hostOps8 _ GenP.hostOps8_writes (by decide)
    _ = W15 m c (Proc.devRef .tc main_arg7) := W16_of_ne m c main_arg7 (by decide)
    _ = W14 m c (Proc.devRef .tc main_arg7) := StableHlo.after_of_writes_sub GenP.hostOps7 _ GenP.hostOps7_writes (by decide)
    _ = W13 m c (Proc.devRef .tc main_arg7) := W14_of_ne m c main_arg7 (by decide)
    _ = W12 m c (Proc.devRef .tc main_arg7) := StableHlo.after_of_writes_sub GenP.hostOps6 _ GenP.hostOps6_writes (by decide)
    _ = W11 m c (Proc.devRef .tc main_arg7) := W12_of_ne m c main_arg7 (by decide)
    _ = W10 m c (Proc.devRef .tc main_arg7) := StableHlo.after_of_writes_sub GenP.hostOps5 _ GenP.hostOps5_writes (by decide)
    _ = W9 m c (Proc.devRef .tc main_arg7) := W10_of_ne m c main_arg7 (by decide)
    _ = W8 m c (Proc.devRef .tc main_arg7) := StableHlo.after_of_writes_sub GenP.hostOps4 _ GenP.hostOps4_writes (by decide)
    _ = W7 m c (Proc.devRef .tc main_arg7) := W8_of_ne m c main_arg7 (by decide)
    _ = W6 m c (Proc.devRef .tc main_arg7) := StableHlo.after_of_writes_sub GenP.hostOps3 _ GenP.hostOps3_writes (by decide)
    _ = W5 m c (Proc.devRef .tc main_arg7) := W6_of_ne m c main_arg7 (by decide)
    _ = W4 m c (Proc.devRef .tc main_arg7) := StableHlo.after_of_writes_sub GenP.hostOps2 _ GenP.hostOps2_writes (by decide)
    _ = W3 m c (Proc.devRef .tc main_arg7) := W4_of_ne m c main_arg7 (by decide)
    _ = W2 m c (Proc.devRef .tc main_arg7) := StableHlo.after_of_writes_sub GenP.hostOps1 _ GenP.hostOps1_writes (by decide)
    _ = W1 m c (Proc.devRef .tc main_arg7) := W2_of_ne m c main_arg7 (by decide)
    _ = W0 m c (Proc.devRef .tc main_arg7) := StableHlo.after_of_writes_sub GenP.hostOps0 _ GenP.hostOps0_writes (by decide)
    _ = m ((c : Thread nD τ).loc main_arg7) := rfl

theorem kept_arg8 (c : Dev nD) : W21 m c (Proc.devRef .tc main_arg8) = m ((c : Thread nD τ).loc main_arg8) :=
  calc W21 m c (Proc.devRef .tc main_arg8)
    _ = W20 m c (Proc.devRef .tc main_arg8) := StableHlo.after_of_writes_sub GenP.hostOps10 _ GenP.hostOps10_writes (by decide)
    _ = W19 m c (Proc.devRef .tc main_arg8) := W20_of_ne m c main_arg8 (by decide)
    _ = W18 m c (Proc.devRef .tc main_arg8) := StableHlo.after_of_writes_sub GenP.hostOps9 _ GenP.hostOps9_writes (by decide)
    _ = W17 m c (Proc.devRef .tc main_arg8) := W18_of_ne m c main_arg8 (by decide)
    _ = W16 m c (Proc.devRef .tc main_arg8) := StableHlo.after_of_writes_sub GenP.hostOps8 _ GenP.hostOps8_writes (by decide)
    _ = W15 m c (Proc.devRef .tc main_arg8) := W16_of_ne m c main_arg8 (by decide)
    _ = W14 m c (Proc.devRef .tc main_arg8) := StableHlo.after_of_writes_sub GenP.hostOps7 _ GenP.hostOps7_writes (by decide)
    _ = W13 m c (Proc.devRef .tc main_arg8) := W14_of_ne m c main_arg8 (by decide)
    _ = W12 m c (Proc.devRef .tc main_arg8) := StableHlo.after_of_writes_sub GenP.hostOps6 _ GenP.hostOps6_writes (by decide)
    _ = W11 m c (Proc.devRef .tc main_arg8) := W12_of_ne m c main_arg8 (by decide)
    _ = W10 m c (Proc.devRef .tc main_arg8) := StableHlo.after_of_writes_sub GenP.hostOps5 _ GenP.hostOps5_writes (by decide)
    _ = W9 m c (Proc.devRef .tc main_arg8) := W10_of_ne m c main_arg8 (by decide)
    _ = W8 m c (Proc.devRef .tc main_arg8) := StableHlo.after_of_writes_sub GenP.hostOps4 _ GenP.hostOps4_writes (by decide)
    _ = W7 m c (Proc.devRef .tc main_arg8) := (W8_arr m c 4).trans (((dat3 (V7 m) c).arrAt_in 4 rfl _).trans (A_eq3 (V7 m) c 4))
    _ = W6 m c (Proc.devRef .tc main_arg8) := StableHlo.after_of_writes_sub GenP.hostOps3 _ GenP.hostOps3_writes (by decide)
    _ = W5 m c (Proc.devRef .tc main_arg8) := W6_of_ne m c main_arg8 (by decide)
    _ = W4 m c (Proc.devRef .tc main_arg8) := StableHlo.after_of_writes_sub GenP.hostOps2 _ GenP.hostOps2_writes (by decide)
    _ = W3 m c (Proc.devRef .tc main_arg8) := W4_of_ne m c main_arg8 (by decide)
    _ = W2 m c (Proc.devRef .tc main_arg8) := StableHlo.after_of_writes_sub GenP.hostOps1 _ GenP.hostOps1_writes (by decide)
    _ = W1 m c (Proc.devRef .tc main_arg8) := W2_of_ne m c main_arg8 (by decide)
    _ = W0 m c (Proc.devRef .tc main_arg8) := StableHlo.after_of_writes_sub GenP.hostOps0 _ GenP.hostOps0_writes (by decide)
    _ = m ((c : Thread nD τ).loc main_arg8) := rfl

theorem kept_arg9 (c : Dev nD) : W21 m c (Proc.devRef .tc main_arg9) = m ((c : Thread nD τ).loc main_arg9) :=
  calc W21 m c (Proc.devRef .tc main_arg9)
    _ = W20 m c (Proc.devRef .tc main_arg9) := StableHlo.after_of_writes_sub GenP.hostOps10 _ GenP.hostOps10_writes (by decide)
    _ = W19 m c (Proc.devRef .tc main_arg9) := W20_of_ne m c main_arg9 (by decide)
    _ = W18 m c (Proc.devRef .tc main_arg9) := StableHlo.after_of_writes_sub GenP.hostOps9 _ GenP.hostOps9_writes (by decide)
    _ = W17 m c (Proc.devRef .tc main_arg9) := W18_of_ne m c main_arg9 (by decide)
    _ = W16 m c (Proc.devRef .tc main_arg9) := StableHlo.after_of_writes_sub GenP.hostOps8 _ GenP.hostOps8_writes (by decide)
    _ = W15 m c (Proc.devRef .tc main_arg9) := W16_of_ne m c main_arg9 (by decide)
    _ = W14 m c (Proc.devRef .tc main_arg9) := StableHlo.after_of_writes_sub GenP.hostOps7 _ GenP.hostOps7_writes (by decide)
    _ = W13 m c (Proc.devRef .tc main_arg9) := W14_of_ne m c main_arg9 (by decide)
    _ = W12 m c (Proc.devRef .tc main_arg9) := StableHlo.after_of_writes_sub GenP.hostOps6 _ GenP.hostOps6_writes (by decide)
    _ = W11 m c (Proc.devRef .tc main_arg9) := W12_of_ne m c main_arg9 (by decide)
    _ = W10 m c (Proc.devRef .tc main_arg9) := StableHlo.after_of_writes_sub GenP.hostOps5 _ GenP.hostOps5_writes (by decide)
    _ = W9 m c (Proc.devRef .tc main_arg9) := W10_of_ne m c main_arg9 (by decide)
    _ = W8 m c (Proc.devRef .tc main_arg9) := StableHlo.after_of_writes_sub GenP.hostOps4 _ GenP.hostOps4_writes (by decide)
    _ = W7 m c (Proc.devRef .tc main_arg9) := W8_of_ne m c main_arg9 (by decide)
    _ = W6 m c (Proc.devRef .tc main_arg9) := StableHlo.after_of_writes_sub GenP.hostOps3 _ GenP.hostOps3_writes (by decide)
    _ = W5 m c (Proc.devRef .tc main_arg9) := W6_of_ne m c main_arg9 (by decide)
    _ = W4 m c (Proc.devRef .tc main_arg9) := StableHlo.after_of_writes_sub GenP.hostOps2 _ GenP.hostOps2_writes (by decide)
    _ = W3 m c (Proc.devRef .tc main_arg9) := W4_of_ne m c main_arg9 (by decide)
    _ = W2 m c (Proc.devRef .tc main_arg9) := StableHlo.after_of_writes_sub GenP.hostOps1 _ GenP.hostOps1_writes (by decide)
    _ = W1 m c (Proc.devRef .tc main_arg9) := W2_of_ne m c main_arg9 (by decide)
    _ = W0 m c (Proc.devRef .tc main_arg9) := StableHlo.after_of_writes_sub GenP.hostOps0 _ GenP.hostOps0_writes (by decide)
    _ = m ((c : Thread nD τ).loc main_arg9) := rfl

theorem kept_arg10 (c : Dev nD) : W21 m c (Proc.devRef .tc main_arg10) = m ((c : Thread nD τ).loc main_arg10) :=
  calc W21 m c (Proc.devRef .tc main_arg10)
    _ = W20 m c (Proc.devRef .tc main_arg10) := StableHlo.after_of_writes_sub GenP.hostOps10 _ GenP.hostOps10_writes (by decide)
    _ = W19 m c (Proc.devRef .tc main_arg10) := W20_of_ne m c main_arg10 (by decide)
    _ = W18 m c (Proc.devRef .tc main_arg10) := StableHlo.after_of_writes_sub GenP.hostOps9 _ GenP.hostOps9_writes (by decide)
    _ = W17 m c (Proc.devRef .tc main_arg10) := W18_of_ne m c main_arg10 (by decide)
    _ = W16 m c (Proc.devRef .tc main_arg10) := StableHlo.after_of_writes_sub GenP.hostOps8 _ GenP.hostOps8_writes (by decide)
    _ = W15 m c (Proc.devRef .tc main_arg10) := W16_of_ne m c main_arg10 (by decide)
    _ = W14 m c (Proc.devRef .tc main_arg10) := StableHlo.after_of_writes_sub GenP.hostOps7 _ GenP.hostOps7_writes (by decide)
    _ = W13 m c (Proc.devRef .tc main_arg10) := W14_of_ne m c main_arg10 (by decide)
    _ = W12 m c (Proc.devRef .tc main_arg10) := StableHlo.after_of_writes_sub GenP.hostOps6 _ GenP.hostOps6_writes (by decide)
    _ = W11 m c (Proc.devRef .tc main_arg10) := (W12_arr m c 4).trans (((dat5 (V11 m) c).arrAt_in 4 rfl _).trans (A_eq5 (V11 m) c 4))
    _ = W10 m c (Proc.devRef .tc main_arg10) := StableHlo.after_of_writes_sub GenP.hostOps5 _ GenP.hostOps5_writes (by decide)
    _ = W9 m c (Proc.devRef .tc main_arg10) := W10_of_ne m c main_arg10 (by decide)
    _ = W8 m c (Proc.devRef .tc main_arg10) := StableHlo.after_of_writes_sub GenP.hostOps4 _ GenP.hostOps4_writes (by decide)
    _ = W7 m c (Proc.devRef .tc main_arg10) := W8_of_ne m c main_arg10 (by decide)
    _ = W6 m c (Proc.devRef .tc main_arg10) := StableHlo.after_of_writes_sub GenP.hostOps3 _ GenP.hostOps3_writes (by decide)
    _ = W5 m c (Proc.devRef .tc main_arg10) := W6_of_ne m c main_arg10 (by decide)
    _ = W4 m c (Proc.devRef .tc main_arg10) := StableHlo.after_of_writes_sub GenP.hostOps2 _ GenP.hostOps2_writes (by decide)
    _ = W3 m c (Proc.devRef .tc main_arg10) := W4_of_ne m c main_arg10 (by decide)
    _ = W2 m c (Proc.devRef .tc main_arg10) := StableHlo.after_of_writes_sub GenP.hostOps1 _ GenP.hostOps1_writes (by decide)
    _ = W1 m c (Proc.devRef .tc main_arg10) := W2_of_ne m c main_arg10 (by decide)
    _ = W0 m c (Proc.devRef .tc main_arg10) := StableHlo.after_of_writes_sub GenP.hostOps0 _ GenP.hostOps0_writes (by decide)
    _ = m ((c : Thread nD τ).loc main_arg10) := rfl

theorem kept_arg11 (c : Dev nD) : W21 m c (Proc.devRef .tc main_arg11) = m ((c : Thread nD τ).loc main_arg11) :=
  calc W21 m c (Proc.devRef .tc main_arg11)
    _ = W20 m c (Proc.devRef .tc main_arg11) := StableHlo.after_of_writes_sub GenP.hostOps10 _ GenP.hostOps10_writes (by decide)
    _ = W19 m c (Proc.devRef .tc main_arg11) := W20_of_ne m c main_arg11 (by decide)
    _ = W18 m c (Proc.devRef .tc main_arg11) := StableHlo.after_of_writes_sub GenP.hostOps9 _ GenP.hostOps9_writes (by decide)
    _ = W17 m c (Proc.devRef .tc main_arg11) := W18_of_ne m c main_arg11 (by decide)
    _ = W16 m c (Proc.devRef .tc main_arg11) := StableHlo.after_of_writes_sub GenP.hostOps8 _ GenP.hostOps8_writes (by decide)
    _ = W15 m c (Proc.devRef .tc main_arg11) := W16_of_ne m c main_arg11 (by decide)
    _ = W14 m c (Proc.devRef .tc main_arg11) := StableHlo.after_of_writes_sub GenP.hostOps7 _ GenP.hostOps7_writes (by decide)
    _ = W13 m c (Proc.devRef .tc main_arg11) := W14_of_ne m c main_arg11 (by decide)
    _ = W12 m c (Proc.devRef .tc main_arg11) := StableHlo.after_of_writes_sub GenP.hostOps6 _ GenP.hostOps6_writes (by decide)
    _ = W11 m c (Proc.devRef .tc main_arg11) := W12_of_ne m c main_arg11 (by decide)
    _ = W10 m c (Proc.devRef .tc main_arg11) := StableHlo.after_of_writes_sub GenP.hostOps5 _ GenP.hostOps5_writes (by decide)
    _ = W9 m c (Proc.devRef .tc main_arg11) := W10_of_ne m c main_arg11 (by decide)
    _ = W8 m c (Proc.devRef .tc main_arg11) := StableHlo.after_of_writes_sub GenP.hostOps4 _ GenP.hostOps4_writes (by decide)
    _ = W7 m c (Proc.devRef .tc main_arg11) := W8_of_ne m c main_arg11 (by decide)
    _ = W6 m c (Proc.devRef .tc main_arg11) := StableHlo.after_of_writes_sub GenP.hostOps3 _ GenP.hostOps3_writes (by decide)
    _ = W5 m c (Proc.devRef .tc main_arg11) := W6_of_ne m c main_arg11 (by decide)
    _ = W4 m c (Proc.devRef .tc main_arg11) := StableHlo.after_of_writes_sub GenP.hostOps2 _ GenP.hostOps2_writes (by decide)
    _ = W3 m c (Proc.devRef .tc main_arg11) := W4_of_ne m c main_arg11 (by decide)
    _ = W2 m c (Proc.devRef .tc main_arg11) := StableHlo.after_of_writes_sub GenP.hostOps1 _ GenP.hostOps1_writes (by decide)
    _ = W1 m c (Proc.devRef .tc main_arg11) := W2_of_ne m c main_arg11 (by decide)
    _ = W0 m c (Proc.devRef .tc main_arg11) := StableHlo.after_of_writes_sub GenP.hostOps0 _ GenP.hostOps0_writes (by decide)
    _ = m ((c : Thread nD τ).loc main_arg11) := rfl

theorem kept_arg12 (c : Dev nD) : W21 m c (Proc.devRef .tc main_arg12) = m ((c : Thread nD τ).loc main_arg12) :=
  calc W21 m c (Proc.devRef .tc main_arg12)
    _ = W20 m c (Proc.devRef .tc main_arg12) := StableHlo.after_of_writes_sub GenP.hostOps10 _ GenP.hostOps10_writes (by decide)
    _ = W19 m c (Proc.devRef .tc main_arg12) := W20_of_ne m c main_arg12 (by decide)
    _ = W18 m c (Proc.devRef .tc main_arg12) := StableHlo.after_of_writes_sub GenP.hostOps9 _ GenP.hostOps9_writes (by decide)
    _ = W17 m c (Proc.devRef .tc main_arg12) := W18_of_ne m c main_arg12 (by decide)
    _ = W16 m c (Proc.devRef .tc main_arg12) := StableHlo.after_of_writes_sub GenP.hostOps8 _ GenP.hostOps8_writes (by decide)
    _ = W15 m c (Proc.devRef .tc main_arg12) := (W16_arr m c 4).trans (((dat7 (V15 m) c).arrAt_in 4 rfl _).trans (A_eq7 (V15 m) c 4))
    _ = W14 m c (Proc.devRef .tc main_arg12) := StableHlo.after_of_writes_sub GenP.hostOps7 _ GenP.hostOps7_writes (by decide)
    _ = W13 m c (Proc.devRef .tc main_arg12) := W14_of_ne m c main_arg12 (by decide)
    _ = W12 m c (Proc.devRef .tc main_arg12) := StableHlo.after_of_writes_sub GenP.hostOps6 _ GenP.hostOps6_writes (by decide)
    _ = W11 m c (Proc.devRef .tc main_arg12) := W12_of_ne m c main_arg12 (by decide)
    _ = W10 m c (Proc.devRef .tc main_arg12) := StableHlo.after_of_writes_sub GenP.hostOps5 _ GenP.hostOps5_writes (by decide)
    _ = W9 m c (Proc.devRef .tc main_arg12) := W10_of_ne m c main_arg12 (by decide)
    _ = W8 m c (Proc.devRef .tc main_arg12) := StableHlo.after_of_writes_sub GenP.hostOps4 _ GenP.hostOps4_writes (by decide)
    _ = W7 m c (Proc.devRef .tc main_arg12) := W8_of_ne m c main_arg12 (by decide)
    _ = W6 m c (Proc.devRef .tc main_arg12) := StableHlo.after_of_writes_sub GenP.hostOps3 _ GenP.hostOps3_writes (by decide)
    _ = W5 m c (Proc.devRef .tc main_arg12) := W6_of_ne m c main_arg12 (by decide)
    _ = W4 m c (Proc.devRef .tc main_arg12) := StableHlo.after_of_writes_sub GenP.hostOps2 _ GenP.hostOps2_writes (by decide)
    _ = W3 m c (Proc.devRef .tc main_arg12) := W4_of_ne m c main_arg12 (by decide)
    _ = W2 m c (Proc.devRef .tc main_arg12) := StableHlo.after_of_writes_sub GenP.hostOps1 _ GenP.hostOps1_writes (by decide)
    _ = W1 m c (Proc.devRef .tc main_arg12) := W2_of_ne m c main_arg12 (by decide)
    _ = W0 m c (Proc.devRef .tc main_arg12) := StableHlo.after_of_writes_sub GenP.hostOps0 _ GenP.hostOps0_writes (by decide)
    _ = m ((c : Thread nD τ).loc main_arg12) := rfl

theorem kept_arg13 (c : Dev nD) : W21 m c (Proc.devRef .tc main_arg13) = m ((c : Thread nD τ).loc main_arg13) :=
  calc W21 m c (Proc.devRef .tc main_arg13)
    _ = W20 m c (Proc.devRef .tc main_arg13) := StableHlo.after_of_writes_sub GenP.hostOps10 _ GenP.hostOps10_writes (by decide)
    _ = W19 m c (Proc.devRef .tc main_arg13) := W20_of_ne m c main_arg13 (by decide)
    _ = W18 m c (Proc.devRef .tc main_arg13) := StableHlo.after_of_writes_sub GenP.hostOps9 _ GenP.hostOps9_writes (by decide)
    _ = W17 m c (Proc.devRef .tc main_arg13) := W18_of_ne m c main_arg13 (by decide)
    _ = W16 m c (Proc.devRef .tc main_arg13) := StableHlo.after_of_writes_sub GenP.hostOps8 _ GenP.hostOps8_writes (by decide)
    _ = W15 m c (Proc.devRef .tc main_arg13) := W16_of_ne m c main_arg13 (by decide)
    _ = W14 m c (Proc.devRef .tc main_arg13) := StableHlo.after_of_writes_sub GenP.hostOps7 _ GenP.hostOps7_writes (by decide)
    _ = W13 m c (Proc.devRef .tc main_arg13) := W14_of_ne m c main_arg13 (by decide)
    _ = W12 m c (Proc.devRef .tc main_arg13) := StableHlo.after_of_writes_sub GenP.hostOps6 _ GenP.hostOps6_writes (by decide)
    _ = W11 m c (Proc.devRef .tc main_arg13) := W12_of_ne m c main_arg13 (by decide)
    _ = W10 m c (Proc.devRef .tc main_arg13) := StableHlo.after_of_writes_sub GenP.hostOps5 _ GenP.hostOps5_writes (by decide)
    _ = W9 m c (Proc.devRef .tc main_arg13) := W10_of_ne m c main_arg13 (by decide)
    _ = W8 m c (Proc.devRef .tc main_arg13) := StableHlo.after_of_writes_sub GenP.hostOps4 _ GenP.hostOps4_writes (by decide)
    _ = W7 m c (Proc.devRef .tc main_arg13) := W8_of_ne m c main_arg13 (by decide)
    _ = W6 m c (Proc.devRef .tc main_arg13) := StableHlo.after_of_writes_sub GenP.hostOps3 _ GenP.hostOps3_writes (by decide)
    _ = W5 m c (Proc.devRef .tc main_arg13) := W6_of_ne m c main_arg13 (by decide)
    _ = W4 m c (Proc.devRef .tc main_arg13) := StableHlo.after_of_writes_sub GenP.hostOps2 _ GenP.hostOps2_writes (by decide)
    _ = W3 m c (Proc.devRef .tc main_arg13) := W4_of_ne m c main_arg13 (by decide)
    _ = W2 m c (Proc.devRef .tc main_arg13) := StableHlo.after_of_writes_sub GenP.hostOps1 _ GenP.hostOps1_writes (by decide)
    _ = W1 m c (Proc.devRef .tc main_arg13) := W2_of_ne m c main_arg13 (by decide)
    _ = W0 m c (Proc.devRef .tc main_arg13) := StableHlo.after_of_writes_sub GenP.hostOps0 _ GenP.hostOps0_writes (by decide)
    _ = m ((c : Thread nD τ).loc main_arg13) := rfl

theorem kept_arg14 (c : Dev nD) : W21 m c (Proc.devRef .tc main_arg14) = m ((c : Thread nD τ).loc main_arg14) :=
  calc W21 m c (Proc.devRef .tc main_arg14)
    _ = W20 m c (Proc.devRef .tc main_arg14) := StableHlo.after_of_writes_sub GenP.hostOps10 _ GenP.hostOps10_writes (by decide)
    _ = W19 m c (Proc.devRef .tc main_arg14) := (W20_arr m c 1).trans (((dat9 (V19 m) c).arrAt_in 1 rfl _).trans (A_eq9 (V19 m) c 1))
    _ = W18 m c (Proc.devRef .tc main_arg14) := StableHlo.after_of_writes_sub GenP.hostOps9 _ GenP.hostOps9_writes (by decide)
    _ = W17 m c (Proc.devRef .tc main_arg14) := W18_of_ne m c main_arg14 (by decide)
    _ = W16 m c (Proc.devRef .tc main_arg14) := StableHlo.after_of_writes_sub GenP.hostOps8 _ GenP.hostOps8_writes (by decide)
    _ = W15 m c (Proc.devRef .tc main_arg14) := W16_of_ne m c main_arg14 (by decide)
    _ = W14 m c (Proc.devRef .tc main_arg14) := StableHlo.after_of_writes_sub GenP.hostOps7 _ GenP.hostOps7_writes (by decide)
    _ = W13 m c (Proc.devRef .tc main_arg14) := W14_of_ne m c main_arg14 (by decide)
    _ = W12 m c (Proc.devRef .tc main_arg14) := StableHlo.after_of_writes_sub GenP.hostOps6 _ GenP.hostOps6_writes (by decide)
    _ = W11 m c (Proc.devRef .tc main_arg14) := W12_of_ne m c main_arg14 (by decide)
    _ = W10 m c (Proc.devRef .tc main_arg14) := StableHlo.after_of_writes_sub GenP.hostOps5 _ GenP.hostOps5_writes (by decide)
    _ = W9 m c (Proc.devRef .tc main_arg14) := W10_of_ne m c main_arg14 (by decide)
    _ = W8 m c (Proc.devRef .tc main_arg14) := StableHlo.after_of_writes_sub GenP.hostOps4 _ GenP.hostOps4_writes (by decide)
    _ = W7 m c (Proc.devRef .tc main_arg14) := W8_of_ne m c main_arg14 (by decide)
    _ = W6 m c (Proc.devRef .tc main_arg14) := StableHlo.after_of_writes_sub GenP.hostOps3 _ GenP.hostOps3_writes (by decide)
    _ = W5 m c (Proc.devRef .tc main_arg14) := W6_of_ne m c main_arg14 (by decide)
    _ = W4 m c (Proc.devRef .tc main_arg14) := StableHlo.after_of_writes_sub GenP.hostOps2 _ GenP.hostOps2_writes (by decide)
    _ = W3 m c (Proc.devRef .tc main_arg14) := W4_of_ne m c main_arg14 (by decide)
    _ = W2 m c (Proc.devRef .tc main_arg14) := StableHlo.after_of_writes_sub GenP.hostOps1 _ GenP.hostOps1_writes (by decide)
    _ = W1 m c (Proc.devRef .tc main_arg14) := W2_of_ne m c main_arg14 (by decide)
    _ = W0 m c (Proc.devRef .tc main_arg14) := StableHlo.after_of_writes_sub GenP.hostOps0 _ GenP.hostOps0_writes (by decide)
    _ = m ((c : Thread nD τ).loc main_arg14) := rfl

theorem kept_arg15 (c : Dev nD) : W21 m c (Proc.devRef .tc main_arg15) = m ((c : Thread nD τ).loc main_arg15) :=
  calc W21 m c (Proc.devRef .tc main_arg15)
    _ = W20 m c (Proc.devRef .tc main_arg15) := StableHlo.after_of_writes_sub GenP.hostOps10 _ GenP.hostOps10_writes (by decide)
    _ = W19 m c (Proc.devRef .tc main_arg15) := W20_of_ne m c main_arg15 (by decide)
    _ = W18 m c (Proc.devRef .tc main_arg15) := StableHlo.after_of_writes_sub GenP.hostOps9 _ GenP.hostOps9_writes (by decide)
    _ = W17 m c (Proc.devRef .tc main_arg15) := W18_of_ne m c main_arg15 (by decide)
    _ = W16 m c (Proc.devRef .tc main_arg15) := StableHlo.after_of_writes_sub GenP.hostOps8 _ GenP.hostOps8_writes (by decide)
    _ = W15 m c (Proc.devRef .tc main_arg15) := W16_of_ne m c main_arg15 (by decide)
    _ = W14 m c (Proc.devRef .tc main_arg15) := StableHlo.after_of_writes_sub GenP.hostOps7 _ GenP.hostOps7_writes (by decide)
    _ = W13 m c (Proc.devRef .tc main_arg15) := W14_of_ne m c main_arg15 (by decide)
    _ = W12 m c (Proc.devRef .tc main_arg15) := StableHlo.after_of_writes_sub GenP.hostOps6 _ GenP.hostOps6_writes (by decide)
    _ = W11 m c (Proc.devRef .tc main_arg15) := W12_of_ne m c main_arg15 (by decide)
    _ = W10 m c (Proc.devRef .tc main_arg15) := StableHlo.after_of_writes_sub GenP.hostOps5 _ GenP.hostOps5_writes (by decide)
    _ = W9 m c (Proc.devRef .tc main_arg15) := W10_of_ne m c main_arg15 (by decide)
    _ = W8 m c (Proc.devRef .tc main_arg15) := StableHlo.after_of_writes_sub GenP.hostOps4 _ GenP.hostOps4_writes (by decide)
    _ = W7 m c (Proc.devRef .tc main_arg15) := W8_of_ne m c main_arg15 (by decide)
    _ = W6 m c (Proc.devRef .tc main_arg15) := StableHlo.after_of_writes_sub GenP.hostOps3 _ GenP.hostOps3_writes (by decide)
    _ = W5 m c (Proc.devRef .tc main_arg15) := W6_of_ne m c main_arg15 (by decide)
    _ = W4 m c (Proc.devRef .tc main_arg15) := StableHlo.after_of_writes_sub GenP.hostOps2 _ GenP.hostOps2_writes (by decide)
    _ = W3 m c (Proc.devRef .tc main_arg15) := W4_of_ne m c main_arg15 (by decide)
    _ = W2 m c (Proc.devRef .tc main_arg15) := StableHlo.after_of_writes_sub GenP.hostOps1 _ GenP.hostOps1_writes (by decide)
    _ = W1 m c (Proc.devRef .tc main_arg15) := W2_of_ne m c main_arg15 (by decide)
    _ = W0 m c (Proc.devRef .tc main_arg15) := StableHlo.after_of_writes_sub GenP.hostOps0 _ GenP.hostOps0_writes (by decide)
    _ = m ((c : Thread nD τ).loc main_arg15) := rfl

theorem kept_arg16 (c : Dev nD) : W21 m c (Proc.devRef .tc main_arg16) = m ((c : Thread nD τ).loc main_arg16) :=
  calc W21 m c (Proc.devRef .tc main_arg16)
    _ = W20 m c (Proc.devRef .tc main_arg16) := StableHlo.after_of_writes_sub GenP.hostOps10 _ GenP.hostOps10_writes (by decide)
    _ = W19 m c (Proc.devRef .tc main_arg16) := (W20_arr m c 3).trans (((dat9 (V19 m) c).arrAt_in 3 rfl _).trans (A_eq9 (V19 m) c 3))
    _ = W18 m c (Proc.devRef .tc main_arg16) := StableHlo.after_of_writes_sub GenP.hostOps9 _ GenP.hostOps9_writes (by decide)
    _ = W17 m c (Proc.devRef .tc main_arg16) := W18_of_ne m c main_arg16 (by decide)
    _ = W16 m c (Proc.devRef .tc main_arg16) := StableHlo.after_of_writes_sub GenP.hostOps8 _ GenP.hostOps8_writes (by decide)
    _ = W15 m c (Proc.devRef .tc main_arg16) := W16_of_ne m c main_arg16 (by decide)
    _ = W14 m c (Proc.devRef .tc main_arg16) := StableHlo.after_of_writes_sub GenP.hostOps7 _ GenP.hostOps7_writes (by decide)
    _ = W13 m c (Proc.devRef .tc main_arg16) := W14_of_ne m c main_arg16 (by decide)
    _ = W12 m c (Proc.devRef .tc main_arg16) := StableHlo.after_of_writes_sub GenP.hostOps6 _ GenP.hostOps6_writes (by decide)
    _ = W11 m c (Proc.devRef .tc main_arg16) := W12_of_ne m c main_arg16 (by decide)
    _ = W10 m c (Proc.devRef .tc main_arg16) := StableHlo.after_of_writes_sub GenP.hostOps5 _ GenP.hostOps5_writes (by decide)
    _ = W9 m c (Proc.devRef .tc main_arg16) := W10_of_ne m c main_arg16 (by decide)
    _ = W8 m c (Proc.devRef .tc main_arg16) := StableHlo.after_of_writes_sub GenP.hostOps4 _ GenP.hostOps4_writes (by decide)
    _ = W7 m c (Proc.devRef .tc main_arg16) := W8_of_ne m c main_arg16 (by decide)
    _ = W6 m c (Proc.devRef .tc main_arg16) := StableHlo.after_of_writes_sub GenP.hostOps3 _ GenP.hostOps3_writes (by decide)
    _ = W5 m c (Proc.devRef .tc main_arg16) := W6_of_ne m c main_arg16 (by decide)
    _ = W4 m c (Proc.devRef .tc main_arg16) := StableHlo.after_of_writes_sub GenP.hostOps2 _ GenP.hostOps2_writes (by decide)
    _ = W3 m c (Proc.devRef .tc main_arg16) := W4_of_ne m c main_arg16 (by decide)
    _ = W2 m c (Proc.devRef .tc main_arg16) := StableHlo.after_of_writes_sub GenP.hostOps1 _ GenP.hostOps1_writes (by decide)
    _ = W1 m c (Proc.devRef .tc main_arg16) := W2_of_ne m c main_arg16 (by decide)
    _ = W0 m c (Proc.devRef .tc main_arg16) := StableHlo.after_of_writes_sub GenP.hostOps0 _ GenP.hostOps0_writes (by decide)
    _ = m ((c : Thread nD τ).loc main_arg16) := rfl

theorem kept_arg17 (c : Dev nD) : W21 m c (Proc.devRef .tc main_arg17) = m ((c : Thread nD τ).loc main_arg17) :=
  calc W21 m c (Proc.devRef .tc main_arg17)
    _ = W20 m c (Proc.devRef .tc main_arg17) := StableHlo.after_of_writes_sub GenP.hostOps10 _ GenP.hostOps10_writes (by decide)
    _ = W19 m c (Proc.devRef .tc main_arg17) := W20_of_ne m c main_arg17 (by decide)
    _ = W18 m c (Proc.devRef .tc main_arg17) := StableHlo.after_of_writes_sub GenP.hostOps9 _ GenP.hostOps9_writes (by decide)
    _ = W17 m c (Proc.devRef .tc main_arg17) := W18_of_ne m c main_arg17 (by decide)
    _ = W16 m c (Proc.devRef .tc main_arg17) := StableHlo.after_of_writes_sub GenP.hostOps8 _ GenP.hostOps8_writes (by decide)
    _ = W15 m c (Proc.devRef .tc main_arg17) := W16_of_ne m c main_arg17 (by decide)
    _ = W14 m c (Proc.devRef .tc main_arg17) := StableHlo.after_of_writes_sub GenP.hostOps7 _ GenP.hostOps7_writes (by decide)
    _ = W13 m c (Proc.devRef .tc main_arg17) := W14_of_ne m c main_arg17 (by decide)
    _ = W12 m c (Proc.devRef .tc main_arg17) := StableHlo.after_of_writes_sub GenP.hostOps6 _ GenP.hostOps6_writes (by decide)
    _ = W11 m c (Proc.devRef .tc main_arg17) := W12_of_ne m c main_arg17 (by decide)
    _ = W10 m c (Proc.devRef .tc main_arg17) := StableHlo.after_of_writes_sub GenP.hostOps5 _ GenP.hostOps5_writes (by decide)
    _ = W9 m c (Proc.devRef .tc main_arg17) := W10_of_ne m c main_arg17 (by decide)
    _ = W8 m c (Proc.devRef .tc main_arg17) := StableHlo.after_of_writes_sub GenP.hostOps4 _ GenP.hostOps4_writes (by decide)
    _ = W7 m c (Proc.devRef .tc main_arg17) := W8_of_ne m c main_arg17 (by decide)
    _ = W6 m c (Proc.devRef .tc main_arg17) := StableHlo.after_of_writes_sub GenP.hostOps3 _ GenP.hostOps3_writes (by decide)
    _ = W5 m c (Proc.devRef .tc main_arg17) := W6_of_ne m c main_arg17 (by decide)
    _ = W4 m c (Proc.devRef .tc main_arg17) := StableHlo.after_of_writes_sub GenP.hostOps2 _ GenP.hostOps2_writes (by decide)
    _ = W3 m c (Proc.devRef .tc main_arg17) := W4_of_ne m c main_arg17 (by decide)
    _ = W2 m c (Proc.devRef .tc main_arg17) := StableHlo.after_of_writes_sub GenP.hostOps1 _ GenP.hostOps1_writes (by decide)
    _ = W1 m c (Proc.devRef .tc main_arg17) := W2_of_ne m c main_arg17 (by decide)
    _ = W0 m c (Proc.devRef .tc main_arg17) := StableHlo.after_of_writes_sub GenP.hostOps0 _ GenP.hostOps0_writes (by decide)
    _ = m ((c : Thread nD τ).loc main_arg17) := rfl

/-- THE FRAME AND THE RESULT: every execution terminates; the result buffer ends at the fold's last contents and
    every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v58) = W21 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v58 (by decide)),
     (h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c),
     (h c _ (mem_uc main_arg9 (by decide))).trans (kept_arg9 m c),
     (h c _ (mem_uc main_arg10 (by decide))).trans (kept_arg10 m c),
     (h c _ (mem_uc main_arg11 (by decide))).trans (kept_arg11 m c),
     (h c _ (mem_uc main_arg12 (by decide))).trans (kept_arg12 m c),
     (h c _ (mem_uc main_arg13 (by decide))).trans (kept_arg13 m c),
     (h c _ (mem_uc main_arg14 (by decide))).trans (kept_arg14 m c),
     (h c _ (mem_uc main_arg15 (by decide))).trans (kept_arg15 m c),
     (h c _ (mem_uc main_arg16 (by decide))).trans (kept_arg16 m c),
     (h c _ (mem_uc main_arg17 (by decide))).trans (kept_arg17 m c)⟩) (run_all m ρ)

/-- The frame alone. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.Kernel.Hand

end
-- ==== Proof.Pool0.lean ====
/-
  The first pooling call (pallas_call 0): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt0: by recursion on the point, each step the body's own arithmetic k0_pay2 of the
  two staged blocks and the previous sum, the first step over the cleared accumulator k0_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst0 (i : grid0.Coords) : Prop :=
  (Scalar.cmpi .ne (Scalar.extui (Scalar.cmpi .eq (BitVec.ofNat 32 (i 0).val) 0#32)) 0#32) = 1#1
/-- The body's second conditional: the grid coordinate is the last one. -/
abbrev isLast0 (i : grid0.Coords) : Prop := k0_cond2 i = 1#1

theorem isFirst0_iff : ∀ t : Fin cfg0.N, isFirst0 (grid0.coords t) ↔ t.val = 0 :=
  (by decide +kernel : ∀ t : Fin grid0.N, isFirst0 (grid0.coords t) ↔ t.val = 0)
theorem isLast0_iff : ∀ t : Fin cfg0.N, isLast0 (grid0.coords t) ↔ t.val = 24 :=
  (by decide +kernel : ∀ t : Fin grid0.N, isLast0 (grid0.coords t) ↔ t.val = 24)

/-- The two input windows are in use at every point. -/
theorem inLive0_0 : ∀ t : Fin cfg0.N, cfg0.idle 0 (grid0.coords t) = false := by decide +kernel
theorem inLive0_1 : ∀ t : Fin cfg0.N, cfg0.idle 1 (grid0.coords t) = false := by decide +kernel
/-- Away from the last point the output window is left alone and is not written back; -/
theorem outIdle0 : ∀ t : Fin cfg0.N, ¬isLast0 (grid0.coords t) → cfg0.idle 2 (grid0.coords t) = true := by decide +kernel
theorem outKept0 : ∀ t : Fin cfg0.N, ¬isLast0 (grid0.coords t) → (cfg0.win 2).flush t = false := by decide +kernel
/-- at the last point it is stored into. -/
theorem outLive0 : ∀ t : Fin cfg0.N, isLast0 (grid0.coords t) → cfg0.idle 2 (grid0.coords t) = false := by decide +kernel

/-! ## The staging memrefs and the accumulator -/

abbrev idsM0 (t : Fin cfg0.N) : Memref sig .tc .vmem S2000x1 .i32 := win0_0.stage (cfg0.slots t 0)
abbrev idsW0 (t : Fin cfg0.N) : (idsM0 t).IsWhole := hstage0_0 ((cfg0.slots t 0).cast nbuf0_0)
abbrev featsM0 (t : Fin cfg0.N) : Memref sig .tc .vmem S2000x128 .f32 := win0_1.stage (cfg0.slots t 1)
abbrev featsW0 (t : Fin cfg0.N) : (featsM0 t).IsWhole := hstage0_1 ((cfg0.slots t 1).cast nbuf0_1)
abbrev outM0 (t : Fin cfg0.N) : Memref sig .tc .vmem S128x128 .f32 := win0_2.stage (cfg0.slots t 2)
abbrev outW0 (t : Fin cfg0.N) : (outM0 t).IsWhole := hstage0_2 ((cfg0.slots t 2).cast nbuf0_2)
/-- The accumulator: a scratch buffer of the call's own. -/
abbrev accM0 : Memref sig .tc .vmem S128x128 .f32 := Memref.whole cc0_scratch0
/-- A view through which a 128 × 128 block's contents are stated (which buffer it is does not matter). -/
abbrev accV0 : View sig .tc .vmem S128x128 .f32 := accM0.view

/-- The region's invariant with the accumulator singled out: the accumulator at some contents, the other scoped
    buffers unopened, the generator register at some state. -/
theorem PhiA0_split (c : Dev nD) :
    (Pipeline.ΦA spec0 c : sProp 𝕄)
      = iprop(iprop((∃ d, owns (c : Thread nD τ) accM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [accM0, owns_whole]; try rfl

/-! ## The body, case by case -/

set_option maxHeartbeats 4000000 in
/-- At the first point: from the two input blocks and the accumulator at anything, the body leaves the inputs and
    the output's buffer as they were and the accumulator with the pieces the run finds. -/
noncomputable def runFirst0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst0 i) (hl : ¬isLast0 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, fun y3 E K => ?run⟩
  case run =>
    simp only [cc0__pool_kernel_eq_skeleton]; unfold cc0__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : ¬isLast0 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, fun y3 E K => ?run⟩
  case run =>
    simp only [cc0__pool_kernel_eq_skeleton]; unfold cc0__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast0 (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : isLast0 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc0__pool_kernel i a1 h1 a2 h2 a3 h3 a4 h4) K } := by
  refine ⟨?_, ?_, fun E K => ?run⟩
  case run =>
    simp only [cc0__pool_kernel_eq_skeleton]; unfold cc0__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst0 (c : Dev nD) (i : grid0.Coords) (a1 h1 a2 h2 a3 h3 a4 h4) (hf : isFirst0 i) (hl : ¬isLast0 i)
    (x1 : Vec F S2000x1 .i32) (x2 : Vec F S2000x128 .f32) (y : S128x128.Idx) :
    ∃ pc ∈ (runFirst0 c i a1 h1 a2 h2 a3 h3 a4 h4 hf hl x1 x2).1, y ∈ pc.1.set :=
  View.cover_of_tiledL (runFirst0 c i a1 h1 a2 h2 a3 h3 a4 h4 hf hl x1 x2).1 S128x128.size (by sl_kernel_rfl) y
theorem coverMid0 (c : Dev nD) (i : grid0.Coords) (a1 h1 a2 h2 a3 h3 a4 h4) (hf : ¬isFirst0 i) (hl : ¬isLast0 i)
    (x1 : Vec F S2000x1 .i32) (x2 : Vec F S2000x128 .f32) (s : Vec F S128x128 .f32) (y : S128x128.Idx) :
    ∃ pc ∈ (runMid0 c i a1 h1 a2 h2 a3 h3 a4 h4 hf hl x1 x2 s).1, y ∈ pc.1.set :=
  View.cover_of_tiledL (runMid0 c i a1 h1 a2 h2 a3 h3 a4 h4 hf hl x1 x2 s).1 S128x128.size (by sl_kernel_rfl) y
theorem coverLastAcc0 (c : Dev nD) (i : grid0.Coords) (a1 h1 a2 h2 a3 h3 a4 h4) (hf : ¬isFirst0 i) (hl : isLast0 i)
    (x1 : Vec F S2000x1 .i32) (x2 : Vec F S2000x128 .f32) (s : Vec F S128x128 .f32) (y : S128x128.Idx) :
    ∃ pc ∈ (runLast0 c i a1 h1 a2 h2 a3 h3 a4 h4 hf hl x1 x2 s).2.1, y ∈ pc.1.set :=
  View.cover_of_tiledL (runLast0 c i a1 h1 a2 h2 a3 h3 a4 h4 hf hl x1 x2 s).2.1 S128x128.size (by sl_kernel_rfl) y
theorem coverLastOut0 (c : Dev nD) (i : grid0.Coords) (a1 h1 a2 h2 a3 h3 a4 h4) (hf : ¬isFirst0 i) (hl : isLast0 i)
    (x1 : Vec F S2000x1 .i32) (x2 : Vec F S2000x128 .f32) (s : Vec F S128x128 .f32) (y : S128x128.Idx) :
    ∃ pc ∈ (runLast0 c i a1 h1 a2 h2 a3 h3 a4 h4 hf hl x1 x2 s).1, y ∈ pc.1.set :=
  View.cover_of_tiledL (runLast0 c i a1 h1 a2 h2 a3 h3 a4 h4 hf hl x1 x2 s).1 S128x128.size (by sl_kernel_rfl) y

/-- A list of pieces read back as one block. -/
abbrev asBlock0 (L : List (View.Piece (Elt F) S128x128 .f32)) : Vec F S128x128 .f32 :=
  accV0.read (Elt F) (accV0.writes (Elt F) accV0.junk L)

/-! ## The region, entered at the contents V -/

section Region
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over V that leaves it there. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- THE RUNNING SUM: what the accumulator holds after the body at position n. -/
def accAt0 (c : Dev nD) : (n : ℕ) → n < cfg0.N → Vec F S128x128 .f32
  | 0, hn => asBlock0 (runFirst0 c (grid0.coords ⟨0, hn⟩) (idsM0 ⟨0, hn⟩) (idsW0 ⟨0, hn⟩) (featsM0 ⟨0, hn⟩) (featsW0 ⟨0, hn⟩)
      (outM0 ⟨0, hn⟩) (outW0 ⟨0, hn⟩) accM0 (Memref.isWhole_whole _) ((isFirst0_iff ⟨0, hn⟩).mpr rfl)
      (fun h => absurd (show (0 : ℕ) = 24 from (isLast0_iff ⟨0, hn⟩).mp h) (by decide)) (blk0 V c 0 ⟨0, hn⟩) (blk0 V c 1 ⟨0, hn⟩)).1
  | n + 1, hn =>
    if hl : n + 1 = 24 then
      asBlock0 (runLast0 c (grid0.coords ⟨n + 1, hn⟩) (idsM0 ⟨n + 1, hn⟩) (idsW0 ⟨n + 1, hn⟩) (featsM0 ⟨n + 1, hn⟩) (featsW0 ⟨n + 1, hn⟩)
        (outM0 ⟨n + 1, hn⟩) (outW0 ⟨n + 1, hn⟩) accM0 (Memref.isWhole_whole _)
        (fun h => absurd ((isFirst0_iff ⟨n + 1, hn⟩).mp h) (Nat.succ_ne_zero n)) ((isLast0_iff ⟨n + 1, hn⟩).mpr hl)
        (blk0 V c 0 ⟨n + 1, hn⟩) (blk0 V c 1 ⟨n + 1, hn⟩) (accAt0 c n (Nat.lt_of_succ_lt hn))).2.1
    else
      asBlock0 (runMid0 c (grid0.coords ⟨n + 1, hn⟩) (idsM0 ⟨n + 1, hn⟩) (idsW0 ⟨n + 1, hn⟩) (featsM0 ⟨n + 1, hn⟩) (featsW0 ⟨n + 1, hn⟩)
        (outM0 ⟨n + 1, hn⟩) (outW0 ⟨n + 1, hn⟩) accM0 (Memref.isWhole_whole _)
        (fun h => absurd ((isFirst0_iff ⟨n + 1, hn⟩).mp h) (Nat.succ_ne_zero n)) (fun h => hl ((isLast0_iff ⟨n + 1, hn⟩).mp h))
        (blk0 V c 0 ⟨n + 1, hn⟩) (blk0 V c 1 ⟨n + 1, hn⟩) (accAt0 c n (Nat.lt_of_succ_lt hn))).1

/-- What the output's staging buffer holds after the body at position n: at the last point the pieces stored there;
    elsewhere the window is idle and this value is never consulted. -/
def outAt0 (c : Dev nD) (n : ℕ) (hn : n < cfg0.N) : Vec F S128x128 .f32 :=
  if hz : n = 0 then asBlock0 []
  else if hl : n = 24 then
    asBlock0 (runLast0 c (grid0.coords ⟨n, hn⟩) (idsM0 ⟨n, hn⟩) (idsW0 ⟨n, hn⟩) (featsM0 ⟨n, hn⟩) (featsW0 ⟨n, hn⟩)
      (outM0 ⟨n, hn⟩) (outW0 ⟨n, hn⟩) accM0 (Memref.isWhole_whole _)
      (fun h => hz ((isFirst0_iff ⟨n, hn⟩).mp h)) ((isLast0_iff ⟨n, hn⟩).mpr hl)
      (blk0 V c 0 ⟨n, hn⟩) (blk0 V c 1 ⟨n, hn⟩) (accAt0 V c (n - 1) (Nat.lt_of_le_of_lt (Nat.sub_le _ _) hn))).1
  else asBlock0 []

end Region

section Region
variable (V : (c : Dev nD) → (b : Ref sig .tc) → Buf (Elt F) ((c : Thread nD τ).loc b))

theorem accAt0_first (c : Dev nD) (t : Fin cfg0.N) (hz : t.val = 0) :
    accAt0 V c t.val t.isLt = asBlock0 (runFirst0 c (grid0.coords t) (idsM0 t) (idsW0 t) (featsM0 t) (featsW0 t) (outM0 t) (outW0 t) accM0
      (Memref.isWhole_whole _) ((isFirst0_iff t).mpr hz) (fun h => absurd (((isLast0_iff t).mp h).symm.trans hz) (by decide))
      (blk0 V c 0 t) (blk0 V c 1 t)).1 := by
  obtain ⟨n, hn⟩ := t
  cases n with
  | zero => rfl
  | succ n => exact absurd hz (Nat.succ_ne_zero n)

theorem accAt0_mid (c : Dev nD) (t : Fin cfg0.N) (hz : t.val ≠ 0) (hl : t.val ≠ 24) :
    accAt0 V c t.val t.isLt = asBlock0 (runMid0 c (grid0.coords t) (idsM0 t) (idsW0 t) (featsM0 t) (featsW0 t) (outM0 t) (outW0 t) accM0
      (Memref.isWhole_whole _) (fun h => hz ((isFirst0_iff t).mp h)) (fun h => hl ((isLast0_iff t).mp h))
      (blk0 V c 0 t) (blk0 V c 1 t) (accAt0 V c (t.val - 1) (Nat.lt_of_le_of_lt (Nat.sub_le _ _) t.isLt))).1 := by
  obtain ⟨n, hn⟩ := t
  cases n with
  | zero => exact absurd rfl hz
  | succ n => exact (dif_neg hl).trans rfl

theorem accAt0_last (c : Dev nD) (t : Fin cfg0.N) (hz : t.val ≠ 0) (hl : t.val = 24) :
    accAt0 V c t.val t.isLt = asBlock0 (runLast0 c (grid0.coords t) (idsM0 t) (idsW0 t) (featsM0 t) (featsW0 t) (outM0 t) (outW0 t) accM0
      (Memref.isWhole_whole _) (fun h => hz ((isFirst0_iff t).mp h)) ((isLast0_iff t).mpr hl)
      (blk0 V c 0 t) (blk0 V c 1 t) (accAt0 V c (t.val - 1) (Nat.lt_of_le_of_lt (Nat.sub_le _ _) t.isLt))).2.1 := by
  obtain ⟨n, hn⟩ := t
  cases n with
  | zero => exact absurd rfl hz
  | succ n => exact (dif_pos hl).trans rfl

theorem outAt0_last (c : Dev nD) (t : Fin cfg0.N) (hz : t.val ≠ 0) (hl : t.val = 24) :
    outAt0 V c t.val t.isLt = asBlock0 (runLast0 c (grid0.coords t) (idsM0 t) (idsW0 t) (featsM0 t) (featsW0 t) (outM0 t) (outW0 t) accM0
      (Memref.isWhole_whole _) (fun h => hz ((isFirst0_iff t).mp h)) ((isLast0_iff t).mpr hl)
      (blk0 V c 0 t) (blk0 V c 1 t) (accAt0 V c (t.val - 1) (Nat.lt_of_le_of_lt (Nat.sub_le _ _) t.isLt))).1 := by
  unfold outAt0; rw [dif_neg hz, dif_pos hl]

/-- The invariant before position n: before the first point the scoped buffers at anything; afterwards the
    accumulator at the running sum, the other scoped buffers unopened. The generator register rides along. -/
def PhiAt0 (c : Dev nD) : (n : ℕ) → n ≤ cfg0.N → sProp 𝕄
  | 0, _ => Pipeline.ΦA spec0 c
  | n + 1, hn => iprop(iprop(owns (c : Thread nD τ) accM0 fullShare (accAt0 V c n hn)
      ∗ Pipeline.scopedRestBut (Ix := Unit) (Name := ℕ) (U := UR sig nD τ) (Lvl := ℕ) (Val := Elt F) spec0 c [cc0_scratch0])
      ∗ (∃ r, prngReg c r))

theorem PhiAt0_zero (c : Dev nD) (n : ℕ) (h : n ≤ cfg0.N) (hz : n = 0) : PhiAt0 V c n h = Pipeline.ΦA spec0 c := by
  subst hz; rfl
theorem PhiAt0_succ (c : Dev nD) (n : ℕ) (hn : n < cfg0.N) :
    PhiAt0 V c (n + 1) hn = iprop(iprop(owns (c : Thread nD τ) accM0 fullShare (accAt0 V c n hn)
      ∗ Pipeline.scopedRestBut (Ix := Unit) (Name := ℕ) (U := UR sig nD τ) (Lvl := ℕ) (Val := Elt F) spec0 c [cc0_scratch0])
      ∗ (∃ r, prngReg c r)) := rfl
theorem PhiAt0_pos (c : Dev nD) (n : ℕ) (h : n ≤ cfg0.N) (hz : n ≠ 0) :
    PhiAt0 V c n h = iprop(iprop(owns (c : Thread nD τ) accM0 fullShare (accAt0 V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- The region's proof data: the arrays as V has them; after the body each input's buffer at its block, the output's
    at outAt0; the invariant PhiAt0; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t.val t.isLt
  Φ t := PhiAt0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiAt0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t.val t.isLt := by dsimp only [dat0]
theorem before0_0 (c : Dev nD) (t : Fin cfg0.N) (d) : (dat0 V c).before 0 t d = blk0 V c 0 t :=
  found0_0_of V (dat0 V c) (A_eq0 V c 0) (after0_0 V c) t d
theorem before0_1 (c : Dev nD) (t : Fin cfg0.N) (d) : (dat0 V c).before 1 t d = blk0 V c 1 t :=
  found0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (idsM0 t) fullShare ((dat0 V c).before 0 t d))
    ∗ (∃ d, owns (c : Thread nD τ) (featsM0 t) fullShare ((dat0 V c).before 1 t d))
    ∗ (∃ d, owns (c : Thread nD τ) (outM0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiAt0 V c (t.val + 1) t.isLt from rfl, PhiAt0_succ]
  rw [show (dat0 V c).leavesExact 0 t = owns (c : Thread nD τ) (idsM0 t) fullShare ((dat0 V c).after 0 t) from by
    unfold Dat.leavesExact; rw [inLive0_0 t], after0_0]
  rw [show (dat0 V c).leavesExact 1 t = owns (c : Thread nD τ) (featsM0 t) fullShare ((dat0 V c).after 1 t) from by
    unfold Dat.leavesExact; rw [inLive0_1 t], after0_1]
  have hN : t.val < 25 := lt_of_lt_of_eq t.isLt (show cfg0.N = 25 from N_0)
  by_cases hz : t.val = 0
  · have hl : ¬ t.val = 24 := by omega
    have hnl : ¬isLast0 (grid0.coords t) := fun h => hl ((isLast0_iff t).mp h)
    rw [Dat.leavesExact_idle (dat0 V c) 2 t (outIdle0 t hnl) (outKept0 t hnl)]
    rw [accAt0_first V c t hz]
    rw [Phi0_castSucc V c t, PhiAt0_zero V c _ _ hz, PhiA0_split]
    iintro ⟨⟨⟨HS, Hrest⟩, Hg⟩, Ho, ⟨%d0, H0⟩, ⟨%d1, H1⟩, ⟨%d2, H2⟩⟩
    iapply ((runFirst0 c (grid0.coords t) _ _ _ _ _ _ _ _ ((isFirst0_iff t).mpr hz) hnl (blk0 V c 0 t) (blk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst0 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast0 (grid0.coords t) := (isLast0_iff t).mpr hl
      rw [show (dat0 V c).leavesExact 2 t = owns (c : Thread nD τ) (outM0 t) fullShare ((dat0 V c).after 2 t) from by
        unfold Dat.leavesExact; rw [outLive0 t hil], after0_2]
      rw [accAt0_last V c t hz hl, outAt0_last V c t hz hl]
      rw [Phi0_castSucc V c t, PhiAt0_pos V c _ _ hz]
      iintro ⟨⟨⟨HS, Hrest⟩, Hg⟩, Ho, ⟨%d0, H0⟩, ⟨%d1, H1⟩, ⟨%d2, H2⟩⟩
      iapply ((runLast0 c (grid0.coords t) _ _ _ _ _ _ _ _ (fun h => hz ((isFirst0_iff t).mp h)) hil (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut0 c _ _ _ _ _ _ _ _ _ _ _ _ _ _)
    · have hnl : ¬isLast0 (grid0.coords t) := fun h => hl ((isLast0_iff t).mp h)
      rw [Dat.leavesExact_idle (dat0 V c) 2 t (outIdle0 t hnl) (outKept0 t hnl)]
      rw [accAt0_mid V c t hz hl]
      rw [Phi0_castSucc V c t, PhiAt0_pos V c _ _ hz]
      iintro ⟨⟨⟨HS, Hrest⟩, Hg⟩, Ho, ⟨%d0, H0⟩, ⟨%d1, H1⟩, ⟨%d2, H2⟩⟩
      iapply ((runMid0 c (grid0.coords t) _ _ _ _ _ _ _ _ (fun h => hz ((isFirst0_iff t).mp h)) hnl (blk0 V c 0 t) (blk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid0 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

/-- The invariant's two ends: it starts as the class invariant and gives it back (the running sum forgotten). -/
theorem Phi0_in (c : Dev nD) : Pipeline.ΦA spec0 c ⊢ (dat0 V c).Φ 0 := by
  rw [show (dat0 V c).Φ 0 = PhiAt0 V c 0 (Nat.zero_le _) from rfl, PhiAt0_zero V c 0 _ rfl]
  try exact Idealize.SL.BI.Entails.refl _
theorem Phi0_out (c : Dev nD) : (dat0 V c).Φ (Fin.last cfg0.N) ⊢ Pipeline.ΦA spec0 c := by
  rw [show (dat0 V c).Φ (Fin.last cfg0.N) = PhiAt0 V c (Fin.last cfg0.N).val (Nat.le_of_lt_succ (Fin.last cfg0.N).isLt) from rfl,
    PhiAt0_pos V c _ _ (by rw [Fin.val_last]; have : cfg0.N = 25 := N_0; omega), PhiA0_split]
  iintro ⟨⟨HS, Hrest⟩, Hg⟩
  isplitl [HS Hrest]
  · isplitl [HS]; · iexists _; iexact HS
    iexact Hrest
  iexact Hg

end Region

end Cert.KernelIdeal.Hand

end
-- ==== Proof.Pool1.lean ====
/-
  A pooling call (pallas_call 1): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt1: by recursion on the point, each step the body's own arithmetic k1_pay2 of the
  two staged blocks and the previous sum, the first step over the cleared accumulator k1_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst1 (i : grid1.Coords) : Prop :=
  (Scalar.cmpi .ne (Scalar.extui (Scalar.cmpi .eq (BitVec.ofNat 32 (i 0).val) 0#32)) 0#32) = 1#1
/-- The body's second conditional: the grid coordinate is the last one. -/
abbrev isLast1 (i : grid1.Coords) : Prop := k1_cond2 i = 1#1

theorem isFirst1_iff : ∀ t : Fin cfg1.N, isFirst1 (grid1.coords t) ↔ t.val = 0 :=
  (by decide +kernel : ∀ t : Fin grid1.N, isFirst1 (grid1.coords t) ↔ t.val = 0)
theorem isLast1_iff : ∀ t : Fin cfg1.N, isLast1 (grid1.coords t) ↔ t.val = 24 :=
  (by decide +kernel : ∀ t : Fin grid1.N, isLast1 (grid1.coords t) ↔ t.val = 24)

/-- The two input windows are in use at every point. -/
theorem inLive1_0 : ∀ t : Fin cfg1.N, cfg1.idle 0 (grid1.coords t) = false := by decide +kernel
theorem inLive1_1 : ∀ t : Fin cfg1.N, cfg1.idle 1 (grid1.coords t) = false := by decide +kernel
/-- Away from the last point the output window is left alone and is not written back; -/
theorem outIdle1 : ∀ t : Fin cfg1.N, ¬isLast1 (grid1.coords t) → cfg1.idle 2 (grid1.coords t) = true := by decide +kernel
theorem outKept1 : ∀ t : Fin cfg1.N, ¬isLast1 (grid1.coords t) → (cfg1.win 2).flush t = false := by decide +kernel
/-- at the last point it is stored into. -/
theorem outLive1 : ∀ t : Fin cfg1.N, isLast1 (grid1.coords t) → cfg1.idle 2 (grid1.coords t) = false := by decide +kernel

/-! ## The staging memrefs and the accumulator -/

abbrev idsM1 (t : Fin cfg1.N) : Memref sig .tc .vmem S2000x1 .i32 := win1_0.stage (cfg1.slots t 0)
abbrev idsW1 (t : Fin cfg1.N) : (idsM1 t).IsWhole := hstage1_0 ((cfg1.slots t 0).cast nbuf1_0)
abbrev featsM1 (t : Fin cfg1.N) : Memref sig .tc .vmem S2000x128 .f32 := win1_1.stage (cfg1.slots t 1)
abbrev featsW1 (t : Fin cfg1.N) : (featsM1 t).IsWhole := hstage1_1 ((cfg1.slots t 1).cast nbuf1_1)
abbrev outM1 (t : Fin cfg1.N) : Memref sig .tc .vmem S128x128 .f32 := win1_2.stage (cfg1.slots t 2)
abbrev outW1 (t : Fin cfg1.N) : (outM1 t).IsWhole := hstage1_2 ((cfg1.slots t 2).cast nbuf1_2)
/-- The accumulator: a scratch buffer of the call's own. -/
abbrev accM1 : Memref sig .tc .vmem S128x128 .f32 := Memref.whole cc1_scratch0
/-- A view through which a 128 × 128 block's contents are stated (which buffer it is does not matter). -/
abbrev accV1 : View sig .tc .vmem S128x128 .f32 := accM1.view

/-- The region's invariant with the accumulator singled out: the accumulator at some contents, the other scoped
    buffers unopened, the generator register at some state. -/
theorem PhiA1_split (c : Dev nD) :
    (Pipeline.ΦA spec1 c : sProp 𝕄)
      = iprop(iprop((∃ d, owns (c : Thread nD τ) accM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [accM1, owns_whole]; try rfl

/-! ## The body, case by case -/

set_option maxHeartbeats 4000000 in
/-- At the first point: from the two input blocks and the accumulator at anything, the body leaves the inputs and
    the output's buffer as they were and the accumulator with the pieces the run finds. -/
noncomputable def runFirst1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst1 i) (hl : ¬isLast1 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, fun y3 E K => ?run⟩
  case run =>
    simp only [cc1__pool_kernel_eq_skeleton]; unfold cc1__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : ¬isLast1 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, fun y3 E K => ?run⟩
  case run =>
    simp only [cc1__pool_kernel_eq_skeleton]; unfold cc1__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast1 (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : isLast1 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc1__pool_kernel i a1 h1 a2 h2 a3 h3 a4 h4) K } := by
  refine ⟨?_, ?_, fun E K => ?run⟩
  case run =>
    simp only [cc1__pool_kernel_eq_skeleton]; unfold cc1__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst1 (c : Dev nD) (i : grid1.Coords) (a1 h1 a2 h2 a3 h3 a4 h4) (hf : isFirst1 i) (hl : ¬isLast1 i)
    (x1 : Vec F S2000x1 .i32) (x2 : Vec F S2000x128 .f32) (y : S128x128.Idx) :
    ∃ pc ∈ (runFirst1 c i a1 h1 a2 h2 a3 h3 a4 h4 hf hl x1 x2).1, y ∈ pc.1.set :=
  View.cover_of_tiledL (runFirst1 c i a1 h1 a2 h2 a3 h3 a4 h4 hf hl x1 x2).1 S128x128.size (by sl_kernel_rfl) y
theorem coverMid1 (c : Dev nD) (i : grid1.Coords) (a1 h1 a2 h2 a3 h3 a4 h4) (hf : ¬isFirst1 i) (hl : ¬isLast1 i)
    (x1 : Vec F S2000x1 .i32) (x2 : Vec F S2000x128 .f32) (s : Vec F S128x128 .f32) (y : S128x128.Idx) :
    ∃ pc ∈ (runMid1 c i a1 h1 a2 h2 a3 h3 a4 h4 hf hl x1 x2 s).1, y ∈ pc.1.set :=
  View.cover_of_tiledL (runMid1 c i a1 h1 a2 h2 a3 h3 a4 h4 hf hl x1 x2 s).1 S128x128.size (by sl_kernel_rfl) y
theorem coverLastAcc1 (c : Dev nD) (i : grid1.Coords) (a1 h1 a2 h2 a3 h3 a4 h4) (hf : ¬isFirst1 i) (hl : isLast1 i)
    (x1 : Vec F S2000x1 .i32) (x2 : Vec F S2000x128 .f32) (s : Vec F S128x128 .f32) (y : S128x128.Idx) :
    ∃ pc ∈ (runLast1 c i a1 h1 a2 h2 a3 h3 a4 h4 hf hl x1 x2 s).2.1, y ∈ pc.1.set :=
  View.cover_of_tiledL (runLast1 c i a1 h1 a2 h2 a3 h3 a4 h4 hf hl x1 x2 s).2.1 S128x128.size (by sl_kernel_rfl) y
theorem coverLastOut1 (c : Dev nD) (i : grid1.Coords) (a1 h1 a2 h2 a3 h3 a4 h4) (hf : ¬isFirst1 i) (hl : isLast1 i)
    (x1 : Vec F S2000x1 .i32) (x2 : Vec F S2000x128 .f32) (s : Vec F S128x128 .f32) (y : S128x128.Idx) :
    ∃ pc ∈ (runLast1 c i a1 h1 a2 h2 a3 h3 a4 h4 hf hl x1 x2 s).1, y ∈ pc.1.set :=
  View.cover_of_tiledL (runLast1 c i a1 h1 a2 h2 a3 h3 a4 h4 hf hl x1 x2 s).1 S128x128.size (by sl_kernel_rfl) y

/-- A list of pieces read back as one block. -/
abbrev asBlock1 (L : List (View.Piece (Elt F) S128x128 .f32)) : Vec F S128x128 .f32 :=
  accV1.read (Elt F) (accV1.writes (Elt F) accV1.junk L)

/-! ## The region, entered at the contents V -/

section Region
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data over V that leaves it there. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- THE RUNNING SUM: what the accumulator holds after the body at position n. -/
def accAt1 (c : Dev nD) : (n : ℕ) → n < cfg1.N → Vec F S128x128 .f32
  | 0, hn => asBlock1 (runFirst1 c (grid1.coords ⟨0, hn⟩) (idsM1 ⟨0, hn⟩) (idsW1 ⟨0, hn⟩) (featsM1 ⟨0, hn⟩) (featsW1 ⟨0, hn⟩)
      (outM1 ⟨0, hn⟩) (outW1 ⟨0, hn⟩) accM1 (Memref.isWhole_whole _) ((isFirst1_iff ⟨0, hn⟩).mpr rfl)
      (fun h => absurd (show (0 : ℕ) = 24 from (isLast1_iff ⟨0, hn⟩).mp h) (by decide)) (blk1 V c 0 ⟨0, hn⟩) (blk1 V c 1 ⟨0, hn⟩)).1
  | n + 1, hn =>
    if hl : n + 1 = 24 then
      asBlock1 (runLast1 c (grid1.coords ⟨n + 1, hn⟩) (idsM1 ⟨n + 1, hn⟩) (idsW1 ⟨n + 1, hn⟩) (featsM1 ⟨n + 1, hn⟩) (featsW1 ⟨n + 1, hn⟩)
        (outM1 ⟨n + 1, hn⟩) (outW1 ⟨n + 1, hn⟩) accM1 (Memref.isWhole_whole _)
        (fun h => absurd ((isFirst1_iff ⟨n + 1, hn⟩).mp h) (Nat.succ_ne_zero n)) ((isLast1_iff ⟨n + 1, hn⟩).mpr hl)
        (blk1 V c 0 ⟨n + 1, hn⟩) (blk1 V c 1 ⟨n + 1, hn⟩) (accAt1 c n (Nat.lt_of_succ_lt hn))).2.1
    else
      asBlock1 (runMid1 c (grid1.coords ⟨n + 1, hn⟩) (idsM1 ⟨n + 1, hn⟩) (idsW1 ⟨n + 1, hn⟩) (featsM1 ⟨n + 1, hn⟩) (featsW1 ⟨n + 1, hn⟩)
        (outM1 ⟨n + 1, hn⟩) (outW1 ⟨n + 1, hn⟩) accM1 (Memref.isWhole_whole _)
        (fun h => absurd ((isFirst1_iff ⟨n + 1, hn⟩).mp h) (Nat.succ_ne_zero n)) (fun h => hl ((isLast1_iff ⟨n + 1, hn⟩).mp h))
        (blk1 V c 0 ⟨n + 1, hn⟩) (blk1 V c 1 ⟨n + 1, hn⟩) (accAt1 c n (Nat.lt_of_succ_lt hn))).1

/-- What the output's staging buffer holds after the body at position n: at the last point the pieces stored there;
    elsewhere the window is idle and this value is never consulted. -/
def outAt1 (c : Dev nD) (n : ℕ) (hn : n < cfg1.N) : Vec F S128x128 .f32 :=
  if hz : n = 0 then asBlock1 []
  else if hl : n = 24 then
    asBlock1 (runLast1 c (grid1.coords ⟨n, hn⟩) (idsM1 ⟨n, hn⟩) (idsW1 ⟨n, hn⟩) (featsM1 ⟨n, hn⟩) (featsW1 ⟨n, hn⟩)
      (outM1 ⟨n, hn⟩) (outW1 ⟨n, hn⟩) accM1 (Memref.isWhole_whole _)
      (fun h => hz ((isFirst1_iff ⟨n, hn⟩).mp h)) ((isLast1_iff ⟨n, hn⟩).mpr hl)
      (blk1 V c 0 ⟨n, hn⟩) (blk1 V c 1 ⟨n, hn⟩) (accAt1 V c (n - 1) (Nat.lt_of_le_of_lt (Nat.sub_le _ _) hn))).1
  else asBlock1 []

end Region

section Region
variable (V : (c : Dev nD) → (b : Ref sig .tc) → Buf (Elt F) ((c : Thread nD τ).loc b))

theorem accAt1_first (c : Dev nD) (t : Fin cfg1.N) (hz : t.val = 0) :
    accAt1 V c t.val t.isLt = asBlock1 (runFirst1 c (grid1.coords t) (idsM1 t) (idsW1 t) (featsM1 t) (featsW1 t) (outM1 t) (outW1 t) accM1
      (Memref.isWhole_whole _) ((isFirst1_iff t).mpr hz) (fun h => absurd (((isLast1_iff t).mp h).symm.trans hz) (by decide))
      (blk1 V c 0 t) (blk1 V c 1 t)).1 := by
  obtain ⟨n, hn⟩ := t
  cases n with
  | zero => rfl
  | succ n => exact absurd hz (Nat.succ_ne_zero n)

theorem accAt1_mid (c : Dev nD) (t : Fin cfg1.N) (hz : t.val ≠ 0) (hl : t.val ≠ 24) :
    accAt1 V c t.val t.isLt = asBlock1 (runMid1 c (grid1.coords t) (idsM1 t) (idsW1 t) (featsM1 t) (featsW1 t) (outM1 t) (outW1 t) accM1
      (Memref.isWhole_whole _) (fun h => hz ((isFirst1_iff t).mp h)) (fun h => hl ((isLast1_iff t).mp h))
      (blk1 V c 0 t) (blk1 V c 1 t) (accAt1 V c (t.val - 1) (Nat.lt_of_le_of_lt (Nat.sub_le _ _) t.isLt))).1 := by
  obtain ⟨n, hn⟩ := t
  cases n with
  | zero => exact absurd rfl hz
  | succ n => exact (dif_neg hl).trans rfl

theorem accAt1_last (c : Dev nD) (t : Fin cfg1.N) (hz : t.val ≠ 0) (hl : t.val = 24) :
    accAt1 V c t.val t.isLt = asBlock1 (runLast1 c (grid1.coords t) (idsM1 t) (idsW1 t) (featsM1 t) (featsW1 t) (outM1 t) (outW1 t) accM1
      (Memref.isWhole_whole _) (fun h => hz ((isFirst1_iff t).mp h)) ((isLast1_iff t).mpr hl)
      (blk1 V c 0 t) (blk1 V c 1 t) (accAt1 V c (t.val - 1) (Nat.lt_of_le_of_lt (Nat.sub_le _ _) t.isLt))).2.1 := by
  obtain ⟨n, hn⟩ := t
  cases n with
  | zero => exact absurd rfl hz
  | succ n => exact (dif_pos hl).trans rfl

theorem outAt1_last (c : Dev nD) (t : Fin cfg1.N) (hz : t.val ≠ 0) (hl : t.val = 24) :
    outAt1 V c t.val t.isLt = asBlock1 (runLast1 c (grid1.coords t) (idsM1 t) (idsW1 t) (featsM1 t) (featsW1 t) (outM1 t) (outW1 t) accM1
      (Memref.isWhole_whole _) (fun h => hz ((isFirst1_iff t).mp h)) ((isLast1_iff t).mpr hl)
      (blk1 V c 0 t) (blk1 V c 1 t) (accAt1 V c (t.val - 1) (Nat.lt_of_le_of_lt (Nat.sub_le _ _) t.isLt))).1 := by
  unfold outAt1; rw [dif_neg hz, dif_pos hl]

/-- The invariant before position n: before the first point the scoped buffers at anything; afterwards the
    accumulator at the running sum, the other scoped buffers unopened. The generator register rides along. -/
def PhiAt1 (c : Dev nD) : (n : ℕ) → n ≤ cfg1.N → sProp 𝕄
  | 0, _ => Pipeline.ΦA spec1 c
  | n + 1, hn => iprop(iprop(owns (c : Thread nD τ) accM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiAt1_zero (c : Dev nD) (n : ℕ) (h : n ≤ cfg1.N) (hz : n = 0) : PhiAt1 V c n h = Pipeline.ΦA spec1 c := by
  subst hz; rfl
theorem PhiAt1_succ (c : Dev nD) (n : ℕ) (hn : n < cfg1.N) :
    PhiAt1 V c (n + 1) hn = iprop(iprop(owns (c : Thread nD τ) accM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl
theorem PhiAt1_pos (c : Dev nD) (n : ℕ) (h : n ≤ cfg1.N) (hz : n ≠ 0) :
    PhiAt1 V c n h = iprop(iprop(owns (c : Thread nD τ) accM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The region's proof data: the arrays as V has them; after the body each input's buffer at its block, the output's
    at outAt1; the invariant PhiAt1; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t.val t.isLt
  Φ t := PhiAt1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiAt1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t.val t.isLt := by dsimp only [dat1]
theorem before1_0 (c : Dev nD) (t : Fin cfg1.N) (d) : (dat1 V c).before 0 t d = blk1 V c 0 t :=
  found1_0_of V (dat1 V c) (A_eq1 V c 0) (after1_0 V c) t d
theorem before1_1 (c : Dev nD) (t : Fin cfg1.N) (d) : (dat1 V c).before 1 t d = blk1 V c 1 t :=
  found1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (idsM1 t) fullShare ((dat1 V c).before 0 t d))
    ∗ (∃ d, owns (c : Thread nD τ) (featsM1 t) fullShare ((dat1 V c).before 1 t d))
    ∗ (∃ d, owns (c : Thread nD τ) (outM1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiAt1 V c (t.val + 1) t.isLt from rfl, PhiAt1_succ]
  rw [show (dat1 V c).leavesExact 0 t = owns (c : Thread nD τ) (idsM1 t) fullShare ((dat1 V c).after 0 t) from by
    unfold Dat.leavesExact; rw [inLive1_0 t], after1_0]
  rw [show (dat1 V c).leavesExact 1 t = owns (c : Thread nD τ) (featsM1 t) fullShare ((dat1 V c).after 1 t) from by
    unfold Dat.leavesExact; rw [inLive1_1 t], after1_1]
  have hN : t.val < 25 := lt_of_lt_of_eq t.isLt (show cfg1.N = 25 from N_1)
  by_cases hz : t.val = 0
  · have hl : ¬ t.val = 24 := by omega
    have hnl : ¬isLast1 (grid1.coords t) := fun h => hl ((isLast1_iff t).mp h)
    rw [Dat.leavesExact_idle (dat1 V c) 2 t (outIdle1 t hnl) (outKept1 t hnl)]
    rw [accAt1_first V c t hz]
    rw [Phi1_castSucc V c t, PhiAt1_zero V c _ _ hz, PhiA1_split]
    iintro ⟨⟨⟨HS, Hrest⟩, Hg⟩, Ho, ⟨%d0, H0⟩, ⟨%d1, H1⟩, ⟨%d2, H2⟩⟩
    iapply ((runFirst1 c (grid1.coords t) _ _ _ _ _ _ _ _ ((isFirst1_iff t).mpr hz) hnl (blk1 V c 0 t) (blk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst1 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast1 (grid1.coords t) := (isLast1_iff t).mpr hl
      rw [show (dat1 V c).leavesExact 2 t = owns (c : Thread nD τ) (outM1 t) fullShare ((dat1 V c).after 2 t) from by
        unfold Dat.leavesExact; rw [outLive1 t hil], after1_2]
      rw [accAt1_last V c t hz hl, outAt1_last V c t hz hl]
      rw [Phi1_castSucc V c t, PhiAt1_pos V c _ _ hz]
      iintro ⟨⟨⟨HS, Hrest⟩, Hg⟩, Ho, ⟨%d0, H0⟩, ⟨%d1, H1⟩, ⟨%d2, H2⟩⟩
      iapply ((runLast1 c (grid1.coords t) _ _ _ _ _ _ _ _ (fun h => hz ((isFirst1_iff t).mp h)) hil (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc1 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut1 c _ _ _ _ _ _ _ _ _ _ _ _ _ _)
    · have hnl : ¬isLast1 (grid1.coords t) := fun h => hl ((isLast1_iff t).mp h)
      rw [Dat.leavesExact_idle (dat1 V c) 2 t (outIdle1 t hnl) (outKept1 t hnl)]
      rw [accAt1_mid V c t hz hl]
      rw [Phi1_castSucc V c t, PhiAt1_pos V c _ _ hz]
      iintro ⟨⟨⟨HS, Hrest⟩, Hg⟩, Ho, ⟨%d0, H0⟩, ⟨%d1, H1⟩, ⟨%d2, H2⟩⟩
      iapply ((runMid1 c (grid1.coords t) _ _ _ _ _ _ _ _ (fun h => hz ((isFirst1_iff t).mp h)) hnl (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid1 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

/-- The invariant's two ends: it starts as the class invariant and gives it back (the running sum forgotten). -/
theorem Phi1_in (c : Dev nD) : Pipeline.ΦA spec1 c ⊢ (dat1 V c).Φ 0 := by
  rw [show (dat1 V c).Φ 0 = PhiAt1 V c 0 (Nat.zero_le _) from rfl, PhiAt1_zero V c 0 _ rfl]
  try exact Idealize.SL.BI.Entails.refl _
theorem Phi1_out (c : Dev nD) : (dat1 V c).Φ (Fin.last cfg1.N) ⊢ Pipeline.ΦA spec1 c := by
  rw [show (dat1 V c).Φ (Fin.last cfg1.N) = PhiAt1 V c (Fin.last cfg1.N).val (Nat.le_of_lt_succ (Fin.last cfg1.N).isLt) from rfl,
    PhiAt1_pos V c _ _ (by rw [Fin.val_last]; have : cfg1.N = 25 := N_1; omega), PhiA1_split]
  iintro ⟨⟨HS, Hrest⟩, Hg⟩
  isplitl [HS Hrest]
  · isplitl [HS]; · iexists _; iexact HS
    iexact Hrest
  iexact Hg

end Region

end Cert.KernelIdeal.Hand

end
-- ==== Proof.Pool2.lean ====
/-
  A pooling call (pallas_call 2): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt2: by recursion on the point, each step the body's own arithmetic k2_pay2 of the
  two staged blocks and the previous sum, the first step over the cleared accumulator k2_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst2 (i : grid2.Coords) : Prop :=
  (Scalar.cmpi .ne (Scalar.extui (Scalar.cmpi .eq (BitVec.ofNat 32 (i 0).val) 0#32)) 0#32) = 1#1
/-- The body's second conditional: the grid coordinate is the last one. -/
abbrev isLast2 (i : grid2.Coords) : Prop := k2_cond2 i = 1#1

theorem isFirst2_iff : ∀ t : Fin cfg2.N, isFirst2 (grid2.coords t) ↔ t.val = 0 :=
  (by decide +kernel : ∀ t : Fin grid2.N, isFirst2 (grid2.coords t) ↔ t.val = 0)
theorem isLast2_iff : ∀ t : Fin cfg2.N, isLast2 (grid2.coords t) ↔ t.val = 24 :=
  (by decide +kernel : ∀ t : Fin grid2.N, isLast2 (grid2.coords t) ↔ t.val = 24)

/-- The two input windows are in use at every point. -/
theorem inLive2_0 : ∀ t : Fin cfg2.N, cfg2.idle 0 (grid2.coords t) = false := by decide +kernel
theorem inLive2_1 : ∀ t : Fin cfg2.N, cfg2.idle 1 (grid2.coords t) = false := by decide +kernel
/-- Away from the last point the output window is left alone and is not written back; -/
theorem outIdle2 : ∀ t : Fin cfg2.N, ¬isLast2 (grid2.coords t) → cfg2.idle 2 (grid2.coords t) = true := by decide +kernel
theorem outKept2 : ∀ t : Fin cfg2.N, ¬isLast2 (grid2.coords t) → (cfg2.win 2).flush t = false := by decide +kernel
/-- at the last point it is stored into. -/
theorem outLive2 : ∀ t : Fin cfg2.N, isLast2 (grid2.coords t) → cfg2.idle 2 (grid2.coords t) = false := by decide +kernel

/-! ## The staging memrefs and the accumulator -/

abbrev idsM2 (t : Fin cfg2.N) : Memref sig .tc .vmem S2000x1 .i32 := win2_0.stage (cfg2.slots t 0)
abbrev idsW2 (t : Fin cfg2.N) : (idsM2 t).IsWhole := hstage2_0 ((cfg2.slots t 0).cast nbuf2_0)
abbrev featsM2 (t : Fin cfg2.N) : Memref sig .tc .vmem S2000x128 .f32 := win2_1.stage (cfg2.slots t 1)
abbrev featsW2 (t : Fin cfg2.N) : (featsM2 t).IsWhole := hstage2_1 ((cfg2.slots t 1).cast nbuf2_1)
abbrev outM2 (t : Fin cfg2.N) : Memref sig .tc .vmem S128x128 .f32 := win2_2.stage (cfg2.slots t 2)
abbrev outW2 (t : Fin cfg2.N) : (outM2 t).IsWhole := hstage2_2 ((cfg2.slots t 2).cast nbuf2_2)
/-- The accumulator: a scratch buffer of the call's own. -/
abbrev accM2 : Memref sig .tc .vmem S128x128 .f32 := Memref.whole cc2_scratch0
/-- A view through which a 128 × 128 block's contents are stated (which buffer it is does not matter). -/
abbrev accV2 : View sig .tc .vmem S128x128 .f32 := accM2.view

/-- The region's invariant with the accumulator singled out: the accumulator at some contents, the other scoped
    buffers unopened, the generator register at some state. -/
theorem PhiA2_split (c : Dev nD) :
    (Pipeline.ΦA spec2 c : sProp 𝕄)
      = iprop(iprop((∃ d, owns (c : Thread nD τ) accM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [accM2, owns_whole]; try rfl

/-! ## The body, case by case -/

set_option maxHeartbeats 4000000 in
/-- At the first point: from the two input blocks and the accumulator at anything, the body leaves the inputs and
    the output's buffer as they were and the accumulator with the pieces the run finds. -/
noncomputable def runFirst2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst2 i) (hl : ¬isLast2 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, fun y3 E K => ?run⟩
  case run =>
    simp only [cc2__pool_kernel_eq_skeleton]; unfold cc2__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : ¬isLast2 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, fun y3 E K => ?run⟩
  case run =>
    simp only [cc2__pool_kernel_eq_skeleton]; unfold cc2__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast2 (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : isLast2 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc2__pool_kernel i a1 h1 a2 h2 a3 h3 a4 h4) K } := by
  refine ⟨?_, ?_, fun E K => ?run⟩
  case run =>
    simp only [cc2__pool_kernel_eq_skeleton]; unfold cc2__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst2 (c : Dev nD) (i : grid2.Coords) (a1 h1 a2 h2 a3 h3 a4 h4) (hf : isFirst2 i) (hl : ¬isLast2 i)
    (x1 : Vec F S2000x1 .i32) (x2 : Vec F S2000x128 .f32) (y : S128x128.Idx) :
    ∃ pc ∈ (runFirst2 c i a1 h1 a2 h2 a3 h3 a4 h4 hf hl x1 x2).1, y ∈ pc.1.set :=
  View.cover_of_tiledL (runFirst2 c i a1 h1 a2 h2 a3 h3 a4 h4 hf hl x1 x2).1 S128x128.size (by sl_kernel_rfl) y
theorem coverMid2 (c : Dev nD) (i : grid2.Coords) (a1 h1 a2 h2 a3 h3 a4 h4) (hf : ¬isFirst2 i) (hl : ¬isLast2 i)
    (x1 : Vec F S2000x1 .i32) (x2 : Vec F S2000x128 .f32) (s : Vec F S128x128 .f32) (y : S128x128.Idx) :
    ∃ pc ∈ (runMid2 c i a1 h1 a2 h2 a3 h3 a4 h4 hf hl x1 x2 s).1, y ∈ pc.1.set :=
  View.cover_of_tiledL (runMid2 c i a1 h1 a2 h2 a3 h3 a4 h4 hf hl x1 x2 s).1 S128x128.size (by sl_kernel_rfl) y
theorem coverLastAcc2 (c : Dev nD) (i : grid2.Coords) (a1 h1 a2 h2 a3 h3 a4 h4) (hf : ¬isFirst2 i) (hl : isLast2 i)
    (x1 : Vec F S2000x1 .i32) (x2 : Vec F S2000x128 .f32) (s : Vec F S128x128 .f32) (y : S128x128.Idx) :
    ∃ pc ∈ (runLast2 c i a1 h1 a2 h2 a3 h3 a4 h4 hf hl x1 x2 s).2.1, y ∈ pc.1.set :=
  View.cover_of_tiledL (runLast2 c i a1 h1 a2 h2 a3 h3 a4 h4 hf hl x1 x2 s).2.1 S128x128.size (by sl_kernel_rfl) y
theorem coverLastOut2 (c : Dev nD) (i : grid2.Coords) (a1 h1 a2 h2 a3 h3 a4 h4) (hf : ¬isFirst2 i) (hl : isLast2 i)
    (x1 : Vec F S2000x1 .i32) (x2 : Vec F S2000x128 .f32) (s : Vec F S128x128 .f32) (y : S128x128.Idx) :
    ∃ pc ∈ (runLast2 c i a1 h1 a2 h2 a3 h3 a4 h4 hf hl x1 x2 s).1, y ∈ pc.1.set :=
  View.cover_of_tiledL (runLast2 c i a1 h1 a2 h2 a3 h3 a4 h4 hf hl x1 x2 s).1 S128x128.size (by sl_kernel_rfl) y

/-- A list of pieces read back as one block. -/
abbrev asBlock2 (L : List (View.Piece (Elt F) S128x128 .f32)) : Vec F S128x128 .f32 :=
  accV2.read (Elt F) (accV2.writes (Elt F) accV2.junk L)

/-! ## The region, entered at the contents V -/

section Region
variable (V : (c : Dev nD) → (b : Ref sig .tc) → Buf (Elt F) ((c : Thread nD τ).loc b))

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data over V that leaves it there. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- THE RUNNING SUM: what the accumulator holds after the body at position n. -/
def accAt2 (c : Dev nD) : (n : ℕ) → n < cfg2.N → Vec F S128x128 .f32
  | 0, hn => asBlock2 (runFirst2 c (grid2.coords ⟨0, hn⟩) (idsM2 ⟨0, hn⟩) (idsW2 ⟨0, hn⟩) (featsM2 ⟨0, hn⟩) (featsW2 ⟨0, hn⟩)
      (outM2 ⟨0, hn⟩) (outW2 ⟨0, hn⟩) accM2 (Memref.isWhole_whole _) ((isFirst2_iff ⟨0, hn⟩).mpr rfl)
      (fun h => absurd (show (0 : ℕ) = 24 from (isLast2_iff ⟨0, hn⟩).mp h) (by decide)) (blk2 V c 0 ⟨0, hn⟩) (blk2 V c 1 ⟨0, hn⟩)).1
  | n + 1, hn =>
    if hl : n + 1 = 24 then
      asBlock2 (runLast2 c (grid2.coords ⟨n + 1, hn⟩) (idsM2 ⟨n + 1, hn⟩) (idsW2 ⟨n + 1, hn⟩) (featsM2 ⟨n + 1, hn⟩) (featsW2 ⟨n + 1, hn⟩)
        (outM2 ⟨n + 1, hn⟩) (outW2 ⟨n + 1, hn⟩) accM2 (Memref.isWhole_whole _)
        (fun h => absurd ((isFirst2_iff ⟨n + 1, hn⟩).mp h) (Nat.succ_ne_zero n)) ((isLast2_iff ⟨n + 1, hn⟩).mpr hl)
        (blk2 V c 0 ⟨n + 1, hn⟩) (blk2 V c 1 ⟨n + 1, hn⟩) (accAt2 c n (Nat.lt_of_succ_lt hn))).2.1
    else
      asBlock2 (runMid2 c (grid2.coords ⟨n + 1, hn⟩) (idsM2 ⟨n + 1, hn⟩) (idsW2 ⟨n + 1, hn⟩) (featsM2 ⟨n + 1, hn⟩) (featsW2 ⟨n + 1, hn⟩)
        (outM2 ⟨n + 1, hn⟩) (outW2 ⟨n + 1, hn⟩) accM2 (Memref.isWhole_whole _)
        (fun h => absurd ((isFirst2_iff ⟨n + 1, hn⟩).mp h) (Nat.succ_ne_zero n)) (fun h => hl ((isLast2_iff ⟨n + 1, hn⟩).mp h))
        (blk2 V c 0 ⟨n + 1, hn⟩) (blk2 V c 1 ⟨n + 1, hn⟩) (accAt2 c n (Nat.lt_of_succ_lt hn))).1

/-- What the output's staging buffer holds after the body at position n: at the last point the pieces stored there;
    elsewhere the window is idle and this value is never consulted. -/
def outAt2 (c : Dev nD) (n : ℕ) (hn : n < cfg2.N) : Vec F S128x128 .f32 :=
  if hz : n = 0 then asBlock2 []
  else if hl : n = 24 then
    asBlock2 (runLast2 c (grid2.coords ⟨n, hn⟩) (idsM2 ⟨n, hn⟩) (idsW2 ⟨n, hn⟩) (featsM2 ⟨n, hn⟩) (featsW2 ⟨n, hn⟩)
      (outM2 ⟨n, hn⟩) (outW2 ⟨n, hn⟩) accM2 (Memref.isWhole_whole _)
      (fun h => hz ((isFirst2_iff ⟨n, hn⟩).mp h)) ((isLast2_iff ⟨n, hn⟩).mpr hl)
      (blk2 V c 0 ⟨n, hn⟩) (blk2 V c 1 ⟨n, hn⟩) (accAt2 V c (n - 1) (Nat.lt_of_le_of_lt (Nat.sub_le _ _) hn))).1
  else asBlock2 []

end Region

section Region
variable (V : (c : Dev nD) → (b : Ref sig .tc) → Buf (Elt F) ((c : Thread nD τ).loc b))

theorem accAt2_first (c : Dev nD) (t : Fin cfg2.N) (hz : t.val = 0) :
    accAt2 V c t.val t.isLt = asBlock2 (runFirst2 c (grid2.coords t) (idsM2 t) (idsW2 t) (featsM2 t) (featsW2 t) (outM2 t) (outW2 t) accM2
      (Memref.isWhole_whole _) ((isFirst2_iff t).mpr hz) (fun h => absurd (((isLast2_iff t).mp h).symm.trans hz) (by decide))
      (blk2 V c 0 t) (blk2 V c 1 t)).1 := by
  obtain ⟨n, hn⟩ := t
  cases n with
  | zero => rfl
  | succ n => exact absurd hz (Nat.succ_ne_zero n)

theorem accAt2_mid (c : Dev nD) (t : Fin cfg2.N) (hz : t.val ≠ 0) (hl : t.val ≠ 24) :
    accAt2 V c t.val t.isLt = asBlock2 (runMid2 c (grid2.coords t) (idsM2 t) (idsW2 t) (featsM2 t) (featsW2 t) (outM2 t) (outW2 t) accM2
      (Memref.isWhole_whole _) (fun h => hz ((isFirst2_iff t).mp h)) (fun h => hl ((isLast2_iff t).mp h))
      (blk2 V c 0 t) (blk2 V c 1 t) (accAt2 V c (t.val - 1) (Nat.lt_of_le_of_lt (Nat.sub_le _ _) t.isLt))).1 := by
  obtain ⟨n, hn⟩ := t
  cases n with
  | zero => exact absurd rfl hz
  | succ n => exact (dif_neg hl).trans rfl

theorem accAt2_last (c : Dev nD) (t : Fin cfg2.N) (hz : t.val ≠ 0) (hl : t.val = 24) :
    accAt2 V c t.val t.isLt = asBlock2 (runLast2 c (grid2.coords t) (idsM2 t) (idsW2 t) (featsM2 t) (featsW2 t) (outM2 t) (outW2 t) accM2
      (Memref.isWhole_whole _) (fun h => hz ((isFirst2_iff t).mp h)) ((isLast2_iff t).mpr hl)
      (blk2 V c 0 t) (blk2 V c 1 t) (accAt2 V c (t.val - 1) (Nat.lt_of_le_of_lt (Nat.sub_le _ _) t.isLt))).2.1 := by
  obtain ⟨n, hn⟩ := t
  cases n with
  | zero => exact absurd rfl hz
  | succ n => exact (dif_pos hl).trans rfl

theorem outAt2_last (c : Dev nD) (t : Fin cfg2.N) (hz : t.val ≠ 0) (hl : t.val = 24) :
    outAt2 V c t.val t.isLt = asBlock2 (runLast2 c (grid2.coords t) (idsM2 t) (idsW2 t) (featsM2 t) (featsW2 t) (outM2 t) (outW2 t) accM2
      (Memref.isWhole_whole _) (fun h => hz ((isFirst2_iff t).mp h)) ((isLast2_iff t).mpr hl)
      (blk2 V c 0 t) (blk2 V c 1 t) (accAt2 V c (t.val - 1) (Nat.lt_of_le_of_lt (Nat.sub_le _ _) t.isLt))).1 := by
  unfold outAt2; rw [dif_neg hz, dif_pos hl]

/-- The invariant before position n: before the first point the scoped buffers at anything; afterwards the
    accumulator at the running sum, the other scoped buffers unopened. The generator register rides along. -/
def PhiAt2 (c : Dev nD) : (n : ℕ) → n ≤ cfg2.N → sProp 𝕄
  | 0, _ => Pipeline.ΦA spec2 c
  | n + 1, hn => iprop(iprop(owns (c : Thread nD τ) accM2 fullShare (accAt2 V c n hn)
      ∗ Pipeline.scopedRestBut (Ix := Unit) (Name := ℕ) (U := UR sig nD τ) (Lvl := ℕ) (Val := Elt F) spec2 c [cc2_scratch0])
      ∗ (∃ r, prngReg c r))

theorem PhiAt2_zero (c : Dev nD) (n : ℕ) (h : n ≤ cfg2.N) (hz : n = 0) : PhiAt2 V c n h = Pipeline.ΦA spec2 c := by
  subst hz; rfl
theorem PhiAt2_succ (c : Dev nD) (n : ℕ) (hn : n < cfg2.N) :
    PhiAt2 V c (n + 1) hn = iprop(iprop(owns (c : Thread nD τ) accM2 fullShare (accAt2 V c n hn)
      ∗ Pipeline.scopedRestBut (Ix := Unit) (Name := ℕ) (U := UR sig nD τ) (Lvl := ℕ) (Val := Elt F) spec2 c [cc2_scratch0])
      ∗ (∃ r, prngReg c r)) := rfl
theorem PhiAt2_pos (c : Dev nD) (n : ℕ) (h : n ≤ cfg2.N) (hz : n ≠ 0) :
    PhiAt2 V c n h = iprop(iprop(owns (c : Thread nD τ) accM2 fullShare (accAt2 V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The region's proof data: the arrays as V has them; after the body each input's buffer at its block, the output's
    at outAt2; the invariant PhiAt2; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => outAt2 V c t.val t.isLt
  Φ t := PhiAt2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = PhiAt2 V c t.val (Nat.le_of_lt t.isLt) := by
  dsimp only [dat2]; simp only [Fin.coe_castSucc]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = outAt2 V c t.val t.isLt := by dsimp only [dat2]
theorem before2_0 (c : Dev nD) (t : Fin cfg2.N) (d) : (dat2 V c).before 0 t d = blk2 V c 0 t :=
  found2_0_of V (dat2 V c) (A_eq2 V c 0) (after2_0 V c) t d
theorem before2_1 (c : Dev nD) (t : Fin cfg2.N) (d) : (dat2 V c).before 1 t d = blk2 V c 1 t :=
  found2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (idsM2 t) fullShare ((dat2 V c).before 0 t d))
    ∗ (∃ d, owns (c : Thread nD τ) (featsM2 t) fullShare ((dat2 V c).before 1 t d))
    ∗ (∃ d, owns (c : Thread nD τ) (outM2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiAt2 V c (t.val + 1) t.isLt from rfl, PhiAt2_succ]
  rw [show (dat2 V c).leavesExact 0 t = owns (c : Thread nD τ) (idsM2 t) fullShare ((dat2 V c).after 0 t) from by
    unfold Dat.leavesExact; rw [inLive2_0 t], after2_0]
  rw [show (dat2 V c).leavesExact 1 t = owns (c : Thread nD τ) (featsM2 t) fullShare ((dat2 V c).after 1 t) from by
    unfold Dat.leavesExact; rw [inLive2_1 t], after2_1]
  have hN : t.val < 25 := lt_of_lt_of_eq t.isLt (show cfg2.N = 25 from N_2)
  by_cases hz : t.val = 0
  · have hl : ¬ t.val = 24 := by omega
    have hnl : ¬isLast2 (grid2.coords t) := fun h => hl ((isLast2_iff t).mp h)
    rw [Dat.leavesExact_idle (dat2 V c) 2 t (outIdle2 t hnl) (outKept2 t hnl)]
    rw [accAt2_first V c t hz]
    rw [Phi2_castSucc V c t, PhiAt2_zero V c _ _ hz, PhiA2_split]
    iintro ⟨⟨⟨HS, Hrest⟩, Hg⟩, Ho, ⟨%d0, H0⟩, ⟨%d1, H1⟩, ⟨%d2, H2⟩⟩
    iapply ((runFirst2 c (grid2.coords t) _ _ _ _ _ _ _ _ ((isFirst2_iff t).mpr hz) hnl (blk2 V c 0 t) (blk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst2 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast2 (grid2.coords t) := (isLast2_iff t).mpr hl
      rw [show (dat2 V c).leavesExact 2 t = owns (c : Thread nD τ) (outM2 t) fullShare ((dat2 V c).after 2 t) from by
        unfold Dat.leavesExact; rw [outLive2 t hil], after2_2]
      rw [accAt2_last V c t hz hl, outAt2_last V c t hz hl]
      rw [Phi2_castSucc V c t, PhiAt2_pos V c _ _ hz]
      iintro ⟨⟨⟨HS, Hrest⟩, Hg⟩, Ho, ⟨%d0, H0⟩, ⟨%d1, H1⟩, ⟨%d2, H2⟩⟩
      iapply ((runLast2 c (grid2.coords t) _ _ _ _ _ _ _ _ (fun h => hz ((isFirst2_iff t).mp h)) hil (blk2 V c 0 t) (blk2 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc2 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut2 c _ _ _ _ _ _ _ _ _ _ _ _ _ _)
    · have hnl : ¬isLast2 (grid2.coords t) := fun h => hl ((isLast2_iff t).mp h)
      rw [Dat.leavesExact_idle (dat2 V c) 2 t (outIdle2 t hnl) (outKept2 t hnl)]
      rw [accAt2_mid V c t hz hl]
      rw [Phi2_castSucc V c t, PhiAt2_pos V c _ _ hz]
      iintro ⟨⟨⟨HS, Hrest⟩, Hg⟩, Ho, ⟨%d0, H0⟩, ⟨%d1, H1⟩, ⟨%d2, H2⟩⟩
      iapply ((runMid2 c (grid2.coords t) _ _ _ _ _ _ _ _ (fun h => hz ((isFirst2_iff t).mp h)) hnl (blk2 V c 0 t) (blk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid2 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

/-- The invariant's two ends: it starts as the class invariant and gives it back (the running sum forgotten). -/
theorem Phi2_in (c : Dev nD) : Pipeline.ΦA spec2 c ⊢ (dat2 V c).Φ 0 := by
  rw [show (dat2 V c).Φ 0 = PhiAt2 V c 0 (Nat.zero_le _) from rfl, PhiAt2_zero V c 0 _ rfl]
  try exact Idealize.SL.BI.Entails.refl _
theorem Phi2_out (c : Dev nD) : (dat2 V c).Φ (Fin.last cfg2.N) ⊢ Pipeline.ΦA spec2 c := by
  rw [show (dat2 V c).Φ (Fin.last cfg2.N) = PhiAt2 V c (Fin.last cfg2.N).val (Nat.le_of_lt_succ (Fin.last cfg2.N).isLt) from rfl,
    PhiAt2_pos V c _ _ (by rw [Fin.val_last]; have : cfg2.N = 25 := N_2; omega), PhiA2_split]
  iintro ⟨⟨HS, Hrest⟩, Hg⟩
  isplitl [HS Hrest]
  · isplitl [HS]; · iexists _; iexact HS
    iexact Hrest
  iexact Hg

end Region

end Cert.KernelIdeal.Hand

end
-- ==== Proof.Comb3.lean ====
/- The class-A half of custom_call 3 (`cc3__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelIdealLaunchP
import proofs.«170580_j11665131176635_1_alg».proof.Proof.Gen.KernelIdeal.Skeleton
import proofs.«170580_j11665131176635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there, for any proof data whose array is `V`'s (`hA`) and whose body leaves the block in place (`hafter`):
    where it was not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the pipeline fetched it
    there, for any proof data whose array is `V`'s (`hA`) and whose body leaves the block in place (`hafter`):
    where it was not fetched the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the pipeline fetched it
    there, for any proof data whose array is `V`'s (`hA`) and whose body leaves the block in place (`hafter`):
    where it was not fetched the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the pipeline fetched it
    there, for any proof data whose array is `V`'s (`hA`) and whose body leaves the block in place (`hafter`):
    where it was not fetched the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether or not the pipeline fetched it
    there, for any proof data whose array is `V`'s (`hA`) and whose body leaves the block in place (`hafter`):
    where it was not fetched the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, whether or not the pipeline fetched it
    there, for any proof data whose array is `V`'s (`hA`) and whose body leaves the block in place (`hafter`):
    where it was not fetched the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_S2000x128 : Rect S2000x128 := Rect.unit (s := S2000x128) ![0, 0] S2000x128.size inb_S2000x128_S2000x128_0_0
abbrev r3_S2000x1 : Rect S2000x1 := Rect.unit (s := S2000x1) ![0, 0] S2000x1.size inb_S2000x1_S2000x1_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out3_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r3_S2000x128, k3_pay1 (View.ld x2 r3_S2000x1) (View.ld x3 r3_S128x128) (View.ld x0 r3_S2000x128) (View.ld x1 r3_S2000x128) (View.ld x4 r3_S128x128) (View.ld x5 r3_S1x128)⟩]

/-- The one store is of the whole buffer, so it covers it. -/
theorem cover3_6 (p0 : Vec F S2000x128 .f32) (y : S2000x128.Idx) :
    ∃ pc ∈ ([⟨r3_S2000x128, p0⟩] : List (View.Piece (Elt F) S2000x128 .f32)), y ∈ pc.1.set :=
  View.cover_of_tiled [⟨r3_S2000x128, p0⟩] S2000x128.size (by rfl) y

/-! ## The body's triple -/

set_option maxHeartbeats 4000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__combine_kernel i arg1 harg1 arg2 harg2 arg3 harg3 arg4 harg4 arg5 harg5 arg6 harg6 arg7 harg7) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and the output's at `out3_6` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.Pool4.lean ====
/-
  A pooling call (pallas_call 4): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt4: by recursion on the point, each step the body's own arithmetic k4_pay2 of the
  two staged blocks and the previous sum, the first step over the cleared accumulator k4_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst4 (i : grid4.Coords) : Prop :=
  (Scalar.cmpi .ne (Scalar.extui (Scalar.cmpi .eq (BitVec.ofNat 32 (i 0).val) 0#32)) 0#32) = 1#1
/-- The body's second conditional: the grid coordinate is the last one. -/
abbrev isLast4 (i : grid4.Coords) : Prop := k4_cond2 i = 1#1

theorem isFirst4_iff : ∀ t : Fin cfg4.N, isFirst4 (grid4.coords t) ↔ t.val = 0 :=
  (by decide +kernel : ∀ t : Fin grid4.N, isFirst4 (grid4.coords t) ↔ t.val = 0)
theorem isLast4_iff : ∀ t : Fin cfg4.N, isLast4 (grid4.coords t) ↔ t.val = 24 :=
  (by decide +kernel : ∀ t : Fin grid4.N, isLast4 (grid4.coords t) ↔ t.val = 24)

/-- The two input windows are in use at every point. -/
theorem inLive4_0 : ∀ t : Fin cfg4.N, cfg4.idle 0 (grid4.coords t) = false := by decide +kernel
theorem inLive4_1 : ∀ t : Fin cfg4.N, cfg4.idle 1 (grid4.coords t) = false := by decide +kernel
/-- Away from the last point the output window is left alone and is not written back; -/
theorem outIdle4 : ∀ t : Fin cfg4.N, ¬isLast4 (grid4.coords t) → cfg4.idle 2 (grid4.coords t) = true := by decide +kernel
theorem outKept4 : ∀ t : Fin cfg4.N, ¬isLast4 (grid4.coords t) → (cfg4.win 2).flush t = false := by decide +kernel
/-- at the last point it is stored into. -/
theorem outLive4 : ∀ t : Fin cfg4.N, isLast4 (grid4.coords t) → cfg4.idle 2 (grid4.coords t) = false := by decide +kernel

/-! ## The staging memrefs and the accumulator -/

abbrev idsM4 (t : Fin cfg4.N) : Memref sig .tc .vmem S2000x1 .i32 := win4_0.stage (cfg4.slots t 0)
abbrev idsW4 (t : Fin cfg4.N) : (idsM4 t).IsWhole := hstage4_0 ((cfg4.slots t 0).cast nbuf4_0)
abbrev featsM4 (t : Fin cfg4.N) : Memref sig .tc .vmem S2000x128 .f32 := win4_1.stage (cfg4.slots t 1)
abbrev featsW4 (t : Fin cfg4.N) : (featsM4 t).IsWhole := hstage4_1 ((cfg4.slots t 1).cast nbuf4_1)
abbrev outM4 (t : Fin cfg4.N) : Memref sig .tc .vmem S128x128 .f32 := win4_2.stage (cfg4.slots t 2)
abbrev outW4 (t : Fin cfg4.N) : (outM4 t).IsWhole := hstage4_2 ((cfg4.slots t 2).cast nbuf4_2)
/-- The accumulator: a scratch buffer of the call's own. -/
abbrev accM4 : Memref sig .tc .vmem S128x128 .f32 := Memref.whole cc4_scratch0
/-- A view through which a 128 × 128 block's contents are stated (which buffer it is does not matter). -/
abbrev accV4 : View sig .tc .vmem S128x128 .f32 := accM4.view

/-- The region's invariant with the accumulator singled out: the accumulator at some contents, the other scoped
    buffers unopened, the generator register at some state. -/
theorem PhiA4_split (c : Dev nD) :
    (Pipeline.ΦA spec4 c : sProp 𝕄)
      = iprop(iprop((∃ d, owns (c : Thread nD τ) accM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accM4, owns_whole]; try rfl

/-! ## The body, case by case -/

set_option maxHeartbeats 4000000 in
/-- At the first point: from the two input blocks and the accumulator at anything, the body leaves the inputs and
    the output's buffer as they were and the accumulator with the pieces the run finds. -/
noncomputable def runFirst4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst4 i) (hl : ¬isLast4 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, fun y3 E K => ?run⟩
  case run =>
    simp only [cc4__pool_kernel_eq_skeleton]; unfold cc4__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : ¬isLast4 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, fun y3 E K => ?run⟩
  case run =>
    simp only [cc4__pool_kernel_eq_skeleton]; unfold cc4__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast4 (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : isLast4 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc4__pool_kernel i a1 h1 a2 h2 a3 h3 a4 h4) K } := by
  refine ⟨?_, ?_, fun E K => ?run⟩
  case run =>
    simp only [cc4__pool_kernel_eq_skeleton]; unfold cc4__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst4 (c : Dev nD) (i : grid4.Coords) (a1 h1 a2 h2 a3 h3 a4 h4) (hf : isFirst4 i) (hl : ¬isLast4 i)
    (x1 : Vec F S2000x1 .i32) (x2 : Vec F S2000x128 .f32) (y : S128x128.Idx) :
    ∃ pc ∈ (runFirst4 c i a1 h1 a2 h2 a3 h3 a4 h4 hf hl x1 x2).1, y ∈ pc.1.set :=
  View.cover_of_tiledL (runFirst4 c i a1 h1 a2 h2 a3 h3 a4 h4 hf hl x1 x2).1 S128x128.size (by sl_kernel_rfl) y
theorem coverMid4 (c : Dev nD) (i : grid4.Coords) (a1 h1 a2 h2 a3 h3 a4 h4) (hf : ¬isFirst4 i) (hl : ¬isLast4 i)
    (x1 : Vec F S2000x1 .i32) (x2 : Vec F S2000x128 .f32) (s : Vec F S128x128 .f32) (y : S128x128.Idx) :
    ∃ pc ∈ (runMid4 c i a1 h1 a2 h2 a3 h3 a4 h4 hf hl x1 x2 s).1, y ∈ pc.1.set :=
  View.cover_of_tiledL (runMid4 c i a1 h1 a2 h2 a3 h3 a4 h4 hf hl x1 x2 s).1 S128x128.size (by sl_kernel_rfl) y
theorem coverLastAcc4 (c : Dev nD) (i : grid4.Coords) (a1 h1 a2 h2 a3 h3 a4 h4) (hf : ¬isFirst4 i) (hl : isLast4 i)
    (x1 : Vec F S2000x1 .i32) (x2 : Vec F S2000x128 .f32) (s : Vec F S128x128 .f32) (y : S128x128.Idx) :
    ∃ pc ∈ (runLast4 c i a1 h1 a2 h2 a3 h3 a4 h4 hf hl x1 x2 s).2.1, y ∈ pc.1.set :=
  View.cover_of_tiledL (runLast4 c i a1 h1 a2 h2 a3 h3 a4 h4 hf hl x1 x2 s).2.1 S128x128.size (by sl_kernel_rfl) y
theorem coverLastOut4 (c : Dev nD) (i : grid4.Coords) (a1 h1 a2 h2 a3 h3 a4 h4) (hf : ¬isFirst4 i) (hl : isLast4 i)
    (x1 : Vec F S2000x1 .i32) (x2 : Vec F S2000x128 .f32) (s : Vec F S128x128 .f32) (y : S128x128.Idx) :
    ∃ pc ∈ (runLast4 c i a1 h1 a2 h2 a3 h3 a4 h4 hf hl x1 x2 s).1, y ∈ pc.1.set :=
  View.cover_of_tiledL (runLast4 c i a1 h1 a2 h2 a3 h3 a4 h4 hf hl x1 x2 s).1 S128x128.size (by sl_kernel_rfl) y

/-- A list of pieces read back as one block. -/
abbrev asBlock4 (L : List (View.Piece (Elt F) S128x128 .f32)) : Vec F S128x128 .f32 :=
  accV4.read (Elt F) (accV4.writes (Elt F) accV4.junk L)

/-! ## The region, entered at the contents V -/

section Region
variable (V : (c : Dev nD) → (b : Ref sig .tc) → Buf (Elt F) ((c : Thread nD τ).loc b))

/-- Window w's block at point t, read off its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data over V that leaves it there. -/
theorem found4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem found4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- THE RUNNING SUM: what the accumulator holds after the body at position n. -/
def accAt4 (c : Dev nD) : (n : ℕ) → n < cfg4.N → Vec F S128x128 .f32
  | 0, hn => asBlock4 (runFirst4 c (grid4.coords ⟨0, hn⟩) (idsM4 ⟨0, hn⟩) (idsW4 ⟨0, hn⟩) (featsM4 ⟨0, hn⟩) (featsW4 ⟨0, hn⟩)
      (outM4 ⟨0, hn⟩) (outW4 ⟨0, hn⟩) accM4 (Memref.isWhole_whole _) ((isFirst4_iff ⟨0, hn⟩).mpr rfl)
      (fun h => absurd (show (0 : ℕ) = 24 from (isLast4_iff ⟨0, hn⟩).mp h) (by decide)) (blk4 V c 0 ⟨0, hn⟩) (blk4 V c 1 ⟨0, hn⟩)).1
  | n + 1, hn =>
    if hl : n + 1 = 24 then
      asBlock4 (runLast4 c (grid4.coords ⟨n + 1, hn⟩) (idsM4 ⟨n + 1, hn⟩) (idsW4 ⟨n + 1, hn⟩) (featsM4 ⟨n + 1, hn⟩) (featsW4 ⟨n + 1, hn⟩)
        (outM4 ⟨n + 1, hn⟩) (outW4 ⟨n + 1, hn⟩) accM4 (Memref.isWhole_whole _)
        (fun h => absurd ((isFirst4_iff ⟨n + 1, hn⟩).mp h) (Nat.succ_ne_zero n)) ((isLast4_iff ⟨n + 1, hn⟩).mpr hl)
        (blk4 V c 0 ⟨n + 1, hn⟩) (blk4 V c 1 ⟨n + 1, hn⟩) (accAt4 c n (Nat.lt_of_succ_lt hn))).2.1
    else
      asBlock4 (runMid4 c (grid4.coords ⟨n + 1, hn⟩) (idsM4 ⟨n + 1, hn⟩) (idsW4 ⟨n + 1, hn⟩) (featsM4 ⟨n + 1, hn⟩) (featsW4 ⟨n + 1, hn⟩)
        (outM4 ⟨n + 1, hn⟩) (outW4 ⟨n + 1, hn⟩) accM4 (Memref.isWhole_whole _)
        (fun h => absurd ((isFirst4_iff ⟨n + 1, hn⟩).mp h) (Nat.succ_ne_zero n)) (fun h => hl ((isLast4_iff ⟨n + 1, hn⟩).mp h))
        (blk4 V c 0 ⟨n + 1, hn⟩) (blk4 V c 1 ⟨n + 1, hn⟩) (accAt4 c n (Nat.lt_of_succ_lt hn))).1

/-- What the output's staging buffer holds after the body at position n: at the last point the pieces stored there;
    elsewhere the window is idle and this value is never consulted. -/
def outAt4 (c : Dev nD) (n : ℕ) (hn : n < cfg4.N) : Vec F S128x128 .f32 :=
  if hz : n = 0 then asBlock4 []
  else if hl : n = 24 then
    asBlock4 (runLast4 c (grid4.coords ⟨n, hn⟩) (idsM4 ⟨n, hn⟩) (idsW4 ⟨n, hn⟩) (featsM4 ⟨n, hn⟩) (featsW4 ⟨n, hn⟩)
      (outM4 ⟨n, hn⟩) (outW4 ⟨n, hn⟩) accM4 (Memref.isWhole_whole _)
      (fun h => hz ((isFirst4_iff ⟨n, hn⟩).mp h)) ((isLast4_iff ⟨n, hn⟩).mpr hl)
      (blk4 V c 0 ⟨n, hn⟩) (blk4 V c 1 ⟨n, hn⟩) (accAt4 V c (n - 1) (Nat.lt_of_le_of_lt (Nat.sub_le _ _) hn))).1
  else asBlock4 []

end Region

section Region
variable (V : (c : Dev nD) → (b : Ref sig .tc) → Buf (Elt F) ((c : Thread nD τ).loc b))

theorem accAt4_first (c : Dev nD) (t : Fin cfg4.N) (hz : t.val = 0) :
    accAt4 V c t.val t.isLt = asBlock4 (runFirst4 c (grid4.coords t) (idsM4 t) (idsW4 t) (featsM4 t) (featsW4 t) (outM4 t) (outW4 t) accM4
      (Memref.isWhole_whole _) ((isFirst4_iff t).mpr hz) (fun h => absurd (((isLast4_iff t).mp h).symm.trans hz) (by decide))
      (blk4 V c 0 t) (blk4 V c 1 t)).1 := by
  obtain ⟨n, hn⟩ := t
  cases n with
  | zero => rfl
  | succ n => exact absurd hz (Nat.succ_ne_zero n)

theorem accAt4_mid (c : Dev nD) (t : Fin cfg4.N) (hz : t.val ≠ 0) (hl : t.val ≠ 24) :
    accAt4 V c t.val t.isLt = asBlock4 (runMid4 c (grid4.coords t) (idsM4 t) (idsW4 t) (featsM4 t) (featsW4 t) (outM4 t) (outW4 t) accM4
      (Memref.isWhole_whole _) (fun h => hz ((isFirst4_iff t).mp h)) (fun h => hl ((isLast4_iff t).mp h))
      (blk4 V c 0 t) (blk4 V c 1 t) (accAt4 V c (t.val - 1) (Nat.lt_of_le_of_lt (Nat.sub_le _ _) t.isLt))).1 := by
  obtain ⟨n, hn⟩ := t
  cases n with
  | zero => exact absurd rfl hz
  | succ n => exact (dif_neg hl).trans rfl

theorem accAt4_last (c : Dev nD) (t : Fin cfg4.N) (hz : t.val ≠ 0) (hl : t.val = 24) :
    accAt4 V c t.val t.isLt = asBlock4 (runLast4 c (grid4.coords t) (idsM4 t) (idsW4 t) (featsM4 t) (featsW4 t) (outM4 t) (outW4 t) accM4
      (Memref.isWhole_whole _) (fun h => hz ((isFirst4_iff t).mp h)) ((isLast4_iff t).mpr hl)
      (blk4 V c 0 t) (blk4 V c 1 t) (accAt4 V c (t.val - 1) (Nat.lt_of_le_of_lt (Nat.sub_le _ _) t.isLt))).2.1 := by
  obtain ⟨n, hn⟩ := t
  cases n with
  | zero => exact absurd rfl hz
  | succ n => exact (dif_pos hl).trans rfl

theorem outAt4_last (c : Dev nD) (t : Fin cfg4.N) (hz : t.val ≠ 0) (hl : t.val = 24) :
    outAt4 V c t.val t.isLt = asBlock4 (runLast4 c (grid4.coords t) (idsM4 t) (idsW4 t) (featsM4 t) (featsW4 t) (outM4 t) (outW4 t) accM4
      (Memref.isWhole_whole _) (fun h => hz ((isFirst4_iff t).mp h)) ((isLast4_iff t).mpr hl)
      (blk4 V c 0 t) (blk4 V c 1 t) (accAt4 V c (t.val - 1) (Nat.lt_of_le_of_lt (Nat.sub_le _ _) t.isLt))).1 := by
  unfold outAt4; rw [dif_neg hz, dif_pos hl]

/-- The invariant before position n: before the first point the scoped buffers at anything; afterwards the
    accumulator at the running sum, the other scoped buffers unopened. The generator register rides along. -/
def PhiAt4 (c : Dev nD) : (n : ℕ) → n ≤ cfg4.N → sProp 𝕄
  | 0, _ => Pipeline.ΦA spec4 c
  | n + 1, hn => iprop(iprop(owns (c : Thread nD τ) accM4 fullShare (accAt4 V c n hn)
      ∗ Pipeline.scopedRestBut (Ix := Unit) (Name := ℕ) (U := UR sig nD τ) (Lvl := ℕ) (Val := Elt F) spec4 c [cc4_scratch0])
      ∗ (∃ r, prngReg c r))

theorem PhiAt4_zero (c : Dev nD) (n : ℕ) (h : n ≤ cfg4.N) (hz : n = 0) : PhiAt4 V c n h = Pipeline.ΦA spec4 c := by
  subst hz; rfl
theorem PhiAt4_succ (c : Dev nD) (n : ℕ) (hn : n < cfg4.N) :
    PhiAt4 V c (n + 1) hn = iprop(iprop(owns (c : Thread nD τ) accM4 fullShare (accAt4 V c n hn)
      ∗ Pipeline.scopedRestBut (Ix := Unit) (Name := ℕ) (U := UR sig nD τ) (Lvl := ℕ) (Val := Elt F) spec4 c [cc4_scratch0])
      ∗ (∃ r, prngReg c r)) := rfl
theorem PhiAt4_pos (c : Dev nD) (n : ℕ) (h : n ≤ cfg4.N) (hz : n ≠ 0) :
    PhiAt4 V c n h = iprop(iprop(owns (c : Thread nD τ) accM4 fullShare (accAt4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The region's proof data: the arrays as V has them; after the body each input's buffer at its block, the output's
    at outAt4; the invariant PhiAt4; nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => outAt4 V c t.val t.isLt
  Φ t := PhiAt4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = PhiAt4 V c t.val (Nat.le_of_lt t.isLt) := by
  dsimp only [dat4]; simp only [Fin.coe_castSucc]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = outAt4 V c t.val t.isLt := by dsimp only [dat4]
theorem before4_0 (c : Dev nD) (t : Fin cfg4.N) (d) : (dat4 V c).before 0 t d = blk4 V c 0 t :=
  found4_0_of V (dat4 V c) (A_eq4 V c 0) (after4_0 V c) t d
theorem before4_1 (c : Dev nD) (t : Fin cfg4.N) (d) : (dat4 V c).before 1 t d = blk4 V c 1 t :=
  found4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (idsM4 t) fullShare ((dat4 V c).before 0 t d))
    ∗ (∃ d, owns (c : Thread nD τ) (featsM4 t) fullShare ((dat4 V c).before 1 t d))
    ∗ (∃ d, owns (c : Thread nD τ) (outM4 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiAt4 V c (t.val + 1) t.isLt from rfl, PhiAt4_succ]
  rw [show (dat4 V c).leavesExact 0 t = owns (c : Thread nD τ) (idsM4 t) fullShare ((dat4 V c).after 0 t) from by
    unfold Dat.leavesExact; rw [inLive4_0 t], after4_0]
  rw [show (dat4 V c).leavesExact 1 t = owns (c : Thread nD τ) (featsM4 t) fullShare ((dat4 V c).after 1 t) from by
    unfold Dat.leavesExact; rw [inLive4_1 t], after4_1]
  have hN : t.val < 25 := lt_of_lt_of_eq t.isLt (show cfg4.N = 25 from N_4)
  by_cases hz : t.val = 0
  · have hl : ¬ t.val = 24 := by omega
    have hnl : ¬isLast4 (grid4.coords t) := fun h => hl ((isLast4_iff t).mp h)
    rw [Dat.leavesExact_idle (dat4 V c) 2 t (outIdle4 t hnl) (outKept4 t hnl)]
    rw [accAt4_first V c t hz]
    rw [Phi4_castSucc V c t, PhiAt4_zero V c _ _ hz, PhiA4_split]
    iintro ⟨⟨⟨HS, Hrest⟩, Hg⟩, Ho, ⟨%d0, H0⟩, ⟨%d1, H1⟩, ⟨%d2, H2⟩⟩
    iapply ((runFirst4 c (grid4.coords t) _ _ _ _ _ _ _ _ ((isFirst4_iff t).mpr hz) hnl (blk4 V c 0 t) (blk4 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst4 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast4 (grid4.coords t) := (isLast4_iff t).mpr hl
      rw [show (dat4 V c).leavesExact 2 t = owns (c : Thread nD τ) (outM4 t) fullShare ((dat4 V c).after 2 t) from by
        unfold Dat.leavesExact; rw [outLive4 t hil], after4_2]
      rw [accAt4_last V c t hz hl, outAt4_last V c t hz hl]
      rw [Phi4_castSucc V c t, PhiAt4_pos V c _ _ hz]
      iintro ⟨⟨⟨HS, Hrest⟩, Hg⟩, Ho, ⟨%d0, H0⟩, ⟨%d1, H1⟩, ⟨%d2, H2⟩⟩
      iapply ((runLast4 c (grid4.coords t) _ _ _ _ _ _ _ _ (fun h => hz ((isFirst4_iff t).mp h)) hil (blk4 V c 0 t) (blk4 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc4 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut4 c _ _ _ _ _ _ _ _ _ _ _ _ _ _)
    · have hnl : ¬isLast4 (grid4.coords t) := fun h => hl ((isLast4_iff t).mp h)
      rw [Dat.leavesExact_idle (dat4 V c) 2 t (outIdle4 t hnl) (outKept4 t hnl)]
      rw [accAt4_mid V c t hz hl]
      rw [Phi4_castSucc V c t, PhiAt4_pos V c _ _ hz]
      iintro ⟨⟨⟨HS, Hrest⟩, Hg⟩, Ho, ⟨%d0, H0⟩, ⟨%d1, H1⟩, ⟨%d2, H2⟩⟩
      iapply ((runMid4 c (grid4.coords t) _ _ _ _ _ _ _ _ (fun h => hz ((isFirst4_iff t).mp h)) hnl (blk4 V c 0 t) (blk4 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid4 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation4 (c : Dev nD) : BodyObligation (dat4 (F := F) V c) (defs₀ (F := F)) Variants.none () Set.univ := fun t => by
  rw [bigSep_W4, bigSep_W4]
  exact sound_body4 V c t

/-- The invariant's two ends: it starts as the class invariant and gives it back (the running sum forgotten). -/
theorem Phi4_in (c : Dev nD) : Pipeline.ΦA spec4 c ⊢ (dat4 V c).Φ 0 := by
  rw [show (dat4 V c).Φ 0 = PhiAt4 V c 0 (Nat.zero_le _) from rfl, PhiAt4_zero V c 0 _ rfl]
  try exact Idealize.SL.BI.Entails.refl _
theorem Phi4_out (c : Dev nD) : (dat4 V c).Φ (Fin.last cfg4.N) ⊢ Pipeline.ΦA spec4 c := by
  rw [show (dat4 V c).Φ (Fin.last cfg4.N) = PhiAt4 V c (Fin.last cfg4.N).val (Nat.le_of_lt_succ (Fin.last cfg4.N).isLt) from rfl,
    PhiAt4_pos V c _ _ (by rw [Fin.val_last]; have : cfg4.N = 25 := N_4; omega), PhiA4_split]
  iintro ⟨⟨HS, Hrest⟩, Hg⟩
  isplitl [HS Hrest]
  · isplitl [HS]; · iexists _; iexact HS
    iexact Hrest
  iexact Hg

end Region

end Cert.KernelIdeal.Hand

end
-- ==== Proof.Comb5.lean ====
/- The class-A half of custom_call 5 (`cc5__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelIdealLaunchP
import proofs.«170580_j11665131176635_1_alg».proof.Proof.Gen.KernelIdeal.Skeleton
import proofs.«170580_j11665131176635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there, for any proof data whose array is `V`'s (`hA`) and whose body leaves the block in place (`hafter`):
    where it was not fetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the pipeline fetched it
    there, for any proof data whose array is `V`'s (`hA`) and whose body leaves the block in place (`hafter`):
    where it was not fetched the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the pipeline fetched it
    there, for any proof data whose array is `V`'s (`hA`) and whose body leaves the block in place (`hafter`):
    where it was not fetched the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the pipeline fetched it
    there, for any proof data whose array is `V`'s (`hA`) and whose body leaves the block in place (`hafter`):
    where it was not fetched the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not the pipeline fetched it
    there, for any proof data whose array is `V`'s (`hA`) and whose body leaves the block in place (`hafter`):
    where it was not fetched the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether or not the pipeline fetched it
    there, for any proof data whose array is `V`'s (`hA`) and whose body leaves the block in place (`hafter`):
    where it was not fetched the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_S2000x128 : Rect S2000x128 := Rect.unit (s := S2000x128) ![0, 0] S2000x128.size inb_S2000x128_S2000x128_0_0
abbrev r5_S2000x1 : Rect S2000x1 := Rect.unit (s := S2000x1) ![0, 0] S2000x1.size inb_S2000x1_S2000x1_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out5_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r5_S2000x128, k5_pay1 (View.ld x2 r5_S2000x1) (View.ld x3 r5_S128x128) (View.ld x0 r5_S2000x128) (View.ld x1 r5_S2000x128) (View.ld x4 r5_S128x128) (View.ld x5 r5_S1x128)⟩]

/-- The one store is of the whole buffer, so it covers it. -/
theorem cover5_6 (p0 : Vec F S2000x128 .f32) (y : S2000x128.Idx) :
    ∃ pc ∈ ([⟨r5_S2000x128, p0⟩] : List (View.Piece (Elt F) S2000x128 .f32)), y ∈ pc.1.set :=
  View.cover_of_tiled [⟨r5_S2000x128, p0⟩] S2000x128.size (by rfl) y

/-! ## The body's triple -/

set_option maxHeartbeats 4000000 in
/-- The kernel body on whole staging memrefs, the inputs' at read contents `xW` and the output's at anything, runs to
    the continuation holding the inputs' as they were and the output's at `out5_6` of the inputs'. -/
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.Pool6.lean ====
/-
  A pooling call (pallas_call 6): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt6: by recursion on the point, each step the body's own arithmetic k6_pay2 of the
  two staged blocks and the previous sum, the first step over the cleared accumulator k6_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst6 (i : grid6.Coords) : Prop :=
  (Scalar.cmpi .ne (Scalar.extui (Scalar.cmpi .eq (BitVec.ofNat 32 (i 0).val) 0#32)) 0#32) = 1#1
/-- The body's second conditional: the grid coordinate is the last one. -/
abbrev isLast6 (i : grid6.Coords) : Prop := k6_cond2 i = 1#1

theorem isFirst6_iff : ∀ t : Fin cfg6.N, isFirst6 (grid6.coords t) ↔ t.val = 0 :=
  (by decide +kernel : ∀ t : Fin grid6.N, isFirst6 (grid6.coords t) ↔ t.val = 0)
theorem isLast6_iff : ∀ t : Fin cfg6.N, isLast6 (grid6.coords t) ↔ t.val = 24 :=
  (by decide +kernel : ∀ t : Fin grid6.N, isLast6 (grid6.coords t) ↔ t.val = 24)

/-- The two input windows are in use at every point. -/
theorem inLive6_0 : ∀ t : Fin cfg6.N, cfg6.idle 0 (grid6.coords t) = false := by decide +kernel
theorem inLive6_1 : ∀ t : Fin cfg6.N, cfg6.idle 1 (grid6.coords t) = false := by decide +kernel
/-- Away from the last point the output window is left alone and is not written back; -/
theorem outIdle6 : ∀ t : Fin cfg6.N, ¬isLast6 (grid6.coords t) → cfg6.idle 2 (grid6.coords t) = true := by decide +kernel
theorem outKept6 : ∀ t : Fin cfg6.N, ¬isLast6 (grid6.coords t) → (cfg6.win 2).flush t = false := by decide +kernel
/-- at the last point it is stored into. -/
theorem outLive6 : ∀ t : Fin cfg6.N, isLast6 (grid6.coords t) → cfg6.idle 2 (grid6.coords t) = false := by decide +kernel

/-! ## The staging memrefs and the accumulator -/

abbrev idsM6 (t : Fin cfg6.N) : Memref sig .tc .vmem S2000x1 .i32 := win6_0.stage (cfg6.slots t 0)
abbrev idsW6 (t : Fin cfg6.N) : (idsM6 t).IsWhole := hstage6_0 ((cfg6.slots t 0).cast nbuf6_0)
abbrev featsM6 (t : Fin cfg6.N) : Memref sig .tc .vmem S2000x128 .f32 := win6_1.stage (cfg6.slots t 1)
abbrev featsW6 (t : Fin cfg6.N) : (featsM6 t).IsWhole := hstage6_1 ((cfg6.slots t 1).cast nbuf6_1)
abbrev outM6 (t : Fin cfg6.N) : Memref sig .tc .vmem S128x128 .f32 := win6_2.stage (cfg6.slots t 2)
abbrev outW6 (t : Fin cfg6.N) : (outM6 t).IsWhole := hstage6_2 ((cfg6.slots t 2).cast nbuf6_2)
/-- The accumulator: a scratch buffer of the call's own. -/
abbrev accM6 : Memref sig .tc .vmem S128x128 .f32 := Memref.whole cc6_scratch0
/-- A view through which a 128 × 128 block's contents are stated (which buffer it is does not matter). -/
abbrev accV6 : View sig .tc .vmem S128x128 .f32 := accM6.view

/-- The region's invariant with the accumulator singled out: the accumulator at some contents, the other scoped
    buffers unopened, the generator register at some state. -/
theorem PhiA6_split (c : Dev nD) :
    (Pipeline.ΦA spec6 c : sProp 𝕄)
      = iprop(iprop((∃ d, owns (c : Thread nD τ) accM6 fullShare d)
          ∗ Pipeline.scopedRestBut (Ix := Unit) (Name := ℕ) (U := UR sig nD τ) (Lvl := ℕ) (Val := Elt F) spec6 c [cc6_scratch0])
          ∗ (∃ r, prngReg c r)) := by
  unfold Pipeline.ΦA; rw [scopedRest6_split]; simp only [accM6, owns_whole]; try rfl

/-! ## The body, case by case -/

set_option maxHeartbeats 4000000 in
/-- At the first point: from the two input blocks and the accumulator at anything, the body leaves the inputs and
    the output's buffer as they were and the accumulator with the pieces the run finds. -/
noncomputable def runFirst6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst6 i) (hl : ¬isLast6 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, fun y3 E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : ¬isLast6 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, fun y3 E K => ?run⟩
  case run =>
    simp only [cc6__pool_kernel_eq_skeleton]; unfold cc6__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast6 (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : isLast6 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc6__pool_kernel i a1 h1 a2 h2 a3 h3 a4 h4) K } := by
  refine ⟨?_, ?_, fun E K => ?run⟩
  case run =>
    simp only [cc6__pool_kernel_eq_skeleton]; unfold cc6__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst6 (c : Dev nD) (i : grid6.Coords) (a1 h1 a2 h2 a3 h3 a4 h4) (hf : isFirst6 i) (hl : ¬isLast6 i)
    (x1 : Vec F S2000x1 .i32) (x2 : Vec F S2000x128 .f32) (y : S128x128.Idx) :
    ∃ pc ∈ (runFirst6 c i a1 h1 a2 h2 a3 h3 a4 h4 hf hl x1 x2).1, y ∈ pc.1.set :=
  View.cover_of_tiledL (runFirst6 c i a1 h1 a2 h2 a3 h3 a4 h4 hf hl x1 x2).1 S128x128.size (by sl_kernel_rfl) y
theorem coverMid6 (c : Dev nD) (i : grid6.Coords) (a1 h1 a2 h2 a3 h3 a4 h4) (hf : ¬isFirst6 i) (hl : ¬isLast6 i)
    (x1 : Vec F S2000x1 .i32) (x2 : Vec F S2000x128 .f32) (s : Vec F S128x128 .f32) (y : S128x128.Idx) :
    ∃ pc ∈ (runMid6 c i a1 h1 a2 h2 a3 h3 a4 h4 hf hl x1 x2 s).1, y ∈ pc.1.set :=
  View.cover_of_tiledL (runMid6 c i a1 h1 a2 h2 a3 h3 a4 h4 hf hl x1 x2 s).1 S128x128.size (by sl_kernel_rfl) y
theorem coverLastAcc6 (c : Dev nD) (i : grid6.Coords) (a1 h1 a2 h2 a3 h3 a4 h4) (hf : ¬isFirst6 i) (hl : isLast6 i)
    (x1 : Vec F S2000x1 .i32) (x2 : Vec F S2000x128 .f32) (s : Vec F S128x128 .f32) (y : S128x128.Idx) :
    ∃ pc ∈ (runLast6 c i a1 h1 a2 h2 a3 h3 a4 h4 hf hl x1 x2 s).2.1, y ∈ pc.1.set :=
  View.cover_of_tiledL (runLast6 c i a1 h1 a2 h2 a3 h3 a4 h4 hf hl x1 x2 s).2.1 S128x128.size (by sl_kernel_rfl) y
theorem coverLastOut6 (c : Dev nD) (i : grid6.Coords) (a1 h1 a2 h2 a3 h3 a4 h4) (hf : ¬isFirst6 i) (hl : isLast6 i)
    (x1 : Vec F S2000x1 .i32) (x2 : Vec F S2000x128 .f32) (s : Vec F S128x128 .f32) (y : S128x128.Idx) :
    ∃ pc ∈ (runLast6 c i a1 h1 a2 h2 a3 h3 a4 h4 hf hl x1 x2 s).1, y ∈ pc.1.set :=
  View.cover_of_tiledL (runLast6 c i a1 h1 a2 h2 a3 h3 a4 h4 hf hl x1 x2 s).1 S128x128.size (by sl_kernel_rfl) y

/-- A list of pieces read back as one block. -/
abbrev asBlock6 (L : List (View.Piece (Elt F) S128x128 .f32)) : Vec F S128x128 .f32 :=
  accV6.read (Elt F) (accV6.writes (Elt F) accV6.junk L)

/-! ## The region, entered at the contents V -/

section Region
variable (V : (c : Dev nD) → (b : Ref sig .tc) → Buf (Elt F) ((c : Thread nD τ).loc b))

/-- Window w's block at point t, read off its array as the region finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, for any proof data over V that leaves it there. -/
theorem found6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem found6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- THE RUNNING SUM: what the accumulator holds after the body at position n. -/
def accAt6 (c : Dev nD) : (n : ℕ) → n < cfg6.N → Vec F S128x128 .f32
  | 0, hn => asBlock6 (runFirst6 c (grid6.coords ⟨0, hn⟩) (idsM6 ⟨0, hn⟩) (idsW6 ⟨0, hn⟩) (featsM6 ⟨0, hn⟩) (featsW6 ⟨0, hn⟩)
      (outM6 ⟨0, hn⟩) (outW6 ⟨0, hn⟩) accM6 (Memref.isWhole_whole _) ((isFirst6_iff ⟨0, hn⟩).mpr rfl)
      (fun h => absurd (show (0 : ℕ) = 24 from (isLast6_iff ⟨0, hn⟩).mp h) (by decide)) (blk6 V c 0 ⟨0, hn⟩) (blk6 V c 1 ⟨0, hn⟩)).1
  | n + 1, hn =>
    if hl : n + 1 = 24 then
      asBlock6 (runLast6 c (grid6.coords ⟨n + 1, hn⟩) (idsM6 ⟨n + 1, hn⟩) (idsW6 ⟨n + 1, hn⟩) (featsM6 ⟨n + 1, hn⟩) (featsW6 ⟨n + 1, hn⟩)
        (outM6 ⟨n + 1, hn⟩) (outW6 ⟨n + 1, hn⟩) accM6 (Memref.isWhole_whole _)
        (fun h => absurd ((isFirst6_iff ⟨n + 1, hn⟩).mp h) (Nat.succ_ne_zero n)) ((isLast6_iff ⟨n + 1, hn⟩).mpr hl)
        (blk6 V c 0 ⟨n + 1, hn⟩) (blk6 V c 1 ⟨n + 1, hn⟩) (accAt6 c n (Nat.lt_of_succ_lt hn))).2.1
    else
      asBlock6 (runMid6 c (grid6.coords ⟨n + 1, hn⟩) (idsM6 ⟨n + 1, hn⟩) (idsW6 ⟨n + 1, hn⟩) (featsM6 ⟨n + 1, hn⟩) (featsW6 ⟨n + 1, hn⟩)
        (outM6 ⟨n + 1, hn⟩) (outW6 ⟨n + 1, hn⟩) accM6 (Memref.isWhole_whole _)
        (fun h => absurd ((isFirst6_iff ⟨n + 1, hn⟩).mp h) (Nat.succ_ne_zero n)) (fun h => hl ((isLast6_iff ⟨n + 1, hn⟩).mp h))
        (blk6 V c 0 ⟨n + 1, hn⟩) (blk6 V c 1 ⟨n + 1, hn⟩) (accAt6 c n (Nat.lt_of_succ_lt hn))).1

/-- What the output's staging buffer holds after the body at position n: at the last point the pieces stored there;
    elsewhere the window is idle and this value is never consulted. -/
def outAt6 (c : Dev nD) (n : ℕ) (hn : n < cfg6.N) : Vec F S128x128 .f32 :=
  if hz : n = 0 then asBlock6 []
  else if hl : n = 24 then
    asBlock6 (runLast6 c (grid6.coords ⟨n, hn⟩) (idsM6 ⟨n, hn⟩) (idsW6 ⟨n, hn⟩) (featsM6 ⟨n, hn⟩) (featsW6 ⟨n, hn⟩)
      (outM6 ⟨n, hn⟩) (outW6 ⟨n, hn⟩) accM6 (Memref.isWhole_whole _)
      (fun h => hz ((isFirst6_iff ⟨n, hn⟩).mp h)) ((isLast6_iff ⟨n, hn⟩).mpr hl)
      (blk6 V c 0 ⟨n, hn⟩) (blk6 V c 1 ⟨n, hn⟩) (accAt6 V c (n - 1) (Nat.lt_of_le_of_lt (Nat.sub_le _ _) hn))).1
  else asBlock6 []

end Region

section Region
variable (V : (c : Dev nD) → (b : Ref sig .tc) → Buf (Elt F) ((c : Thread nD τ).loc b))

theorem accAt6_first (c : Dev nD) (t : Fin cfg6.N) (hz : t.val = 0) :
    accAt6 V c t.val t.isLt = asBlock6 (runFirst6 c (grid6.coords t) (idsM6 t) (idsW6 t) (featsM6 t) (featsW6 t) (outM6 t) (outW6 t) accM6
      (Memref.isWhole_whole _) ((isFirst6_iff t).mpr hz) (fun h => absurd (((isLast6_iff t).mp h).symm.trans hz) (by decide))
      (blk6 V c 0 t) (blk6 V c 1 t)).1 := by
  obtain ⟨n, hn⟩ := t
  cases n with
  | zero => rfl
  | succ n => exact absurd hz (Nat.succ_ne_zero n)

theorem accAt6_mid (c : Dev nD) (t : Fin cfg6.N) (hz : t.val ≠ 0) (hl : t.val ≠ 24) :
    accAt6 V c t.val t.isLt = asBlock6 (runMid6 c (grid6.coords t) (idsM6 t) (idsW6 t) (featsM6 t) (featsW6 t) (outM6 t) (outW6 t) accM6
      (Memref.isWhole_whole _) (fun h => hz ((isFirst6_iff t).mp h)) (fun h => hl ((isLast6_iff t).mp h))
      (blk6 V c 0 t) (blk6 V c 1 t) (accAt6 V c (t.val - 1) (Nat.lt_of_le_of_lt (Nat.sub_le _ _) t.isLt))).1 := by
  obtain ⟨n, hn⟩ := t
  cases n with
  | zero => exact absurd rfl hz
  | succ n => exact (dif_neg hl).trans rfl

theorem accAt6_last (c : Dev nD) (t : Fin cfg6.N) (hz : t.val ≠ 0) (hl : t.val = 24) :
    accAt6 V c t.val t.isLt = asBlock6 (runLast6 c (grid6.coords t) (idsM6 t) (idsW6 t) (featsM6 t) (featsW6 t) (outM6 t) (outW6 t) accM6
      (Memref.isWhole_whole _) (fun h => hz ((isFirst6_iff t).mp h)) ((isLast6_iff t).mpr hl)
      (blk6 V c 0 t) (blk6 V c 1 t) (accAt6 V c (t.val - 1) (Nat.lt_of_le_of_lt (Nat.sub_le _ _) t.isLt))).2.1 := by
  obtain ⟨n, hn⟩ := t
  cases n with
  | zero => exact absurd rfl hz
  | succ n => exact (dif_pos hl).trans rfl

theorem outAt6_last (c : Dev nD) (t : Fin cfg6.N) (hz : t.val ≠ 0) (hl : t.val = 24) :
    outAt6 V c t.val t.isLt = asBlock6 (runLast6 c (grid6.coords t) (idsM6 t) (idsW6 t) (featsM6 t) (featsW6 t) (outM6 t) (outW6 t) accM6
      (Memref.isWhole_whole _) (fun h => hz ((isFirst6_iff t).mp h)) ((isLast6_iff t).mpr hl)
      (blk6 V c 0 t) (blk6 V c 1 t) (accAt6 V c (t.val - 1) (Nat.lt_of_le_of_lt (Nat.sub_le _ _) t.isLt))).1 := by
  unfold outAt6; rw [dif_neg hz, dif_pos hl]

/-- The invariant before position n: before the first point the scoped buffers at anything; afterwards the
    accumulator at the running sum, the other scoped buffers unopened. The generator register rides along. -/
def PhiAt6 (c : Dev nD) : (n : ℕ) → n ≤ cfg6.N → sProp 𝕄
  | 0, _ => Pipeline.ΦA spec6 c
  | n + 1, hn => iprop(iprop(owns (c : Thread nD τ) accM6 fullShare (accAt6 V c n hn)
      ∗ Pipeline.scopedRestBut (Ix := Unit) (Name := ℕ) (U := UR sig nD τ) (Lvl := ℕ) (Val := Elt F) spec6 c [cc6_scratch0])
      ∗ (∃ r, prngReg c r))

theorem PhiAt6_zero (c : Dev nD) (n : ℕ) (h : n ≤ cfg6.N) (hz : n = 0) : PhiAt6 V c n h = Pipeline.ΦA spec6 c := by
  subst hz; rfl
theorem PhiAt6_succ (c : Dev nD) (n : ℕ) (hn : n < cfg6.N) :
    PhiAt6 V c (n + 1) hn = iprop(iprop(owns (c : Thread nD τ) accM6 fullShare (accAt6 V c n hn)
      ∗ Pipeline.scopedRestBut (Ix := Unit) (Name := ℕ) (U := UR sig nD τ) (Lvl := ℕ) (Val := Elt F) spec6 c [cc6_scratch0])
      ∗ (∃ r, prngReg c r)) := rfl
theorem PhiAt6_pos (c : Dev nD) (n : ℕ) (h : n ≤ cfg6.N) (hz : n ≠ 0) :
    PhiAt6 V c n h = iprop(iprop(owns (c : Thread nD τ) accM6 fullShare (accAt6 V c (n - 1) (by omega))
      ∗ Pipeline.scopedRestBut (Ix := Unit) (Name := ℕ) (U := UR sig nD τ) (Lvl := ℕ) (Val := Elt F) spec6 c [cc6_scratch0])
      ∗ (∃ r, prngReg c r)) := by
  cases n with
  | zero => exact absurd rfl hz
  | succ n => rfl

/-- The region's proof data: the arrays as V has them; after the body each input's buffer at its block, the output's
    at outAt6; the invariant PhiAt6; nothing owed; full shares. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => outAt6 V c t.val t.isLt
  Φ t := PhiAt6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem Phi6_castSucc (c : Dev nD) (t : Fin cfg6.N) :
    (dat6 V c).Φ t.castSucc = PhiAt6 V c t.val (Nat.le_of_lt t.isLt) := by
  dsimp only [dat6]; simp only [Fin.coe_castSucc]
theorem after6_0 (c : Dev nD) (t : Fin cfg6.N) : (dat6 V c).after 0 t = blk6 V c 0 t := by dsimp only [dat6]
theorem after6_1 (c : Dev nD) (t : Fin cfg6.N) : (dat6 V c).after 1 t = blk6 V c 1 t := by dsimp only [dat6]
theorem after6_2 (c : Dev nD) (t : Fin cfg6.N) : (dat6 V c).after 2 t = outAt6 V c t.val t.isLt := by dsimp only [dat6]
theorem before6_0 (c : Dev nD) (t : Fin cfg6.N) (d) : (dat6 V c).before 0 t d = blk6 V c 0 t :=
  found6_0_of V (dat6 V c) (A_eq6 V c 0) (after6_0 V c) t d
theorem before6_1 (c : Dev nD) (t : Fin cfg6.N) (d) : (dat6 V c).before 1 t d = blk6 V c 1 t :=
  found6_1_of V (dat6 V c) (A_eq6 V c 1) (after6_1 V c) t d

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (idsM6 t) fullShare ((dat6 V c).before 0 t d))
    ∗ (∃ d, owns (c : Thread nD τ) (featsM6 t) fullShare ((dat6 V c).before 1 t d))
    ∗ (∃ d, owns (c : Thread nD τ) (outM6 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiAt6 V c (t.val + 1) t.isLt from rfl, PhiAt6_succ]
  rw [show (dat6 V c).leavesExact 0 t = owns (c : Thread nD τ) (idsM6 t) fullShare ((dat6 V c).after 0 t) from by
    unfold Dat.leavesExact; rw [inLive6_0 t], after6_0]
  rw [show (dat6 V c).leavesExact 1 t = owns (c : Thread nD τ) (featsM6 t) fullShare ((dat6 V c).after 1 t) from by
    unfold Dat.leavesExact; rw [inLive6_1 t], after6_1]
  have hN : t.val < 25 := lt_of_lt_of_eq t.isLt (show cfg6.N = 25 from N_6)
  by_cases hz : t.val = 0
  · have hl : ¬ t.val = 24 := by omega
    have hnl : ¬isLast6 (grid6.coords t) := fun h => hl ((isLast6_iff t).mp h)
    rw [Dat.leavesExact_idle (dat6 V c) 2 t (outIdle6 t hnl) (outKept6 t hnl)]
    rw [accAt6_first V c t hz]
    rw [Phi6_castSucc V c t, PhiAt6_zero V c _ _ hz, PhiA6_split]
    iintro ⟨⟨⟨HS, Hrest⟩, Hg⟩, Ho, ⟨%d0, H0⟩, ⟨%d1, H1⟩, ⟨%d2, H2⟩⟩
    iapply ((runFirst6 c (grid6.coords t) _ _ _ _ _ _ _ _ ((isFirst6_iff t).mpr hz) hnl (blk6 V c 0 t) (blk6 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst6 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast6 (grid6.coords t) := (isLast6_iff t).mpr hl
      rw [show (dat6 V c).leavesExact 2 t = owns (c : Thread nD τ) (outM6 t) fullShare ((dat6 V c).after 2 t) from by
        unfold Dat.leavesExact; rw [outLive6 t hil], after6_2]
      rw [accAt6_last V c t hz hl, outAt6_last V c t hz hl]
      rw [Phi6_castSucc V c t, PhiAt6_pos V c _ _ hz]
      iintro ⟨⟨⟨HS, Hrest⟩, Hg⟩, Ho, ⟨%d0, H0⟩, ⟨%d1, H1⟩, ⟨%d2, H2⟩⟩
      iapply ((runLast6 c (grid6.coords t) _ _ _ _ _ _ _ _ (fun h => hz ((isFirst6_iff t).mp h)) hil (blk6 V c 0 t) (blk6 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc6 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut6 c _ _ _ _ _ _ _ _ _ _ _ _ _ _)
    · have hnl : ¬isLast6 (grid6.coords t) := fun h => hl ((isLast6_iff t).mp h)
      rw [Dat.leavesExact_idle (dat6 V c) 2 t (outIdle6 t hnl) (outKept6 t hnl)]
      rw [accAt6_mid V c t hz hl]
      rw [Phi6_castSucc V c t, PhiAt6_pos V c _ _ hz]
      iintro ⟨⟨⟨HS, Hrest⟩, Hg⟩, Ho, ⟨%d0, H0⟩, ⟨%d1, H1⟩, ⟨%d2, H2⟩⟩
      iapply ((runMid6 c (grid6.coords t) _ _ _ _ _ _ _ _ (fun h => hz ((isFirst6_iff t).mp h)) hnl (blk6 V c 0 t) (blk6 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid6 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation6 (c : Dev nD) : BodyObligation (dat6 (F := F) V c) (defs₀ (F := F)) Variants.none () Set.univ := fun t => by
  rw [bigSep_W6, bigSep_W6]
  exact sound_body6 V c t

/-- The invariant's two ends: it starts as the class invariant and gives it back (the running sum forgotten). -/
theorem Phi6_in (c : Dev nD) : Pipeline.ΦA spec6 c ⊢ (dat6 V c).Φ 0 := by
  rw [show (dat6 V c).Φ 0 = PhiAt6 V c 0 (Nat.zero_le _) from rfl, PhiAt6_zero V c 0 _ rfl]
  try exact Idealize.SL.BI.Entails.refl _
theorem Phi6_out (c : Dev nD) : (dat6 V c).Φ (Fin.last cfg6.N) ⊢ Pipeline.ΦA spec6 c := by
  rw [show (dat6 V c).Φ (Fin.last cfg6.N) = PhiAt6 V c (Fin.last cfg6.N).val (Nat.le_of_lt_succ (Fin.last cfg6.N).isLt) from rfl,
    PhiAt6_pos V c _ _ (by rw [Fin.val_last]; have : cfg6.N = 25 := N_6; omega), PhiA6_split]
  iintro ⟨⟨HS, Hrest⟩, Hg⟩
  isplitl [HS Hrest]
  · isplitl [HS]; · iexists _; iexact HS
    iexact Hrest
  iexact Hg

end Region

end Cert.KernelIdeal.Hand

end
-- ==== Proof.Comb7.lean ====
/- The class-A half of custom_call 7 (`cc7__combine_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelIdealLaunchP
import proofs.«170580_j11665131176635_1_alg».proof.Proof.Gen.KernelIdeal.Skeleton
import proofs.«170580_j11665131176635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the pipeline fetched it
    there, for any proof data whose array is `V`'s (`hA`) and whose body leaves the block in place (`hafter`):
    where it was not fetched the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the pipeline fetched it
    there, for any proof data whose array is `V`'s (`hA`) and whose body leaves the block in place (`hafter`):
    where it was not fetched the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the pipeline fetched it
    there, for any proof data whose array is `V`'s (`hA`) and whose body leaves the block in place (`hafter`):
    where it was not fetched the block index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the pipeline fetched it
    there, for any proof data whose array is `V`'s (`hA`) and whose body leaves the block in place (`hafter`):
    where it was not fetched the block index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether or not the pipeline fetched it
    there, for any proof data whose array is `V`'s (`hA`) and whose body leaves the block in place (`hafter`):
    where it was not fetched the block index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether or not the pipeline fetched it
    there, for any proof data whose array is `V`'s (`hA`) and whose body leaves the block in place (`hafter`):
    where it was not fetched the block index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_S2000x128 : Rect S2000x128 := Rect.unit (s := S2000x128) ![0, 0] S2000x128.size inb_S2000x128_S2000x128_0_0
abbrev r7_S2000x1 : Rect S2000x1 := Rect.unit (s := S2000x1) ![0, 0] S2000x1.size inb_S2000x1_S2000x1_0_0
abbrev r7_S128x128 : Rect S128x128 := Rect.unit (s := S128x128) ![0, 0] S128x128.size inb_S128x128_S128x128_0_0
abbrev r7_S1x128 : Rect S1x128 := Rect.unit (s := S1x128) ![0, 0] S1x128.size inb_S1x128_S1x128_0_0

/-! ## What the body leaves in the output window's buffer -/

/-- Window 6's staging buffer after the body, from the input windows' blocks: its one store, whole, of the
    payload of the loaded blocks. -/
def out7_6 (x0 : Vec F S2000x128 .f32) (x1 : Vec F S2000x128 .f32) (x2 : Vec F S2000x1 .i32) (x3 : Vec F S128x128 .f32) (x4 : Vec F S128x128 .f32) (x5 : Vec F S1x128 .f32) : Vec F S2000x128 .f32 :=
  View.canon [⟨r7_S2000x128, k7_pay1 (View.ld x2 r7_S2000x1) (View.ld x3 r7_S128x128) (View.ld x0 r7_S2000x128) (View.ld x1 r7_S2000x128) (View.ld x4 r7_S128x128) (View.ld x5 r7_S1x128)⟩]

/-- The one store is of the whole buffer, so it covers it. -/
theorem cover7_6 (p0 : Vec F S2000x128 .f32) (y : S2000x128.Idx) :
    ∃ pc ∈ ([⟨r7_S2000x128, p0⟩] : List (View.Piece (Elt F) S2000x128 .f32)), y ∈ pc.1.set :=
  View.cover_of_tiled [⟨r7_S2000x128, p0⟩] S2000x128.size (by rfl) y

/-! ## The body's triple -/

set_option maxHeartbeats 4000000 in
/-- The kernel body on whole staging memrefs, the inputs' at read contents `xW` and the output's at anything, runs to
    the continuation holding the inputs' as they were and the output's at `out7_6` of the inputs'. -/
theorem sound_kernel7 (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole)
    (x0 : Vec F S2000x128 .f32) (x1 : Vec F S2000x128 .f32) (x2 : Vec F S2000x1 .i32) (x3 : Vec F S128x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__combine_kernel i arg1 harg1 arg2 harg2 arg3 harg3 arg4 harg4 arg5 harg5 arg6 harg6 arg7 harg7) K := by
  simp only [cc7__combine_kernel_eq_skeleton]; unfold cc7__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The proof data of pipeline 7 on core `c`: the arrays as the region finds them (`V`); after the body at
    point `t` each input's buffer at its block and the output's at `out7_6` of the input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so `sound_kernel7` applies; the invariant and
    the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.Pool8.lean ====
/-
  A pooling call (pallas_call 8): a sum over the 50000 nodes, taken 2000 rows at a time over 25 grid
  points, of the rows of a feature block selected by a one-hot matrix of the nodes' graph ids.  The kernel keeps
  the running sum in a scratch accumulator: at the first point it clears the accumulator, at every point it adds
  the point's contribution  onehot(ids)ᵀ · feats  to it, and at the last point it copies the accumulator into the
  output block, which is written back there and nowhere else.

  This module states, for any contents V of the core's buffers when the region is entered, what the accumulator
  holds after each point (accAt8: by recursion on the point, each step the body's own arithmetic k8_pay2 of the
  two staged blocks and the previous sum, the first step over the cleared accumulator k8_pay1), what the output's
  staging buffer holds after the last point, the region's proof data over those, and the body's obligation at
  every point.  Nothing here depends on the float instance.
-/
import proofs.«170580_j11665131176635_1_alg».proof.Proof.Gen.KernelIdeal.Points
import proofs.«170580_j11665131176635_1_alg».proof.Proof.Gen.KernelIdeal.Skeleton
import proofs.«170580_j11665131176635_1_alg».proof.Proof.KernelIdealLaunchP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points clear the accumulator and which copy it out -/

/-- The body's first conditional: the grid coordinate is zero. -/
abbrev isFirst8 (i : grid8.Coords) : Prop :=
  (Scalar.cmpi .ne (Scalar.extui (Scalar.cmpi .eq (BitVec.ofNat 32 (i 0).val) 0#32)) 0#32) = 1#1
/-- The body's second conditional: the grid coordinate is the last one. -/
abbrev isLast8 (i : grid8.Coords) : Prop := k8_cond2 i = 1#1

theorem isFirst8_iff : ∀ t : Fin cfg8.N, isFirst8 (grid8.coords t) ↔ t.val = 0 :=
  (by decide +kernel : ∀ t : Fin grid8.N, isFirst8 (grid8.coords t) ↔ t.val = 0)
theorem isLast8_iff : ∀ t : Fin cfg8.N, isLast8 (grid8.coords t) ↔ t.val = 24 :=
  (by decide +kernel : ∀ t : Fin grid8.N, isLast8 (grid8.coords t) ↔ t.val = 24)

/-- The two input windows are in use at every point. -/
theorem inLive8_0 : ∀ t : Fin cfg8.N, cfg8.idle 0 (grid8.coords t) = false := by decide +kernel
theorem inLive8_1 : ∀ t : Fin cfg8.N, cfg8.idle 1 (grid8.coords t) = false := by decide +kernel
/-- Away from the last point the output window is left alone and is not written back; -/
theorem outIdle8 : ∀ t : Fin cfg8.N, ¬isLast8 (grid8.coords t) → cfg8.idle 2 (grid8.coords t) = true := by decide +kernel
theorem outKept8 : ∀ t : Fin cfg8.N, ¬isLast8 (grid8.coords t) → (cfg8.win 2).flush t = false := by decide +kernel
/-- at the last point it is stored into. -/
theorem outLive8 : ∀ t : Fin cfg8.N, isLast8 (grid8.coords t) → cfg8.idle 2 (grid8.coords t) = false := by decide +kernel

/-! ## The staging memrefs and the accumulator -/

abbrev idsM8 (t : Fin cfg8.N) : Memref sig .tc .vmem S2000x1 .i32 := win8_0.stage (cfg8.slots t 0)
abbrev idsW8 (t : Fin cfg8.N) : (idsM8 t).IsWhole := hstage8_0 ((cfg8.slots t 0).cast nbuf8_0)
abbrev featsM8 (t : Fin cfg8.N) : Memref sig .tc .vmem S2000x128 .f32 := win8_1.stage (cfg8.slots t 1)
abbrev featsW8 (t : Fin cfg8.N) : (featsM8 t).IsWhole := hstage8_1 ((cfg8.slots t 1).cast nbuf8_1)
abbrev outM8 (t : Fin cfg8.N) : Memref sig .tc .vmem S128x128 .f32 := win8_2.stage (cfg8.slots t 2)
abbrev outW8 (t : Fin cfg8.N) : (outM8 t).IsWhole := hstage8_2 ((cfg8.slots t 2).cast nbuf8_2)
/-- The accumulator: a scratch buffer of the call's own. -/
abbrev accM8 : Memref sig .tc .vmem S128x128 .f32 := Memref.whole cc8_scratch0
/-- A view through which a 128 × 128 block's contents are stated (which buffer it is does not matter). -/
abbrev accV8 : View sig .tc .vmem S128x128 .f32 := accM8.view

/-- The region's invariant with the accumulator singled out: the accumulator at some contents, the other scoped
    buffers unopened, the generator register at some state. -/
theorem PhiA8_split (c : Dev nD) :
    (Pipeline.ΦA spec8 c : sProp 𝕄)
      = iprop(iprop((∃ d, owns (c : Thread nD τ) accM8 fullShare d)
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [accM8, owns_whole]; try rfl

/-! ## The body, case by case -/

set_option maxHeartbeats 4000000 in
/-- At the first point: from the two input blocks and the accumulator at anything, the body leaves the inputs and
    the output's buffer as they were and the accumulator with the pieces the run finds. -/
noncomputable def runFirst8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst8 i) (hl : ¬isLast8 i)
    (x1 : Vec F S2000x1 .i32) (x2 : Vec F S2000x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ (∃ d, owns (c : Thread nD τ) a4 fullShare d)
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, fun y3 E K => ?run⟩
  case run =>
    simp only [cc8__pool_kernel_eq_skeleton]; unfold cc8__pool_kernel_skel
    unfold owns
    iintro ⟨⟨%f1, %hf1, H1⟩, ⟨%f2, %hf2, H2⟩, ⟨%f3, %hf3, H3⟩, ⟨%d4, %f4, -, H4⟩, Hk⟩
    obtain rfl := h1.eq_unread hf1; obtain rfl := h2.eq_unread hf2; obtain rfl := h3.eq_unread hf3
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At a middle point: the accumulator enters at the previous sum. -/
noncomputable def runMid8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : ¬isLast8 i)
    (x1 : Vec F S2000x1 .i32) (x2 : Vec F S2000x128 .f32) (s : Vec F S128x128 .f32) :
    { LS : List (View.Piece (Elt F) S128x128 .f32) //
      ∀ (y3 : Vec F S128x128 .f32) (E : Set ℕ) (K : PUnit → sProp 𝕄),
        iprop(owns (c : Thread nD τ) a1 fullShare x1 ∗ owns (c : Thread nD τ) a2 fullShare x2 ∗ owns (c : Thread nD τ) a3 fullShare y3
            ∗ owns (c : Thread nD τ) a4 fullShare s
            ∗ (iprop(owns (c : Thread nD τ) a1 fullShare x1 ∗ owns (c : Thread nD τ) a2 fullShare x2 ∗ owns (c : Thread nD τ) a3 fullShare y3
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, fun y3 E K => ?run⟩
  case run =>
    simp only [cc8__pool_kernel_eq_skeleton]; unfold cc8__pool_kernel_skel
    unfold owns
    iintro ⟨⟨%f1, %hf1, H1⟩, ⟨%f2, %hf2, H2⟩, ⟨%f3, %hf3, H3⟩, ⟨%f4, %hf4, H4⟩, Hk⟩
    obtain rfl := h1.eq_unread hf1; obtain rfl := h2.eq_unread hf2; obtain rfl := h3.eq_unread hf3; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

set_option maxHeartbeats 4000000 in
/-- At the last point: the accumulator enters at the previous sum, and the output's buffer, at anything, is stored into. -/
noncomputable def runLast8 (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : isLast8 i)
    (x1 : Vec F S2000x1 .i32) (x2 : Vec F S2000x128 .f32) (s : Vec F S128x128 .f32) :
    Σ' (LO : List (View.Piece (Elt F) S128x128 .f32)), { LS : List (View.Piece (Elt F) S128x128 .f32) //
      ∀ (E : Set ℕ) (K : PUnit → sProp 𝕄),
        iprop(owns (c : Thread nD τ) a1 fullShare x1 ∗ owns (c : Thread nD τ) a2 fullShare x2 ∗ (∃ d, owns (c : Thread nD τ) a3 fullShare d)
            ∗ owns (c : Thread nD τ) a4 fullShare s
            ∗ (iprop(owns (c : Thread nD τ) a1 fullShare x1 ∗ owns (c : Thread nD τ) a2 fullShare x2
                ∗ (∃ f, a3.view.loc (c : Thread nD τ) ↦[a3.view.set]{fullShare} a3.view.writes (Elt F) f LO)
                ∗ (∃ f, a4.view.loc (c : Thread nD τ) ↦[a4.view.set]{fullShare} a4.view.writes (Elt F) f LS)) -∗ K ⟨⟩))
          ⊢ wp frame (wpE (defs₀ (F := F)) Variants.none c none) E (cc8__pool_kernel i a1 h1 a2 h2 a3 h3 a4 h4) K } := by
  refine ⟨?_, ?_, fun E K => ?run⟩
  case run =>
    simp only [cc8__pool_kernel_eq_skeleton]; unfold cc8__pool_kernel_skel
    unfold owns
    iintro ⟨⟨%f1, %hf1, H1⟩, ⟨%f2, %hf2, H2⟩, ⟨%d3, %f3, -, H3⟩, ⟨%f4, %hf4, H4⟩, Hk⟩
    obtain rfl := h1.eq_unread hf1; obtain rfl := h2.eq_unread hf2; obtain rfl := h4.eq_unread hf4
    sl_exec (disch := first | exact hf | exact hl)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    iexists _; iexact H4

/-- The pieces each case leaves in the accumulator, and at the last point in the output's buffer, cover a whole block. -/
theorem coverFirst8 (c : Dev nD) (i : grid8.Coords) (a1 h1 a2 h2 a3 h3 a4 h4) (hf : isFirst8 i) (hl : ¬isLast8 i)
    (x1 : Vec F S2000x1 .i32) (x2 : Vec F S2000x128 .f32) (y : S128x128.Idx) :
    ∃ pc ∈ (runFirst8 c i a1 h1 a2 h2 a3 h3 a4 h4 hf hl x1 x2).1, y ∈ pc.1.set :=
  View.cover_of_tiledL (runFirst8 c i a1 h1 a2 h2 a3 h3 a4 h4 hf hl x1 x2).1 S128x128.size (by sl_kernel_rfl) y
theorem coverMid8 (c : Dev nD) (i : grid8.Coords) (a1 h1 a2 h2 a3 h3 a4 h4) (hf : ¬isFirst8 i) (hl : ¬isLast8 i)
    (x1 : Vec F S2000x1 .i32) (x2 : Vec F S2000x128 .f32) (s : Vec F S128x128 .f32) (y : S128x128.Idx) :
    ∃ pc ∈ (runMid8 c i a1 h1 a2 h2 a3 h3 a4 h4 hf hl x1 x2 s).1, y ∈ pc.1.set :=
  View.cover_of_tiledL (runMid8 c i a1 h1 a2 h2 a3 h3 a4 h4 hf hl x1 x2 s).1 S128x128.size (by sl_kernel_rfl) y
theorem coverLastAcc8 (c : Dev nD) (i : grid8.Coords) (a1 h1 a2 h2 a3 h3 a4 h4) (hf : ¬isFirst8 i) (hl : isLast8 i)
    (x1 : Vec F S2000x1 .i32) (x2 : Vec F S2000x128 .f32) (s : Vec F S128x128 .f32) (y : S128x128.Idx) :
    ∃ pc ∈ (runLast8 c i a1 h1 a2 h2 a3 h3 a4 h4 hf hl x1 x2 s).2.1, y ∈ pc.1.set :=
  View.cover_of_tiledL (runLast8 c i a1 h1 a2 h2 a3 h3 a4 h4 hf hl x1 x2 s).2.1 S128x128.size (by sl_kernel_rfl) y
theorem coverLastOut8 (c : Dev nD) (i : grid8.Coords) (a1 h1 a2 h2 a3 h3 a4 h4) (hf : ¬isFirst8 i) (hl : isLast8 i)
    (x1 : Vec F S2000x1 .i32) (x2 : Vec F S2000x128 .f32) (s : Vec F S128x128 .f32) (y : S128x128.Idx) :
    ∃ pc ∈ (runLast8 c i a1 h1 a2 h2 a3 h3 a4 h4 hf hl x1 x2 s).1, y ∈ pc.1.set :=
  View.cover_of_tiledL (runLast8 c i a1 h1 a2 h2 a3 h3 a4 h4 hf hl x1 x2 s).1 S128x128.size (by sl_kernel_rfl) y

/-- A list of pieces read back as one block. -/
abbrev asBlock8 (L : List (View.Piece (Elt F) S128x128 .f32)) : Vec F S128x128 .f32 :=
  accV8.read (Elt F) (accV8.writes (Elt F) accV8.junk L)

/-! ## The region, entered at the contents V -/

section Region
variable (V : (c : Dev nD) → (b : Ref sig .tc) → Buf (Elt F) ((c : Thread nD τ).loc b))

/-- Window w's block at point t, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, for any proof data over V that leaves it there. -/
theorem found8_0_of {c : Dev nD} (dat : Dat τ (Elt F) Unit ℕ (UR sig nD τ) ℕ cfg8 c) (hA : dat.A 0 = V c (Pipeline.arrRef spec8 0))
    (hafter : ∀ t, dat.after 0 t = blk8 V c 0 t) (t : Fin cfg8.N) (d) : dat.before 0 t d = blk8 V c 0 t :=
  (dat.before_in_eq_fetched 0 rfl (fun _ => rfl) (fun _ _ _ => rfl) (fun t => by rw [hafter]; unfold Dat.blockOf blk8; rw [hA]; try rfl) t d).trans
    (by unfold Dat.fetched Dat.blockOf blk8; rw [hA]; try rfl)
theorem found8_1_of {c : Dev nD} (dat : Dat τ (Elt F) Unit ℕ (UR sig nD τ) ℕ cfg8 c) (hA : dat.A 1 = V c (Pipeline.arrRef spec8 1))
    (hafter : ∀ t, dat.after 1 t = blk8 V c 1 t) (t : Fin cfg8.N) (d) : dat.before 1 t d = blk8 V c 1 t :=
  (dat.before_in_eq_fetched 1 rfl (fun _ => rfl) (fun _ _ _ => rfl) (fun t => by rw [hafter]; unfold Dat.blockOf blk8; rw [hA]; try rfl) t d).trans
    (by unfold Dat.fetched Dat.blockOf blk8; rw [hA]; try rfl)

/-- THE RUNNING SUM: what the accumulator holds after the body at position n. -/
def accAt8 (c : Dev nD) : (n : ℕ) → n < cfg8.N → Vec F S128x128 .f32
  | 0, hn => asBlock8 (runFirst8 c (grid8.coords ⟨0, hn⟩) (idsM8 ⟨0, hn⟩) (idsW8 ⟨0, hn⟩) (featsM8 ⟨0, hn⟩) (featsW8 ⟨0, hn⟩)
      (outM8 ⟨0, hn⟩) (outW8 ⟨0, hn⟩) accM8 (Memref.isWhole_whole _) ((isFirst8_iff ⟨0, hn⟩).mpr rfl)
      (fun h => absurd (show (0 : ℕ) = 24 from (isLast8_iff ⟨0, hn⟩).mp h) (by decide)) (blk8 V c 0 ⟨0, hn⟩) (blk8 V c 1 ⟨0, hn⟩)).1
  | n + 1, hn =>
    if hl : n + 1 = 24 then
      asBlock8 (runLast8 c (grid8.coords ⟨n + 1, hn⟩) (idsM8 ⟨n + 1, hn⟩) (idsW8 ⟨n + 1, hn⟩) (featsM8 ⟨n + 1, hn⟩) (featsW8 ⟨n + 1, hn⟩)
        (outM8 ⟨n + 1, hn⟩) (outW8 ⟨n + 1, hn⟩) accM8 (Memref.isWhole_whole _)
        (fun h => absurd ((isFirst8_iff ⟨n + 1, hn⟩).mp h) (Nat.succ_ne_zero n)) ((isLast8_iff ⟨n + 1, hn⟩).mpr hl)
        (blk8 V c 0 ⟨n + 1, hn⟩) (blk8 V c 1 ⟨n + 1, hn⟩) (accAt8 c n (Nat.lt_of_succ_lt hn))).2.1
    else
      asBlock8 (runMid8 c (grid8.coords ⟨n + 1, hn⟩) (idsM8 ⟨n + 1, hn⟩) (idsW8 ⟨n + 1, hn⟩) (featsM8 ⟨n + 1, hn⟩) (featsW8 ⟨n + 1, hn⟩)
        (outM8 ⟨n + 1, hn⟩) (outW8 ⟨n + 1, hn⟩) accM8 (Memref.isWhole_whole _)
        (fun h => absurd ((isFirst8_iff ⟨n + 1, hn⟩).mp h) (Nat.succ_ne_zero n)) (fun h => hl ((isLast8_iff ⟨n + 1, hn⟩).mp h))
        (blk8 V c 0 ⟨n + 1, hn⟩) (blk8 V c 1 ⟨n + 1, hn⟩) (accAt8 c n (Nat.lt_of_succ_lt hn))).1

/-- What the output's staging buffer holds after the body at position n: at the last point the pieces stored there;
    elsewhere the window is idle and this value is never consulted. -/
def outAt8 (c : Dev nD) (n : ℕ) (hn : n < cfg8.N) : Vec F S128x128 .f32 :=
  if hz : n = 0 then asBlock8 []
  else if hl : n = 24 then
    asBlock8 (runLast8 c (grid8.coords ⟨n, hn⟩) (idsM8 ⟨n, hn⟩) (idsW8 ⟨n, hn⟩) (featsM8 ⟨n, hn⟩) (featsW8 ⟨n, hn⟩)
      (outM8 ⟨n, hn⟩) (outW8 ⟨n, hn⟩) accM8 (Memref.isWhole_whole _)
      (fun h => hz ((isFirst8_iff ⟨n, hn⟩).mp h)) ((isLast8_iff ⟨n, hn⟩).mpr hl)
      (blk8 V c 0 ⟨n, hn⟩) (blk8 V c 1 ⟨n, hn⟩) (accAt8 V c (n - 1) (Nat.lt_of_le_of_lt (Nat.sub_le _ _) hn))).1
  else asBlock8 []

end Region

section Region
variable (V : (c : Dev nD) → (b : Ref sig .tc) → Buf (Elt F) ((c : Thread nD τ).loc b))

theorem accAt8_first (c : Dev nD) (t : Fin cfg8.N) (hz : t.val = 0) :
    accAt8 V c t.val t.isLt = asBlock8 (runFirst8 c (grid8.coords t) (idsM8 t) (idsW8 t) (featsM8 t) (featsW8 t) (outM8 t) (outW8 t) accM8
      (Memref.isWhole_whole _) ((isFirst8_iff t).mpr hz) (fun h => absurd (((isLast8_iff t).mp h).symm.trans hz) (by decide))
      (blk8 V c 0 t) (blk8 V c 1 t)).1 := by
  obtain ⟨n, hn⟩ := t
  cases n with
  | zero => rfl
  | succ n => exact absurd hz (Nat.succ_ne_zero n)

theorem accAt8_mid (c : Dev nD) (t : Fin cfg8.N) (hz : t.val ≠ 0) (hl : t.val ≠ 24) :
    accAt8 V c t.val t.isLt = asBlock8 (runMid8 c (grid8.coords t) (idsM8 t) (idsW8 t) (featsM8 t) (featsW8 t) (outM8 t) (outW8 t) accM8
      (Memref.isWhole_whole _) (fun h => hz ((isFirst8_iff t).mp h)) (fun h => hl ((isLast8_iff t).mp h))
      (blk8 V c 0 t) (blk8 V c 1 t) (accAt8 V c (t.val - 1) (Nat.lt_of_le_of_lt (Nat.sub_le _ _) t.isLt))).1 := by
  obtain ⟨n, hn⟩ := t
  cases n with
  | zero => exact absurd rfl hz
  | succ n => exact (dif_neg hl).trans rfl

theorem accAt8_last (c : Dev nD) (t : Fin cfg8.N) (hz : t.val ≠ 0) (hl : t.val = 24) :
    accAt8 V c t.val t.isLt = asBlock8 (runLast8 c (grid8.coords t) (idsM8 t) (idsW8 t) (featsM8 t) (featsW8 t) (outM8 t) (outW8 t) accM8
      (Memref.isWhole_whole _) (fun h => hz ((isFirst8_iff t).mp h)) ((isLast8_iff t).mpr hl)
      (blk8 V c 0 t) (blk8 V c 1 t) (accAt8 V c (t.val - 1) (Nat.lt_of_le_of_lt (Nat.sub_le _ _) t.isLt))).2.1 := by
  obtain ⟨n, hn⟩ := t
  cases n with
  | zero => exact absurd rfl hz
  | succ n => exact (dif_pos hl).trans rfl

theorem outAt8_last (c : Dev nD) (t : Fin cfg8.N) (hz : t.val ≠ 0) (hl : t.val = 24) :
    outAt8 V c t.val t.isLt = asBlock8 (runLast8 c (grid8.coords t) (idsM8 t) (idsW8 t) (featsM8 t) (featsW8 t) (outM8 t) (outW8 t) accM8
      (Memref.isWhole_whole _) (fun h => hz ((isFirst8_iff t).mp h)) ((isLast8_iff t).mpr hl)
      (blk8 V c 0 t) (blk8 V c 1 t) (accAt8 V c (t.val - 1) (Nat.lt_of_le_of_lt (Nat.sub_le _ _) t.isLt))).1 := by
  unfold outAt8; rw [dif_neg hz, dif_pos hl]

/-- The invariant before position n: before the first point the scoped buffers at anything; afterwards the
    accumulator at the running sum, the other scoped buffers unopened. The generator register rides along. -/
def PhiAt8 (c : Dev nD) : (n : ℕ) → n ≤ cfg8.N → sProp 𝕄
  | 0, _ => Pipeline.ΦA spec8 c
  | n + 1, hn => iprop(iprop(owns (c : Thread nD τ) accM8 fullShare (accAt8 V c n hn)
      ∗ Pipeline.scopedRestBut (Ix := Unit) (Name := ℕ) (U := UR sig nD τ) (Lvl := ℕ) (Val := Elt F) spec8 c [cc8_scratch0])
      ∗ (∃ r, prngReg c r))

theorem PhiAt8_zero (c : Dev nD) (n : ℕ) (h : n ≤ cfg8.N) (hz : n = 0) : PhiAt8 V c n h = Pipeline.ΦA spec8 c := by
  subst hz; rfl
theorem PhiAt8_succ (c : Dev nD) (n : ℕ) (hn : n < cfg8.N) :
    PhiAt8 V c (n + 1) hn = iprop(iprop(owns (c : Thread nD τ) accM8 fullShare (accAt8 V c n hn)
      ∗ Pipeline.scopedRestBut (Ix := Unit) (Name := ℕ) (U := UR sig nD τ) (Lvl := ℕ) (Val := Elt F) spec8 c [cc8_scratch0])
      ∗ (∃ r, prngReg c r)) := rfl
theorem PhiAt8_pos (c : Dev nD) (n : ℕ) (h : n ≤ cfg8.N) (hz : n ≠ 0) :
    PhiAt8 V c n h = iprop(iprop(owns (c : Thread nD τ) accM8 fullShare (accAt8 V c (n - 1) (by omega))
      ∗ Pipeline.scopedRestBut (Ix := Unit) (Name := ℕ) (U := UR sig nD τ) (Lvl := ℕ) (Val := Elt F) spec8 c [cc8_scratch0])
      ∗ (∃ r, prngReg c r)) := by
  cases n with
  | zero => exact absurd rfl hz
  | succ n => rfl

/-- The region's proof data: the arrays as V has them; after the body each input's buffer at its block, the output's
    at outAt8; the invariant PhiAt8; nothing owed; full shares. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => outAt8 V c t.val t.isLt
  Φ t := PhiAt8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem Phi8_castSucc (c : Dev nD) (t : Fin cfg8.N) :
    (dat8 V c).Φ t.castSucc = PhiAt8 V c t.val (Nat.le_of_lt t.isLt) := by
  dsimp only [dat8]; simp only [Fin.coe_castSucc]
theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = outAt8 V c t.val t.isLt := by dsimp only [dat8]
theorem before8_0 (c : Dev nD) (t : Fin cfg8.N) (d) : (dat8 V c).before 0 t d = blk8 V c 0 t :=
  found8_0_of V (dat8 V c) (A_eq8 V c 0) (after8_0 V c) t d
theorem before8_1 (c : Dev nD) (t : Fin cfg8.N) (d) : (dat8 V c).before 1 t d = blk8 V c 1 t :=
  found8_1_of V (dat8 V c) (A_eq8 V c 1) (after8_1 V c) t d

/-! ## The body obligation -/

def bodyPre8 (c : Dev nD) (t : Fin cfg8.N) : sProp 𝕄 :=
  iprop((dat8 V c).Φ t.castSucc ∗ (dat8 V c).owesAt () t.castSucc
    ∗ (∃ d, owns (c : Thread nD τ) (idsM8 t) fullShare ((dat8 V c).before 0 t d))
    ∗ (∃ d, owns (c : Thread nD τ) (featsM8 t) fullShare ((dat8 V c).before 1 t d))
    ∗ (∃ d, owns (c : Thread nD τ) (outM8 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in
/-- The body at any point. Which case the point is in is read off its position; the inputs' buffers hold their
    blocks; the accumulator enters at the previous point's sum (at anything at the first point) and leaves at this
    point's; away from the last point the output's buffer is handed back untouched, at the last point it leaves
    at the stored pieces. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiAt8 V c (t.val + 1) t.isLt from rfl, PhiAt8_succ]
  rw [show (dat8 V c).leavesExact 0 t = owns (c : Thread nD τ) (idsM8 t) fullShare ((dat8 V c).after 0 t) from by
    unfold Dat.leavesExact; rw [inLive8_0 t], after8_0]
  rw [show (dat8 V c).leavesExact 1 t = owns (c : Thread nD τ) (featsM8 t) fullShare ((dat8 V c).after 1 t) from by
    unfold Dat.leavesExact; rw [inLive8_1 t], after8_1]
  have hN : t.val < 25 := lt_of_lt_of_eq t.isLt (show cfg8.N = 25 from N_8)
  by_cases hz : t.val = 0
  · have hl : ¬ t.val = 24 := by omega
    have hnl : ¬isLast8 (grid8.coords t) := fun h => hl ((isLast8_iff t).mp h)
    rw [Dat.leavesExact_idle (dat8 V c) 2 t (outIdle8 t hnl) (outKept8 t hnl)]
    rw [accAt8_first V c t hz]
    rw [Phi8_castSucc V c t, PhiAt8_zero V c _ _ hz, PhiA8_split]
    iintro ⟨⟨⟨HS, Hrest⟩, Hg⟩, Ho, ⟨%d0, H0⟩, ⟨%d1, H1⟩, ⟨%d2, H2⟩⟩
    iapply ((runFirst8 c (grid8.coords t) _ _ _ _ _ _ _ _ ((isFirst8_iff t).mpr hz) hnl (blk8 V c 0 t) (blk8 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hrest Hg]
    · isplitl [HS Hrest]
      · isplitl [HS]
        · unfold owns; iexists _; isplitr
          swap; · iexact HS
          ipureintro; exact View.read_writes_of_cover _ _ _ _ _ (coverFirst8 c _ _ _ _ _ _ _ _ _ _ _ _ _)
        iexact Hrest
      iexact Hg
    isplitl [Ho]; · iexact Ho
    isplitl [H0]; · iexact H0
    isplitl [H1]; · iexact H1
    iexists _; iexact H2
  · by_cases hl : t.val = 24
    · have hil : isLast8 (grid8.coords t) := (isLast8_iff t).mpr hl
      rw [show (dat8 V c).leavesExact 2 t = owns (c : Thread nD τ) (outM8 t) fullShare ((dat8 V c).after 2 t) from by
        unfold Dat.leavesExact; rw [outLive8 t hil], after8_2]
      rw [accAt8_last V c t hz hl, outAt8_last V c t hz hl]
      rw [Phi8_castSucc V c t, PhiAt8_pos V c _ _ hz]
      iintro ⟨⟨⟨HS, Hrest⟩, Hg⟩, Ho, ⟨%d0, H0⟩, ⟨%d1, H1⟩, ⟨%d2, H2⟩⟩
      iapply ((runLast8 c (grid8.coords t) _ _ _ _ _ _ _ _ (fun h => hz ((isFirst8_iff t).mp h)) hil (blk8 V c 0 t) (blk8 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (coverLastAcc8 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut8 c _ _ _ _ _ _ _ _ _ _ _ _ _ _)
    · have hnl : ¬isLast8 (grid8.coords t) := fun h => hl ((isLast8_iff t).mp h)
      rw [Dat.leavesExact_idle (dat8 V c) 2 t (outIdle8 t hnl) (outKept8 t hnl)]
      rw [accAt8_mid V c t hz hl]
      rw [Phi8_castSucc V c t, PhiAt8_pos V c _ _ hz]
      iintro ⟨⟨⟨HS, Hrest⟩, Hg⟩, Ho, ⟨%d0, H0⟩, ⟨%d1, H1⟩, ⟨%d2, H2⟩⟩
      iapply ((runMid8 c (grid8.coords t) _ _ _ _ _ _ _ _ (fun h => hz ((isFirst8_iff t).mp h)) hnl (blk8 V c 0 t) (blk8 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (coverMid8 c _ _ _ _ _ _ _ _ _ _ _ _ _ _)
          iexact Hrest
        iexact Hg
      isplitl [Ho]; · iexact Ho
      isplitl [H0]; · iexact H0
      isplitl [H1]; · iexact H1
      iexists _; iexact H2

/-- The body obligation of the region's proof data, at every point. -/
theorem body_obligation8 (c : Dev nD) : BodyObligation (dat8 (F := F) V c) (defs₀ (F := F)) Variants.none () Set.univ := fun t => by
  rw [bigSep_W8, bigSep_W8]
  exact sound_body8 V c t

/-- The invariant's two ends: it starts as the class invariant and gives it back (the running sum forgotten). -/
theorem Phi8_in (c : Dev nD) : Pipeline.ΦA spec8 c ⊢ (dat8 V c).Φ 0 := by
  rw [show (dat8 V c).Φ 0 = PhiAt8 V c 0 (Nat.zero_le _) from rfl, PhiAt8_zero V c 0 _ rfl]
  try exact Idealize.SL.BI.Entails.refl _
theorem Phi8_out (c : Dev nD) : (dat8 V c).Φ (Fin.last cfg8.N) ⊢ Pipeline.ΦA spec8 c := by
  rw [show (dat8 V c).Φ (Fin.last cfg8.N) = PhiAt8 V c (Fin.last cfg8.N).val (Nat.le_of_lt_succ (Fin.last cfg8.N).isLt) from rfl,
    PhiAt8_pos V c _ _ (by rw [Fin.val_last]; have : cfg8.N = 25 := N_8; omega), PhiA8_split]
  iintro ⟨⟨HS, Hrest⟩, Hg⟩
  isplitl [HS Hrest]
  · isplitl [HS]; · iexists _; iexact HS
    iexact Hrest
  iexact Hg

end Region

end Cert.KernelIdeal.Hand

end
-- ==== Proof.Mlp9.lean ====
/- The class-A half of custom_call 9 (`cc9__mlp_kernel`), at a parameter `V`: the TensorCore's buffer contents
   when the region is entered. Each window's block at a point, what the body leaves in the output window's buffer as
   the canon of its one store over the payload of the loaded blocks, the body's triple, the proof data of the
   pipeline and its body obligation at every point. -/
import proofs.«170580_j11665131176635_1_alg».proof.Proof.KernelIdealLaunchP
import proofs.«170580_j11665131176635_1_alg».proof.Proof.Gen.KernelIdeal.Skeleton
import proofs.«170580_j11665131176635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes recurses once per coordinate
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether or not the pipeline fetched it
    there, for any proof data whose array is `V`'s (`hA`) and whose body leaves the block in place (`hafter`):
    where it was not fetched the block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether or not the pipeline fetched it
    there, for any proof data whose array is `V`'s (`hA`) and whose body leaves the block in place (`hafter`):
    where it was not fetched the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether or not the pipeline fetched it
    there, for any proof data whose array is `V`'s (`hA`) and whose body leaves the block in place (`hafter`):
    where it was not fetched the block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, whether or not the pipeline fetched it
    there, for any proof data whose array is `V`'s (`hA`) and whose body leaves the block in place (`hafter`):
    where it was not fetched the block index has not moved. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, whether or not the pipeline fetched it
    there, for any proof data whose array is `V`'s (`hA`) and whose body leaves the block in place (`hafter`):
    where it was not fetched the block index has not moved. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_S128x128 : Rect S128x128 := Rect.unit (s := S128x128) ![0, 0] S128x128.size inb_S128x128_S128x128_0_0
abbrev r9_S1x128 : Rect S1x128 := Rect.unit (s := S1x128) ![0, 0] S1x128.size inb_S1x128_S1x128_0_0
abbrev r9_S128x40 : Rect S128x40 := Rect.unit (s := S128x40) ![0, 0] S128x40.size inb_S128x40_S128x40_0_0
abbrev r9_S1x40 : Rect S1x40 := Rect.unit (s := S1x40) ![0, 0] S1x40.size inb_S1x40_S1x40_0_0

/-! ## What the body leaves in the output window's buffer -/

/-- Window 5's staging buffer after the body, from the input windows' blocks: its one store, whole, of the
    payload of the loaded blocks. -/
def out9_5 (x0 : Vec F S128x128 .f32) (x1 : Vec F S128x128 .f32) (x2 : Vec F S1x128 .f32) (x3 : Vec F S128x40 .f32) (x4 : Vec F S1x40 .f32) : Vec F S128x40 .f32 :=
  View.canon [⟨r9_S128x40, k9_pay1 (View.ld x0 r9_S128x128) (View.ld x1 r9_S128x128) (View.ld x2 r9_S1x128) (View.ld x3 r9_S128x40) (View.ld x4 r9_S1x40)⟩]

/-- The one store is of the whole buffer, so it covers it. -/
theorem cover9_5 (p0 : Vec F S128x40 .f32) (y : S128x40.Idx) :
    ∃ pc ∈ ([⟨r9_S128x40, p0⟩] : List (View.Piece (Elt F) S128x40 .f32)), y ∈ pc.1.set :=
  View.cover_of_tiled [⟨r9_S128x40, p0⟩] S128x40.size (by rfl) y

/-! ## The body's triple -/

set_option maxHeartbeats 4000000 in
/-- The kernel body on whole staging memrefs, the inputs' at read contents `xW` and the output's at anything, runs to
    the continuation holding the inputs' as they were and the output's at `out9_5` of the inputs'. -/
theorem sound_kernel9 (c : Dev nD) (E : Set ℕ) (i : grid9.Coords) (arg1 : Memref sig .tc .vmem S128x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x40 .f32) (harg4 : arg4.IsWhole) (arg5 : Memref sig .tc .vmem S1x40 .f32) (harg5 : arg5.IsWhole) (arg6 : Memref sig .tc .vmem S128x40 .f32) (harg6 : arg6.IsWhole)
    (x0 : Vec F S128x128 .f32) (x1 : Vec F S128x128 .f32) (x2 : Vec F S1x128 .f32) (x3 : Vec F S128x40 .f32) (x4 : Vec F S1x40 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__mlp_kernel i arg1 harg1 arg2 harg2 arg3 harg3 arg4 harg4 arg5 harg5 arg6 harg6) K := by
  simp only [cc9__mlp_kernel_eq_skeleton]; unfold cc9__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at
    point `t` each input's buffer at its block and the output's at `out9_5` of the input blocks; the invariant
    the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KRun.lean ====
/-
  The whole program as a list of segments: eleven stretches of host operations and ten kernel regions between them.
  The contents of the core's unscoped buffers are followed through the list as a fold: W0 is the launch memory,
  each host stretch maps the contents by its operations, each region replaces the arrays of its windows by what
  its pipeline leaves there (an input array as it was, the output array with every written-back block in place)
  and keeps every other buffer.  Every weakly fair execution of the program terminates with every unscoped buffer
  at the last contents W21; the program's arguments are among the buffers no segment changes.
-/
import proofs.«170580_j11665131176635_1_alg».proof.Proof.Pool0
import proofs.«170580_j11665131176635_1_alg».proof.Proof.Pool1
import proofs.«170580_j11665131176635_1_alg».proof.Proof.Pool2
import proofs.«170580_j11665131176635_1_alg».proof.Proof.Comb3
import proofs.«170580_j11665131176635_1_alg».proof.Proof.Pool4
import proofs.«170580_j11665131176635_1_alg».proof.Proof.Comb5
import proofs.«170580_j11665131176635_1_alg».proof.Proof.Pool6
import proofs.«170580_j11665131176635_1_alg».proof.Proof.Comb7
import proofs.«170580_j11665131176635_1_alg».proof.Proof.Pool8
import proofs.«170580_j11665131176635_1_alg».proof.Proof.Mlp9
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each segment boundary -/

/-- At launch. -/
abbrev W0 : Dev nD → Valuation τ sig (Elt F) := fun c b => m (c, b)
/-- After host stretch 0: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitArr0 (c : Dev nD) (w : Fin cfg0.W) : (dat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After host stretch 1: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After host stretch 2: region 2's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem exitArr2 (c : Dev nD) (w : Fin cfg2.W) : (dat2 (V5 m) c).arrAt w cfg2.N = V6 m c (Pipeline.arrRef spec2 w) :=
  (W6_arr m c w).symm
theorem exitRest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After host stretch 3: region 3's entry. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem exitArr3 (c : Dev nD) (w : Fin cfg3.W) : (dat3 (V7 m) c).arrAt w cfg3.N = V8 m c (Pipeline.arrRef spec3 w) :=
  (W8_arr m c w).symm
theorem exitRest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After host stretch 4: region 4's entry. -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit: its windows' arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem exitArr4 (c : Dev nD) (w : Fin cfg4.W) : (dat4 (V9 m) c).arrAt w cfg4.N = V10 m c (Pipeline.arrRef spec4 w) :=
  (W10_arr m c w).symm
theorem exitRest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After host stretch 5: region 5's entry. -/
abbrev W11 : Dev nD → Valuation τ sig (Elt F) := fun c => StableHlo.after hostOps5 (W10 m c)
abbrev V11 : (c : Dev nD) → (b : Ref sig .tc) → Buf (Elt F) ((c : Thread nD τ).loc b) := fun c b => W11 m c b
/-- At region 5's exit: its windows' arrays at what the pipeline leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem exitArr5 (c : Dev nD) (w : Fin cfg5.W) : (dat5 (V11 m) c).arrAt w cfg5.N = V12 m c (Pipeline.arrRef spec5 w) :=
  (W12_arr m c w).symm
theorem exitRest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After host stretch 6: region 6's entry. -/
abbrev W13 : Dev nD → Valuation τ sig (Elt F) := fun c => StableHlo.after hostOps6 (W12 m c)
abbrev V13 : (c : Dev nD) → (b : Ref sig .tc) → Buf (Elt F) ((c : Thread nD τ).loc b) := fun c b => W13 m c b
/-- At region 6's exit: its windows' arrays at what the pipeline leaves, every other buffer as entered. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev V14 : (c : Dev nD) → (b : Ref sig .tc) → Buf (Elt F) ((c : Thread nD τ).loc b) := fun c b => W14 m c b
theorem exitArr6 (c : Dev nD) (w : Fin cfg6.W) : (dat6 (V13 m) c).arrAt w cfg6.N = V14 m c (Pipeline.arrRef spec6 w) :=
  (W14_arr m c w).symm
theorem exitRest6 (c : Dev nD) : ∀ b, b ∉ Finset.univ.image (Pipeline.arrRef spec6) → V14 m c b = V13 m c b :=
  fun b hb => W14_of_ne m c b fun w e => hb (Finset.mem_image.mpr ⟨w, Finset.mem_univ _, e⟩)
/-- After host stretch 7: region 7's entry. -/
abbrev W15 : Dev nD → Valuation τ sig (Elt F) := fun c => StableHlo.after hostOps7 (W14 m c)
abbrev V15 : (c : Dev nD) → (b : Ref sig .tc) → Buf (Elt F) ((c : Thread nD τ).loc b) := fun c b => W15 m c b
/-- At region 7's exit: its windows' arrays at what the pipeline leaves, every other buffer as entered. -/
def W16 (c : Dev nD) : Valuation τ sig (Elt F) :=
  Pipeline.withArrays spec7 c (W15 m c) fun w => (dat7 (V15 m) c).arrAt w cfg7.N
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev V16 : (c : Dev nD) → (b : Ref sig .tc) → Buf (Elt F) ((c : Thread nD τ).loc b) := fun c b => W16 m c b
theorem exitArr7 (c : Dev nD) (w : Fin cfg7.W) : (dat7 (V15 m) c).arrAt w cfg7.N = V16 m c (Pipeline.arrRef spec7 w) :=
  (W16_arr m c w).symm
theorem exitRest7 (c : Dev nD) : ∀ b, b ∉ Finset.univ.image (Pipeline.arrRef spec7) → V16 m c b = V15 m c b :=
  fun b hb => W16_of_ne m c b fun w e => hb (Finset.mem_image.mpr ⟨w, Finset.mem_univ _, e⟩)
/-- After host stretch 8: region 8's entry. -/
abbrev W17 : Dev nD → Valuation τ sig (Elt F) := fun c => StableHlo.after hostOps8 (W16 m c)
abbrev V17 : (c : Dev nD) → (b : Ref sig .tc) → Buf (Elt F) ((c : Thread nD τ).loc b) := fun c b => W17 m c b
/-- At region 8's exit: its windows' arrays at what the pipeline leaves, every other buffer as entered. -/
def W18 (c : Dev nD) : Valuation τ sig (Elt F) :=
  Pipeline.withArrays spec8 c (W17 m c) fun w => (dat8 (V17 m) c).arrAt w cfg8.N
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev V18 : (c : Dev nD) → (b : Ref sig .tc) → Buf (Elt F) ((c : Thread nD τ).loc b) := fun c b => W18 m c b
theorem exitArr8 (c : Dev nD) (w : Fin cfg8.W) : (dat8 (V17 m) c).arrAt w cfg8.N = V18 m c (Pipeline.arrRef spec8 w) :=
  (W18_arr m c w).symm
theorem exitRest8 (c : Dev nD) : ∀ b, b ∉ Finset.univ.image (Pipeline.arrRef spec8) → V18 m c b = V17 m c b :=
  fun b hb => W18_of_ne m c b fun w e => hb (Finset.mem_image.mpr ⟨w, Finset.mem_univ _, e⟩)
/-- After host stretch 9: region 9's entry. -/
abbrev W19 : Dev nD → Valuation τ sig (Elt F) := fun c => StableHlo.after hostOps9 (W18 m c)
abbrev V19 : (c : Dev nD) → (b : Ref sig .tc) → Buf (Elt F) ((c : Thread nD τ).loc b) := fun c b => W19 m c b
/-- At region 9's exit: its windows' arrays at what the pipeline leaves, every other buffer as entered. -/
def W20 (c : Dev nD) : Valuation τ sig (Elt F) :=
  Pipeline.withArrays spec9 c (W19 m c) fun w => (dat9 (V19 m) c).arrAt w cfg9.N
theorem W20_arr (c : Dev nD) (w : Fin cfg9.W) :
    W20 m c (Proc.devRef .tc (Pipeline.arrRef spec9 w)) = (dat9 (V19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev V20 : (c : Dev nD) → (b : Ref sig .tc) → Buf (Elt F) ((c : Thread nD τ).loc b) := fun c b => W20 m c b
theorem exitArr9 (c : Dev nD) (w : Fin cfg9.W) : (dat9 (V19 m) c).arrAt w cfg9.N = V20 m c (Pipeline.arrRef spec9 w) :=
  (W20_arr m c w).symm
theorem exitRest9 (c : Dev nD) : ∀ b, b ∉ Finset.univ.image (Pipeline.arrRef spec9) → V20 m c b = V19 m c b :=
  fun b hb => W20_of_ne m c b fun w e => hb (Finset.mem_image.mpr ⟨w, Finset.mem_univ _, e⟩)
/-- After the last host stretch. -/
abbrev W21 : Dev nD → Valuation τ sig (Elt F) := fun c => StableHlo.after hostOps10 (W20 m c)

/-! ## The proof data family and the thread state -/

abbrev adm : (p : Fin 10) → (pcfgs (F := F) p).Adm := fun p => (cfgs p).toPCfg_adm
/-- Every region's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
  | ⟨9, _⟩ => fun c => dat9 (V19 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem noAlloc0 : (hostOps0 : List (HloOp τ sig (Elt F))).Forall fun op => op.fresh = ∅ := by
  simp only [List.Forall]; repeat' constructor
theorem noAlloc1 : (hostOps1 : List (HloOp τ sig (Elt F))).Forall fun op => op.fresh = ∅ := by
  simp only [List.Forall]; repeat' constructor
theorem noAlloc2 : (hostOps2 : List (HloOp τ sig (Elt F))).Forall fun op => op.fresh = ∅ := by
  simp only [List.Forall]; repeat' constructor
theorem noAlloc3 : (hostOps3 : List (HloOp τ sig (Elt F))).Forall fun op => op.fresh = ∅ := by
  simp only [List.Forall]; repeat' constructor
theorem noAlloc4 : (hostOps4 : List (HloOp τ sig (Elt F))).Forall fun op => op.fresh = ∅ := by
  simp only [List.Forall]; repeat' constructor
theorem noAlloc5 : (hostOps5 : List (HloOp τ sig (Elt F))).Forall fun op => op.fresh = ∅ := by
  simp only [List.Forall]; repeat' constructor
theorem noAlloc6 : (hostOps6 : List (HloOp τ sig (Elt F))).Forall fun op => op.fresh = ∅ := by
  simp only [List.Forall]; repeat' constructor
theorem noAlloc7 : (hostOps7 : List (HloOp τ sig (Elt F))).Forall fun op => op.fresh = ∅ := by
  simp only [List.Forall]; repeat' constructor
theorem noAlloc8 : (hostOps8 : List (HloOp τ sig (Elt F))).Forall fun op => op.fresh = ∅ := by
  simp only [List.Forall]; repeat' constructor
theorem noAlloc9 : (hostOps9 : List (HloOp τ sig (Elt F))).Forall fun op => op.fresh = ∅ := by
  simp only [List.Forall]; repeat' constructor
theorem noAlloc10 : (hostOps10 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W21 m c) ∗ ∃ r, prngReg c r)

/-! ## The regions as segments -/

set_option backward.isDefEq.respectTransparency.types false in
/-- Region 0: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    have h := Phi0_in (F := F) (V1 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (V1 m) c).Φ (Fin.last cfg0.N) from rfl]
    have h := Phi0_out (F := F) (V1 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := Phi1_in (F := F) (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := Phi1_out (F := F) (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    have h := Phi2_in (F := F) (V5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V5 m) c).Φ (Fin.last cfg2.N) from rfl]
    have h := Phi2_out (F := F) (V5 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W9, left at W10. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V9 m) c).Φ 0 from rfl]
    have h := Phi4_in (F := F) (V9 m) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (V9 m) c).Φ (Fin.last cfg4.N) from rfl]
    have h := Phi4_out (F := F) (V9 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W11, left at W12. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at W13, left at W14. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (V13 m) c).Φ 0 from rfl]
    have h := Phi6_in (F := F) (V13 m) c
    unfold Pipeline.ΦA at h
    iintro ⟨Hp, -, Hr⟩
    iapply h
    isplitl [Hr]; · iexact Hr
    iexact Hp
  hout c := by
    rw [Pipeline.ownSems0_none, show (pdats m 6 c).Φ (Fin.last _) = (dat6 (V13 m) c).Φ (Fin.last cfg6.N) from rfl]
    have h := Phi6_out (F := F) (V13 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at W15, left at W16. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V15 m c) (V16 m c) ((pdats m 7 c).arrAt · cfg7.N) (exitArr7 m c) (exitRest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at W17, left at W18. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (V17 m) c).Φ 0 from rfl]
    have h := Phi8_in (F := F) (V17 m) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (V17 m) c).Φ (Fin.last cfg8.N) from rfl]
    have h := Phi8_out (F := F) (V17 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V17 m c) (V18 m c) ((pdats m 8 c).arrAt · cfg8.N) (exitArr8 m c) (exitRest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at W19, left at W20. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (V19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V19 m c) (V20 m c) ((pdats m 9 c).arrAt · cfg9.N) (exitArr9 m c) (exitRest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub noAlloc0 (W0 m)),
    .region (reg0 m),
    .host (hseg hostOps1 hostOps1_sub noAlloc1 (W2 m)),
    .region (reg1 m),
    .host (hseg hostOps2 hostOps2_sub noAlloc2 (W4 m)),
    .region (reg2 m),
    .host (hseg hostOps3 hostOps3_sub noAlloc3 (W6 m)),
    .region (reg3 m),
    .host (hseg hostOps4 hostOps4_sub noAlloc4 (W8 m)),
    .region (reg4 m),
    .host (hseg hostOps5 hostOps5_sub noAlloc5 (W10 m)),
    .region (reg5 m),
    .host (hseg hostOps6 hostOps6_sub noAlloc6 (W12 m)),
    .region (reg6 m),
    .host (hseg hostOps7 hostOps7_sub noAlloc7 (W14 m)),
    .region (reg7 m),
    .host (hseg hostOps8 hostOps8_sub noAlloc8 (W16 m)),
    .region (reg8 m),
    .host (hseg hostOps9 hostOps9_sub noAlloc9 (W18 m)),
    .region (reg9 m),
    .host (hseg hostOps10 hostOps10_sub noAlloc10 (W20 m)) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final memory has every unscoped buffer at the last contents W21. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W21 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h => h)

end Cert.KernelIdeal.Hand

end
-- ==== Proof.KFrame.lean ====
/-
  The arguments reach the end as launched. No host operation writes an argument, and a region either reads an
  argument through an input window (whose array the pipeline leaves as it found it) or does not touch it; so the
  fold of the buffers' contents, read at an argument, walks back to the launch memory. With the run of the whole
  program this gives the frame: every execution terminates and leaves every argument array unchanged, and the
  result buffer at the last contents of the fold.
-/
import proofs.«170580_j11665131176635_1_alg».proof.Proof.KRun
import proofs.«170580_j11665131176635_1_alg».proof.Proof.KernelIdealRegionsP

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem kept_arg0 (c : Dev nD) : W21 m c (Proc.devRef .tc main_arg0) = m ((c : Thread nD τ).loc main_arg0) :=
  calc W21 m c (Proc.devRef .tc main_arg0)
    _ = W20 m c (Proc.devRef .tc main_arg0) := StableHlo.after_of_writes_sub GenP.hostOps10 _ GenP.hostOps10_writes (by decide)
    _ = W19 m c (Proc.devRef .tc main_arg0) := W20_of_ne m c main_arg0 (by decide)
    _ = W18 m c (Proc.devRef .tc main_arg0) := StableHlo.after_of_writes_sub GenP.hostOps9 _ GenP.hostOps9_writes (by decide)
    _ = W17 m c (Proc.devRef .tc main_arg0) := W18_of_ne m c main_arg0 (by decide)
    _ = W16 m c (Proc.devRef .tc main_arg0) := StableHlo.after_of_writes_sub GenP.hostOps8 _ GenP.hostOps8_writes (by decide)
    _ = W15 m c (Proc.devRef .tc main_arg0) := W16_of_ne m c main_arg0 (by decide)
    _ = W14 m c (Proc.devRef .tc main_arg0) := StableHlo.after_of_writes_sub GenP.hostOps7 _ GenP.hostOps7_writes (by decide)
    _ = W13 m c (Proc.devRef .tc main_arg0) := W14_of_ne m c main_arg0 (by decide)
    _ = W12 m c (Proc.devRef .tc main_arg0) := StableHlo.after_of_writes_sub GenP.hostOps6 _ GenP.hostOps6_writes (by decide)
    _ = W11 m c (Proc.devRef .tc main_arg0) := W12_of_ne m c main_arg0 (by decide)
    _ = W10 m c (Proc.devRef .tc main_arg0) := StableHlo.after_of_writes_sub GenP.hostOps5 _ GenP.hostOps5_writes (by decide)
    _ = W9 m c (Proc.devRef .tc main_arg0) := W10_of_ne m c main_arg0 (by decide)
    _ = W8 m c (Proc.devRef .tc main_arg0) := StableHlo.after_of_writes_sub GenP.hostOps4 _ GenP.hostOps4_writes (by decide)
    _ = W7 m c (Proc.devRef .tc main_arg0) := (W8_arr m c 0).trans (((dat3 (V7 m) c).arrAt_in 0 rfl _).trans (A_eq3 (V7 m) c 0))
    _ = W6 m c (Proc.devRef .tc main_arg0) := StableHlo.after_of_writes_sub GenP.hostOps3 _ GenP.hostOps3_writes (by decide)
    _ = W5 m c (Proc.devRef .tc main_arg0) := (W6_arr m c 1).trans (((dat2 (V5 m) c).arrAt_in 1 rfl _).trans (A_eq2 (V5 m) c 1))
    _ = W4 m c (Proc.devRef .tc main_arg0) := StableHlo.after_of_writes_sub GenP.hostOps2 _ GenP.hostOps2_writes (by decide)
    _ = W3 m c (Proc.devRef .tc main_arg0) := W4_of_ne m c main_arg0 (by decide)
    _ = W2 m c (Proc.devRef .tc main_arg0) := StableHlo.after_of_writes_sub GenP.hostOps1 _ GenP.hostOps1_writes (by decide)
    _ = W1 m c (Proc.devRef .tc main_arg0) := W2_of_ne m c main_arg0 (by decide)
    _ = W0 m c (Proc.devRef .tc main_arg0) := StableHlo.after_of_writes_sub GenP.hostOps0 _ GenP.hostOps0_writes (by decide)
    _ = m ((c : Thread nD τ).loc main_arg0) := rfl

theorem kept_arg1 (c : Dev nD) : W21 m c (Proc.devRef .tc main_arg1) = m ((c : Thread nD τ).loc main_arg1) :=
  calc W21 m c (Proc.devRef .tc main_arg1)
    _ = W20 m c (Proc.devRef .tc main_arg1) := StableHlo.after_of_writes_sub GenP.hostOps10 _ GenP.hostOps10_writes (by decide)
    _ = W19 m c (Proc.devRef .tc main_arg1) := W20_of_ne m c main_arg1 (by decide)
    _ = W18 m c (Proc.devRef .tc main_arg1) := StableHlo.after_of_writes_sub GenP.hostOps9 _ GenP.hostOps9_writes (by decide)
    _ = W17 m c (Proc.devRef .tc main_arg1) := W18_of_ne m c main_arg1 (by decide)
    _ = W16 m c (Proc.devRef .tc main_arg1) := StableHlo.after_of_writes_sub GenP.hostOps8 _ GenP.hostOps8_writes (by decide)
    _ = W15 m c (Proc.devRef .tc main_arg1) := W16_of_ne m c main_arg1 (by decide)
    _ = W14 m c (Proc.devRef .tc main_arg1) := StableHlo.after_of_writes_sub GenP.hostOps7 _ GenP.hostOps7_writes (by decide)
    _ = W13 m c (Proc.devRef .tc main_arg1) := W14_of_ne m c main_arg1 (by decide)
    _ = W12 m c (Proc.devRef .tc main_arg1) := StableHlo.after_of_writes_sub GenP.hostOps6 _ GenP.hostOps6_writes (by decide)
    _ = W11 m c (Proc.devRef .tc main_arg1) := W12_of_ne m c main_arg1 (by decide)
    _ = W10 m c (Proc.devRef .tc main_arg1) := StableHlo.after_of_writes_sub GenP.hostOps5 _ GenP.hostOps5_writes (by decide)
    _ = W9 m c (Proc.devRef .tc main_arg1) := W10_of_ne m c main_arg1 (by decide)
    _ = W8 m c (Proc.devRef .tc main_arg1) := StableHlo.after_of_writes_sub GenP.hostOps4 _ GenP.hostOps4_writes (by decide)
    _ = W7 m c (Proc.devRef .tc main_arg1) := W8_of_ne m c main_arg1 (by decide)
    _ = W6 m c (Proc.devRef .tc main_arg1) := StableHlo.after_of_writes_sub GenP.hostOps3 _ GenP.hostOps3_writes (by decide)
    _ = W5 m c (Proc.devRef .tc main_arg1) := W6_of_ne m c main_arg1 (by decide)
    _ = W4 m c (Proc.devRef .tc main_arg1) := StableHlo.after_of_writes_sub GenP.hostOps2 _ GenP.hostOps2_writes (by decide)
    _ = W3 m c (Proc.devRef .tc main_arg1) := W4_of_ne m c main_arg1 (by decide)
    _ = W2 m c (Proc.devRef .tc main_arg1) := StableHlo.after_of_writes_sub GenP.hostOps1 _ GenP.hostOps1_writes (by decide)
    _ = W1 m c (Proc.devRef .tc main_arg1) := W2_of_ne m c main_arg1 (by decide)
    _ = W0 m c (Proc.devRef .tc main_arg1) := StableHlo.after_of_writes_sub GenP.hostOps0 _ GenP.hostOps0_writes (by decide)
    _ = m ((c : Thread nD τ).loc main_arg1) := rfl

theorem kept_arg2 (c : Dev nD) : W21 m c (Proc.devRef .tc main_arg2) = m ((c : Thread nD τ).loc main_arg2) :=
  calc W21 m c (Proc.devRef .tc main_arg2)
    _ = W20 m c (Proc.devRef .tc main_arg2) := StableHlo.after_of_writes_sub GenP.hostOps10 _ GenP.hostOps10_writes (by decide)
    _ = W19 m c (Proc.devRef .tc main_arg2) := W20_of_ne m c main_arg2 (by decide)
    _ = W18 m c (Proc.devRef .tc main_arg2) := StableHlo.after_of_writes_sub GenP.hostOps9 _ GenP.hostOps9_writes (by decide)
    _ = W17 m c (Proc.devRef .tc main_arg2) := W18_of_ne m c main_arg2 (by decide)
    _ = W16 m c (Proc.devRef .tc main_arg2) := StableHlo.after_of_writes_sub GenP.hostOps8 _ GenP.hostOps8_writes (by decide)
    _ = W15 m c (Proc.devRef .tc main_arg2) := W16_of_ne m c main_arg2 (by decide)
    _ = W14 m c (Proc.devRef .tc main_arg2) := StableHlo.after_of_writes_sub GenP.hostOps7 _ GenP.hostOps7_writes (by decide)
    _ = W13 m c (Proc.devRef .tc main_arg2) := W14_of_ne m c main_arg2 (by decide)
    _ = W12 m c (Proc.devRef .tc main_arg2) := StableHlo.after_of_writes_sub GenP.hostOps6 _ GenP.hostOps6_writes (by decide)
    _ = W11 m c (Proc.devRef .tc main_arg2) := W12_of_ne m c main_arg2 (by decide)
    _ = W10 m c (Proc.devRef .tc main_arg2) := StableHlo.after_of_writes_sub GenP.hostOps5 _ GenP.hostOps5_writes (by decide)
    _ = W9 m c (Proc.devRef .tc main_arg2) := W10_of_ne m c main_arg2 (by decide)
    _ = W8 m c (Proc.devRef .tc main_arg2) := StableHlo.after_of_writes_sub GenP.hostOps4 _ GenP.hostOps4_writes (by decide)
    _ = W7 m c (Proc.devRef .tc main_arg2) := W8_of_ne m c main_arg2 (by decide)
    _ = W6 m c (Proc.devRef .tc main_arg2) := StableHlo.after_of_writes_sub GenP.hostOps3 _ GenP.hostOps3_writes (by decide)
    _ = W5 m c (Proc.devRef .tc main_arg2) := W6_of_ne m c main_arg2 (by decide)
    _ = W4 m c (Proc.devRef .tc main_arg2) := StableHlo.after_of_writes_sub GenP.hostOps2 _ GenP.hostOps2_writes (by decide)
    _ = W3 m c (Proc.devRef .tc main_arg2) := W4_of_ne m c main_arg2 (by decide)
    _ = W2 m c (Proc.devRef .tc main_arg2) := StableHlo.after_of_writes_sub GenP.hostOps1 _ GenP.hostOps1_writes (by decide)
    _ = W1 m c (Proc.devRef .tc main_arg2) := W2_of_ne m c main_arg2 (by decide)
    _ = W0 m c (Proc.devRef .tc main_arg2) := StableHlo.after_of_writes_sub GenP.hostOps0 _ GenP.hostOps0_writes (by decide)
    _ = m ((c : Thread nD τ).loc main_arg2) := rfl

theorem kept_arg3 (c : Dev nD) : W21 m c (Proc.devRef .tc main_arg3) = m ((c : Thread nD τ).loc main_arg3) :=
  calc W21 m c (Proc.devRef .tc main_arg3)
    _ = W20 m c (Proc.devRef .tc main_arg3) := StableHlo.after_of_writes_sub GenP.hostOps10 _ GenP.hostOps10_writes (by decide)
    _ = W19 m c (Proc.devRef .tc main_arg3) := W20_of_ne m c main_arg3 (by decide)
    _ = W18 m c (Proc.devRef .tc main_arg3) := StableHlo.after_of_writes_sub GenP.hostOps9 _ GenP.hostOps9_writes (by decide)
    _ = W17 m c (Proc.devRef .tc main_arg3) := W18_of_ne m c main_arg3 (by decide)
    _ = W16 m c (Proc.devRef .tc main_arg3) := StableHlo.after_of_writes_sub GenP.hostOps8 _ GenP.hostOps8_writes (by decide)
    _ = W15 m c (Proc.devRef .tc main_arg3) := W16_of_ne m c main_arg3 (by decide)
    _ = W14 m c (Proc.devRef .tc main_arg3) := StableHlo.after_of_writes_sub GenP.hostOps7 _ GenP.hostOps7_writes (by decide)
    _ = W13 m c (Proc.devRef .tc main_arg3) := W14_of_ne m c main_arg3 (by decide)
    _ = W12 m c (Proc.devRef .tc main_arg3) := StableHlo.after_of_writes_sub GenP.hostOps6 _ GenP.hostOps6_writes (by decide)
    _ = W11 m c (Proc.devRef .tc main_arg3) := W12_of_ne m c main_arg3 (by decide)
    _ = W10 m c (Proc.devRef .tc main_arg3) := StableHlo.after_of_writes_sub GenP.hostOps5 _ GenP.hostOps5_writes (by decide)
    _ = W9 m c (Proc.devRef .tc main_arg3) := W10_of_ne m c main_arg3 (by decide)
    _ = W8 m c (Proc.devRef .tc main_arg3) := StableHlo.after_of_writes_sub GenP.hostOps4 _ GenP.hostOps4_writes (by decide)
    _ = W7 m c (Proc.devRef .tc main_arg3) := W8_of_ne m c main_arg3 (by decide)
    _ = W6 m c (Proc.devRef .tc main_arg3) := StableHlo.after_of_writes_sub GenP.hostOps3 _ GenP.hostOps3_writes (by decide)
    _ = W5 m c (Proc.devRef .tc main_arg3) := W6_of_ne m c main_arg3 (by decide)
    _ = W4 m c (Proc.devRef .tc main_arg3) := StableHlo.after_of_writes_sub GenP.hostOps2 _ GenP.hostOps2_writes (by decide)
    _ = W3 m c (Proc.devRef .tc main_arg3) := W4_of_ne m c main_arg3 (by decide)
    _ = W2 m c (Proc.devRef .tc main_arg3) := StableHlo.after_of_writes_sub GenP.hostOps1 _ GenP.hostOps1_writes (by decide)
    _ = W1 m c (Proc.devRef .tc main_arg3) := W2_of_ne m c main_arg3 (by decide)
    _ = W0 m c (Proc.devRef .tc main_arg3) := StableHlo.after_of_writes_sub GenP.hostOps0 _ GenP.hostOps0_writes (by decide)
    _ = m ((c : Thread nD τ).loc main_arg3) := rfl

theorem kept_arg4 (c : Dev nD) : W21 m c (Proc.devRef .tc main_arg4) = m ((c : Thread nD τ).loc main_arg4) :=
  calc W21 m c (Proc.devRef .tc main_arg4)
    _ = W20 m c (Proc.devRef .tc main_arg4) := StableHlo.after_of_writes_sub GenP.hostOps10 _ GenP.hostOps10_writes (by decide)
    _ = W19 m c (Proc.devRef .tc main_arg4) := W20_of_ne m c main_arg4 (by decide)
    _ = W18 m c (Proc.devRef .tc main_arg4) := StableHlo.after_of_writes_sub GenP.hostOps9 _ GenP.hostOps9_writes (by decide)
    _ = W17 m c (Proc.devRef .tc main_arg4) := W18_of_ne m c main_arg4 (by decide)
    _ = W16 m c (Proc.devRef .tc main_arg4) := StableHlo.after_of_writes_sub GenP.hostOps8 _ GenP.hostOps8_writes (by decide)
    _ = W15 m c (Proc.devRef .tc main_arg4) := W16_of_ne m c main_arg4 (by decide)
    _ = W14 m c (Proc.devRef .tc main_arg4) := StableHlo.after_of_writes_sub GenP.hostOps7 _ GenP.hostOps7_writes (by decide)
    _ = W13 m c (Proc.devRef .tc main_arg4) := W14_of_ne m c main_arg4 (by decide)
    _ = W12 m c (Proc.devRef .tc main_arg4) := StableHlo.after_of_writes_sub GenP.hostOps6 _ GenP.hostOps6_writes (by decide)
    _ = W11 m c (Proc.devRef .tc main_arg4) := W12_of_ne m c main_arg4 (by decide)
    _ = W10 m c (Proc.devRef .tc main_arg4) := StableHlo.after_of_writes_sub GenP.hostOps5 _ GenP.hostOps5_writes (by decide)
    _ = W9 m c (Proc.devRef .tc main_arg4) := W10_of_ne m c main_arg4 (by decide)
    _ = W8 m c (Proc.devRef .tc main_arg4) := StableHlo.after_of_writes_sub GenP.hostOps4 _ GenP.hostOps4_writes (by decide)
    _ = W7 m c (Proc.devRef .tc main_arg4) := W8_of_ne m c main_arg4 (by decide)
    _ = W6 m c (Proc.devRef .tc main_arg4) := StableHlo.after_of_writes_sub GenP.hostOps3 _ GenP.hostOps3_writes (by decide)
    _ = W5 m c (Proc.devRef .tc main_arg4) := W6_of_ne m c main_arg4 (by decide)
    _ = W4 m c (Proc.devRef .tc main_arg4) := StableHlo.after_of_writes_sub GenP.hostOps2 _ GenP.hostOps2_writes (by decide)
    _ = W3 m c (Proc.devRef .tc main_arg4) := W4_of_ne m c main_arg4 (by decide)
    _ = W2 m c (Proc.devRef .tc main_arg4) := StableHlo.after_of_writes_sub GenP.hostOps1 _ GenP.hostOps1_writes (by decide)
    _ = W1 m c (Proc.devRef .tc main_arg4) := (W2_arr m c 1).trans (((dat0 (V1 m) c).arrAt_in 1 rfl _).trans (A_eq0 (V1 m) c 1))
    _ = W0 m c (Proc.devRef .tc main_arg4) := StableHlo.after_of_writes_sub GenP.hostOps0 _ GenP.hostOps0_writes (by decide)
    _ = m ((c : Thread nD τ).loc main_arg4) := rfl

theorem kept_arg5 (c : Dev nD) : W21 m c (Proc.devRef .tc main_arg5) = m ((c : Thread nD τ).loc main_arg5) :=
  calc W21 m c (Proc.devRef .tc main_arg5)
    _ = W20 m c (Proc.devRef .tc main_arg5) := StableHlo.after_of_writes_sub GenP.hostOps10 _ GenP.hostOps10_writes (by decide)
    _ = W19 m c (Proc.devRef .tc main_arg5) := W20_of_ne m c main_arg5 (by decide)
    _ = W18 m c (Proc.devRef .tc main_arg5) := StableHlo.after_of_writes_sub GenP.hostOps9 _ GenP.hostOps9_writes (by decide)
    _ = W17 m c (Proc.devRef .tc main_arg5) := W18_of_ne m c main_arg5 (by decide)
    _ = W16 m c (Proc.devRef .tc main_arg5) := StableHlo.after_of_writes_sub GenP.hostOps8 _ GenP.hostOps8_writes (by decide)
    _ = W15 m c (Proc.devRef .tc main_arg5) := W16_of_ne m c main_arg5 (by decide)
    _ = W14 m c (Proc.devRef .tc main_arg5) := StableHlo.after_of_writes_sub GenP.hostOps7 _ GenP.hostOps7_writes (by decide)
    _ = W13 m c (Proc.devRef .tc main_arg5) := W14_of_ne m c main_arg5 (by decide)
    _ = W12 m c (Proc.devRef .tc main_arg5) := StableHlo.after_of_writes_sub GenP.hostOps6 _ GenP.hostOps6_writes (by decide)
    _ = W11 m c (Proc.devRef .tc main_arg5) := W12_of_ne m c main_arg5 (by decide)
    _ = W10 m c (Proc.devRef .tc main_arg5) := StableHlo.after_of_writes_sub GenP.hostOps5 _ GenP.hostOps5_writes (by decide)
    _ = W9 m c (Proc.devRef .tc main_arg5) := W10_of_ne m c main_arg5 (by decide)
    _ = W8 m c (Proc.devRef .tc main_arg5) := StableHlo.after_of_writes_sub GenP.hostOps4 _ GenP.hostOps4_writes (by decide)
    _ = W7 m c (Proc.devRef .tc main_arg5) := W8_of_ne m c main_arg5 (by decide)
    _ = W6 m c (Proc.devRef .tc main_arg5) := StableHlo.after_of_writes_sub GenP.hostOps3 _ GenP.hostOps3_writes (by decide)
    _ = W5 m c (Proc.devRef .tc main_arg5) := W6_of_ne m c main_arg5 (by decide)
    _ = W4 m c (Proc.devRef .tc main_arg5) := StableHlo.after_of_writes_sub GenP.hostOps2 _ GenP.hostOps2_writes (by decide)
    _ = W3 m c (Proc.devRef .tc main_arg5) := W4_of_ne m c main_arg5 (by decide)
    _ = W2 m c (Proc.devRef .tc main_arg5) := StableHlo.after_of_writes_sub GenP.hostOps1 _ GenP.hostOps1_writes (by decide)
    _ = W1 m c (Proc.devRef .tc main_arg5) := W2_of_ne m c main_arg5 (by decide)
    _ = W0 m c (Proc.devRef .tc main_arg5) := StableHlo.after_of_writes_sub GenP.hostOps0 _ GenP.hostOps0_writes (by decide)
    _ = m ((c : Thread nD τ).loc main_arg5) := rfl

theorem kept_arg6 (c : Dev nD) : W21 m c (Proc.devRef .tc main_arg6) = m ((c : Thread nD τ).loc main_arg6) :=
  calc W21 m c (Proc.devRef .tc main_arg6)
    _ = W20 m c (Proc.devRef .tc main_arg6) := StableHlo.after_of_writes_sub GenP.hostOps10 _ GenP.hostOps10_writes (by decide)
    _ = W19 m c (Proc.devRef .tc main_arg6) := W20_of_ne m c main_arg6 (by decide)
    _ = W18 m c (Proc.devRef .tc main_arg6) := StableHlo.after_of_writes_sub GenP.hostOps9 _ GenP.hostOps9_writes (by decide)
    _ = W17 m c (Proc.devRef .tc main_arg6) := W18_of_ne m c main_arg6 (by decide)
    _ = W16 m c (Proc.devRef .tc main_arg6) := StableHlo.after_of_writes_sub GenP.hostOps8 _ GenP.hostOps8_writes (by decide)
    _ = W15 m c (Proc.devRef .tc main_arg6) := W16_of_ne m c main_arg6 (by decide)
    _ = W14 m c (Proc.devRef .tc main_arg6) := StableHlo.after_of_writes_sub GenP.hostOps7 _ GenP.hostOps7_writes (by decide)
    _ = W13 m c (Proc.devRef .tc main_arg6) := W14_of_ne m c main_arg6 (by decide)
    _ = W12 m c (Proc.devRef .tc main_arg6) := StableHlo.after_of_writes_sub GenP.hostOps6 _ GenP.hostOps6_writes (by decide)
    _ = W11 m c (Proc.devRef .tc main_arg6) := W12_of_ne m c main_arg6 (by decide)
    _ = W10 m c (Proc.devRef .tc main_arg6) := StableHlo.after_of_writes_sub GenP.hostOps5 _ GenP.hostOps5_writes (by decide)
    _ = W9 m c (Proc.devRef .tc main_arg6) := W10_of_ne m c main_arg6 (by decide)
    _ = W8 m c (Proc.devRef .tc main_arg6) := StableHlo.after_of_writes_sub GenP.hostOps4 _ GenP.hostOps4_writes (by decide)
    _ = W7 m c (Proc.devRef .tc main_arg6) := W8_of_ne m c main_arg6 (by decide)
    _ = W6 m c (Proc.devRef .tc main_arg6) := StableHlo.after_of_writes_sub GenP.hostOps3 _ GenP.hostOps3_writes (by decide)
    _ = W5 m c (Proc.devRef .tc main_arg6) := W6_of_ne m c main_arg6 (by decide)
    _ = W4 m c (Proc.devRef .tc main_arg6) := StableHlo.after_of_writes_sub GenP.hostOps2 _ GenP.hostOps2_writes (by decide)
    _ = W3 m c (Proc.devRef .tc main_arg6) := (W4_arr m c 1).trans (((dat1 (V3 m) c).arrAt_in 1 rfl _).trans (A_eq1 (V3 m) c 1))
    _ = W2 m c (Proc.devRef .tc main_arg6) := StableHlo.after_of_writes_sub GenP.hostOps1 _ GenP.hostOps1_writes (by decide)
    _ = W1 m c (Proc.devRef .tc main_arg6) := W2_of_ne m c main_arg6 (by decide)
    _ = W0 m c (Proc.devRef .tc main_arg6) := StableHlo.after_of_writes_sub GenP.hostOps0 _ GenP.hostOps0_writes (by decide)
    _ = m ((c : Thread nD τ).loc main_arg6) := rfl

theorem kept_arg7 (c : Dev nD) : W21 m c (Proc.devRef .tc main_arg7) = m ((c : Thread nD τ).loc main_arg7) :=
  calc W21 m c (Proc.devRef .tc main_arg7)
    _ = W20 m c (Proc.devRef .tc main_arg7) := StableHlo.after_of_writes_sub GenP.hostOps10 _ GenP.hostOps10_writes (by decide)
    _ = W19 m c (Proc.devRef .tc main_arg7) := W20_of_ne m c main_arg7 (by decide)
    _ = W18 m c (Proc.devRef .tc main_arg7) := StableHlo.after_of_writes_sub GenP.hostOps9 _ GenP.hostOps9_writes (by decide)
    _ = W17 m c (Proc.devRef .tc main_arg7) := W18_of_ne m c main_arg7 (by decide)
    _ = W16 m c (Proc.devRef .tc main_arg7) := StableHlo.after_of_writes_sub GenP.hostOps8 _ GenP.hostOps8_writes (by decide)
    _ = W15 m c (Proc.devRef .tc main_arg7) := W16_of_ne m c main_arg7 (by decide)
    _ = W14 m c (Proc.devRef .tc main_arg7) := StableHlo.after_of_writes_sub GenP.hostOps7 _ GenP.hostOps7_writes (by decide)
    _ = W13 m c (Proc.devRef .tc main_arg7) := W14_of_ne m c main_arg7 (by decide)
    _ = W12 m c (Proc.devRef .tc main_arg7) := StableHlo.after_of_writes_sub GenP.hostOps6 _ GenP.hostOps6_writes (by decide)
    _ = W11 m c (Proc.devRef .tc main_arg7) := W12_of_ne m c main_arg7 (by decide)
    _ = W10 m c (Proc.devRef .tc main_arg7) := StableHlo.after_of_writes_sub GenP.hostOps5 _ GenP.hostOps5_writes (by decide)
    _ = W9 m c (Proc.devRef .tc main_arg7) := W10_of_ne m c main_arg7 (by decide)
    _ = W8 m c (Proc.devRef .tc main_arg7) := StableHlo.after_of_writes_sub GenP.hostOps4 _ GenP.hostOps4_writes (by decide)
    _ = W7 m c (Proc.devRef .tc main_arg7) := W8_of_ne m c main_arg7 (by decide)
    _ = W6 m c (Proc.devRef .tc main_arg7) := StableHlo.after_of_writes_sub GenP.hostOps3 _ GenP.hostOps3_writes (by decide)
    _ = W5 m c (Proc.devRef .tc main_arg7) := W6_of_ne m c main_arg7 (by decide)
    _ = W4 m c (Proc.devRef .tc main_arg7) := StableHlo.after_of_writes_sub GenP.hostOps2 _ GenP.hostOps2_writes (by decide)
    _ = W3 m c (Proc.devRef .tc main_arg7) := W4_of_ne m c main_arg7 (by decide)
    _ = W2 m c (Proc.devRef .tc main_arg7) := StableHlo.after_of_writes_sub GenP.hostOps1 _ GenP.hostOps1_writes (by decide)
    _ = W1 m c (Proc.devRef .tc main_arg7) := W2_of_ne m c main_arg7 (by decide)
    _ = W0 m c (Proc.devRef .tc main_arg7) := StableHlo.after_of_writes_sub GenP.hostOps0 _ GenP.hostOps0_writes (by decide)
    _ = m ((c : Thread nD τ).loc main_arg7) := rfl

theorem kept_arg8 (c : Dev nD) : W21 m c (Proc.devRef .tc main_arg8) = m ((c : Thread nD τ).loc main_arg8) :=
  calc W21 m c (Proc.devRef .tc main_arg8)
    _ = W20 m c (Proc.devRef .tc main_arg8) := StableHlo.after_of_writes_sub GenP.hostOps10 _ GenP.hostOps10_writes (by decide)
    _ = W19 m c (Proc.devRef .tc main_arg8) := W20_of_ne m c main_arg8 (by decide)
    _ = W18 m c (Proc.devRef .tc main_arg8) := StableHlo.after_of_writes_sub GenP.hostOps9 _ GenP.hostOps9_writes (by decide)
    _ = W17 m c (Proc.devRef .tc main_arg8) := W18_of_ne m c main_arg8 (by decide)
    _ = W16 m c (Proc.devRef .tc main_arg8) := StableHlo.after_of_writes_sub GenP.hostOps8 _ GenP.hostOps8_writes (by decide)
    _ = W15 m c (Proc.devRef .tc main_arg8) := W16_of_ne m c main_arg8 (by decide)
    _ = W14 m c (Proc.devRef .tc main_arg8) := StableHlo.after_of_writes_sub GenP.hostOps7 _ GenP.hostOps7_writes (by decide)
    _ = W13 m c (Proc.devRef .tc main_arg8) := W14_of_ne m c main_arg8 (by decide)
    _ = W12 m c (Proc.devRef .tc main_arg8) := StableHlo.after_of_writes_sub GenP.hostOps6 _ GenP.hostOps6_writes (by decide)
    _ = W11 m c (Proc.devRef .tc main_arg8) := W12_of_ne m c main_arg8 (by decide)
    _ = W10 m c (Proc.devRef .tc main_arg8) := StableHlo.after_of_writes_sub GenP.hostOps5 _ GenP.hostOps5_writes (by decide)
    _ = W9 m c (Proc.devRef .tc main_arg8) := W10_of_ne m c main_arg8 (by decide)
    _ = W8 m c (Proc.devRef .tc main_arg8) := StableHlo.after_of_writes_sub GenP.hostOps4 _ GenP.hostOps4_writes (by decide)
    _ = W7 m c (Proc.devRef .tc main_arg8) := (W8_arr m c 4).trans (((dat3 (V7 m) c).arrAt_in 4 rfl _).trans (A_eq3 (V7 m) c 4))
    _ = W6 m c (Proc.devRef .tc main_arg8) := StableHlo.after_of_writes_sub GenP.hostOps3 _ GenP.hostOps3_writes (by decide)
    _ = W5 m c (Proc.devRef .tc main_arg8) := W6_of_ne m c main_arg8 (by decide)
    _ = W4 m c (Proc.devRef .tc main_arg8) := StableHlo.after_of_writes_sub GenP.hostOps2 _ GenP.hostOps2_writes (by decide)
    _ = W3 m c (Proc.devRef .tc main_arg8) := W4_of_ne m c main_arg8 (by decide)
    _ = W2 m c (Proc.devRef .tc main_arg8) := StableHlo.after_of_writes_sub GenP.hostOps1 _ GenP.hostOps1_writes (by decide)
    _ = W1 m c (Proc.devRef .tc main_arg8) := W2_of_ne m c main_arg8 (by decide)
    _ = W0 m c (Proc.devRef .tc main_arg8) := StableHlo.after_of_writes_sub GenP.hostOps0 _ GenP.hostOps0_writes (by decide)
    _ = m ((c : Thread nD τ).loc main_arg8) := rfl

theorem kept_arg9 (c : Dev nD) : W21 m c (Proc.devRef .tc main_arg9) = m ((c : Thread nD τ).loc main_arg9) :=
  calc W21 m c (Proc.devRef .tc main_arg9)
    _ = W20 m c (Proc.devRef .tc main_arg9) := StableHlo.after_of_writes_sub GenP.hostOps10 _ GenP.hostOps10_writes (by decide)
    _ = W19 m c (Proc.devRef .tc main_arg9) := W20_of_ne m c main_arg9 (by decide)
    _ = W18 m c (Proc.devRef .tc main_arg9) := StableHlo.after_of_writes_sub GenP.hostOps9 _ GenP.hostOps9_writes (by decide)
    _ = W17 m c (Proc.devRef .tc main_arg9) := W18_of_ne m c main_arg9 (by decide)
    _ = W16 m c (Proc.devRef .tc main_arg9) := StableHlo.after_of_writes_sub GenP.hostOps8 _ GenP.hostOps8_writes (by decide)
    _ = W15 m c (Proc.devRef .tc main_arg9) := W16_of_ne m c main_arg9 (by decide)
    _ = W14 m c (Proc.devRef .tc main_arg9) := StableHlo.after_of_writes_sub GenP.hostOps7 _ GenP.hostOps7_writes (by decide)
    _ = W13 m c (Proc.devRef .tc main_arg9) := W14_of_ne m c main_arg9 (by decide)
    _ = W12 m c (Proc.devRef .tc main_arg9) := StableHlo.after_of_writes_sub GenP.hostOps6 _ GenP.hostOps6_writes (by decide)
    _ = W11 m c (Proc.devRef .tc main_arg9) := W12_of_ne m c main_arg9 (by decide)
    _ = W10 m c (Proc.devRef .tc main_arg9) := StableHlo.after_of_writes_sub GenP.hostOps5 _ GenP.hostOps5_writes (by decide)
    _ = W9 m c (Proc.devRef .tc main_arg9) := W10_of_ne m c main_arg9 (by decide)
    _ = W8 m c (Proc.devRef .tc main_arg9) := StableHlo.after_of_writes_sub GenP.hostOps4 _ GenP.hostOps4_writes (by decide)
    _ = W7 m c (Proc.devRef .tc main_arg9) := W8_of_ne m c main_arg9 (by decide)
    _ = W6 m c (Proc.devRef .tc main_arg9) := StableHlo.after_of_writes_sub GenP.hostOps3 _ GenP.hostOps3_writes (by decide)
    _ = W5 m c (Proc.devRef .tc main_arg9) := W6_of_ne m c main_arg9 (by decide)
    _ = W4 m c (Proc.devRef .tc main_arg9) := StableHlo.after_of_writes_sub GenP.hostOps2 _ GenP.hostOps2_writes (by decide)
    _ = W3 m c (Proc.devRef .tc main_arg9) := W4_of_ne m c main_arg9 (by decide)
    _ = W2 m c (Proc.devRef .tc main_arg9) := StableHlo.after_of_writes_sub GenP.hostOps1 _ GenP.hostOps1_writes (by decide)
    _ = W1 m c (Proc.devRef .tc main_arg9) := W2_of_ne m c main_arg9 (by decide)
    _ = W0 m c (Proc.devRef .tc main_arg9) := StableHlo.after_of_writes_sub GenP.hostOps0 _ GenP.hostOps0_writes (by decide)
    _ = m ((c : Thread nD τ).loc main_arg9) := rfl

theorem kept_arg10 (c : Dev nD) : W21 m c (Proc.devRef .tc main_arg10) = m ((c : Thread nD τ).loc main_arg10) :=
  calc W21 m c (Proc.devRef .tc main_arg10)
    _ = W20 m c (Proc.devRef .tc main_arg10) := StableHlo.after_of_writes_sub GenP.hostOps10 _ GenP.hostOps10_writes (by decide)
    _ = W19 m c (Proc.devRef .tc main_arg10) := W20_of_ne m c main_arg10 (by decide)
    _ = W18 m c (Proc.devRef .tc main_arg10) := StableHlo.after_of_writes_sub GenP.hostOps9 _ GenP.hostOps9_writes (by decide)
    _ = W17 m c (Proc.devRef .tc main_arg10) := W18_of_ne m c main_arg10 (by decide)
    _ = W16 m c (Proc.devRef .tc main_arg10) := StableHlo.after_of_writes_sub GenP.hostOps8 _ GenP.hostOps8_writes (by decide)
    _ = W15 m c (Proc.devRef .tc main_arg10) := W16_of_ne m c main_arg10 (by decide)
    _ = W14 m c (Proc.devRef .tc main_arg10) := StableHlo.after_of_writes_sub GenP.hostOps7 _ GenP.hostOps7_writes (by decide)
    _ = W13 m c (Proc.devRef .tc main_arg10) := W14_of_ne m c main_arg10 (by decide)
    _ = W12 m c (Proc.devRef .tc main_arg10) := StableHlo.after_of_writes_sub GenP.hostOps6 _ GenP.hostOps6_writes (by decide)
    _ = W11 m c (Proc.devRef .tc main_arg10) := (W12_arr m c 4).trans (((dat5 (V11 m) c).arrAt_in 4 rfl _).trans (A_eq5 (V11 m) c 4))
    _ = W10 m c (Proc.devRef .tc main_arg10) := StableHlo.after_of_writes_sub GenP.hostOps5 _ GenP.hostOps5_writes (by decide)
    _ = W9 m c (Proc.devRef .tc main_arg10) := W10_of_ne m c main_arg10 (by decide)
    _ = W8 m c (Proc.devRef .tc main_arg10) := StableHlo.after_of_writes_sub GenP.hostOps4 _ GenP.hostOps4_writes (by decide)
    _ = W7 m c (Proc.devRef .tc main_arg10) := W8_of_ne m c main_arg10 (by decide)
    _ = W6 m c (Proc.devRef .tc main_arg10) := StableHlo.after_of_writes_sub GenP.hostOps3 _ GenP.hostOps3_writes (by decide)
    _ = W5 m c (Proc.devRef .tc main_arg10) := W6_of_ne m c main_arg10 (by decide)
    _ = W4 m c (Proc.devRef .tc main_arg10) := StableHlo.after_of_writes_sub GenP.hostOps2 _ GenP.hostOps2_writes (by decide)
    _ = W3 m c (Proc.devRef .tc main_arg10) := W4_of_ne m c main_arg10 (by decide)
    _ = W2 m c (Proc.devRef .tc main_arg10) := StableHlo.after_of_writes_sub GenP.hostOps1 _ GenP.hostOps1_writes (by decide)
    _ = W1 m c (Proc.devRef .tc main_arg10) := W2_of_ne m c main_arg10 (by decide)
    _ = W0 m c (Proc.devRef .tc main_arg10) := StableHlo.after_of_writes_sub GenP.hostOps0 _ GenP.hostOps0_writes (by decide)
    _ = m ((c : Thread nD τ).loc main_arg10) := rfl

theorem kept_arg11 (c : Dev nD) : W21 m c (Proc.devRef .tc main_arg11) = m ((c : Thread nD τ).loc main_arg11) :=
  calc W21 m c (Proc.devRef .tc main_arg11)
    _ = W20 m c (Proc.devRef .tc main_arg11) := StableHlo.after_of_writes_sub GenP.hostOps10 _ GenP.hostOps10_writes (by decide)
    _ = W19 m c (Proc.devRef .tc main_arg11) := W20_of_ne m c main_arg11 (by decide)
    _ = W18 m c (Proc.devRef .tc main_arg11) := StableHlo.after_of_writes_sub GenP.hostOps9 _ GenP.hostOps9_writes (by decide)
    _ = W17 m c (Proc.devRef .tc main_arg11) := W18_of_ne m c main_arg11 (by decide)
    _ = W16 m c (Proc.devRef .tc main_arg11) := StableHlo.after_of_writes_sub GenP.hostOps8 _ GenP.hostOps8_writes (by decide)
    _ = W15 m c (Proc.devRef .tc main_arg11) := W16_of_ne m c main_arg11 (by decide)
    _ = W14 m c (Proc.devRef .tc main_arg11) := StableHlo.after_of_writes_sub GenP.hostOps7 _ GenP.hostOps7_writes (by decide)
    _ = W13 m c (Proc.devRef .tc main_arg11) := W14_of_ne m c main_arg11 (by decide)
    _ = W12 m c (Proc.devRef .tc main_arg11) := StableHlo.after_of_writes_sub GenP.hostOps6 _ GenP.hostOps6_writes (by decide)
    _ = W11 m c (Proc.devRef .tc main_arg11) := W12_of_ne m c main_arg11 (by decide)
    _ = W10 m c (Proc.devRef .tc main_arg11) := StableHlo.after_of_writes_sub GenP.hostOps5 _ GenP.hostOps5_writes (by decide)
    _ = W9 m c (Proc.devRef .tc main_arg11) := W10_of_ne m c main_arg11 (by decide)
    _ = W8 m c (Proc.devRef .tc main_arg11) := StableHlo.after_of_writes_sub GenP.hostOps4 _ GenP.hostOps4_writes (by decide)
    _ = W7 m c (Proc.devRef .tc main_arg11) := W8_of_ne m c main_arg11 (by decide)
    _ = W6 m c (Proc.devRef .tc main_arg11) := StableHlo.after_of_writes_sub GenP.hostOps3 _ GenP.hostOps3_writes (by decide)
    _ = W5 m c (Proc.devRef .tc main_arg11) := W6_of_ne m c main_arg11 (by decide)
    _ = W4 m c (Proc.devRef .tc main_arg11) := StableHlo.after_of_writes_sub GenP.hostOps2 _ GenP.hostOps2_writes (by decide)
    _ = W3 m c (Proc.devRef .tc main_arg11) := W4_of_ne m c main_arg11 (by decide)
    _ = W2 m c (Proc.devRef .tc main_arg11) := StableHlo.after_of_writes_sub GenP.hostOps1 _ GenP.hostOps1_writes (by decide)
    _ = W1 m c (Proc.devRef .tc main_arg11) := W2_of_ne m c main_arg11 (by decide)
    _ = W0 m c (Proc.devRef .tc main_arg11) := StableHlo.after_of_writes_sub GenP.hostOps0 _ GenP.hostOps0_writes (by decide)
    _ = m ((c : Thread nD τ).loc main_arg11) := rfl

theorem kept_arg12 (c : Dev nD) : W21 m c (Proc.devRef .tc main_arg12) = m ((c : Thread nD τ).loc main_arg12) :=
  calc W21 m c (Proc.devRef .tc main_arg12)
    _ = W20 m c (Proc.devRef .tc main_arg12) := StableHlo.after_of_writes_sub GenP.hostOps10 _ GenP.hostOps10_writes (by decide)
    _ = W19 m c (Proc.devRef .tc main_arg12) := W20_of_ne m c main_arg12 (by decide)
    _ = W18 m c (Proc.devRef .tc main_arg12) := StableHlo.after_of_writes_sub GenP.hostOps9 _ GenP.hostOps9_writes (by decide)
    _ = W17 m c (Proc.devRef .tc main_arg12) := W18_of_ne m c main_arg12 (by decide)
    _ = W16 m c (Proc.devRef .tc main_arg12) := StableHlo.after_of_writes_sub GenP.hostOps8 _ GenP.hostOps8_writes (by decide)
    _ = W15 m c (Proc.devRef .tc main_arg12) := (W16_arr m c 4).trans (((dat7 (V15 m) c).arrAt_in 4 rfl _).trans (A_eq7 (V15 m) c 4))
    _ = W14 m c (Proc.devRef .tc main_arg12) := StableHlo.after_of_writes_sub GenP.hostOps7 _ GenP.hostOps7_writes (by decide)
    _ = W13 m c (Proc.devRef .tc main_arg12) := W14_of_ne m c main_arg12 (by decide)
    _ = W12 m c (Proc.devRef .tc main_arg12) := StableHlo.after_of_writes_sub GenP.hostOps6 _ GenP.hostOps6_writes (by decide)
    _ = W11 m c (Proc.devRef .tc main_arg12) := W12_of_ne m c main_arg12 (by decide)
    _ = W10 m c (Proc.devRef .tc main_arg12) := StableHlo.after_of_writes_sub GenP.hostOps5 _ GenP.hostOps5_writes (by decide)
    _ = W9 m c (Proc.devRef .tc main_arg12) := W10_of_ne m c main_arg12 (by decide)
    _ = W8 m c (Proc.devRef .tc main_arg12) := StableHlo.after_of_writes_sub GenP.hostOps4 _ GenP.hostOps4_writes (by decide)
    _ = W7 m c (Proc.devRef .tc main_arg12) := W8_of_ne m c main_arg12 (by decide)
    _ = W6 m c (Proc.devRef .tc main_arg12) := StableHlo.after_of_writes_sub GenP.hostOps3 _ GenP.hostOps3_writes (by decide)
    _ = W5 m c (Proc.devRef .tc main_arg12) := W6_of_ne m c main_arg12 (by decide)
    _ = W4 m c (Proc.devRef .tc main_arg12) := StableHlo.after_of_writes_sub GenP.hostOps2 _ GenP.hostOps2_writes (by decide)
    _ = W3 m c (Proc.devRef .tc main_arg12) := W4_of_ne m c main_arg12 (by decide)
    _ = W2 m c (Proc.devRef .tc main_arg12) := StableHlo.after_of_writes_sub GenP.hostOps1 _ GenP.hostOps1_writes (by decide)
    _ = W1 m c (Proc.devRef .tc main_arg12) := W2_of_ne m c main_arg12 (by decide)
    _ = W0 m c (Proc.devRef .tc main_arg12) := StableHlo.after_of_writes_sub GenP.hostOps0 _ GenP.hostOps0_writes (by decide)
    _ = m ((c : Thread nD τ).loc main_arg12) := rfl

theorem kept_arg13 (c : Dev nD) : W21 m c (Proc.devRef .tc main_arg13) = m ((c : Thread nD τ).loc main_arg13) :=
  calc W21 m c (Proc.devRef .tc main_arg13)
    _ = W20 m c (Proc.devRef .tc main_arg13) := StableHlo.after_of_writes_sub GenP.hostOps10 _ GenP.hostOps10_writes (by decide)
    _ = W19 m c (Proc.devRef .tc main_arg13) := W20_of_ne m c main_arg13 (by decide)
    _ = W18 m c (Proc.devRef .tc main_arg13) := StableHlo.after_of_writes_sub GenP.hostOps9 _ GenP.hostOps9_writes (by decide)
    _ = W17 m c (Proc.devRef .tc main_arg13) := W18_of_ne m c main_arg13 (by decide)
    _ = W16 m c (Proc.devRef .tc main_arg13) := StableHlo.after_of_writes_sub GenP.hostOps8 _ GenP.hostOps8_writes (by decide)
    _ = W15 m c (Proc.devRef .tc main_arg13) := W16_of_ne m c main_arg13 (by decide)
    _ = W14 m c (Proc.devRef .tc main_arg13) := StableHlo.after_of_writes_sub GenP.hostOps7 _ GenP.hostOps7_writes (by decide)
    _ = W13 m c (Proc.devRef .tc main_arg13) := W14_of_ne m c main_arg13 (by decide)
    _ = W12 m c (Proc.devRef .tc main_arg13) := StableHlo.after_of_writes_sub GenP.hostOps6 _ GenP.hostOps6_writes (by decide)
    _ = W11 m c (Proc.devRef .tc main_arg13) := W12_of_ne m c main_arg13 (by decide)
    _ = W10 m c (Proc.devRef .tc main_arg13) := StableHlo.after_of_writes_sub GenP.hostOps5 _ GenP.hostOps5_writes (by decide)
    _ = W9 m c (Proc.devRef .tc main_arg13) := W10_of_ne m c main_arg13 (by decide)
    _ = W8 m c (Proc.devRef .tc main_arg13) := StableHlo.after_of_writes_sub GenP.hostOps4 _ GenP.hostOps4_writes (by decide)
    _ = W7 m c (Proc.devRef .tc main_arg13) := W8_of_ne m c main_arg13 (by decide)
    _ = W6 m c (Proc.devRef .tc main_arg13) := StableHlo.after_of_writes_sub GenP.hostOps3 _ GenP.hostOps3_writes (by decide)
    _ = W5 m c (Proc.devRef .tc main_arg13) := W6_of_ne m c main_arg13 (by decide)
    _ = W4 m c (Proc.devRef .tc main_arg13) := StableHlo.after_of_writes_sub GenP.hostOps2 _ GenP.hostOps2_writes (by decide)
    _ = W3 m c (Proc.devRef .tc main_arg13) := W4_of_ne m c main_arg13 (by decide)
    _ = W2 m c (Proc.devRef .tc main_arg13) := StableHlo.after_of_writes_sub GenP.hostOps1 _ GenP.hostOps1_writes (by decide)
    _ = W1 m c (Proc.devRef .tc main_arg13) := W2_of_ne m c main_arg13 (by decide)
    _ = W0 m c (Proc.devRef .tc main_arg13) := StableHlo.after_of_writes_sub GenP.hostOps0 _ GenP.hostOps0_writes (by decide)
    _ = m ((c : Thread nD τ).loc main_arg13) := rfl

theorem kept_arg14 (c : Dev nD) : W21 m c (Proc.devRef .tc main_arg14) = m ((c : Thread nD τ).loc main_arg14) :=
  calc W21 m c (Proc.devRef .tc main_arg14)
    _ = W20 m c (Proc.devRef .tc main_arg14) := StableHlo.after_of_writes_sub GenP.hostOps10 _ GenP.hostOps10_writes (by decide)
    _ = W19 m c (Proc.devRef .tc main_arg14) := (W20_arr m c 1).trans (((dat9 (V19 m) c).arrAt_in 1 rfl _).trans (A_eq9 (V19 m) c 1))
    _ = W18 m c (Proc.devRef .tc main_arg14) := StableHlo.after_of_writes_sub GenP.hostOps9 _ GenP.hostOps9_writes (by decide)
    _ = W17 m c (Proc.devRef .tc main_arg14) := W18_of_ne m c main_arg14 (by decide)
    _ = W16 m c (Proc.devRef .tc main_arg14) := StableHlo.after_of_writes_sub GenP.hostOps8 _ GenP.hostOps8_writes (by decide)
    _ = W15 m c (Proc.devRef .tc main_arg14) := W16_of_ne m c main_arg14 (by decide)
    _ = W14 m c (Proc.devRef .tc main_arg14) := StableHlo.after_of_writes_sub GenP.hostOps7 _ GenP.hostOps7_writes (by decide)
    _ = W13 m c (Proc.devRef .tc main_arg14) := W14_of_ne m c main_arg14 (by decide)
    _ = W12 m c (Proc.devRef .tc main_arg14) := StableHlo.after_of_writes_sub GenP.hostOps6 _ GenP.hostOps6_writes (by decide)
    _ = W11 m c (Proc.devRef .tc main_arg14) := W12_of_ne m c main_arg14 (by decide)
    _ = W10 m c (Proc.devRef .tc main_arg14) := StableHlo.after_of_writes_sub GenP.hostOps5 _ GenP.hostOps5_writes (by decide)
    _ = W9 m c (Proc.devRef .tc main_arg14) := W10_of_ne m c main_arg14 (by decide)
    _ = W8 m c (Proc.devRef .tc main_arg14) := StableHlo.after_of_writes_sub GenP.hostOps4 _ GenP.hostOps4_writes (by decide)
    _ = W7 m c (Proc.devRef .tc main_arg14) := W8_of_ne m c main_arg14 (by decide)
    _ = W6 m c (Proc.devRef .tc main_arg14) := StableHlo.after_of_writes_sub GenP.hostOps3 _ GenP.hostOps3_writes (by decide)
    _ = W5 m c (Proc.devRef .tc main_arg14) := W6_of_ne m c main_arg14 (by decide)
    _ = W4 m c (Proc.devRef .tc main_arg14) := StableHlo.after_of_writes_sub GenP.hostOps2 _ GenP.hostOps2_writes (by decide)
    _ = W3 m c (Proc.devRef .tc main_arg14) := W4_of_ne m c main_arg14 (by decide)
    _ = W2 m c (Proc.devRef .tc main_arg14) := StableHlo.after_of_writes_sub GenP.hostOps1 _ GenP.hostOps1_writes (by decide)
    _ = W1 m c (Proc.devRef .tc main_arg14) := W2_of_ne m c main_arg14 (by decide)
    _ = W0 m c (Proc.devRef .tc main_arg14) := StableHlo.after_of_writes_sub GenP.hostOps0 _ GenP.hostOps0_writes (by decide)
    _ = m ((c : Thread nD τ).loc main_arg14) := rfl

theorem kept_arg15 (c : Dev nD) : W21 m c (Proc.devRef .tc main_arg15) = m ((c : Thread nD τ).loc main_arg15) :=
  calc W21 m c (Proc.devRef .tc main_arg15)
    _ = W20 m c (Proc.devRef .tc main_arg15) := StableHlo.after_of_writes_sub GenP.hostOps10 _ GenP.hostOps10_writes (by decide)
    _ = W19 m c (Proc.devRef .tc main_arg15) := W20_of_ne m c main_arg15 (by decide)
    _ = W18 m c (Proc.devRef .tc main_arg15) := StableHlo.after_of_writes_sub GenP.hostOps9 _ GenP.hostOps9_writes (by decide)
    _ = W17 m c (Proc.devRef .tc main_arg15) := W18_of_ne m c main_arg15 (by decide)
    _ = W16 m c (Proc.devRef .tc main_arg15) := StableHlo.after_of_writes_sub GenP.hostOps8 _ GenP.hostOps8_writes (by decide)
    _ = W15 m c (Proc.devRef .tc main_arg15) := W16_of_ne m c main_arg15 (by decide)
    _ = W14 m c (Proc.devRef .tc main_arg15) := StableHlo.after_of_writes_sub GenP.hostOps7 _ GenP.hostOps7_writes (by decide)
    _ = W13 m c (Proc.devRef .tc main_arg15) := W14_of_ne m c main_arg15 (by decide)
    _ = W12 m c (Proc.devRef .tc main_arg15) := StableHlo.after_of_writes_sub GenP.hostOps6 _ GenP.hostOps6_writes (by decide)
    _ = W11 m c (Proc.devRef .tc main_arg15) := W12_of_ne m c main_arg15 (by decide)
    _ = W10 m c (Proc.devRef .tc main_arg15) := StableHlo.after_of_writes_sub GenP.hostOps5 _ GenP.hostOps5_writes (by decide)
    _ = W9 m c (Proc.devRef .tc main_arg15) := W10_of_ne m c main_arg15 (by decide)
    _ = W8 m c (Proc.devRef .tc main_arg15) := StableHlo.after_of_writes_sub GenP.hostOps4 _ GenP.hostOps4_writes (by decide)
    _ = W7 m c (Proc.devRef .tc main_arg15) := W8_of_ne m c main_arg15 (by decide)
    _ = W6 m c (Proc.devRef .tc main_arg15) := StableHlo.after_of_writes_sub GenP.hostOps3 _ GenP.hostOps3_writes (by decide)
    _ = W5 m c (Proc.devRef .tc main_arg15) := W6_of_ne m c main_arg15 (by decide)
    _ = W4 m c (Proc.devRef .tc main_arg15) := StableHlo.after_of_writes_sub GenP.hostOps2 _ GenP.hostOps2_writes (by decide)
    _ = W3 m c (Proc.devRef .tc main_arg15) := W4_of_ne m c main_arg15 (by decide)
    _ = W2 m c (Proc.devRef .tc main_arg15) := StableHlo.after_of_writes_sub GenP.hostOps1 _ GenP.hostOps1_writes (by decide)
    _ = W1 m c (Proc.devRef .tc main_arg15) := W2_of_ne m c main_arg15 (by decide)
    _ = W0 m c (Proc.devRef .tc main_arg15) := StableHlo.after_of_writes_sub GenP.hostOps0 _ GenP.hostOps0_writes (by decide)
    _ = m ((c : Thread nD τ).loc main_arg15) := rfl

theorem kept_arg16 (c : Dev nD) : W21 m c (Proc.devRef .tc main_arg16) = m ((c : Thread nD τ).loc main_arg16) :=
  calc W21 m c (Proc.devRef .tc main_arg16)
    _ = W20 m c (Proc.devRef .tc main_arg16) := StableHlo.after_of_writes_sub GenP.hostOps10 _ GenP.hostOps10_writes (by decide)
    _ = W19 m c (Proc.devRef .tc main_arg16) := (W20_arr m c 3).trans (((dat9 (V19 m) c).arrAt_in 3 rfl _).trans (A_eq9 (V19 m) c 3))
    _ = W18 m c (Proc.devRef .tc main_arg16) := StableHlo.after_of_writes_sub GenP.hostOps9 _ GenP.hostOps9_writes (by decide)
    _ = W17 m c (Proc.devRef .tc main_arg16) := W18_of_ne m c main_arg16 (by decide)
    _ = W16 m c (Proc.devRef .tc main_arg16) := StableHlo.after_of_writes_sub GenP.hostOps8 _ GenP.hostOps8_writes (by decide)
    _ = W15 m c (Proc.devRef .tc main_arg16) := W16_of_ne m c main_arg16 (by decide)
    _ = W14 m c (Proc.devRef .tc main_arg16) := StableHlo.after_of_writes_sub GenP.hostOps7 _ GenP.hostOps7_writes (by decide)
    _ = W13 m c (Proc.devRef .tc main_arg16) := W14_of_ne m c main_arg16 (by decide)
    _ = W12 m c (Proc.devRef .tc main_arg16) := StableHlo.after_of_writes_sub GenP.hostOps6 _ GenP.hostOps6_writes (by decide)
    _ = W11 m c (Proc.devRef .tc main_arg16) := W12_of_ne m c main_arg16 (by decide)
    _ = W10 m c (Proc.devRef .tc main_arg16) := StableHlo.after_of_writes_sub GenP.hostOps5 _ GenP.hostOps5_writes (by decide)
    _ = W9 m c (Proc.devRef .tc main_arg16) := W10_of_ne m c main_arg16 (by decide)
    _ = W8 m c (Proc.devRef .tc main_arg16) := StableHlo.after_of_writes_sub GenP.hostOps4 _ GenP.hostOps4_writes (by decide)
    _ = W7 m c (Proc.devRef .tc main_arg16) := W8_of_ne m c main_arg16 (by decide)
    _ = W6 m c (Proc.devRef .tc main_arg16) := StableHlo.after_of_writes_sub GenP.hostOps3 _ GenP.hostOps3_writes (by decide)
    _ = W5 m c (Proc.devRef .tc main_arg16) := W6_of_ne m c main_arg16 (by decide)
    _ = W4 m c (Proc.devRef .tc main_arg16) := StableHlo.after_of_writes_sub GenP.hostOps2 _ GenP.hostOps2_writes (by decide)
    _ = W3 m c (Proc.devRef .tc main_arg16) := W4_of_ne m c main_arg16 (by decide)
    _ = W2 m c (Proc.devRef .tc main_arg16) := StableHlo.after_of_writes_sub GenP.hostOps1 _ GenP.hostOps1_writes (by decide)
    _ = W1 m c (Proc.devRef .tc main_arg16) := W2_of_ne m c main_arg16 (by decide)
    _ = W0 m c (Proc.devRef .tc main_arg16) := StableHlo.after_of_writes_sub GenP.hostOps0 _ GenP.hostOps0_writes (by decide)
    _ = m ((c : Thread nD τ).loc main_arg16) := rfl

theorem kept_arg17 (c : Dev nD) : W21 m c (Proc.devRef .tc main_arg17) = m ((c : Thread nD τ).loc main_arg17) :=
  calc W21 m c (Proc.devRef .tc main_arg17)
    _ = W20 m c (Proc.devRef .tc main_arg17) := StableHlo.after_of_writes_sub GenP.hostOps10 _ GenP.hostOps10_writes (by decide)
    _ = W19 m c (Proc.devRef .tc main_arg17) := W20_of_ne m c main_arg17 (by decide)
    _ = W18 m c (Proc.devRef .tc main_arg17) := StableHlo.after_of_writes_sub GenP.hostOps9 _ GenP.hostOps9_writes (by decide)
    _ = W17 m c (Proc.devRef .tc main_arg17) := W18_of_ne m c main_arg17 (by decide)
    _ = W16 m c (Proc.devRef .tc main_arg17) := StableHlo.after_of_writes_sub GenP.hostOps8 _ GenP.hostOps8_writes (by decide)
    _ = W15 m c (Proc.devRef .tc main_arg17) := W16_of_ne m c main_arg17 (by decide)
    _ = W14 m c (Proc.devRef .tc main_arg17) := StableHlo.after_of_writes_sub GenP.hostOps7 _ GenP.hostOps7_writes (by decide)
    _ = W13 m c (Proc.devRef .tc main_arg17) := W14_of_ne m c main_arg17 (by decide)
    _ = W12 m c (Proc.devRef .tc main_arg17) := StableHlo.after_of_writes_sub GenP.hostOps6 _ GenP.hostOps6_writes (by decide)
    _ = W11 m c (Proc.devRef .tc main_arg17) := W12_of_ne m c main_arg17 (by decide)
    _ = W10 m c (Proc.devRef .tc main_arg17) := StableHlo.after_of_writes_sub GenP.hostOps5 _ GenP.hostOps5_writes (by decide)
    _ = W9 m c (Proc.devRef .tc main_arg17) := W10_of_ne m c main_arg17 (by decide)
    _ = W8 m c (Proc.devRef .tc main_arg17) := StableHlo.after_of_writes_sub GenP.hostOps4 _ GenP.hostOps4_writes (by decide)
    _ = W7 m c (Proc.devRef .tc main_arg17) := W8_of_ne m c main_arg17 (by decide)
    _ = W6 m c (Proc.devRef .tc main_arg17) := StableHlo.after_of_writes_sub GenP.hostOps3 _ GenP.hostOps3_writes (by decide)
    _ = W5 m c (Proc.devRef .tc main_arg17) := W6_of_ne m c main_arg17 (by decide)
    _ = W4 m c (Proc.devRef .tc main_arg17) := StableHlo.after_of_writes_sub GenP.hostOps2 _ GenP.hostOps2_writes (by decide)
    _ = W3 m c (Proc.devRef .tc main_arg17) := W4_of_ne m c main_arg17 (by decide)
    _ = W2 m c (Proc.devRef .tc main_arg17) := StableHlo.after_of_writes_sub GenP.hostOps1 _ GenP.hostOps1_writes (by decide)
    _ = W1 m c (Proc.devRef .tc main_arg17) := W2_of_ne m c main_arg17 (by decide)
    _ = W0 m c (Proc.devRef .tc main_arg17) := StableHlo.after_of_writes_sub GenP.hostOps0 _ GenP.hostOps0_writes (by decide)
    _ = m ((c : Thread nD τ).loc main_arg17) := rfl

/-- THE FRAME AND THE RESULT: every execution terminates; the result buffer ends at the fold's last contents and
    every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v58) = W21 m c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v58 (by decide)),
     (h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c),
     (h c _ (mem_uc main_arg4 (by decide))).trans (kept_arg4 m c),
     (h c _ (mem_uc main_arg5 (by decide))).trans (kept_arg5 m c),
     (h c _ (mem_uc main_arg6 (by decide))).trans (kept_arg6 m c),
     (h c _ (mem_uc main_arg7 (by decide))).trans (kept_arg7 m c),
     (h c _ (mem_uc main_arg8 (by decide))).trans (kept_arg8 m c),
     (h c _ (mem_uc main_arg9 (by decide))).trans (kept_arg9 m c),
     (h c _ (mem_uc main_arg10 (by decide))).trans (kept_arg10 m c),
     (h c _ (mem_uc main_arg11 (by decide))).trans (kept_arg11 m c),
     (h c _ (mem_uc main_arg12 (by decide))).trans (kept_arg12 m c),
     (h c _ (mem_uc main_arg13 (by decide))).trans (kept_arg13 m c),
     (h c _ (mem_uc main_arg14 (by decide))).trans (kept_arg14 m c),
     (h c _ (mem_uc main_arg15 (by decide))).trans (kept_arg15 m c),
     (h c _ (mem_uc main_arg16 (by decide))).trans (kept_arg16 m c),
     (h c _ (mem_uc main_arg17 (by decide))).trans (kept_arg17 m c)⟩) (run_all m ρ)

/-- The frame alone. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => (h c).2) (run_result m ρ)

end Cert.KernelIdeal.Hand

end
-- ==== Proof.RefFrame.lean ====
/-
  THE REFERENCE'S FRAME. The reference program is a chain of host operations; its generated run states the
  result and that every argument ends unchanged. The frame claim is that run with the result dropped.
-/
import proofs.«170580_j11665131176635_1_alg».proof.Defs
import proofs.«170580_j11665131176635_1_alg».proof.Proof.Gen.Pre_finite_inputs
import proofs.«170580_j11665131176635_1_alg».proof.Proof.Gen.ReferenceIdeal.Run

noncomputable section

namespace Cert.ReferenceIdeal.RefValue

open Idealize.ShloMosaic Idealize.SL.Sem

/-- The reference runs and its arguments end unchanged. -/
theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.LibScatterAddRows.lean ====
/-
  THE ROW-WISE ACCUMULATING SCATTER READ AT AN INDEX, at the ideal instance (the extended reals).

  `jax.ops.segment_sum(u, ids, num_segments = n)` lowers to a `stablehlo.scatter` with an `add` body whose operand
  `x` has shape `[n, c]` (zeros, for a segment sum), whose scatter indices `ids` have shape `[N, 1]` and whose updates
  `u` have shape `[N, c]`, with update_window_dims `[1]`, inserted_window_dims `[0]`, scatter_dims_to_operand_dims `[0]`
  and index_vector_dim `1`: update row `r` is a window one row high, placed at row `ids[r, 0]` of the operand.

  The mathematics. The row index `ids[r, 0]` is read as a SIGNED integer and is NOT clamped: the update element
  `(r, b)` lands on operand element `(ids[r, 0], b)` when `0 ≤ ids[r, 0] < n`, and is dropped when the row index is
  negative or at least `n` (`resultIdx?_rows`). At the ideal instance the scatter's value at `(k, j)` is the operand's
  element plus the sum of the update elements that land there, so it is

      x (k, j) + ∑ r : Fin N, (if ids[r, 0] = k then u (r, j) else 0)

  (`scatterAdd_rows_apply`): a row whose index is out of range equals no `k : Fin n`, so it contributes `0` to every
  element, which is exactly "dropped". Addition of extended reals is commutative and associative, so the sum is one
  value whatever the order of accumulation; no finiteness hypothesis is needed.
-/
import Idealize.ShloMosaic.Lib.ValueIdx

noncomputable section

open scoped BigOperators

namespace Cert.KernelIdeal.Hand

open Idealize.ShloMosaic Idealize.ShloMosaic.ValueIdx

/-- The dimension numbers of the row-wise scatter: operand `[n, c]`, scatter indices `[N, 1]`, updates `[N, c]`;
    update window axis `1`, inserted window axis `0`, the one index component names operand axis `0`, and the index
    vector lies along axis `1` of the indices. Their well-formedness `wf` is a fact about the literal shapes. -/
abbrev scatterRowsDims (n N c : Nat) (wf : ScatterDims.WF ⟨2, ![n, c]⟩ ⟨2, ![N, 1]⟩ ⟨2, ![N, c]⟩ [1] [0] [0] 1) :
    ScatterDims ⟨2, ![n, c]⟩ ⟨2, ![N, 1]⟩ ⟨2, ![N, c]⟩ where
  updateWindowDims := [1]
  insertedWindowDims := [0]
  scatterDimsToOperandDims := [0]
  indexVectorDim := 1
  wf := wf

section
variable {n N c w : Nat} (wf : ScatterDims.WF ⟨2, ![n, c]⟩ ⟨2, ![N, 1]⟩ ⟨2, ![N, c]⟩ [1] [0] [0] 1)

/-- On the row axis the window of update `(r, j)` starts at the row index `ids[r, 0]`, read signed. -/
theorem scatterRows_start0 (idx : IVec ⟨2, ![N, 1]⟩ w) (r : Fin N) (j : Fin c) :
    (scatterRowsDims n N c wf).start (ix2 r j) idx 0 = (idx (ix2 r 0)).toInt := by
  unfold ScatterDims.start
  rw [dif_pos (show (0 : Fin 2) ∈ (scatterRowsDims n N c wf).scatterDimsToOperandDims from List.mem_singleton.mpr rfl)]
  congr 2
  funext b
  refine Fin.ext ?_
  match b with
  | ⟨0, _⟩ => rfl
  | ⟨1, _⟩ => rfl

/-- On the column axis the window starts at `0`: no index component names that axis. -/
theorem scatterRows_start1 (idx : IVec ⟨2, ![N, 1]⟩ w) (r : Fin N) (j : Fin c) :
    (scatterRowsDims n N c wf).start (ix2 r j) idx 1 = 0 := by
  unfold ScatterDims.start
  rw [dif_neg (show (1 : Fin 2) ∉ [(0 : Fin 2)] by decide)]

/-- The row axis is an inserted window axis: the window coordinate there is `0`. -/
theorem scatterRows_window0 (r : Fin N) (j : Fin c) : (scatterRowsDims n N c wf).window (ix2 r j) 0 = 0 := by
  unfold ScatterDims.window
  have h0 : (0 : Fin 2) ∉ (scatterRowsDims n N c wf).sKept := by
    show (0 : Fin 2) ∉ List.filter (fun x => decide (x ∉ [(0 : Fin 2)])) (List.finRange 2)
    decide
  rw [dif_neg h0]

/-- On the column axis the window coordinate of update `(r, j)` is `j`. -/
theorem scatterRows_window1 (r : Fin N) (j : Fin c) : (scatterRowsDims n N c wf).window (ix2 r j) 1 = j.val := by
  unfold ScatterDims.window
  have h1 : (1 : Fin 2) ∈ (scatterRowsDims n N c wf).sKept := by
    show (1 : Fin 2) ∈ List.filter (fun x => decide (x ∉ [(0 : Fin 2)])) (List.finRange 2)
    decide
  rw [dif_pos h1]
  rfl

/-- WHERE AN UPDATE LANDS: update element `(r, j)` lands on operand element `(ids[r, 0], j)` when the row index, read
    as a signed integer, is in `[0, n)`; it is dropped (`none`) when the row index is negative or at least `n`. The
    row index is not clamped. -/
theorem resultIdx?_rows (idx : IVec ⟨2, ![N, 1]⟩ w) (r : Fin N) (j : Fin c) :
    (scatterRowsDims n N c wf).resultIdx? (ix2 r j) idx =
      if h : 0 ≤ (idx (ix2 r 0)).toInt ∧ (idx (ix2 r 0)).toInt < n then
        some (ix2 ⟨(idx (ix2 r 0)).toInt.toNat, by omega⟩ j) else none := by
  unfold ScatterDims.resultIdx?
  by_cases h : 0 ≤ (idx (ix2 r 0)).toInt ∧ (idx (ix2 r 0)).toInt < n
  · have hall : ∀ a : Fin 2,
        0 ≤ (scatterRowsDims n N c wf).start (ix2 r j) idx a + ((scatterRowsDims n N c wf).window (ix2 r j) a : Int) ∧
        (scatterRowsDims n N c wf).start (ix2 r j) idx a + ((scatterRowsDims n N c wf).window (ix2 r j) a : Int)
          < (Shape.size ⟨2, ![n, c]⟩ a : Nat) := by
      intro a
      match a with
      | ⟨0, _⟩ =>
        show 0 ≤ (scatterRowsDims n N c wf).start (ix2 r j) idx 0 + ((scatterRowsDims n N c wf).window (ix2 r j) 0 : Int) ∧
          (scatterRowsDims n N c wf).start (ix2 r j) idx 0 + ((scatterRowsDims n N c wf).window (ix2 r j) 0 : Int) < (n : Int)
        rw [scatterRows_start0, scatterRows_window0]; simpa using h
      | ⟨1, _⟩ =>
        show 0 ≤ (scatterRowsDims n N c wf).start (ix2 r j) idx 1 + ((scatterRowsDims n N c wf).window (ix2 r j) 1 : Int) ∧
          (scatterRowsDims n N c wf).start (ix2 r j) idx 1 + ((scatterRowsDims n N c wf).window (ix2 r j) 1 : Int) < (c : Int)
        rw [scatterRows_start1, scatterRows_window1]; have := j.isLt; omega
    rw [dif_pos hall, dif_pos h]
    congr 1
    funext a
    refine Fin.ext ?_
    match a with
    | ⟨0, _⟩ =>
      show ((scatterRowsDims n N c wf).start (ix2 r j) idx 0 + ((scatterRowsDims n N c wf).window (ix2 r j) 0 : Int)).toNat = _
      rw [scatterRows_start0, scatterRows_window0]; simp
    | ⟨1, _⟩ =>
      show ((scatterRowsDims n N c wf).start (ix2 r j) idx 1 + ((scatterRowsDims n N c wf).window (ix2 r j) 1 : Int)).toNat = _
      rw [scatterRows_start1, scatterRows_window1]; simp
  · rw [dif_neg h, dif_neg]
    intro hall
    apply h
    have := hall 0
    rw [scatterRows_start0, scatterRows_window0] at this
    simpa using this

/-- Update element `(r, b)` lands on operand element `(k, j)` exactly when its row index is `k` and `b = j`. -/
theorem resultIdx?_rows_eq_some (idx : IVec ⟨2, ![N, 1]⟩ w) (r : Fin N) (b : Fin c) (k : Fin n) (j : Fin c) :
    (scatterRowsDims n N c wf).resultIdx? (ix2 r b) idx = some (ix2 k j) ↔
      (idx (ix2 r 0)).toInt = (k.val : Int) ∧ b = j := by
  rw [resultIdx?_rows]
  constructor
  · intro h
    split at h
    · rename_i hr
      have h' := Option.some.inj h
      have h0 := congrFun h' 0
      have h1 := congrFun h' 1
      have h0v : (idx (ix2 r 0)).toInt.toNat = k.val := congrArg Fin.val h0
      exact ⟨by omega, h1⟩
    · exact absurd h (by simp)
  · rintro ⟨hk, rfl⟩
    have hr : 0 ≤ (idx (ix2 r 0)).toInt ∧ (idx (ix2 r 0)).toInt < n := by have := k.isLt; omega
    rw [dif_pos hr]
    congr 2
    exact Fin.ext (by show (idx (ix2 r 0)).toInt.toNat = k.val; omega)

/-- THE ROW-WISE ACCUMULATING SCATTER READ AT `(k, j)`, at the ideal instance: the operand's element plus the sum
    over the update rows `r` whose row index `ids[r, 0]` (a signed integer) is `k` of the update element `u (r, j)`.
    A row whose index is negative or at least `n` equals no `k` and so contributes to no element. -/
theorem scatterAdd_rows_apply {φ : FTy} (x : FVec Ideal ⟨2, ![n, c]⟩ φ) (idx : IVec ⟨2, ![N, 1]⟩ w)
    (upd : FVec Ideal ⟨2, ![N, c]⟩ φ) (k : Fin n) (j : Fin c) :
    Host.scatterAdd (scatterRowsDims n N c wf) x idx upd (ix2 k j) =
      x (ix2 k j) + ∑ r : Fin N, (if (idx (ix2 r 0)).toInt = (k.val : Int) then upd (ix2 r j) else 0) := by
  unfold Host.scatterAdd
  rw [Ideal.hostScatterAdd_def]
  unfold Ideal.hostScatterAdd
  congr 1
  rw [Finset.sum_filter, sum_idx2]
  refine Finset.sum_congr rfl fun r _ => ?_
  simp only [resultIdx?_rows_eq_some]
  by_cases hk : (idx (ix2 r 0)).toInt = (k.val : Int)
  · simp only [hk, true_and, if_true]
    rw [Finset.sum_ite_eq' Finset.univ j (fun b => upd (ix2 r b)), if_pos (Finset.mem_univ j)]
  · simp only [hk, false_and, if_false]
    exact Finset.sum_const_zero

end

/-- The same for any record `d` that IS those dimension numbers (`hd`: by `rfl` for a program's literal record whose
    four fields are `[1]`, `[0]`, `[0]`, `1`). -/
theorem scatterAdd_rows_apply_rec {n N c w : Nat}
    {wf : ScatterDims.WF ⟨2, ![n, c]⟩ ⟨2, ![N, 1]⟩ ⟨2, ![N, c]⟩ [1] [0] [0] 1} {φ : FTy}
    (d : ScatterDims ⟨2, ![n, c]⟩ ⟨2, ![N, 1]⟩ ⟨2, ![N, c]⟩) (hd : d = scatterRowsDims n N c wf)
    (x : FVec Ideal ⟨2, ![n, c]⟩ φ) (idx : IVec ⟨2, ![N, 1]⟩ w) (upd : FVec Ideal ⟨2, ![N, c]⟩ φ) (k : Fin n) (j : Fin c) :
    Host.scatterAdd d x idx upd (ix2 k j) =
      x (ix2 k j) + ∑ r : Fin N, (if (idx (ix2 r 0)).toInt = (k.val : Int) then upd (ix2 r j) else 0) := by
  subst hd
  exact scatterAdd_rows_apply wf x idx upd k j

end Cert.KernelIdeal.Hand

end
-- ==== Proof.LibGatherRows.lean ====
/-
  THE ROW GATHER READ AT AN INDEX.

  `x[ids]` for `x` of shape `[n, c]` and integer row indices `ids` of shape `[N, 1]` lowers to a `stablehlo.gather`
  with offset_dims `[1]`, collapsed_slice_dims `[0]`, start_index_map `[0]`, index_vector_dim `1` and slice sizes
  `[1, c]`: result row `r` is the whole row of `x` whose number is the start index `ids[r, 0]`.

  The mathematics. StableHLO's gather reads the start index as a SIGNED integer and CLAMPS it so that the slice fits:
  here into `[0, n − 1]`. A negative index reads row `0` and an index at least `n` reads row `n − 1`
  (`gather_rows_apply`); an index already in `[0, n)` reads that row (`gather_rows_apply_of_lt`,
  `gather_rows_apply_of_eq`). The statements hold for any element type: a gather only moves elements.
-/
import Idealize.ShloMosaic.Lib.ValueIdx

noncomputable section

namespace Cert.KernelIdeal.Hand

open Idealize.ShloMosaic Idealize.ShloMosaic.ValueIdx

/-- The dimension numbers of the row gather: operand `[n, c]`, start indices `[N, 1]`, result `[N, c]`; offset axis
    `1`, collapsed slice axis `0`, the one index component names operand axis `0`, the index vector lies along axis `1`
    of the indices, and a slice is one row (`[1, c]`). Their well-formedness `wf` is a fact about the literal shapes. -/
abbrev gatherRowsDims (n N c : Nat)
    (wf : GatherDims.WF ⟨2, ![n, c]⟩ ⟨2, ![N, 1]⟩ ⟨2, ![N, c]⟩ [1] [0] [] [0] [] 1 ![1, c]) :
    GatherDims ⟨2, ![n, c]⟩ ⟨2, ![N, 1]⟩ ⟨2, ![N, c]⟩ where
  offsetDims := [1]
  collapsedSliceDims := [0]
  operandBatchingDims := []
  startIndicesBatchingDims := []
  startIndexMap := [0]
  indexVectorDim := 1
  sliceSizes := ![1, c]
  wf := wf

section
variable {α : Type} {n N c w : Nat}
  (wf : GatherDims.WF ⟨2, ![n, c]⟩ ⟨2, ![N, 1]⟩ ⟨2, ![N, c]⟩ [1] [0] [] [0] [] 1 ![1, c])

/-- On the row axis the slice of result element `(r, j)` starts at the row index `ids[r, 0]`, read signed and clamped
    into `[0, n − 1]`. -/
theorem gatherRows_start0 (idx : IVec ⟨2, ![N, 1]⟩ w) (r : Fin N) (j : Fin c) :
    (gatherRowsDims n N c wf).start (ix2 r j) idx 0 = min (idx (ix2 r 0)).toInt.toNat (n - 1) := by
  unfold GatherDims.start
  rw [dif_pos (show (0 : Fin 2) ∈ (gatherRowsDims n N c wf).startIndexMap from List.mem_singleton.mpr rfl)]
  have hsi : (gatherRowsDims n N c wf).siIdx (ix2 r j) ⟨List.idxOf (0 : Fin 2) (gatherRowsDims n N c wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- On the column axis the slice starts at `0`: no index component names that axis. -/
theorem gatherRows_start1 (idx : IVec ⟨2, ![N, 1]⟩ w) (r : Fin N) (j : Fin c) :
    (gatherRowsDims n N c wf).start (ix2 r j) idx 1 = 0 := by
  unfold GatherDims.start
  rw [dif_neg (show (1 : Fin 2) ∉ [(0 : Fin 2)] by decide)]

/-- The row axis is collapsed: the offset coordinate there is `0`. -/
theorem gatherRows_offCoord0 (r : Fin N) (j : Fin c) : (gatherRowsDims n N c wf).offCoord (ix2 r j) 0 = 0 :=
  GatherDims.offCoord_eq_zero _ _ _ (fun h => ((GatherDims.mem_sKept _ _).mp h).1 (List.mem_singleton.mpr rfl))

/-- On the column axis the offset coordinate of result element `(r, j)` is `j`. -/
theorem gatherRows_offCoord1 (r : Fin N) (j : Fin c) : (gatherRowsDims n N c wf).offCoord (ix2 r j) 1 = j.val := by
  unfold GatherDims.offCoord
  have h1 : (1 : Fin 2) ∈ (gatherRowsDims n N c wf).sKept :=
    (GatherDims.mem_sKept _ _).mpr ⟨show (1 : Fin 2) ∉ [(0 : Fin 2)] by decide, List.not_mem_nil⟩
  rw [dif_pos h1]
  rfl

/-- THE ROW GATHER READ AT `(r, j)`: the operand at row `ids[r, 0]`, read signed and clamped into `[0, n − 1]`,
    column `j`. -/
theorem gather_rows_apply (hn : 0 < n) (x : (⟨2, ![n, c]⟩ : Shape).Idx → α) (idx : IVec ⟨2, ![N, 1]⟩ w)
    (r : Fin N) (j : Fin c) :
    Host.gather (gatherRowsDims n N c wf) x idx (ix2 r j) =
      x (ix2 ⟨min (idx (ix2 r 0)).toInt.toNat (n - 1), by omega⟩ j) := by
  unfold Host.gather
  congr 1
  funext a
  refine Fin.ext ?_
  match a with
  | ⟨0, _⟩ =>
    show (gatherRowsDims n N c wf).start (ix2 r j) idx 0 + (gatherRowsDims n N c wf).batchCoord (ix2 r j) 0 +
      (gatherRowsDims n N c wf).offCoord (ix2 r j) 0 = min (idx (ix2 r 0)).toInt.toNat (n - 1)
    rw [GatherDims.batchCoord_eq_zero _ _ _ List.not_mem_nil, gatherRows_offCoord0, gatherRows_start0]
    omega
  | ⟨1, _⟩ =>
    show (gatherRowsDims n N c wf).start (ix2 r j) idx 1 + (gatherRowsDims n N c wf).batchCoord (ix2 r j) 1 +
      (gatherRowsDims n N c wf).offCoord (ix2 r j) 1 = j.val
    rw [GatherDims.batchCoord_eq_zero _ _ _ List.not_mem_nil, gatherRows_offCoord1, gatherRows_start1]
    omega

/-- A row index already in `[0, n)` is not moved by the clamp: the gather reads that row. -/
theorem gather_rows_apply_of_lt (x : (⟨2, ![n, c]⟩ : Shape).Idx → α) (idx : IVec ⟨2, ![N, 1]⟩ w)
    (r : Fin N) (j : Fin c) (h0 : 0 ≤ (idx (ix2 r 0)).toInt) (hlt : (idx (ix2 r 0)).toInt < n) :
    Host.gather (gatherRowsDims n N c wf) x idx (ix2 r j) =
      x (ix2 ⟨(idx (ix2 r 0)).toInt.toNat, by omega⟩ j) := by
  rw [gather_rows_apply wf (by omega) x idx r j]
  congr 2
  exact Fin.ext (by show min (idx (ix2 r 0)).toInt.toNat (n - 1) = (idx (ix2 r 0)).toInt.toNat; omega)

/-- The same with the row named: when the row index `ids[r, 0]` is `k : Fin n`, the gather reads row `k`. -/
theorem gather_rows_apply_of_eq (x : (⟨2, ![n, c]⟩ : Shape).Idx → α) (idx : IVec ⟨2, ![N, 1]⟩ w)
    (r : Fin N) (j : Fin c) (k : Fin n) (hk : (idx (ix2 r 0)).toInt = (k.val : Int)) :
    Host.gather (gatherRowsDims n N c wf) x idx (ix2 r j) = x (ix2 k j) := by
  rw [gather_rows_apply wf k.pos x idx r j]
  congr 2
  exact Fin.ext (by show min (idx (ix2 r 0)).toInt.toNat (n - 1) = k.val; have := k.isLt; omega)

end

/-! The same three statements for any record `d` that IS those dimension numbers (`hd`: by `rfl` for a program's
    literal record with those fields). -/

theorem gather_rows_apply_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf) (hn : 0 < n)
    (x : (⟨2, ![n, c]⟩ : Shape).Idx → α) (idx : IVec ⟨2, ![N, 1]⟩ w) (r : Fin N) (j : Fin c) :
    Host.gather d x idx (ix2 r j) = x (ix2 ⟨min (idx (ix2 r 0)).toInt.toNat (n - 1), by omega⟩ j) := by
  subst hd
  exact gather_rows_apply wf hn x idx r j

theorem gather_rows_apply_of_lt_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf)
    (x : (⟨2, ![n, c]⟩ : Shape).Idx → α) (idx : IVec ⟨2, ![N, 1]⟩ w) (r : Fin N) (j : Fin c)
    (h0 : 0 ≤ (idx (ix2 r 0)).toInt) (hlt : (idx (ix2 r 0)).toInt < n) :
    Host.gather d x idx (ix2 r j) = x (ix2 ⟨(idx (ix2 r 0)).toInt.toNat, by omega⟩ j) := by
  subst hd
  exact gather_rows_apply_of_lt wf x idx r j h0 hlt

theorem gather_rows_apply_of_eq_rec {α : Type} {n N c w : Nat}
    {wf : GatherDims.WF ⟨2, ![n, c]⟩ ⟨2, ![N, 1]⟩ ⟨2, ![N, c]⟩ [1] [0] [] [0] [] 1 ![1, c]}
    (d : GatherDims ⟨2, ![n, c]⟩ ⟨2, ![N, 1]⟩ ⟨2, ![N, c]⟩) (hd : d = gatherRowsDims n N c wf)
    (x : (⟨2, ![n, c]⟩ : Shape).Idx → α) (idx : IVec ⟨2, ![N, 1]⟩ w) (r : Fin N) (j : Fin c) (k : Fin n)
    (hk : (idx (ix2 r 0)).toInt = (k.val : Int)) :
    Host.gather d x idx (ix2 r j) = x (ix2 k j) := by
  subst hd
  exact gather_rows_apply_of_eq wf x idx r j k hk

end Cert.KernelIdeal.Hand

end
-- ==== Proof.RefValue.lean ====
/-
  THE REFERENCE'S RESULT AS A COMPOSITION OF NAMED STAGES, each read at an index.

  The reference is a three-layer graph network on 50000 nodes in 64 graphs with 128 features, and a two-layer head:

      ctx      = pool(init_feats, init_ids) + pool(lead_feats, lead_ids)                        [64, 128]
      h_{l+1}  = relu((h_l + agg(h_l) + (pool(h_l, ids) + ctx)[ids]) · W_l + b_l)     l = 0, 1, 2   [50000, 128]
      out      = relu(pool(h_3, ids) · fc1_W + fc1_b) · fc2_W + fc2_b                          [64, 40]

  where pool(u, ids)[k, j] = ∑ over the nodes r with ids[r] = k of u[r, j] (a scatter-add into zeros: a node whose id is
  outside [0, 64) is dropped) and agg(h) is the neighbour sum over the 400000 edges (a gather of the rows at the edge
  sources, scatter-added at the edge destinations). Each stage is a definition over arrays of literal shape at the
  ideal instance, with a lemma reading it at an index as nested sums; `agg` is carried as one function and is never
  read. A table indexed by ids (`[ids]`) first wraps a negative id by 64 and then gathers with clamping: for an id in
  [0, 64) that is the row of that id. `ref_result_eq`: the generated value of the result is the composition `refR`.
-/
import proofs.«170580_j11665131176635_1_alg».proof.Proof.Gen.ReferenceIdeal.Read
import proofs.«170580_j11665131176635_1_alg».proof.Proof.LibScatterAddRows
import proofs.«170580_j11665131176635_1_alg».proof.Proof.LibGatherRows

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-! ## The stage functions -/

/-- The all-zero [64, 128] array the pooling scatters into. -/
def zerosG : FVec Ideal S64x128 .f32 := broadcastInDim S64x128 ![] bcast_S_S64x128 (constant S_ .f32 0x00000000#32)
/-- The all-zero [50000, 128] array (the edge aggregation scatters into it; a rectifier compares with it). -/
def zerosN : FVec Ideal S50000x128 .f32 := broadcastInDim S50000x128 ![] bcast_S_S50000x128 (constant S_ .f32 0x00000000#32)

/-- The [50000] ids as a [50000, 1] column. -/
def colR (ids : IVec S50000 32) : IVec S50000x1 32 := broadcastInDim S50000x1 ![0] bcast_S50000_S50000x1_0 ids

/-- Sum pooling: row `k` of the result is the sum of the rows `r` of `u` whose id is `k` (a scatter-add into zeros). -/
def poolR (ids : IVec S50000 32) (u : FVec Ideal S50000x128 .f32) : FVec Ideal S64x128 .f32 :=
  Host.scatterAdd scatter_S64x128_S50000x1_S50000x128_1_0_0_1 zerosG (colR ids) u

/-- The per-graph context: the pooled initial features plus the pooled lead features. -/
def ctxR (initF : FVec Ideal S50000x128 .f32) (initIds : IVec S50000 32) (leadF : FVec Ideal S50000x128 .f32)
    (leadIds : IVec S50000 32) : FVec Ideal S64x128 .f32 :=
  addf (poolR initIds initF) (poolR leadIds leadF)

/-- The neighbour aggregation over the 400000 edges: gather the rows of `h` at the (wrapped) source nodes, scatter-add
    them at the destination nodes. Carried as one function of `(src, dst, h)`; never read at an index. -/
def aggR (src dst : IVec S400000 32) (h : FVec Ideal S50000x128 .f32) : FVec Ideal S50000x128 .f32 :=
  Host.scatterAdd scatter_S50000x128_S400000x1_S400000x128_1_0_0_1 zerosN
    (broadcastInDim S400000x1 ![0] bcast_S400000_S400000x1_0 dst)
    (Host.gather gather_S50000x128_S400000x1_S400000x128_1_0_n_n_0_1_1128 h
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src)))

/-- The ids with a negative id wrapped by 64 (what indexing by an integer array does before it gathers). -/
def normIdsR (ids : IVec S50000 32) : IVec S50000 32 :=
  select (cmpi .slt ids (broadcastInDim S50000 ![] bcast_S_S50000 (constantI S_ 32 0#32)))
    (addi ids (broadcastInDim S50000 ![] bcast_S_S50000 (constantI S_ 32 64#32))) ids

/-- A per-graph [64, 128] table spread to the nodes: node `n` reads row `ids[n]`. -/
def spreadR (ids : IVec S50000 32) (cs : FVec Ideal S64x128 .f32) : FVec Ideal S50000x128 .f32 :=
  Host.gather gather_S64x128_S50000x1_S50000x128_1_0_n_n_0_1_1128 cs (colR (normIdsR ids))

/-- A [128] bias along the 50000 rows, along the 64 rows; a [40] bias along the 64 rows. -/
def biasN (b : FVec Ideal S128 .f32) : FVec Ideal S50000x128 .f32 :=
  broadcastInDim S50000x128 ![0, 1] bcast_S1x128_S50000x128_0_1 (broadcastInDim S1x128 ![1] bcast_S128_S1x128_1 b)
def biasG (b : FVec Ideal S128 .f32) : FVec Ideal S64x128 .f32 :=
  broadcastInDim S64x128 ![0, 1] bcast_S1x128_S64x128_0_1 (broadcastInDim S1x128 ![1] bcast_S128_S1x128_1 b)
def biasA (b : FVec Ideal S40 .f32) : FVec Ideal S64x40 .f32 :=
  broadcastInDim S64x40 ![0, 1] bcast_S1x40_S64x40_0_1 (broadcastInDim S1x40 ![1] bcast_S40_S1x40_1 b)

/-- One layer's node update from its four inputs: `relu ((h + agg + cs[ids]) · W + b)`. -/
def layerR (h agg : FVec Ideal S50000x128 .f32) (ids : IVec S50000 32) (cs : FVec Ideal S64x128 .f32)
    (W : FVec Ideal S128x128 .f32) (b : FVec Ideal S128 .f32) : FVec Ideal S50000x128 .f32 :=
  maximumf (addf (Host.dotGeneral dot_S50000x128_S128x128_S50000x128_1_0_0_1_n_n none
    (addf (addf h agg) (spreadR ids cs)) W) (biasN b)) zerosN

/-- One layer as a function of the node features `h`: aggregate, pool, add the context, update. -/
def stepR (src dst : IVec S400000 32) (ids : IVec S50000 32) (ctx : FVec Ideal S64x128 .f32)
    (h : FVec Ideal S50000x128 .f32) (W : FVec Ideal S128x128 .f32) (b : FVec Ideal S128 .f32) :
    FVec Ideal S50000x128 .f32 :=
  layerR h (aggR src dst h) ids (addf (poolR ids h) ctx) W b

/-- The head on the pooled features: `relu (hg · W1 + b1) · W2 + b2`. -/
def headR (hg : FVec Ideal S64x128 .f32) (W1 : FVec Ideal S128x128 .f32) (b1 : FVec Ideal S128 .f32)
    (W2 : FVec Ideal S128x40 .f32) (b2 : FVec Ideal S40 .f32) : FVec Ideal S64x40 .f32 :=
  addf (Host.dotGeneral dot_S64x128_S128x40_S64x40_1_0_0_1_n_n none
    (maximumf (addf (Host.dotGeneral dot_S64x128_S128x128_S64x128_1_0_0_1_n_n none hg W1) (biasG b1)) zerosG) W2) (biasA b2)

/-- The node features after layers one, two and three, and the result, as functions of the arguments. -/
def h1R (x0 : FVec Ideal S50000x128 .f32) (x1 : IVec S400000 32) (x2 : IVec S400000 32) (x3 : IVec S50000 32) (x4 : FVec Ideal S50000x128 .f32) (x5 : IVec S50000 32) (x6 : FVec Ideal S50000x128 .f32) (x7 : IVec S50000 32) (x8 : FVec Ideal S128x128 .f32) (x9 : FVec Ideal S128 .f32) : FVec Ideal S50000x128 .f32 :=
  stepR x1 x2 x3 (ctxR x4 x5 x6 x7) x0 x8 x9
def h2R (x0 : FVec Ideal S50000x128 .f32) (x1 : IVec S400000 32) (x2 : IVec S400000 32) (x3 : IVec S50000 32) (x4 : FVec Ideal S50000x128 .f32) (x5 : IVec S50000 32) (x6 : FVec Ideal S50000x128 .f32) (x7 : IVec S50000 32) (x8 : FVec Ideal S128x128 .f32) (x9 : FVec Ideal S128 .f32) (x10 : FVec Ideal S128x128 .f32) (x11 : FVec Ideal S128 .f32) : FVec Ideal S50000x128 .f32 :=
  stepR x1 x2 x3 (ctxR x4 x5 x6 x7) (h1R x0 x1 x2 x3 x4 x5 x6 x7 x8 x9) x10 x11
def h3R (x0 : FVec Ideal S50000x128 .f32) (x1 : IVec S400000 32) (x2 : IVec S400000 32) (x3 : IVec S50000 32) (x4 : FVec Ideal S50000x128 .f32) (x5 : IVec S50000 32) (x6 : FVec Ideal S50000x128 .f32) (x7 : IVec S50000 32) (x8 : FVec Ideal S128x128 .f32) (x9 : FVec Ideal S128 .f32) (x10 : FVec Ideal S128x128 .f32) (x11 : FVec Ideal S128 .f32) (x12 : FVec Ideal S128x128 .f32) (x13 : FVec Ideal S128 .f32) : FVec Ideal S50000x128 .f32 :=
  stepR x1 x2 x3 (ctxR x4 x5 x6 x7) (h2R x0 x1 x2 x3 x4 x5 x6 x7 x8 x9 x10 x11) x12 x13
def refR (x0 : FVec Ideal S50000x128 .f32) (x1 : IVec S400000 32) (x2 : IVec S400000 32) (x3 : IVec S50000 32) (x4 : FVec Ideal S50000x128 .f32) (x5 : IVec S50000 32) (x6 : FVec Ideal S50000x128 .f32) (x7 : IVec S50000 32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S128x40 .f32) (x17 : FVec Ideal S40 .f32) : FVec Ideal S64x40 .f32 :=
  headR (poolR x3 (h3R x0 x1 x2 x3 x4 x5 x6 x7 x8 x9 x10 x11 x12 x13)) x14 x15 x16 x17

/-! ## The stages read at an index -/

theorem zerosG_apply (i : S64x128.Idx) : zerosG i = 0 := Ideal.ofBits_zero_f32
theorem zerosN_apply (i : S50000x128.Idx) : zerosN i = 0 := Ideal.ofBits_zero_f32

/-- The column reads the id of its row. -/
theorem colR_apply (ids : IVec S50000 32) (r : Fin 50000) : colR ids (ix2 r 0) = ids (ix1 r) := by
  unfold colR
  exact broadcastInDim_apply _ bcast_S50000_S50000x1_0 ids (ix2 r 0) (ix1 r) (fun a => match a with
    | ⟨0, _⟩ => by show r.val = if (50000 : Nat) = 1 then 0 else r.val; rw [if_neg (by decide)])

/-- Sum pooling at an index: the sum over the rows whose id (read signed) is `k`. A row whose id is outside [0, 64)
    equals no `k` and is dropped. -/
theorem poolR_apply (ids : IVec S50000 32) (u : FVec Ideal S50000x128 .f32) (k : Fin 64) (j : Fin 128) :
    poolR ids u (ix2 k j) = ∑ r : Fin 50000, (if (ids (ix1 r)).toInt = (k.val : Int) then u (ix2 r j) else 0) := by
  unfold poolR
  rw [Cert.KernelIdeal.Hand.scatterAdd_rows_apply_rec scatter_S64x128_S50000x1_S50000x128_1_0_0_1 rfl, zerosG_apply, zero_add]
  refine Finset.sum_congr rfl fun r _ => ?_
  rw [colR_apply]

theorem ctxR_apply (initF : FVec Ideal S50000x128 .f32) (initIds : IVec S50000 32) (leadF : FVec Ideal S50000x128 .f32)
    (leadIds : IVec S50000 32) (k : Fin 64) (j : Fin 128) :
    ctxR initF initIds leadF leadIds (ix2 k j) =
      (∑ r : Fin 50000, (if (initIds (ix1 r)).toInt = (k.val : Int) then initF (ix2 r j) else 0))
        + ∑ r : Fin 50000, (if (leadIds (ix1 r)).toInt = (k.val : Int) then leadF (ix2 r j) else 0) := by
  unfold ctxR
  rw [addf_apply, poolR_apply, poolR_apply]

/-- A nonnegative id is not wrapped. -/
theorem normIdsR_apply (ids : IVec S50000 32) (r : Fin 50000) (h0 : 0 ≤ (ids (ix1 r)).toInt) :
    normIdsR ids (ix1 r) = ids (ix1 r) := by
  show Scalar.select (IntOp.cmpi .slt (ids (ix1 r)) (0#32)) (IntOp.addi (ids (ix1 r)) (64#32)) (ids (ix1 r)) = ids (ix1 r)
  have hne : ¬ IntOp.cmpi .slt (ids (ix1 r)) (0#32) = 1#1 := by
    rw [IntOp.cmpi_slt]
    have z : (0#32 : BitVec 32).toInt = 0 := by decide
    rw [z]; omega
  rw [eq_zero_of_ne_one hne, select_zero]

/-- The spread table at node `n` is the table's row `g` when the node's id is `g`. -/
theorem spreadR_apply (ids : IVec S50000 32) (cs : FVec Ideal S64x128 .f32) (n : Fin 50000) (j : Fin 128) (g : Fin 64)
    (hg : (ids (ix1 n)).toInt = (g.val : Int)) : spreadR ids cs (ix2 n j) = cs (ix2 g j) := by
  unfold spreadR
  have h0 : 0 ≤ (ids (ix1 n)).toInt := by rw [hg]; exact Int.natCast_nonneg _
  have e : colR (normIdsR ids) (ix2 n 0) = ids (ix1 n) := by rw [colR_apply, normIdsR_apply ids n h0]
  exact Cert.KernelIdeal.Hand.gather_rows_apply_of_eq_rec gather_S64x128_S50000x1_S50000x128_1_0_n_n_0_1_1128 rfl cs _ n j g
    (by rw [e]; exact hg)

/-- The graph of node `n` when its id is in [0, 64). -/
def gidR (ids : IVec S50000 32) (n : Fin 50000) (h0 : 0 ≤ (ids (ix1 n)).toInt) (h1 : (ids (ix1 n)).toInt < 64) : Fin 64 :=
  ⟨(ids (ix1 n)).toInt.toNat, by omega⟩
theorem gidR_spec (ids : IVec S50000 32) (n : Fin 50000) (h0 : 0 ≤ (ids (ix1 n)).toInt) (h1 : (ids (ix1 n)).toInt < 64) :
    (ids (ix1 n)).toInt = ((gidR ids n h0 h1).val : Int) := (Int.toNat_of_nonneg h0).symm

theorem biasN_apply (b : FVec Ideal S128 .f32) (n : Fin 50000) (j : Fin 128) : biasN b (ix2 n j) = b (ix1 j) := by
  unfold biasN
  rw [broadcastInDim_apply _ bcast_S1x128_S50000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])
theorem biasG_apply (b : FVec Ideal S128 .f32) (g : Fin 64) (j : Fin 128) : biasG b (ix2 g j) = b (ix1 j) := by
  unfold biasG
  rw [broadcastInDim_apply _ bcast_S1x128_S64x128_0_1 _ (ix2 g j) (ix2 (0 : Fin 1) j) (fun a => match a with
    | ⟨0, _⟩ => by show 0 = if (1 : Nat) = 1 then 0 else g.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])
theorem biasA_apply (b : FVec Ideal S40 .f32) (g : Fin 64) (a : Fin 40) : biasA b (ix2 g a) = b (ix1 a) := by
  unfold biasA
  rw [broadcastInDim_apply _ bcast_S1x40_S64x40_0_1 _ (ix2 g a) (ix2 (0 : Fin 1) a) (fun d => match d with
    | ⟨0, _⟩ => by show 0 = if (1 : Nat) = 1 then 0 else g.val; rw [if_pos rfl]
    | ⟨1, _⟩ => by show a.val = if (40 : Nat) = 1 then 0 else a.val; rw [if_neg (by decide)])]
  exact broadcastInDim_apply _ bcast_S40_S1x40_1 b (ix2 (0 : Fin 1) a) (ix1 a) (fun d => match d with
    | ⟨0, _⟩ => by show a.val = if (40 : Nat) = 1 then 0 else a.val; rw [if_neg (by decide)])

/-- The node-level product [50000, 128] · [128, 128] at an index. -/
theorem dotN_apply (y : FVec Ideal S50000x128 .f32) (W : FVec Ideal S128x128 .f32) (n : Fin 50000) (j : Fin 128) :
    Host.dotGeneral dot_S50000x128_S128x128_S50000x128_1_0_0_1_n_n none y W (ix2 n j) = ∑ q : Fin 128, y (ix2 n q) * W (ix2 q j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n j) ((ValueIdx.contrEquiv1 dot_S50000x128_S128x128_S50000x128_1_0_0_1_n_n 128 rfl rfl).symm k) = ix2 n k := funext fun a => Fin.ext (by
    match a with
    | ⟨0, _⟩ => exact Read.lhs_main_v30_0 _ _
    | ⟨1, _⟩ => exact (Read.lhs_main_v30_1 _ _).trans hk)
  have er : dot_S50000x128_S128x128_S50000x128_1_0_0_1_n_n.rhsIdx (ix2 n j) ((ValueIdx.contrEquiv1 dot_S50000x128_S128x128_S50000x128_1_0_0_1_n_n 128 rfl rfl).symm k) = ix2 k j := funext fun a => Fin.ext (by
    match a with
    | ⟨0, _⟩ => exact (Read.rhs_main_v30_0 _ _).trans hk
    | ⟨1, _⟩ => exact Read.rhs_main_v30_1 _ _)
  rw [el, er]

/-- The graph-level product [64, 128] · [128, 128] at an index. -/
theorem dotG_apply (y : FVec Ideal S64x128 .f32) (W : FVec Ideal S128x128 .f32) (n : Fin 64) (j : Fin 128) :
    Host.dotGeneral dot_S64x128_S128x128_S64x128_1_0_0_1_n_n none y W (ix2 n j) = ∑ q : Fin 128, y (ix2 n q) * W (ix2 q j) := by
  simp only [Host.dotGeneral]
  rw [Ideal.dotGeneral_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 n j) ((ValueIdx.contrEquiv1 dot_S64x128_S128x128_S64x128_1_0_0_1_n_n 128 rfl rfl).symm k) = ix2 n k := funext fun a => Fin.ext (by
    match a with
    | ⟨0, _⟩ => exact Read.lhs_main_v94_0 _ _
    | ⟨1, _⟩ => exact (Read.lhs_main_v94_1 _ _).trans hk)
  have er : dot_S64x128_S128x128_S64x128_1_0_0_1_n_n.rhsIdx (ix2 n j) ((ValueIdx.contrEquiv1 dot_S64x128_S128x128_S64x128_1_0_0_1_n_n 128 rfl rfl).symm k) = ix2 k j := funext fun a => Fin.ext (by
    match a with
    | ⟨0, _⟩ => exact (Read.rhs_main_v94_0 _ _).trans hk
    | ⟨1, _⟩ => exact Read.rhs_main_v94_1 _ _)
  rw [el, er]

/-- The graph-level product [64, 128] · [128, 40] at an index. -/
theorem dotA_apply (y : FVec Ideal S64x128 .f32) (W : FVec Ideal S128x40 .f32) (n : Fin 64) (j : Fin 40) :
    Host.dotGeneral dot_S64x128_S128x40_S64x40_1_0_0_1_n_n none y W (ix2 n j) = ∑ q : Fin 128, y (ix2 n q) * W (ix2 q j) := by
  simp only [Host.dotGeneral]
  rw [Ideal.dotGeneral_apply, ← Equiv.sum_comp (ValueIdx.contrEquiv1 dot_S64x128_S128x40_S64x40_1_0_0_1_n_n 128 rfl rfl).symm]
  refine Finset.sum_congr rfl fun k _ => ?_
  have hk := ValueIdx.contrEquiv1_symm_val dot_S64x128_S128x40_S64x40_1_0_0_1_n_n 128 rfl rfl k
  have el : dot_S64x128_S128x40_S64x40_1_0_0_1_n_n.lhsIdx (ix2 n j) ((ValueIdx.contrEquiv1 dot_S64x128_S128x40_S64x40_1_0_0_1_n_n 128 rfl rfl).symm k) = ix2 n k := funext fun a => Fin.ext (by
    match a with
    | ⟨0, _⟩ => exact Read.lhs_main_v99_0 _ _
    | ⟨1, _⟩ => exact (Read.lhs_main_v99_1 _ _).trans hk)
  have er : dot_S64x128_S128x40_S64x40_1_0_0_1_n_n.rhsIdx (ix2 n j) ((ValueIdx.contrEquiv1 dot_S64x128_S128x40_S64x40_1_0_0_1_n_n 128 rfl rfl).symm k) = ix2 k j := funext fun a => Fin.ext (by
    match a with
    | ⟨0, _⟩ => exact (Read.rhs_main_v99_0 _ _).trans hk
    | ⟨1, _⟩ => exact Read.rhs_main_v99_1 _ _)
  rw [el, er]

/-- One layer's node update at an index, for a node whose id is `g`. -/
theorem layerR_apply (h agg : FVec Ideal S50000x128 .f32) (ids : IVec S50000 32) (cs : FVec Ideal S64x128 .f32)
    (W : FVec Ideal S128x128 .f32) (b : FVec Ideal S128 .f32) (n : Fin 50000) (j : Fin 128) (g : Fin 64)
    (hg : (ids (ix1 n)).toInt = (g.val : Int)) :
    layerR h agg ids cs W b (ix2 n j) =
      max (∑ q : Fin 128, (h (ix2 n q) + agg (ix2 n q) + cs (ix2 g q)) * W (ix2 q j) + b (ix1 j)) 0 := by
  unfold layerR
  rw [maximumf_apply, addf_apply, dotN_apply, biasN_apply, zerosN_apply]
  simp only [addf_apply, spreadR_apply ids cs n _ g hg]

/-- One layer at an index: the aggregation stays a function; the pooled features and the context are read at row `g`. -/
theorem stepR_apply (src dst : IVec S400000 32) (ids : IVec S50000 32) (ctx : FVec Ideal S64x128 .f32)
    (h : FVec Ideal S50000x128 .f32) (W : FVec Ideal S128x128 .f32) (b : FVec Ideal S128 .f32) (n : Fin 50000) (j : Fin 128)
    (g : Fin 64) (hg : (ids (ix1 n)).toInt = (g.val : Int)) :
    stepR src dst ids ctx h W b (ix2 n j) =
      max (∑ q : Fin 128, (h (ix2 n q) + aggR src dst h (ix2 n q) + (poolR ids h (ix2 g q) + ctx (ix2 g q))) * W (ix2 q j)
        + b (ix1 j)) 0 := by
  unfold stepR
  rw [layerR_apply h _ ids _ W b n j g hg]
  simp only [addf_apply]

/-- The head at an index. -/
theorem headR_apply (hg : FVec Ideal S64x128 .f32) (W1 : FVec Ideal S128x128 .f32) (b1 : FVec Ideal S128 .f32)
    (W2 : FVec Ideal S128x40 .f32) (b2 : FVec Ideal S40 .f32) (g : Fin 64) (a : Fin 40) :
    headR hg W1 b1 W2 b2 (ix2 g a) =
      (∑ q : Fin 128, max (∑ p : Fin 128, hg (ix2 g p) * W1 (ix2 p q) + b1 (ix1 q)) 0 * W2 (ix2 q a)) + b2 (ix1 a) := by
  unfold headR
  rw [addf_apply, dotA_apply, biasA_apply]
  simp only [maximumf_apply, addf_apply, dotG_apply, biasG_apply, zerosG_apply]

/-! ## The reference's result is the composition of the stages -/

section Compose
variable (x0 : FVec Ideal S50000x128 .f32) (x1 : IVec S400000 32) (x2 : IVec S400000 32) (x3 : IVec S50000 32) (x4 : FVec Ideal S50000x128 .f32) (x5 : IVec S50000 32) (x6 : FVec Ideal S50000x128 .f32) (x7 : IVec S50000 32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S128x40 .f32) (x17 : FVec Ideal S40 .f32)

theorem v6_eq : Read.val_main_v6 (F := Ideal) x4 x5 x6 x7 = ctxR x4 x5 x6 x7 := rfl
theorem v34_eq : Read.val_main_v34 (F := Ideal) x0 x1 x2 x3 x4 x5 x6 x7 x8 x9 = h1R x0 x1 x2 x3 x4 x5 x6 x7 x8 x9 := rfl
theorem v62_eq : Read.val_main_v62 (F := Ideal) x0 x1 x2 x3 x4 x5 x6 x7 x8 x9 x10 x11
    = stepR x1 x2 x3 (Read.val_main_v6 (F := Ideal) x4 x5 x6 x7) (Read.val_main_v34 (F := Ideal) x0 x1 x2 x3 x4 x5 x6 x7 x8 x9) x10 x11 := rfl
theorem v90_eq : Read.val_main_v90 (F := Ideal) x0 x1 x2 x3 x4 x5 x6 x7 x8 x9 x10 x11 x12 x13
    = stepR x1 x2 x3 (Read.val_main_v6 (F := Ideal) x4 x5 x6 x7) (Read.val_main_v62 (F := Ideal) x0 x1 x2 x3 x4 x5 x6 x7 x8 x9 x10 x11) x12 x13 := rfl
theorem v102_eq : Read.val_main_v102 (F := Ideal) x0 x1 x2 x3 x4 x5 x6 x7 x8 x9 x10 x11 x12 x13 x14 x15 x16 x17
    = headR (poolR x3 (Read.val_main_v90 (F := Ideal) x0 x1 x2 x3 x4 x5 x6 x7 x8 x9 x10 x11 x12 x13)) x14 x15 x16 x17 := rfl

/-- The reference's result as the composition of the named stages. -/
theorem ref_result_eq : Read.val_main_v102 (F := Ideal) x0 x1 x2 x3 x4 x5 x6 x7 x8 x9 x10 x11 x12 x13 x14 x15 x16 x17 = refR x0 x1 x2 x3 x4 x5 x6 x7 x8 x9 x10 x11 x12 x13 x14 x15 x16 x17 := by
  rw [v102_eq, v90_eq, v62_eq, v34_eq, v6_eq]
  rfl

end Compose

/-- The run's result term (Run module: `res_main_v102 m c`) is the composition of the stages at the launch memory's
    arguments. -/
theorem res_eq (m : (ℓ : Loc nD τ sig) → Buf (Elt Ideal) ℓ) (c : Dev nD) :
    Cert.ReferenceIdeal.Value.res_main_v102 (F := Ideal) m c =
      refR (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17)) :=
  (Read.val_main_v102_eq (F := Ideal) m c).trans (ref_result_eq _ _ _ _ _ _ _ _ _ _ _ _ _ _ _ _ _ _)

end Cert.ReferenceIdeal.RefValue

end
-- ==== Proof.Final.lean ====
/-
  THE TWO PROGRAMS END WITH EQUAL RESULTS, given the value of the kernel program's result.

  The reference program's run ends with its result at the composition of the named stages (pooling, neighbour
  aggregation, the three node updates, the head) of its own arguments. If the kernel program's result buffer, at the
  end of its run from a launch memory satisfying the precondition, holds that same composition of the kernel's
  arguments (the hypothesis `hkv`), then from launch memories that agree on the eighteen arguments both programs run,
  end with the same [64, 40] array, and leave their arguments unchanged.
-/
import proofs.«170580_j11665131176635_1_alg».proof.Defs
import proofs.«170580_j11665131176635_1_alg».proof.Proof.KFrame
import proofs.«170580_j11665131176635_1_alg».proof.Proof.RefValue
import proofs.«170580_j11665131176635_1_alg».proof.Proof.RefFrame
import proofs.«170580_j11665131176635_1_alg».proof.Proof.Gen.ReferenceIdeal.Run

noncomputable section

namespace Cert.Proof.Final

open Idealize.ShloMosaic Idealize.ShloMosaic.TcCoe Idealize.SL.Sem

/-- The algebraic claim from the kernel program's result value. -/
theorem algebraic_of
    (hkv : ∀ (m : (ℓ : Loc Cert.KernelIdeal.nD Cert.KernelIdeal.τ Cert.KernelIdeal.sig) → Buf (Elt Ideal) ℓ),
      Cert.Pre_KernelIdeal m → ∀ c : Dev Cert.KernelIdeal.nD,
      Cert.KernelIdeal.Hand.W21 (F := Ideal) m c (Proc.devRef .tc Cert.KernelIdeal.main_v58) =
        Cert.ReferenceIdeal.RefValue.refR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))) :
    Cert.algebraic_KernelIdeal_ReferenceIdeal := by
  intro m ρ m' ρ' hpre hagree
  refine ⟨fun c => Cert.ReferenceIdeal.RefValue.refR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17)), ?_, ?_⟩
  · exact (θ_run Cert.KernelIdeal.defs _ _).mono (fun _ h c => ⟨(h c).1.trans (hkv m hpre c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15, e16, e17⟩ := hagree c
    rw [(h c).1, Cert.ReferenceIdeal.RefValue.res_eq, e0, e1, e2, e3, e4, e5, e6, e7, e8, e9, e10, e11, e12, e13, e14, e15, e16, e17]

end Cert.Proof.Final

end
-- ==== Proof.KHost.lean ====
/-
  THE KERNEL PROGRAM'S HOST OPERATIONS BETWEEN ITS KERNEL CALLS, as equations of arrays.

  Between the pooling, combine and head kernels the program runs short stretches of array operations: reshapes of the
  id vectors to columns and of the biases to rows, the sum of two pooled tables, the neighbour aggregation over the
  400000 edges, and the final slice of the first 64 rows. For an arbitrary valuation `V` of the buffers, each theorem
  states what one stretch leaves in one buffer a later kernel call reads, as a named function of `V`'s contents. The
  layout functions come with a lemma reading them at an index (a column at `(r, 0)` is the vector at `r`; a row at
  `(0, j)` is the vector at `j`; the slice at `(g, a)` is the array at `(g, a)`). The neighbour aggregation is the
  same chain of operations the reference applies, so it is stated with the reference's function and never opened.
-/
import proofs.«170580_j11665131176635_1_alg».proof.Proof.KernelIdealLaunchP
import Idealize.ShloMosaic.Lib.StableHlo.Run
import proofs.«170580_j11665131176635_1_alg».proof.Proof.RefValue

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx Idealize.SL.Sem Idealize.ShloMosaic.StableHlo

/-! ## The layout operations of the host glue, read at an index -/

/-- A [50000] array as a [50000, 1] column. -/
def colK (x : IVec S50000 32) : IVec S50000x1 32 := shapeCast S50000x1 x shapeCasts_S50000_S50000x1
theorem colK_apply (x : IVec S50000 32) (r : Fin 50000) : colK x (ix2 r 0) = x (ix1 r) := by
  unfold colK
  refine shapeCast_apply x shapeCasts_S50000_S50000x1 (ix2 r 0) (ix1 r) ?_
  rw [Shape.rowMajor_val_one, Shape.rowMajor_val_two]
  show r.val = r.val * 1 + 0
  omega

/-- A [128] array as a [1, 128] row. -/
def rowK (b : FVec Ideal S128 .f32) : FVec Ideal S1x128 .f32 := shapeCast S1x128 b shapeCasts_S128_S1x128
theorem rowK_apply (b : FVec Ideal S128 .f32) (j : Fin 128) : rowK b (ix2 0 j) = b (ix1 j) := by
  unfold rowK
  refine shapeCast_apply b shapeCasts_S128_S1x128 (ix2 0 j) (ix1 j) ?_
  rw [Shape.rowMajor_val_one, Shape.rowMajor_val_two]
  show j.val = 0 * 128 + j.val
  omega

/-- A [40] array as a [1, 40] row. -/
def rowK40 (b : FVec Ideal S40 .f32) : FVec Ideal S1x40 .f32 := shapeCast S1x40 b shapeCasts_S40_S1x40
theorem rowK40_apply (b : FVec Ideal S40 .f32) (a : Fin 40) : rowK40 b (ix2 0 a) = b (ix1 a) := by
  unfold rowK40
  refine shapeCast_apply b shapeCasts_S40_S1x40 (ix2 0 a) (ix1 a) ?_
  rw [Shape.rowMajor_val_one, Shape.rowMajor_val_two]
  show a.val = 0 * 40 + a.val
  omega

/-- The first 64 rows of a [128, 40] array. -/
def sliceK (x : FVec Ideal S128x40 .f32) : FVec Ideal S64x40 .f32 :=
  extractStridedSlice S64x40 ![0, 0] x slices_S128x40_S64x40_0_0
theorem sliceK_apply (x : FVec Ideal S128x40 .f32) (g : Fin 64) (a : Fin 40) :
    sliceK x (ix2 g a) = x (ix2 ⟨g.val, by omega⟩ a) := by
  unfold sliceK
  refine extractStridedSlice_apply _ x slices_S128x40_S64x40_0_0 (ix2 g a) (ix2 ⟨g.val, by omega⟩ a) (fun d => ?_)
  match d with
  | ⟨0, _⟩ => show g.val = 0 + g.val; omega
  | ⟨1, _⟩ => show a.val = 0 + a.val; omega

/-! ## What each stretch of host operations leaves, over an arbitrary valuation -/

section Stretches
variable (V : Valuation τ sig (Elt Ideal))

/-- Stretch 0: the ids as a column. -/
theorem host0_v0 : after (hostOps0 (F := Ideal)) V (Proc.devRef .tc main_v0) = colK (V (Proc.devRef .tc main_arg5)) := by
  after_results
  rfl

/-- Stretch 1: the ids as a column. -/
theorem host1_v2 : after (hostOps1 (F := Ideal)) V (Proc.devRef .tc main_v2) = colK (V (Proc.devRef .tc main_arg7)) := by
  after_results
  rfl

set_option maxHeartbeats 1600000 in
/-- Stretch 2: the context, the sum of the two pooled feature sets. -/
theorem host2_v4 : after (hostOps2 (F := Ideal)) V (Proc.devRef .tc main_v4)
    = addf (F := Ideal) (s := S128x128) (φ := .f32) (V (Proc.devRef .tc main_v1)) (V (Proc.devRef .tc main_v3)) := by
  after_results_simp

set_option maxHeartbeats 1600000 in
/-- Stretch 2: the edge aggregation of the current node features. -/
theorem host2_v14 : after (hostOps2 (F := Ideal)) V (Proc.devRef .tc main_v14)
    = Cert.ReferenceIdeal.RefValue.aggR (V (Proc.devRef .tc main_arg1)) (V (Proc.devRef .tc main_arg2)) (V (Proc.devRef .tc main_arg0)) := by
  after_results_simp
  rfl

set_option maxHeartbeats 1600000 in
/-- Stretch 2: the ids as a column. -/
theorem host2_v15 : after (hostOps2 (F := Ideal)) V (Proc.devRef .tc main_v15) = colK (V (Proc.devRef .tc main_arg3)) := by
  after_results_simp
  rfl

/-- Stretch 3: the pooled features plus the context. -/
theorem host3_v17 : after (hostOps3 (F := Ideal)) V (Proc.devRef .tc main_v17)
    = addf (F := Ideal) (s := S128x128) (φ := .f32) (V (Proc.devRef .tc main_v16)) (V (Proc.devRef .tc main_v4)) := by
  after_results

/-- Stretch 3: the ids as a column. -/
theorem host3_v18 : after (hostOps3 (F := Ideal)) V (Proc.devRef .tc main_v18) = colK (V (Proc.devRef .tc main_arg3)) := by
  after_results
  rfl

/-- Stretch 3: the bias as a row. -/
theorem host3_v19 : after (hostOps3 (F := Ideal)) V (Proc.devRef .tc main_v19) = rowK (V (Proc.devRef .tc main_arg9)) := by
  after_results
  rfl

set_option maxHeartbeats 1600000 in
/-- Stretch 4: the edge aggregation of the current node features. -/
theorem host4_v30 : after (hostOps4 (F := Ideal)) V (Proc.devRef .tc main_v30)
    = Cert.ReferenceIdeal.RefValue.aggR (V (Proc.devRef .tc main_arg1)) (V (Proc.devRef .tc main_arg2)) (V (Proc.devRef .tc main_v20)) := by
  after_results_simp
  rfl

set_option maxHeartbeats 1600000 in
/-- Stretch 4: the ids as a column. -/
theorem host4_v31 : after (hostOps4 (F := Ideal)) V (Proc.devRef .tc main_v31) = colK (V (Proc.devRef .tc main_arg3)) := by
  after_results_simp
  rfl

/-- Stretch 5: the pooled features plus the context. -/
theorem host5_v33 : after (hostOps5 (F := Ideal)) V (Proc.devRef .tc main_v33)
    = addf (F := Ideal) (s := S128x128) (φ := .f32) (V (Proc.devRef .tc main_v32)) (V (Proc.devRef .tc main_v4)) := by
  after_results

/-- Stretch 5: the ids as a column. -/
theorem host5_v34 : after (hostOps5 (F := Ideal)) V (Proc.devRef .tc main_v34) = colK (V (Proc.devRef .tc main_arg3)) := by
  after_results
  rfl

/-- Stretch 5: the bias as a row. -/
theorem host5_v35 : after (hostOps5 (F := Ideal)) V (Proc.devRef .tc main_v35) = rowK (V (Proc.devRef .tc main_arg11)) := by
  after_results
  rfl

set_option maxHeartbeats 1600000 in
/-- Stretch 6: the edge aggregation of the current node features. -/
theorem host6_v46 : after (hostOps6 (F := Ideal)) V (Proc.devRef .tc main_v46)
    = Cert.ReferenceIdeal.RefValue.aggR (V (Proc.devRef .tc main_arg1)) (V (Proc.devRef .tc main_arg2)) (V (Proc.devRef .tc main_v36)) := by
  after_results_simp
  rfl

set_option maxHeartbeats 1600000 in
/-- Stretch 6: the ids as a column. -/
theorem host6_v47 : after (hostOps6 (F := Ideal)) V (Proc.devRef .tc main_v47) = colK (V (Proc.devRef .tc main_arg3)) := by
  after_results_simp
  rfl

/-- Stretch 7: the pooled features plus the context. -/
theorem host7_v49 : after (hostOps7 (F := Ideal)) V (Proc.devRef .tc main_v49)
    = addf (F := Ideal) (s := S128x128) (φ := .f32) (V (Proc.devRef .tc main_v48)) (V (Proc.devRef .tc main_v4)) := by
  after_results

/-- Stretch 7: the ids as a column. -/
theorem host7_v50 : after (hostOps7 (F := Ideal)) V (Proc.devRef .tc main_v50) = colK (V (Proc.devRef .tc main_arg3)) := by
  after_results
  rfl

/-- Stretch 7: the bias as a row. -/
theorem host7_v51 : after (hostOps7 (F := Ideal)) V (Proc.devRef .tc main_v51) = rowK (V (Proc.devRef .tc main_arg13)) := by
  after_results
  rfl

/-- Stretch 8: the ids as a column. -/
theorem host8_v53 : after (hostOps8 (F := Ideal)) V (Proc.devRef .tc main_v53) = colK (V (Proc.devRef .tc main_arg3)) := by
  after_results
  rfl

/-- Stretch 9: the bias as a row. -/
theorem host9_v55 : after (hostOps9 (F := Ideal)) V (Proc.devRef .tc main_v55) = rowK (V (Proc.devRef .tc main_arg15)) := by
  after_results
  rfl

/-- Stretch 9: the last bias as a row. -/
theorem host9_v56 : after (hostOps9 (F := Ideal)) V (Proc.devRef .tc main_v56) = rowK40 (V (Proc.devRef .tc main_arg17)) := by
  after_results
  rfl

/-- Stretch 10: the result is the first 64 rows of the head's output. -/
theorem host10_v58 : after (hostOps10 (F := Ideal)) V (Proc.devRef .tc main_v58) = sliceK (V (Proc.devRef .tc main_v57)) := by
  after_results
  rfl

end Stretches

end Cert.KernelIdeal.Hand

end
-- ==== Proof.LibOneHotSum.lean ====
/-
  ONE-HOT SUMS OVER THE EXTENDED REALS.

  A matrix product against a one-hot matrix is a selection or a masked sum. The lemmas here are pure algebra over
  `EReal` and finite index types; they use only that `EReal` is a commutative additive monoid and that `1 * x = x`,
  `0 * x = 0` hold for EVERY extended real (also for `±∞`: Mathlib's `EReal` is a `CommMonoidWithZero`), so no
  finiteness hypothesis appears anywhere.

  * `sum_onehot_mul` / `sum_mul_onehot`: `∑ i, (if p i then 1 else 0) * f i = ∑ i, if p i then f i else 0` (and with the
    factors swapped): multiplying by a `0/1` indicator masks the summand.
  * `sum_onehot_mul_eq` / `sum_onehot_mul_eq'`: `∑ k, (if g = k then 1 else 0) * c k = c g` (and with `k = g`): a one-hot
    row selects one term. `sum_onehot_mul_none`: if the indicator is nowhere `1`, the sum is `0`.
  * `sum_onehot_int_mul` / `sum_onehot_int_mul_none`: the indicator compares an INTEGER `g` with the positions
    `k : Fin K`: the sum is `c k₀` when `g = k₀`, and `0` when `g < 0` or `K ≤ g` (no position matches).
  * `sum_fin_mul` / `sum_fin_eq_mul`: a sum over `Fin (A * B)` (or over `Fin N` with `N = A * B`) regrouped as the double
    sum over blocks `a : Fin A` and offsets `b : Fin B`, the element being `a * B + b`. `sum_fin_mul'` is the same in the
    form Mathlib's `finProdFinEquiv` gives (`b + B * a`).
-/
import Idealize.ShloMosaic.Lib.ValueIdx

noncomputable section

open scoped BigOperators

namespace Cert.KernelIdeal.Hand

/-! ## Masking by an indicator -/

/-- Multiplying on the left by a `0/1` indicator masks the summand: `1 * x = x` and `0 * x = 0` for every extended
    real `x`. -/
theorem sum_onehot_mul {ι : Type*} [Fintype ι] (p : ι → Prop) [DecidablePred p] (f : ι → EReal) :
    ∑ i, (if p i then (1 : EReal) else 0) * f i = ∑ i, (if p i then f i else 0) := by
  refine Finset.sum_congr rfl fun i _ => ?_
  by_cases h : p i
  · rw [if_pos h, if_pos h, one_mul]
  · rw [if_neg h, if_neg h, zero_mul]

/-- The same with the indicator on the right. -/
theorem sum_mul_onehot {ι : Type*} [Fintype ι] (p : ι → Prop) [DecidablePred p] (f : ι → EReal) :
    ∑ i, f i * (if p i then (1 : EReal) else 0) = ∑ i, (if p i then f i else 0) := by
  refine Finset.sum_congr rfl fun i _ => ?_
  by_cases h : p i
  · rw [if_pos h, if_pos h, mul_one]
  · rw [if_neg h, if_neg h, mul_zero]

/-- One term of the above: an indicator times a value. -/
theorem onehot_mul {p : Prop} [Decidable p] (x : EReal) : (if p then (1 : EReal) else 0) * x = if p then x else 0 := by
  by_cases h : p
  · rw [if_pos h, if_pos h, one_mul]
  · rw [if_neg h, if_neg h, zero_mul]

/-! ## Selection by a one-hot row -/

/-- A one-hot row selects one term: `∑ k, [g = k] * c k = c g`. -/
theorem sum_onehot_mul_eq {ι : Type*} [Fintype ι] [DecidableEq ι] (g : ι) (c : ι → EReal) :
    ∑ k, (if g = k then (1 : EReal) else 0) * c k = c g := by
  rw [sum_onehot_mul, Finset.sum_ite_eq Finset.univ g c, if_pos (Finset.mem_univ g)]

/-- The same with the comparison written `k = g`. -/
theorem sum_onehot_mul_eq' {ι : Type*} [Fintype ι] [DecidableEq ι] (g : ι) (c : ι → EReal) :
    ∑ k, (if k = g then (1 : EReal) else 0) * c k = c g := by
  rw [sum_onehot_mul, Finset.sum_ite_eq' Finset.univ g c, if_pos (Finset.mem_univ g)]

/-- If the indicator is nowhere `1`, the sum is `0`. -/
theorem sum_onehot_mul_none {ι : Type*} [Fintype ι] (p : ι → Prop) [DecidablePred p] (c : ι → EReal)
    (h : ∀ k, ¬ p k) : ∑ k, (if p k then (1 : EReal) else 0) * c k = 0 := by
  rw [sum_onehot_mul]
  exact Finset.sum_eq_zero fun k _ => if_neg (h k)

/-- The masked sum with no indicator `1` is `0`. -/
theorem sum_ite_none {ι : Type*} [Fintype ι] (p : ι → Prop) [DecidablePred p] (c : ι → EReal)
    (h : ∀ k, ¬ p k) : ∑ k, (if p k then c k else 0) = 0 :=
  Finset.sum_eq_zero fun k _ => if_neg (h k)

/-- An integer `g` compared with the positions `k : Fin K`: when `g` is the position `k₀`, the one-hot row selects
    `c k₀`. -/
theorem sum_onehot_int_mul {K : Nat} (g : Int) (c : Fin K → EReal) (k₀ : Fin K) (h : g = (k₀.val : Int)) :
    ∑ k : Fin K, (if g = (k.val : Int) then (1 : EReal) else 0) * c k = c k₀ := by
  rw [← sum_onehot_mul_eq k₀ c]
  refine Finset.sum_congr rfl fun k _ => ?_
  have : (g = (k.val : Int)) ↔ k₀ = k := by
    rw [h]; constructor
    · intro hk; exact Fin.ext (by exact_mod_cast hk)
    · rintro rfl; rfl
  simp only [this]

/-- An integer `g` outside `[0, K)` matches no position: the sum is `0`. -/
theorem sum_onehot_int_mul_none {K : Nat} (g : Int) (c : Fin K → EReal) (h : g < 0 ∨ (K : Int) ≤ g) :
    ∑ k : Fin K, (if g = (k.val : Int) then (1 : EReal) else 0) * c k = 0 :=
  sum_onehot_mul_none _ c fun k hk => by have := k.isLt; omega

/-- The masked sum over the positions equal to an integer `g`: the one matching term. -/
theorem sum_ite_int_eq {K : Nat} (g : Int) (c : Fin K → EReal) (k₀ : Fin K) (h : g = (k₀.val : Int)) :
    ∑ k : Fin K, (if g = (k.val : Int) then c k else 0) = c k₀ := by
  rw [← sum_onehot_mul, sum_onehot_int_mul g c k₀ h]

/-! ## A sum over `A * B` elements as a sum over blocks and offsets -/

/-- A sum over `Fin (A * B)` is the double sum over `a : Fin A`, `b : Fin B` of the element `b + B * a` (the form of
    Mathlib's `finProdFinEquiv`). -/
theorem sum_fin_mul' {M : Type*} [AddCommMonoid M] (A B : Nat) (f : Fin (A * B) → M) :
    ∑ i, f i = ∑ a : Fin A, ∑ b : Fin B, f (finProdFinEquiv (a, b)) := by
  rw [← Equiv.sum_comp finProdFinEquiv f, Fintype.sum_prod_type]

/-- `a * B + b` is below `A * B` for `a < A`, `b < B`. -/
theorem block_lt {A B : Nat} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `Fin (A * B)` is the double sum over blocks `a : Fin A` and offsets `b : Fin B` of the element
    `a * B + b`. -/
theorem sum_fin_mul {M : Type*} [AddCommMonoid M] (A B : Nat) (f : Fin (A * B) → M) :
    ∑ i, f i = ∑ a : Fin A, ∑ b : Fin B, f ⟨a.val * B + b.val, block_lt a b⟩ := by
  rw [sum_fin_mul']
  refine Finset.sum_congr rfl fun a _ => Finset.sum_congr rfl fun b _ => ?_
  congr 1
  exact Fin.ext (by show b.val + B * a.val = a.val * B + b.val; ring)

/-- The same over `Fin N` when `N = A * B` (for a literal `N`). -/
theorem sum_fin_eq_mul {M : Type*} [AddCommMonoid M] {N : Nat} (A B : Nat) (hN : N = A * B) (f : Fin N → M) :
    ∑ i, f i = ∑ a : Fin A, ∑ b : Fin B, f ⟨a.val * B + b.val, hN ▸ block_lt a b⟩ := by
  subst hN
  exact sum_fin_mul A B f

end Cert.KernelIdeal.Hand

end
-- ==== Proof.PoolValue0.lean ====
/-
  THE FIRST POOLING CALL'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k0_pay2` of the two staged blocks and the previous sum (over the cleared accumulator
  `k0_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool0_value`). No finiteness is needed: extended-real addition is commutative and associative.
-/
import proofs.«170580_j11665131176635_1_alg».proof.Proof.Pool0
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP0 : (![0, 0] : Fin 2 → Nat) = fun _ => 0 := funext fun a => by fin_cases a <;> rfl

theorem accMid0_eq (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : ¬isLast0 i)
    (x1 : Vec F S2000x1 .i32) (x2 : Vec F S2000x128 .f32) (s : Vec F S128x128 .f32) :
    asBlock0 (runMid0 c i a1 h1 a2 h2 a3 h3 a4 h4 hf hl x1 x2 s).1 = k0_pay2 x1 x2 s := by
  dsimp only [asBlock0]
  rw [View.read_writes_eq_canon _ _ _ (coverMid0 c i a1 h1 a2 h2 a3 h3 a4 h4 hf hl x1 x2 s)]
  unfold runMid0
  dsimp only
  rw [View.canon_unit_zero hzP0]
  simp only [View.readAt_eq_ld, h1.read_unread, h2.read_unread, h4.read_unread, View.ld_unit_zero (S := S2000x1) hzP0,
    View.ld_unit_zero (S := S2000x128) hzP0, View.ld_unit_zero (S := S128x128) hzP0]

theorem accFirst0_eq (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst0 i) (hl : ¬isLast0 i)
    (x1 : Vec F S2000x1 .i32) (x2 : Vec F S2000x128 .f32) :
    asBlock0 (runFirst0 c i a1 h1 a2 h2 a3 h3 a4 h4 hf hl x1 x2).1 = k0_pay2 x1 x2 k0_pay1 := by
  dsimp only [asBlock0]
  rw [View.read_writes_eq_canon _ _ _ (coverFirst0 c i a1 h1 a2 h2 a3 h3 a4 h4 hf hl x1 x2)]
  unfold runFirst0
  dsimp only
  sl_unfold_words
  rw [View.canon_cons_unit_zero (S := S128x128) hzP0, View.readCov_unit_zero (S := S128x128) _ hzP0]
  simp only [View.readAt_eq_ld, h1.read_unread, h2.read_unread, View.ld_unit_zero (S := S2000x1) hzP0,
    View.ld_unit_zero (S := S2000x128) hzP0]

theorem accLast0_eq (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : isLast0 i)
    (x1 : Vec F S2000x1 .i32) (x2 : Vec F S2000x128 .f32) (s : Vec F S128x128 .f32) :
    asBlock0 (runLast0 c i a1 h1 a2 h2 a3 h3 a4 h4 hf hl x1 x2 s).2.1 = k0_pay2 x1 x2 s := by
  dsimp only [asBlock0]
  rw [View.read_writes_eq_canon _ _ _ (coverLastAcc0 c i a1 h1 a2 h2 a3 h3 a4 h4 hf hl x1 x2 s)]
  unfold runLast0
  dsimp only
  sl_unfold_words
  rw [View.canon_unit_zero hzP0]
  simp only [View.readAt_eq_ld, h1.read_unread, h2.read_unread, h4.read_unread, View.ld_unit_zero (S := S2000x1) hzP0,
    View.ld_unit_zero (S := S2000x128) hzP0, View.ld_unit_zero (S := S128x128) hzP0]

theorem outLast0_eq (c : Dev nD) (i : grid0.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst0 i) (hl : isLast0 i)
    (x1 : Vec F S2000x1 .i32) (x2 : Vec F S2000x128 .f32) (s : Vec F S128x128 .f32) :
    asBlock0 (runLast0 c i a1 h1 a2 h2 a3 h3 a4 h4 hf hl x1 x2 s).1 = k0_pay2 x1 x2 s := by
  dsimp only [asBlock0]
  rw [View.read_writes_eq_canon _ _ _ (coverLastOut0 c i a1 h1 a2 h2 a3 h3 a4 h4 hf hl x1 x2 s)]
  unfold runLast0
  dsimp only
  sl_unfold_words
  rw [View.canon_unit_zero hzP0, View.readCov_unit_zero (S := S128x128) _ hzP0]
  simp only [View.readAt_eq_ld, h1.read_unread, h2.read_unread, h4.read_unread, View.ld_unit_zero (S := S2000x1) hzP0,
    View.ld_unit_zero (S := S2000x128) hzP0, View.ld_unit_zero (S := S128x128) hzP0]

end Pieces

/-! ## (ii) The body's arithmetic at an index, at the ideal instance -/
/-- A column `[a, 1]` broadcast to `[a, b]` reads, at `(p, q)`, the column's entry `p`. -/
theorem broadcastTo_a1_ab_apply0 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff0 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq0 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k0_pay1_apply (i : S128x128.Idx) : k0_pay1 (F := Ideal) i = 0 := by
  unfold k0_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot0_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq0]
  have e1 : broadcastTo S2000x128 (shapeCast S2000x1 x1 shapeCasts_S2000x1_S2000x1) broadcasts_S2000x1_S2000x128 (ix2 r k)
      = x1 (ix2 r 0) :=
    (broadcastTo_a1_ab_apply0 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff0 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot0 : DotDims S2000x128 S2000x128 S128x128 := dot_S2000x128_S2000x128_S128x128_0_0_1_1_n_n

theorem poolDot0_lhs0 (i : S128x128.Idx) (q : poolDot0.contr.Idx) :
    (poolDot0.lhsIdx i q 0).val = (q ⟨0, by decide⟩).val :=
  poolDot0.lhsIdx_val_of_single rfl i q
theorem poolDot0_lhs1 (i : S128x128.Idx) (q : poolDot0.contr.Idx) : (poolDot0.lhsIdx i q 1).val = (i 0).val := by
  unfold DotDims.lhsIdx
  rw [dif_neg (show ¬(1 : Fin S2000x128.rank) ∈ poolDot0.lhsBatch by decide),
    dif_pos (show (1 : Fin S2000x128.rank) ∈ poolDot0.lhsNonContracting by decide)]
  rfl
theorem poolDot0_rhs0 (i : S128x128.Idx) (q : poolDot0.contr.Idx) :
    (poolDot0.rhsIdx i q 0).val = (q ⟨0, by decide⟩).val :=
  poolDot0.rhsIdx_val_of_single rfl i q
theorem poolDot0_rhs1 (i : S128x128.Idx) (q : poolDot0.contr.Idx) : (poolDot0.rhsIdx i q 1).val = (i 1).val := by
  unfold DotDims.rhsIdx
  rw [dif_neg (show ¬(1 : Fin S2000x128.rank) ∈ poolDot0.rhsBatch by decide),
    dif_pos (show (1 : Fin S2000x128.rank) ∈ poolDot0.rhsNonContracting by decide)]
  rfl

/-- The product of a `[2000, 128]` factor `L` and a `[2000, 128]` factor `R` over their rows, into a zero accumulator,
    read at `(k, j)`: `∑ r, L (r, k) * R (r, j)`. -/
theorem poolDot0_apply {φ₁ φ₂ : FTy} (L : FVec Ideal S2000x128 φ₁) (R : FVec Ideal S2000x128 φ₂) (k j : Fin 128) :
    FloatOps.matmul poolDot0 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot0 2000 rfl rfl).symm]
  refine Finset.sum_congr rfl fun r _ => ?_
  have hr := contrEquiv1_symm_val poolDot0 2000 rfl rfl r
  have el : poolDot0.lhsIdx (ix2 k j) ((contrEquiv1 poolDot0 2000 rfl rfl).symm r) = ix2 r k := funext fun a => Fin.ext (by
    match a with
    | ⟨0, _⟩ => exact (poolDot0_lhs0 _ _).trans hr
    | ⟨1, _⟩ => exact poolDot0_lhs1 _ _)
  have er : poolDot0.rhsIdx (ix2 k j) ((contrEquiv1 poolDot0 2000 rfl rfl).symm r) = ix2 r j := funext fun a => Fin.ext (by
    match a with
    | ⟨0, _⟩ => exact (poolDot0_rhs0 _ _).trans hr
    | ⟨1, _⟩ => exact poolDot0_rhs1 _ _)
  rw [el, er]

/-- THE BODY'S ARITHMETIC AT `(k, j)`: the previous sum plus the sum, over the block's 2000 rows, of the feature row's
    entry `j` for the rows whose id is `k`. -/
theorem k0_pay2_apply (x1 : Vec Ideal S2000x1 .i32) (x2 : Vec Ideal S2000x128 .f32) (prev : Vec Ideal S128x128 .f32)
    (k j : Fin 128) :
    k0_pay2 (F := Ideal) x1 x2 prev (ix2 k j)
      = prev (ix2 k j) + ∑ r : Fin 2000, (if (x1 (ix2 r 0)).toInt = (k.val : Int) then x2 (ix2 r j) else 0) := by
  unfold k0_pay2
  refine (congrFun (shapeCast_self _ _) (ix2 k j)).trans ?_
  refine (addf_apply _ _ _).trans ?_
  congr 1
  refine (poolDot0_apply _ _ k j).trans ?_
  refine Finset.sum_congr rfl fun r _ => ?_
  rw [onehot0_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn0 : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- The id block at point `t`, row `r`, is the id array at row `2000 t + r`. -/
theorem idsBlk0_apply (c : Dev nD) (t : Fin cfg0.N) (r : Fin 2000) (h : t.val * 2000 + r.val < 50000) :
    (blk0 V c 0 t : Vec F S2000x1 .i32) (ix2 r 0)
      = (V c main_v0 : S50000x1.Idx → Elt F .i32) (ix2 ⟨t.val * 2000 + r.val, h⟩ 0) := by
  have hi := (idxIn0 t).1
  unfold blk0
  rw [View.read_apply]
  show V c main_v0 _ = V c main_v0 _
  congr 1
  funext a
  apply Fin.ext
  match a with
  | ⟨0, _⟩ => show win0_0.index t 0 * 2000 + 1 * r.val = t.val * 2000 + r.val; rw [hi.1]; omega
  | ⟨1, _⟩ => show win0_0.index t 1 * 1 + 1 * 0 = 0; rw [hi.2]

/-- The feature block at point `t`, row `r`, column `j`, is the feature array at row `2000 t + r`, column `j`. -/
theorem featsBlk0_apply (c : Dev nD) (t : Fin cfg0.N) (r : Fin 2000) (j : Fin 128) (h : t.val * 2000 + r.val < 50000) :
    (blk0 V c 1 t : Vec F S2000x128 .f32) (ix2 r j)
      = (V c main_arg4 : S50000x128.Idx → Elt F .f32) (ix2 ⟨t.val * 2000 + r.val, h⟩ j) := by
  have hi := (idxIn0 t).2
  unfold blk0
  rw [View.read_apply]
  show V c main_arg4 _ = V c main_arg4 _
  congr 1
  funext a
  apply Fin.ext
  match a with
  | ⟨0, _⟩ => show win0_1.index t 0 * 2000 + 1 * r.val = t.val * 2000 + r.val; rw [hi.1]; omega
  | ⟨1, _⟩ => show win0_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm0 (c : Dev nD) (k j : Fin 128) (t r : ℕ) : EReal :=
  if h : t * 2000 + r < 50000 then
    (if ((V c main_v0 : S50000x1.Idx → BitVec 32) (ix2 ⟨t * 2000 + r, h⟩ 0)).toInt = (k.val : Int)
      then (V c main_arg4 : S50000x128.Idx → EReal) (ix2 ⟨t * 2000 + r, h⟩ j) else 0)
  else 0

/-- One point's contribution, read off its two blocks, is the sum of its rows' contributions. -/
theorem pointSum0 (c : Dev nD) (t : Fin cfg0.N) (k j : Fin 128) :
    (∑ r : Fin 2000, ((if ((blk0 V c 0 t : Vec Ideal S2000x1 .i32) (ix2 r 0)).toInt = (k.val : Int)
        then (blk0 V c 1 t : Vec Ideal S2000x128 .f32) (ix2 r j) else 0 : EReal)))
      = ∑ r : Fin 2000, rowTerm0 V c k j t.val r.val := by
  refine Finset.sum_congr rfl fun r _ => ?_
  have hN : t.val < 25 := lt_of_lt_of_eq t.isLt (show cfg0.N = 25 from N_0)
  have h : t.val * 2000 + r.val < 50000 := by have := r.isLt; omega
  unfold rowTerm0
  rw [dif_pos h, idsBlk0_apply V c t r h, featsBlk0_apply V c t r j h]

/-- THE RUNNING SUM after point `n`, at `(k, j)`: the contributions of the rows of points `0 … n`. -/
theorem accAt0_apply (c : Dev nD) (k j : Fin 128) : ∀ (n : ℕ) (hn : n < cfg0.N),
    accAt0 (F := Ideal) V c n hn (ix2 k j) = ∑ t ∈ Finset.range (n + 1), ∑ r : Fin 2000, rowTerm0 V c k j t r.val
  | 0, hn => by
    have e := (accAt0_first V c ⟨0, hn⟩ rfl).trans
      (accFirst0_eq c (grid0.coords ⟨0, hn⟩) (idsM0 ⟨0, hn⟩) (idsW0 ⟨0, hn⟩) (featsM0 ⟨0, hn⟩) (featsW0 ⟨0, hn⟩)
        (outM0 ⟨0, hn⟩) (outW0 ⟨0, hn⟩) accM0 (Memref.isWhole_whole _) _ _ (blk0 V c 0 ⟨0, hn⟩) (blk0 V c 1 ⟨0, hn⟩))
    refine (congrFun e (ix2 k j)).trans ?_
    refine (k0_pay2_apply (blk0 V c 0 ⟨0, hn⟩) (blk0 V c 1 ⟨0, hn⟩) (k0_pay1 (F := Ideal)) k j).trans ?_
    rw [k0_pay1_apply, zero_add, pointSum0 V c ⟨0, hn⟩ k j, Finset.sum_range_one]
  | n + 1, hn => by
    have ih := accAt0_apply c k j n (Nat.lt_of_succ_lt hn)
    have hz : (⟨n + 1, hn⟩ : Fin cfg0.N).val ≠ 0 := Nat.succ_ne_zero n
    have e : accAt0 (F := Ideal) V c (n + 1) hn
        = k0_pay2 (blk0 V c 0 ⟨n + 1, hn⟩) (blk0 V c 1 ⟨n + 1, hn⟩) (accAt0 V c n (Nat.lt_of_succ_lt hn)) := by
      by_cases hl : n + 1 = 24
      · exact (accAt0_last V c ⟨n + 1, hn⟩ hz hl).trans
          (accLast0_eq c (grid0.coords ⟨n + 1, hn⟩) (idsM0 ⟨n + 1, hn⟩) (idsW0 ⟨n + 1, hn⟩) (featsM0 ⟨n + 1, hn⟩)
            (featsW0 ⟨n + 1, hn⟩) (outM0 ⟨n + 1, hn⟩) (outW0 ⟨n + 1, hn⟩) accM0 (Memref.isWhole_whole _) _ _
            (blk0 V c 0 ⟨n + 1, hn⟩) (blk0 V c 1 ⟨n + 1, hn⟩) (accAt0 V c n (Nat.lt_of_succ_lt hn)))
      · exact (accAt0_mid V c ⟨n + 1, hn⟩ hz hl).trans
          (accMid0_eq c (grid0.coords ⟨n + 1, hn⟩) (idsM0 ⟨n + 1, hn⟩) (idsW0 ⟨n + 1, hn⟩) (featsM0 ⟨n + 1, hn⟩)
            (featsW0 ⟨n + 1, hn⟩) (outM0 ⟨n + 1, hn⟩) (outW0 ⟨n + 1, hn⟩) accM0 (Memref.isWhole_whole _) _ _
            (blk0 V c 0 ⟨n + 1, hn⟩) (blk0 V c 1 ⟨n + 1, hn⟩) (accAt0 V c n (Nat.lt_of_succ_lt hn)))
    refine (congrFun e (ix2 k j)).trans ?_
    refine (k0_pay2_apply (blk0 V c 0 ⟨n + 1, hn⟩) (blk0 V c 1 ⟨n + 1, hn⟩) (accAt0 V c n (Nat.lt_of_succ_lt hn)) k j).trans ?_
    rw [ih, pointSum0 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast0 : Fin cfg0.N := ⟨24, by decide⟩

/-- The running sum after the last point, as contents of the result array (its one block is the array). -/
abbrev result0 (c : Dev nD) : Buf (Elt Ideal) ((c : Thread nD τ).loc main_v1) := accAt0 (F := Ideal) V c 24 (by decide)

/-- The one write-back, at the last point, writes the running sum: the block read through zero offsets is the array. -/
theorem flushed0_eq (c : Dev nD) (t : Fin cfg0.N) (hf : (cfg0.win 2).flush t = true) :
    (dat0 (F := Ideal) V c).flushed 2 t = ((cfg0.win 2).blk t).view.read (Elt Ideal) (result0 V c) := by
  have hN : cfg0.N = 25 := N_0
  have h24 : t.val = 24 := by have := (flush0_2 t).mp hf; have := t.isLt; omega
  obtain rfl : t = tLast0 := Fin.ext h24
  show (cfg0.win 2).cut (grid0.coords tLast0) ((dat0 (F := Ideal) V c).after 2 tLast0) = _
  rw [after0_2, outAt0_last V c tLast0 (by decide) rfl,
    outLast0_eq c (grid0.coords tLast0) (idsM0 tLast0) (idsW0 tLast0) (featsM0 tLast0) (featsW0 tLast0)
      (outM0 tLast0) (outW0 tLast0) accM0 (Memref.isWhole_whole _) _ _ (blk0 V c 0 tLast0) (blk0 V c 1 tLast0) _,
    ← accLast0_eq c (grid0.coords tLast0) (idsM0 tLast0) (idsW0 tLast0) (featsM0 tLast0) (featsW0 tLast0)
      (outM0 tLast0) (outW0 tLast0) accM0 (Memref.isWhole_whole _) (fun h => absurd ((isFirst0_iff tLast0).mp h) (by decide))
      ((isLast0_iff tLast0).mpr rfl) (blk0 V c 0 tLast0) (blk0 V c 1 tLast0) _,
    ← accAt0_last V c tLast0 (by decide) rfl]
  have hz' : (fun a => win0_2.index tLast0 a * main_v1.ty.shape.size a) = fun _ => 0 := funext fun a => by fin_cases a <;> decide
  exact (Memref.read_access_unit_zero (Elt Ideal) main_v1 hz' (fun a => by rw [congrFun hz' a]; simp) (result0 V c)).symm

/-- So the result array ends holding the running sum after the last point. -/
theorem final0 (c : Dev nD) : (dat0 (F := Ideal) V c).arrAt 2 cfg0.N = result0 V c :=
  (dat0 (F := Ideal) V c).arrAt_eq_of_cover 2 (result0 V c) (flushed0_eq V c) fun i =>
    ⟨tLast0, (flush0_2 tLast0).mpr rfl, by
      show i ∈ ((View.whole main_v1).slice (win0_2.rect tLast0)).set
      rw [View.set_slice_whole, Rect.mem_set_unit]
      intro a
      have h0 : (i 0 : Nat) < 128 := (i 0).isLt
      have h1 : (i 1 : Nat) < 128 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 128 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 128 from by decide +kernel]; omega⟩

/-- THE CALL'S RESULT: element `(k, j)` of the result array is the sum, over all 50000 rows, of the feature entry
    `(r, j)` for the rows `r` whose id is `k`. -/
theorem pool0_value (c : Dev nD) (k j : Fin 128) :
    ((dat0 (F := Ideal) V c).arrAt 2 cfg0.N : S128x128.Idx → EReal) (ix2 k j)
      = ∑ r : Fin 50000, ((if ((V c main_v0 : S50000x1.Idx → BitVec 32) (ix2 r 0)).toInt = (k.val : Int)
          then (V c main_arg4 : S50000x128.Idx → EReal) (ix2 r j) else 0 : EReal)) := by
  rw [final0 V c]
  refine (accAt0_apply V c k j 24 (by decide)).trans ?_
  rw [Finset.sum_range, sum_fin_eq_mul (N := 50000) 25 2000 (by norm_num)]
  refine Finset.sum_congr rfl fun t _ => Finset.sum_congr rfl fun r _ => ?_
  unfold rowTerm0
  rw [dif_pos (block_lt t r)]

end Final

end Cert.KernelIdeal.Hand

end
-- ==== Proof.PoolValue1.lean ====
/-
  POOLING CALL 1'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k1_pay2` of the two staged blocks and the previous sum (over the cleared accumulator
  `k1_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool1_value`). No finiteness is needed: extended-real addition is commutative and associative.
-/
import proofs.«170580_j11665131176635_1_alg».proof.Proof.Pool1
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP1 : (![0, 0] : Fin 2 → Nat) = fun _ => 0 := funext fun a => by fin_cases a <;> rfl

theorem accMid1_eq (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : ¬isLast1 i)
    (x1 : Vec F S2000x1 .i32) (x2 : Vec F S2000x128 .f32) (s : Vec F S128x128 .f32) :
    asBlock1 (runMid1 c i a1 h1 a2 h2 a3 h3 a4 h4 hf hl x1 x2 s).1 = k1_pay2 x1 x2 s := by
  dsimp only [asBlock1]
  rw [View.read_writes_eq_canon _ _ _ (coverMid1 c i a1 h1 a2 h2 a3 h3 a4 h4 hf hl x1 x2 s)]
  unfold runMid1
  dsimp only
  rw [View.canon_unit_zero hzP1]
  simp only [View.readAt_eq_ld, h1.read_unread, h2.read_unread, h4.read_unread, View.ld_unit_zero (S := S2000x1) hzP1,
    View.ld_unit_zero (S := S2000x128) hzP1, View.ld_unit_zero (S := S128x128) hzP1]

theorem accFirst1_eq (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst1 i) (hl : ¬isLast1 i)
    (x1 : Vec F S2000x1 .i32) (x2 : Vec F S2000x128 .f32) :
    asBlock1 (runFirst1 c i a1 h1 a2 h2 a3 h3 a4 h4 hf hl x1 x2).1 = k1_pay2 x1 x2 k1_pay1 := by
  dsimp only [asBlock1]
  rw [View.read_writes_eq_canon _ _ _ (coverFirst1 c i a1 h1 a2 h2 a3 h3 a4 h4 hf hl x1 x2)]
  unfold runFirst1
  dsimp only
  sl_unfold_words
  rw [View.canon_cons_unit_zero (S := S128x128) hzP1, View.readCov_unit_zero (S := S128x128) _ hzP1]
  simp only [View.readAt_eq_ld, h1.read_unread, h2.read_unread, View.ld_unit_zero (S := S2000x1) hzP1,
    View.ld_unit_zero (S := S2000x128) hzP1]

theorem accLast1_eq (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : isLast1 i)
    (x1 : Vec F S2000x1 .i32) (x2 : Vec F S2000x128 .f32) (s : Vec F S128x128 .f32) :
    asBlock1 (runLast1 c i a1 h1 a2 h2 a3 h3 a4 h4 hf hl x1 x2 s).2.1 = k1_pay2 x1 x2 s := by
  dsimp only [asBlock1]
  rw [View.read_writes_eq_canon _ _ _ (coverLastAcc1 c i a1 h1 a2 h2 a3 h3 a4 h4 hf hl x1 x2 s)]
  unfold runLast1
  dsimp only
  sl_unfold_words
  rw [View.canon_unit_zero hzP1]
  simp only [View.readAt_eq_ld, h1.read_unread, h2.read_unread, h4.read_unread, View.ld_unit_zero (S := S2000x1) hzP1,
    View.ld_unit_zero (S := S2000x128) hzP1, View.ld_unit_zero (S := S128x128) hzP1]

theorem outLast1_eq (c : Dev nD) (i : grid1.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst1 i) (hl : isLast1 i)
    (x1 : Vec F S2000x1 .i32) (x2 : Vec F S2000x128 .f32) (s : Vec F S128x128 .f32) :
    asBlock1 (runLast1 c i a1 h1 a2 h2 a3 h3 a4 h4 hf hl x1 x2 s).1 = k1_pay2 x1 x2 s := by
  dsimp only [asBlock1]
  rw [View.read_writes_eq_canon _ _ _ (coverLastOut1 c i a1 h1 a2 h2 a3 h3 a4 h4 hf hl x1 x2 s)]
  unfold runLast1
  dsimp only
  sl_unfold_words
  rw [View.canon_unit_zero hzP1, View.readCov_unit_zero (S := S128x128) _ hzP1]
  simp only [View.readAt_eq_ld, h1.read_unread, h2.read_unread, h4.read_unread, View.ld_unit_zero (S := S2000x1) hzP1,
    View.ld_unit_zero (S := S2000x128) hzP1, View.ld_unit_zero (S := S128x128) hzP1]

end Pieces

/-! ## (ii) The body's arithmetic at an index, at the ideal instance -/
/-- A column `[a, 1]` broadcast to `[a, b]` reads, at `(p, q)`, the column's entry `p`. -/
theorem broadcastTo_a1_ab_apply1 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff1 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq1 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k1_pay1_apply (i : S128x128.Idx) : k1_pay1 (F := Ideal) i = 0 := by
  unfold k1_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot1_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq1]
  have e1 : broadcastTo S2000x128 (shapeCast S2000x1 x1 shapeCasts_S2000x1_S2000x1) broadcasts_S2000x1_S2000x128 (ix2 r k)
      = x1 (ix2 r 0) :=
    (broadcastTo_a1_ab_apply1 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff1 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot1 : DotDims S2000x128 S2000x128 S128x128 := dot_S2000x128_S2000x128_S128x128_0_0_1_1_n_n

theorem poolDot1_lhs0 (i : S128x128.Idx) (q : poolDot1.contr.Idx) :
    (poolDot1.lhsIdx i q 0).val = (q ⟨0, by decide⟩).val :=
  poolDot1.lhsIdx_val_of_single rfl i q
theorem poolDot1_lhs1 (i : S128x128.Idx) (q : poolDot1.contr.Idx) : (poolDot1.lhsIdx i q 1).val = (i 0).val := by
  unfold DotDims.lhsIdx
  rw [dif_neg (show ¬(1 : Fin S2000x128.rank) ∈ poolDot1.lhsBatch by decide),
    dif_pos (show (1 : Fin S2000x128.rank) ∈ poolDot1.lhsNonContracting by decide)]
  rfl
theorem poolDot1_rhs0 (i : S128x128.Idx) (q : poolDot1.contr.Idx) :
    (poolDot1.rhsIdx i q 0).val = (q ⟨0, by decide⟩).val :=
  poolDot1.rhsIdx_val_of_single rfl i q
theorem poolDot1_rhs1 (i : S128x128.Idx) (q : poolDot1.contr.Idx) : (poolDot1.rhsIdx i q 1).val = (i 1).val := by
  unfold DotDims.rhsIdx
  rw [dif_neg (show ¬(1 : Fin S2000x128.rank) ∈ poolDot1.rhsBatch by decide),
    dif_pos (show (1 : Fin S2000x128.rank) ∈ poolDot1.rhsNonContracting by decide)]
  rfl

/-- The product of a `[2000, 128]` factor `L` and a `[2000, 128]` factor `R` over their rows, into a zero accumulator,
    read at `(k, j)`: `∑ r, L (r, k) * R (r, j)`. -/
theorem poolDot1_apply {φ₁ φ₂ : FTy} (L : FVec Ideal S2000x128 φ₁) (R : FVec Ideal S2000x128 φ₂) (k j : Fin 128) :
    FloatOps.matmul poolDot1 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot1 2000 rfl rfl).symm]
  refine Finset.sum_congr rfl fun r _ => ?_
  have hr := contrEquiv1_symm_val poolDot1 2000 rfl rfl r
  have el : poolDot1.lhsIdx (ix2 k j) ((contrEquiv1 poolDot1 2000 rfl rfl).symm r) = ix2 r k := funext fun a => Fin.ext (by
    match a with
    | ⟨0, _⟩ => exact (poolDot1_lhs0 _ _).trans hr
    | ⟨1, _⟩ => exact poolDot1_lhs1 _ _)
  have er : poolDot1.rhsIdx (ix2 k j) ((contrEquiv1 poolDot1 2000 rfl rfl).symm r) = ix2 r j := funext fun a => Fin.ext (by
    match a with
    | ⟨0, _⟩ => exact (poolDot1_rhs0 _ _).trans hr
    | ⟨1, _⟩ => exact poolDot1_rhs1 _ _)
  rw [el, er]

/-- THE BODY'S ARITHMETIC AT `(k, j)`: the previous sum plus the sum, over the block's 2000 rows, of the feature row's
    entry `j` for the rows whose id is `k`. -/
theorem k1_pay2_apply (x1 : Vec Ideal S2000x1 .i32) (x2 : Vec Ideal S2000x128 .f32) (prev : Vec Ideal S128x128 .f32)
    (k j : Fin 128) :
    k1_pay2 (F := Ideal) x1 x2 prev (ix2 k j)
      = prev (ix2 k j) + ∑ r : Fin 2000, (if (x1 (ix2 r 0)).toInt = (k.val : Int) then x2 (ix2 r j) else 0) := by
  unfold k1_pay2
  refine (congrFun (shapeCast_self _ _) (ix2 k j)).trans ?_
  refine (addf_apply _ _ _).trans ?_
  congr 1
  refine (poolDot1_apply _ _ k j).trans ?_
  refine Finset.sum_congr rfl fun r _ => ?_
  rw [onehot1_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn1 : ∀ t : Fin cfg1.N, (win1_0.index t 0 = t.val ∧ win1_0.index t 1 = 0)
    ∧ (win1_1.index t 0 = t.val ∧ win1_1.index t 1 = 0) :=
  (by decide +kernel : ∀ t : Fin grid1.N, (win1_0.index t 0 = t.val ∧ win1_0.index t 1 = 0)
    ∧ (win1_1.index t 0 = t.val ∧ win1_1.index t 1 = 0))

/-- The id block at point `t`, row `r`, is the id array at row `2000 t + r`. -/
theorem idsBlk1_apply (c : Dev nD) (t : Fin cfg1.N) (r : Fin 2000) (h : t.val * 2000 + r.val < 50000) :
    (blk1 V c 0 t : Vec F S2000x1 .i32) (ix2 r 0)
      = (V c main_v2 : S50000x1.Idx → Elt F .i32) (ix2 ⟨t.val * 2000 + r.val, h⟩ 0) := by
  have hi := (idxIn1 t).1
  unfold blk1
  rw [View.read_apply]
  show V c main_v2 _ = V c main_v2 _
  congr 1
  funext a
  apply Fin.ext
  match a with
  | ⟨0, _⟩ => show win1_0.index t 0 * 2000 + 1 * r.val = t.val * 2000 + r.val; rw [hi.1]; omega
  | ⟨1, _⟩ => show win1_0.index t 1 * 1 + 1 * 0 = 0; rw [hi.2]

/-- The feature block at point `t`, row `r`, column `j`, is the feature array at row `2000 t + r`, column `j`. -/
theorem featsBlk1_apply (c : Dev nD) (t : Fin cfg1.N) (r : Fin 2000) (j : Fin 128) (h : t.val * 2000 + r.val < 50000) :
    (blk1 V c 1 t : Vec F S2000x128 .f32) (ix2 r j)
      = (V c main_arg6 : S50000x128.Idx → Elt F .f32) (ix2 ⟨t.val * 2000 + r.val, h⟩ j) := by
  have hi := (idxIn1 t).2
  unfold blk1
  rw [View.read_apply]
  show V c main_arg6 _ = V c main_arg6 _
  congr 1
  funext a
  apply Fin.ext
  match a with
  | ⟨0, _⟩ => show win1_1.index t 0 * 2000 + 1 * r.val = t.val * 2000 + r.val; rw [hi.1]; omega
  | ⟨1, _⟩ => show win1_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm1 (c : Dev nD) (k j : Fin 128) (t r : ℕ) : EReal :=
  if h : t * 2000 + r < 50000 then
    (if ((V c main_v2 : S50000x1.Idx → BitVec 32) (ix2 ⟨t * 2000 + r, h⟩ 0)).toInt = (k.val : Int)
      then (V c main_arg6 : S50000x128.Idx → EReal) (ix2 ⟨t * 2000 + r, h⟩ j) else 0)
  else 0

/-- One point's contribution, read off its two blocks, is the sum of its rows' contributions. -/
theorem pointSum1 (c : Dev nD) (t : Fin cfg1.N) (k j : Fin 128) :
    (∑ r : Fin 2000, ((if ((blk1 V c 0 t : Vec Ideal S2000x1 .i32) (ix2 r 0)).toInt = (k.val : Int)
        then (blk1 V c 1 t : Vec Ideal S2000x128 .f32) (ix2 r j) else 0 : EReal)))
      = ∑ r : Fin 2000, rowTerm1 V c k j t.val r.val := by
  refine Finset.sum_congr rfl fun r _ => ?_
  have hN : t.val < 25 := lt_of_lt_of_eq t.isLt (show cfg1.N = 25 from N_1)
  have h : t.val * 2000 + r.val < 50000 := by have := r.isLt; omega
  unfold rowTerm1
  rw [dif_pos h, idsBlk1_apply V c t r h, featsBlk1_apply V c t r j h]

/-- THE RUNNING SUM after point `n`, at `(k, j)`: the contributions of the rows of points `0 … n`. -/
theorem accAt1_apply (c : Dev nD) (k j : Fin 128) : ∀ (n : ℕ) (hn : n < cfg1.N),
    accAt1 (F := Ideal) V c n hn (ix2 k j) = ∑ t ∈ Finset.range (n + 1), ∑ r : Fin 2000, rowTerm1 V c k j t r.val
  | 0, hn => by
    have e := (accAt1_first V c ⟨0, hn⟩ rfl).trans
      (accFirst1_eq c (grid1.coords ⟨0, hn⟩) (idsM1 ⟨0, hn⟩) (idsW1 ⟨0, hn⟩) (featsM1 ⟨0, hn⟩) (featsW1 ⟨0, hn⟩)
        (outM1 ⟨0, hn⟩) (outW1 ⟨0, hn⟩) accM1 (Memref.isWhole_whole _) _ _ (blk1 V c 0 ⟨0, hn⟩) (blk1 V c 1 ⟨0, hn⟩))
    refine (congrFun e (ix2 k j)).trans ?_
    refine (k1_pay2_apply (blk1 V c 0 ⟨0, hn⟩) (blk1 V c 1 ⟨0, hn⟩) (k1_pay1 (F := Ideal)) k j).trans ?_
    rw [k1_pay1_apply, zero_add, pointSum1 V c ⟨0, hn⟩ k j, Finset.sum_range_one]
  | n + 1, hn => by
    have ih := accAt1_apply c k j n (Nat.lt_of_succ_lt hn)
    have hz : (⟨n + 1, hn⟩ : Fin cfg1.N).val ≠ 0 := Nat.succ_ne_zero n
    have e : accAt1 (F := Ideal) V c (n + 1) hn
        = k1_pay2 (blk1 V c 0 ⟨n + 1, hn⟩) (blk1 V c 1 ⟨n + 1, hn⟩) (accAt1 V c n (Nat.lt_of_succ_lt hn)) := by
      by_cases hl : n + 1 = 24
      · exact (accAt1_last V c ⟨n + 1, hn⟩ hz hl).trans
          (accLast1_eq c (grid1.coords ⟨n + 1, hn⟩) (idsM1 ⟨n + 1, hn⟩) (idsW1 ⟨n + 1, hn⟩) (featsM1 ⟨n + 1, hn⟩)
            (featsW1 ⟨n + 1, hn⟩) (outM1 ⟨n + 1, hn⟩) (outW1 ⟨n + 1, hn⟩) accM1 (Memref.isWhole_whole _) _ _
            (blk1 V c 0 ⟨n + 1, hn⟩) (blk1 V c 1 ⟨n + 1, hn⟩) (accAt1 V c n (Nat.lt_of_succ_lt hn)))
      · exact (accAt1_mid V c ⟨n + 1, hn⟩ hz hl).trans
          (accMid1_eq c (grid1.coords ⟨n + 1, hn⟩) (idsM1 ⟨n + 1, hn⟩) (idsW1 ⟨n + 1, hn⟩) (featsM1 ⟨n + 1, hn⟩)
            (featsW1 ⟨n + 1, hn⟩) (outM1 ⟨n + 1, hn⟩) (outW1 ⟨n + 1, hn⟩) accM1 (Memref.isWhole_whole _) _ _
            (blk1 V c 0 ⟨n + 1, hn⟩) (blk1 V c 1 ⟨n + 1, hn⟩) (accAt1 V c n (Nat.lt_of_succ_lt hn)))
    refine (congrFun e (ix2 k j)).trans ?_
    refine (k1_pay2_apply (blk1 V c 0 ⟨n + 1, hn⟩) (blk1 V c 1 ⟨n + 1, hn⟩) (accAt1 V c n (Nat.lt_of_succ_lt hn)) k j).trans ?_
    rw [ih, pointSum1 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast1 : Fin cfg1.N := ⟨24, by decide⟩

/-- The running sum after the last point, as contents of the result array (its one block is the array). -/
abbrev result1 (c : Dev nD) : Buf (Elt Ideal) ((c : Thread nD τ).loc main_v3) := accAt1 (F := Ideal) V c 24 (by decide)

/-- The one write-back, at the last point, writes the running sum: the block read through zero offsets is the array. -/
theorem flushed1_eq (c : Dev nD) (t : Fin cfg1.N) (hf : (cfg1.win 2).flush t = true) :
    (dat1 (F := Ideal) V c).flushed 2 t = ((cfg1.win 2).blk t).view.read (Elt Ideal) (result1 V c) := by
  have hN : cfg1.N = 25 := N_1
  have h24 : t.val = 24 := by have := (flush1_2 t).mp hf; have := t.isLt; omega
  obtain rfl : t = tLast1 := Fin.ext h24
  show (cfg1.win 2).cut (grid1.coords tLast1) ((dat1 (F := Ideal) V c).after 2 tLast1) = _
  rw [after1_2, outAt1_last V c tLast1 (by decide) rfl,
    outLast1_eq c (grid1.coords tLast1) (idsM1 tLast1) (idsW1 tLast1) (featsM1 tLast1) (featsW1 tLast1)
      (outM1 tLast1) (outW1 tLast1) accM1 (Memref.isWhole_whole _) _ _ (blk1 V c 0 tLast1) (blk1 V c 1 tLast1) _,
    ← accLast1_eq c (grid1.coords tLast1) (idsM1 tLast1) (idsW1 tLast1) (featsM1 tLast1) (featsW1 tLast1)
      (outM1 tLast1) (outW1 tLast1) accM1 (Memref.isWhole_whole _) (fun h => absurd ((isFirst1_iff tLast1).mp h) (by decide))
      ((isLast1_iff tLast1).mpr rfl) (blk1 V c 0 tLast1) (blk1 V c 1 tLast1) _,
    ← accAt1_last V c tLast1 (by decide) rfl]
  have hz' : (fun a => win1_2.index tLast1 a * main_v3.ty.shape.size a) = fun _ => 0 := funext fun a => by fin_cases a <;> decide
  exact (Memref.read_access_unit_zero (Elt Ideal) main_v3 hz' (fun a => by rw [congrFun hz' a]; simp) (result1 V c)).symm

/-- So the result array ends holding the running sum after the last point. -/
theorem final1 (c : Dev nD) : (dat1 (F := Ideal) V c).arrAt 2 cfg1.N = result1 V c :=
  (dat1 (F := Ideal) V c).arrAt_eq_of_cover 2 (result1 V c) (flushed1_eq V c) fun i =>
    ⟨tLast1, (flush1_2 tLast1).mpr rfl, by
      show i ∈ ((View.whole main_v3).slice (win1_2.rect tLast1)).set
      rw [View.set_slice_whole, Rect.mem_set_unit]
      intro a
      have h0 : (i 0 : Nat) < 128 := (i 0).isLt
      have h1 : (i 1 : Nat) < 128 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 128 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 128 from by decide +kernel]; omega⟩

/-- THE CALL'S RESULT: element `(k, j)` of the result array is the sum, over all 50000 rows, of the feature entry
    `(r, j)` for the rows `r` whose id is `k`. -/
theorem pool1_value (c : Dev nD) (k j : Fin 128) :
    ((dat1 (F := Ideal) V c).arrAt 2 cfg1.N : S128x128.Idx → EReal) (ix2 k j)
      = ∑ r : Fin 50000, ((if ((V c main_v2 : S50000x1.Idx → BitVec 32) (ix2 r 0)).toInt = (k.val : Int)
          then (V c main_arg6 : S50000x128.Idx → EReal) (ix2 r j) else 0 : EReal)) := by
  rw [final1 V c]
  refine (accAt1_apply V c k j 24 (by decide)).trans ?_
  rw [Finset.sum_range, sum_fin_eq_mul (N := 50000) 25 2000 (by norm_num)]
  refine Finset.sum_congr rfl fun t _ => Finset.sum_congr rfl fun r _ => ?_
  unfold rowTerm1
  rw [dif_pos (block_lt t r)]

end Final

end Cert.KernelIdeal.Hand

end
-- ==== Proof.PoolValue2.lean ====
/-
  POOLING CALL 2'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k2_pay2` of the two staged blocks and the previous sum (over the cleared accumulator
  `k2_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool2_value`). No finiteness is needed: extended-real addition is commutative and associative.
-/
import proofs.«170580_j11665131176635_1_alg».proof.Proof.Pool2
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP2 : (![0, 0] : Fin 2 → Nat) = fun _ => 0 := funext fun a => by fin_cases a <;> rfl

theorem accMid2_eq (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : ¬isLast2 i)
    (x1 : Vec F S2000x1 .i32) (x2 : Vec F S2000x128 .f32) (s : Vec F S128x128 .f32) :
    asBlock2 (runMid2 c i a1 h1 a2 h2 a3 h3 a4 h4 hf hl x1 x2 s).1 = k2_pay2 x1 x2 s := by
  dsimp only [asBlock2]
  rw [View.read_writes_eq_canon _ _ _ (coverMid2 c i a1 h1 a2 h2 a3 h3 a4 h4 hf hl x1 x2 s)]
  unfold runMid2
  dsimp only
  rw [View.canon_unit_zero hzP2]
  simp only [View.readAt_eq_ld, h1.read_unread, h2.read_unread, h4.read_unread, View.ld_unit_zero (S := S2000x1) hzP2,
    View.ld_unit_zero (S := S2000x128) hzP2, View.ld_unit_zero (S := S128x128) hzP2]

theorem accFirst2_eq (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst2 i) (hl : ¬isLast2 i)
    (x1 : Vec F S2000x1 .i32) (x2 : Vec F S2000x128 .f32) :
    asBlock2 (runFirst2 c i a1 h1 a2 h2 a3 h3 a4 h4 hf hl x1 x2).1 = k2_pay2 x1 x2 k2_pay1 := by
  dsimp only [asBlock2]
  rw [View.read_writes_eq_canon _ _ _ (coverFirst2 c i a1 h1 a2 h2 a3 h3 a4 h4 hf hl x1 x2)]
  unfold runFirst2
  dsimp only
  sl_unfold_words
  rw [View.canon_cons_unit_zero (S := S128x128) hzP2, View.readCov_unit_zero (S := S128x128) _ hzP2]
  simp only [View.readAt_eq_ld, h1.read_unread, h2.read_unread, View.ld_unit_zero (S := S2000x1) hzP2,
    View.ld_unit_zero (S := S2000x128) hzP2]

theorem accLast2_eq (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : isLast2 i)
    (x1 : Vec F S2000x1 .i32) (x2 : Vec F S2000x128 .f32) (s : Vec F S128x128 .f32) :
    asBlock2 (runLast2 c i a1 h1 a2 h2 a3 h3 a4 h4 hf hl x1 x2 s).2.1 = k2_pay2 x1 x2 s := by
  dsimp only [asBlock2]
  rw [View.read_writes_eq_canon _ _ _ (coverLastAcc2 c i a1 h1 a2 h2 a3 h3 a4 h4 hf hl x1 x2 s)]
  unfold runLast2
  dsimp only
  sl_unfold_words
  rw [View.canon_unit_zero hzP2]
  simp only [View.readAt_eq_ld, h1.read_unread, h2.read_unread, h4.read_unread, View.ld_unit_zero (S := S2000x1) hzP2,
    View.ld_unit_zero (S := S2000x128) hzP2, View.ld_unit_zero (S := S128x128) hzP2]

theorem outLast2_eq (c : Dev nD) (i : grid2.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst2 i) (hl : isLast2 i)
    (x1 : Vec F S2000x1 .i32) (x2 : Vec F S2000x128 .f32) (s : Vec F S128x128 .f32) :
    asBlock2 (runLast2 c i a1 h1 a2 h2 a3 h3 a4 h4 hf hl x1 x2 s).1 = k2_pay2 x1 x2 s := by
  dsimp only [asBlock2]
  rw [View.read_writes_eq_canon _ _ _ (coverLastOut2 c i a1 h1 a2 h2 a3 h3 a4 h4 hf hl x1 x2 s)]
  unfold runLast2
  dsimp only
  sl_unfold_words
  rw [View.canon_unit_zero hzP2, View.readCov_unit_zero (S := S128x128) _ hzP2]
  simp only [View.readAt_eq_ld, h1.read_unread, h2.read_unread, h4.read_unread, View.ld_unit_zero (S := S2000x1) hzP2,
    View.ld_unit_zero (S := S2000x128) hzP2, View.ld_unit_zero (S := S128x128) hzP2]

end Pieces

/-! ## (ii) The body's arithmetic at an index, at the ideal instance -/
/-- A column `[a, 1]` broadcast to `[a, b]` reads, at `(p, q)`, the column's entry `p`. -/
theorem broadcastTo_a1_ab_apply2 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff2 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq2 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k2_pay1_apply (i : S128x128.Idx) : k2_pay1 (F := Ideal) i = 0 := by
  unfold k2_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot2_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq2]
  have e1 : broadcastTo S2000x128 (shapeCast S2000x1 x1 shapeCasts_S2000x1_S2000x1) broadcasts_S2000x1_S2000x128 (ix2 r k)
      = x1 (ix2 r 0) :=
    (broadcastTo_a1_ab_apply2 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff2 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot2 : DotDims S2000x128 S2000x128 S128x128 := dot_S2000x128_S2000x128_S128x128_0_0_1_1_n_n

theorem poolDot2_lhs0 (i : S128x128.Idx) (q : poolDot2.contr.Idx) :
    (poolDot2.lhsIdx i q 0).val = (q ⟨0, by decide⟩).val :=
  poolDot2.lhsIdx_val_of_single rfl i q
theorem poolDot2_lhs1 (i : S128x128.Idx) (q : poolDot2.contr.Idx) : (poolDot2.lhsIdx i q 1).val = (i 0).val := by
  unfold DotDims.lhsIdx
  rw [dif_neg (show ¬(1 : Fin S2000x128.rank) ∈ poolDot2.lhsBatch by decide),
    dif_pos (show (1 : Fin S2000x128.rank) ∈ poolDot2.lhsNonContracting by decide)]
  rfl
theorem poolDot2_rhs0 (i : S128x128.Idx) (q : poolDot2.contr.Idx) :
    (poolDot2.rhsIdx i q 0).val = (q ⟨0, by decide⟩).val :=
  poolDot2.rhsIdx_val_of_single rfl i q
theorem poolDot2_rhs1 (i : S128x128.Idx) (q : poolDot2.contr.Idx) : (poolDot2.rhsIdx i q 1).val = (i 1).val := by
  unfold DotDims.rhsIdx
  rw [dif_neg (show ¬(1 : Fin S2000x128.rank) ∈ poolDot2.rhsBatch by decide),
    dif_pos (show (1 : Fin S2000x128.rank) ∈ poolDot2.rhsNonContracting by decide)]
  rfl

/-- The product of a `[2000, 128]` factor `L` and a `[2000, 128]` factor `R` over their rows, into a zero accumulator,
    read at `(k, j)`: `∑ r, L (r, k) * R (r, j)`. -/
theorem poolDot2_apply {φ₁ φ₂ : FTy} (L : FVec Ideal S2000x128 φ₁) (R : FVec Ideal S2000x128 φ₂) (k j : Fin 128) :
    FloatOps.matmul poolDot2 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot2 2000 rfl rfl).symm]
  refine Finset.sum_congr rfl fun r _ => ?_
  have hr := contrEquiv1_symm_val poolDot2 2000 rfl rfl r
  have el : poolDot2.lhsIdx (ix2 k j) ((contrEquiv1 poolDot2 2000 rfl rfl).symm r) = ix2 r k := funext fun a => Fin.ext (by
    match a with
    | ⟨0, _⟩ => exact (poolDot2_lhs0 _ _).trans hr
    | ⟨1, _⟩ => exact poolDot2_lhs1 _ _)
  have er : poolDot2.rhsIdx (ix2 k j) ((contrEquiv1 poolDot2 2000 rfl rfl).symm r) = ix2 r j := funext fun a => Fin.ext (by
    match a with
    | ⟨0, _⟩ => exact (poolDot2_rhs0 _ _).trans hr
    | ⟨1, _⟩ => exact poolDot2_rhs1 _ _)
  rw [el, er]

/-- THE BODY'S ARITHMETIC AT `(k, j)`: the previous sum plus the sum, over the block's 2000 rows, of the feature row's
    entry `j` for the rows whose id is `k`. -/
theorem k2_pay2_apply (x1 : Vec Ideal S2000x1 .i32) (x2 : Vec Ideal S2000x128 .f32) (prev : Vec Ideal S128x128 .f32)
    (k j : Fin 128) :
    k2_pay2 (F := Ideal) x1 x2 prev (ix2 k j)
      = prev (ix2 k j) + ∑ r : Fin 2000, (if (x1 (ix2 r 0)).toInt = (k.val : Int) then x2 (ix2 r j) else 0) := by
  unfold k2_pay2
  refine (congrFun (shapeCast_self _ _) (ix2 k j)).trans ?_
  refine (addf_apply _ _ _).trans ?_
  congr 1
  refine (poolDot2_apply _ _ k j).trans ?_
  refine Finset.sum_congr rfl fun r _ => ?_
  rw [onehot2_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn2 : ∀ t : Fin cfg2.N, (win2_0.index t 0 = t.val ∧ win2_0.index t 1 = 0)
    ∧ (win2_1.index t 0 = t.val ∧ win2_1.index t 1 = 0) :=
  (by decide +kernel : ∀ t : Fin grid2.N, (win2_0.index t 0 = t.val ∧ win2_0.index t 1 = 0)
    ∧ (win2_1.index t 0 = t.val ∧ win2_1.index t 1 = 0))

/-- The id block at point `t`, row `r`, is the id array at row `2000 t + r`. -/
theorem idsBlk2_apply (c : Dev nD) (t : Fin cfg2.N) (r : Fin 2000) (h : t.val * 2000 + r.val < 50000) :
    (blk2 V c 0 t : Vec F S2000x1 .i32) (ix2 r 0)
      = (V c main_v15 : S50000x1.Idx → Elt F .i32) (ix2 ⟨t.val * 2000 + r.val, h⟩ 0) := by
  have hi := (idxIn2 t).1
  unfold blk2
  rw [View.read_apply]
  show V c main_v15 _ = V c main_v15 _
  congr 1
  funext a
  apply Fin.ext
  match a with
  | ⟨0, _⟩ => show win2_0.index t 0 * 2000 + 1 * r.val = t.val * 2000 + r.val; rw [hi.1]; omega
  | ⟨1, _⟩ => show win2_0.index t 1 * 1 + 1 * 0 = 0; rw [hi.2]

/-- The feature block at point `t`, row `r`, column `j`, is the feature array at row `2000 t + r`, column `j`. -/
theorem featsBlk2_apply (c : Dev nD) (t : Fin cfg2.N) (r : Fin 2000) (j : Fin 128) (h : t.val * 2000 + r.val < 50000) :
    (blk2 V c 1 t : Vec F S2000x128 .f32) (ix2 r j)
      = (V c main_arg0 : S50000x128.Idx → Elt F .f32) (ix2 ⟨t.val * 2000 + r.val, h⟩ j) := by
  have hi := (idxIn2 t).2
  unfold blk2
  rw [View.read_apply]
  show V c main_arg0 _ = V c main_arg0 _
  congr 1
  funext a
  apply Fin.ext
  match a with
  | ⟨0, _⟩ => show win2_1.index t 0 * 2000 + 1 * r.val = t.val * 2000 + r.val; rw [hi.1]; omega
  | ⟨1, _⟩ => show win2_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm2 (c : Dev nD) (k j : Fin 128) (t r : ℕ) : EReal :=
  if h : t * 2000 + r < 50000 then
    (if ((V c main_v15 : S50000x1.Idx → BitVec 32) (ix2 ⟨t * 2000 + r, h⟩ 0)).toInt = (k.val : Int)
      then (V c main_arg0 : S50000x128.Idx → EReal) (ix2 ⟨t * 2000 + r, h⟩ j) else 0)
  else 0

/-- One point's contribution, read off its two blocks, is the sum of its rows' contributions. -/
theorem pointSum2 (c : Dev nD) (t : Fin cfg2.N) (k j : Fin 128) :
    (∑ r : Fin 2000, ((if ((blk2 V c 0 t : Vec Ideal S2000x1 .i32) (ix2 r 0)).toInt = (k.val : Int)
        then (blk2 V c 1 t : Vec Ideal S2000x128 .f32) (ix2 r j) else 0 : EReal)))
      = ∑ r : Fin 2000, rowTerm2 V c k j t.val r.val := by
  refine Finset.sum_congr rfl fun r _ => ?_
  have hN : t.val < 25 := lt_of_lt_of_eq t.isLt (show cfg2.N = 25 from N_2)
  have h : t.val * 2000 + r.val < 50000 := by have := r.isLt; omega
  unfold rowTerm2
  rw [dif_pos h, idsBlk2_apply V c t r h, featsBlk2_apply V c t r j h]

/-- THE RUNNING SUM after point `n`, at `(k, j)`: the contributions of the rows of points `0 … n`. -/
theorem accAt2_apply (c : Dev nD) (k j : Fin 128) : ∀ (n : ℕ) (hn : n < cfg2.N),
    accAt2 (F := Ideal) V c n hn (ix2 k j) = ∑ t ∈ Finset.range (n + 1), ∑ r : Fin 2000, rowTerm2 V c k j t r.val
  | 0, hn => by
    have e := (accAt2_first V c ⟨0, hn⟩ rfl).trans
      (accFirst2_eq c (grid2.coords ⟨0, hn⟩) (idsM2 ⟨0, hn⟩) (idsW2 ⟨0, hn⟩) (featsM2 ⟨0, hn⟩) (featsW2 ⟨0, hn⟩)
        (outM2 ⟨0, hn⟩) (outW2 ⟨0, hn⟩) accM2 (Memref.isWhole_whole _) _ _ (blk2 V c 0 ⟨0, hn⟩) (blk2 V c 1 ⟨0, hn⟩))
    refine (congrFun e (ix2 k j)).trans ?_
    refine (k2_pay2_apply (blk2 V c 0 ⟨0, hn⟩) (blk2 V c 1 ⟨0, hn⟩) (k2_pay1 (F := Ideal)) k j).trans ?_
    rw [k2_pay1_apply, zero_add, pointSum2 V c ⟨0, hn⟩ k j, Finset.sum_range_one]
  | n + 1, hn => by
    have ih := accAt2_apply c k j n (Nat.lt_of_succ_lt hn)
    have hz : (⟨n + 1, hn⟩ : Fin cfg2.N).val ≠ 0 := Nat.succ_ne_zero n
    have e : accAt2 (F := Ideal) V c (n + 1) hn
        = k2_pay2 (blk2 V c 0 ⟨n + 1, hn⟩) (blk2 V c 1 ⟨n + 1, hn⟩) (accAt2 V c n (Nat.lt_of_succ_lt hn)) := by
      by_cases hl : n + 1 = 24
      · exact (accAt2_last V c ⟨n + 1, hn⟩ hz hl).trans
          (accLast2_eq c (grid2.coords ⟨n + 1, hn⟩) (idsM2 ⟨n + 1, hn⟩) (idsW2 ⟨n + 1, hn⟩) (featsM2 ⟨n + 1, hn⟩)
            (featsW2 ⟨n + 1, hn⟩) (outM2 ⟨n + 1, hn⟩) (outW2 ⟨n + 1, hn⟩) accM2 (Memref.isWhole_whole _) _ _
            (blk2 V c 0 ⟨n + 1, hn⟩) (blk2 V c 1 ⟨n + 1, hn⟩) (accAt2 V c n (Nat.lt_of_succ_lt hn)))
      · exact (accAt2_mid V c ⟨n + 1, hn⟩ hz hl).trans
          (accMid2_eq c (grid2.coords ⟨n + 1, hn⟩) (idsM2 ⟨n + 1, hn⟩) (idsW2 ⟨n + 1, hn⟩) (featsM2 ⟨n + 1, hn⟩)
            (featsW2 ⟨n + 1, hn⟩) (outM2 ⟨n + 1, hn⟩) (outW2 ⟨n + 1, hn⟩) accM2 (Memref.isWhole_whole _) _ _
            (blk2 V c 0 ⟨n + 1, hn⟩) (blk2 V c 1 ⟨n + 1, hn⟩) (accAt2 V c n (Nat.lt_of_succ_lt hn)))
    refine (congrFun e (ix2 k j)).trans ?_
    refine (k2_pay2_apply (blk2 V c 0 ⟨n + 1, hn⟩) (blk2 V c 1 ⟨n + 1, hn⟩) (accAt2 V c n (Nat.lt_of_succ_lt hn)) k j).trans ?_
    rw [ih, pointSum2 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast2 : Fin cfg2.N := ⟨24, by decide⟩

/-- The running sum after the last point, as contents of the result array (its one block is the array). -/
abbrev result2 (c : Dev nD) : Buf (Elt Ideal) ((c : Thread nD τ).loc main_v16) := accAt2 (F := Ideal) V c 24 (by decide)

/-- The one write-back, at the last point, writes the running sum: the block read through zero offsets is the array. -/
theorem flushed2_eq (c : Dev nD) (t : Fin cfg2.N) (hf : (cfg2.win 2).flush t = true) :
    (dat2 (F := Ideal) V c).flushed 2 t = ((cfg2.win 2).blk t).view.read (Elt Ideal) (result2 V c) := by
  have hN : cfg2.N = 25 := N_2
  have h24 : t.val = 24 := by have := (flush2_2 t).mp hf; have := t.isLt; omega
  obtain rfl : t = tLast2 := Fin.ext h24
  show (cfg2.win 2).cut (grid2.coords tLast2) ((dat2 (F := Ideal) V c).after 2 tLast2) = _
  rw [after2_2, outAt2_last V c tLast2 (by decide) rfl,
    outLast2_eq c (grid2.coords tLast2) (idsM2 tLast2) (idsW2 tLast2) (featsM2 tLast2) (featsW2 tLast2)
      (outM2 tLast2) (outW2 tLast2) accM2 (Memref.isWhole_whole _) _ _ (blk2 V c 0 tLast2) (blk2 V c 1 tLast2) _,
    ← accLast2_eq c (grid2.coords tLast2) (idsM2 tLast2) (idsW2 tLast2) (featsM2 tLast2) (featsW2 tLast2)
      (outM2 tLast2) (outW2 tLast2) accM2 (Memref.isWhole_whole _) (fun h => absurd ((isFirst2_iff tLast2).mp h) (by decide))
      ((isLast2_iff tLast2).mpr rfl) (blk2 V c 0 tLast2) (blk2 V c 1 tLast2) _,
    ← accAt2_last V c tLast2 (by decide) rfl]
  have hz' : (fun a => win2_2.index tLast2 a * main_v16.ty.shape.size a) = fun _ => 0 := funext fun a => by fin_cases a <;> decide
  exact (Memref.read_access_unit_zero (Elt Ideal) main_v16 hz' (fun a => by rw [congrFun hz' a]; simp) (result2 V c)).symm

/-- So the result array ends holding the running sum after the last point. -/
theorem final2 (c : Dev nD) : (dat2 (F := Ideal) V c).arrAt 2 cfg2.N = result2 V c :=
  (dat2 (F := Ideal) V c).arrAt_eq_of_cover 2 (result2 V c) (flushed2_eq V c) fun i =>
    ⟨tLast2, (flush2_2 tLast2).mpr rfl, by
      show i ∈ ((View.whole main_v16).slice (win2_2.rect tLast2)).set
      rw [View.set_slice_whole, Rect.mem_set_unit]
      intro a
      have h0 : (i 0 : Nat) < 128 := (i 0).isLt
      have h1 : (i 1 : Nat) < 128 := (i 1).isLt
      match a with
      | ⟨0, _⟩ => show win2_2.index tLast2 0 * win2_2.size 0 ≤ (i 0 : Nat) ∧ (i 0 : Nat) < win2_2.index tLast2 0 * win2_2.size 0 + win2_2.xsize (grid2.coords tLast2) 0
                  rw [show win2_2.index tLast2 0 * win2_2.size 0 = 0 from by decide +kernel, show win2_2.xsize (grid2.coords tLast2) 0 = 128 from by decide +kernel]; omega
      | ⟨1, _⟩ => show win2_2.index tLast2 1 * win2_2.size 1 ≤ (i 1 : Nat) ∧ (i 1 : Nat) < win2_2.index tLast2 1 * win2_2.size 1 + win2_2.xsize (grid2.coords tLast2) 1
                  rw [show win2_2.index tLast2 1 * win2_2.size 1 = 0 from by decide +kernel, show win2_2.xsize (grid2.coords tLast2) 1 = 128 from by decide +kernel]; omega⟩

/-- THE CALL'S RESULT: element `(k, j)` of the result array is the sum, over all 50000 rows, of the feature entry
    `(r, j)` for the rows `r` whose id is `k`. -/
theorem pool2_value (c : Dev nD) (k j : Fin 128) :
    ((dat2 (F := Ideal) V c).arrAt 2 cfg2.N : S128x128.Idx → EReal) (ix2 k j)
      = ∑ r : Fin 50000, ((if ((V c main_v15 : S50000x1.Idx → BitVec 32) (ix2 r 0)).toInt = (k.val : Int)
          then (V c main_arg0 : S50000x128.Idx → EReal) (ix2 r j) else 0 : EReal)) := by
  rw [final2 V c]
  refine (accAt2_apply V c k j 24 (by decide)).trans ?_
  rw [Finset.sum_range, sum_fin_eq_mul (N := 50000) 25 2000 (by norm_num)]
  refine Finset.sum_congr rfl fun t _ => Finset.sum_congr rfl fun r _ => ?_
  unfold rowTerm2
  rw [dif_pos (block_lt t r)]

end Final

end Cert.KernelIdeal.Hand

end
-- ==== Proof.PoolValue4.lean ====
/-
  POOLING CALL 4'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k4_pay2` of the two staged blocks and the previous sum (over the cleared accumulator
  `k4_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool4_value`). No finiteness is needed: extended-real addition is commutative and associative.
-/
import proofs.«170580_j11665131176635_1_alg».proof.Proof.Pool4
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP4 : (![0, 0] : Fin 2 → Nat) = fun _ => 0 := funext fun a => by fin_cases a <;> rfl

theorem accMid4_eq (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : ¬isLast4 i)
    (x1 : Vec F S2000x1 .i32) (x2 : Vec F S2000x128 .f32) (s : Vec F S128x128 .f32) :
    asBlock4 (runMid4 c i a1 h1 a2 h2 a3 h3 a4 h4 hf hl x1 x2 s).1 = k4_pay2 x1 x2 s := by
  dsimp only [asBlock4]
  rw [View.read_writes_eq_canon _ _ _ (coverMid4 c i a1 h1 a2 h2 a3 h3 a4 h4 hf hl x1 x2 s)]
  unfold runMid4
  dsimp only
  rw [View.canon_unit_zero hzP4]
  simp only [View.readAt_eq_ld, h1.read_unread, h2.read_unread, h4.read_unread, View.ld_unit_zero (S := S2000x1) hzP4,
    View.ld_unit_zero (S := S2000x128) hzP4, View.ld_unit_zero (S := S128x128) hzP4]

theorem accFirst4_eq (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst4 i) (hl : ¬isLast4 i)
    (x1 : Vec F S2000x1 .i32) (x2 : Vec F S2000x128 .f32) :
    asBlock4 (runFirst4 c i a1 h1 a2 h2 a3 h3 a4 h4 hf hl x1 x2).1 = k4_pay2 x1 x2 k4_pay1 := by
  dsimp only [asBlock4]
  rw [View.read_writes_eq_canon _ _ _ (coverFirst4 c i a1 h1 a2 h2 a3 h3 a4 h4 hf hl x1 x2)]
  unfold runFirst4
  dsimp only
  sl_unfold_words
  rw [View.canon_cons_unit_zero (S := S128x128) hzP4, View.readCov_unit_zero (S := S128x128) _ hzP4]
  simp only [View.readAt_eq_ld, h1.read_unread, h2.read_unread, View.ld_unit_zero (S := S2000x1) hzP4,
    View.ld_unit_zero (S := S2000x128) hzP4]

theorem accLast4_eq (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : isLast4 i)
    (x1 : Vec F S2000x1 .i32) (x2 : Vec F S2000x128 .f32) (s : Vec F S128x128 .f32) :
    asBlock4 (runLast4 c i a1 h1 a2 h2 a3 h3 a4 h4 hf hl x1 x2 s).2.1 = k4_pay2 x1 x2 s := by
  dsimp only [asBlock4]
  rw [View.read_writes_eq_canon _ _ _ (coverLastAcc4 c i a1 h1 a2 h2 a3 h3 a4 h4 hf hl x1 x2 s)]
  unfold runLast4
  dsimp only
  sl_unfold_words
  rw [View.canon_unit_zero hzP4]
  simp only [View.readAt_eq_ld, h1.read_unread, h2.read_unread, h4.read_unread, View.ld_unit_zero (S := S2000x1) hzP4,
    View.ld_unit_zero (S := S2000x128) hzP4, View.ld_unit_zero (S := S128x128) hzP4]

theorem outLast4_eq (c : Dev nD) (i : grid4.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst4 i) (hl : isLast4 i)
    (x1 : Vec F S2000x1 .i32) (x2 : Vec F S2000x128 .f32) (s : Vec F S128x128 .f32) :
    asBlock4 (runLast4 c i a1 h1 a2 h2 a3 h3 a4 h4 hf hl x1 x2 s).1 = k4_pay2 x1 x2 s := by
  dsimp only [asBlock4]
  rw [View.read_writes_eq_canon _ _ _ (coverLastOut4 c i a1 h1 a2 h2 a3 h3 a4 h4 hf hl x1 x2 s)]
  unfold runLast4
  dsimp only
  sl_unfold_words
  rw [View.canon_unit_zero hzP4, View.readCov_unit_zero (S := S128x128) _ hzP4]
  simp only [View.readAt_eq_ld, h1.read_unread, h2.read_unread, h4.read_unread, View.ld_unit_zero (S := S2000x1) hzP4,
    View.ld_unit_zero (S := S2000x128) hzP4, View.ld_unit_zero (S := S128x128) hzP4]

end Pieces

/-! ## (ii) The body's arithmetic at an index, at the ideal instance -/
/-- A column `[a, 1]` broadcast to `[a, b]` reads, at `(p, q)`, the column's entry `p`. -/
theorem broadcastTo_a1_ab_apply4 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff4 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq4 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k4_pay1_apply (i : S128x128.Idx) : k4_pay1 (F := Ideal) i = 0 := by
  unfold k4_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot4_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq4]
  have e1 : broadcastTo S2000x128 (shapeCast S2000x1 x1 shapeCasts_S2000x1_S2000x1) broadcasts_S2000x1_S2000x128 (ix2 r k)
      = x1 (ix2 r 0) :=
    (broadcastTo_a1_ab_apply4 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff4 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot4 : DotDims S2000x128 S2000x128 S128x128 := dot_S2000x128_S2000x128_S128x128_0_0_1_1_n_n

theorem poolDot4_lhs0 (i : S128x128.Idx) (q : poolDot4.contr.Idx) :
    (poolDot4.lhsIdx i q 0).val = (q ⟨0, by decide⟩).val :=
  poolDot4.lhsIdx_val_of_single rfl i q
theorem poolDot4_lhs1 (i : S128x128.Idx) (q : poolDot4.contr.Idx) : (poolDot4.lhsIdx i q 1).val = (i 0).val := by
  unfold DotDims.lhsIdx
  rw [dif_neg (show ¬(1 : Fin S2000x128.rank) ∈ poolDot4.lhsBatch by decide),
    dif_pos (show (1 : Fin S2000x128.rank) ∈ poolDot4.lhsNonContracting by decide)]
  rfl
theorem poolDot4_rhs0 (i : S128x128.Idx) (q : poolDot4.contr.Idx) :
    (poolDot4.rhsIdx i q 0).val = (q ⟨0, by decide⟩).val :=
  poolDot4.rhsIdx_val_of_single rfl i q
theorem poolDot4_rhs1 (i : S128x128.Idx) (q : poolDot4.contr.Idx) : (poolDot4.rhsIdx i q 1).val = (i 1).val := by
  unfold DotDims.rhsIdx
  rw [dif_neg (show ¬(1 : Fin S2000x128.rank) ∈ poolDot4.rhsBatch by decide),
    dif_pos (show (1 : Fin S2000x128.rank) ∈ poolDot4.rhsNonContracting by decide)]
  rfl

/-- The product of a `[2000, 128]` factor `L` and a `[2000, 128]` factor `R` over their rows, into a zero accumulator,
    read at `(k, j)`: `∑ r, L (r, k) * R (r, j)`. -/
theorem poolDot4_apply {φ₁ φ₂ : FTy} (L : FVec Ideal S2000x128 φ₁) (R : FVec Ideal S2000x128 φ₂) (k j : Fin 128) :
    FloatOps.matmul poolDot4 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot4 2000 rfl rfl).symm]
  refine Finset.sum_congr rfl fun r _ => ?_
  have hr := contrEquiv1_symm_val poolDot4 2000 rfl rfl r
  have el : poolDot4.lhsIdx (ix2 k j) ((contrEquiv1 poolDot4 2000 rfl rfl).symm r) = ix2 r k := funext fun a => Fin.ext (by
    match a with
    | ⟨0, _⟩ => exact (poolDot4_lhs0 _ _).trans hr
    | ⟨1, _⟩ => exact poolDot4_lhs1 _ _)
  have er : poolDot4.rhsIdx (ix2 k j) ((contrEquiv1 poolDot4 2000 rfl rfl).symm r) = ix2 r j := funext fun a => Fin.ext (by
    match a with
    | ⟨0, _⟩ => exact (poolDot4_rhs0 _ _).trans hr
    | ⟨1, _⟩ => exact poolDot4_rhs1 _ _)
  rw [el, er]

/-- THE BODY'S ARITHMETIC AT `(k, j)`: the previous sum plus the sum, over the block's 2000 rows, of the feature row's
    entry `j` for the rows whose id is `k`. -/
theorem k4_pay2_apply (x1 : Vec Ideal S2000x1 .i32) (x2 : Vec Ideal S2000x128 .f32) (prev : Vec Ideal S128x128 .f32)
    (k j : Fin 128) :
    k4_pay2 (F := Ideal) x1 x2 prev (ix2 k j)
      = prev (ix2 k j) + ∑ r : Fin 2000, (if (x1 (ix2 r 0)).toInt = (k.val : Int) then x2 (ix2 r j) else 0) := by
  unfold k4_pay2
  refine (congrFun (shapeCast_self _ _) (ix2 k j)).trans ?_
  refine (addf_apply _ _ _).trans ?_
  congr 1
  refine (poolDot4_apply _ _ k j).trans ?_
  refine Finset.sum_congr rfl fun r _ => ?_
  rw [onehot4_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn4 : ∀ t : Fin cfg4.N, (win4_0.index t 0 = t.val ∧ win4_0.index t 1 = 0)
    ∧ (win4_1.index t 0 = t.val ∧ win4_1.index t 1 = 0) :=
  (by decide +kernel : ∀ t : Fin grid4.N, (win4_0.index t 0 = t.val ∧ win4_0.index t 1 = 0)
    ∧ (win4_1.index t 0 = t.val ∧ win4_1.index t 1 = 0))

/-- The id block at point `t`, row `r`, is the id array at row `2000 t + r`. -/
theorem idsBlk4_apply (c : Dev nD) (t : Fin cfg4.N) (r : Fin 2000) (h : t.val * 2000 + r.val < 50000) :
    (blk4 V c 0 t : Vec F S2000x1 .i32) (ix2 r 0)
      = (V c main_v31 : S50000x1.Idx → Elt F .i32) (ix2 ⟨t.val * 2000 + r.val, h⟩ 0) := by
  have hi := (idxIn4 t).1
  unfold blk4
  rw [View.read_apply]
  show V c main_v31 _ = V c main_v31 _
  congr 1
  funext a
  apply Fin.ext
  match a with
  | ⟨0, _⟩ => show win4_0.index t 0 * 2000 + 1 * r.val = t.val * 2000 + r.val; rw [hi.1]; omega
  | ⟨1, _⟩ => show win4_0.index t 1 * 1 + 1 * 0 = 0; rw [hi.2]

/-- The feature block at point `t`, row `r`, column `j`, is the feature array at row `2000 t + r`, column `j`. -/
theorem featsBlk4_apply (c : Dev nD) (t : Fin cfg4.N) (r : Fin 2000) (j : Fin 128) (h : t.val * 2000 + r.val < 50000) :
    (blk4 V c 1 t : Vec F S2000x128 .f32) (ix2 r j)
      = (V c main_v20 : S50000x128.Idx → Elt F .f32) (ix2 ⟨t.val * 2000 + r.val, h⟩ j) := by
  have hi := (idxIn4 t).2
  unfold blk4
  rw [View.read_apply]
  show V c main_v20 _ = V c main_v20 _
  congr 1
  funext a
  apply Fin.ext
  match a with
  | ⟨0, _⟩ => show win4_1.index t 0 * 2000 + 1 * r.val = t.val * 2000 + r.val; rw [hi.1]; omega
  | ⟨1, _⟩ => show win4_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm4 (c : Dev nD) (k j : Fin 128) (t r : ℕ) : EReal :=
  if h : t * 2000 + r < 50000 then
    (if ((V c main_v31 : S50000x1.Idx → BitVec 32) (ix2 ⟨t * 2000 + r, h⟩ 0)).toInt = (k.val : Int)
      then (V c main_v20 : S50000x128.Idx → EReal) (ix2 ⟨t * 2000 + r, h⟩ j) else 0)
  else 0

/-- One point's contribution, read off its two blocks, is the sum of its rows' contributions. -/
theorem pointSum4 (c : Dev nD) (t : Fin cfg4.N) (k j : Fin 128) :
    (∑ r : Fin 2000, ((if ((blk4 V c 0 t : Vec Ideal S2000x1 .i32) (ix2 r 0)).toInt = (k.val : Int)
        then (blk4 V c 1 t : Vec Ideal S2000x128 .f32) (ix2 r j) else 0 : EReal)))
      = ∑ r : Fin 2000, rowTerm4 V c k j t.val r.val := by
  refine Finset.sum_congr rfl fun r _ => ?_
  have hN : t.val < 25 := lt_of_lt_of_eq t.isLt (show cfg4.N = 25 from N_4)
  have h : t.val * 2000 + r.val < 50000 := by have := r.isLt; omega
  unfold rowTerm4
  rw [dif_pos h, idsBlk4_apply V c t r h, featsBlk4_apply V c t r j h]

/-- THE RUNNING SUM after point `n`, at `(k, j)`: the contributions of the rows of points `0 … n`. -/
theorem accAt4_apply (c : Dev nD) (k j : Fin 128) : ∀ (n : ℕ) (hn : n < cfg4.N),
    accAt4 (F := Ideal) V c n hn (ix2 k j) = ∑ t ∈ Finset.range (n + 1), ∑ r : Fin 2000, rowTerm4 V c k j t r.val
  | 0, hn => by
    have e := (accAt4_first V c ⟨0, hn⟩ rfl).trans
      (accFirst4_eq c (grid4.coords ⟨0, hn⟩) (idsM4 ⟨0, hn⟩) (idsW4 ⟨0, hn⟩) (featsM4 ⟨0, hn⟩) (featsW4 ⟨0, hn⟩)
        (outM4 ⟨0, hn⟩) (outW4 ⟨0, hn⟩) accM4 (Memref.isWhole_whole _) _ _ (blk4 V c 0 ⟨0, hn⟩) (blk4 V c 1 ⟨0, hn⟩))
    refine (congrFun e (ix2 k j)).trans ?_
    refine (k4_pay2_apply (blk4 V c 0 ⟨0, hn⟩) (blk4 V c 1 ⟨0, hn⟩) (k4_pay1 (F := Ideal)) k j).trans ?_
    rw [k4_pay1_apply, zero_add, pointSum4 V c ⟨0, hn⟩ k j, Finset.sum_range_one]
  | n + 1, hn => by
    have ih := accAt4_apply c k j n (Nat.lt_of_succ_lt hn)
    have hz : (⟨n + 1, hn⟩ : Fin cfg4.N).val ≠ 0 := Nat.succ_ne_zero n
    have e : accAt4 (F := Ideal) V c (n + 1) hn
        = k4_pay2 (blk4 V c 0 ⟨n + 1, hn⟩) (blk4 V c 1 ⟨n + 1, hn⟩) (accAt4 V c n (Nat.lt_of_succ_lt hn)) := by
      by_cases hl : n + 1 = 24
      · exact (accAt4_last V c ⟨n + 1, hn⟩ hz hl).trans
          (accLast4_eq c (grid4.coords ⟨n + 1, hn⟩) (idsM4 ⟨n + 1, hn⟩) (idsW4 ⟨n + 1, hn⟩) (featsM4 ⟨n + 1, hn⟩)
            (featsW4 ⟨n + 1, hn⟩) (outM4 ⟨n + 1, hn⟩) (outW4 ⟨n + 1, hn⟩) accM4 (Memref.isWhole_whole _) _ _
            (blk4 V c 0 ⟨n + 1, hn⟩) (blk4 V c 1 ⟨n + 1, hn⟩) (accAt4 V c n (Nat.lt_of_succ_lt hn)))
      · exact (accAt4_mid V c ⟨n + 1, hn⟩ hz hl).trans
          (accMid4_eq c (grid4.coords ⟨n + 1, hn⟩) (idsM4 ⟨n + 1, hn⟩) (idsW4 ⟨n + 1, hn⟩) (featsM4 ⟨n + 1, hn⟩)
            (featsW4 ⟨n + 1, hn⟩) (outM4 ⟨n + 1, hn⟩) (outW4 ⟨n + 1, hn⟩) accM4 (Memref.isWhole_whole _) _ _
            (blk4 V c 0 ⟨n + 1, hn⟩) (blk4 V c 1 ⟨n + 1, hn⟩) (accAt4 V c n (Nat.lt_of_succ_lt hn)))
    refine (congrFun e (ix2 k j)).trans ?_
    refine (k4_pay2_apply (blk4 V c 0 ⟨n + 1, hn⟩) (blk4 V c 1 ⟨n + 1, hn⟩) (accAt4 V c n (Nat.lt_of_succ_lt hn)) k j).trans ?_
    rw [ih, pointSum4 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast4 : Fin cfg4.N := ⟨24, by decide⟩

/-- The running sum after the last point, as contents of the result array (its one block is the array). -/
abbrev result4 (c : Dev nD) : Buf (Elt Ideal) ((c : Thread nD τ).loc main_v32) := accAt4 (F := Ideal) V c 24 (by decide)

/-- The one write-back, at the last point, writes the running sum: the block read through zero offsets is the array. -/
theorem flushed4_eq (c : Dev nD) (t : Fin cfg4.N) (hf : (cfg4.win 2).flush t = true) :
    (dat4 (F := Ideal) V c).flushed 2 t = ((cfg4.win 2).blk t).view.read (Elt Ideal) (result4 V c) := by
  have hN : cfg4.N = 25 := N_4
  have h24 : t.val = 24 := by have := (flush4_2 t).mp hf; have := t.isLt; omega
  obtain rfl : t = tLast4 := Fin.ext h24
  show (cfg4.win 2).cut (grid4.coords tLast4) ((dat4 (F := Ideal) V c).after 2 tLast4) = _
  rw [after4_2, outAt4_last V c tLast4 (by decide) rfl,
    outLast4_eq c (grid4.coords tLast4) (idsM4 tLast4) (idsW4 tLast4) (featsM4 tLast4) (featsW4 tLast4)
      (outM4 tLast4) (outW4 tLast4) accM4 (Memref.isWhole_whole _) _ _ (blk4 V c 0 tLast4) (blk4 V c 1 tLast4) _,
    ← accLast4_eq c (grid4.coords tLast4) (idsM4 tLast4) (idsW4 tLast4) (featsM4 tLast4) (featsW4 tLast4)
      (outM4 tLast4) (outW4 tLast4) accM4 (Memref.isWhole_whole _) (fun h => absurd ((isFirst4_iff tLast4).mp h) (by decide))
      ((isLast4_iff tLast4).mpr rfl) (blk4 V c 0 tLast4) (blk4 V c 1 tLast4) _,
    ← accAt4_last V c tLast4 (by decide) rfl]
  have hz' : (fun a => win4_2.index tLast4 a * main_v32.ty.shape.size a) = fun _ => 0 := funext fun a => by fin_cases a <;> decide
  exact (Memref.read_access_unit_zero (Elt Ideal) main_v32 hz' (fun a => by rw [congrFun hz' a]; simp) (result4 V c)).symm

/-- So the result array ends holding the running sum after the last point. -/
theorem final4 (c : Dev nD) : (dat4 (F := Ideal) V c).arrAt 2 cfg4.N = result4 V c :=
  (dat4 (F := Ideal) V c).arrAt_eq_of_cover 2 (result4 V c) (flushed4_eq V c) fun i =>
    ⟨tLast4, (flush4_2 tLast4).mpr rfl, by
      show i ∈ ((View.whole main_v32).slice (win4_2.rect tLast4)).set
      rw [View.set_slice_whole, Rect.mem_set_unit]
      intro a
      have h0 : (i 0 : Nat) < 128 := (i 0).isLt
      have h1 : (i 1 : Nat) < 128 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [show win4_2.index tLast4 0 * win4_2.size 0 = 0 from by decide +kernel, show win4_2.xsize (grid4.coords tLast4) 0 = 128 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [show win4_2.index tLast4 1 * win4_2.size 1 = 0 from by decide +kernel, show win4_2.xsize (grid4.coords tLast4) 1 = 128 from by decide +kernel]; omega⟩

/-- THE CALL'S RESULT: element `(k, j)` of the result array is the sum, over all 50000 rows, of the feature entry
    `(r, j)` for the rows `r` whose id is `k`. -/
theorem pool4_value (c : Dev nD) (k j : Fin 128) :
    ((dat4 (F := Ideal) V c).arrAt 2 cfg4.N : S128x128.Idx → EReal) (ix2 k j)
      = ∑ r : Fin 50000, ((if ((V c main_v31 : S50000x1.Idx → BitVec 32) (ix2 r 0)).toInt = (k.val : Int)
          then (V c main_v20 : S50000x128.Idx → EReal) (ix2 r j) else 0 : EReal)) := by
  rw [final4 V c]
  refine (accAt4_apply V c k j 24 (by decide)).trans ?_
  rw [Finset.sum_range, sum_fin_eq_mul (N := 50000) 25 2000 (by norm_num)]
  refine Finset.sum_congr rfl fun t _ => Finset.sum_congr rfl fun r _ => ?_
  unfold rowTerm4
  rw [dif_pos (block_lt t r)]

end Final

end Cert.KernelIdeal.Hand

end
-- ==== Proof.PoolValue6.lean ====
/-
  POOLING CALL 6'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k6_pay2` of the two staged blocks and the previous sum (over the cleared accumulator
  `k6_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool6_value`). No finiteness is needed: extended-real addition is commutative and associative.
-/
import proofs.«170580_j11665131176635_1_alg».proof.Proof.Pool6
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP6 : (![0, 0] : Fin 2 → Nat) = fun _ => 0 := funext fun a => by fin_cases a <;> rfl

theorem accMid6_eq (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : ¬isLast6 i)
    (x1 : Vec F S2000x1 .i32) (x2 : Vec F S2000x128 .f32) (s : Vec F S128x128 .f32) :
    asBlock6 (runMid6 c i a1 h1 a2 h2 a3 h3 a4 h4 hf hl x1 x2 s).1 = k6_pay2 x1 x2 s := by
  dsimp only [asBlock6]
  rw [View.read_writes_eq_canon _ _ _ (coverMid6 c i a1 h1 a2 h2 a3 h3 a4 h4 hf hl x1 x2 s)]
  unfold runMid6
  dsimp only
  rw [View.canon_unit_zero hzP6]
  simp only [View.readAt_eq_ld, h1.read_unread, h2.read_unread, h4.read_unread, View.ld_unit_zero (S := S2000x1) hzP6,
    View.ld_unit_zero (S := S2000x128) hzP6, View.ld_unit_zero (S := S128x128) hzP6]

theorem accFirst6_eq (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst6 i) (hl : ¬isLast6 i)
    (x1 : Vec F S2000x1 .i32) (x2 : Vec F S2000x128 .f32) :
    asBlock6 (runFirst6 c i a1 h1 a2 h2 a3 h3 a4 h4 hf hl x1 x2).1 = k6_pay2 x1 x2 k6_pay1 := by
  dsimp only [asBlock6]
  rw [View.read_writes_eq_canon _ _ _ (coverFirst6 c i a1 h1 a2 h2 a3 h3 a4 h4 hf hl x1 x2)]
  unfold runFirst6
  dsimp only
  sl_unfold_words
  rw [View.canon_cons_unit_zero (S := S128x128) hzP6, View.readCov_unit_zero (S := S128x128) _ hzP6]
  simp only [View.readAt_eq_ld, h1.read_unread, h2.read_unread, View.ld_unit_zero (S := S2000x1) hzP6,
    View.ld_unit_zero (S := S2000x128) hzP6]

theorem accLast6_eq (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : isLast6 i)
    (x1 : Vec F S2000x1 .i32) (x2 : Vec F S2000x128 .f32) (s : Vec F S128x128 .f32) :
    asBlock6 (runLast6 c i a1 h1 a2 h2 a3 h3 a4 h4 hf hl x1 x2 s).2.1 = k6_pay2 x1 x2 s := by
  dsimp only [asBlock6]
  rw [View.read_writes_eq_canon _ _ _ (coverLastAcc6 c i a1 h1 a2 h2 a3 h3 a4 h4 hf hl x1 x2 s)]
  unfold runLast6
  dsimp only
  sl_unfold_words
  rw [View.canon_unit_zero hzP6]
  simp only [View.readAt_eq_ld, h1.read_unread, h2.read_unread, h4.read_unread, View.ld_unit_zero (S := S2000x1) hzP6,
    View.ld_unit_zero (S := S2000x128) hzP6, View.ld_unit_zero (S := S128x128) hzP6]

theorem outLast6_eq (c : Dev nD) (i : grid6.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst6 i) (hl : isLast6 i)
    (x1 : Vec F S2000x1 .i32) (x2 : Vec F S2000x128 .f32) (s : Vec F S128x128 .f32) :
    asBlock6 (runLast6 c i a1 h1 a2 h2 a3 h3 a4 h4 hf hl x1 x2 s).1 = k6_pay2 x1 x2 s := by
  dsimp only [asBlock6]
  rw [View.read_writes_eq_canon _ _ _ (coverLastOut6 c i a1 h1 a2 h2 a3 h3 a4 h4 hf hl x1 x2 s)]
  unfold runLast6
  dsimp only
  sl_unfold_words
  rw [View.canon_unit_zero hzP6, View.readCov_unit_zero (S := S128x128) _ hzP6]
  simp only [View.readAt_eq_ld, h1.read_unread, h2.read_unread, h4.read_unread, View.ld_unit_zero (S := S2000x1) hzP6,
    View.ld_unit_zero (S := S2000x128) hzP6, View.ld_unit_zero (S := S128x128) hzP6]

end Pieces

/-! ## (ii) The body's arithmetic at an index, at the ideal instance -/
/-- A column `[a, 1]` broadcast to `[a, b]` reads, at `(p, q)`, the column's entry `p`. -/
theorem broadcastTo_a1_ab_apply6 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff6 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq6 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k6_pay1_apply (i : S128x128.Idx) : k6_pay1 (F := Ideal) i = 0 := by
  unfold k6_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot6_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq6]
  have e1 : broadcastTo S2000x128 (shapeCast S2000x1 x1 shapeCasts_S2000x1_S2000x1) broadcasts_S2000x1_S2000x128 (ix2 r k)
      = x1 (ix2 r 0) :=
    (broadcastTo_a1_ab_apply6 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff6 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot6 : DotDims S2000x128 S2000x128 S128x128 := dot_S2000x128_S2000x128_S128x128_0_0_1_1_n_n

theorem poolDot6_lhs0 (i : S128x128.Idx) (q : poolDot6.contr.Idx) :
    (poolDot6.lhsIdx i q 0).val = (q ⟨0, by decide⟩).val :=
  poolDot6.lhsIdx_val_of_single rfl i q
theorem poolDot6_lhs1 (i : S128x128.Idx) (q : poolDot6.contr.Idx) : (poolDot6.lhsIdx i q 1).val = (i 0).val := by
  unfold DotDims.lhsIdx
  rw [dif_neg (show ¬(1 : Fin S2000x128.rank) ∈ poolDot6.lhsBatch by decide),
    dif_pos (show (1 : Fin S2000x128.rank) ∈ poolDot6.lhsNonContracting by decide)]
  rfl
theorem poolDot6_rhs0 (i : S128x128.Idx) (q : poolDot6.contr.Idx) :
    (poolDot6.rhsIdx i q 0).val = (q ⟨0, by decide⟩).val :=
  poolDot6.rhsIdx_val_of_single rfl i q
theorem poolDot6_rhs1 (i : S128x128.Idx) (q : poolDot6.contr.Idx) : (poolDot6.rhsIdx i q 1).val = (i 1).val := by
  unfold DotDims.rhsIdx
  rw [dif_neg (show ¬(1 : Fin S2000x128.rank) ∈ poolDot6.rhsBatch by decide),
    dif_pos (show (1 : Fin S2000x128.rank) ∈ poolDot6.rhsNonContracting by decide)]
  rfl

/-- The product of a `[2000, 128]` factor `L` and a `[2000, 128]` factor `R` over their rows, into a zero accumulator,
    read at `(k, j)`: `∑ r, L (r, k) * R (r, j)`. -/
theorem poolDot6_apply {φ₁ φ₂ : FTy} (L : FVec Ideal S2000x128 φ₁) (R : FVec Ideal S2000x128 φ₂) (k j : Fin 128) :
    FloatOps.matmul poolDot6 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot6 2000 rfl rfl).symm]
  refine Finset.sum_congr rfl fun r _ => ?_
  have hr := contrEquiv1_symm_val poolDot6 2000 rfl rfl r
  have el : poolDot6.lhsIdx (ix2 k j) ((contrEquiv1 poolDot6 2000 rfl rfl).symm r) = ix2 r k := funext fun a => Fin.ext (by
    match a with
    | ⟨0, _⟩ => exact (poolDot6_lhs0 _ _).trans hr
    | ⟨1, _⟩ => exact poolDot6_lhs1 _ _)
  have er : poolDot6.rhsIdx (ix2 k j) ((contrEquiv1 poolDot6 2000 rfl rfl).symm r) = ix2 r j := funext fun a => Fin.ext (by
    match a with
    | ⟨0, _⟩ => exact (poolDot6_rhs0 _ _).trans hr
    | ⟨1, _⟩ => exact poolDot6_rhs1 _ _)
  rw [el, er]

/-- THE BODY'S ARITHMETIC AT `(k, j)`: the previous sum plus the sum, over the block's 2000 rows, of the feature row's
    entry `j` for the rows whose id is `k`. -/
theorem k6_pay2_apply (x1 : Vec Ideal S2000x1 .i32) (x2 : Vec Ideal S2000x128 .f32) (prev : Vec Ideal S128x128 .f32)
    (k j : Fin 128) :
    k6_pay2 (F := Ideal) x1 x2 prev (ix2 k j)
      = prev (ix2 k j) + ∑ r : Fin 2000, (if (x1 (ix2 r 0)).toInt = (k.val : Int) then x2 (ix2 r j) else 0) := by
  unfold k6_pay2
  refine (congrFun (shapeCast_self _ _) (ix2 k j)).trans ?_
  refine (addf_apply _ _ _).trans ?_
  congr 1
  refine (poolDot6_apply _ _ k j).trans ?_
  refine Finset.sum_congr rfl fun r _ => ?_
  rw [onehot6_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn6 : ∀ t : Fin cfg6.N, (win6_0.index t 0 = t.val ∧ win6_0.index t 1 = 0)
    ∧ (win6_1.index t 0 = t.val ∧ win6_1.index t 1 = 0) :=
  (by decide +kernel : ∀ t : Fin grid6.N, (win6_0.index t 0 = t.val ∧ win6_0.index t 1 = 0)
    ∧ (win6_1.index t 0 = t.val ∧ win6_1.index t 1 = 0))

/-- The id block at point `t`, row `r`, is the id array at row `2000 t + r`. -/
theorem idsBlk6_apply (c : Dev nD) (t : Fin cfg6.N) (r : Fin 2000) (h : t.val * 2000 + r.val < 50000) :
    (blk6 V c 0 t : Vec F S2000x1 .i32) (ix2 r 0)
      = (V c main_v47 : S50000x1.Idx → Elt F .i32) (ix2 ⟨t.val * 2000 + r.val, h⟩ 0) := by
  have hi := (idxIn6 t).1
  unfold blk6
  rw [View.read_apply]
  show V c main_v47 _ = V c main_v47 _
  congr 1
  funext a
  apply Fin.ext
  match a with
  | ⟨0, _⟩ => show win6_0.index t 0 * 2000 + 1 * r.val = t.val * 2000 + r.val; rw [hi.1]; omega
  | ⟨1, _⟩ => show win6_0.index t 1 * 1 + 1 * 0 = 0; rw [hi.2]

/-- The feature block at point `t`, row `r`, column `j`, is the feature array at row `2000 t + r`, column `j`. -/
theorem featsBlk6_apply (c : Dev nD) (t : Fin cfg6.N) (r : Fin 2000) (j : Fin 128) (h : t.val * 2000 + r.val < 50000) :
    (blk6 V c 1 t : Vec F S2000x128 .f32) (ix2 r j)
      = (V c main_v36 : S50000x128.Idx → Elt F .f32) (ix2 ⟨t.val * 2000 + r.val, h⟩ j) := by
  have hi := (idxIn6 t).2
  unfold blk6
  rw [View.read_apply]
  show V c main_v36 _ = V c main_v36 _
  congr 1
  funext a
  apply Fin.ext
  match a with
  | ⟨0, _⟩ => show win6_1.index t 0 * 2000 + 1 * r.val = t.val * 2000 + r.val; rw [hi.1]; omega
  | ⟨1, _⟩ => show win6_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm6 (c : Dev nD) (k j : Fin 128) (t r : ℕ) : EReal :=
  if h : t * 2000 + r < 50000 then
    (if ((V c main_v47 : S50000x1.Idx → BitVec 32) (ix2 ⟨t * 2000 + r, h⟩ 0)).toInt = (k.val : Int)
      then (V c main_v36 : S50000x128.Idx → EReal) (ix2 ⟨t * 2000 + r, h⟩ j) else 0)
  else 0

/-- One point's contribution, read off its two blocks, is the sum of its rows' contributions. -/
theorem pointSum6 (c : Dev nD) (t : Fin cfg6.N) (k j : Fin 128) :
    (∑ r : Fin 2000, ((if ((blk6 V c 0 t : Vec Ideal S2000x1 .i32) (ix2 r 0)).toInt = (k.val : Int)
        then (blk6 V c 1 t : Vec Ideal S2000x128 .f32) (ix2 r j) else 0 : EReal)))
      = ∑ r : Fin 2000, rowTerm6 V c k j t.val r.val := by
  refine Finset.sum_congr rfl fun r _ => ?_
  have hN : t.val < 25 := lt_of_lt_of_eq t.isLt (show cfg6.N = 25 from N_6)
  have h : t.val * 2000 + r.val < 50000 := by have := r.isLt; omega
  unfold rowTerm6
  rw [dif_pos h, idsBlk6_apply V c t r h, featsBlk6_apply V c t r j h]

/-- THE RUNNING SUM after point `n`, at `(k, j)`: the contributions of the rows of points `0 … n`. -/
theorem accAt6_apply (c : Dev nD) (k j : Fin 128) : ∀ (n : ℕ) (hn : n < cfg6.N),
    accAt6 (F := Ideal) V c n hn (ix2 k j) = ∑ t ∈ Finset.range (n + 1), ∑ r : Fin 2000, rowTerm6 V c k j t r.val
  | 0, hn => by
    have e := (accAt6_first V c ⟨0, hn⟩ rfl).trans
      (accFirst6_eq c (grid6.coords ⟨0, hn⟩) (idsM6 ⟨0, hn⟩) (idsW6 ⟨0, hn⟩) (featsM6 ⟨0, hn⟩) (featsW6 ⟨0, hn⟩)
        (outM6 ⟨0, hn⟩) (outW6 ⟨0, hn⟩) accM6 (Memref.isWhole_whole _) _ _ (blk6 V c 0 ⟨0, hn⟩) (blk6 V c 1 ⟨0, hn⟩))
    refine (congrFun e (ix2 k j)).trans ?_
    refine (k6_pay2_apply (blk6 V c 0 ⟨0, hn⟩) (blk6 V c 1 ⟨0, hn⟩) (k6_pay1 (F := Ideal)) k j).trans ?_
    rw [k6_pay1_apply, zero_add, pointSum6 V c ⟨0, hn⟩ k j, Finset.sum_range_one]
  | n + 1, hn => by
    have ih := accAt6_apply c k j n (Nat.lt_of_succ_lt hn)
    have hz : (⟨n + 1, hn⟩ : Fin cfg6.N).val ≠ 0 := Nat.succ_ne_zero n
    have e : accAt6 (F := Ideal) V c (n + 1) hn
        = k6_pay2 (blk6 V c 0 ⟨n + 1, hn⟩) (blk6 V c 1 ⟨n + 1, hn⟩) (accAt6 V c n (Nat.lt_of_succ_lt hn)) := by
      by_cases hl : n + 1 = 24
      · exact (accAt6_last V c ⟨n + 1, hn⟩ hz hl).trans
          (accLast6_eq c (grid6.coords ⟨n + 1, hn⟩) (idsM6 ⟨n + 1, hn⟩) (idsW6 ⟨n + 1, hn⟩) (featsM6 ⟨n + 1, hn⟩)
            (featsW6 ⟨n + 1, hn⟩) (outM6 ⟨n + 1, hn⟩) (outW6 ⟨n + 1, hn⟩) accM6 (Memref.isWhole_whole _) _ _
            (blk6 V c 0 ⟨n + 1, hn⟩) (blk6 V c 1 ⟨n + 1, hn⟩) (accAt6 V c n (Nat.lt_of_succ_lt hn)))
      · exact (accAt6_mid V c ⟨n + 1, hn⟩ hz hl).trans
          (accMid6_eq c (grid6.coords ⟨n + 1, hn⟩) (idsM6 ⟨n + 1, hn⟩) (idsW6 ⟨n + 1, hn⟩) (featsM6 ⟨n + 1, hn⟩)
            (featsW6 ⟨n + 1, hn⟩) (outM6 ⟨n + 1, hn⟩) (outW6 ⟨n + 1, hn⟩) accM6 (Memref.isWhole_whole _) _ _
            (blk6 V c 0 ⟨n + 1, hn⟩) (blk6 V c 1 ⟨n + 1, hn⟩) (accAt6 V c n (Nat.lt_of_succ_lt hn)))
    refine (congrFun e (ix2 k j)).trans ?_
    refine (k6_pay2_apply (blk6 V c 0 ⟨n + 1, hn⟩) (blk6 V c 1 ⟨n + 1, hn⟩) (accAt6 V c n (Nat.lt_of_succ_lt hn)) k j).trans ?_
    rw [ih, pointSum6 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast6 : Fin cfg6.N := ⟨24, by decide⟩

/-- The running sum after the last point, as contents of the result array (its one block is the array). -/
abbrev result6 (c : Dev nD) : Buf (Elt Ideal) ((c : Thread nD τ).loc main_v48) := accAt6 (F := Ideal) V c 24 (by decide)

/-- The one write-back, at the last point, writes the running sum: the block read through zero offsets is the array. -/
theorem flushed6_eq (c : Dev nD) (t : Fin cfg6.N) (hf : (cfg6.win 2).flush t = true) :
    (dat6 (F := Ideal) V c).flushed 2 t = ((cfg6.win 2).blk t).view.read (Elt Ideal) (result6 V c) := by
  have hN : cfg6.N = 25 := N_6
  have h24 : t.val = 24 := by have := (flush6_2 t).mp hf; have := t.isLt; omega
  obtain rfl : t = tLast6 := Fin.ext h24
  show (cfg6.win 2).cut (grid6.coords tLast6) ((dat6 (F := Ideal) V c).after 2 tLast6) = _
  rw [after6_2, outAt6_last V c tLast6 (by decide) rfl,
    outLast6_eq c (grid6.coords tLast6) (idsM6 tLast6) (idsW6 tLast6) (featsM6 tLast6) (featsW6 tLast6)
      (outM6 tLast6) (outW6 tLast6) accM6 (Memref.isWhole_whole _) _ _ (blk6 V c 0 tLast6) (blk6 V c 1 tLast6) _,
    ← accLast6_eq c (grid6.coords tLast6) (idsM6 tLast6) (idsW6 tLast6) (featsM6 tLast6) (featsW6 tLast6)
      (outM6 tLast6) (outW6 tLast6) accM6 (Memref.isWhole_whole _) (fun h => absurd ((isFirst6_iff tLast6).mp h) (by decide))
      ((isLast6_iff tLast6).mpr rfl) (blk6 V c 0 tLast6) (blk6 V c 1 tLast6) _,
    ← accAt6_last V c tLast6 (by decide) rfl]
  have hz' : (fun a => win6_2.index tLast6 a * main_v48.ty.shape.size a) = fun _ => 0 := funext fun a => by fin_cases a <;> decide
  exact (Memref.read_access_unit_zero (Elt Ideal) main_v48 hz' (fun a => by rw [congrFun hz' a]; simp) (result6 V c)).symm

/-- So the result array ends holding the running sum after the last point. -/
theorem final6 (c : Dev nD) : (dat6 (F := Ideal) V c).arrAt 2 cfg6.N = result6 V c :=
  (dat6 (F := Ideal) V c).arrAt_eq_of_cover 2 (result6 V c) (flushed6_eq V c) fun i =>
    ⟨tLast6, (flush6_2 tLast6).mpr rfl, by
      show i ∈ ((View.whole main_v48).slice (win6_2.rect tLast6)).set
      rw [View.set_slice_whole, Rect.mem_set_unit]
      intro a
      have h0 : (i 0 : Nat) < 128 := (i 0).isLt
      have h1 : (i 1 : Nat) < 128 := (i 1).isLt
      match a with
      | ⟨0, _⟩ => show win6_2.index tLast6 0 * win6_2.size 0 ≤ (i 0 : Nat) ∧ (i 0 : Nat) < win6_2.index tLast6 0 * win6_2.size 0 + win6_2.xsize (grid6.coords tLast6) 0
                  rw [show win6_2.index tLast6 0 * win6_2.size 0 = 0 from by decide +kernel, show win6_2.xsize (grid6.coords tLast6) 0 = 128 from by decide +kernel]; omega
      | ⟨1, _⟩ => show win6_2.index tLast6 1 * win6_2.size 1 ≤ (i 1 : Nat) ∧ (i 1 : Nat) < win6_2.index tLast6 1 * win6_2.size 1 + win6_2.xsize (grid6.coords tLast6) 1
                  rw [show win6_2.index tLast6 1 * win6_2.size 1 = 0 from by decide +kernel, show win6_2.xsize (grid6.coords tLast6) 1 = 128 from by decide +kernel]; omega⟩

/-- THE CALL'S RESULT: element `(k, j)` of the result array is the sum, over all 50000 rows, of the feature entry
    `(r, j)` for the rows `r` whose id is `k`. -/
theorem pool6_value (c : Dev nD) (k j : Fin 128) :
    ((dat6 (F := Ideal) V c).arrAt 2 cfg6.N : S128x128.Idx → EReal) (ix2 k j)
      = ∑ r : Fin 50000, ((if ((V c main_v47 : S50000x1.Idx → BitVec 32) (ix2 r 0)).toInt = (k.val : Int)
          then (V c main_v36 : S50000x128.Idx → EReal) (ix2 r j) else 0 : EReal)) := by
  rw [final6 V c]
  refine (accAt6_apply V c k j 24 (by decide)).trans ?_
  rw [Finset.sum_range, sum_fin_eq_mul (N := 50000) 25 2000 (by norm_num)]
  refine Finset.sum_congr rfl fun t _ => Finset.sum_congr rfl fun r _ => ?_
  unfold rowTerm6
  rw [dif_pos (block_lt t r)]

end Final

end Cert.KernelIdeal.Hand

end
-- ==== Proof.PoolValue8.lean ====
/-
  POOLING CALL 8'S RESULT, in closed form, at the ideal instance (the extended reals).

  The call sums, over the 50000 nodes taken 2000 rows at a time, the feature rows selected by a one-hot matrix of the
  nodes' ids: at each of its 25 points the body adds  onehot(ids_t)ᵀ · feats_t  to a running sum kept in a scratch
  accumulator (cleared at the first point), and at the last point copies the running sum to the output block,
  which is written back there only and covers the whole `[128, 128]` result.

  Here: (i) each case of the body leaves in the accumulator (and, at the last point, in the output's buffer) the
  body's own arithmetic `k8_pay2` of the two staged blocks and the previous sum (over the cleared accumulator
  `k8_pay1` at the first point), for every float instance; (ii) at the ideal instance that arithmetic read at
  `(k, j)` is the previous sum plus `∑ r, [ids_t r = k] · feats_t (r, j)`: the comparison against the lane index, widened
  and converted, is `1` or `0`, the narrowing format changes are the identity, and the product contracts the row axis
  of both factors; `1 · x = x` and `0 · x = 0` for every extended real; (iii) a block's row `r` at point `t` is row
  `2000 t + r` of its array, so by induction on the point the running sum after point `n` is the sum over the rows
  below `2000 (n + 1)`; (iv) the output window is written back once, at the last point, by a block that is the whole
  array, so the result is the running sum after the last point: the sum over all 50000 rows
  (`pool8_value`). No finiteness is needed: extended-real addition is commutative and associative.
-/
import proofs.«170580_j11665131176635_1_alg».proof.Proof.Pool8
import proofs.«170580_j11665131176635_1_alg».proof.Proof.LibOneHotSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## (i) What each case of the body leaves, for every float instance -/

section Pieces
variable {F : FTy → Type} [FloatOps F]

theorem hzP8 : (![0, 0] : Fin 2 → Nat) = fun _ => 0 := funext fun a => by fin_cases a <;> rfl

theorem accMid8_eq (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : ¬isLast8 i)
    (x1 : Vec F S2000x1 .i32) (x2 : Vec F S2000x128 .f32) (s : Vec F S128x128 .f32) :
    asBlock8 (runMid8 c i a1 h1 a2 h2 a3 h3 a4 h4 hf hl x1 x2 s).1 = k8_pay2 x1 x2 s := by
  dsimp only [asBlock8]
  rw [View.read_writes_eq_canon _ _ _ (coverMid8 c i a1 h1 a2 h2 a3 h3 a4 h4 hf hl x1 x2 s)]
  unfold runMid8
  dsimp only
  rw [View.canon_unit_zero hzP8]
  simp only [View.readAt_eq_ld, h1.read_unread, h2.read_unread, h4.read_unread, View.ld_unit_zero (S := S2000x1) hzP8,
    View.ld_unit_zero (S := S2000x128) hzP8, View.ld_unit_zero (S := S128x128) hzP8]

theorem accFirst8_eq (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : isFirst8 i) (hl : ¬isLast8 i)
    (x1 : Vec F S2000x1 .i32) (x2 : Vec F S2000x128 .f32) :
    asBlock8 (runFirst8 c i a1 h1 a2 h2 a3 h3 a4 h4 hf hl x1 x2).1 = k8_pay2 x1 x2 k8_pay1 := by
  dsimp only [asBlock8]
  rw [View.read_writes_eq_canon _ _ _ (coverFirst8 c i a1 h1 a2 h2 a3 h3 a4 h4 hf hl x1 x2)]
  unfold runFirst8
  dsimp only
  sl_unfold_words
  rw [View.canon_cons_unit_zero (S := S128x128) hzP8, View.readCov_unit_zero (S := S128x128) _ hzP8]
  simp only [View.readAt_eq_ld, h1.read_unread, h2.read_unread, View.ld_unit_zero (S := S2000x1) hzP8,
    View.ld_unit_zero (S := S2000x128) hzP8]

theorem accLast8_eq (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : isLast8 i)
    (x1 : Vec F S2000x1 .i32) (x2 : Vec F S2000x128 .f32) (s : Vec F S128x128 .f32) :
    asBlock8 (runLast8 c i a1 h1 a2 h2 a3 h3 a4 h4 hf hl x1 x2 s).2.1 = k8_pay2 x1 x2 s := by
  dsimp only [asBlock8]
  rw [View.read_writes_eq_canon _ _ _ (coverLastAcc8 c i a1 h1 a2 h2 a3 h3 a4 h4 hf hl x1 x2 s)]
  unfold runLast8
  dsimp only
  sl_unfold_words
  rw [View.canon_unit_zero hzP8]
  simp only [View.readAt_eq_ld, h1.read_unread, h2.read_unread, h4.read_unread, View.ld_unit_zero (S := S2000x1) hzP8,
    View.ld_unit_zero (S := S2000x128) hzP8, View.ld_unit_zero (S := S128x128) hzP8]

theorem outLast8_eq (c : Dev nD) (i : grid8.Coords) (a1 : Memref sig .tc .vmem S2000x1 .i32) (h1 : a1.IsWhole)
    (a2 : Memref sig .tc .vmem S2000x128 .f32) (h2 : a2.IsWhole) (a3 : Memref sig .tc .vmem S128x128 .f32) (h3 : a3.IsWhole)
    (a4 : Memref sig .tc .vmem S128x128 .f32) (h4 : a4.IsWhole) (hf : ¬isFirst8 i) (hl : isLast8 i)
    (x1 : Vec F S2000x1 .i32) (x2 : Vec F S2000x128 .f32) (s : Vec F S128x128 .f32) :
    asBlock8 (runLast8 c i a1 h1 a2 h2 a3 h3 a4 h4 hf hl x1 x2 s).1 = k8_pay2 x1 x2 s := by
  dsimp only [asBlock8]
  rw [View.read_writes_eq_canon _ _ _ (coverLastOut8 c i a1 h1 a2 h2 a3 h3 a4 h4 hf hl x1 x2 s)]
  unfold runLast8
  dsimp only
  sl_unfold_words
  rw [View.canon_unit_zero hzP8, View.readCov_unit_zero (S := S128x128) _ hzP8]
  simp only [View.readAt_eq_ld, h1.read_unread, h2.read_unread, h4.read_unread, View.ld_unit_zero (S := S2000x1) hzP8,
    View.ld_unit_zero (S := S2000x128) hzP8, View.ld_unit_zero (S := S128x128) hzP8]

end Pieces

/-! ## (ii) The body's arithmetic at an index, at the ideal instance -/
/-- A column `[a, 1]` broadcast to `[a, b]` reads, at `(p, q)`, the column's entry `p`. -/
theorem broadcastTo_a1_ab_apply8 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a small natural exactly when its signed value is that natural. -/
theorem eq_ofNat32_iff8 (a : BitVec 32) (k : Nat) (hk : k < 2 ^ 31) : a = BitVec.ofNat 32 k ↔ a.toInt = (k : Int) := by
  have hk' : (BitVec.ofNat 32 k).toInt = (k : Int) := by
    rw [BitVec.toInt_eq_toNat_of_lt (by rw [BitVec.toNat_ofNat]; omega), BitVec.toNat_ofNat]
    have : k % 2 ^ 32 = k := Nat.mod_eq_of_lt (by omega)
    omega
  constructor
  · rintro rfl; exact hk'
  · intro h; exact BitVec.eq_of_toInt_eq (h.trans hk'.symm)

/-- The indicator word of a comparison, widened to 32 bits and converted to a float, is `1` or `0`. -/
theorem sitofp_extui_cmpi_eq8 (a b : BitVec 32) :
    (FloatOps.sitofp (F := Ideal) .f32 ((IntOp.cmpi .eq a b).setWidth 32) : EReal) = if a = b then 1 else 0 := by
  by_cases h : a = b
  · rw [if_pos h]
    have : IntOp.cmpi .eq a b = 1#1 := by simp [IntOp.cmpi, h]
    rw [this]
    show (((1#1 : BitVec 1).setWidth 32).toInt : ℝ) = (1 : EReal)
    norm_num
  · rw [if_neg h]
    have hb : (a == b) = false := by simp [h]
    have : IntOp.cmpi .eq a b = 0#1 := by simp [IntOp.cmpi, hb]
    rw [this]
    show ((((0#1 : BitVec 1).setWidth 32).toInt : ℝ) : EReal) = (0 : EReal)
    norm_num

/-- The accumulator's cleared value is zero everywhere. -/
theorem k8_pay1_apply (i : S128x128.Idx) : k8_pay1 (F := Ideal) i = 0 := by
  unfold k8_pay1
  refine (congrFun (shapeCast_self _ _) i).trans ?_
  show Ideal.ofBits .f32 0x00000000#32 = 0
  exact Ideal.ofBits_zero_f32

/-- The one-hot factor of the body read at `(r, k)`: `1` when row `r`'s id is `k`, else `0`. -/
theorem onehot8_apply (x1 : Vec Ideal S2000x1 .i32) (r : Fin 2000) (k : Fin 128) :
    (truncf .bf16 (sitofp (F := Ideal) .f32 (extui 32 (cmpi .eq
        (broadcastTo S2000x128 (shapeCast S2000x1 x1 shapeCasts_S2000x1_S2000x1) broadcasts_S2000x1_S2000x128)
        (broadcastTo S2000x128 (iota .tc S1x128 32 [1] iota_S1x128_d1_w32) broadcasts_S1x128_S2000x128)) natLt_1_32))
      bitsLt_bf16_f32 : FVec Ideal S2000x128 .bf16) (ix2 r k)
      = if (x1 (ix2 r 0)).toInt = (k.val : Int) then 1 else 0 := by
  show FloatOps.sitofp (F := Ideal) .f32 ((IntOp.cmpi .eq
      (broadcastTo S2000x128 (shapeCast S2000x1 x1 shapeCasts_S2000x1_S2000x1) broadcasts_S2000x1_S2000x128 (ix2 r k))
      (broadcastTo S2000x128 (iota .tc S1x128 32 [1] iota_S1x128_d1_w32) broadcasts_S1x128_S2000x128 (ix2 r k))).setWidth 32) = _
  rw [sitofp_extui_cmpi_eq8]
  have e1 : broadcastTo S2000x128 (shapeCast S2000x1 x1 shapeCasts_S2000x1_S2000x1) broadcasts_S2000x1_S2000x128 (ix2 r k)
      = x1 (ix2 r 0) :=
    (broadcastTo_a1_ab_apply8 _ broadcasts_S2000x1_S2000x128 r k).trans (congrFun (shapeCast_self x1 _) _)
  have e2 : broadcastTo S2000x128 (iota .tc S1x128 32 [1] iota_S1x128_d1_w32) broadcasts_S1x128_S2000x128 (ix2 r k)
      = BitVec.ofNat 32 k.val :=
    (broadcastTo_1b_ab_apply _ broadcasts_S1x128_S2000x128 r k).trans
      (iota_single_apply .tc S1x128 32 1 iota_S1x128_d1_w32 (ix2 (0 : Fin 1) k))
  rw [e1, e2]
  have hiff := eq_ofNat32_iff8 (x1 (ix2 r 0)) k.val (by have := k.isLt; omega)
  by_cases h : (x1 (ix2 r 0)).toInt = (k.val : Int)
  · rw [if_pos h, if_pos (hiff.mpr h)]
  · rw [if_neg h, if_neg (fun h' => h (hiff.mp h'))]

/-- The body's product: it contracts the row axis of both factors. -/
abbrev poolDot8 : DotDims S2000x128 S2000x128 S128x128 := dot_S2000x128_S2000x128_S128x128_0_0_1_1_n_n

theorem poolDot8_lhs0 (i : S128x128.Idx) (q : poolDot8.contr.Idx) :
    (poolDot8.lhsIdx i q 0).val = (q ⟨0, by decide⟩).val :=
  poolDot8.lhsIdx_val_of_single rfl i q
theorem poolDot8_lhs1 (i : S128x128.Idx) (q : poolDot8.contr.Idx) : (poolDot8.lhsIdx i q 1).val = (i 0).val := by
  unfold DotDims.lhsIdx
  rw [dif_neg (show ¬(1 : Fin S2000x128.rank) ∈ poolDot8.lhsBatch by decide),
    dif_pos (show (1 : Fin S2000x128.rank) ∈ poolDot8.lhsNonContracting by decide)]
  rfl
theorem poolDot8_rhs0 (i : S128x128.Idx) (q : poolDot8.contr.Idx) :
    (poolDot8.rhsIdx i q 0).val = (q ⟨0, by decide⟩).val :=
  poolDot8.rhsIdx_val_of_single rfl i q
theorem poolDot8_rhs1 (i : S128x128.Idx) (q : poolDot8.contr.Idx) : (poolDot8.rhsIdx i q 1).val = (i 1).val := by
  unfold DotDims.rhsIdx
  rw [dif_neg (show ¬(1 : Fin S2000x128.rank) ∈ poolDot8.rhsBatch by decide),
    dif_pos (show (1 : Fin S2000x128.rank) ∈ poolDot8.rhsNonContracting by decide)]
  rfl

/-- The product of a `[2000, 128]` factor `L` and a `[2000, 128]` factor `R` over their rows, into a zero accumulator,
    read at `(k, j)`: `∑ r, L (r, k) * R (r, j)`. -/
theorem poolDot8_apply {φ₁ φ₂ : FTy} (L : FVec Ideal S2000x128 φ₁) (R : FVec Ideal S2000x128 φ₂) (k j : Fin 128) :
    FloatOps.matmul poolDot8 none L R (constant (F := Ideal) S128x128 .f32 0x00000000#32) (ix2 k j)
      = ∑ r : Fin 2000, L (ix2 r k) * R (ix2 r j) := by
  rw [Ideal.matmul_constant_zero_apply, ← Equiv.sum_comp (contrEquiv1 poolDot8 2000 rfl rfl).symm]
  refine Finset.sum_congr rfl fun r _ => ?_
  have hr := contrEquiv1_symm_val poolDot8 2000 rfl rfl r
  have el : poolDot8.lhsIdx (ix2 k j) ((contrEquiv1 poolDot8 2000 rfl rfl).symm r) = ix2 r k := funext fun a => Fin.ext (by
    match a with
    | ⟨0, _⟩ => exact (poolDot8_lhs0 _ _).trans hr
    | ⟨1, _⟩ => exact poolDot8_lhs1 _ _)
  have er : poolDot8.rhsIdx (ix2 k j) ((contrEquiv1 poolDot8 2000 rfl rfl).symm r) = ix2 r j := funext fun a => Fin.ext (by
    match a with
    | ⟨0, _⟩ => exact (poolDot8_rhs0 _ _).trans hr
    | ⟨1, _⟩ => exact poolDot8_rhs1 _ _)
  rw [el, er]

/-- THE BODY'S ARITHMETIC AT `(k, j)`: the previous sum plus the sum, over the block's 2000 rows, of the feature row's
    entry `j` for the rows whose id is `k`. -/
theorem k8_pay2_apply (x1 : Vec Ideal S2000x1 .i32) (x2 : Vec Ideal S2000x128 .f32) (prev : Vec Ideal S128x128 .f32)
    (k j : Fin 128) :
    k8_pay2 (F := Ideal) x1 x2 prev (ix2 k j)
      = prev (ix2 k j) + ∑ r : Fin 2000, (if (x1 (ix2 r 0)).toInt = (k.val : Int) then x2 (ix2 r j) else 0) := by
  unfold k8_pay2
  refine (congrFun (shapeCast_self _ _) (ix2 k j)).trans ?_
  refine (addf_apply _ _ _).trans ?_
  congr 1
  refine (poolDot8_apply _ _ k j).trans ?_
  refine Finset.sum_congr rfl fun r _ => ?_
  rw [onehot8_apply x1 r k]
  refine (onehot_mul _).trans ?_
  refine if_congr Iff.rfl ?_ rfl
  first
    | rfl
    | exact congrFun (shapeCast_self x2 _) (ix2 r j)

/-! ## (iii) Blocks are rows of the arrays; the running sum -/

section Blocks
variable {F : FTy → Type} [FloatOps F]
variable (V : (c : Dev nD) → (b : Ref sig .tc) → Buf (Elt F) ((c : Thread nD τ).loc b))

/-- Where the two input windows' blocks sit: block `t` starts at row `2000 t`, column `0`. -/
theorem idxIn8 : ∀ t : Fin cfg8.N, (win8_0.index t 0 = t.val ∧ win8_0.index t 1 = 0)
    ∧ (win8_1.index t 0 = t.val ∧ win8_1.index t 1 = 0) :=
  (by decide +kernel : ∀ t : Fin grid8.N, (win8_0.index t 0 = t.val ∧ win8_0.index t 1 = 0)
    ∧ (win8_1.index t 0 = t.val ∧ win8_1.index t 1 = 0))

/-- The id block at point `t`, row `r`, is the id array at row `2000 t + r`. -/
theorem idsBlk8_apply (c : Dev nD) (t : Fin cfg8.N) (r : Fin 2000) (h : t.val * 2000 + r.val < 50000) :
    (blk8 V c 0 t : Vec F S2000x1 .i32) (ix2 r 0)
      = (V c main_v53 : S50000x1.Idx → Elt F .i32) (ix2 ⟨t.val * 2000 + r.val, h⟩ 0) := by
  have hi := (idxIn8 t).1
  unfold blk8
  rw [View.read_apply]
  show V c main_v53 _ = V c main_v53 _
  congr 1
  funext a
  apply Fin.ext
  match a with
  | ⟨0, _⟩ => show win8_0.index t 0 * 2000 + 1 * r.val = t.val * 2000 + r.val; rw [hi.1]; omega
  | ⟨1, _⟩ => show win8_0.index t 1 * 1 + 1 * 0 = 0; rw [hi.2]

/-- The feature block at point `t`, row `r`, column `j`, is the feature array at row `2000 t + r`, column `j`. -/
theorem featsBlk8_apply (c : Dev nD) (t : Fin cfg8.N) (r : Fin 2000) (j : Fin 128) (h : t.val * 2000 + r.val < 50000) :
    (blk8 V c 1 t : Vec F S2000x128 .f32) (ix2 r j)
      = (V c main_v52 : S50000x128.Idx → Elt F .f32) (ix2 ⟨t.val * 2000 + r.val, h⟩ j) := by
  have hi := (idxIn8 t).2
  unfold blk8
  rw [View.read_apply]
  show V c main_v52 _ = V c main_v52 _
  congr 1
  funext a
  apply Fin.ext
  match a with
  | ⟨0, _⟩ => show win8_1.index t 0 * 2000 + 1 * r.val = t.val * 2000 + r.val; rw [hi.1]; omega
  | ⟨1, _⟩ => show win8_1.index t 1 * 128 + 1 * j.val = j.val; rw [hi.2]; omega

end Blocks

section Sum
variable (V : (c : Dev nD) → (b : Ref sig .tc) → Buf (Elt Ideal) ((c : Thread nD τ).loc b))

/-- Row `2000 t + r`'s contribution to element `(k, j)`: its feature entry `j` if its id is `k`, else `0` (and `0` past the
    last row, which no point reaches). -/
def rowTerm8 (c : Dev nD) (k j : Fin 128) (t r : ℕ) : EReal :=
  if h : t * 2000 + r < 50000 then
    (if ((V c main_v53 : S50000x1.Idx → BitVec 32) (ix2 ⟨t * 2000 + r, h⟩ 0)).toInt = (k.val : Int)
      then (V c main_v52 : S50000x128.Idx → EReal) (ix2 ⟨t * 2000 + r, h⟩ j) else 0)
  else 0

/-- One point's contribution, read off its two blocks, is the sum of its rows' contributions. -/
theorem pointSum8 (c : Dev nD) (t : Fin cfg8.N) (k j : Fin 128) :
    (∑ r : Fin 2000, ((if ((blk8 V c 0 t : Vec Ideal S2000x1 .i32) (ix2 r 0)).toInt = (k.val : Int)
        then (blk8 V c 1 t : Vec Ideal S2000x128 .f32) (ix2 r j) else 0 : EReal)))
      = ∑ r : Fin 2000, rowTerm8 V c k j t.val r.val := by
  refine Finset.sum_congr rfl fun r _ => ?_
  have hN : t.val < 25 := lt_of_lt_of_eq t.isLt (show cfg8.N = 25 from N_8)
  have h : t.val * 2000 + r.val < 50000 := by have := r.isLt; omega
  unfold rowTerm8
  rw [dif_pos h, idsBlk8_apply V c t r h, featsBlk8_apply V c t r j h]

/-- THE RUNNING SUM after point `n`, at `(k, j)`: the contributions of the rows of points `0 … n`. -/
theorem accAt8_apply (c : Dev nD) (k j : Fin 128) : ∀ (n : ℕ) (hn : n < cfg8.N),
    accAt8 (F := Ideal) V c n hn (ix2 k j) = ∑ t ∈ Finset.range (n + 1), ∑ r : Fin 2000, rowTerm8 V c k j t r.val
  | 0, hn => by
    have e := (accAt8_first V c ⟨0, hn⟩ rfl).trans
      (accFirst8_eq c (grid8.coords ⟨0, hn⟩) (idsM8 ⟨0, hn⟩) (idsW8 ⟨0, hn⟩) (featsM8 ⟨0, hn⟩) (featsW8 ⟨0, hn⟩)
        (outM8 ⟨0, hn⟩) (outW8 ⟨0, hn⟩) accM8 (Memref.isWhole_whole _) _ _ (blk8 V c 0 ⟨0, hn⟩) (blk8 V c 1 ⟨0, hn⟩))
    refine (congrFun e (ix2 k j)).trans ?_
    refine (k8_pay2_apply (blk8 V c 0 ⟨0, hn⟩) (blk8 V c 1 ⟨0, hn⟩) (k8_pay1 (F := Ideal)) k j).trans ?_
    rw [k8_pay1_apply, zero_add, pointSum8 V c ⟨0, hn⟩ k j, Finset.sum_range_one]
  | n + 1, hn => by
    have ih := accAt8_apply c k j n (Nat.lt_of_succ_lt hn)
    have hz : (⟨n + 1, hn⟩ : Fin cfg8.N).val ≠ 0 := Nat.succ_ne_zero n
    have e : accAt8 (F := Ideal) V c (n + 1) hn
        = k8_pay2 (blk8 V c 0 ⟨n + 1, hn⟩) (blk8 V c 1 ⟨n + 1, hn⟩) (accAt8 V c n (Nat.lt_of_succ_lt hn)) := by
      by_cases hl : n + 1 = 24
      · exact (accAt8_last V c ⟨n + 1, hn⟩ hz hl).trans
          (accLast8_eq c (grid8.coords ⟨n + 1, hn⟩) (idsM8 ⟨n + 1, hn⟩) (idsW8 ⟨n + 1, hn⟩) (featsM8 ⟨n + 1, hn⟩)
            (featsW8 ⟨n + 1, hn⟩) (outM8 ⟨n + 1, hn⟩) (outW8 ⟨n + 1, hn⟩) accM8 (Memref.isWhole_whole _) _ _
            (blk8 V c 0 ⟨n + 1, hn⟩) (blk8 V c 1 ⟨n + 1, hn⟩) (accAt8 V c n (Nat.lt_of_succ_lt hn)))
      · exact (accAt8_mid V c ⟨n + 1, hn⟩ hz hl).trans
          (accMid8_eq c (grid8.coords ⟨n + 1, hn⟩) (idsM8 ⟨n + 1, hn⟩) (idsW8 ⟨n + 1, hn⟩) (featsM8 ⟨n + 1, hn⟩)
            (featsW8 ⟨n + 1, hn⟩) (outM8 ⟨n + 1, hn⟩) (outW8 ⟨n + 1, hn⟩) accM8 (Memref.isWhole_whole _) _ _
            (blk8 V c 0 ⟨n + 1, hn⟩) (blk8 V c 1 ⟨n + 1, hn⟩) (accAt8 V c n (Nat.lt_of_succ_lt hn)))
    refine (congrFun e (ix2 k j)).trans ?_
    refine (k8_pay2_apply (blk8 V c 0 ⟨n + 1, hn⟩) (blk8 V c 1 ⟨n + 1, hn⟩) (accAt8 V c n (Nat.lt_of_succ_lt hn)) k j).trans ?_
    rw [ih, pointSum8 V c ⟨n + 1, hn⟩ k j, Finset.sum_range_succ _ (n + 1)]

end Sum

/-! ## (iv) The result array -/

section Final
variable (V : (c : Dev nD) → (b : Ref sig .tc) → Buf (Elt Ideal) ((c : Thread nD τ).loc b))

/-- The last point. -/
abbrev tLast8 : Fin cfg8.N := ⟨24, by decide⟩

/-- The running sum after the last point, as contents of the result array (its one block is the array). -/
abbrev result8 (c : Dev nD) : Buf (Elt Ideal) ((c : Thread nD τ).loc main_v54) := accAt8 (F := Ideal) V c 24 (by decide)

/-- The one write-back, at the last point, writes the running sum: the block read through zero offsets is the array. -/
theorem flushed8_eq (c : Dev nD) (t : Fin cfg8.N) (hf : (cfg8.win 2).flush t = true) :
    (dat8 (F := Ideal) V c).flushed 2 t = ((cfg8.win 2).blk t).view.read (Elt Ideal) (result8 V c) := by
  have hN : cfg8.N = 25 := N_8
  have h24 : t.val = 24 := by have := (flush8_2 t).mp hf; have := t.isLt; omega
  obtain rfl : t = tLast8 := Fin.ext h24
  show (cfg8.win 2).cut (grid8.coords tLast8) ((dat8 (F := Ideal) V c).after 2 tLast8) = _
  rw [after8_2, outAt8_last V c tLast8 (by decide) rfl,
    outLast8_eq c (grid8.coords tLast8) (idsM8 tLast8) (idsW8 tLast8) (featsM8 tLast8) (featsW8 tLast8)
      (outM8 tLast8) (outW8 tLast8) accM8 (Memref.isWhole_whole _) _ _ (blk8 V c 0 tLast8) (blk8 V c 1 tLast8) _,
    ← accLast8_eq c (grid8.coords tLast8) (idsM8 tLast8) (idsW8 tLast8) (featsM8 tLast8) (featsW8 tLast8)
      (outM8 tLast8) (outW8 tLast8) accM8 (Memref.isWhole_whole _) (fun h => absurd ((isFirst8_iff tLast8).mp h) (by decide))
      ((isLast8_iff tLast8).mpr rfl) (blk8 V c 0 tLast8) (blk8 V c 1 tLast8) _,
    ← accAt8_last V c tLast8 (by decide) rfl]
  have hz' : (fun a => win8_2.index tLast8 a * main_v54.ty.shape.size a) = fun _ => 0 := funext fun a => by fin_cases a <;> decide
  exact (Memref.read_access_unit_zero (Elt Ideal) main_v54 hz' (fun a => by rw [congrFun hz' a]; simp) (result8 V c)).symm

/-- So the result array ends holding the running sum after the last point. -/
theorem final8 (c : Dev nD) : (dat8 (F := Ideal) V c).arrAt 2 cfg8.N = result8 V c :=
  (dat8 (F := Ideal) V c).arrAt_eq_of_cover 2 (result8 V c) (flushed8_eq V c) fun i =>
    ⟨tLast8, (flush8_2 tLast8).mpr rfl, by
      show i ∈ ((View.whole main_v54).slice (win8_2.rect tLast8)).set
      rw [View.set_slice_whole, Rect.mem_set_unit]
      intro a
      have h0 : (i 0 : Nat) < 128 := (i 0).isLt
      have h1 : (i 1 : Nat) < 128 := (i 1).isLt
      match a with
      | ⟨0, _⟩ => show win8_2.index tLast8 0 * win8_2.size 0 ≤ (i 0 : Nat) ∧ (i 0 : Nat) < win8_2.index tLast8 0 * win8_2.size 0 + win8_2.xsize (grid8.coords tLast8) 0
                  rw [show win8_2.index tLast8 0 * win8_2.size 0 = 0 from by decide +kernel, show win8_2.xsize (grid8.coords tLast8) 0 = 128 from by decide +kernel]; omega
      | ⟨1, _⟩ => show win8_2.index tLast8 1 * win8_2.size 1 ≤ (i 1 : Nat) ∧ (i 1 : Nat) < win8_2.index tLast8 1 * win8_2.size 1 + win8_2.xsize (grid8.coords tLast8) 1
                  rw [show win8_2.index tLast8 1 * win8_2.size 1 = 0 from by decide +kernel, show win8_2.xsize (grid8.coords tLast8) 1 = 128 from by decide +kernel]; omega⟩

/-- THE CALL'S RESULT: element `(k, j)` of the result array is the sum, over all 50000 rows, of the feature entry
    `(r, j)` for the rows `r` whose id is `k`. -/
theorem pool8_value (c : Dev nD) (k j : Fin 128) :
    ((dat8 (F := Ideal) V c).arrAt 2 cfg8.N : S128x128.Idx → EReal) (ix2 k j)
      = ∑ r : Fin 50000, ((if ((V c main_v53 : S50000x1.Idx → BitVec 32) (ix2 r 0)).toInt = (k.val : Int)
          then (V c main_v52 : S50000x128.Idx → EReal) (ix2 r j) else 0 : EReal)) := by
  rw [final8 V c]
  refine (accAt8_apply V c k j 24 (by decide)).trans ?_
  rw [Finset.sum_range, sum_fin_eq_mul (N := 50000) 25 2000 (by norm_num)]
  refine Finset.sum_congr rfl fun t _ => Finset.sum_congr rfl fun r _ => ?_
  unfold rowTerm8
  rw [dif_pos (block_lt t r)]

end Final

end Cert.KernelIdeal.Hand

end
-- ==== Proof.CombPay.lean ====
/- The payloads of the three combine kernels at an index of a block, at the ideal values: the relu of a row of the
   second matmul plus the bias row, the left operand of that matmul being the sum of the two row inputs and of the
   first matmul — the one-hot of the id column against the lane index, times the context table. The two matmuls are
   plain sums over the contracted index; the casts to the narrower float are the identity at the ideal values. -/
import proofs.«170580_j11665131176635_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Idealize.SL.Sem
open scoped BigOperators

/-- The one-hot word at the ideal values: an equality test of two words, widened and read as a signed integer, is
    one where they agree and zero where they differ. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · rw [if_pos h, show (a == b) = true from by simpa using h]
    rw [show ((BitVec.ofBool true).setWidth 32).toInt = 1 from by decide]
    norm_num
  · rw [if_neg h, show (a == b) = false from by simpa using h]
    rw [show ((BitVec.ofBool false).setWidth 32).toInt = 0 from by decide]
    norm_num

/-- A `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

abbrev Dcomb := dot_S2000x128_S128x128_S2000x128_1_0_0_1_n_n

theorem Dcomb_lhs0 (i : S2000x128.Idx) (q : Dcomb.contr.Idx) : (Dcomb.lhsIdx i q 0).val = (i 0).val := by
  unfold DotDims.lhsIdx
  rw [dif_neg (show ¬(0 : Fin S2000x128.rank) ∈ Dcomb.lhsBatch by decide), dif_pos (show (0 : Fin S2000x128.rank) ∈ Dcomb.lhsNonContracting by decide)]
  rfl
theorem Dcomb_lhs1 (i : S2000x128.Idx) (q : Dcomb.contr.Idx) : (Dcomb.lhsIdx i q 1).val = (q ⟨0, by decide⟩).val :=
  Dcomb.lhsIdx_val_of_single rfl i q
theorem Dcomb_rhs0 (i : S2000x128.Idx) (q : Dcomb.contr.Idx) : (Dcomb.rhsIdx i q 0).val = (q ⟨0, by decide⟩).val :=
  Dcomb.rhsIdx_val_of_single rfl i q
theorem Dcomb_rhs1 (i : S2000x128.Idx) (q : Dcomb.contr.Idx) : (Dcomb.rhsIdx i q 1).val = (i 1).val := by
  unfold DotDims.rhsIdx
  rw [dif_neg (show ¬(1 : Fin S128x128.rank) ∈ Dcomb.rhsBatch by decide), dif_pos (show (1 : Fin S128x128.rank) ∈ Dcomb.rhsNonContracting by decide)]
  rfl

/-- The block matmul into a zero accumulator, read at `(y, j)`: the plain sum over the contracted index. -/
theorem matmul_blk_apply {φ₁ φ₂ : FTy} (lhs : FVec Ideal S2000x128 φ₁) (rhs : FVec Ideal S128x128 φ₂) (y : Fin 2000) (j : Fin 128) :
    matmul Dcomb none lhs rhs (constant (F := Ideal) S2000x128 .f32 0x00000000#32) (ix2 y j)
      = ∑ k : Fin 128, lhs (ix2 y k) * rhs (ix2 k j) := by
  simp only [matmul]
  rw [Ideal.matmul_constant_zero_apply, ← Equiv.sum_comp (ValueIdx.contrEquiv1 Dcomb 128 rfl rfl).symm]
  refine Finset.sum_congr rfl fun k _ => ?_
  have hk := ValueIdx.contrEquiv1_symm_val Dcomb 128 rfl rfl k
  have el : Dcomb.lhsIdx (ix2 y j) ((ValueIdx.contrEquiv1 Dcomb 128 rfl rfl).symm k) = ix2 y k := funext fun a => Fin.ext (by
    match a with
    | ⟨0, _⟩ => exact Dcomb_lhs0 _ _
    | ⟨1, _⟩ => exact (Dcomb_lhs1 _ _).trans hk)
  have er : Dcomb.rhsIdx (ix2 y j) ((ValueIdx.contrEquiv1 Dcomb 128 rfl rfl).symm k) = ix2 k j := funext fun a => Fin.ext (by
    match a with
    | ⟨0, _⟩ => exact (Dcomb_rhs0 _ _).trans hk
    | ⟨1, _⟩ => exact Dcomb_rhs1 _ _)
  rw [el, er]

/-- The payload of region 3 at an index of the block: the relu of the second matmul plus the bias row, the first
    matmul being the one-hot of the id column against the lane index times the context table. -/
theorem pay3_apply (v0 : Vec Ideal S2000x1 .i32) (v9 : Vec Ideal S128x128 .f32) (v13 v14 : Vec Ideal S2000x128 .f32)
    (v19 : Vec Ideal S128x128 .f32) (v22 : Vec Ideal S1x128 .f32) (y : Fin 2000) (j : Fin 128) :
    k3_pay1 (F := Ideal) v0 v9 v13 v14 v19 v22 (ix2 y j)
      = max (∑ q : Fin 128, (v13 (ix2 y q) + v14 (ix2 y q)
            + ∑ k : Fin 128, (if v0 (ix2 y (0 : Fin 1)) = BitVec.ofNat 32 k.val then (1 : EReal) else 0) * v9 (ix2 k q)) * v19 (ix2 q j)
          + v22 (ix2 (0 : Fin 1) j)) 0 := by
  unfold k3_pay1
  repeat rw [shapeCast_self]
  rw [maximumf_apply, addf_apply, broadcast_apply]
  rw [matmul_blk_apply, broadcastTo_1b_ab_apply]
  show max _ (Ideal.ofBits .f32 0x00000000#32) = _
  rw [Ideal.ofBits_zero_f32]
  refine congrArg (fun s => max (s + v22 (ix2 (0 : Fin 1) j)) 0) (Finset.sum_congr rfl fun q _ => ?_)
  rw [truncf_apply, truncf_apply, addf_apply, addf_apply, matmul_blk_apply]
  refine congrArg (fun s => (v13 (ix2 y q) + v14 (ix2 y q) + s) * v19 (ix2 q j)) (Finset.sum_congr rfl fun k _ => ?_)
  rw [truncf_apply, truncf_apply, sitofp_apply, extui_apply]
  show FloatOps.sitofp (F := Ideal) .f32 ((IntOp.cmpi .eq (broadcastTo S2000x128 v0 _ (ix2 y k)) (broadcastTo S2000x128 _ _ (ix2 y k))).setWidth 32) * _ = _
  rw [broadcastTo_a1_ab_apply, broadcastTo_1b_ab_apply, iota_single_apply, onehot_word]

/-- The payload of region 5 at an index of the block: the relu of the second matmul plus the bias row, the first
    matmul being the one-hot of the id column against the lane index times the context table. -/
theorem pay5_apply (v0 : Vec Ideal S2000x1 .i32) (v9 : Vec Ideal S128x128 .f32) (v13 v14 : Vec Ideal S2000x128 .f32)
    (v19 : Vec Ideal S128x128 .f32) (v22 : Vec Ideal S1x128 .f32) (y : Fin 2000) (j : Fin 128) :
    k5_pay1 (F := Ideal) v0 v9 v13 v14 v19 v22 (ix2 y j)
      = max (∑ q : Fin 128, (v13 (ix2 y q) + v14 (ix2 y q)
            + ∑ k : Fin 128, (if v0 (ix2 y (0 : Fin 1)) = BitVec.ofNat 32 k.val then (1 : EReal) else 0) * v9 (ix2 k q)) * v19 (ix2 q j)
          + v22 (ix2 (0 : Fin 1) j)) 0 := by
  unfold k5_pay1
  repeat rw [shapeCast_self]
  rw [maximumf_apply, addf_apply, broadcast_apply]
  rw [matmul_blk_apply, broadcastTo_1b_ab_apply]
  show max _ (Ideal.ofBits .f32 0x00000000#32) = _
  rw [Ideal.ofBits_zero_f32]
  refine congrArg (fun s => max (s + v22 (ix2 (0 : Fin 1) j)) 0) (Finset.sum_congr rfl fun q _ => ?_)
  rw [truncf_apply, truncf_apply, addf_apply, addf_apply, matmul_blk_apply]
  refine congrArg (fun s => (v13 (ix2 y q) + v14 (ix2 y q) + s) * v19 (ix2 q j)) (Finset.sum_congr rfl fun k _ => ?_)
  rw [truncf_apply, truncf_apply, sitofp_apply, extui_apply]
  show FloatOps.sitofp (F := Ideal) .f32 ((IntOp.cmpi .eq (broadcastTo S2000x128 v0 _ (ix2 y k)) (broadcastTo S2000x128 _ _ (ix2 y k))).setWidth 32) * _ = _
  rw [broadcastTo_a1_ab_apply, broadcastTo_1b_ab_apply, iota_single_apply, onehot_word]

/-- The payload of region 7 at an index of the block: the relu of the second matmul plus the bias row, the first
    matmul being the one-hot of the id column against the lane index times the context table. -/
theorem pay7_apply (v0 : Vec Ideal S2000x1 .i32) (v9 : Vec Ideal S128x128 .f32) (v13 v14 : Vec Ideal S2000x128 .f32)
    (v19 : Vec Ideal S128x128 .f32) (v22 : Vec Ideal S1x128 .f32) (y : Fin 2000) (j : Fin 128) :
    k7_pay1 (F := Ideal) v0 v9 v13 v14 v19 v22 (ix2 y j)
      = max (∑ q : Fin 128, (v13 (ix2 y q) + v14 (ix2 y q)
            + ∑ k : Fin 128, (if v0 (ix2 y (0 : Fin 1)) = BitVec.ofNat 32 k.val then (1 : EReal) else 0) * v9 (ix2 k q)) * v19 (ix2 q j)
          + v22 (ix2 (0 : Fin 1) j)) 0 := by
  unfold k7_pay1
  repeat rw [shapeCast_self]
  rw [maximumf_apply, addf_apply, broadcast_apply]
  rw [matmul_blk_apply, broadcastTo_1b_ab_apply]
  show max _ (Ideal.ofBits .f32 0x00000000#32) = _
  rw [Ideal.ofBits_zero_f32]
  refine congrArg (fun s => max (s + v22 (ix2 (0 : Fin 1) j)) 0) (Finset.sum_congr rfl fun q _ => ?_)
  rw [truncf_apply, truncf_apply, addf_apply, addf_apply, matmul_blk_apply]
  refine congrArg (fun s => (v13 (ix2 y q) + v14 (ix2 y q) + s) * v19 (ix2 q j)) (Finset.sum_congr rfl fun k _ => ?_)
  rw [truncf_apply, truncf_apply, sitofp_apply, extui_apply]
  show FloatOps.sitofp (F := Ideal) .f32 ((IntOp.cmpi .eq (broadcastTo S2000x128 v0 _ (ix2 y k)) (broadcastTo S2000x128 _ _ (ix2 y k))).setWidth 32) * _ = _
  rw [broadcastTo_a1_ab_apply, broadcastTo_1b_ab_apply, iota_single_apply, onehot_word]

end Cert.KernelIdeal.Hand
-- ==== Proof.CombValue3.lean ====
/- The value of region 3 at the ideal values: the array its output window ends holding, index by index, as one
   function of the six arrays the region finds at its entry. Each input window's block is read off its array —
   rows `2000 t … 2000 t + 1999` at point `t` for the row-blocked windows, the whole array for the one-block
   windows —, so what point `t` writes back is block `t` of the closed form; the 25 row blocks cover the array. -/
import proofs.«170580_j11665131176635_1_alg».proof.Proof.Comb3
import proofs.«170580_j11665131176635_1_alg».proof.Proof.CombPay
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The closed form at row `n` and lane `j`, of the six arrays the region reads. -/
def G3 (h agg : S50000x128.Idx → EReal) (ids : S50000x1.Idx → BitVec 32) (ctx W : S128x128.Idx → EReal) (b : S1x128.Idx → EReal)
    (n : Fin 50000) (j : Fin 128) : EReal :=
  max (∑ q : Fin 128, (h (ix2 n q) + agg (ix2 n q)
        + ∑ k : Fin 128, (if ids (ix2 n (0 : Fin 1)) = BitVec.ofNat 32 k.val then (1 : EReal) else 0) * ctx (ix2 k q)) * W (ix2 q j)
      + b (ix2 (0 : Fin 1) j)) 0

/-- The same as one array, of the region-entry contents `V`. -/
def Garr3 (c : Dev nD) : S50000x128.Idx → EReal := fun i =>
  G3 (V c (Pipeline.arrRef spec3 0)) (V c (Pipeline.arrRef spec3 1)) (V c (Pipeline.arrRef spec3 2)) (V c (Pipeline.arrRef spec3 3))
    (V c (Pipeline.arrRef spec3 4)) (V c (Pipeline.arrRef spec3 5)) (i 0) (i 1)

/-- The printed index maps, decided over the grid: the row-blocked windows 0, 1, 2, 6 are at block row `t`, the
    windows 3, 4, 5 at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem N3 : cfg3.N = 25 := N_3

/-- A row-blocked input's block at point `t` is rows `2000 t … 2000 t + 1999` of its array. -/
theorem iblk3_0_apply (c : Dev nD) (t : Fin cfg3.N) (x : S2000x128.Idx) (k : S50000x128.Idx)
    (hk0 : (k 0).val = t.val * 2000 + (x 0).val) (hk1 : (k 1).val = (x 1).val) :
    (iblk3 V c 0 t : Vec Ideal S2000x128 .f32) x = (V c (Pipeline.arrRef spec3 0) : S50000x128.Idx → EReal) k := by
  obtain ⟨e0, e1, -⟩ := idx_facts3 t
  unfold iblk3
  rw [View.read_apply]
  refine congrArg (V c (Pipeline.arrRef spec3 0) : S50000x128.Idx → EReal) (funext fun a => Fin.ext ?_)
  match a with
  | ⟨0, _⟩ => show win3_0.index t 0 * 2000 + 1 * (x 0).val = (k 0).val; rw [e0, hk0]; omega
  | ⟨1, _⟩ => show win3_0.index t 1 * 128 + 1 * (x 1).val = (k 1).val; rw [e1, hk1]; omega

/-- Window 1's block at point `t` is rows `2000 t … 2000 t + 1999` of its array. -/
theorem iblk3_1_apply (c : Dev nD) (t : Fin cfg3.N) (x : S2000x128.Idx) (k : S50000x128.Idx)
    (hk0 : (k 0).val = t.val * 2000 + (x 0).val) (hk1 : (k 1).val = (x 1).val) :
    (iblk3 V c 1 t : Vec Ideal S2000x128 .f32) x = (V c (Pipeline.arrRef spec3 1) : S50000x128.Idx → Elt Ideal .f32) k := by
  obtain ⟨-, -, e0, e1, -, -, -, -, -, -, -, -, -, -⟩ := idx_facts3 t
  unfold iblk3
  rw [View.read_apply]
  refine congrArg (V c (Pipeline.arrRef spec3 1) : S50000x128.Idx → Elt Ideal .f32) (funext fun a => Fin.ext ?_)
  match a with
  | ⟨0, _⟩ => show win3_1.index t 0 * 2000 + 1 * (x 0).val = (k 0).val; rw [e0, hk0]; omega
  | ⟨1, _⟩ => show win3_1.index t 1 * 128 + 1 * (x 1).val = (k 1).val; rw [e1, hk1]; omega

/-- Window 2's block at point `t` is rows `2000 t … 2000 t + 1999` of its array. -/
theorem iblk3_2_apply (c : Dev nD) (t : Fin cfg3.N) (x : S2000x1.Idx) (k : S50000x1.Idx)
    (hk0 : (k 0).val = t.val * 2000 + (x 0).val) (hk1 : (k 1).val = (x 1).val) :
    (iblk3 V c 2 t : Vec Ideal S2000x1 .i32) x = (V c (Pipeline.arrRef spec3 2) : S50000x1.Idx → Elt Ideal .i32) k := by
  obtain ⟨-, -, -, -, e0, e1, -, -, -, -, -, -, -, -⟩ := idx_facts3 t
  unfold iblk3
  rw [View.read_apply]
  refine congrArg (V c (Pipeline.arrRef spec3 2) : S50000x1.Idx → Elt Ideal .i32) (funext fun a => Fin.ext ?_)
  match a with
  | ⟨0, _⟩ => show win3_2.index t 0 * 2000 + 1 * (x 0).val = (k 0).val; rw [e0, hk0]; omega
  | ⟨1, _⟩ => show win3_2.index t 1 * 1 + 1 * (x 1).val = (k 1).val; rw [e1, hk1]; omega

/-- Window 3's one block is its whole array, at every point. -/
theorem iblk3_3_apply (c : Dev nD) (t : Fin cfg3.N) (x : S128x128.Idx) :
    (iblk3 V c 3 t : Vec Ideal S128x128 .f32) x = (V c (Pipeline.arrRef spec3 3) : S128x128.Idx → Elt Ideal .f32) x := by
  obtain ⟨-, -, -, -, -, -, e0, e1, -, -, -, -, -, -⟩ := idx_facts3 t
  unfold iblk3
  rw [View.read_apply]
  refine congrArg (V c (Pipeline.arrRef spec3 3) : S128x128.Idx → Elt Ideal .f32) (funext fun a => Fin.ext ?_)
  match a with
  | ⟨0, _⟩ => show win3_3.index t 0 * 128 + 1 * (x 0).val = (x 0).val; rw [e0]; omega
  | ⟨1, _⟩ => show win3_3.index t 1 * 128 + 1 * (x 1).val = (x 1).val; rw [e1]; omega

/-- Window 4's one block is its whole array, at every point. -/
theorem iblk3_4_apply (c : Dev nD) (t : Fin cfg3.N) (x : S128x128.Idx) :
    (iblk3 V c 4 t : Vec Ideal S128x128 .f32) x = (V c (Pipeline.arrRef spec3 4) : S128x128.Idx → Elt Ideal .f32) x := by
  obtain ⟨-, -, -, -, -, -, -, -, e0, e1, -, -, -, -⟩ := idx_facts3 t
  unfold iblk3
  rw [View.read_apply]
  refine congrArg (V c (Pipeline.arrRef spec3 4) : S128x128.Idx → Elt Ideal .f32) (funext fun a => Fin.ext ?_)
  match a with
  | ⟨0, _⟩ => show win3_4.index t 0 * 128 + 1 * (x 0).val = (x 0).val; rw [e0]; omega
  | ⟨1, _⟩ => show win3_4.index t 1 * 128 + 1 * (x 1).val = (x 1).val; rw [e1]; omega

/-- Window 5's one block is its whole array, at every point. -/
theorem iblk3_5_apply (c : Dev nD) (t : Fin cfg3.N) (x : S1x128.Idx) :
    (iblk3 V c 5 t : Vec Ideal S1x128 .f32) x = (V c (Pipeline.arrRef spec3 5) : S1x128.Idx → Elt Ideal .f32) x := by
  obtain ⟨-, -, -, -, -, -, -, -, -, -, e0, e1, -, -⟩ := idx_facts3 t
  unfold iblk3
  rw [View.read_apply]
  refine congrArg (V c (Pipeline.arrRef spec3 5) : S1x128.Idx → Elt Ideal .f32) (funext fun a => Fin.ext ?_)
  match a with
  | ⟨0, _⟩ => show win3_5.index t 0 * 1 + 1 * (x 0).val = (x 0).val; rw [e0]; omega
  | ⟨1, _⟩ => show win3_5.index t 1 * 128 + 1 * (x 1).val = (x 1).val; rw [e1]; omega

/-- What point `t` writes back is block `t` of `Garr3`. -/
theorem flushed3_eq (c : Dev nD) (t : Fin cfg3.N) :
    (dat3 V c).flushed 6 t = ((cfg3.win 6).blk t).view.read (Elt Ideal) (Garr3 V c) := by
  show (cfg3.win 6).cut (grid3.coords t) ((dat3 V c).after 6 t) = _
  rw [after3_6]
  unfold out3_6
  rw [View.canon_unit_zero hz3]
  simp only [View.ld_unit_zero (S := S2000x128) hz3, View.ld_unit_zero (S := S2000x1) hz3,
    View.ld_unit_zero (S := S128x128) hz3, View.ld_unit_zero (S := S1x128) hz3]
  obtain ⟨-, -, -, -, -, -, -, -, -, -, -, -, e0, e1⟩ := idx_facts3 t
  funext j
  obtain ⟨y, jj, rfl⟩ : ∃ (y : Fin 2000) (jj : Fin 128), j = ix2 y jj := ⟨j 0, j 1, eq_ix2 j⟩
  have ht : t.val < 25 := Nat.lt_of_lt_of_eq t.isLt N3
  obtain ⟨N, hN⟩ : ∃ N : Fin 50000, N.val = t.val * 2000 + y.val := ⟨⟨t.val * 2000 + y.val, by have := y.isLt; omega⟩, rfl⟩
  have hemb : ((cfg3.win 6).blk t).view.emb (ix2 y jj) = (ix2 N jj : S50000x128.Idx) := funext fun a => Fin.ext (by
    match a with
    | ⟨0, _⟩ => show win3_6.index t 0 * 2000 + 1 * y.val = N.val; rw [e0, hN]; omega
    | ⟨1, _⟩ => show win3_6.index t 1 * 128 + 1 * jj.val = jj.val; rw [e1]; omega)
  show k3_pay1 (F := Ideal) (iblk3 V c 2 t) (iblk3 V c 3 t) (iblk3 V c 0 t) (iblk3 V c 1 t) (iblk3 V c 4 t) (iblk3 V c 5 t) (ix2 y jj)
    = Garr3 V c (((cfg3.win 6).blk t).view.emb (ix2 y jj))
  rw [hemb]
  refine (pay3_apply _ _ _ _ _ _ y jj).trans ?_
  have L0 : ∀ q : Fin 128, (iblk3 V c 0 t : Vec Ideal S2000x128 .f32) (ix2 y q) = (V c (Pipeline.arrRef spec3 0) : S50000x128.Idx → EReal) (ix2 N q) :=
    fun q => iblk3_0_apply V c t _ _ hN rfl
  have L1 : ∀ q : Fin 128, (iblk3 V c 1 t : Vec Ideal S2000x128 .f32) (ix2 y q) = (V c (Pipeline.arrRef spec3 1) : S50000x128.Idx → EReal) (ix2 N q) :=
    fun q => iblk3_1_apply V c t _ _ hN rfl
  have L2 : (iblk3 V c 2 t : Vec Ideal S2000x1 .i32) (ix2 y (0 : Fin 1)) = (V c (Pipeline.arrRef spec3 2) : S50000x1.Idx → BitVec 32) (ix2 N (0 : Fin 1)) :=
    iblk3_2_apply V c t _ _ hN rfl
  have L3 : ∀ k q : Fin 128, (iblk3 V c 3 t : Vec Ideal S128x128 .f32) (ix2 k q) = (V c (Pipeline.arrRef spec3 3) : S128x128.Idx → EReal) (ix2 k q) :=
    fun k q => iblk3_3_apply V c t _
  have L4 : ∀ q : Fin 128, (iblk3 V c 4 t : Vec Ideal S128x128 .f32) (ix2 q jj) = (V c (Pipeline.arrRef spec3 4) : S128x128.Idx → EReal) (ix2 q jj) :=
    fun q => iblk3_4_apply V c t _
  have L5 : (iblk3 V c 5 t : Vec Ideal S1x128 .f32) (ix2 (0 : Fin 1) jj) = (V c (Pipeline.arrRef spec3 5) : S1x128.Idx → EReal) (ix2 (0 : Fin 1) jj) :=
    iblk3_5_apply V c t _
  simp only [L0, L1, L2, L3, L4, L5]
  rfl

/-- An index of the array is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v20).slice (win3_6.rect t)).set ↔ _
  rw [View.set_slice_whole, Rect.mem_set_unit]
  exact Iff.rfl

/-- Every index of the array is in the block of the point that holds its row: point `row / 2000`. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 2000 := ⟨⟨(i 0).val / 2000, by rw [N3]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t 0 * 2000 ≤ (i 0).val ∧ (i 0).val < win3_6.index t 0 * 2000 + 2000; rw [e0, ht]; omega
  | ⟨1, _⟩ => show win3_6.index t 1 * 128 ≤ (i 1).val ∧ (i 1).val < win3_6.index t 1 * 128 + 128; rw [e1]; omega

/-- The output array after the region is `Garr3` of the region-entry contents. -/
theorem final3 (c : Dev nD) : (dat3 V c).arrAt 6 cfg3.N = Garr3 V c :=
  (dat3 V c).arrAt_eq_of_cover 6 (Garr3 V c) (fun t _ => flushed3_eq V c t) (cover3)

/-- Index by index: the output array after the region is the closed form `G3` of the six arrays the region finds. -/
theorem comb3_value (c : Dev nD) (n : Fin 50000) (j : Fin 128) :
    (dat3 (F := Ideal) V c).arrAt 6 cfg3.N (ix2 n j)
      = G3 (V c (Pipeline.arrRef spec3 0)) (V c (Pipeline.arrRef spec3 1)) (V c (Pipeline.arrRef spec3 2)) (V c (Pipeline.arrRef spec3 3))
          (V c (Pipeline.arrRef spec3 4)) (V c (Pipeline.arrRef spec3 5)) n j :=
  congrFun (final3 V c) (ix2 n j)

/-- The closed form, spelt out. -/
theorem G3_apply (h agg : S50000x128.Idx → EReal) (ids : S50000x1.Idx → BitVec 32) (ctx W : S128x128.Idx → EReal) (b : S1x128.Idx → EReal)
    (n : Fin 50000) (j : Fin 128) :
    G3 h agg ids ctx W b n j
      = max (∑ q : Fin 128, (h (ix2 n q) + agg (ix2 n q)
            + ∑ k : Fin 128, (if ids (ix2 n (0 : Fin 1)) = BitVec.ofNat 32 k.val then (1 : EReal) else 0) * ctx (ix2 k q)) * W (ix2 q j)
          + b (ix2 (0 : Fin 1) j)) 0 := rfl

end Cert.KernelIdeal.Hand
-- ==== Proof.CombValue5.lean ====
/- The value of region 5 at the ideal values: the array its output window ends holding, index by index, as one
   function of the six arrays the region finds at its entry. Each input window's block is read off its array —
   rows `2000 t … 2000 t + 1999` at point `t` for the row-blocked windows, the whole array for the one-block
   windows —, so what point `t` writes back is block `t` of the closed form; the 25 row blocks cover the array. -/
import proofs.«170580_j11665131176635_1_alg».proof.Proof.Comb5
import proofs.«170580_j11665131176635_1_alg».proof.Proof.CombPay
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz5 : (![0, 0] : Fin 2 → Nat) = fun _ => 0 := funext fun a => by fin_cases a <;> rfl

/-- The closed form at row `n` and lane `j`, of the six arrays the region reads. -/
def G5 (h agg : S50000x128.Idx → EReal) (ids : S50000x1.Idx → BitVec 32) (ctx W : S128x128.Idx → EReal) (b : S1x128.Idx → EReal)
    (n : Fin 50000) (j : Fin 128) : EReal :=
  max (∑ q : Fin 128, (h (ix2 n q) + agg (ix2 n q)
        + ∑ k : Fin 128, (if ids (ix2 n (0 : Fin 1)) = BitVec.ofNat 32 k.val then (1 : EReal) else 0) * ctx (ix2 k q)) * W (ix2 q j)
      + b (ix2 (0 : Fin 1) j)) 0

/-- The same as one array, of the region-entry contents `V`. -/
def Garr5 (c : Dev nD) : S50000x128.Idx → EReal := fun i =>
  G5 (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (i 0) (i 1)

/-- The printed index maps, decided over the grid: the row-blocked windows 0, 1, 2, 6 are at block row `t`, the
    windows 3, 4, 5 at their one block. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem N5 : cfg5.N = 25 := N_5

/-- A row-blocked input's block at point `t` is rows `2000 t … 2000 t + 1999` of its array. -/
theorem iblk5_0_apply (c : Dev nD) (t : Fin cfg5.N) (x : S2000x128.Idx) (k : S50000x128.Idx)
    (hk0 : (k 0).val = t.val * 2000 + (x 0).val) (hk1 : (k 1).val = (x 1).val) :
    (iblk5 V c 0 t : Vec Ideal S2000x128 .f32) x = (V c (Pipeline.arrRef spec5 0) : S50000x128.Idx → EReal) k := by
  obtain ⟨e0, e1, -⟩ := idx_facts5 t
  unfold iblk5
  rw [View.read_apply]
  refine congrArg (V c (Pipeline.arrRef spec5 0) : S50000x128.Idx → EReal) (funext fun a => Fin.ext ?_)
  match a with
  | ⟨0, _⟩ => show win5_0.index t 0 * 2000 + 1 * (x 0).val = (k 0).val; rw [e0, hk0]; omega
  | ⟨1, _⟩ => show win5_0.index t 1 * 128 + 1 * (x 1).val = (k 1).val; rw [e1, hk1]; omega

/-- Window 1's block at point `t` is rows `2000 t … 2000 t + 1999` of its array. -/
theorem iblk5_1_apply (c : Dev nD) (t : Fin cfg5.N) (x : S2000x128.Idx) (k : S50000x128.Idx)
    (hk0 : (k 0).val = t.val * 2000 + (x 0).val) (hk1 : (k 1).val = (x 1).val) :
    (iblk5 V c 1 t : Vec Ideal S2000x128 .f32) x = (V c (Pipeline.arrRef spec5 1) : S50000x128.Idx → Elt Ideal .f32) k := by
  obtain ⟨-, -, e0, e1, -, -, -, -, -, -, -, -, -, -⟩ := idx_facts5 t
  unfold iblk5
  rw [View.read_apply]
  refine congrArg (V c (Pipeline.arrRef spec5 1) : S50000x128.Idx → Elt Ideal .f32) (funext fun a => Fin.ext ?_)
  match a with
  | ⟨0, _⟩ => show win5_1.index t 0 * 2000 + 1 * (x 0).val = (k 0).val; rw [e0, hk0]; omega
  | ⟨1, _⟩ => show win5_1.index t 1 * 128 + 1 * (x 1).val = (k 1).val; rw [e1, hk1]; omega

/-- Window 2's block at point `t` is rows `2000 t … 2000 t + 1999` of its array. -/
theorem iblk5_2_apply (c : Dev nD) (t : Fin cfg5.N) (x : S2000x1.Idx) (k : S50000x1.Idx)
    (hk0 : (k 0).val = t.val * 2000 + (x 0).val) (hk1 : (k 1).val = (x 1).val) :
    (iblk5 V c 2 t : Vec Ideal S2000x1 .i32) x = (V c (Pipeline.arrRef spec5 2) : S50000x1.Idx → Elt Ideal .i32) k := by
  obtain ⟨-, -, -, -, e0, e1, -, -, -, -, -, -, -, -⟩ := idx_facts5 t
  unfold iblk5
  rw [View.read_apply]
  refine congrArg (V c (Pipeline.arrRef spec5 2) : S50000x1.Idx → Elt Ideal .i32) (funext fun a => Fin.ext ?_)
  match a with
  | ⟨0, _⟩ => show win5_2.index t 0 * 2000 + 1 * (x 0).val = (k 0).val; rw [e0, hk0]; omega
  | ⟨1, _⟩ => show win5_2.index t 1 * 1 + 1 * (x 1).val = (k 1).val; rw [e1, hk1]; omega

/-- Window 3's one block is its whole array, at every point. -/
theorem iblk5_3_apply (c : Dev nD) (t : Fin cfg5.N) (x : S128x128.Idx) :
    (iblk5 V c 3 t : Vec Ideal S128x128 .f32) x = (V c (Pipeline.arrRef spec5 3) : S128x128.Idx → Elt Ideal .f32) x := by
  obtain ⟨-, -, -, -, -, -, e0, e1, -, -, -, -, -, -⟩ := idx_facts5 t
  unfold iblk5
  rw [View.read_apply]
  refine congrArg (V c (Pipeline.arrRef spec5 3) : S128x128.Idx → Elt Ideal .f32) (funext fun a => Fin.ext ?_)
  match a with
  | ⟨0, _⟩ => show win5_3.index t 0 * 128 + 1 * (x 0).val = (x 0).val; rw [e0]; omega
  | ⟨1, _⟩ => show win5_3.index t 1 * 128 + 1 * (x 1).val = (x 1).val; rw [e1]; omega

/-- Window 4's one block is its whole array, at every point. -/
theorem iblk5_4_apply (c : Dev nD) (t : Fin cfg5.N) (x : S128x128.Idx) :
    (iblk5 V c 4 t : Vec Ideal S128x128 .f32) x = (V c (Pipeline.arrRef spec5 4) : S128x128.Idx → Elt Ideal .f32) x := by
  obtain ⟨-, -, -, -, -, -, -, -, e0, e1, -, -, -, -⟩ := idx_facts5 t
  unfold iblk5
  rw [View.read_apply]
  refine congrArg (V c (Pipeline.arrRef spec5 4) : S128x128.Idx → Elt Ideal .f32) (funext fun a => Fin.ext ?_)
  match a with
  | ⟨0, _⟩ => show win5_4.index t 0 * 128 + 1 * (x 0).val = (x 0).val; rw [e0]; omega
  | ⟨1, _⟩ => show win5_4.index t 1 * 128 + 1 * (x 1).val = (x 1).val; rw [e1]; omega

/-- Window 5's one block is its whole array, at every point. -/
theorem iblk5_5_apply (c : Dev nD) (t : Fin cfg5.N) (x : S1x128.Idx) :
    (iblk5 V c 5 t : Vec Ideal S1x128 .f32) x = (V c (Pipeline.arrRef spec5 5) : S1x128.Idx → Elt Ideal .f32) x := by
  obtain ⟨-, -, -, -, -, -, -, -, -, -, e0, e1, -, -⟩ := idx_facts5 t
  unfold iblk5
  rw [View.read_apply]
  refine congrArg (V c (Pipeline.arrRef spec5 5) : S1x128.Idx → Elt Ideal .f32) (funext fun a => Fin.ext ?_)
  match a with
  | ⟨0, _⟩ => show win5_5.index t 0 * 1 + 1 * (x 0).val = (x 0).val; rw [e0]; omega
  | ⟨1, _⟩ => show win5_5.index t 1 * 128 + 1 * (x 1).val = (x 1).val; rw [e1]; omega

/-- What point `t` writes back is block `t` of `Garr5`. -/
theorem flushed5_eq (c : Dev nD) (t : Fin cfg5.N) :
    (dat5 V c).flushed 6 t = ((cfg5.win 6).blk t).view.read (Elt Ideal) (Garr5 V c) := by
  show (cfg5.win 6).cut (grid5.coords t) ((dat5 V c).after 6 t) = _
  rw [after5_6]
  unfold out5_6
  rw [View.canon_unit_zero hz5]
  simp only [View.ld_unit_zero (S := S2000x128) hz5, View.ld_unit_zero (S := S2000x1) hz5,
    View.ld_unit_zero (S := S128x128) hz5, View.ld_unit_zero (S := S1x128) hz5]
  obtain ⟨-, -, -, -, -, -, -, -, -, -, -, -, e0, e1⟩ := idx_facts5 t
  funext j
  obtain ⟨y, jj, rfl⟩ : ∃ (y : Fin 2000) (jj : Fin 128), j = ix2 y jj := ⟨j 0, j 1, eq_ix2 j⟩
  have ht : t.val < 25 := Nat.lt_of_lt_of_eq t.isLt N5
  obtain ⟨N, hN⟩ : ∃ N : Fin 50000, N.val = t.val * 2000 + y.val := ⟨⟨t.val * 2000 + y.val, by have := y.isLt; omega⟩, rfl⟩
  have hemb : ((cfg5.win 6).blk t).view.emb (ix2 y jj) = (ix2 N jj : S50000x128.Idx) := funext fun a => Fin.ext (by
    match a with
    | ⟨0, _⟩ => show win5_6.index t 0 * 2000 + 1 * y.val = N.val; rw [e0, hN]; omega
    | ⟨1, _⟩ => show win5_6.index t 1 * 128 + 1 * jj.val = jj.val; rw [e1]; omega)
  show k5_pay1 (F := Ideal) (iblk5 V c 2 t) (iblk5 V c 3 t) (iblk5 V c 0 t) (iblk5 V c 1 t) (iblk5 V c 4 t) (iblk5 V c 5 t) (ix2 y jj)
    = Garr5 V c (((cfg5.win 6).blk t).view.emb (ix2 y jj))
  rw [hemb]
  refine (pay5_apply _ _ _ _ _ _ y jj).trans ?_
  have L0 : ∀ q : Fin 128, (iblk5 V c 0 t : Vec Ideal S2000x128 .f32) (ix2 y q) = (V c (Pipeline.arrRef spec5 0) : S50000x128.Idx → EReal) (ix2 N q) :=
    fun q => iblk5_0_apply V c t _ _ hN rfl
  have L1 : ∀ q : Fin 128, (iblk5 V c 1 t : Vec Ideal S2000x128 .f32) (ix2 y q) = (V c (Pipeline.arrRef spec5 1) : S50000x128.Idx → EReal) (ix2 N q) :=
    fun q => iblk5_1_apply V c t _ _ hN rfl
  have L2 : (iblk5 V c 2 t : Vec Ideal S2000x1 .i32) (ix2 y (0 : Fin 1)) = (V c (Pipeline.arrRef spec5 2) : S50000x1.Idx → BitVec 32) (ix2 N (0 : Fin 1)) :=
    iblk5_2_apply V c t _ _ hN rfl
  have L3 : ∀ k q : Fin 128, (iblk5 V c 3 t : Vec Ideal S128x128 .f32) (ix2 k q) = (V c (Pipeline.arrRef spec5 3) : S128x128.Idx → EReal) (ix2 k q) :=
    fun k q => iblk5_3_apply V c t _
  have L4 : ∀ q : Fin 128, (iblk5 V c 4 t : Vec Ideal S128x128 .f32) (ix2 q jj) = (V c (Pipeline.arrRef spec5 4) : S128x128.Idx → EReal) (ix2 q jj) :=
    fun q => iblk5_4_apply V c t _
  have L5 : (iblk5 V c 5 t : Vec Ideal S1x128 .f32) (ix2 (0 : Fin 1) jj) = (V c (Pipeline.arrRef spec5 5) : S1x128.Idx → EReal) (ix2 (0 : Fin 1) jj) :=
    iblk5_5_apply V c t _
  simp only [L0, L1, L2, L3, L4, L5]
  rfl

/-- An index of the array is in point `t`'s block iff each coordinate is in the block's range on its axis. -/
theorem mem_blk5 (t : Fin cfg5.N) (i : S50000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v36).slice (win5_6.rect t)).set ↔ _
  rw [View.set_slice_whole, Rect.mem_set_unit]
  exact Iff.rfl

/-- Every index of the array is in the block of the point that holds its row: point `row / 2000`. -/
theorem cover5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ : ∃ t : Fin cfg5.N, t.val = (i 0).val / 2000 := ⟨⟨(i 0).val / 2000, by rw [N5]; omega⟩, rfl⟩
  obtain ⟨-, -, -, -, -, -, -, -, -, -, -, -, e0, e1⟩ := idx_facts5 t
  refine ⟨t, flush5_6 t, ?_⟩
  rw [mem_blk5]
  intro a
  match a with
  | ⟨0, _⟩ => show win5_6.index t 0 * 2000 ≤ (i 0).val ∧ (i 0).val < win5_6.index t 0 * 2000 + 2000; rw [e0, ht]; omega
  | ⟨1, _⟩ => show win5_6.index t 1 * 128 ≤ (i 1).val ∧ (i 1).val < win5_6.index t 1 * 128 + 128; rw [e1]; omega

/-- The output array after the region is `Garr5` of the region-entry contents. -/
theorem final5 (c : Dev nD) : (dat5 V c).arrAt 6 cfg5.N = Garr5 V c :=
  (dat5 V c).arrAt_eq_of_cover 6 (Garr5 V c) (fun t _ => flushed5_eq V c t) (cover5)

/-- Index by index: the output array after the region is the closed form `G5` of the six arrays the region finds. -/
theorem comb5_value (c : Dev nD) (n : Fin 50000) (j : Fin 128) :
    (dat5 (F := Ideal) V c).arrAt 6 cfg5.N (ix2 n j)
      = G5 (V c (Pipeline.arrRef spec5 0)) (V c (Pipeline.arrRef spec5 1)) (V c (Pipeline.arrRef spec5 2)) (V c (Pipeline.arrRef spec5 3))
          (V c (Pipeline.arrRef spec5 4)) (V c (Pipeline.arrRef spec5 5)) n j :=
  congrFun (final5 V c) (ix2 n j)

/-- The closed form, spelt out. -/
theorem G5_apply (h agg : S50000x128.Idx → EReal) (ids : S50000x1.Idx → BitVec 32) (ctx W : S128x128.Idx → EReal) (b : S1x128.Idx → EReal)
    (n : Fin 50000) (j : Fin 128) :
    G5 h agg ids ctx W b n j
      = max (∑ q : Fin 128, (h (ix2 n q) + agg (ix2 n q)
            + ∑ k : Fin 128, (if ids (ix2 n (0 : Fin 1)) = BitVec.ofNat 32 k.val then (1 : EReal) else 0) * ctx (ix2 k q)) * W (ix2 q j)
          + b (ix2 (0 : Fin 1) j)) 0 := rfl

end Cert.KernelIdeal.Hand
-- ==== Proof.CombValue7.lean ====
/- The value of region 7 at the ideal values: the array its output window ends holding, index by index, as one
   function of the six arrays the region finds at its entry. Each input window's block is read off its array —
   rows `2000 t … 2000 t + 1999` at point `t` for the row-blocked windows, the whole array for the one-block
   windows —, so what point `t` writes back is block `t` of the closed form; the 25 row blocks cover the array. -/
import proofs.«170580_j11665131176635_1_alg».proof.Proof.Comb7
import proofs.«170580_j11665131176635_1_alg».proof.Proof.CombPay
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz7 : (![0, 0] : Fin 2 → Nat) = fun _ => 0 := funext fun a => by fin_cases a <;> rfl

/-- The closed form at row `n` and lane `j`, of the six arrays the region reads. -/
def G7 (h agg : S50000x128.Idx → EReal) (ids : S50000x1.Idx → BitVec 32) (ctx W : S128x128.Idx → EReal) (b : S1x128.Idx → EReal)
    (n : Fin 50000) (j : Fin 128) : EReal :=
  max (∑ q : Fin 128, (h (ix2 n q) + agg (ix2 n q)
        + ∑ k : Fin 128, (if ids (ix2 n (0 : Fin 1)) = BitVec.ofNat 32 k.val then (1 : EReal) else 0) * ctx (ix2 k q)) * W (ix2 q j)
      + b (ix2 (0 : Fin 1) j)) 0

/-- The same as one array, of the region-entry contents `V`. -/
def Garr7 (c : Dev nD) : S50000x128.Idx → EReal := fun i =>
  G7 (V c (Pipeline.arrRef spec7 0)) (V c (Pipeline.arrRef spec7 1)) (V c (Pipeline.arrRef spec7 2)) (V c (Pipeline.arrRef spec7 3))
    (V c (Pipeline.arrRef spec7 4)) (V c (Pipeline.arrRef spec7 5)) (i 0) (i 1)

/-- The printed index maps, decided over the grid: the row-blocked windows 0, 1, 2, 6 are at block row `t`, the
    windows 3, 4, 5 at their one block. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

theorem N7 : cfg7.N = 25 := N_7

/-- A row-blocked input's block at point `t` is rows `2000 t … 2000 t + 1999` of its array. -/
theorem iblk7_0_apply (c : Dev nD) (t : Fin cfg7.N) (x : S2000x128.Idx) (k : S50000x128.Idx)
    (hk0 : (k 0).val = t.val * 2000 + (x 0).val) (hk1 : (k 1).val = (x 1).val) :
    (iblk7 V c 0 t : Vec Ideal S2000x128 .f32) x = (V c (Pipeline.arrRef spec7 0) : S50000x128.Idx → EReal) k := by
  obtain ⟨e0, e1, -⟩ := idx_facts7 t
  unfold iblk7
  rw [View.read_apply]
  refine congrArg (V c (Pipeline.arrRef spec7 0) : S50000x128.Idx → EReal) (funext fun a => Fin.ext ?_)
  match a with
  | ⟨0, _⟩ => show win7_0.index t 0 * 2000 + 1 * (x 0).val = (k 0).val; rw [e0, hk0]; omega
  | ⟨1, _⟩ => show win7_0.index t 1 * 128 + 1 * (x 1).val = (k 1).val; rw [e1, hk1]; omega

/-- Window 1's block at point `t` is rows `2000 t … 2000 t + 1999` of its array. -/
theorem iblk7_1_apply (c : Dev nD) (t : Fin cfg7.N) (x : S2000x128.Idx) (k : S50000x128.Idx)
    (hk0 : (k 0).val = t.val * 2000 + (x 0).val) (hk1 : (k 1).val = (x 1).val) :
    (iblk7 V c 1 t : Vec Ideal S2000x128 .f32) x = (V c (Pipeline.arrRef spec7 1) : S50000x128.Idx → Elt Ideal .f32) k := by
  obtain ⟨-, -, e0, e1, -, -, -, -, -, -, -, -, -, -⟩ := idx_facts7 t
  unfold iblk7
  rw [View.read_apply]
  refine congrArg (V c (Pipeline.arrRef spec7 1) : S50000x128.Idx → Elt Ideal .f32) (funext fun a => Fin.ext ?_)
  match a with
  | ⟨0, _⟩ => show win7_1.index t 0 * 2000 + 1 * (x 0).val = (k 0).val; rw [e0, hk0]; omega
  | ⟨1, _⟩ => show win7_1.index t 1 * 128 + 1 * (x 1).val = (k 1).val; rw [e1, hk1]; omega

/-- Window 2's block at point `t` is rows `2000 t … 2000 t + 1999` of its array. -/
theorem iblk7_2_apply (c : Dev nD) (t : Fin cfg7.N) (x : S2000x1.Idx) (k : S50000x1.Idx)
    (hk0 : (k 0).val = t.val * 2000 + (x 0).val) (hk1 : (k 1).val = (x 1).val) :
    (iblk7 V c 2 t : Vec Ideal S2000x1 .i32) x = (V c (Pipeline.arrRef spec7 2) : S50000x1.Idx → Elt Ideal .i32) k := by
  obtain ⟨-, -, -, -, e0, e1, -, -, -, -, -, -, -, -⟩ := idx_facts7 t
  unfold iblk7
  rw [View.read_apply]
  refine congrArg (V c (Pipeline.arrRef spec7 2) : S50000x1.Idx → Elt Ideal .i32) (funext fun a => Fin.ext ?_)
  match a with
  | ⟨0, _⟩ => show win7_2.index t 0 * 2000 + 1 * (x 0).val = (k 0).val; rw [e0, hk0]; omega
  | ⟨1, _⟩ => show win7_2.index t 1 * 1 + 1 * (x 1).val = (k 1).val; rw [e1, hk1]; omega

/-- Window 3's one block is its whole array, at every point. -/
theorem iblk7_3_apply (c : Dev nD) (t : Fin cfg7.N) (x : S128x128.Idx) :
    (iblk7 V c 3 t : Vec Ideal S128x128 .f32) x = (V c (Pipeline.arrRef spec7 3) : S128x128.Idx → Elt Ideal .f32) x := by
  obtain ⟨-, -, -, -, -, -, e0, e1, -, -, -, -, -, -⟩ := idx_facts7 t
  unfold iblk7
  rw [View.read_apply]
  refine congrArg (V c (Pipeline.arrRef spec7 3) : S128x128.Idx → Elt Ideal .f32) (funext fun a => Fin.ext ?_)
  match a with
  | ⟨0, _⟩ => show win7_3.index t 0 * 128 + 1 * (x 0).val = (x 0).val; rw [e0]; omega
  | ⟨1, _⟩ => show win7_3.index t 1 * 128 + 1 * (x 1).val = (x 1).val; rw [e1]; omega

/-- Window 4's one block is its whole array, at every point. -/
theorem iblk7_4_apply (c : Dev nD) (t : Fin cfg7.N) (x : S128x128.Idx) :
    (iblk7 V c 4 t : Vec Ideal S128x128 .f32) x = (V c (Pipeline.arrRef spec7 4) : S128x128.Idx → Elt Ideal .f32) x := by
  obtain ⟨-, -, -, -, -, -, -, -, e0, e1, -, -, -, -⟩ := idx_facts7 t
  unfold iblk7
  rw [View.read_apply]
  refine congrArg (V c (Pipeline.arrRef spec7 4) : S128x128.Idx → Elt Ideal .f32) (funext fun a => Fin.ext ?_)
  match a with
  | ⟨0, _⟩ => show win7_4.index t 0 * 128 + 1 * (x 0).val = (x 0).val; rw [e0]; omega
  | ⟨1, _⟩ => show win7_4.index t 1 * 128 + 1 * (x 1).val = (x 1).val; rw [e1]; omega

/-- Window 5's one block is its whole array, at every point. -/
theorem iblk7_5_apply (c : Dev nD) (t : Fin cfg7.N) (x : S1x128.Idx) :
    (iblk7 V c 5 t : Vec Ideal S1x128 .f32) x = (V c (Pipeline.arrRef spec7 5) : S1x128.Idx → Elt Ideal .f32) x := by
  obtain ⟨-, -, -, -, -, -, -, -, -, -, e0, e1, -, -⟩ := idx_facts7 t
  unfold iblk7
  rw [View.read_apply]
  refine congrArg (V c (Pipeline.arrRef spec7 5) : S1x128.Idx → Elt Ideal .f32) (funext fun a => Fin.ext ?_)
  match a with
  | ⟨0, _⟩ => show win7_5.index t 0 * 1 + 1 * (x 0).val = (x 0).val; rw [e0]; omega
  | ⟨1, _⟩ => show win7_5.index t 1 * 128 + 1 * (x 1).val = (x 1).val; rw [e1]; omega

/-- What point `t` writes back is block `t` of `Garr7`. -/
theorem flushed7_eq (c : Dev nD) (t : Fin cfg7.N) :
    (dat7 V c).flushed 6 t = ((cfg7.win 6).blk t).view.read (Elt Ideal) (Garr7 V c) := by
  show (cfg7.win 6).cut (grid7.coords t) ((dat7 V c).after 6 t) = _
  rw [after7_6]
  unfold out7_6
  rw [View.canon_unit_zero hz7]
  simp only [View.ld_unit_zero (S := S2000x128) hz7, View.ld_unit_zero (S := S2000x1) hz7,
    View.ld_unit_zero (S := S128x128) hz7, View.ld_unit_zero (S := S1x128) hz7]
  obtain ⟨-, -, -, -, -, -, -, -, -, -, -, -, e0, e1⟩ := idx_facts7 t
  funext j
  obtain ⟨y, jj, rfl⟩ : ∃ (y : Fin 2000) (jj : Fin 128), j = ix2 y jj := ⟨j 0, j 1, eq_ix2 j⟩
  have ht : t.val < 25 := Nat.lt_of_lt_of_eq t.isLt N7
  obtain ⟨N, hN⟩ : ∃ N : Fin 50000, N.val = t.val * 2000 + y.val := ⟨⟨t.val * 2000 + y.val, by have := y.isLt; omega⟩, rfl⟩
  have hemb : ((cfg7.win 6).blk t).view.emb (ix2 y jj) = (ix2 N jj : S50000x128.Idx) := funext fun a => Fin.ext (by
    match a with
    | ⟨0, _⟩ => show win7_6.index t 0 * 2000 + 1 * y.val = N.val; rw [e0, hN]; omega
    | ⟨1, _⟩ => show win7_6.index t 1 * 128 + 1 * jj.val = jj.val; rw [e1]; omega)
  show k7_pay1 (F := Ideal) (iblk7 V c 2 t) (iblk7 V c 3 t) (iblk7 V c 0 t) (iblk7 V c 1 t) (iblk7 V c 4 t) (iblk7 V c 5 t) (ix2 y jj)
    = Garr7 V c (((cfg7.win 6).blk t).view.emb (ix2 y jj))
  rw [hemb]
  refine (pay7_apply _ _ _ _ _ _ y jj).trans ?_
  have L0 : ∀ q : Fin 128, (iblk7 V c 0 t : Vec Ideal S2000x128 .f32) (ix2 y q) = (V c (Pipeline.arrRef spec7 0) : S50000x128.Idx → EReal) (ix2 N q) :=
    fun q => iblk7_0_apply V c t _ _ hN rfl
  have L1 : ∀ q : Fin 128, (iblk7 V c 1 t : Vec Ideal S2000x128 .f32) (ix2 y q) = (V c (Pipeline.arrRef spec7 1) : S50000x128.Idx → EReal) (ix2 N q) :=
    fun q => iblk7_1_apply V c t _ _ hN rfl
  have L2 : (iblk7 V c 2 t : Vec Ideal S2000x1 .i32) (ix2 y (0 : Fin 1)) = (V c (Pipeline.arrRef spec7 2) : S50000x1.Idx → BitVec 32) (ix2 N (0 : Fin 1)) :=
    iblk7_2_apply V c t _ _ hN rfl
  have L3 : ∀ k q : Fin 128, (iblk7 V c 3 t : Vec Ideal S128x128 .f32) (ix2 k q) = (V c (Pipeline.arrRef spec7 3) : S128x128.Idx → EReal) (ix2 k q) :=
    fun k q => iblk7_3_apply V c t _
  have L4 : ∀ q : Fin 128, (iblk7 V c 4 t : Vec Ideal S128x128 .f32) (ix2 q jj) = (V c (Pipeline.arrRef spec7 4) : S128x128.Idx → EReal) (ix2 q jj) :=
    fun q => iblk7_4_apply V c t _
  have L5 : (iblk7 V c 5 t : Vec Ideal S1x128 .f32) (ix2 (0 : Fin 1) jj) = (V c (Pipeline.arrRef spec7 5) : S1x128.Idx → EReal) (ix2 (0 : Fin 1) jj) :=
    iblk7_5_apply V c t _
  simp only [L0, L1, L2, L3, L4, L5]
  rfl

/-- An index of the array is in point `t`'s block iff each coordinate is in the block's range on its axis. -/
theorem mem_blk7 (t : Fin cfg7.N) (i : S50000x128.Idx) :
    i ∈ ((cfg7.win 6).blk t).view.set ↔ ∀ a : Fin 2, win7_6.index t a * S2000x128.size a ≤ (i a).val ∧ (i a).val < win7_6.index t a * S2000x128.size a + S2000x128.size a := by
  show i ∈ ((View.whole main_v52).slice (win7_6.rect t)).set ↔ _
  rw [View.set_slice_whole, Rect.mem_set_unit]
  exact Iff.rfl

/-- Every index of the array is in the block of the point that holds its row: point `row / 2000`. -/
theorem cover7 (i : S50000x128.Idx) : ∃ t : Fin cfg7.N, (cfg7.win 6).flush t = true ∧ i ∈ ((cfg7.win 6).blk t).view.set := by
  have hi0 : (i 0).val < 50000 := (i 0).isLt
  have hi1 : (i 1).val < 128 := (i 1).isLt
  obtain ⟨t, ht⟩ : ∃ t : Fin cfg7.N, t.val = (i 0).val / 2000 := ⟨⟨(i 0).val / 2000, by rw [N7]; omega⟩, rfl⟩
  obtain ⟨-, -, -, -, -, -, -, -, -, -, -, -, e0, e1⟩ := idx_facts7 t
  refine ⟨t, flush7_6 t, ?_⟩
  rw [mem_blk7]
  intro a
  match a with
  | ⟨0, _⟩ => show win7_6.index t 0 * 2000 ≤ (i 0).val ∧ (i 0).val < win7_6.index t 0 * 2000 + 2000; rw [e0, ht]; omega
  | ⟨1, _⟩ => show win7_6.index t 1 * 128 ≤ (i 1).val ∧ (i 1).val < win7_6.index t 1 * 128 + 128; rw [e1]; omega

/-- The output array after the region is `Garr7` of the region-entry contents. -/
theorem final7 (c : Dev nD) : (dat7 V c).arrAt 6 cfg7.N = Garr7 V c :=
  (dat7 V c).arrAt_eq_of_cover 6 (Garr7 V c) (fun t _ => flushed7_eq V c t) (cover7)

/-- Index by index: the output array after the region is the closed form `G7` of the six arrays the region finds. -/
theorem comb7_value (c : Dev nD) (n : Fin 50000) (j : Fin 128) :
    (dat7 (F := Ideal) V c).arrAt 6 cfg7.N (ix2 n j)
      = G7 (V c (Pipeline.arrRef spec7 0)) (V c (Pipeline.arrRef spec7 1)) (V c (Pipeline.arrRef spec7 2)) (V c (Pipeline.arrRef spec7 3))
          (V c (Pipeline.arrRef spec7 4)) (V c (Pipeline.arrRef spec7 5)) n j :=
  congrFun (final7 V c) (ix2 n j)

/-- The closed form, spelt out. -/
theorem G7_apply (h agg : S50000x128.Idx → EReal) (ids : S50000x1.Idx → BitVec 32) (ctx W : S128x128.Idx → EReal) (b : S1x128.Idx → EReal)
    (n : Fin 50000) (j : Fin 128) :
    G7 h agg ids ctx W b n j
      = max (∑ q : Fin 128, (h (ix2 n q) + agg (ix2 n q)
            + ∑ k : Fin 128, (if ids (ix2 n (0 : Fin 1)) = BitVec.ofNat 32 k.val then (1 : EReal) else 0) * ctx (ix2 k q)) * W (ix2 q j)
          + b (ix2 (0 : Fin 1) j)) 0 := rfl

end Cert.KernelIdeal.Hand
-- ==== Proof.MlpValue9.lean ====
/- The value of region 9 (the two-layer head) at the ideal values: the array its output window ends holding, index by
   index, as one function of the five arrays the region finds at its entry: a row of the second matmul plus the second
   bias, the left operand being the relu of the first matmul plus the first bias. One grid point, every window one
   block: each block is its whole array, and the one write-back covers the output array. -/
import proofs.«170580_j11665131176635_1_alg».proof.Proof.Mlp9
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open scoped BigOperators

/-! ## The payload at an index -/

abbrev Dmlp1 := dot_S128x128_S128x128_S128x128_1_0_0_1_n_n

theorem Dmlp1_lhs0 (i : S128x128.Idx) (q : Dmlp1.contr.Idx) : (Dmlp1.lhsIdx i q 0).val = (i 0).val := by
  unfold DotDims.lhsIdx
  rw [dif_neg (show ¬(0 : Fin S128x128.rank) ∈ Dmlp1.lhsBatch by decide), dif_pos (show (0 : Fin S128x128.rank) ∈ Dmlp1.lhsNonContracting by decide)]
  rfl
theorem Dmlp1_lhs1 (i : S128x128.Idx) (q : Dmlp1.contr.Idx) : (Dmlp1.lhsIdx i q 1).val = (q ⟨0, by decide⟩).val :=
  Dmlp1.lhsIdx_val_of_single rfl i q
theorem Dmlp1_rhs0 (i : S128x128.Idx) (q : Dmlp1.contr.Idx) : (Dmlp1.rhsIdx i q 0).val = (q ⟨0, by decide⟩).val :=
  Dmlp1.rhsIdx_val_of_single rfl i q
theorem Dmlp1_rhs1 (i : S128x128.Idx) (q : Dmlp1.contr.Idx) : (Dmlp1.rhsIdx i q 1).val = (i 1).val := by
  unfold DotDims.rhsIdx
  rw [dif_neg (show ¬(1 : Fin S128x128.rank) ∈ Dmlp1.rhsBatch by decide), dif_pos (show (1 : Fin S128x128.rank) ∈ Dmlp1.rhsNonContracting by decide)]
  rfl

/-- This matmul into a zero accumulator, read at `(y, j)`: the plain sum over the contracted index. -/
theorem Dmlp1_matmul_apply {φ₁ φ₂ : FTy} (lhs : FVec Ideal S128x128 φ₁) (rhs : FVec Ideal S128x128 φ₂) (y : Fin 128) (j : Fin 128) :
    matmul Dmlp1 none lhs rhs (constant (F := Ideal) S128x128 .f32 0x00000000#32) (ix2 y j)
      = ∑ k : Fin 128, lhs (ix2 y k) * rhs (ix2 k j) := by
  simp only [matmul]
  rw [Ideal.matmul_constant_zero_apply, ← Equiv.sum_comp (ValueIdx.contrEquiv1 Dmlp1 128 rfl rfl).symm]
  refine Finset.sum_congr rfl fun k _ => ?_
  have hk := ValueIdx.contrEquiv1_symm_val Dmlp1 128 rfl rfl k
  have el : Dmlp1.lhsIdx (ix2 y j) ((ValueIdx.contrEquiv1 Dmlp1 128 rfl rfl).symm k) = ix2 y k := funext fun a => Fin.ext (by
    match a with
    | ⟨0, _⟩ => exact Dmlp1_lhs0 _ _
    | ⟨1, _⟩ => exact (Dmlp1_lhs1 _ _).trans hk)
  have er : Dmlp1.rhsIdx (ix2 y j) ((ValueIdx.contrEquiv1 Dmlp1 128 rfl rfl).symm k) = ix2 k j := funext fun a => Fin.ext (by
    match a with
    | ⟨0, _⟩ => exact (Dmlp1_rhs0 _ _).trans hk
    | ⟨1, _⟩ => exact Dmlp1_rhs1 _ _)
  rw [el, er]

abbrev Dmlp2 := dot_S128x128_S128x40_S128x40_1_0_0_1_n_n

theorem Dmlp2_lhs0 (i : S128x40.Idx) (q : Dmlp2.contr.Idx) : (Dmlp2.lhsIdx i q 0).val = (i 0).val := by
  unfold DotDims.lhsIdx
  rw [dif_neg (show ¬(0 : Fin S128x128.rank) ∈ Dmlp2.lhsBatch by decide), dif_pos (show (0 : Fin S128x128.rank) ∈ Dmlp2.lhsNonContracting by decide)]
  rfl
theorem Dmlp2_lhs1 (i : S128x40.Idx) (q : Dmlp2.contr.Idx) : (Dmlp2.lhsIdx i q 1).val = (q ⟨0, by decide⟩).val :=
  Dmlp2.lhsIdx_val_of_single rfl i q
theorem Dmlp2_rhs0 (i : S128x40.Idx) (q : Dmlp2.contr.Idx) : (Dmlp2.rhsIdx i q 0).val = (q ⟨0, by decide⟩).val :=
  Dmlp2.rhsIdx_val_of_single rfl i q
theorem Dmlp2_rhs1 (i : S128x40.Idx) (q : Dmlp2.contr.Idx) : (Dmlp2.rhsIdx i q 1).val = (i 1).val := by
  unfold DotDims.rhsIdx
  rw [dif_neg (show ¬(1 : Fin S128x40.rank) ∈ Dmlp2.rhsBatch by decide), dif_pos (show (1 : Fin S128x40.rank) ∈ Dmlp2.rhsNonContracting by decide)]
  rfl

/-- This matmul into a zero accumulator, read at `(y, j)`: the plain sum over the contracted index. -/
theorem Dmlp2_matmul_apply {φ₁ φ₂ : FTy} (lhs : FVec Ideal S128x128 φ₁) (rhs : FVec Ideal S128x40 φ₂) (y : Fin 128) (j : Fin 40) :
    matmul Dmlp2 none lhs rhs (constant (F := Ideal) S128x40 .f32 0x00000000#32) (ix2 y j)
      = ∑ k : Fin 128, lhs (ix2 y k) * rhs (ix2 k j) := by
  simp only [matmul]
  rw [Ideal.matmul_constant_zero_apply, ← Equiv.sum_comp (ValueIdx.contrEquiv1 Dmlp2 128 rfl rfl).symm]
  refine Finset.sum_congr rfl fun k _ => ?_
  have hk := ValueIdx.contrEquiv1_symm_val Dmlp2 128 rfl rfl k
  have el : Dmlp2.lhsIdx (ix2 y j) ((ValueIdx.contrEquiv1 Dmlp2 128 rfl rfl).symm k) = ix2 y k := funext fun a => Fin.ext (by
    match a with
    | ⟨0, _⟩ => exact Dmlp2_lhs0 _ _
    | ⟨1, _⟩ => exact (Dmlp2_lhs1 _ _).trans hk)
  have er : Dmlp2.rhsIdx (ix2 y j) ((ValueIdx.contrEquiv1 Dmlp2 128 rfl rfl).symm k) = ix2 k j := funext fun a => Fin.ext (by
    match a with
    | ⟨0, _⟩ => exact (Dmlp2_rhs0 _ _).trans hk
    | ⟨1, _⟩ => exact Dmlp2_rhs1 _ _)
  rw [el, er]

/-- The payload of region 9 at an index of the block. -/
theorem pay9_apply (v0 v3 : Vec Ideal S128x128 .f32) (v6 : Vec Ideal S1x128 .f32) (v13 : Vec Ideal S128x40 .f32) (v16 : Vec Ideal S1x40 .f32)
    (g : Fin 128) (a : Fin 40) :
    k9_pay1 (F := Ideal) v0 v3 v6 v13 v16 (ix2 g a)
      = ∑ q : Fin 128, max (∑ p : Fin 128, v0 (ix2 g p) * v3 (ix2 p q) + v6 (ix2 (0 : Fin 1) q)) 0 * v13 (ix2 q a) + v16 (ix2 (0 : Fin 1) a) := by
  unfold k9_pay1
  repeat rw [shapeCast_self]
  rw [addf_apply, Dmlp2_matmul_apply, broadcastTo_1b_ab_apply]
  refine congrArg (fun s => s + v16 (ix2 (0 : Fin 1) a)) (Finset.sum_congr rfl fun q _ => ?_)
  rw [truncf_apply, truncf_apply, maximumf_apply, addf_apply, broadcast_apply, Dmlp1_matmul_apply, broadcastTo_1b_ab_apply]
  show max _ (Ideal.ofBits .f32 0x00000000#32) * _ = _
  rw [Ideal.ofBits_zero_f32]
  refine congrArg (fun s => max (s + v6 (ix2 (0 : Fin 1) q)) 0 * v13 (ix2 q a)) (Finset.sum_congr rfl fun p _ => ?_)
  rw [truncf_apply, truncf_apply]

/-! ## From the block to the array -/

variable (V : (c : Dev nD) → (b : Ref sig .tc) → Buf (Elt Ideal) ((c : Thread nD τ).loc b))

theorem hz9 : (![0, 0] : Fin 2 → Nat) = fun _ => 0 := funext fun a => by fin_cases a <;> rfl

/-- The closed form at row `g` and column `a`, of the five arrays the region reads. -/
def G9 (hg W1 : S128x128.Idx → EReal) (b1 : S1x128.Idx → EReal) (W2 : S128x40.Idx → EReal) (b2 : S1x40.Idx → EReal)
    (g : Fin 128) (a : Fin 40) : EReal :=
  ∑ q : Fin 128, max (∑ p : Fin 128, hg (ix2 g p) * W1 (ix2 p q) + b1 (ix2 (0 : Fin 1) q)) 0 * W2 (ix2 q a) + b2 (ix2 (0 : Fin 1) a)

/-- The same as one array, of the region-entry contents `V`. -/
def Garr9 (c : Dev nD) : S128x40.Idx → EReal := fun i =>
  G9 (V c (Pipeline.arrRef spec9 0)) (V c (Pipeline.arrRef spec9 1)) (V c (Pipeline.arrRef spec9 2)) (V c (Pipeline.arrRef spec9 3))
    (V c (Pipeline.arrRef spec9 4)) (i 0) (i 1)

/-- The printed index maps, decided over the grid: every window is at its one block. -/
theorem idx_facts9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

theorem N9 : cfg9.N = 1 := N_9

/-- Window 0's one block is its whole array, at every point. -/
theorem iblk9_0_apply (c : Dev nD) (t : Fin cfg9.N) (x : S128x128.Idx) :
    (iblk9 V c 0 t : Vec Ideal S128x128 .f32) x = (V c (Pipeline.arrRef spec9 0) : S128x128.Idx → Elt Ideal .f32) x := by
  obtain ⟨e0, e1, -, -, -, -, -, -, -, -, -, -⟩ := idx_facts9 t
  unfold iblk9
  rw [View.read_apply]
  refine congrArg (V c (Pipeline.arrRef spec9 0) : S128x128.Idx → Elt Ideal .f32) (funext fun a => Fin.ext ?_)
  match a with
  | ⟨0, _⟩ => show win9_0.index t 0 * 128 + 1 * (x 0).val = (x 0).val; rw [e0]; omega
  | ⟨1, _⟩ => show win9_0.index t 1 * 128 + 1 * (x 1).val = (x 1).val; rw [e1]; omega

/-- Window 1's one block is its whole array, at every point. -/
theorem iblk9_1_apply (c : Dev nD) (t : Fin cfg9.N) (x : S128x128.Idx) :
    (iblk9 V c 1 t : Vec Ideal S128x128 .f32) x = (V c (Pipeline.arrRef spec9 1) : S128x128.Idx → Elt Ideal .f32) x := by
  obtain ⟨-, -, e0, e1, -, -, -, -, -, -, -, -⟩ := idx_facts9 t
  unfold iblk9
  rw [View.read_apply]
  refine congrArg (V c (Pipeline.arrRef spec9 1) : S128x128.Idx → Elt Ideal .f32) (funext fun a => Fin.ext ?_)
  match a with
  | ⟨0, _⟩ => show win9_1.index t 0 * 128 + 1 * (x 0).val = (x 0).val; rw [e0]; omega
  | ⟨1, _⟩ => show win9_1.index t 1 * 128 + 1 * (x 1).val = (x 1).val; rw [e1]; omega

/-- Window 2's one block is its whole array, at every point. -/
theorem iblk9_2_apply (c : Dev nD) (t : Fin cfg9.N) (x : S1x128.Idx) :
    (iblk9 V c 2 t : Vec Ideal S1x128 .f32) x = (V c (Pipeline.arrRef spec9 2) : S1x128.Idx → Elt Ideal .f32) x := by
  obtain ⟨-, -, -, -, e0, e1, -, -, -, -, -, -⟩ := idx_facts9 t
  unfold iblk9
  rw [View.read_apply]
  refine congrArg (V c (Pipeline.arrRef spec9 2) : S1x128.Idx → Elt Ideal .f32) (funext fun a => Fin.ext ?_)
  match a with
  | ⟨0, _⟩ => show win9_2.index t 0 * 1 + 1 * (x 0).val = (x 0).val; rw [e0]; omega
  | ⟨1, _⟩ => show win9_2.index t 1 * 128 + 1 * (x 1).val = (x 1).val; rw [e1]; omega

/-- Window 3's one block is its whole array, at every point. -/
theorem iblk9_3_apply (c : Dev nD) (t : Fin cfg9.N) (x : S128x40.Idx) :
    (iblk9 V c 3 t : Vec Ideal S128x40 .f32) x = (V c (Pipeline.arrRef spec9 3) : S128x40.Idx → Elt Ideal .f32) x := by
  obtain ⟨-, -, -, -, -, -, e0, e1, -, -, -, -⟩ := idx_facts9 t
  unfold iblk9
  rw [View.read_apply]
  refine congrArg (V c (Pipeline.arrRef spec9 3) : S128x40.Idx → Elt Ideal .f32) (funext fun a => Fin.ext ?_)
  match a with
  | ⟨0, _⟩ => show win9_3.index t 0 * 128 + 1 * (x 0).val = (x 0).val; rw [e0]; omega
  | ⟨1, _⟩ => show win9_3.index t 1 * 40 + 1 * (x 1).val = (x 1).val; rw [e1]; omega

/-- Window 4's one block is its whole array, at every point. -/
theorem iblk9_4_apply (c : Dev nD) (t : Fin cfg9.N) (x : S1x40.Idx) :
    (iblk9 V c 4 t : Vec Ideal S1x40 .f32) x = (V c (Pipeline.arrRef spec9 4) : S1x40.Idx → Elt Ideal .f32) x := by
  obtain ⟨-, -, -, -, -, -, -, -, e0, e1, -, -⟩ := idx_facts9 t
  unfold iblk9
  rw [View.read_apply]
  refine congrArg (V c (Pipeline.arrRef spec9 4) : S1x40.Idx → Elt Ideal .f32) (funext fun a => Fin.ext ?_)
  match a with
  | ⟨0, _⟩ => show win9_4.index t 0 * 1 + 1 * (x 0).val = (x 0).val; rw [e0]; omega
  | ⟨1, _⟩ => show win9_4.index t 1 * 40 + 1 * (x 1).val = (x 1).val; rw [e1]; omega

/-- What the one point writes back is the block of `Garr9`. -/
theorem flushed9_eq (c : Dev nD) (t : Fin cfg9.N) :
    (dat9 V c).flushed 5 t = ((cfg9.win 5).blk t).view.read (Elt Ideal) (Garr9 V c) := by
  show (cfg9.win 5).cut (grid9.coords t) ((dat9 V c).after 5 t) = _
  rw [after9_5]
  unfold out9_5
  rw [View.canon_unit_zero hz9]
  simp only [View.ld_unit_zero (S := S128x128) hz9, View.ld_unit_zero (S := S1x128) hz9,
    View.ld_unit_zero (S := S128x40) hz9, View.ld_unit_zero (S := S1x40) hz9]
  obtain ⟨-, -, -, -, -, -, -, -, -, -, e0, e1⟩ := idx_facts9 t
  funext j
  obtain ⟨g, a, rfl⟩ : ∃ (g : Fin 128) (a : Fin 40), j = ix2 g a := ⟨j 0, j 1, eq_ix2 j⟩
  have hemb : ((cfg9.win 5).blk t).view.emb (ix2 g a) = (ix2 g a : S128x40.Idx) := funext fun ax => Fin.ext (by
    match ax with
    | ⟨0, _⟩ => show win9_5.index t 0 * 128 + 1 * g.val = g.val; rw [e0]; omega
    | ⟨1, _⟩ => show win9_5.index t 1 * 40 + 1 * a.val = a.val; rw [e1]; omega)
  show k9_pay1 (F := Ideal) (iblk9 V c 0 t) (iblk9 V c 1 t) (iblk9 V c 2 t) (iblk9 V c 3 t) (iblk9 V c 4 t) (ix2 g a)
    = Garr9 V c (((cfg9.win 5).blk t).view.emb (ix2 g a))
  rw [hemb]
  refine (pay9_apply _ _ _ _ _ g a).trans ?_
  have L0 : ∀ p : Fin 128, (iblk9 V c 0 t : Vec Ideal S128x128 .f32) (ix2 g p) = (V c (Pipeline.arrRef spec9 0) : S128x128.Idx → EReal) (ix2 g p) :=
    fun p => iblk9_0_apply V c t _
  have L1 : ∀ p q : Fin 128, (iblk9 V c 1 t : Vec Ideal S128x128 .f32) (ix2 p q) = (V c (Pipeline.arrRef spec9 1) : S128x128.Idx → EReal) (ix2 p q) :=
    fun p q => iblk9_1_apply V c t _
  have L2 : ∀ q : Fin 128, (iblk9 V c 2 t : Vec Ideal S1x128 .f32) (ix2 (0 : Fin 1) q) = (V c (Pipeline.arrRef spec9 2) : S1x128.Idx → EReal) (ix2 (0 : Fin 1) q) :=
    fun q => iblk9_2_apply V c t _
  have L3 : ∀ q : Fin 128, (iblk9 V c 3 t : Vec Ideal S128x40 .f32) (ix2 q a) = (V c (Pipeline.arrRef spec9 3) : S128x40.Idx → EReal) (ix2 q a) :=
    fun q => iblk9_3_apply V c t _
  have L4 : (iblk9 V c 4 t : Vec Ideal S1x40 .f32) (ix2 (0 : Fin 1) a) = (V c (Pipeline.arrRef spec9 4) : S1x40.Idx → EReal) (ix2 (0 : Fin 1) a) :=
    iblk9_4_apply V c t _
  simp only [L0, L1, L2, L3, L4]
  rfl

/-- An index of the array is in the point's block iff each coordinate is in the block's range on its axis. -/
theorem mem_blk9 (t : Fin cfg9.N) (i : S128x40.Idx) :
    i ∈ ((cfg9.win 5).blk t).view.set ↔ ∀ a : Fin 2, win9_5.index t a * S128x40.size a ≤ (i a).val ∧ (i a).val < win9_5.index t a * S128x40.size a + S128x40.size a := by
  show i ∈ ((View.whole main_v57).slice (win9_5.rect t)).set ↔ _
  rw [View.set_slice_whole, Rect.mem_set_unit]
  exact Iff.rfl

/-- Every index of the array is in the one point's block. -/
theorem cover9 (i : S128x40.Idx) : ∃ t : Fin cfg9.N, (cfg9.win 5).flush t = true ∧ i ∈ ((cfg9.win 5).blk t).view.set := by
  have hi0 : (i 0).val < 128 := (i 0).isLt
  have hi1 : (i 1).val < 40 := (i 1).isLt
  obtain ⟨t, ht⟩ : ∃ t : Fin cfg9.N, t.val = 0 := ⟨⟨0, by rw [N9]; omega⟩, rfl⟩
  obtain ⟨-, -, -, -, -, -, -, -, -, -, e0, e1⟩ := idx_facts9 t
  refine ⟨t, flush9_5 t, ?_⟩
  rw [mem_blk9]
  intro a
  match a with
  | ⟨0, _⟩ => show win9_5.index t 0 * 128 ≤ (i 0).val ∧ (i 0).val < win9_5.index t 0 * 128 + 128; rw [e0]; omega
  | ⟨1, _⟩ => show win9_5.index t 1 * 40 ≤ (i 1).val ∧ (i 1).val < win9_5.index t 1 * 40 + 40; rw [e1]; omega

/-- The output array after the region is `Garr9` of the region-entry contents. -/
theorem final9 (c : Dev nD) : (dat9 V c).arrAt 5 cfg9.N = Garr9 V c :=
  (dat9 V c).arrAt_eq_of_cover 5 (Garr9 V c) (fun t _ => flushed9_eq V c t) (cover9)

/-- Index by index: the output array after the region is the closed form `G9` of the five arrays the region finds. -/
theorem mlp9_value (c : Dev nD) (g : Fin 128) (a : Fin 40) :
    (dat9 (F := Ideal) V c).arrAt 5 cfg9.N (ix2 g a)
      = G9 (V c (Pipeline.arrRef spec9 0)) (V c (Pipeline.arrRef spec9 1)) (V c (Pipeline.arrRef spec9 2)) (V c (Pipeline.arrRef spec9 3))
          (V c (Pipeline.arrRef spec9 4)) g a :=
  congrFun (final9 V c) (ix2 g a)

/-- The closed form, spelt out. -/
theorem G9_apply (hg W1 : S128x128.Idx → EReal) (b1 : S1x128.Idx → EReal) (W2 : S128x40.Idx → EReal) (b2 : S1x40.Idx → EReal)
    (g : Fin 128) (a : Fin 40) :
    G9 hg W1 b1 W2 b2 g a
      = ∑ q : Fin 128, max (∑ p : Fin 128, hg (ix2 g p) * W1 (ix2 p q) + b1 (ix2 (0 : Fin 1) q)) 0 * W2 (ix2 q a) + b2 (ix2 (0 : Fin 1) a) := rfl

end Cert.KernelIdeal.Hand
-- ==== Proof.BridgeMath.lean ====
/-
  The mathematics joining the two programs, with no program in sight.

  The kernel selects a node's graph context by a one-hot matrix product: row n of onehot(ids) · C is the sum over
  the 128 lanes k of [ids n = k] · C(k, ·).  When the id is a graph number g below 64 exactly one lane matches,
  1 · x = x and 0 · x = 0 hold on the extended reals, and the sum is row g of C; the reference reads that row by
  a gather.  The kernel pools over 128 lanes where the reference keeps 64 segments: on the first 64 rows both are
  the sum of the rows whose id is the row's number.  With these two facts one layer of the kernel (its closed form
  read at an index) is the reference's layer, and the kernel's pooled rows are the reference's.
-/
import proofs.«170580_j11665131176635_1_alg».proof.Proof.RefValue
import proofs.«170580_j11665131176635_1_alg».proof.Proof.LibOneHotSum

noncomputable section

open scoped BigOperators

namespace Cert.Bridge

open Cert.ReferenceIdeal Cert.ReferenceIdeal.RefValue Idealize.ShloMosaic Idealize.ShloMosaic.ValueIdx

/-- Row g of a 64-row table as a row of a 128-row one. -/
abbrev up (g : Fin 64) : Fin 128 := Fin.castLE (by decide) g

/-- A 32-bit word is the word of a small natural number exactly when its signed value is that number. -/
theorem word_eq_ofNat_iff (a : BitVec 32) (k : ℕ) (hk : k < 2147483648) : a = BitVec.ofNat 32 k ↔ a.toInt = (k : Int) := by
  constructor
  · intro h; subst h
    rw [BitVec.toInt_eq_toNat_cond]; simp only [BitVec.toNat_ofNat]
    have e : k % 2 ^ 32 = k := Nat.mod_eq_of_lt (by omega)
    rw [e]; split <;> omega
  · intro h
    apply BitVec.eq_of_toNat_eq
    rw [BitVec.toNat_ofNat, Nat.mod_eq_of_lt (by omega)]
    rw [BitVec.toInt_eq_toNat_cond] at h
    have hlt := a.isLt
    split at h <;> omega

/-- The one-hot selection: if the word a is the graph number g < 64, the sum over the 128 lanes of [a = lane] · c(lane)
    is c(g). -/
theorem onehot_row (a : BitVec 32) (g : Fin 64) (ha : a.toInt = (g.val : Int)) (cs : Fin 128 → EReal) :
    ∑ k : Fin 128, (if a = BitVec.ofNat 32 k.val then (1 : EReal) else 0) * cs k = cs (up g) := by
  have hg := g.isLt
  rw [Finset.sum_eq_single (up g)]
  · rw [if_pos ((word_eq_ofNat_iff a (up g).val (by simp only [Fin.coe_castLE]; omega)).mpr (by simp only [Fin.coe_castLE]; exact ha)), one_mul]
  · intro k _ hk
    have hk' := k.isLt
    rw [if_neg, zero_mul]
    intro h
    have e := (word_eq_ofNat_iff a k.val (by omega)).mp h
    apply hk; apply Fin.ext; simp only [Fin.coe_castLE]; omega
  · intro h; exact absurd (Finset.mem_univ _) h

/-- POOLING: on its first 64 rows the kernel's pooled table is the reference's. -/
theorem pool_rows (ids : IVec S50000 32) (u : FVec Ideal S50000x128 .f32) (idsCol : IVec S50000x1 32)
    (out : FVec Ideal S128x128 .f32)
    (hids : ∀ r : Fin 50000, idsCol (ix2 r 0) = ids (ix1 r))
    (hout : ∀ (k j : Fin 128), out (ix2 k j) = ∑ r : Fin 50000, (if (idsCol (ix2 r 0)).toInt = (k.val : Int) then u (ix2 r j) else 0))
    (g : Fin 64) (j : Fin 128) : out (ix2 (up g) j) = poolR ids u (ix2 g j) := by
  rw [hout, poolR_apply]
  refine Finset.sum_congr rfl fun r _ => ?_
  rw [hids]; rfl

/-- ONE LAYER: the kernel's combine output, given as its closed form at every index over arrays that are the
    reference's operands (the aggregation the same function, the id column the ids, the context table on its first
    64 rows the pooled features plus the context, the bias row the bias), is the reference's layer — for ids that are
    graph numbers below 64. -/
theorem layer_step (src dst : IVec S400000 32) (ids : IVec S50000 32) (ctx : FVec Ideal S64x128 .f32)
    (h : FVec Ideal S50000x128 .f32) (W : FVec Ideal S128x128 .f32) (b : FVec Ideal S128 .f32)
    (hr : ∀ r : Fin 50000, 0 ≤ (ids (ix1 r)).toInt ∧ (ids (ix1 r)).toInt < 64)
    (agg : FVec Ideal S50000x128 .f32) (idsCol : IVec S50000x1 32) (cs : FVec Ideal S128x128 .f32) (brow : FVec Ideal S1x128 .f32)
    (out : FVec Ideal S50000x128 .f32)
    (hagg : agg = aggR src dst h)
    (hids : ∀ r : Fin 50000, idsCol (ix2 r 0) = ids (ix1 r))
    (hcs : ∀ (g : Fin 64) (q : Fin 128), cs (ix2 (up g) q) = poolR ids h (ix2 g q) + ctx (ix2 g q))
    (hb : ∀ j : Fin 128, brow (ix2 0 j) = b (ix1 j))
    (hout : ∀ (n : Fin 50000) (j : Fin 128), out (ix2 n j) = max (∑ q : Fin 128, (h (ix2 n q) + agg (ix2 n q)
      + ∑ k : Fin 128, (if idsCol (ix2 n 0) = BitVec.ofNat 32 k.val then (1 : EReal) else 0) * cs (ix2 k q)) * W (ix2 q j)
      + brow (ix2 0 j)) 0) :
    out = stepR src dst ids ctx h W b := by
  funext i
  obtain ⟨n, j, rfl⟩ : ∃ (n : Fin 50000) (j : Fin 128), i = ix2 n j := ⟨i 0, i 1, eq_ix2 i⟩
  have hg := gidR_spec ids n (hr n).1 (hr n).2
  rw [hout, stepR_apply src dst ids ctx h W b n j _ hg, hb, hagg]
  refine congrArg (fun x => max (x + b (ix1 j)) 0) ?_
  refine Finset.sum_congr rfl fun q _ => ?_
  rw [onehot_row (idsCol (ix2 n 0)) (gidR ids n (hr n).1 (hr n).2) (by rw [hids]; exact hg) (fun k => cs (ix2 k q)), hcs]

end Cert.Bridge

end
-- ==== Proof.BridgeHead.lean ====
/-
  The head of the network, joining the two programs, with no program in sight.

  The kernel's head works on a pooled table of 128 rows of which the reference keeps the first 64; its two bias
  vectors arrive as one-row tables. Both compute, row by row,
      relu (row · W1 + b1) · W2 + b2 ,
  a row of the result depending on that row of the pooled table only. So on the first 64 rows, where the two pooled
  tables agree, the kernel's head (given by its closed form at every index) is the reference's.
-/
import proofs.«170580_j11665131176635_1_alg».proof.Proof.BridgeMath

noncomputable section

open scoped BigOperators

namespace Cert.Bridge

open Cert.ReferenceIdeal Cert.ReferenceIdeal.RefValue Idealize.ShloMosaic Idealize.ShloMosaic.ValueIdx

/-- THE HEAD: on its first 64 rows the kernel's head output is the reference's, when the kernel's pooled table agrees
    with the reference's on those rows and the bias rows are the bias vectors. -/
theorem head_rows (hgR : FVec Ideal S64x128 .f32) (W1 : FVec Ideal S128x128 .f32) (b1 : FVec Ideal S128 .f32)
    (W2 : FVec Ideal S128x40 .f32) (b2 : FVec Ideal S40 .f32)
    (hgK : FVec Ideal S128x128 .f32) (b1row : FVec Ideal S1x128 .f32) (b2row : FVec Ideal S1x40 .f32)
    (out : FVec Ideal S128x40 .f32)
    (hhg : ∀ (g : Fin 64) (p : Fin 128), hgK (ix2 (up g) p) = hgR (ix2 g p))
    (hb1 : ∀ q : Fin 128, b1row (ix2 0 q) = b1 (ix1 q))
    (hb2 : ∀ a : Fin 40, b2row (ix2 0 a) = b2 (ix1 a))
    (hout : ∀ (g : Fin 128) (a : Fin 40), out (ix2 g a)
      = (∑ q : Fin 128, max ((∑ p : Fin 128, hgK (ix2 g p) * W1 (ix2 p q)) + b1row (ix2 (0 : Fin 1) q)) 0 * W2 (ix2 q a))
        + b2row (ix2 (0 : Fin 1) a))
    (g : Fin 64) (a : Fin 40) : out (ix2 (up g) a) = headR hgR W1 b1 W2 b2 (ix2 g a) := by
  rw [hout, headR_apply, hb2]
  refine congrArg (fun x => x + b2 (ix1 a)) ?_
  refine Finset.sum_congr rfl fun q _ => ?_
  rw [hb1]
  refine congrArg (fun x => max (x + b1 (ix1 q)) 0 * W2 (ix2 q a)) ?_
  refine Finset.sum_congr rfl fun p _ => ?_
  rw [hhg]

end Cert.Bridge

end
-- ==== Proof.PreDecode.lean ====
/-
  THE PRECONDITION'S LAST CONJUNCT, DECODED. The precondition `finite_inputs` ends in
  `all((graph_ids >= 0) & (graph_ids < 64))`: every one of the 50000 graph ids, read as a signed word, lies in
  [0, 64). The conjuncts before it (finiteness of the float arguments) are not decoded here.
-/
import proofs.«170580_j11665131176635_1_alg».proof.Defs
import proofs.«170580_j11665131176635_1_alg».proof.Proof.Gen.Pre_finite_inputs
import Idealize.ShloMosaic.Lib.ReduceAll
import Idealize.ShloMosaic.Lib.ValueIdx

noncomputable section

namespace Cert.Proof.PreDecode

open Idealize.ShloMosaic Idealize.SL.Sem Idealize.ShloMosaic.ValueIdx
open Cert.Pre_finite_inputs

/-- The scalar shape has one index. -/
instance subsingleton_S_ : Subsingleton S_.Idx := ⟨fun a b => funext fun d => d.elim0⟩

/-- The predicate all ones says every graph id is in [0, 64), signed. -/
theorem ids_range_of_fn (a0 : FVec Ideal S50000x128 .f32) (a1 : IVec S400000 32) (a2 : IVec S400000 32) (a3 : IVec S50000 32)
    (a4 : FVec Ideal S50000x128 .f32) (a5 : IVec S50000 32) (a6 : FVec Ideal S50000x128 .f32) (a7 : IVec S50000 32)
    (a8 : FVec Ideal S128x128 .f32) (a9 : FVec Ideal S128 .f32) (a10 : FVec Ideal S128x128 .f32) (a11 : FVec Ideal S128 .f32)
    (a12 : FVec Ideal S128x128 .f32) (a13 : FVec Ideal S128 .f32) (a14 : FVec Ideal S128x128 .f32) (a15 : FVec Ideal S128 .f32)
    (a16 : FVec Ideal S128x40 .f32) (a17 : FVec Ideal S40 .f32)
    (h : Cert.Pre_finite_inputs.fn (F := Ideal) a0 a1 a2 a3 a4 a5 a6 a7 a8 a9 a10 a11 a12 a13 a14 a15 a16 a17 = (fun _ => 1#1))
    (r : Fin 50000) : 0 ≤ (a3 (ix1 r)).toInt ∧ (a3 (ix1 r)).toInt < 64 := by
  have e := congrFun h ValueIdx.ix0
  dsimp only [Cert.Pre_finite_inputs.fn, fn_part1, fn_part2, fn_part3, fn_part4] at e
  -- the last conjunct of the outer conjunction: the reduction by `and` over the 50000 lanes
  have e1 := (IntOp.andi_eq_one.1 e).2
  -- every lane of the reduced array is 1
  have e2 := Host.reduce_andi_all _ _ _ _ _ e1 (ix1 r)
  -- the lane is the conjunction of the two signed comparisons
  obtain ⟨hge, hlt⟩ := IntOp.andi_eq_one.1 e2
  have hge' := IntOp.cmpi_sge.1 hge
  have hlt' := IntOp.cmpi_slt.1 hlt
  refine ⟨?_, ?_⟩
  · have z : (0#32 : BitVec 32).toInt = 0 := by decide
    exact z ▸ hge'
  · have z : (64#32 : BitVec 32).toInt = 64 := by decide
    exact z ▸ hlt'

/-- The same from the claim's precondition on the kernel's launch memory, on every device. -/
theorem ids_range (m : (ℓ : Loc Cert.KernelIdeal.nD Cert.KernelIdeal.τ Cert.KernelIdeal.sig) → Buf (Elt Ideal) ℓ)
    (h : Cert.Pre_KernelIdeal m) (c : Dev Cert.KernelIdeal.nD) (r : Fin 50000) :
    0 ≤ (m ((c.tc : Thread Cert.KernelIdeal.nD Cert.KernelIdeal.τ).loc Cert.KernelIdeal.main_arg3) (ix1 r)).toInt
      ∧ (m ((c.tc : Thread Cert.KernelIdeal.nD Cert.KernelIdeal.τ).loc Cert.KernelIdeal.main_arg3) (ix1 r)).toInt < 64 :=
  ids_range_of_fn _ _ _ _ _ _ _ _ _ _ _ _ _ _ _ _ _ _ (h c) r

end Cert.Proof.PreDecode

end
-- ==== Proof.KValue.lean ====
/-
  The kernel program's result as a function of its arguments, stage by stage along the fold of its buffers.

  Each pooling region leaves, on the first 64 rows of its table, the reference's segment sums (the id column is the
  id vector, the 128-lane one-hot sum restricted to a row below 64 is the 64-segment scatter sum).  The context table
  is the sum of the two context pools.  Each combine region, read through its closed form, is the reference's layer:
  its aggregation operand is the same edge aggregation of the same features, its context operand is, on the first 64
  rows, the pooled features plus the context, and the one-hot product selects the row of a node's graph because the
  ids are graph numbers below 64.  So the node features after the three layers are the reference's, the last pooled
  table has the reference's rows, and the head and the final slice give the reference's result.
-/
import proofs.«170580_j11665131176635_1_alg».proof.Proof.KFrame
import proofs.«170580_j11665131176635_1_alg».proof.Proof.KHost
import proofs.«170580_j11665131176635_1_alg».proof.Proof.PoolValue0
import proofs.«170580_j11665131176635_1_alg».proof.Proof.PoolValue1
import proofs.«170580_j11665131176635_1_alg».proof.Proof.PoolValue2
import proofs.«170580_j11665131176635_1_alg».proof.Proof.PoolValue4
import proofs.«170580_j11665131176635_1_alg».proof.Proof.PoolValue6
import proofs.«170580_j11665131176635_1_alg».proof.Proof.PoolValue8
import proofs.«170580_j11665131176635_1_alg».proof.Proof.CombValue3
import proofs.«170580_j11665131176635_1_alg».proof.Proof.CombValue5
import proofs.«170580_j11665131176635_1_alg».proof.Proof.CombValue7
import proofs.«170580_j11665131176635_1_alg».proof.Proof.MlpValue9
import proofs.«170580_j11665131176635_1_alg».proof.Proof.BridgeHead
import proofs.«170580_j11665131176635_1_alg».proof.Proof.BridgeMath
import proofs.«170580_j11665131176635_1_alg».proof.Proof.PreDecode

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.RefValue (poolR ctxR aggR stepR headR h1R h2R h3R refR)
open Cert.Bridge (up)
open scoped BigOperators

variable (m : (ℓ : Loc nD τ sig) → Buf (Elt Ideal) ℓ) (c : Dev nD)

/-- The program's eighteen arguments as the launch memory holds them on core c, read as arrays. -/
def X0 : FVec Ideal Cert.ReferenceIdeal.S50000x128 .f32 := m ((c : Thread nD τ).loc main_arg0)
def X1 : IVec Cert.ReferenceIdeal.S400000 32 := m ((c : Thread nD τ).loc main_arg1)
def X2 : IVec Cert.ReferenceIdeal.S400000 32 := m ((c : Thread nD τ).loc main_arg2)
def X3 : IVec Cert.ReferenceIdeal.S50000 32 := m ((c : Thread nD τ).loc main_arg3)
def X4 : FVec Ideal Cert.ReferenceIdeal.S50000x128 .f32 := m ((c : Thread nD τ).loc main_arg4)
def X5 : IVec Cert.ReferenceIdeal.S50000 32 := m ((c : Thread nD τ).loc main_arg5)
def X6 : FVec Ideal Cert.ReferenceIdeal.S50000x128 .f32 := m ((c : Thread nD τ).loc main_arg6)
def X7 : IVec Cert.ReferenceIdeal.S50000 32 := m ((c : Thread nD τ).loc main_arg7)
def X8 : FVec Ideal Cert.ReferenceIdeal.S128x128 .f32 := m ((c : Thread nD τ).loc main_arg8)
def X9 : FVec Ideal Cert.ReferenceIdeal.S128 .f32 := m ((c : Thread nD τ).loc main_arg9)
def X10 : FVec Ideal Cert.ReferenceIdeal.S128x128 .f32 := m ((c : Thread nD τ).loc main_arg10)
def X11 : FVec Ideal Cert.ReferenceIdeal.S128 .f32 := m ((c : Thread nD τ).loc main_arg11)
def X12 : FVec Ideal Cert.ReferenceIdeal.S128x128 .f32 := m ((c : Thread nD τ).loc main_arg12)
def X13 : FVec Ideal Cert.ReferenceIdeal.S128 .f32 := m ((c : Thread nD τ).loc main_arg13)
def X14 : FVec Ideal Cert.ReferenceIdeal.S128x128 .f32 := m ((c : Thread nD τ).loc main_arg14)
def X15 : FVec Ideal Cert.ReferenceIdeal.S128 .f32 := m ((c : Thread nD τ).loc main_arg15)
def X16 : FVec Ideal Cert.ReferenceIdeal.S128x40 .f32 := m ((c : Thread nD τ).loc main_arg16)
def X17 : FVec Ideal Cert.ReferenceIdeal.S40 .f32 := m ((c : Thread nD τ).loc main_arg17)
/-- The reference's node features after layers one, two and three, of those arguments. -/
def HH1 : FVec Ideal Cert.ReferenceIdeal.S50000x128 .f32 := h1R (X0 m c) (X1 m c) (X2 m c) (X3 m c) (X4 m c) (X5 m c) (X6 m c) (X7 m c) (X8 m c) (X9 m c)
def HH2 : FVec Ideal Cert.ReferenceIdeal.S50000x128 .f32 := h2R (X0 m c) (X1 m c) (X2 m c) (X3 m c) (X4 m c) (X5 m c) (X6 m c) (X7 m c) (X8 m c) (X9 m c) (X10 m c) (X11 m c)
def HH3 : FVec Ideal Cert.ReferenceIdeal.S50000x128 .f32 := h3R (X0 m c) (X1 m c) (X2 m c) (X3 m c) (X4 m c) (X5 m c) (X6 m c) (X7 m c) (X8 m c) (X9 m c) (X10 m c) (X11 m c) (X12 m c) (X13 m c)

-- the shorthands below mention the section's variables m and c
set_option quotPrecheck false
local notation "A0" => X0 m c
local notation "A1" => X1 m c
local notation "A2" => X2 m c
local notation "A3" => X3 m c
local notation "A4" => X4 m c
local notation "A5" => X5 m c
local notation "A6" => X6 m c
local notation "A7" => X7 m c
local notation "A8" => X8 m c
local notation "A9" => X9 m c
local notation "A10" => X10 m c
local notation "A11" => X11 m c
local notation "A12" => X12 m c
local notation "A13" => X13 m c
local notation "A14" => X14 m c
local notation "A15" => X15 m c
local notation "A16" => X16 m c
local notation "A17" => X17 m c
local notation "H1" => HH1 m c
local notation "H2" => HH2 m c
local notation "H3" => HH3 m c

/-! ## The two context pools and the context table -/

/-- Pooling region 0: on its first 64 rows the pooled table is the reference's segment sums. -/
theorem rows_v1 (g : Fin 64) (j : Fin 128) :
    (W2 m c (Proc.devRef .tc main_v1) : S128x128.Idx → EReal) (ix2 (up g) j) = poolR A5 A4 (ix2 g j) := by
  have hf : V1 m c main_arg4 = A4 := (show W1 m c (Proc.devRef .tc main_arg4) = X4 m c from (StableHlo.after_of_writes_sub GenP.hostOps0 _ GenP.hostOps0_writes (by decide) : W1 m c (Proc.devRef .tc main_arg4) = W0 m c (Proc.devRef .tc main_arg4)))
  have hi : V1 m c main_v0 = colK A5 := (host0_v0 (W0 m c)).trans (congrArg colK (rfl : W0 m c (Proc.devRef .tc main_arg5) = X5 m c))
  have hv := pool0_value (V1 m) c
  rw [hf, hi] at hv
  rw [show W2 m c (Proc.devRef .tc main_v1) = (dat0 (V1 m) c).arrAt 2 cfg0.N from W2_arr m c 2]
  exact Cert.Bridge.pool_rows _ _ (colK A5) _ (fun r => colK_apply _ r) hv g j

/-- Pooling region 1: on its first 64 rows the pooled table is the reference's segment sums. -/
theorem rows_v3 (g : Fin 64) (j : Fin 128) :
    (W4 m c (Proc.devRef .tc main_v3) : S128x128.Idx → EReal) (ix2 (up g) j) = poolR A7 A6 (ix2 g j) := by
  have hf : V3 m c main_arg6 = A6 := (show W3 m c (Proc.devRef .tc main_arg6) = X6 m c from (((StableHlo.after_of_writes_sub GenP.hostOps1 _ GenP.hostOps1_writes (by decide) : W3 m c (Proc.devRef .tc main_arg6) = W2 m c (Proc.devRef .tc main_arg6))).trans (W2_of_ne m c main_arg6 (by decide) : W2 m c (Proc.devRef .tc main_arg6) = W1 m c (Proc.devRef .tc main_arg6))).trans (StableHlo.after_of_writes_sub GenP.hostOps0 _ GenP.hostOps0_writes (by decide) : W1 m c (Proc.devRef .tc main_arg6) = W0 m c (Proc.devRef .tc main_arg6)))
  have hi : V3 m c main_v2 = colK A7 := (host1_v2 (W2 m c)).trans (congrArg colK (show W2 m c (Proc.devRef .tc main_arg7) = X7 m c from ((W2_of_ne m c main_arg7 (by decide) : W2 m c (Proc.devRef .tc main_arg7) = W1 m c (Proc.devRef .tc main_arg7))).trans (StableHlo.after_of_writes_sub GenP.hostOps0 _ GenP.hostOps0_writes (by decide) : W1 m c (Proc.devRef .tc main_arg7) = W0 m c (Proc.devRef .tc main_arg7))))
  have hv := pool1_value (V3 m) c
  rw [hf, hi] at hv
  rw [show W4 m c (Proc.devRef .tc main_v3) = (dat1 (V3 m) c).arrAt 2 cfg1.N from W4_arr m c 2]
  exact Cert.Bridge.pool_rows _ _ (colK A7) _ (fun r => colK_apply _ r) hv g j

/-- The context table: on its first 64 rows the reference's context. -/
theorem rows_v4 (g : Fin 64) (q : Fin 128) :
    (W5 m c (Proc.devRef .tc main_v4) : S128x128.Idx → EReal) (ix2 (up g) q) = ctxR A4 A5 A6 A7 (ix2 g q) := by
  have e : W5 m c (Proc.devRef .tc main_v4) = addf (F := Ideal) (s := S128x128) (φ := .f32) (W4 m c (Proc.devRef .tc main_v1)) (W4 m c (Proc.devRef .tc main_v3)) :=
    host2_v4 (W4 m c)
  rw [e, addf_apply, (show W4 m c (Proc.devRef .tc main_v1) = W2 m c (Proc.devRef .tc main_v1) from ((W4_of_ne m c main_v1 (by decide) : W4 m c (Proc.devRef .tc main_v1) = W3 m c (Proc.devRef .tc main_v1))).trans (StableHlo.after_of_writes_sub GenP.hostOps1 _ GenP.hostOps1_writes (by decide) : W3 m c (Proc.devRef .tc main_v1) = W2 m c (Proc.devRef .tc main_v1))), rows_v1 m c g q, rows_v3 m c g q]
  unfold ctxR; rw [addf_apply]

/-! ## Layer 1 -/

/-- Pooling region 2: on its first 64 rows the pooled table is the reference's segment sums. -/
theorem rows_v16 (g : Fin 64) (j : Fin 128) :
    (W6 m c (Proc.devRef .tc main_v16) : S128x128.Idx → EReal) (ix2 (up g) j) = poolR A3 A0 (ix2 g j) := by
  have hf : V5 m c main_arg0 = A0 := (show W5 m c (Proc.devRef .tc main_arg0) = X0 m c from (((((StableHlo.after_of_writes_sub GenP.hostOps2 _ GenP.hostOps2_writes (by decide) : W5 m c (Proc.devRef .tc main_arg0) = W4 m c (Proc.devRef .tc main_arg0))).trans (W4_of_ne m c main_arg0 (by decide) : W4 m c (Proc.devRef .tc main_arg0) = W3 m c (Proc.devRef .tc main_arg0))).trans (StableHlo.after_of_writes_sub GenP.hostOps1 _ GenP.hostOps1_writes (by decide) : W3 m c (Proc.devRef .tc main_arg0) = W2 m c (Proc.devRef .tc main_arg0))).trans (W2_of_ne m c main_arg0 (by decide) : W2 m c (Proc.devRef .tc main_arg0) = W1 m c (Proc.devRef .tc main_arg0))).trans (StableHlo.after_of_writes_sub GenP.hostOps0 _ GenP.hostOps0_writes (by decide) : W1 m c (Proc.devRef .tc main_arg0) = W0 m c (Proc.devRef .tc main_arg0)))
  have hi : V5 m c main_v15 = colK A3 := (host2_v15 (W4 m c)).trans (congrArg colK (show W4 m c (Proc.devRef .tc main_arg3) = X3 m c from ((((W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have hv := pool2_value (V5 m) c
  rw [hf, hi] at hv
  rw [show W6 m c (Proc.devRef .tc main_v16) = (dat2 (V5 m) c).arrAt 2 cfg2.N from W6_arr m c 2]
  exact Cert.Bridge.pool_rows _ _ (colK A3) _ (fun r => colK_apply _ r) hv g j

/-- The context operand of layer 1: on its first 64 rows the pooled features plus the context. -/
theorem rows_v17 (g : Fin 64) (q : Fin 128) :
    (W7 m c (Proc.devRef .tc main_v17) : S128x128.Idx → EReal) (ix2 (up g) q) = poolR A3 A0 (ix2 g q) + ctxR A4 A5 A6 A7 (ix2 g q) := by
  have e : W7 m c (Proc.devRef .tc main_v17) = addf (F := Ideal) (s := S128x128) (φ := .f32) (W6 m c (Proc.devRef .tc main_v16)) (W6 m c (Proc.devRef .tc main_v4)) :=
    host3_v17 (W6 m c)
  rw [e, addf_apply, rows_v16 m c g q, (show W6 m c (Proc.devRef .tc main_v4) = W5 m c (Proc.devRef .tc main_v4) from (W6_of_ne m c main_v4 (by decide) : W6 m c (Proc.devRef .tc main_v4) = W5 m c (Proc.devRef .tc main_v4))), rows_v4 m c g q]

set_option maxHeartbeats 1600000 in
/-- LAYER 1: the node features after the combine region are the reference's. -/
theorem feats1 (hr : ∀ r : Fin 50000, 0 ≤ (A3 (ix1 r)).toInt ∧ (A3 (ix1 r)).toInt < 64) : W8 m c (Proc.devRef .tc main_v20) = H1 := by
  have e0 : V7 m c (Pipeline.arrRef spec3 0) = A0 := (show W7 m c (Proc.devRef .tc main_arg0) = X0 m c from (((((((StableHlo.after_of_writes_sub GenP.hostOps3 _ GenP.hostOps3_writes (by decide) : W7 m c (Proc.devRef .tc main_arg0) = W6 m c (Proc.devRef .tc main_arg0))).trans ((W6_arr m c 1).trans (((dat2 (V5 m) c).arrAt_in 1 rfl _).trans (A_eq2 (V5 m) c 1)) : W6 m c (Proc.devRef .tc main_arg0) = W5 m c (Proc.devRef .tc main_arg0))).trans (StableHlo.after_of_writes_sub GenP.hostOps2 _ GenP.hostOps2_writes (by decide) : W5 m c (Proc.devRef .tc main_arg0) = W4 m c (Proc.devRef .tc main_arg0))).trans (W4_of_ne m c main_arg0 (by decide) : W4 m c (Proc.devRef .tc main_arg0) = W3 m c (Proc.devRef .tc main_arg0))).trans (StableHlo.after_of_writes_sub GenP.hostOps1 _ GenP.hostOps1_writes (by decide) : W3 m c (Proc.devRef .tc main_arg0) = W2 m c (Proc.devRef .tc main_arg0))).trans (W2_of_ne m c main_arg0 (by decide) : W2 m c (Proc.devRef .tc main_arg0) = W1 m c (Proc.devRef .tc main_arg0))).trans (StableHlo.after_of_writes_sub GenP.hostOps0 _ GenP.hostOps0_writes (by decide) : W1 m c (Proc.devRef .tc main_arg0) = W0 m c (Proc.devRef .tc main_arg0)))
  have e1 : V7 m c (Pipeline.arrRef spec3 1) = aggR A1 A2 A0 :=
    (show W7 m c (Proc.devRef .tc main_v14) = W5 m c (Proc.devRef .tc main_v14) from ((StableHlo.after_of_writes_sub GenP.hostOps3 _ GenP.hostOps3_writes (by decide) : W7 m c (Proc.devRef .tc main_v14) = W6 m c (Proc.devRef .tc main_v14))).trans (W6_of_ne m c main_v14 (by decide) : W6 m c (Proc.devRef .tc main_v14) = W5 m c (Proc.devRef .tc main_v14))).trans ((host2_v14 (W4 m c)).trans (by
      rw [(show W4 m c (Proc.devRef .tc main_arg1) = X1 m c from ((((W4_of_ne m c main_arg1 (by decide) : W4 m c (Proc.devRef .tc main_arg1) = W3 m c (Proc.devRef .tc main_arg1))).trans (StableHlo.after_of_writes_sub GenP.hostOps1 _ GenP.hostOps1_writes (by decide) : W3 m c (Proc.devRef .tc main_arg1) = W2 m c (Proc.devRef .tc main_arg1))).trans (W2_of_ne m c main_arg1 (by decide) : W2 m c (Proc.devRef .tc main_arg1) = W1 m c (Proc.devRef .tc main_arg1))).trans (StableHlo.after_of_writes_sub GenP.hostOps0 _ GenP.hostOps0_writes (by decide) : W1 m c (Proc.devRef .tc main_arg1) = W0 m c (Proc.devRef .tc main_arg1))), (show W4 m c (Proc.devRef .tc main_arg2) = X2 m c from ((((W4_of_ne m c main_arg2 (by decide) : W4 m c (Proc.devRef .tc main_arg2) = W3 m c (Proc.devRef .tc main_arg2))).trans (StableHlo.after_of_writes_sub GenP.hostOps1 _ GenP.hostOps1_writes (by decide) : W3 m c (Proc.devRef .tc main_arg2) = W2 m c (Proc.devRef .tc main_arg2))).trans (W2_of_ne m c main_arg2 (by decide) : W2 m c (Proc.devRef .tc main_arg2) = W1 m c (Proc.devRef .tc main_arg2))).trans (StableHlo.after_of_writes_sub GenP.hostOps0 _ GenP.hostOps0_writes (by decide) : W1 m c (Proc.devRef .tc main_arg2) = W0 m c (Proc.devRef .tc main_arg2))), ((show W4 m c (Proc.devRef .tc main_arg0) = X0 m c from ((((W4_of_ne m c main_arg0 (by decide) : W4 m c (Proc.devRef .tc main_arg0) = W3 m c (Proc.devRef .tc main_arg0))).trans (StableHlo.after_of_writes_sub GenP.hostOps1 _ GenP.hostOps1_writes (by decide) : W3 m c (Proc.devRef .tc main_arg0) = W2 m c (Proc.devRef .tc main_arg0))).trans (W2_of_ne m c main_arg0 (by decide) : W2 m c (Proc.devRef .tc main_arg0) = W1 m c (Proc.devRef .tc main_arg0))).trans (StableHlo.after_of_writes_sub GenP.hostOps0 _ GenP.hostOps0_writes (by decide) : W1 m c (Proc.devRef .tc main_arg0) = W0 m c (Proc.devRef .tc main_arg0))) : W4 m c (Proc.devRef .tc main_arg0) = A0)]))
  have e2 : V7 m c (Pipeline.arrRef spec3 2) = colK A3 := (host3_v18 (W6 m c)).trans (congrArg colK (show W6 m c (Proc.devRef .tc main_arg3) = X3 m c from ((((((W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have e4 : V7 m c (Pipeline.arrRef spec3 4) = A8 := (show W7 m c (Proc.devRef .tc main_arg8) = X8 m c from (((((((StableHlo.after_of_writes_sub GenP.hostOps3 _ GenP.hostOps3_writes (by decide) : W7 m c (Proc.devRef .tc main_arg8) = W6 m c (Proc.devRef .tc main_arg8))).trans (W6_of_ne m c main_arg8 (by decide) : W6 m c (Proc.devRef .tc main_arg8) = W5 m c (Proc.devRef .tc main_arg8))).trans (StableHlo.after_of_writes_sub GenP.hostOps2 _ GenP.hostOps2_writes (by decide) : W5 m c (Proc.devRef .tc main_arg8) = W4 m c (Proc.devRef .tc main_arg8))).trans (W4_of_ne m c main_arg8 (by decide) : W4 m c (Proc.devRef .tc main_arg8) = W3 m c (Proc.devRef .tc main_arg8))).trans (StableHlo.after_of_writes_sub GenP.hostOps1 _ GenP.hostOps1_writes (by decide) : W3 m c (Proc.devRef .tc main_arg8) = W2 m c (Proc.devRef .tc main_arg8))).trans (W2_of_ne m c main_arg8 (by decide) : W2 m c (Proc.devRef .tc main_arg8) = W1 m c (Proc.devRef .tc main_arg8))).trans (StableHlo.after_of_writes_sub GenP.hostOps0 _ GenP.hostOps0_writes (by decide) : W1 m c (Proc.devRef .tc main_arg8) = W0 m c (Proc.devRef .tc main_arg8)))
  have e5 : V7 m c (Pipeline.arrRef spec3 5) = rowK A9 := (host3_v19 (W6 m c)).trans (congrArg rowK (show W6 m c (Proc.devRef .tc main_arg9) = X9 m c from ((((((W6_of_ne m c main_arg9 (by decide) : W6 m c (Proc.devRef .tc main_arg9) = W5 m c (Proc.devRef .tc main_arg9))).trans (StableHlo.after_of_writes_sub GenP.hostOps2 _ GenP.hostOps2_writes (by decide) : W5 m c (Proc.devRef .tc main_arg9) = W4 m c (Proc.devRef .tc main_arg9))).trans (W4_of_ne m c main_arg9 (by decide) : W4 m c (Proc.devRef .tc main_arg9) = W3 m c (Proc.devRef .tc main_arg9))).trans (StableHlo.after_of_writes_sub GenP.hostOps1 _ GenP.hostOps1_writes (by decide) : W3 m c (Proc.devRef .tc main_arg9) = W2 m c (Proc.devRef .tc main_arg9))).trans (W2_of_ne m c main_arg9 (by decide) : W2 m c (Proc.devRef .tc main_arg9) = W1 m c (Proc.devRef .tc main_arg9))).trans (StableHlo.after_of_writes_sub GenP.hostOps0 _ GenP.hostOps0_writes (by decide) : W1 m c (Proc.devRef .tc main_arg9) = W0 m c (Proc.devRef .tc main_arg9))))
  rw [show W8 m c (Proc.devRef .tc main_v20) = (dat3 (V7 m) c).arrAt 6 cfg3.N from W8_arr m c 6]
  refine Cert.Bridge.layer_step A1 A2 A3 (ctxR A4 A5 A6 A7) A0 A8 A9 hr (aggR A1 A2 A0) (colK A3)
    (W7 m c (Proc.devRef .tc main_v17)) (rowK A9) _ rfl (fun r => colK_apply _ r) (fun g q => rows_v17 m c g q) (fun j => rowK_apply _ j) (fun n j => ?_)
  have key := comb3_value (V7 m) c n j
  rw [e0, e1, e2, e4, e5] at key
  exact key

/-! ## Layer 2 -/

/-- Pooling region 4: on its first 64 rows the pooled table is the reference's segment sums. -/
theorem rows_v32 (hr : ∀ r : Fin 50000, 0 ≤ (A3 (ix1 r)).toInt ∧ (A3 (ix1 r)).toInt < 64) (g : Fin 64) (j : Fin 128) :
    (W10 m c (Proc.devRef .tc main_v32) : S128x128.Idx → EReal) (ix2 (up g) j) = poolR A3 H1 (ix2 g j) := by
  have hf : V9 m c main_v20 = H1 := ((show W9 m c (Proc.devRef .tc main_v20) = W8 m c (Proc.devRef .tc main_v20) from (StableHlo.after_of_writes_sub GenP.hostOps4 _ GenP.hostOps4_writes (by decide) : W9 m c (Proc.devRef .tc main_v20) = W8 m c (Proc.devRef .tc main_v20))).trans (feats1 m c hr))
  have hi : V9 m c main_v31 = colK A3 := (host4_v31 (W8 m c)).trans (congrArg colK (show W8 m c (Proc.devRef .tc main_arg3) = X3 m c from ((((((((W8_of_ne m c main_arg3 (by decide) : W8 m c (Proc.devRef .tc main_arg3) = W7 m c (Proc.devRef .tc main_arg3))).trans (StableHlo.after_of_writes_sub GenP.hostOps3 _ GenP.hostOps3_writes (by decide) : W7 m c (Proc.devRef .tc main_arg3) = W6 m c (Proc.devRef .tc main_arg3))).trans (W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have hv := pool4_value (V9 m) c
  rw [hf, hi] at hv
  rw [show W10 m c (Proc.devRef .tc main_v32) = (dat4 (V9 m) c).arrAt 2 cfg4.N from W10_arr m c 2]
  exact Cert.Bridge.pool_rows _ _ (colK A3) _ (fun r => colK_apply _ r) hv g j

/-- The context operand of layer 2: on its first 64 rows the pooled features plus the context. -/
theorem rows_v33 (hr : ∀ r : Fin 50000, 0 ≤ (A3 (ix1 r)).toInt ∧ (A3 (ix1 r)).toInt < 64) (g : Fin 64) (q : Fin 128) :
    (W11 m c (Proc.devRef .tc main_v33) : S128x128.Idx → EReal) (ix2 (up g) q) = poolR A3 H1 (ix2 g q) + ctxR A4 A5 A6 A7 (ix2 g q) := by
  have e : W11 m c (Proc.devRef .tc main_v33) = addf (F := Ideal) (s := S128x128) (φ := .f32) (W10 m c (Proc.devRef .tc main_v32)) (W10 m c (Proc.devRef .tc main_v4)) :=
    host5_v33 (W10 m c)
  rw [e, addf_apply, rows_v32 m c hr g q, (show W10 m c (Proc.devRef .tc main_v4) = W5 m c (Proc.devRef .tc main_v4) from (((((W10_of_ne m c main_v4 (by decide) : W10 m c (Proc.devRef .tc main_v4) = W9 m c (Proc.devRef .tc main_v4))).trans (StableHlo.after_of_writes_sub GenP.hostOps4 _ GenP.hostOps4_writes (by decide) : W9 m c (Proc.devRef .tc main_v4) = W8 m c (Proc.devRef .tc main_v4))).trans (W8_of_ne m c main_v4 (by decide) : W8 m c (Proc.devRef .tc main_v4) = W7 m c (Proc.devRef .tc main_v4))).trans (StableHlo.after_of_writes_sub GenP.hostOps3 _ GenP.hostOps3_writes (by decide) : W7 m c (Proc.devRef .tc main_v4) = W6 m c (Proc.devRef .tc main_v4))).trans (W6_of_ne m c main_v4 (by decide) : W6 m c (Proc.devRef .tc main_v4) = W5 m c (Proc.devRef .tc main_v4))), rows_v4 m c g q]

set_option maxHeartbeats 1600000 in
/-- LAYER 2: the node features after the combine region are the reference's. -/
theorem feats2 (hr : ∀ r : Fin 50000, 0 ≤ (A3 (ix1 r)).toInt ∧ (A3 (ix1 r)).toInt < 64) : W12 m c (Proc.devRef .tc main_v36) = H2 := by
  have e0 : V11 m c (Pipeline.arrRef spec5 0) = H1 := ((show W11 m c (Proc.devRef .tc main_v20) = W8 m c (Proc.devRef .tc main_v20) from (((StableHlo.after_of_writes_sub GenP.hostOps5 _ GenP.hostOps5_writes (by decide) : W11 m c (Proc.devRef .tc main_v20) = W10 m c (Proc.devRef .tc main_v20))).trans ((W10_arr m c 1).trans (((dat4 (V9 m) c).arrAt_in 1 rfl _).trans (A_eq4 (V9 m) c 1)) : W10 m c (Proc.devRef .tc main_v20) = W9 m c (Proc.devRef .tc main_v20))).trans (StableHlo.after_of_writes_sub GenP.hostOps4 _ GenP.hostOps4_writes (by decide) : W9 m c (Proc.devRef .tc main_v20) = W8 m c (Proc.devRef .tc main_v20))).trans (feats1 m c hr))
  have e1 : V11 m c (Pipeline.arrRef spec5 1) = aggR A1 A2 H1 :=
    (show W11 m c (Proc.devRef .tc main_v30) = W9 m c (Proc.devRef .tc main_v30) from ((StableHlo.after_of_writes_sub GenP.hostOps5 _ GenP.hostOps5_writes (by decide) : W11 m c (Proc.devRef .tc main_v30) = W10 m c (Proc.devRef .tc main_v30))).trans (W10_of_ne m c main_v30 (by decide) : W10 m c (Proc.devRef .tc main_v30) = W9 m c (Proc.devRef .tc main_v30))).trans ((host4_v30 (W8 m c)).trans (by
      rw [(show W8 m c (Proc.devRef .tc main_arg1) = X1 m c from ((((((((W8_of_ne m c main_arg1 (by decide) : W8 m c (Proc.devRef .tc main_arg1) = W7 m c (Proc.devRef .tc main_arg1))).trans (StableHlo.after_of_writes_sub GenP.hostOps3 _ GenP.hostOps3_writes (by decide) : W7 m c (Proc.devRef .tc main_arg1) = W6 m c (Proc.devRef .tc main_arg1))).trans (W6_of_ne m c main_arg1 (by decide) : W6 m c (Proc.devRef .tc main_arg1) = W5 m c (Proc.devRef .tc main_arg1))).trans (StableHlo.after_of_writes_sub GenP.hostOps2 _ GenP.hostOps2_writes (by decide) : W5 m c (Proc.devRef .tc main_arg1) = W4 m c (Proc.devRef .tc main_arg1))).trans (W4_of_ne m c main_arg1 (by decide) : W4 m c (Proc.devRef .tc main_arg1) = W3 m c (Proc.devRef .tc main_arg1))).trans (StableHlo.after_of_writes_sub GenP.hostOps1 _ GenP.hostOps1_writes (by decide) : W3 m c (Proc.devRef .tc main_arg1) = W2 m c (Proc.devRef .tc main_arg1))).trans (W2_of_ne m c main_arg1 (by decide) : W2 m c (Proc.devRef .tc main_arg1) = W1 m c (Proc.devRef .tc main_arg1))).trans (StableHlo.after_of_writes_sub GenP.hostOps0 _ GenP.hostOps0_writes (by decide) : W1 m c (Proc.devRef .tc main_arg1) = W0 m c (Proc.devRef .tc main_arg1))), (show W8 m c (Proc.devRef .tc main_arg2) = X2 m c from ((((((((W8_of_ne m c main_arg2 (by decide) : W8 m c (Proc.devRef .tc main_arg2) = W7 m c (Proc.devRef .tc main_arg2))).trans (StableHlo.after_of_writes_sub GenP.hostOps3 _ GenP.hostOps3_writes (by decide) : W7 m c (Proc.devRef .tc main_arg2) = W6 m c (Proc.devRef .tc main_arg2))).trans (W6_of_ne m c main_arg2 (by decide) : W6 m c (Proc.devRef .tc main_arg2) = W5 m c (Proc.devRef .tc main_arg2))).trans (StableHlo.after_of_writes_sub GenP.hostOps2 _ GenP.hostOps2_writes (by decide) : W5 m c (Proc.devRef .tc main_arg2) = W4 m c (Proc.devRef .tc main_arg2))).trans (W4_of_ne m c main_arg2 (by decide) : W4 m c (Proc.devRef .tc main_arg2) = W3 m c (Proc.devRef .tc main_arg2))).trans (StableHlo.after_of_writes_sub GenP.hostOps1 _ GenP.hostOps1_writes (by decide) : W3 m c (Proc.devRef .tc main_arg2) = W2 m c (Proc.devRef .tc main_arg2))).trans (W2_of_ne m c main_arg2 (by decide) : W2 m c (Proc.devRef .tc main_arg2) = W1 m c (Proc.devRef .tc main_arg2))).trans (StableHlo.after_of_writes_sub GenP.hostOps0 _ GenP.hostOps0_writes (by decide) : W1 m c (Proc.devRef .tc main_arg2) = W0 m c (Proc.devRef .tc main_arg2))), ((feats1 m c hr) : W8 m c (Proc.devRef .tc main_v20) = H1)]))
  have e2 : V11 m c (Pipeline.arrRef spec5 2) = colK A3 := (host5_v34 (W10 m c)).trans (congrArg colK (show W10 m c (Proc.devRef .tc main_arg3) = X3 m c from ((((((((((W10_of_ne m c main_arg3 (by decide) : W10 m c (Proc.devRef .tc main_arg3) = W9 m c (Proc.devRef .tc main_arg3))).trans (StableHlo.after_of_writes_sub GenP.hostOps4 _ GenP.hostOps4_writes (by decide) : W9 m c (Proc.devRef .tc main_arg3) = W8 m c (Proc.devRef .tc main_arg3))).trans (W8_of_ne m c main_arg3 (by decide) : W8 m c (Proc.devRef .tc main_arg3) = W7 m c (Proc.devRef .tc main_arg3))).trans (StableHlo.after_of_writes_sub GenP.hostOps3 _ GenP.hostOps3_writes (by decide) : W7 m c (Proc.devRef .tc main_arg3) = W6 m c (Proc.devRef .tc main_arg3))).trans (W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have e4 : V11 m c (Pipeline.arrRef spec5 4) = A10 := (show W11 m c (Proc.devRef .tc main_arg10) = X10 m c from (((((((((((StableHlo.after_of_writes_sub GenP.hostOps5 _ GenP.hostOps5_writes (by decide) : W11 m c (Proc.devRef .tc main_arg10) = W10 m c (Proc.devRef .tc main_arg10))).trans (W10_of_ne m c main_arg10 (by decide) : W10 m c (Proc.devRef .tc main_arg10) = W9 m c (Proc.devRef .tc main_arg10))).trans (StableHlo.after_of_writes_sub GenP.hostOps4 _ GenP.hostOps4_writes (by decide) : W9 m c (Proc.devRef .tc main_arg10) = W8 m c (Proc.devRef .tc main_arg10))).trans (W8_of_ne m c main_arg10 (by decide) : W8 m c (Proc.devRef .tc main_arg10) = W7 m c (Proc.devRef .tc main_arg10))).trans (StableHlo.after_of_writes_sub GenP.hostOps3 _ GenP.hostOps3_writes (by decide) : W7 m c (Proc.devRef .tc main_arg10) = W6 m c (Proc.devRef .tc main_arg10))).trans (W6_of_ne m c main_arg10 (by decide) : W6 m c (Proc.devRef .tc main_arg10) = W5 m c (Proc.devRef .tc main_arg10))).trans (StableHlo.after_of_writes_sub GenP.hostOps2 _ GenP.hostOps2_writes (by decide) : W5 m c (Proc.devRef .tc main_arg10) = W4 m c (Proc.devRef .tc main_arg10))).trans (W4_of_ne m c main_arg10 (by decide) : W4 m c (Proc.devRef .tc main_arg10) = W3 m c (Proc.devRef .tc main_arg10))).trans (StableHlo.after_of_writes_sub GenP.hostOps1 _ GenP.hostOps1_writes (by decide) : W3 m c (Proc.devRef .tc main_arg10) = W2 m c (Proc.devRef .tc main_arg10))).trans (W2_of_ne m c main_arg10 (by decide) : W2 m c (Proc.devRef .tc main_arg10) = W1 m c (Proc.devRef .tc main_arg10))).trans (StableHlo.after_of_writes_sub GenP.hostOps0 _ GenP.hostOps0_writes (by decide) : W1 m c (Proc.devRef .tc main_arg10) = W0 m c (Proc.devRef .tc main_arg10)))
  have e5 : V11 m c (Pipeline.arrRef spec5 5) = rowK A11 := (host5_v35 (W10 m c)).trans (congrArg rowK (show W10 m c (Proc.devRef .tc main_arg11) = X11 m c from ((((((((((W10_of_ne m c main_arg11 (by decide) : W10 m c (Proc.devRef .tc main_arg11) = W9 m c (Proc.devRef .tc main_arg11))).trans (StableHlo.after_of_writes_sub GenP.hostOps4 _ GenP.hostOps4_writes (by decide) : W9 m c (Proc.devRef .tc main_arg11) = W8 m c (Proc.devRef .tc main_arg11))).trans (W8_of_ne m c main_arg11 (by decide) : W8 m c (Proc.devRef .tc main_arg11) = W7 m c (Proc.devRef .tc main_arg11))).trans (StableHlo.after_of_writes_sub GenP.hostOps3 _ GenP.hostOps3_writes (by decide) : W7 m c (Proc.devRef .tc main_arg11) = W6 m c (Proc.devRef .tc main_arg11))).trans (W6_of_ne m c main_arg11 (by decide) : W6 m c (Proc.devRef .tc main_arg11) = W5 m c (Proc.devRef .tc main_arg11))).trans (StableHlo.after_of_writes_sub GenP.hostOps2 _ GenP.hostOps2_writes (by decide) : W5 m c (Proc.devRef .tc main_arg11) = W4 m c (Proc.devRef .tc main_arg11))).trans (W4_of_ne m c main_arg11 (by decide) : W4 m c (Proc.devRef .tc main_arg11) = W3 m c (Proc.devRef .tc main_arg11))).trans (StableHlo.after_of_writes_sub GenP.hostOps1 _ GenP.hostOps1_writes (by decide) : W3 m c (Proc.devRef .tc main_arg11) = W2 m c (Proc.devRef .tc main_arg11))).trans (W2_of_ne m c main_arg11 (by decide) : W2 m c (Proc.devRef .tc main_arg11) = W1 m c (Proc.devRef .tc main_arg11))).trans (StableHlo.after_of_writes_sub GenP.hostOps0 _ GenP.hostOps0_writes (by decide) : W1 m c (Proc.devRef .tc main_arg11) = W0 m c (Proc.devRef .tc main_arg11))))
  rw [show W12 m c (Proc.devRef .tc main_v36) = (dat5 (V11 m) c).arrAt 6 cfg5.N from W12_arr m c 6]
  refine Cert.Bridge.layer_step A1 A2 A3 (ctxR A4 A5 A6 A7) H1 A10 A11 hr (aggR A1 A2 H1) (colK A3)
    (W11 m c (Proc.devRef .tc main_v33)) (rowK A11) _ rfl (fun r => colK_apply _ r) (fun g q => rows_v33 m c hr g q) (fun j => rowK_apply _ j) (fun n j => ?_)
  have key := comb5_value (V11 m) c n j
  rw [e0, e1, e2, e4, e5] at key
  exact key

/-! ## Layer 3 -/

/-- Pooling region 6: on its first 64 rows the pooled table is the reference's segment sums. -/
theorem rows_v48 (hr : ∀ r : Fin 50000, 0 ≤ (A3 (ix1 r)).toInt ∧ (A3 (ix1 r)).toInt < 64) (g : Fin 64) (j : Fin 128) :
    (W14 m c (Proc.devRef .tc main_v48) : S128x128.Idx → EReal) (ix2 (up g) j) = poolR A3 H2 (ix2 g j) := by
  have hf : V13 m c main_v36 = H2 := ((show W13 m c (Proc.devRef .tc main_v36) = W12 m c (Proc.devRef .tc main_v36) from (StableHlo.after_of_writes_sub GenP.hostOps6 _ GenP.hostOps6_writes (by decide) : W13 m c (Proc.devRef .tc main_v36) = W12 m c (Proc.devRef .tc main_v36))).trans (feats2 m c hr))
  have hi : V13 m c main_v47 = colK A3 := (host6_v47 (W12 m c)).trans (congrArg colK (show W12 m c (Proc.devRef .tc main_arg3) = X3 m c from ((((((((((((W12_of_ne m c main_arg3 (by decide) : W12 m c (Proc.devRef .tc main_arg3) = W11 m c (Proc.devRef .tc main_arg3))).trans (StableHlo.after_of_writes_sub GenP.hostOps5 _ GenP.hostOps5_writes (by decide) : W11 m c (Proc.devRef .tc main_arg3) = W10 m c (Proc.devRef .tc main_arg3))).trans (W10_of_ne m c main_arg3 (by decide) : W10 m c (Proc.devRef .tc main_arg3) = W9 m c (Proc.devRef .tc main_arg3))).trans (StableHlo.after_of_writes_sub GenP.hostOps4 _ GenP.hostOps4_writes (by decide) : W9 m c (Proc.devRef .tc main_arg3) = W8 m c (Proc.devRef .tc main_arg3))).trans (W8_of_ne m c main_arg3 (by decide) : W8 m c (Proc.devRef .tc main_arg3) = W7 m c (Proc.devRef .tc main_arg3))).trans (StableHlo.after_of_writes_sub GenP.hostOps3 _ GenP.hostOps3_writes (by decide) : W7 m c (Proc.devRef .tc main_arg3) = W6 m c (Proc.devRef .tc main_arg3))).trans (W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have hv := pool6_value (V13 m) c
  rw [hf, hi] at hv
  rw [show W14 m c (Proc.devRef .tc main_v48) = (dat6 (V13 m) c).arrAt 2 cfg6.N from W14_arr m c 2]
  exact Cert.Bridge.pool_rows _ _ (colK A3) _ (fun r => colK_apply _ r) hv g j

/-- The context operand of layer 3: on its first 64 rows the pooled features plus the context. -/
theorem rows_v49 (hr : ∀ r : Fin 50000, 0 ≤ (A3 (ix1 r)).toInt ∧ (A3 (ix1 r)).toInt < 64) (g : Fin 64) (q : Fin 128) :
    (W15 m c (Proc.devRef .tc main_v49) : S128x128.Idx → EReal) (ix2 (up g) q) = poolR A3 H2 (ix2 g q) + ctxR A4 A5 A6 A7 (ix2 g q) := by
  have e : W15 m c (Proc.devRef .tc main_v49) = addf (F := Ideal) (s := S128x128) (φ := .f32) (W14 m c (Proc.devRef .tc main_v48)) (W14 m c (Proc.devRef .tc main_v4)) :=
    host7_v49 (W14 m c)
  rw [e, addf_apply, rows_v48 m c hr g q, (show W14 m c (Proc.devRef .tc main_v4) = W5 m c (Proc.devRef .tc main_v4) from (((((((((W14_of_ne m c main_v4 (by decide) : W14 m c (Proc.devRef .tc main_v4) = W13 m c (Proc.devRef .tc main_v4))).trans (StableHlo.after_of_writes_sub GenP.hostOps6 _ GenP.hostOps6_writes (by decide) : W13 m c (Proc.devRef .tc main_v4) = W12 m c (Proc.devRef .tc main_v4))).trans (W12_of_ne m c main_v4 (by decide) : W12 m c (Proc.devRef .tc main_v4) = W11 m c (Proc.devRef .tc main_v4))).trans (StableHlo.after_of_writes_sub GenP.hostOps5 _ GenP.hostOps5_writes (by decide) : W11 m c (Proc.devRef .tc main_v4) = W10 m c (Proc.devRef .tc main_v4))).trans (W10_of_ne m c main_v4 (by decide) : W10 m c (Proc.devRef .tc main_v4) = W9 m c (Proc.devRef .tc main_v4))).trans (StableHlo.after_of_writes_sub GenP.hostOps4 _ GenP.hostOps4_writes (by decide) : W9 m c (Proc.devRef .tc main_v4) = W8 m c (Proc.devRef .tc main_v4))).trans (W8_of_ne m c main_v4 (by decide) : W8 m c (Proc.devRef .tc main_v4) = W7 m c (Proc.devRef .tc main_v4))).trans (StableHlo.after_of_writes_sub GenP.hostOps3 _ GenP.hostOps3_writes (by decide) : W7 m c (Proc.devRef .tc main_v4) = W6 m c (Proc.devRef .tc main_v4))).trans (W6_of_ne m c main_v4 (by decide) : W6 m c (Proc.devRef .tc main_v4) = W5 m c (Proc.devRef .tc main_v4))), rows_v4 m c g q]

set_option maxHeartbeats 1600000 in
/-- LAYER 3: the node features after the combine region are the reference's. -/
theorem feats3 (hr : ∀ r : Fin 50000, 0 ≤ (A3 (ix1 r)).toInt ∧ (A3 (ix1 r)).toInt < 64) : W16 m c (Proc.devRef .tc main_v52) = H3 := by
  have e0 : V15 m c (Pipeline.arrRef spec7 0) = H2 := ((show W15 m c (Proc.devRef .tc main_v36) = W12 m c (Proc.devRef .tc main_v36) from (((StableHlo.after_of_writes_sub GenP.hostOps7 _ GenP.hostOps7_writes (by decide) : W15 m c (Proc.devRef .tc main_v36) = W14 m c (Proc.devRef .tc main_v36))).trans ((W14_arr m c 1).trans (((dat6 (V13 m) c).arrAt_in 1 rfl _).trans (A_eq6 (V13 m) c 1)) : W14 m c (Proc.devRef .tc main_v36) = W13 m c (Proc.devRef .tc main_v36))).trans (StableHlo.after_of_writes_sub GenP.hostOps6 _ GenP.hostOps6_writes (by decide) : W13 m c (Proc.devRef .tc main_v36) = W12 m c (Proc.devRef .tc main_v36))).trans (feats2 m c hr))
  have e1 : V15 m c (Pipeline.arrRef spec7 1) = aggR A1 A2 H2 :=
    (show W15 m c (Proc.devRef .tc main_v46) = W13 m c (Proc.devRef .tc main_v46) from ((StableHlo.after_of_writes_sub GenP.hostOps7 _ GenP.hostOps7_writes (by decide) : W15 m c (Proc.devRef .tc main_v46) = W14 m c (Proc.devRef .tc main_v46))).trans (W14_of_ne m c main_v46 (by decide) : W14 m c (Proc.devRef .tc main_v46) = W13 m c (Proc.devRef .tc main_v46))).trans ((host6_v46 (W12 m c)).trans (by
      rw [(show W12 m c (Proc.devRef .tc main_arg1) = X1 m c from ((((((((((((W12_of_ne m c main_arg1 (by decide) : W12 m c (Proc.devRef .tc main_arg1) = W11 m c (Proc.devRef .tc main_arg1))).trans (StableHlo.after_of_writes_sub GenP.hostOps5 _ GenP.hostOps5_writes (by decide) : W11 m c (Proc.devRef .tc main_arg1) = W10 m c (Proc.devRef .tc main_arg1))).trans (W10_of_ne m c main_arg1 (by decide) : W10 m c (Proc.devRef .tc main_arg1) = W9 m c (Proc.devRef .tc main_arg1))).trans (StableHlo.after_of_writes_sub GenP.hostOps4 _ GenP.hostOps4_writes (by decide) : W9 m c (Proc.devRef .tc main_arg1) = W8 m c (Proc.devRef .tc main_arg1))).trans (W8_of_ne m c main_arg1 (by decide) : W8 m c (Proc.devRef .tc main_arg1) = W7 m c (Proc.devRef .tc main_arg1))).trans (StableHlo.after_of_writes_sub GenP.hostOps3 _ GenP.hostOps3_writes (by decide) : W7 m c (Proc.devRef .tc main_arg1) = W6 m c (Proc.devRef .tc main_arg1))).trans (W6_of_ne m c main_arg1 (by decide) : W6 m c (Proc.devRef .tc main_arg1) = W5 m c (Proc.devRef .tc main_arg1))).trans (StableHlo.after_of_writes_sub GenP.hostOps2 _ GenP.hostOps2_writes (by decide) : W5 m c (Proc.devRef .tc main_arg1) = W4 m c (Proc.devRef .tc main_arg1))).trans (W4_of_ne m c main_arg1 (by decide) : W4 m c (Proc.devRef .tc main_arg1) = W3 m c (Proc.devRef .tc main_arg1))).trans (StableHlo.after_of_writes_sub GenP.hostOps1 _ GenP.hostOps1_writes (by decide) : W3 m c (Proc.devRef .tc main_arg1) = W2 m c (Proc.devRef .tc main_arg1))).trans (W2_of_ne m c main_arg1 (by decide) : W2 m c (Proc.devRef .tc main_arg1) = W1 m c (Proc.devRef .tc main_arg1))).trans (StableHlo.after_of_writes_sub GenP.hostOps0 _ GenP.hostOps0_writes (by decide) : W1 m c (Proc.devRef .tc main_arg1) = W0 m c (Proc.devRef .tc main_arg1))), (show W12 m c (Proc.devRef .tc main_arg2) = X2 m c from ((((((((((((W12_of_ne m c main_arg2 (by decide) : W12 m c (Proc.devRef .tc main_arg2) = W11 m c (Proc.devRef .tc main_arg2))).trans (StableHlo.after_of_writes_sub GenP.hostOps5 _ GenP.hostOps5_writes (by decide) : W11 m c (Proc.devRef .tc main_arg2) = W10 m c (Proc.devRef .tc main_arg2))).trans (W10_of_ne m c main_arg2 (by decide) : W10 m c (Proc.devRef .tc main_arg2) = W9 m c (Proc.devRef .tc main_arg2))).trans (StableHlo.after_of_writes_sub GenP.hostOps4 _ GenP.hostOps4_writes (by decide) : W9 m c (Proc.devRef .tc main_arg2) = W8 m c (Proc.devRef .tc main_arg2))).trans (W8_of_ne m c main_arg2 (by decide) : W8 m c (Proc.devRef .tc main_arg2) = W7 m c (Proc.devRef .tc main_arg2))).trans (StableHlo.after_of_writes_sub GenP.hostOps3 _ GenP.hostOps3_writes (by decide) : W7 m c (Proc.devRef .tc main_arg2) = W6 m c (Proc.devRef .tc main_arg2))).trans (W6_of_ne m c main_arg2 (by decide) : W6 m c (Proc.devRef .tc main_arg2) = W5 m c (Proc.devRef .tc main_arg2))).trans (StableHlo.after_of_writes_sub GenP.hostOps2 _ GenP.hostOps2_writes (by decide) : W5 m c (Proc.devRef .tc main_arg2) = W4 m c (Proc.devRef .tc main_arg2))).trans (W4_of_ne m c main_arg2 (by decide) : W4 m c (Proc.devRef .tc main_arg2) = W3 m c (Proc.devRef .tc main_arg2))).trans (StableHlo.after_of_writes_sub GenP.hostOps1 _ GenP.hostOps1_writes (by decide) : W3 m c (Proc.devRef .tc main_arg2) = W2 m c (Proc.devRef .tc main_arg2))).trans (W2_of_ne m c main_arg2 (by decide) : W2 m c (Proc.devRef .tc main_arg2) = W1 m c (Proc.devRef .tc main_arg2))).trans (StableHlo.after_of_writes_sub GenP.hostOps0 _ GenP.hostOps0_writes (by decide) : W1 m c (Proc.devRef .tc main_arg2) = W0 m c (Proc.devRef .tc main_arg2))), ((feats2 m c hr) : W12 m c (Proc.devRef .tc main_v36) = H2)]))
  have e2 : V15 m c (Pipeline.arrRef spec7 2) = colK A3 := (host7_v50 (W14 m c)).trans (congrArg colK (show W14 m c (Proc.devRef .tc main_arg3) = X3 m c from ((((((((((((((W14_of_ne m c main_arg3 (by decide) : W14 m c (Proc.devRef .tc main_arg3) = W13 m c (Proc.devRef .tc main_arg3))).trans (StableHlo.after_of_writes_sub GenP.hostOps6 _ GenP.hostOps6_writes (by decide) : W13 m c (Proc.devRef .tc main_arg3) = W12 m c (Proc.devRef .tc main_arg3))).trans (W12_of_ne m c main_arg3 (by decide) : W12 m c (Proc.devRef .tc main_arg3) = W11 m c (Proc.devRef .tc main_arg3))).trans (StableHlo.after_of_writes_sub GenP.hostOps5 _ GenP.hostOps5_writes (by decide) : W11 m c (Proc.devRef .tc main_arg3) = W10 m c (Proc.devRef .tc main_arg3))).trans (W10_of_ne m c main_arg3 (by decide) : W10 m c (Proc.devRef .tc main_arg3) = W9 m c (Proc.devRef .tc main_arg3))).trans (StableHlo.after_of_writes_sub GenP.hostOps4 _ GenP.hostOps4_writes (by decide) : W9 m c (Proc.devRef .tc main_arg3) = W8 m c (Proc.devRef .tc main_arg3))).trans (W8_of_ne m c main_arg3 (by decide) : W8 m c (Proc.devRef .tc main_arg3) = W7 m c (Proc.devRef .tc main_arg3))).trans (StableHlo.after_of_writes_sub GenP.hostOps3 _ GenP.hostOps3_writes (by decide) : W7 m c (Proc.devRef .tc main_arg3) = W6 m c (Proc.devRef .tc main_arg3))).trans (W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have e4 : V15 m c (Pipeline.arrRef spec7 4) = A12 := (show W15 m c (Proc.devRef .tc main_arg12) = X12 m c from (((((((((((((((StableHlo.after_of_writes_sub GenP.hostOps7 _ GenP.hostOps7_writes (by decide) : W15 m c (Proc.devRef .tc main_arg12) = W14 m c (Proc.devRef .tc main_arg12))).trans (W14_of_ne m c main_arg12 (by decide) : W14 m c (Proc.devRef .tc main_arg12) = W13 m c (Proc.devRef .tc main_arg12))).trans (StableHlo.after_of_writes_sub GenP.hostOps6 _ GenP.hostOps6_writes (by decide) : W13 m c (Proc.devRef .tc main_arg12) = W12 m c (Proc.devRef .tc main_arg12))).trans (W12_of_ne m c main_arg12 (by decide) : W12 m c (Proc.devRef .tc main_arg12) = W11 m c (Proc.devRef .tc main_arg12))).trans (StableHlo.after_of_writes_sub GenP.hostOps5 _ GenP.hostOps5_writes (by decide) : W11 m c (Proc.devRef .tc main_arg12) = W10 m c (Proc.devRef .tc main_arg12))).trans (W10_of_ne m c main_arg12 (by decide) : W10 m c (Proc.devRef .tc main_arg12) = W9 m c (Proc.devRef .tc main_arg12))).trans (StableHlo.after_of_writes_sub GenP.hostOps4 _ GenP.hostOps4_writes (by decide) : W9 m c (Proc.devRef .tc main_arg12) = W8 m c (Proc.devRef .tc main_arg12))).trans (W8_of_ne m c main_arg12 (by decide) : W8 m c (Proc.devRef .tc main_arg12) = W7 m c (Proc.devRef .tc main_arg12))).trans (StableHlo.after_of_writes_sub GenP.hostOps3 _ GenP.hostOps3_writes (by decide) : W7 m c (Proc.devRef .tc main_arg12) = W6 m c (Proc.devRef .tc main_arg12))).trans (W6_of_ne m c main_arg12 (by decide) : W6 m c (Proc.devRef .tc main_arg12) = W5 m c (Proc.devRef .tc main_arg12))).trans (StableHlo.after_of_writes_sub GenP.hostOps2 _ GenP.hostOps2_writes (by decide) : W5 m c (Proc.devRef .tc main_arg12) = W4 m c (Proc.devRef .tc main_arg12))).trans (W4_of_ne m c main_arg12 (by decide) : W4 m c (Proc.devRef .tc main_arg12) = W3 m c (Proc.devRef .tc main_arg12))).trans (StableHlo.after_of_writes_sub GenP.hostOps1 _ GenP.hostOps1_writes (by decide) : W3 m c (Proc.devRef .tc main_arg12) = W2 m c (Proc.devRef .tc main_arg12))).trans (W2_of_ne m c main_arg12 (by decide) : W2 m c (Proc.devRef .tc main_arg12) = W1 m c (Proc.devRef .tc main_arg12))).trans (StableHlo.after_of_writes_sub GenP.hostOps0 _ GenP.hostOps0_writes (by decide) : W1 m c (Proc.devRef .tc main_arg12) = W0 m c (Proc.devRef .tc main_arg12)))
  have e5 : V15 m c (Pipeline.arrRef spec7 5) = rowK A13 := (host7_v51 (W14 m c)).trans (congrArg rowK (show W14 m c (Proc.devRef .tc main_arg13) = X13 m c from ((((((((((((((W14_of_ne m c main_arg13 (by decide) : W14 m c (Proc.devRef .tc main_arg13) = W13 m c (Proc.devRef .tc main_arg13))).trans (StableHlo.after_of_writes_sub GenP.hostOps6 _ GenP.hostOps6_writes (by decide) : W13 m c (Proc.devRef .tc main_arg13) = W12 m c (Proc.devRef .tc main_arg13))).trans (W12_of_ne m c main_arg13 (by decide) : W12 m c (Proc.devRef .tc main_arg13) = W11 m c (Proc.devRef .tc main_arg13))).trans (StableHlo.after_of_writes_sub GenP.hostOps5 _ GenP.hostOps5_writes (by decide) : W11 m c (Proc.devRef .tc main_arg13) = W10 m c (Proc.devRef .tc main_arg13))).trans (W10_of_ne m c main_arg13 (by decide) : W10 m c (Proc.devRef .tc main_arg13) = W9 m c (Proc.devRef .tc main_arg13))).trans (StableHlo.after_of_writes_sub GenP.hostOps4 _ GenP.hostOps4_writes (by decide) : W9 m c (Proc.devRef .tc main_arg13) = W8 m c (Proc.devRef .tc main_arg13))).trans (W8_of_ne m c main_arg13 (by decide) : W8 m c (Proc.devRef .tc main_arg13) = W7 m c (Proc.devRef .tc main_arg13))).trans (StableHlo.after_of_writes_sub GenP.hostOps3 _ GenP.hostOps3_writes (by decide) : W7 m c (Proc.devRef .tc main_arg13) = W6 m c (Proc.devRef .tc main_arg13))).trans (W6_of_ne m c main_arg13 (by decide) : W6 m c (Proc.devRef .tc main_arg13) = W5 m c (Proc.devRef .tc main_arg13))).trans (StableHlo.after_of_writes_sub GenP.hostOps2 _ GenP.hostOps2_writes (by decide) : W5 m c (Proc.devRef .tc main_arg13) = W4 m c (Proc.devRef .tc main_arg13))).trans (W4_of_ne m c main_arg13 (by decide) : W4 m c (Proc.devRef .tc main_arg13) = W3 m c (Proc.devRef .tc main_arg13))).trans (StableHlo.after_of_writes_sub GenP.hostOps1 _ GenP.hostOps1_writes (by decide) : W3 m c (Proc.devRef .tc main_arg13) = W2 m c (Proc.devRef .tc main_arg13))).trans (W2_of_ne m c main_arg13 (by decide) : W2 m c (Proc.devRef .tc main_arg13) = W1 m c (Proc.devRef .tc main_arg13))).trans (StableHlo.after_of_writes_sub GenP.hostOps0 _ GenP.hostOps0_writes (by decide) : W1 m c (Proc.devRef .tc main_arg13) = W0 m c (Proc.devRef .tc main_arg13))))
  rw [show W16 m c (Proc.devRef .tc main_v52) = (dat7 (V15 m) c).arrAt 6 cfg7.N from W16_arr m c 6]
  refine Cert.Bridge.layer_step A1 A2 A3 (ctxR A4 A5 A6 A7) H2 A12 A13 hr (aggR A1 A2 H2) (colK A3)
    (W15 m c (Proc.devRef .tc main_v49)) (rowK A13) _ rfl (fun r => colK_apply _ r) (fun g q => rows_v49 m c hr g q) (fun j => rowK_apply _ j) (fun n j => ?_)
  have key := comb7_value (V15 m) c n j
  rw [e0, e1, e2, e4, e5] at key
  exact key

/-! ## The last pool, the head and the slice -/

/-- Pooling region 8: on its first 64 rows the pooled table is the reference's segment sums. -/
theorem rows_v54 (hr : ∀ r : Fin 50000, 0 ≤ (A3 (ix1 r)).toInt ∧ (A3 (ix1 r)).toInt < 64) (g : Fin 64) (j : Fin 128) :
    (W18 m c (Proc.devRef .tc main_v54) : S128x128.Idx → EReal) (ix2 (up g) j) = poolR A3 H3 (ix2 g j) := by
  have hf : V17 m c main_v52 = H3 := ((show W17 m c (Proc.devRef .tc main_v52) = W16 m c (Proc.devRef .tc main_v52) from (StableHlo.after_of_writes_sub GenP.hostOps8 _ GenP.hostOps8_writes (by decide) : W17 m c (Proc.devRef .tc main_v52) = W16 m c (Proc.devRef .tc main_v52))).trans (feats3 m c hr))
  have hi : V17 m c main_v53 = colK A3 := (host8_v53 (W16 m c)).trans (congrArg colK (show W16 m c (Proc.devRef .tc main_arg3) = X3 m c from ((((((((((((((((W16_of_ne m c main_arg3 (by decide) : W16 m c (Proc.devRef .tc main_arg3) = W15 m c (Proc.devRef .tc main_arg3))).trans (StableHlo.after_of_writes_sub GenP.hostOps7 _ GenP.hostOps7_writes (by decide) : W15 m c (Proc.devRef .tc main_arg3) = W14 m c (Proc.devRef .tc main_arg3))).trans (W14_of_ne m c main_arg3 (by decide) : W14 m c (Proc.devRef .tc main_arg3) = W13 m c (Proc.devRef .tc main_arg3))).trans (StableHlo.after_of_writes_sub GenP.hostOps6 _ GenP.hostOps6_writes (by decide) : W13 m c (Proc.devRef .tc main_arg3) = W12 m c (Proc.devRef .tc main_arg3))).trans (W12_of_ne m c main_arg3 (by decide) : W12 m c (Proc.devRef .tc main_arg3) = W11 m c (Proc.devRef .tc main_arg3))).trans (StableHlo.after_of_writes_sub GenP.hostOps5 _ GenP.hostOps5_writes (by decide) : W11 m c (Proc.devRef .tc main_arg3) = W10 m c (Proc.devRef .tc main_arg3))).trans (W10_of_ne m c main_arg3 (by decide) : W10 m c (Proc.devRef .tc main_arg3) = W9 m c (Proc.devRef .tc main_arg3))).trans (StableHlo.after_of_writes_sub GenP.hostOps4 _ GenP.hostOps4_writes (by decide) : W9 m c (Proc.devRef .tc main_arg3) = W8 m c (Proc.devRef .tc main_arg3))).trans (W8_of_ne m c main_arg3 (by decide) : W8 m c (Proc.devRef .tc main_arg3) = W7 m c (Proc.devRef .tc main_arg3))).trans (StableHlo.after_of_writes_sub GenP.hostOps3 _ GenP.hostOps3_writes (by decide) : W7 m c (Proc.devRef .tc main_arg3) = W6 m c (Proc.devRef .tc main_arg3))).trans (W6_of_ne m c main_arg3 (by decide) : W6 m c (Proc.devRef .tc main_arg3) = W5 m c (Proc.devRef .tc main_arg3))).trans (StableHlo.after_of_writes_sub GenP.hostOps2 _ GenP.hostOps2_writes (by decide) : W5 m c (Proc.devRef .tc main_arg3) = W4 m c (Proc.devRef .tc main_arg3))).trans (W4_of_ne m c main_arg3 (by decide) : W4 m c (Proc.devRef .tc main_arg3) = W3 m c (Proc.devRef .tc main_arg3))).trans (StableHlo.after_of_writes_sub GenP.hostOps1 _ GenP.hostOps1_writes (by decide) : W3 m c (Proc.devRef .tc main_arg3) = W2 m c (Proc.devRef .tc main_arg3))).trans (W2_of_ne m c main_arg3 (by decide) : W2 m c (Proc.devRef .tc main_arg3) = W1 m c (Proc.devRef .tc main_arg3))).trans (StableHlo.after_of_writes_sub GenP.hostOps0 _ GenP.hostOps0_writes (by decide) : W1 m c (Proc.devRef .tc main_arg3) = W0 m c (Proc.devRef .tc main_arg3))))
  have hv := pool8_value (V17 m) c
  rw [hf, hi] at hv
  rw [show W18 m c (Proc.devRef .tc main_v54) = (dat8 (V17 m) c).arrAt 2 cfg8.N from W18_arr m c 2]
  exact Cert.Bridge.pool_rows _ _ (colK A3) _ (fun r => colK_apply _ r) hv g j

set_option maxHeartbeats 1600000 in
/-- THE RESULT: the kernel program's result buffer, at the end of the fold, is the reference's result of the arguments. -/
theorem kernel_value_at (hr : ∀ r : Fin 50000, 0 ≤ (A3 (ix1 r)).toInt ∧ (A3 (ix1 r)).toInt < 64) :
    W21 m c (Proc.devRef .tc main_v58) = refR A0 A1 A2 A3 A4 A5 A6 A7 A8 A9 A10 A11 A12 A13 A14 A15 A16 A17 := by
  have e0 : V19 m c (Pipeline.arrRef spec9 0) = W18 m c (Proc.devRef .tc main_v54) := (show W19 m c (Proc.devRef .tc main_v54) = W18 m c (Proc.devRef .tc main_v54) from (StableHlo.after_of_writes_sub GenP.hostOps9 _ GenP.hostOps9_writes (by decide) : W19 m c (Proc.devRef .tc main_v54) = W18 m c (Proc.devRef .tc main_v54)))
  have e1 : V19 m c (Pipeline.arrRef spec9 1) = A14 := (show W19 m c (Proc.devRef .tc main_arg14) = X14 m c from (((((((((((((((((((StableHlo.after_of_writes_sub GenP.hostOps9 _ GenP.hostOps9_writes (by decide) : W19 m c (Proc.devRef .tc main_arg14) = W18 m c (Proc.devRef .tc main_arg14))).trans (W18_of_ne m c main_arg14 (by decide) : W18 m c (Proc.devRef .tc main_arg14) = W17 m c (Proc.devRef .tc main_arg14))).trans (StableHlo.after_of_writes_sub GenP.hostOps8 _ GenP.hostOps8_writes (by decide) : W17 m c (Proc.devRef .tc main_arg14) = W16 m c (Proc.devRef .tc main_arg14))).trans (W16_of_ne m c main_arg14 (by decide) : W16 m c (Proc.devRef .tc main_arg14) = W15 m c (Proc.devRef .tc main_arg14))).trans (StableHlo.after_of_writes_sub GenP.hostOps7 _ GenP.hostOps7_writes (by decide) : W15 m c (Proc.devRef .tc main_arg14) = W14 m c (Proc.devRef .tc main_arg14))).trans (W14_of_ne m c main_arg14 (by decide) : W14 m c (Proc.devRef .tc main_arg14) = W13 m c (Proc.devRef .tc main_arg14))).trans (StableHlo.after_of_writes_sub GenP.hostOps6 _ GenP.hostOps6_writes (by decide) : W13 m c (Proc.devRef .tc main_arg14) = W12 m c (Proc.devRef .tc main_arg14))).trans (W12_of_ne m c main_arg14 (by decide) : W12 m c (Proc.devRef .tc main_arg14) = W11 m c (Proc.devRef .tc main_arg14))).trans (StableHlo.after_of_writes_sub GenP.hostOps5 _ GenP.hostOps5_writes (by decide) : W11 m c (Proc.devRef .tc main_arg14) = W10 m c (Proc.devRef .tc main_arg14))).trans (W10_of_ne m c main_arg14 (by decide) : W10 m c (Proc.devRef .tc main_arg14) = W9 m c (Proc.devRef .tc main_arg14))).trans (StableHlo.after_of_writes_sub GenP.hostOps4 _ GenP.hostOps4_writes (by decide) : W9 m c (Proc.devRef .tc main_arg14) = W8 m c (Proc.devRef .tc main_arg14))).trans (W8_of_ne m c main_arg14 (by decide) : W8 m c (Proc.devRef .tc main_arg14) = W7 m c (Proc.devRef .tc main_arg14))).trans (StableHlo.after_of_writes_sub GenP.hostOps3 _ GenP.hostOps3_writes (by decide) : W7 m c (Proc.devRef .tc main_arg14) = W6 m c (Proc.devRef .tc main_arg14))).trans (W6_of_ne m c main_arg14 (by decide) : W6 m c (Proc.devRef .tc main_arg14) = W5 m c (Proc.devRef .tc main_arg14))).trans (StableHlo.after_of_writes_sub GenP.hostOps2 _ GenP.hostOps2_writes (by decide) : W5 m c (Proc.devRef .tc main_arg14) = W4 m c (Proc.devRef .tc main_arg14))).trans (W4_of_ne m c main_arg14 (by decide) : W4 m c (Proc.devRef .tc main_arg14) = W3 m c (Proc.devRef .tc main_arg14))).trans (StableHlo.after_of_writes_sub GenP.hostOps1 _ GenP.hostOps1_writes (by decide) : W3 m c (Proc.devRef .tc main_arg14) = W2 m c (Proc.devRef .tc main_arg14))).trans (W2_of_ne m c main_arg14 (by decide) : W2 m c (Proc.devRef .tc main_arg14) = W1 m c (Proc.devRef .tc main_arg14))).trans (StableHlo.after_of_writes_sub GenP.hostOps0 _ GenP.hostOps0_writes (by decide) : W1 m c (Proc.devRef .tc main_arg14) = W0 m c (Proc.devRef .tc main_arg14)))
  have e2 : V19 m c (Pipeline.arrRef spec9 2) = rowK A15 := (host9_v55 (W18 m c)).trans (congrArg rowK (show W18 m c (Proc.devRef .tc main_arg15) = X15 m c from ((((((((((((((((((W18_of_ne m c main_arg15 (by decide) : W18 m c (Proc.devRef .tc main_arg15) = W17 m c (Proc.devRef .tc main_arg15))).trans (StableHlo.after_of_writes_sub GenP.hostOps8 _ GenP.hostOps8_writes (by decide) : W17 m c (Proc.devRef .tc main_arg15) = W16 m c (Proc.devRef .tc main_arg15))).trans (W16_of_ne m c main_arg15 (by decide) : W16 m c (Proc.devRef .tc main_arg15) = W15 m c (Proc.devRef .tc main_arg15))).trans (StableHlo.after_of_writes_sub GenP.hostOps7 _ GenP.hostOps7_writes (by decide) : W15 m c (Proc.devRef .tc main_arg15) = W14 m c (Proc.devRef .tc main_arg15))).trans (W14_of_ne m c main_arg15 (by decide) : W14 m c (Proc.devRef .tc main_arg15) = W13 m c (Proc.devRef .tc main_arg15))).trans (StableHlo.after_of_writes_sub GenP.hostOps6 _ GenP.hostOps6_writes (by decide) : W13 m c (Proc.devRef .tc main_arg15) = W12 m c (Proc.devRef .tc main_arg15))).trans (W12_of_ne m c main_arg15 (by decide) : W12 m c (Proc.devRef .tc main_arg15) = W11 m c (Proc.devRef .tc main_arg15))).trans (StableHlo.after_of_writes_sub GenP.hostOps5 _ GenP.hostOps5_writes (by decide) : W11 m c (Proc.devRef .tc main_arg15) = W10 m c (Proc.devRef .tc main_arg15))).trans (W10_of_ne m c main_arg15 (by decide) : W10 m c (Proc.devRef .tc main_arg15) = W9 m c (Proc.devRef .tc main_arg15))).trans (StableHlo.after_of_writes_sub GenP.hostOps4 _ GenP.hostOps4_writes (by decide) : W9 m c (Proc.devRef .tc main_arg15) = W8 m c (Proc.devRef .tc main_arg15))).trans (W8_of_ne m c main_arg15 (by decide) : W8 m c (Proc.devRef .tc main_arg15) = W7 m c (Proc.devRef .tc main_arg15))).trans (StableHlo.after_of_writes_sub GenP.hostOps3 _ GenP.hostOps3_writes (by decide) : W7 m c (Proc.devRef .tc main_arg15) = W6 m c (Proc.devRef .tc main_arg15))).trans (W6_of_ne m c main_arg15 (by decide) : W6 m c (Proc.devRef .tc main_arg15) = W5 m c (Proc.devRef .tc main_arg15))).trans (StableHlo.after_of_writes_sub GenP.hostOps2 _ GenP.hostOps2_writes (by decide) : W5 m c (Proc.devRef .tc main_arg15) = W4 m c (Proc.devRef .tc main_arg15))).trans (W4_of_ne m c main_arg15 (by decide) : W4 m c (Proc.devRef .tc main_arg15) = W3 m c (Proc.devRef .tc main_arg15))).trans (StableHlo.after_of_writes_sub GenP.hostOps1 _ GenP.hostOps1_writes (by decide) : W3 m c (Proc.devRef .tc main_arg15) = W2 m c (Proc.devRef .tc main_arg15))).trans (W2_of_ne m c main_arg15 (by decide) : W2 m c (Proc.devRef .tc main_arg15) = W1 m c (Proc.devRef .tc main_arg15))).trans (StableHlo.after_of_writes_sub GenP.hostOps0 _ GenP.hostOps0_writes (by decide) : W1 m c (Proc.devRef .tc main_arg15) = W0 m c (Proc.devRef .tc main_arg15))))
  have e3 : V19 m c (Pipeline.arrRef spec9 3) = A16 := (show W19 m c (Proc.devRef .tc main_arg16) = X16 m c from (((((((((((((((((((StableHlo.after_of_writes_sub GenP.hostOps9 _ GenP.hostOps9_writes (by decide) : W19 m c (Proc.devRef .tc main_arg16) = W18 m c (Proc.devRef .tc main_arg16))).trans (W18_of_ne m c main_arg16 (by decide) : W18 m c (Proc.devRef .tc main_arg16) = W17 m c (Proc.devRef .tc main_arg16))).trans (StableHlo.after_of_writes_sub GenP.hostOps8 _ GenP.hostOps8_writes (by decide) : W17 m c (Proc.devRef .tc main_arg16) = W16 m c (Proc.devRef .tc main_arg16))).trans (W16_of_ne m c main_arg16 (by decide) : W16 m c (Proc.devRef .tc main_arg16) = W15 m c (Proc.devRef .tc main_arg16))).trans (StableHlo.after_of_writes_sub GenP.hostOps7 _ GenP.hostOps7_writes (by decide) : W15 m c (Proc.devRef .tc main_arg16) = W14 m c (Proc.devRef .tc main_arg16))).trans (W14_of_ne m c main_arg16 (by decide) : W14 m c (Proc.devRef .tc main_arg16) = W13 m c (Proc.devRef .tc main_arg16))).trans (StableHlo.after_of_writes_sub GenP.hostOps6 _ GenP.hostOps6_writes (by decide) : W13 m c (Proc.devRef .tc main_arg16) = W12 m c (Proc.devRef .tc main_arg16))).trans (W12_of_ne m c main_arg16 (by decide) : W12 m c (Proc.devRef .tc main_arg16) = W11 m c (Proc.devRef .tc main_arg16))).trans (StableHlo.after_of_writes_sub GenP.hostOps5 _ GenP.hostOps5_writes (by decide) : W11 m c (Proc.devRef .tc main_arg16) = W10 m c (Proc.devRef .tc main_arg16))).trans (W10_of_ne m c main_arg16 (by decide) : W10 m c (Proc.devRef .tc main_arg16) = W9 m c (Proc.devRef .tc main_arg16))).trans (StableHlo.after_of_writes_sub GenP.hostOps4 _ GenP.hostOps4_writes (by decide) : W9 m c (Proc.devRef .tc main_arg16) = W8 m c (Proc.devRef .tc main_arg16))).trans (W8_of_ne m c main_arg16 (by decide) : W8 m c (Proc.devRef .tc main_arg16) = W7 m c (Proc.devRef .tc main_arg16))).trans (StableHlo.after_of_writes_sub GenP.hostOps3 _ GenP.hostOps3_writes (by decide) : W7 m c (Proc.devRef .tc main_arg16) = W6 m c (Proc.devRef .tc main_arg16))).trans (W6_of_ne m c main_arg16 (by decide) : W6 m c (Proc.devRef .tc main_arg16) = W5 m c (Proc.devRef .tc main_arg16))).trans (StableHlo.after_of_writes_sub GenP.hostOps2 _ GenP.hostOps2_writes (by decide) : W5 m c (Proc.devRef .tc main_arg16) = W4 m c (Proc.devRef .tc main_arg16))).trans (W4_of_ne m c main_arg16 (by decide) : W4 m c (Proc.devRef .tc main_arg16) = W3 m c (Proc.devRef .tc main_arg16))).trans (StableHlo.after_of_writes_sub GenP.hostOps1 _ GenP.hostOps1_writes (by decide) : W3 m c (Proc.devRef .tc main_arg16) = W2 m c (Proc.devRef .tc main_arg16))).trans (W2_of_ne m c main_arg16 (by decide) : W2 m c (Proc.devRef .tc main_arg16) = W1 m c (Proc.devRef .tc main_arg16))).trans (StableHlo.after_of_writes_sub GenP.hostOps0 _ GenP.hostOps0_writes (by decide) : W1 m c (Proc.devRef .tc main_arg16) = W0 m c (Proc.devRef .tc main_arg16)))
  have e4 : V19 m c (Pipeline.arrRef spec9 4) = rowK40 A17 := (host9_v56 (W18 m c)).trans (congrArg rowK40 (show W18 m c (Proc.devRef .tc main_arg17) = X17 m c from ((((((((((((((((((W18_of_ne m c main_arg17 (by decide) : W18 m c (Proc.devRef .tc main_arg17) = W17 m c (Proc.devRef .tc main_arg17))).trans (StableHlo.after_of_writes_sub GenP.hostOps8 _ GenP.hostOps8_writes (by decide) : W17 m c (Proc.devRef .tc main_arg17) = W16 m c (Proc.devRef .tc main_arg17))).trans (W16_of_ne m c main_arg17 (by decide) : W16 m c (Proc.devRef .tc main_arg17) = W15 m c (Proc.devRef .tc main_arg17))).trans (StableHlo.after_of_writes_sub GenP.hostOps7 _ GenP.hostOps7_writes (by decide) : W15 m c (Proc.devRef .tc main_arg17) = W14 m c (Proc.devRef .tc main_arg17))).trans (W14_of_ne m c main_arg17 (by decide) : W14 m c (Proc.devRef .tc main_arg17) = W13 m c (Proc.devRef .tc main_arg17))).trans (StableHlo.after_of_writes_sub GenP.hostOps6 _ GenP.hostOps6_writes (by decide) : W13 m c (Proc.devRef .tc main_arg17) = W12 m c (Proc.devRef .tc main_arg17))).trans (W12_of_ne m c main_arg17 (by decide) : W12 m c (Proc.devRef .tc main_arg17) = W11 m c (Proc.devRef .tc main_arg17))).trans (StableHlo.after_of_writes_sub GenP.hostOps5 _ GenP.hostOps5_writes (by decide) : W11 m c (Proc.devRef .tc main_arg17) = W10 m c (Proc.devRef .tc main_arg17))).trans (W10_of_ne m c main_arg17 (by decide) : W10 m c (Proc.devRef .tc main_arg17) = W9 m c (Proc.devRef .tc main_arg17))).trans (StableHlo.after_of_writes_sub GenP.hostOps4 _ GenP.hostOps4_writes (by decide) : W9 m c (Proc.devRef .tc main_arg17) = W8 m c (Proc.devRef .tc main_arg17))).trans (W8_of_ne m c main_arg17 (by decide) : W8 m c (Proc.devRef .tc main_arg17) = W7 m c (Proc.devRef .tc main_arg17))).trans (StableHlo.after_of_writes_sub GenP.hostOps3 _ GenP.hostOps3_writes (by decide) : W7 m c (Proc.devRef .tc main_arg17) = W6 m c (Proc.devRef .tc main_arg17))).trans (W6_of_ne m c main_arg17 (by decide) : W6 m c (Proc.devRef .tc main_arg17) = W5 m c (Proc.devRef .tc main_arg17))).trans (StableHlo.after_of_writes_sub GenP.hostOps2 _ GenP.hostOps2_writes (by decide) : W5 m c (Proc.devRef .tc main_arg17) = W4 m c (Proc.devRef .tc main_arg17))).trans (W4_of_ne m c main_arg17 (by decide) : W4 m c (Proc.devRef .tc main_arg17) = W3 m c (Proc.devRef .tc main_arg17))).trans (StableHlo.after_of_writes_sub GenP.hostOps1 _ GenP.hostOps1_writes (by decide) : W3 m c (Proc.devRef .tc main_arg17) = W2 m c (Proc.devRef .tc main_arg17))).trans (W2_of_ne m c main_arg17 (by decide) : W2 m c (Proc.devRef .tc main_arg17) = W1 m c (Proc.devRef .tc main_arg17))).trans (StableHlo.after_of_writes_sub GenP.hostOps0 _ GenP.hostOps0_writes (by decide) : W1 m c (Proc.devRef .tc main_arg17) = W0 m c (Proc.devRef .tc main_arg17))))
  funext i
  obtain ⟨g, a, rfl⟩ : ∃ (g : Fin 64) (a : Fin 40), i = ix2 g a := ⟨i 0, i 1, eq_ix2 i⟩
  have es : W21 m c (Proc.devRef .tc main_v58) = sliceK (W20 m c (Proc.devRef .tc main_v57)) := host10_v58 (W20 m c)
  rw [es, sliceK_apply]
  rw [show W20 m c (Proc.devRef .tc main_v57) = (dat9 (V19 m) c).arrAt 5 cfg9.N from W20_arr m c 5]
  show _ = headR (poolR A3 H3) A14 A15 A16 A17 (ix2 g a)
  refine Cert.Bridge.head_rows (poolR A3 H3) A14 A15 A16 A17 (W18 m c (Proc.devRef .tc main_v54)) (rowK A15) (rowK40 A17) _
    (fun g p => rows_v54 m c hr g p) (fun q => rowK_apply _ q) (fun a => rowK40_apply _ a) (fun g a => ?_) g a
  have key := mlp9_value (V19 m) c g a
  rw [e0, e1, e2, e3, e4] at key
  exact key

/-- The same from the precondition: the graph ids it bounds are what the one-hot selection needs. -/
theorem kernel_value (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.KernelIdeal.Hand.W21 (F := Ideal) m c (Proc.devRef .tc Cert.KernelIdeal.main_v58) =
      Cert.ReferenceIdeal.RefValue.refR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) :=
  kernel_value_at m c (fun r => Cert.Proof.PreDecode.ids_range m hpre c r)

end Cert.KernelIdeal.Hand

end
-- ==== Proof.lean ====
/-
  The certificate's five claims, assembled from the modules that prove them.

  The programs. The kernel program computes a three-layer graph network over 50000 nodes in 64 graphs with 128
  features, followed by a two-layer head. Pooling a [50000, 128] feature array by graph is done by one kernel as a
  product with the one-hot matrix of the graph ids, accumulated over 25 blocks of 2000 nodes into a [128, 128] table
  of which the first 64 rows matter; a node update `relu ((h + agg + table[ids]) · W + b)` is done by a second kernel,
  block by block, the table row again selected by a one-hot product; the head `relu (hg · W1 + b1) · W2 + b2` is a third
  kernel of one step; between the kernels the program reshapes the id vectors and biases, adds the pooled context, and
  aggregates neighbours over the 400000 edges by a gather and a scatter-add. The reference computes the same network
  with scatter-adds for the pooling and a gather for the table lookup.

  The frames. Each program terminates without fault on every fair execution and leaves its eighteen arguments
  unchanged: every kernel call is run through its pipeline (fetches, body, flush), every block it touches lies inside
  its arrays, and the stretches of array operations between the calls write only their own results.

  The values. At the ideal instance the operations are exact on the extended reals and the narrowing of the matrix
  operands is the identity. Under the precondition every graph id lies in [0, 64), so a one-hot row has its single 1 at
  the id: the one-hot product with the features is the sum of the feature rows of each graph — the reference's
  scatter-add into zeros, read at a row below 64 — and the one-hot product with a table is the table's row at the id —
  the reference's gather. The accumulation over the 25 blocks is the sum over all 50000 nodes split by block. With the
  neighbour aggregation the same function on both sides, each layer's output agrees elementwise, hence the pooled final
  features, the head, and the [64, 40] result: the first 64 rows of the kernel's [128, 40] head output. The programs'
  idealization rewrote no operation, so the preservation claim is trivial.
-/
import proofs.«170580_j11665131176635_1_alg».proof.Defs
import proofs.«170580_j11665131176635_1_alg».proof.Proof.Gen.Kernel
import proofs.«170580_j11665131176635_1_alg».proof.Proof.Gen.KernelIdeal
import proofs.«170580_j11665131176635_1_alg».proof.Proof.Gen.ReferenceIdeal
import proofs.«170580_j11665131176635_1_alg».proof.Proof.Gen.Pre_finite_inputs
import proofs.«170580_j11665131176635_1_alg».proof.Proof.BKFrame
import proofs.«170580_j11665131176635_1_alg».proof.Proof.KFrame
import proofs.«170580_j11665131176635_1_alg».proof.Proof.RefFrame
import proofs.«170580_j11665131176635_1_alg».proof.Proof.Final
import proofs.«170580_j11665131176635_1_alg».proof.Proof.KValue

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ,
    fun m ρ _ => Cert.KernelIdeal.Hand.frame_all (F := Ideal) m ρ,
    Cert.ReferenceIdeal.RefValue.frame_ri,
    trivial,
    Cert.Proof.Final.algebraic_of Cert.KernelIdeal.Hand.kernel_value⟩

end Cert.Proof

end
